-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x56 : Shape := ⟨2, ![100000, 56]⟩
abbrev S56x2x128 : Shape := ⟨3, ![56, 2, 128]⟩
abbrev S_ : Shape := ⟨0, ![]⟩

class Facts : Prop where
  bcast_S_S56x2x128 : S_.BroadcastsInDim S56x2x128 (![] : Fin 0 → Fin S56x2x128.rank)
  reducesTo_S56x2x128_S_d0_1_2 : S56x2x128.ReducesTo [0, 1, 2] S_
  h_S_ : 0 < S_.numel
  bcast_S_S100000x56 : S_.BroadcastsInDim S100000x56 (![] : Fin 0 → Fin S100000x56.rank)
  reducesTo_S100000x56_S_d0_1 : S100000x56.ReducesTo [0, 1] S_

variable [Facts]

def fn {F : FTy → Type} [FloatOps F] (main_arg0 : IVec S100000x56 32) (main_arg1 : FVec F S56x2x128 .f32) : IVec S_ 1 :=
  let main_v0 : FVec F S56x2x128 .f32 := Host.absf main_arg1
  let main_cst : FVec F S_ .f32 := constant S_ .f32 0x7F800000#32
  let main_v1 : FVec F S56x2x128 .f32 := broadcastInDim S56x2x128 ![] bcast_S_S56x2x128 main_cst
  let main_v2 : IVec S56x2x128 1 := cmpf .olt main_v0 main_v1
  let main_c : IVec S_ 1 := constantI S_ 1 1#1
  let main_v3 : IVec S_ 1 := (fun x v => Host.reduce IntOp.andi x v reducesTo_S56x2x128_S_d0_1_2 h_S_) main_v2 main_c
  let main_c_0 : IVec S_ 32 := constantI S_ 32 0#32
  let main_v4 : IVec S100000x56 32 := broadcastInDim S100000x56 ![] bcast_S_S100000x56 main_c_0
  let main_v5 : IVec S100000x56 1 := cmpi .sge main_arg0 main_v4
  let main_c_1 : IVec S_ 32 := constantI S_ 32 1#32
  let main_v6 : IVec S100000x56 32 := broadcastInDim S100000x56 ![] bcast_S_S100000x56 main_c_1
  let main_v7 : IVec S100000x56 1 := cmpi .sle main_arg0 main_v6
  let main_v8 : IVec S100000x56 1 := andi main_v5 main_v7
  let main_c_2 : IVec S_ 1 := constantI S_ 1 1#1
  let main_v9 : IVec S_ 1 := (fun x v => Host.reduce IntOp.andi x v reducesTo_S100000x56_S_d0_1 h_S_) main_v8 main_c_2
  let main_v10 : IVec S_ 1 := andi main_v3 main_v9
  main_v10
-- ==== Kernel.lean ====
abbrev S100000x56 : Shape := ⟨2, ![100000, 56]⟩
abbrev S56x2x128 : Shape := ⟨3, ![56, 2, 128]⟩
abbrev S14x4x2x128 : Shape := ⟨4, ![14, 4, 2, 128]⟩
abbrev S16 : Shape := ⟨1, ![16]⟩
abbrev S_ : Shape := ⟨0, ![]⟩
abbrev S14x16x128 : Shape := ⟨3, ![14, 16, 128]⟩
abbrev S16x1 : Shape := ⟨2, ![16, 1]⟩
abbrev S16x2 : Shape := ⟨2, ![16, 2]⟩
abbrev S4000x56 : Shape := ⟨2, ![4000, 56]⟩
abbrev S224000 : Shape := ⟨1, ![224000]⟩
abbrev S28672 : Shape := ⟨1, ![28672]⟩
abbrev S512000 : Shape := ⟨1, ![512000]⟩
abbrev S4480 : Shape := ⟨1, ![4480]⟩
abbrev S10240 : Shape := ⟨1, ![10240]⟩
abbrev S2x56x128 : Shape := ⟨3, ![2, 56, 128]⟩
abbrev S100000x128 : Shape := ⟨2, ![100000, 128]⟩
abbrev S16000x56 : Shape := ⟨2, ![16000, 56]⟩
abbrev S16000x128 : Shape := ⟨2, ![16000, 128]⟩
abbrev S1x56x128 : Shape := ⟨3, ![1, 56, 128]⟩
abbrev S56x128 : Shape := ⟨2, ![56, 128]⟩
abbrev S128 : Shape := ⟨1, ![128]⟩
abbrev S1x128 : Shape := ⟨2, ![1, 128]⟩
abbrev S4000x128 : Shape := ⟨2, ![4000, 128]⟩

abbrev nBuf : Table → Nat
  | .hbm => 100
  | .local .tc .vmem => 5
  | .local .scVector .vmem => 3
  | _ => 0

abbrev bufTy : (tb : Table) → Fin (nBuf tb) → BufTy
  | .hbm, ⟨0, _⟩ => ⟨S100000x56, .i32⟩
  | .hbm, ⟨1, _⟩ => ⟨S56x2x128, .f32⟩
  | .hbm, ⟨2, _⟩ => ⟨S14x4x2x128, .f32⟩
  | .hbm, ⟨3, _⟩ => ⟨S16, .i32⟩
  | .hbm, ⟨4, _⟩ => ⟨S_, .f32⟩
  | .hbm, ⟨5, _⟩ => ⟨S14x16x128, .f32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i1⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S16x1, .i32⟩
  | .hbm, ⟨23, _⟩ => ⟨S16x1, .i32⟩
  | .hbm, ⟨24, _⟩ => ⟨S16x2, .i32⟩
  | .hbm, ⟨25, _⟩ => ⟨S14x16x128, .f32⟩
  | .hbm, ⟨26, _⟩ => ⟨S14x16x128, .f32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S_, .i32⟩
  | .hbm, ⟨34, _⟩ => ⟨S16, .i32⟩
  | .hbm, ⟨35, _⟩ => ⟨S16, .i1⟩
  | .hbm, ⟨36, _⟩ => ⟨S_, .i32⟩
  | .hbm, ⟨37, _⟩ => ⟨S16, .i32⟩
  | .hbm, ⟨38, _⟩ => ⟨S16, .i32⟩
  | .hbm, ⟨39, _⟩ => ⟨S16, .i32⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S16x1, .i32⟩
  | .hbm, ⟨44, _⟩ => ⟨S16x1, .i32⟩
  | .hbm, ⟨45, _⟩ => ⟨S16x2, .i32⟩
  | .hbm, ⟨46, _⟩ => ⟨S14x16x128, .f32⟩
  | .hbm, ⟨47, _⟩ => ⟨S14x16x128, .f32⟩
  | .hbm, ⟨48, _⟩ => ⟨S_, .i32⟩
  | .hbm, ⟨49, _⟩ => ⟨S16, .i32⟩
  | .hbm, ⟨50, _⟩ => ⟨S16, .i32⟩
  | .hbm, ⟨51, _⟩ => ⟨S_, .i32⟩
  | .hbm, ⟨52, _⟩ => ⟨S16, .i32⟩
  | .hbm, ⟨53, _⟩ => ⟨S16, .i32⟩
  | .hbm, ⟨54, _⟩ => ⟨S_, .i32⟩
  | .hbm, ⟨55, _⟩ => ⟨S16, .i32⟩
  | .hbm, ⟨56, _⟩ => ⟨S16, .i1⟩
  | .hbm, ⟨57, _⟩ => ⟨S_, .i32⟩
  | .hbm, ⟨58, _⟩ => ⟨S16, .i32⟩
  | .hbm, ⟨59, _⟩ => ⟨S16, .i32⟩
  | .hbm, ⟨60, _⟩ => ⟨S16, .i32⟩
  | .hbm, ⟨61, _⟩ => ⟨S_, .i32⟩
  | .hbm, ⟨62, _⟩ => ⟨S16, .i32⟩
  | .hbm, ⟨63, _⟩ => ⟨S16, .i32⟩
  | .hbm, ⟨64, _⟩ => ⟨S16x1, .i32⟩
  | .hbm, ⟨65, _⟩ => ⟨S16x1, .i32⟩
  | .hbm, ⟨66, _⟩ => ⟨S16x2, .i32⟩
  | .hbm, ⟨67, _⟩ => ⟨S14x16x128, .f32⟩
  | .hbm, ⟨68, _⟩ => ⟨S14x16x128, .f32⟩
  | .hbm, ⟨69, _⟩ => ⟨S_, .i32⟩
  | .hbm, ⟨70, _⟩ => ⟨S16, .i32⟩
  | .hbm, ⟨71, _⟩ => ⟨S16, .i32⟩
  | .hbm, ⟨72, _⟩ => ⟨S_, .i32⟩
  | .hbm, ⟨73, _⟩ => ⟨S16, .i32⟩
  | .hbm, ⟨74, _⟩ => ⟨S16, .i32⟩
  | .hbm, ⟨75, _⟩ => ⟨S_, .i32⟩
  | .hbm, ⟨76, _⟩ => ⟨S16, .i32⟩
  | .hbm, ⟨77, _⟩ => ⟨S16, .i1⟩
  | .hbm, ⟨78, _⟩ => ⟨S_, .i32⟩
  | .hbm, ⟨79, _⟩ => ⟨S16, .i32⟩
  | .hbm, ⟨80, _⟩ => ⟨S16, .i32⟩
  | .hbm, ⟨81, _⟩ => ⟨S16, .i32⟩
  | .hbm, ⟨82, _⟩ => ⟨S_, .i32⟩
  | .hbm, ⟨83, _⟩ => ⟨S16, .i32⟩
  | .hbm, ⟨84, _⟩ => ⟨S16, .i32⟩
  | .hbm, ⟨85, _⟩ => ⟨S16x1, .i32⟩
  | .hbm, ⟨86, _⟩ => ⟨S16x1, .i32⟩
  | .hbm, ⟨87, _⟩ => ⟨S16x2, .i32⟩
  | .hbm, ⟨88, _⟩ => ⟨S14x16x128, .f32⟩
  | .hbm, ⟨89, _⟩ => ⟨S14x16x128, .f32⟩
  | .hbm, ⟨90, _⟩ => ⟨S4000x56, .i32⟩
  | .hbm, ⟨91, _⟩ => ⟨S224000, .i32⟩
  | .hbm, ⟨92, _⟩ => ⟨S28672, .f32⟩
  | .hbm, ⟨93, _⟩ => ⟨S512000, .f32⟩
  | .hbm, ⟨94, _⟩ => ⟨S2x56x128, .f32⟩
  | .hbm, ⟨95, _⟩ => ⟨S100000x128, .f32⟩
  | .hbm, ⟨96, _⟩ => ⟨S4000x128, .f32⟩
  | .hbm, ⟨97, _⟩ => ⟨S_, .i32⟩
  | .hbm, ⟨98, _⟩ => ⟨S_, .i32⟩
  | .hbm, ⟨99, _⟩ => ⟨S100000x128, .f32⟩
  | .local .tc .vmem, ⟨0, _⟩ => ⟨S16000x56, .i32⟩
  | .local .tc .vmem, ⟨1, _⟩ => ⟨S16000x56, .i32⟩
  | .local .tc .vmem, ⟨2, _⟩ => ⟨S2x56x128, .f32⟩
  | .local .tc .vmem, ⟨3, _⟩ => ⟨S16000x128, .f32⟩
  | .local .tc .vmem, ⟨4, _⟩ => ⟨S16000x128, .f32⟩
  | .local .scVector .vmem, ⟨0, _⟩ => ⟨S4480, .i32⟩
  | .local .scVector .vmem, ⟨1, _⟩ => ⟨S10240, .f32⟩
  | .local .scVector .vmem, ⟨2, _⟩ => ⟨S28672, .f32⟩
  | _, _ => ⟨S100000x56, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_c_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_9 : Ref sig .tc := ⟨.hbm, 48, rfl⟩
abbrev main_v35 : Ref sig .tc := ⟨.hbm, 49, rfl⟩
abbrev main_v36 : Ref sig .tc := ⟨.hbm, 50, rfl⟩
abbrev main_c_10 : Ref sig .tc := ⟨.hbm, 51, rfl⟩
abbrev main_v37 : Ref sig .tc := ⟨.hbm, 52, rfl⟩
abbrev main_v38 : Ref sig .tc := ⟨.hbm, 53, rfl⟩
abbrev main_c_11 : Ref sig .tc := ⟨.hbm, 54, rfl⟩
abbrev main_v39 : Ref sig .tc := ⟨.hbm, 55, rfl⟩
abbrev main_v40 : Ref sig .tc := ⟨.hbm, 56, rfl⟩
abbrev main_c_12 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_13 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_14 : Ref sig .tc := ⟨.hbm, 69, rfl⟩
abbrev main_v51 : Ref sig .tc := ⟨.hbm, 70, rfl⟩
abbrev main_v52 : Ref sig .tc := ⟨.hbm, 71, rfl⟩
abbrev main_c_15 : Ref sig .tc := ⟨.hbm, 72, rfl⟩
abbrev main_v53 : Ref sig .tc := ⟨.hbm, 73, rfl⟩
abbrev main_v54 : Ref sig .tc := ⟨.hbm, 74, rfl⟩
abbrev main_c_16 : Ref sig .tc := ⟨.hbm, 75, rfl⟩
abbrev main_v55 : Ref sig .tc := ⟨.hbm, 76, rfl⟩
abbrev main_v56 : Ref sig .tc := ⟨.hbm, 77, rfl⟩
abbrev main_c_17 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_18 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_19 : Ref sig .tc := ⟨.hbm, 97, rfl⟩
abbrev main_c_20 : Ref sig .tc := ⟨.hbm, 98, rfl⟩
abbrev main_v74 : Ref sig .tc := ⟨.hbm, 99, rfl⟩
abbrev main_v68_scv : Ref sig .scVector := ⟨.hbm, 91, rfl⟩
abbrev main_v69_scv : Ref sig .scVector := ⟨.hbm, 92, rfl⟩
abbrev main_v70_scv : Ref sig .scVector := ⟨.hbm, 93, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_7 : BitVec 32 := 0#32
  let c50_i32 : BitVec 32 := 50#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v7 : BitVec 32 := Scalar.subi c50_i32 v1
  let c32_i32 : BitVec 32 := 32#32
  let v8 : BitVec 32 := Scalar.addi v7 c32_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_1 : BitVec 32 := 0#32
  let v13 : BitVec 1 := Scalar.cmpi .slt v9 c0_i32_1
  let v14 : BitVec 32 := Scalar.extui v13
  let v15 : BitVec 32 := Scalar.subi v12 v14
  let c32_i32_0 : BitVec 32 := 32#32
  let c0_i32_2 : BitVec 32 := 0#32
  let v16 : BitVec 1 := Scalar.cmpi .sgt c32_i32_0 c0_i32_2
  let v17 : BitVec 32 := Scalar.extui v16
  let c0_i32_3 : BitVec 32 := 0#32
  let v18 : BitVec 1 := Scalar.cmpi .slt c32_i32_0 c0_i32_3
  let v19 : BitVec 32 := Scalar.extui v18
  let v20 : BitVec 32 := Scalar.subi v17 v19
  let v21 : BitVec 1 := Scalar.cmpi .ne v15 v20
  let v22 : BitVec 32 := Scalar.remsi v9 c32_i32_0
  let c0_i32_4 : BitVec 32 := 0#32
  let v23 : BitVec 1 := Scalar.cmpi .ne v22 c0_i32_4
  let v24 : BitVec 1 := Scalar.andi v21 v23
  let v10 : BitVec 32 := Scalar.divsi v9 c32_i32_0
  let c1_i32_5 : BitVec 32 := 1#32
  let v25 : BitVec 32 := Scalar.subi v10 c1_i32_5
  let v26 : BitVec 32 := Scalar.select v24 v25 v10
  let v27 : BitVec 32 := Scalar.subi v26 c0_i32_7
  let c1_i32_8 : BitVec 32 := 1#32
  let v29 : BitVec 32 := Scalar.divsi v27 c1_i32_8
  let v30 : BitVec 32 := Scalar.muli v29 c1_i32_8
  let v31 : BitVec 32 := Scalar.addi c0_i32_7 v30
  let c1_i32_9 : BitVec 32 := 1#32
  ⟨c0_i32_7, v31, c1_i32_9⟩
def k0_off1 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1_i32_9 : BitVec 32 := 1#32
  let arg8 : BitVec 32 := Scf.iv c0_i32_7 c1_i32_9 k0_t1
  let c32_i32_11 : BitVec 32 := 32#32
  let v32 : BitVec 32 := Scalar.muli arg8 c32_i32_11
  let v33 : BitVec 32 := Scalar.addi v1 v32
  let c4480_i32 : BitVec 32 := 4480#32
  let v34 : BitVec 32 := Scalar.muli v33 c4480_i32
  ![v34.toNat]

def k0_chk1 (v36 : IVec S16 32) : Prop :=
  (∀ a x, ((![v36] : Fin 1 → IVec S16 32) a x).toNat < S4480.size a)
instance k0_chk1.dec : ∀ (v36 : IVec S16 32), Decidable (k0_chk1 v36) := fun v36 => decidable_of_iff' _ (Iff.of_eq (k0_chk1.eq_1 v36))
theorem k0_idx1_inb : ∀ (v36 : IVec S16 32) (k0_hw1 : k0_chk1 v36), ∀ a x, ((![v36] : Fin 1 → IVec S16 32) a x).toNat < S4480.size a := fun v36 k0_hw1 => k0_hw1

def k0_chk2 (v39 : IVec S16 32) : Prop :=
  (∀ a x, ((![v39] : Fin 1 → IVec S16 32) a x).toNat < S4480.size a)
instance k0_chk2.dec : ∀ (v39 : IVec S16 32), Decidable (k0_chk2 v39) := fun v39 => decidable_of_iff' _ (Iff.of_eq (k0_chk2.eq_1 v39))
theorem k0_idx2_inb : ∀ (v39 : IVec S16 32) (k0_hw2 : k0_chk2 v39), ∀ a x, ((![v39] : Fin 1 → IVec S16 32) a x).toNat < S4480.size a := fun v39 k0_hw2 => k0_hw2

def k0_chk3 (v45 : IVec S16 32) : Prop :=
  (∀ a x, ((![v45] : Fin 1 → IVec S16 32) a x).toNat < S4480.size a)
instance k0_chk3.dec : ∀ (v45 : IVec S16 32), Decidable (k0_chk3 v45) := fun v45 => decidable_of_iff' _ (Iff.of_eq (k0_chk3.eq_1 v45))
theorem k0_idx3_inb : ∀ (v45 : IVec S16 32) (k0_hw3 : k0_chk3 v45), ∀ a x, ((![v45] : Fin 1 → IVec S16 32) a x).toNat < S4480.size a := fun v45 k0_hw3 => k0_hw3

def k0_chk4 (v51 : IVec S16 32) : Prop :=
  (∀ a x, ((![v51] : Fin 1 → IVec S16 32) a x).toNat < S4480.size a)
instance k0_chk4.dec : ∀ (v51 : IVec S16 32), Decidable (k0_chk4 v51) := fun v51 => decidable_of_iff' _ (Iff.of_eq (k0_chk4.eq_1 v51))
theorem k0_idx4_inb : ∀ (v51 : IVec S16 32) (k0_hw4 : k0_chk4 v51), ∀ a x, ((![v51] : Fin 1 → IVec S16 32) a x).toNat < S4480.size a := fun v51 k0_hw4 => k0_hw4

def k0_chk5 (v61 : IVec S16 32) : Prop :=
  (∀ a x, ((![v61] : Fin 1 → IVec S16 32) a x).toNat < S4480.size a)
instance k0_chk5.dec : ∀ (v61 : IVec S16 32), Decidable (k0_chk5 v61) := fun v61 => decidable_of_iff' _ (Iff.of_eq (k0_chk5.eq_1 v61))
theorem k0_idx5_inb : ∀ (v61 : IVec S16 32) (k0_hw5 : k0_chk5 v61), ∀ a x, ((![v61] : Fin 1 → IVec S16 32) a x).toNat < S4480.size a := fun v61 k0_hw5 => k0_hw5

def k0_chk6 (v64 : IVec S16 32) : Prop :=
  (∀ a x, ((![v64] : Fin 1 → IVec S16 32) a x).toNat < S4480.size a)
instance k0_chk6.dec : ∀ (v64 : IVec S16 32), Decidable (k0_chk6 v64) := fun v64 => decidable_of_iff' _ (Iff.of_eq (k0_chk6.eq_1 v64))
theorem k0_idx6_inb : ∀ (v64 : IVec S16 32) (k0_hw6 : k0_chk6 v64), ∀ a x, ((![v64] : Fin 1 → IVec S16 32) a x).toNat < S4480.size a := fun v64 k0_hw6 => k0_hw6

def k0_chk7 (v70 : IVec S16 32) : Prop :=
  (∀ a x, ((![v70] : Fin 1 → IVec S16 32) a x).toNat < S4480.size a)
instance k0_chk7.dec : ∀ (v70 : IVec S16 32), Decidable (k0_chk7 v70) := fun v70 => decidable_of_iff' _ (Iff.of_eq (k0_chk7.eq_1 v70))
theorem k0_idx7_inb : ∀ (v70 : IVec S16 32) (k0_hw7 : k0_chk7 v70), ∀ a x, ((![v70] : Fin 1 → IVec S16 32) a x).toNat < S4480.size a := fun v70 k0_hw7 => k0_hw7

def k0_chk8 (v76 : IVec S16 32) : Prop :=
  (∀ a x, ((![v76] : Fin 1 → IVec S16 32) a x).toNat < S4480.size a)
instance k0_chk8.dec : ∀ (v76 : IVec S16 32), Decidable (k0_chk8 v76) := fun v76 => decidable_of_iff' _ (Iff.of_eq (k0_chk8.eq_1 v76))
theorem k0_idx8_inb : ∀ (v76 : IVec S16 32) (k0_hw8 : k0_chk8 v76), ∀ a x, ((![v76] : Fin 1 → IVec S16 32) a x).toNat < S4480.size a := fun v76 k0_hw8 => k0_hw8

def k0_chk9 (v86 : IVec S16 32) : Prop :=
  (∀ a x, ((![v86] : Fin 1 → IVec S16 32) a x).toNat < S4480.size a)
instance k0_chk9.dec : ∀ (v86 : IVec S16 32), Decidable (k0_chk9 v86) := fun v86 => decidable_of_iff' _ (Iff.of_eq (k0_chk9.eq_1 v86))
theorem k0_idx9_inb : ∀ (v86 : IVec S16 32) (k0_hw9 : k0_chk9 v86), ∀ a x, ((![v86] : Fin 1 → IVec S16 32) a x).toNat < S4480.size a := fun v86 k0_hw9 => k0_hw9

def k0_chk10 (v89 : IVec S16 32) : Prop :=
  (∀ a x, ((![v89] : Fin 1 → IVec S16 32) a x).toNat < S4480.size a)
instance k0_chk10.dec : ∀ (v89 : IVec S16 32), Decidable (k0_chk10 v89) := fun v89 => decidable_of_iff' _ (Iff.of_eq (k0_chk10.eq_1 v89))
theorem k0_idx10_inb : ∀ (v89 : IVec S16 32) (k0_hw10 : k0_chk10 v89), ∀ a x, ((![v89] : Fin 1 → IVec S16 32) a x).toNat < S4480.size a := fun v89 k0_hw10 => k0_hw10

def k0_chk11 (v95 : IVec S16 32) : Prop :=
  (∀ a x, ((![v95] : Fin 1 → IVec S16 32) a x).toNat < S4480.size a)
instance k0_chk11.dec : ∀ (v95 : IVec S16 32), Decidable (k0_chk11 v95) := fun v95 => decidable_of_iff' _ (Iff.of_eq (k0_chk11.eq_1 v95))
theorem k0_idx11_inb : ∀ (v95 : IVec S16 32) (k0_hw11 : k0_chk11 v95), ∀ a x, ((![v95] : Fin 1 → IVec S16 32) a x).toNat < S4480.size a := fun v95 k0_hw11 => k0_hw11

def k0_chk12 (v101 : IVec S16 32) : Prop :=
  (∀ a x, ((![v101] : Fin 1 → IVec S16 32) a x).toNat < S4480.size a)
instance k0_chk12.dec : ∀ (v101 : IVec S16 32), Decidable (k0_chk12 v101) := fun v101 => decidable_of_iff' _ (Iff.of_eq (k0_chk12.eq_1 v101))
theorem k0_idx12_inb : ∀ (v101 : IVec S16 32) (k0_hw12 : k0_chk12 v101), ∀ a x, ((![v101] : Fin 1 → IVec S16 32) a x).toNat < S4480.size a := fun v101 k0_hw12 => k0_hw12

def k0_chk13 (v111 : IVec S16 32) : Prop :=
  (∀ a x, ((![v111] : Fin 1 → IVec S16 32) a x).toNat < S4480.size a)
instance k0_chk13.dec : ∀ (v111 : IVec S16 32), Decidable (k0_chk13 v111) := fun v111 => decidable_of_iff' _ (Iff.of_eq (k0_chk13.eq_1 v111))
theorem k0_idx13_inb : ∀ (v111 : IVec S16 32) (k0_hw13 : k0_chk13 v111), ∀ a x, ((![v111] : Fin 1 → IVec S16 32) a x).toNat < S4480.size a := fun v111 k0_hw13 => k0_hw13

def k0_chk14 (v114 : IVec S16 32) : Prop :=
  (∀ a x, ((![v114] : Fin 1 → IVec S16 32) a x).toNat < S4480.size a)
instance k0_chk14.dec : ∀ (v114 : IVec S16 32), Decidable (k0_chk14 v114) := fun v114 => decidable_of_iff' _ (Iff.of_eq (k0_chk14.eq_1 v114))
theorem k0_idx14_inb : ∀ (v114 : IVec S16 32) (k0_hw14 : k0_chk14 v114), ∀ a x, ((![v114] : Fin 1 → IVec S16 32) a x).toNat < S4480.size a := fun v114 k0_hw14 => k0_hw14

def k0_chk15 (v120 : IVec S16 32) : Prop :=
  (∀ a x, ((![v120] : Fin 1 → IVec S16 32) a x).toNat < S4480.size a)
instance k0_chk15.dec : ∀ (v120 : IVec S16 32), Decidable (k0_chk15 v120) := fun v120 => decidable_of_iff' _ (Iff.of_eq (k0_chk15.eq_1 v120))
theorem k0_idx15_inb : ∀ (v120 : IVec S16 32) (k0_hw15 : k0_chk15 v120), ∀ a x, ((![v120] : Fin 1 → IVec S16 32) a x).toNat < S4480.size a := fun v120 k0_hw15 => k0_hw15

def k0_chk16 (v126 : IVec S16 32) : Prop :=
  (∀ a x, ((![v126] : Fin 1 → IVec S16 32) a x).toNat < S4480.size a)
instance k0_chk16.dec : ∀ (v126 : IVec S16 32), Decidable (k0_chk16 v126) := fun v126 => decidable_of_iff' _ (Iff.of_eq (k0_chk16.eq_1 v126))
theorem k0_idx16_inb : ∀ (v126 : IVec S16 32) (k0_hw16 : k0_chk16 v126), ∀ a x, ((![v126] : Fin 1 → IVec S16 32) a x).toNat < S4480.size a := fun v126 k0_hw16 => k0_hw16

def k0_chk17 (v136 : IVec S16 32) : Prop :=
  (∀ a x, ((![v136] : Fin 1 → IVec S16 32) a x).toNat < S4480.size a)
instance k0_chk17.dec : ∀ (v136 : IVec S16 32), Decidable (k0_chk17 v136) := fun v136 => decidable_of_iff' _ (Iff.of_eq (k0_chk17.eq_1 v136))
theorem k0_idx17_inb : ∀ (v136 : IVec S16 32) (k0_hw17 : k0_chk17 v136), ∀ a x, ((![v136] : Fin 1 → IVec S16 32) a x).toNat < S4480.size a := fun v136 k0_hw17 => k0_hw17

def k0_chk18 (v139 : IVec S16 32) : Prop :=
  (∀ a x, ((![v139] : Fin 1 → IVec S16 32) a x).toNat < S4480.size a)
instance k0_chk18.dec : ∀ (v139 : IVec S16 32), Decidable (k0_chk18 v139) := fun v139 => decidable_of_iff' _ (Iff.of_eq (k0_chk18.eq_1 v139))
theorem k0_idx18_inb : ∀ (v139 : IVec S16 32) (k0_hw18 : k0_chk18 v139), ∀ a x, ((![v139] : Fin 1 → IVec S16 32) a x).toNat < S4480.size a := fun v139 k0_hw18 => k0_hw18

def k0_chk19 (v145 : IVec S16 32) : Prop :=
  (∀ a x, ((![v145] : Fin 1 → IVec S16 32) a x).toNat < S4480.size a)
instance k0_chk19.dec : ∀ (v145 : IVec S16 32), Decidable (k0_chk19 v145) := fun v145 => decidable_of_iff' _ (Iff.of_eq (k0_chk19.eq_1 v145))
theorem k0_idx19_inb : ∀ (v145 : IVec S16 32) (k0_hw19 : k0_chk19 v145), ∀ a x, ((![v145] : Fin 1 → IVec S16 32) a x).toNat < S4480.size a := fun v145 k0_hw19 => k0_hw19

def k0_chk20 (v151 : IVec S16 32) : Prop :=
  (∀ a x, ((![v151] : Fin 1 → IVec S16 32) a x).toNat < S4480.size a)
instance k0_chk20.dec : ∀ (v151 : IVec S16 32), Decidable (k0_chk20 v151) := fun v151 => decidable_of_iff' _ (Iff.of_eq (k0_chk20.eq_1 v151))
theorem k0_idx20_inb : ∀ (v151 : IVec S16 32) (k0_hw20 : k0_chk20 v151), ∀ a x, ((![v151] : Fin 1 → IVec S16 32) a x).toNat < S4480.size a := fun v151 k0_hw20 => k0_hw20

def k0_chk21 (v161 : IVec S16 32) : Prop :=
  (∀ a x, ((![v161] : Fin 1 → IVec S16 32) a x).toNat < S4480.size a)
instance k0_chk21.dec : ∀ (v161 : IVec S16 32), Decidable (k0_chk21 v161) := fun v161 => decidable_of_iff' _ (Iff.of_eq (k0_chk21.eq_1 v161))
theorem k0_idx21_inb : ∀ (v161 : IVec S16 32) (k0_hw21 : k0_chk21 v161), ∀ a x, ((![v161] : Fin 1 → IVec S16 32) a x).toNat < S4480.size a := fun v161 k0_hw21 => k0_hw21

def k0_chk22 (v164 : IVec S16 32) : Prop :=
  (∀ a x, ((![v164] : Fin 1 → IVec S16 32) a x).toNat < S4480.size a)
instance k0_chk22.dec : ∀ (v164 : IVec S16 32), Decidable (k0_chk22 v164) := fun v164 => decidable_of_iff' _ (Iff.of_eq (k0_chk22.eq_1 v164))
theorem k0_idx22_inb : ∀ (v164 : IVec S16 32) (k0_hw22 : k0_chk22 v164), ∀ a x, ((![v164] : Fin 1 → IVec S16 32) a x).toNat < S4480.size a := fun v164 k0_hw22 => k0_hw22

def k0_chk23 (v170 : IVec S16 32) : Prop :=
  (∀ a x, ((![v170] : Fin 1 → IVec S16 32) a x).toNat < S4480.size a)
instance k0_chk23.dec : ∀ (v170 : IVec S16 32), Decidable (k0_chk23 v170) := fun v170 => decidable_of_iff' _ (Iff.of_eq (k0_chk23.eq_1 v170))
theorem k0_idx23_inb : ∀ (v170 : IVec S16 32) (k0_hw23 : k0_chk23 v170), ∀ a x, ((![v170] : Fin 1 → IVec S16 32) a x).toNat < S4480.size a := fun v170 k0_hw23 => k0_hw23

def k0_chk24 (v176 : IVec S16 32) : Prop :=
  (∀ a x, ((![v176] : Fin 1 → IVec S16 32) a x).toNat < S4480.size a)
instance k0_chk24.dec : ∀ (v176 : IVec S16 32), Decidable (k0_chk24 v176) := fun v176 => decidable_of_iff' _ (Iff.of_eq (k0_chk24.eq_1 v176))
theorem k0_idx24_inb : ∀ (v176 : IVec S16 32) (k0_hw24 : k0_chk24 v176), ∀ a x, ((![v176] : Fin 1 → IVec S16 32) a x).toNat < S4480.size a := fun v176 k0_hw24 => k0_hw24

def k0_chk25 (v186 : IVec S16 32) : Prop :=
  (∀ a x, ((![v186] : Fin 1 → IVec S16 32) a x).toNat < S4480.size a)
instance k0_chk25.dec : ∀ (v186 : IVec S16 32), Decidable (k0_chk25 v186) := fun v186 => decidable_of_iff' _ (Iff.of_eq (k0_chk25.eq_1 v186))
theorem k0_idx25_inb : ∀ (v186 : IVec S16 32) (k0_hw25 : k0_chk25 v186), ∀ a x, ((![v186] : Fin 1 → IVec S16 32) a x).toNat < S4480.size a := fun v186 k0_hw25 => k0_hw25

def k0_chk26 (v189 : IVec S16 32) : Prop :=
  (∀ a x, ((![v189] : Fin 1 → IVec S16 32) a x).toNat < S4480.size a)
instance k0_chk26.dec : ∀ (v189 : IVec S16 32), Decidable (k0_chk26 v189) := fun v189 => decidable_of_iff' _ (Iff.of_eq (k0_chk26.eq_1 v189))
theorem k0_idx26_inb : ∀ (v189 : IVec S16 32) (k0_hw26 : k0_chk26 v189), ∀ a x, ((![v189] : Fin 1 → IVec S16 32) a x).toNat < S4480.size a := fun v189 k0_hw26 => k0_hw26

def k0_chk27 (v195 : IVec S16 32) : Prop :=
  (∀ a x, ((![v195] : Fin 1 → IVec S16 32) a x).toNat < S4480.size a)
instance k0_chk27.dec : ∀ (v195 : IVec S16 32), Decidable (k0_chk27 v195) := fun v195 => decidable_of_iff' _ (Iff.of_eq (k0_chk27.eq_1 v195))
theorem k0_idx27_inb : ∀ (v195 : IVec S16 32) (k0_hw27 : k0_chk27 v195), ∀ a x, ((![v195] : Fin 1 → IVec S16 32) a x).toNat < S4480.size a := fun v195 k0_hw27 => k0_hw27

def k0_chk28 (v201 : IVec S16 32) : Prop :=
  (∀ a x, ((![v201] : Fin 1 → IVec S16 32) a x).toNat < S4480.size a)
instance k0_chk28.dec : ∀ (v201 : IVec S16 32), Decidable (k0_chk28 v201) := fun v201 => decidable_of_iff' _ (Iff.of_eq (k0_chk28.eq_1 v201))
theorem k0_idx28_inb : ∀ (v201 : IVec S16 32) (k0_hw28 : k0_chk28 v201), ∀ a x, ((![v201] : Fin 1 → IVec S16 32) a x).toNat < S4480.size a := fun v201 k0_hw28 => k0_hw28

def k0_chk29 (v211 : IVec S16 32) : Prop :=
  (∀ a x, ((![v211] : Fin 1 → IVec S16 32) a x).toNat < S4480.size a)
instance k0_chk29.dec : ∀ (v211 : IVec S16 32), Decidable (k0_chk29 v211) := fun v211 => decidable_of_iff' _ (Iff.of_eq (k0_chk29.eq_1 v211))
theorem k0_idx29_inb : ∀ (v211 : IVec S16 32) (k0_hw29 : k0_chk29 v211), ∀ a x, ((![v211] : Fin 1 → IVec S16 32) a x).toNat < S4480.size a := fun v211 k0_hw29 => k0_hw29

def k0_chk30 (v214 : IVec S16 32) : Prop :=
  (∀ a x, ((![v214] : Fin 1 → IVec S16 32) a x).toNat < S4480.size a)
instance k0_chk30.dec : ∀ (v214 : IVec S16 32), Decidable (k0_chk30 v214) := fun v214 => decidable_of_iff' _ (Iff.of_eq (k0_chk30.eq_1 v214))
theorem k0_idx30_inb : ∀ (v214 : IVec S16 32) (k0_hw30 : k0_chk30 v214), ∀ a x, ((![v214] : Fin 1 → IVec S16 32) a x).toNat < S4480.size a := fun v214 k0_hw30 => k0_hw30

def k0_chk31 (v220 : IVec S16 32) : Prop :=
  (∀ a x, ((![v220] : Fin 1 → IVec S16 32) a x).toNat < S4480.size a)
instance k0_chk31.dec : ∀ (v220 : IVec S16 32), Decidable (k0_chk31 v220) := fun v220 => decidable_of_iff' _ (Iff.of_eq (k0_chk31.eq_1 v220))
theorem k0_idx31_inb : ∀ (v220 : IVec S16 32) (k0_hw31 : k0_chk31 v220), ∀ a x, ((![v220] : Fin 1 → IVec S16 32) a x).toNat < S4480.size a := fun v220 k0_hw31 => k0_hw31

def k0_chk32 (v226 : IVec S16 32) : Prop :=
  (∀ a x, ((![v226] : Fin 1 → IVec S16 32) a x).toNat < S4480.size a)
instance k0_chk32.dec : ∀ (v226 : IVec S16 32), Decidable (k0_chk32 v226) := fun v226 => decidable_of_iff' _ (Iff.of_eq (k0_chk32.eq_1 v226))
theorem k0_idx32_inb : ∀ (v226 : IVec S16 32) (k0_hw32 : k0_chk32 v226), ∀ a x, ((![v226] : Fin 1 → IVec S16 32) a x).toNat < S4480.size a := fun v226 k0_hw32 => k0_hw32

def k0_chk33 (v236 : IVec S16 32) : Prop :=
  (∀ a x, ((![v236] : Fin 1 → IVec S16 32) a x).toNat < S4480.size a)
instance k0_chk33.dec : ∀ (v236 : IVec S16 32), Decidable (k0_chk33 v236) := fun v236 => decidable_of_iff' _ (Iff.of_eq (k0_chk33.eq_1 v236))
theorem k0_idx33_inb : ∀ (v236 : IVec S16 32) (k0_hw33 : k0_chk33 v236), ∀ a x, ((![v236] : Fin 1 → IVec S16 32) a x).toNat < S4480.size a := fun v236 k0_hw33 => k0_hw33

def k0_chk34 (v239 : IVec S16 32) : Prop :=
  (∀ a x, ((![v239] : Fin 1 → IVec S16 32) a x).toNat < S4480.size a)
instance k0_chk34.dec : ∀ (v239 : IVec S16 32), Decidable (k0_chk34 v239) := fun v239 => decidable_of_iff' _ (Iff.of_eq (k0_chk34.eq_1 v239))
theorem k0_idx34_inb : ∀ (v239 : IVec S16 32) (k0_hw34 : k0_chk34 v239), ∀ a x, ((![v239] : Fin 1 → IVec S16 32) a x).toNat < S4480.size a := fun v239 k0_hw34 => k0_hw34

def k0_chk35 (v245 : IVec S16 32) : Prop :=
  (∀ a x, ((![v245] : Fin 1 → IVec S16 32) a x).toNat < S4480.size a)
instance k0_chk35.dec : ∀ (v245 : IVec S16 32), Decidable (k0_chk35 v245) := fun v245 => decidable_of_iff' _ (Iff.of_eq (k0_chk35.eq_1 v245))
theorem k0_idx35_inb : ∀ (v245 : IVec S16 32) (k0_hw35 : k0_chk35 v245), ∀ a x, ((![v245] : Fin 1 → IVec S16 32) a x).toNat < S4480.size a := fun v245 k0_hw35 => k0_hw35

def k0_chk36 (v251 : IVec S16 32) : Prop :=
  (∀ a x, ((![v251] : Fin 1 → IVec S16 32) a x).toNat < S4480.size a)
instance k0_chk36.dec : ∀ (v251 : IVec S16 32), Decidable (k0_chk36 v251) := fun v251 => decidable_of_iff' _ (Iff.of_eq (k0_chk36.eq_1 v251))
theorem k0_idx36_inb : ∀ (v251 : IVec S16 32) (k0_hw36 : k0_chk36 v251), ∀ a x, ((![v251] : Fin 1 → IVec S16 32) a x).toNat < S4480.size a := fun v251 k0_hw36 => k0_hw36

def k0_chk37 (v261 : IVec S16 32) : Prop :=
  (∀ a x, ((![v261] : Fin 1 → IVec S16 32) a x).toNat < S4480.size a)
instance k0_chk37.dec : ∀ (v261 : IVec S16 32), Decidable (k0_chk37 v261) := fun v261 => decidable_of_iff' _ (Iff.of_eq (k0_chk37.eq_1 v261))
theorem k0_idx37_inb : ∀ (v261 : IVec S16 32) (k0_hw37 : k0_chk37 v261), ∀ a x, ((![v261] : Fin 1 → IVec S16 32) a x).toNat < S4480.size a := fun v261 k0_hw37 => k0_hw37

def k0_chk38 (v264 : IVec S16 32) : Prop :=
  (∀ a x, ((![v264] : Fin 1 → IVec S16 32) a x).toNat < S4480.size a)
instance k0_chk38.dec : ∀ (v264 : IVec S16 32), Decidable (k0_chk38 v264) := fun v264 => decidable_of_iff' _ (Iff.of_eq (k0_chk38.eq_1 v264))
theorem k0_idx38_inb : ∀ (v264 : IVec S16 32) (k0_hw38 : k0_chk38 v264), ∀ a x, ((![v264] : Fin 1 → IVec S16 32) a x).toNat < S4480.size a := fun v264 k0_hw38 => k0_hw38

def k0_chk39 (v270 : IVec S16 32) : Prop :=
  (∀ a x, ((![v270] : Fin 1 → IVec S16 32) a x).toNat < S4480.size a)
instance k0_chk39.dec : ∀ (v270 : IVec S16 32), Decidable (k0_chk39 v270) := fun v270 => decidable_of_iff' _ (Iff.of_eq (k0_chk39.eq_1 v270))
theorem k0_idx39_inb : ∀ (v270 : IVec S16 32) (k0_hw39 : k0_chk39 v270), ∀ a x, ((![v270] : Fin 1 → IVec S16 32) a x).toNat < S4480.size a := fun v270 k0_hw39 => k0_hw39

def k0_chk40 (v276 : IVec S16 32) : Prop :=
  (∀ a x, ((![v276] : Fin 1 → IVec S16 32) a x).toNat < S4480.size a)
instance k0_chk40.dec : ∀ (v276 : IVec S16 32), Decidable (k0_chk40 v276) := fun v276 => decidable_of_iff' _ (Iff.of_eq (k0_chk40.eq_1 v276))
theorem k0_idx40_inb : ∀ (v276 : IVec S16 32) (k0_hw40 : k0_chk40 v276), ∀ a x, ((![v276] : Fin 1 → IVec S16 32) a x).toNat < S4480.size a := fun v276 k0_hw40 => k0_hw40

def k0_chk41 (v286 : IVec S16 32) : Prop :=
  (∀ a x, ((![v286] : Fin 1 → IVec S16 32) a x).toNat < S4480.size a)
instance k0_chk41.dec : ∀ (v286 : IVec S16 32), Decidable (k0_chk41 v286) := fun v286 => decidable_of_iff' _ (Iff.of_eq (k0_chk41.eq_1 v286))
theorem k0_idx41_inb : ∀ (v286 : IVec S16 32) (k0_hw41 : k0_chk41 v286), ∀ a x, ((![v286] : Fin 1 → IVec S16 32) a x).toNat < S4480.size a := fun v286 k0_hw41 => k0_hw41

def k0_chk42 (v289 : IVec S16 32) : Prop :=
  (∀ a x, ((![v289] : Fin 1 → IVec S16 32) a x).toNat < S4480.size a)
instance k0_chk42.dec : ∀ (v289 : IVec S16 32), Decidable (k0_chk42 v289) := fun v289 => decidable_of_iff' _ (Iff.of_eq (k0_chk42.eq_1 v289))
theorem k0_idx42_inb : ∀ (v289 : IVec S16 32) (k0_hw42 : k0_chk42 v289), ∀ a x, ((![v289] : Fin 1 → IVec S16 32) a x).toNat < S4480.size a := fun v289 k0_hw42 => k0_hw42

def k0_chk43 (v295 : IVec S16 32) : Prop :=
  (∀ a x, ((![v295] : Fin 1 → IVec S16 32) a x).toNat < S4480.size a)
instance k0_chk43.dec : ∀ (v295 : IVec S16 32), Decidable (k0_chk43 v295) := fun v295 => decidable_of_iff' _ (Iff.of_eq (k0_chk43.eq_1 v295))
theorem k0_idx43_inb : ∀ (v295 : IVec S16 32) (k0_hw43 : k0_chk43 v295), ∀ a x, ((![v295] : Fin 1 → IVec S16 32) a x).toNat < S4480.size a := fun v295 k0_hw43 => k0_hw43

def k0_chk44 (v301 : IVec S16 32) : Prop :=
  (∀ a x, ((![v301] : Fin 1 → IVec S16 32) a x).toNat < S4480.size a)
instance k0_chk44.dec : ∀ (v301 : IVec S16 32), Decidable (k0_chk44 v301) := fun v301 => decidable_of_iff' _ (Iff.of_eq (k0_chk44.eq_1 v301))
theorem k0_idx44_inb : ∀ (v301 : IVec S16 32) (k0_hw44 : k0_chk44 v301), ∀ a x, ((![v301] : Fin 1 → IVec S16 32) a x).toNat < S4480.size a := fun v301 k0_hw44 => k0_hw44

def k0_chk45 (v311 : IVec S16 32) : Prop :=
  (∀ a x, ((![v311] : Fin 1 → IVec S16 32) a x).toNat < S4480.size a)
instance k0_chk45.dec : ∀ (v311 : IVec S16 32), Decidable (k0_chk45 v311) := fun v311 => decidable_of_iff' _ (Iff.of_eq (k0_chk45.eq_1 v311))
theorem k0_idx45_inb : ∀ (v311 : IVec S16 32) (k0_hw45 : k0_chk45 v311), ∀ a x, ((![v311] : Fin 1 → IVec S16 32) a x).toNat < S4480.size a := fun v311 k0_hw45 => k0_hw45

def k0_chk46 (v314 : IVec S16 32) : Prop :=
  (∀ a x, ((![v314] : Fin 1 → IVec S16 32) a x).toNat < S4480.size a)
instance k0_chk46.dec : ∀ (v314 : IVec S16 32), Decidable (k0_chk46 v314) := fun v314 => decidable_of_iff' _ (Iff.of_eq (k0_chk46.eq_1 v314))
theorem k0_idx46_inb : ∀ (v314 : IVec S16 32) (k0_hw46 : k0_chk46 v314), ∀ a x, ((![v314] : Fin 1 → IVec S16 32) a x).toNat < S4480.size a := fun v314 k0_hw46 => k0_hw46

def k0_chk47 (v320 : IVec S16 32) : Prop :=
  (∀ a x, ((![v320] : Fin 1 → IVec S16 32) a x).toNat < S4480.size a)
instance k0_chk47.dec : ∀ (v320 : IVec S16 32), Decidable (k0_chk47 v320) := fun v320 => decidable_of_iff' _ (Iff.of_eq (k0_chk47.eq_1 v320))
theorem k0_idx47_inb : ∀ (v320 : IVec S16 32) (k0_hw47 : k0_chk47 v320), ∀ a x, ((![v320] : Fin 1 → IVec S16 32) a x).toNat < S4480.size a := fun v320 k0_hw47 => k0_hw47

def k0_chk48 (v326 : IVec S16 32) : Prop :=
  (∀ a x, ((![v326] : Fin 1 → IVec S16 32) a x).toNat < S4480.size a)
instance k0_chk48.dec : ∀ (v326 : IVec S16 32), Decidable (k0_chk48 v326) := fun v326 => decidable_of_iff' _ (Iff.of_eq (k0_chk48.eq_1 v326))
theorem k0_idx48_inb : ∀ (v326 : IVec S16 32) (k0_hw48 : k0_chk48 v326), ∀ a x, ((![v326] : Fin 1 → IVec S16 32) a x).toNat < S4480.size a := fun v326 k0_hw48 => k0_hw48

def k0_chk49 (v336 : IVec S16 32) : Prop :=
  (∀ a x, ((![v336] : Fin 1 → IVec S16 32) a x).toNat < S4480.size a)
instance k0_chk49.dec : ∀ (v336 : IVec S16 32), Decidable (k0_chk49 v336) := fun v336 => decidable_of_iff' _ (Iff.of_eq (k0_chk49.eq_1 v336))
theorem k0_idx49_inb : ∀ (v336 : IVec S16 32) (k0_hw49 : k0_chk49 v336), ∀ a x, ((![v336] : Fin 1 → IVec S16 32) a x).toNat < S4480.size a := fun v336 k0_hw49 => k0_hw49

def k0_chk50 (v339 : IVec S16 32) : Prop :=
  (∀ a x, ((![v339] : Fin 1 → IVec S16 32) a x).toNat < S4480.size a)
instance k0_chk50.dec : ∀ (v339 : IVec S16 32), Decidable (k0_chk50 v339) := fun v339 => decidable_of_iff' _ (Iff.of_eq (k0_chk50.eq_1 v339))
theorem k0_idx50_inb : ∀ (v339 : IVec S16 32) (k0_hw50 : k0_chk50 v339), ∀ a x, ((![v339] : Fin 1 → IVec S16 32) a x).toNat < S4480.size a := fun v339 k0_hw50 => k0_hw50

def k0_chk51 (v345 : IVec S16 32) : Prop :=
  (∀ a x, ((![v345] : Fin 1 → IVec S16 32) a x).toNat < S4480.size a)
instance k0_chk51.dec : ∀ (v345 : IVec S16 32), Decidable (k0_chk51 v345) := fun v345 => decidable_of_iff' _ (Iff.of_eq (k0_chk51.eq_1 v345))
theorem k0_idx51_inb : ∀ (v345 : IVec S16 32) (k0_hw51 : k0_chk51 v345), ∀ a x, ((![v345] : Fin 1 → IVec S16 32) a x).toNat < S4480.size a := fun v345 k0_hw51 => k0_hw51

def k0_chk52 (v351 : IVec S16 32) : Prop :=
  (∀ a x, ((![v351] : Fin 1 → IVec S16 32) a x).toNat < S4480.size a)
instance k0_chk52.dec : ∀ (v351 : IVec S16 32), Decidable (k0_chk52 v351) := fun v351 => decidable_of_iff' _ (Iff.of_eq (k0_chk52.eq_1 v351))
theorem k0_idx52_inb : ∀ (v351 : IVec S16 32) (k0_hw52 : k0_chk52 v351), ∀ a x, ((![v351] : Fin 1 → IVec S16 32) a x).toNat < S4480.size a := fun v351 k0_hw52 => k0_hw52

def k0_chk53 (v361 : IVec S16 32) : Prop :=
  (∀ a x, ((![v361] : Fin 1 → IVec S16 32) a x).toNat < S4480.size a)
instance k0_chk53.dec : ∀ (v361 : IVec S16 32), Decidable (k0_chk53 v361) := fun v361 => decidable_of_iff' _ (Iff.of_eq (k0_chk53.eq_1 v361))
theorem k0_idx53_inb : ∀ (v361 : IVec S16 32) (k0_hw53 : k0_chk53 v361), ∀ a x, ((![v361] : Fin 1 → IVec S16 32) a x).toNat < S4480.size a := fun v361 k0_hw53 => k0_hw53

def k0_chk54 (v364 : IVec S16 32) : Prop :=
  (∀ a x, ((![v364] : Fin 1 → IVec S16 32) a x).toNat < S4480.size a)
instance k0_chk54.dec : ∀ (v364 : IVec S16 32), Decidable (k0_chk54 v364) := fun v364 => decidable_of_iff' _ (Iff.of_eq (k0_chk54.eq_1 v364))
theorem k0_idx54_inb : ∀ (v364 : IVec S16 32) (k0_hw54 : k0_chk54 v364), ∀ a x, ((![v364] : Fin 1 → IVec S16 32) a x).toNat < S4480.size a := fun v364 k0_hw54 => k0_hw54

def k0_chk55 (v370 : IVec S16 32) : Prop :=
  (∀ a x, ((![v370] : Fin 1 → IVec S16 32) a x).toNat < S4480.size a)
instance k0_chk55.dec : ∀ (v370 : IVec S16 32), Decidable (k0_chk55 v370) := fun v370 => decidable_of_iff' _ (Iff.of_eq (k0_chk55.eq_1 v370))
theorem k0_idx55_inb : ∀ (v370 : IVec S16 32) (k0_hw55 : k0_chk55 v370), ∀ a x, ((![v370] : Fin 1 → IVec S16 32) a x).toNat < S4480.size a := fun v370 k0_hw55 => k0_hw55

def k0_chk56 (v376 : IVec S16 32) : Prop :=
  (∀ a x, ((![v376] : Fin 1 → IVec S16 32) a x).toNat < S4480.size a)
instance k0_chk56.dec : ∀ (v376 : IVec S16 32), Decidable (k0_chk56 v376) := fun v376 => decidable_of_iff' _ (Iff.of_eq (k0_chk56.eq_1 v376))
theorem k0_idx56_inb : ∀ (v376 : IVec S16 32) (k0_hw56 : k0_chk56 v376), ∀ a x, ((![v376] : Fin 1 → IVec S16 32) a x).toNat < S4480.size a := fun v376 k0_hw56 => k0_hw56
@[reducible] def k0_t2_loop : Scf.Loop 32 :=
  let c0_i32_75 : BitVec 32 := 0#32
  let c128_i32_76 : BitVec 32 := 128#32
  let v385 : BitVec 32 := Scalar.addi c0_i32_75 c128_i32_76
  let c1_i32_77 : BitVec 32 := 1#32
  ⟨c0_i32_75, v385, c1_i32_77⟩

def k0_chk57 (v1795 : IVec S16 32) : Prop :=
  (∀ a x, ((![v1795] : Fin 1 → IVec S16 32) a x).toNat < S28672.size a)
instance k0_chk57.dec : ∀ (v1795 : IVec S16 32), Decidable (k0_chk57 v1795) := fun v1795 => decidable_of_iff' _ (Iff.of_eq (k0_chk57.eq_1 v1795))
theorem k0_idx57_inb : ∀ (v1795 : IVec S16 32) (k0_hw57 : k0_chk57 v1795), ∀ a x, ((![v1795] : Fin 1 → IVec S16 32) a x).toNat < S28672.size a := fun v1795 k0_hw57 => k0_hw57

def k0_chk58 (v1797 : IVec S16 32) : Prop :=
  (∀ a x, ((![v1797] : Fin 1 → IVec S16 32) a x).toNat < S28672.size a)
instance k0_chk58.dec : ∀ (v1797 : IVec S16 32), Decidable (k0_chk58 v1797) := fun v1797 => decidable_of_iff' _ (Iff.of_eq (k0_chk58.eq_1 v1797))
theorem k0_idx58_inb : ∀ (v1797 : IVec S16 32) (k0_hw58 : k0_chk58 v1797), ∀ a x, ((![v1797] : Fin 1 → IVec S16 32) a x).toNat < S28672.size a := fun v1797 k0_hw58 => k0_hw58

def k0_chk59 (v1799 : IVec S16 32) : Prop :=
  (∀ a x, ((![v1799] : Fin 1 → IVec S16 32) a x).toNat < S28672.size a)
instance k0_chk59.dec : ∀ (v1799 : IVec S16 32), Decidable (k0_chk59 v1799) := fun v1799 => decidable_of_iff' _ (Iff.of_eq (k0_chk59.eq_1 v1799))
theorem k0_idx59_inb : ∀ (v1799 : IVec S16 32) (k0_hw59 : k0_chk59 v1799), ∀ a x, ((![v1799] : Fin 1 → IVec S16 32) a x).toNat < S28672.size a := fun v1799 k0_hw59 => k0_hw59

def k0_chk60 (v1801 : IVec S16 32) : Prop :=
  (∀ a x, ((![v1801] : Fin 1 → IVec S16 32) a x).toNat < S28672.size a)
instance k0_chk60.dec : ∀ (v1801 : IVec S16 32), Decidable (k0_chk60 v1801) := fun v1801 => decidable_of_iff' _ (Iff.of_eq (k0_chk60.eq_1 v1801))
theorem k0_idx60_inb : ∀ (v1801 : IVec S16 32) (k0_hw60 : k0_chk60 v1801), ∀ a x, ((![v1801] : Fin 1 → IVec S16 32) a x).toNat < S28672.size a := fun v1801 k0_hw60 => k0_hw60

def k0_chk61 (v1803 : IVec S16 32) : Prop :=
  (∀ a x, ((![v1803] : Fin 1 → IVec S16 32) a x).toNat < S28672.size a)
instance k0_chk61.dec : ∀ (v1803 : IVec S16 32), Decidable (k0_chk61 v1803) := fun v1803 => decidable_of_iff' _ (Iff.of_eq (k0_chk61.eq_1 v1803))
theorem k0_idx61_inb : ∀ (v1803 : IVec S16 32) (k0_hw61 : k0_chk61 v1803), ∀ a x, ((![v1803] : Fin 1 → IVec S16 32) a x).toNat < S28672.size a := fun v1803 k0_hw61 => k0_hw61

def k0_chk62 (v1805 : IVec S16 32) : Prop :=
  (∀ a x, ((![v1805] : Fin 1 → IVec S16 32) a x).toNat < S28672.size a)
instance k0_chk62.dec : ∀ (v1805 : IVec S16 32), Decidable (k0_chk62 v1805) := fun v1805 => decidable_of_iff' _ (Iff.of_eq (k0_chk62.eq_1 v1805))
theorem k0_idx62_inb : ∀ (v1805 : IVec S16 32) (k0_hw62 : k0_chk62 v1805), ∀ a x, ((![v1805] : Fin 1 → IVec S16 32) a x).toNat < S28672.size a := fun v1805 k0_hw62 => k0_hw62

def k0_chk63 (v1807 : IVec S16 32) : Prop :=
  (∀ a x, ((![v1807] : Fin 1 → IVec S16 32) a x).toNat < S28672.size a)
instance k0_chk63.dec : ∀ (v1807 : IVec S16 32), Decidable (k0_chk63 v1807) := fun v1807 => decidable_of_iff' _ (Iff.of_eq (k0_chk63.eq_1 v1807))
theorem k0_idx63_inb : ∀ (v1807 : IVec S16 32) (k0_hw63 : k0_chk63 v1807), ∀ a x, ((![v1807] : Fin 1 → IVec S16 32) a x).toNat < S28672.size a := fun v1807 k0_hw63 => k0_hw63

def k0_chk64 (v1809 : IVec S16 32) : Prop :=
  (∀ a x, ((![v1809] : Fin 1 → IVec S16 32) a x).toNat < S28672.size a)
instance k0_chk64.dec : ∀ (v1809 : IVec S16 32), Decidable (k0_chk64 v1809) := fun v1809 => decidable_of_iff' _ (Iff.of_eq (k0_chk64.eq_1 v1809))
theorem k0_idx64_inb : ∀ (v1809 : IVec S16 32) (k0_hw64 : k0_chk64 v1809), ∀ a x, ((![v1809] : Fin 1 → IVec S16 32) a x).toNat < S28672.size a := fun v1809 k0_hw64 => k0_hw64

def k0_chk65 (v1811 : IVec S16 32) : Prop :=
  (∀ a x, ((![v1811] : Fin 1 → IVec S16 32) a x).toNat < S28672.size a)
instance k0_chk65.dec : ∀ (v1811 : IVec S16 32), Decidable (k0_chk65 v1811) := fun v1811 => decidable_of_iff' _ (Iff.of_eq (k0_chk65.eq_1 v1811))
theorem k0_idx65_inb : ∀ (v1811 : IVec S16 32) (k0_hw65 : k0_chk65 v1811), ∀ a x, ((![v1811] : Fin 1 → IVec S16 32) a x).toNat < S28672.size a := fun v1811 k0_hw65 => k0_hw65

def k0_chk66 (v1813 : IVec S16 32) : Prop :=
  (∀ a x, ((![v1813] : Fin 1 → IVec S16 32) a x).toNat < S28672.size a)
instance k0_chk66.dec : ∀ (v1813 : IVec S16 32), Decidable (k0_chk66 v1813) := fun v1813 => decidable_of_iff' _ (Iff.of_eq (k0_chk66.eq_1 v1813))
theorem k0_idx66_inb : ∀ (v1813 : IVec S16 32) (k0_hw66 : k0_chk66 v1813), ∀ a x, ((![v1813] : Fin 1 → IVec S16 32) a x).toNat < S28672.size a := fun v1813 k0_hw66 => k0_hw66

def k0_chk67 (v1815 : IVec S16 32) : Prop :=
  (∀ a x, ((![v1815] : Fin 1 → IVec S16 32) a x).toNat < S28672.size a)
instance k0_chk67.dec : ∀ (v1815 : IVec S16 32), Decidable (k0_chk67 v1815) := fun v1815 => decidable_of_iff' _ (Iff.of_eq (k0_chk67.eq_1 v1815))
theorem k0_idx67_inb : ∀ (v1815 : IVec S16 32) (k0_hw67 : k0_chk67 v1815), ∀ a x, ((![v1815] : Fin 1 → IVec S16 32) a x).toNat < S28672.size a := fun v1815 k0_hw67 => k0_hw67

def k0_chk68 (v1817 : IVec S16 32) : Prop :=
  (∀ a x, ((![v1817] : Fin 1 → IVec S16 32) a x).toNat < S28672.size a)
instance k0_chk68.dec : ∀ (v1817 : IVec S16 32), Decidable (k0_chk68 v1817) := fun v1817 => decidable_of_iff' _ (Iff.of_eq (k0_chk68.eq_1 v1817))
theorem k0_idx68_inb : ∀ (v1817 : IVec S16 32) (k0_hw68 : k0_chk68 v1817), ∀ a x, ((![v1817] : Fin 1 → IVec S16 32) a x).toNat < S28672.size a := fun v1817 k0_hw68 => k0_hw68

def k0_chk69 (v1819 : IVec S16 32) : Prop :=
  (∀ a x, ((![v1819] : Fin 1 → IVec S16 32) a x).toNat < S28672.size a)
instance k0_chk69.dec : ∀ (v1819 : IVec S16 32), Decidable (k0_chk69 v1819) := fun v1819 => decidable_of_iff' _ (Iff.of_eq (k0_chk69.eq_1 v1819))
theorem k0_idx69_inb : ∀ (v1819 : IVec S16 32) (k0_hw69 : k0_chk69 v1819), ∀ a x, ((![v1819] : Fin 1 → IVec S16 32) a x).toNat < S28672.size a := fun v1819 k0_hw69 => k0_hw69

def k0_chk70 (v1821 : IVec S16 32) : Prop :=
  (∀ a x, ((![v1821] : Fin 1 → IVec S16 32) a x).toNat < S28672.size a)
instance k0_chk70.dec : ∀ (v1821 : IVec S16 32), Decidable (k0_chk70 v1821) := fun v1821 => decidable_of_iff' _ (Iff.of_eq (k0_chk70.eq_1 v1821))
theorem k0_idx70_inb : ∀ (v1821 : IVec S16 32) (k0_hw70 : k0_chk70 v1821), ∀ a x, ((![v1821] : Fin 1 → IVec S16 32) a x).toNat < S28672.size a := fun v1821 k0_hw70 => k0_hw70

def k0_chk71 (v1838 : IVec S16 32) : Prop :=
  (∀ a x, ((![v1838] : Fin 1 → IVec S16 32) a x).toNat < S10240.size a)
instance k0_chk71.dec : ∀ (v1838 : IVec S16 32), Decidable (k0_chk71 v1838) := fun v1838 => decidable_of_iff' _ (Iff.of_eq (k0_chk71.eq_1 v1838))
theorem k0_idx71_inb : ∀ (v1838 : IVec S16 32) (k0_hw71 : k0_chk71 v1838), ∀ a x, ((![v1838] : Fin 1 → IVec S16 32) a x).toNat < S10240.size a := fun v1838 k0_hw71 => k0_hw71

def k0_chk72 (v387 : IVec S16 32) : Prop :=
  (∀ a x, ((![v387] : Fin 1 → IVec S16 32) a x).toNat < S4480.size a)
instance k0_chk72.dec : ∀ (v387 : IVec S16 32), Decidable (k0_chk72 v387) := fun v387 => decidable_of_iff' _ (Iff.of_eq (k0_chk72.eq_1 v387))
theorem k0_idx72_inb : ∀ (v387 : IVec S16 32) (k0_hw72 : k0_chk72 v387), ∀ a x, ((![v387] : Fin 1 → IVec S16 32) a x).toNat < S4480.size a := fun v387 k0_hw72 => k0_hw72

def k0_chk73 (v390 : IVec S16 32) : Prop :=
  (∀ a x, ((![v390] : Fin 1 → IVec S16 32) a x).toNat < S4480.size a)
instance k0_chk73.dec : ∀ (v390 : IVec S16 32), Decidable (k0_chk73 v390) := fun v390 => decidable_of_iff' _ (Iff.of_eq (k0_chk73.eq_1 v390))
theorem k0_idx73_inb : ∀ (v390 : IVec S16 32) (k0_hw73 : k0_chk73 v390), ∀ a x, ((![v390] : Fin 1 → IVec S16 32) a x).toNat < S4480.size a := fun v390 k0_hw73 => k0_hw73

def k0_chk74 (v396 : IVec S16 32) : Prop :=
  (∀ a x, ((![v396] : Fin 1 → IVec S16 32) a x).toNat < S4480.size a)
instance k0_chk74.dec : ∀ (v396 : IVec S16 32), Decidable (k0_chk74 v396) := fun v396 => decidable_of_iff' _ (Iff.of_eq (k0_chk74.eq_1 v396))
theorem k0_idx74_inb : ∀ (v396 : IVec S16 32) (k0_hw74 : k0_chk74 v396), ∀ a x, ((![v396] : Fin 1 → IVec S16 32) a x).toNat < S4480.size a := fun v396 k0_hw74 => k0_hw74

def k0_chk75 (v402 : IVec S16 32) : Prop :=
  (∀ a x, ((![v402] : Fin 1 → IVec S16 32) a x).toNat < S4480.size a)
instance k0_chk75.dec : ∀ (v402 : IVec S16 32), Decidable (k0_chk75 v402) := fun v402 => decidable_of_iff' _ (Iff.of_eq (k0_chk75.eq_1 v402))
theorem k0_idx75_inb : ∀ (v402 : IVec S16 32) (k0_hw75 : k0_chk75 v402), ∀ a x, ((![v402] : Fin 1 → IVec S16 32) a x).toNat < S4480.size a := fun v402 k0_hw75 => k0_hw75

def k0_chk76 (v412 : IVec S16 32) : Prop :=
  (∀ a x, ((![v412] : Fin 1 → IVec S16 32) a x).toNat < S4480.size a)
instance k0_chk76.dec : ∀ (v412 : IVec S16 32), Decidable (k0_chk76 v412) := fun v412 => decidable_of_iff' _ (Iff.of_eq (k0_chk76.eq_1 v412))
theorem k0_idx76_inb : ∀ (v412 : IVec S16 32) (k0_hw76 : k0_chk76 v412), ∀ a x, ((![v412] : Fin 1 → IVec S16 32) a x).toNat < S4480.size a := fun v412 k0_hw76 => k0_hw76

def k0_chk77 (v415 : IVec S16 32) : Prop :=
  (∀ a x, ((![v415] : Fin 1 → IVec S16 32) a x).toNat < S4480.size a)
instance k0_chk77.dec : ∀ (v415 : IVec S16 32), Decidable (k0_chk77 v415) := fun v415 => decidable_of_iff' _ (Iff.of_eq (k0_chk77.eq_1 v415))
theorem k0_idx77_inb : ∀ (v415 : IVec S16 32) (k0_hw77 : k0_chk77 v415), ∀ a x, ((![v415] : Fin 1 → IVec S16 32) a x).toNat < S4480.size a := fun v415 k0_hw77 => k0_hw77

def k0_chk78 (v421 : IVec S16 32) : Prop :=
  (∀ a x, ((![v421] : Fin 1 → IVec S16 32) a x).toNat < S4480.size a)
instance k0_chk78.dec : ∀ (v421 : IVec S16 32), Decidable (k0_chk78 v421) := fun v421 => decidable_of_iff' _ (Iff.of_eq (k0_chk78.eq_1 v421))
theorem k0_idx78_inb : ∀ (v421 : IVec S16 32) (k0_hw78 : k0_chk78 v421), ∀ a x, ((![v421] : Fin 1 → IVec S16 32) a x).toNat < S4480.size a := fun v421 k0_hw78 => k0_hw78

def k0_chk79 (v427 : IVec S16 32) : Prop :=
  (∀ a x, ((![v427] : Fin 1 → IVec S16 32) a x).toNat < S4480.size a)
instance k0_chk79.dec : ∀ (v427 : IVec S16 32), Decidable (k0_chk79 v427) := fun v427 => decidable_of_iff' _ (Iff.of_eq (k0_chk79.eq_1 v427))
theorem k0_idx79_inb : ∀ (v427 : IVec S16 32) (k0_hw79 : k0_chk79 v427), ∀ a x, ((![v427] : Fin 1 → IVec S16 32) a x).toNat < S4480.size a := fun v427 k0_hw79 => k0_hw79

def k0_chk80 (v437 : IVec S16 32) : Prop :=
  (∀ a x, ((![v437] : Fin 1 → IVec S16 32) a x).toNat < S4480.size a)
instance k0_chk80.dec : ∀ (v437 : IVec S16 32), Decidable (k0_chk80 v437) := fun v437 => decidable_of_iff' _ (Iff.of_eq (k0_chk80.eq_1 v437))
theorem k0_idx80_inb : ∀ (v437 : IVec S16 32) (k0_hw80 : k0_chk80 v437), ∀ a x, ((![v437] : Fin 1 → IVec S16 32) a x).toNat < S4480.size a := fun v437 k0_hw80 => k0_hw80

def k0_chk81 (v440 : IVec S16 32) : Prop :=
  (∀ a x, ((![v440] : Fin 1 → IVec S16 32) a x).toNat < S4480.size a)
instance k0_chk81.dec : ∀ (v440 : IVec S16 32), Decidable (k0_chk81 v440) := fun v440 => decidable_of_iff' _ (Iff.of_eq (k0_chk81.eq_1 v440))
theorem k0_idx81_inb : ∀ (v440 : IVec S16 32) (k0_hw81 : k0_chk81 v440), ∀ a x, ((![v440] : Fin 1 → IVec S16 32) a x).toNat < S4480.size a := fun v440 k0_hw81 => k0_hw81

def k0_chk82 (v446 : IVec S16 32) : Prop :=
  (∀ a x, ((![v446] : Fin 1 → IVec S16 32) a x).toNat < S4480.size a)
instance k0_chk82.dec : ∀ (v446 : IVec S16 32), Decidable (k0_chk82 v446) := fun v446 => decidable_of_iff' _ (Iff.of_eq (k0_chk82.eq_1 v446))
theorem k0_idx82_inb : ∀ (v446 : IVec S16 32) (k0_hw82 : k0_chk82 v446), ∀ a x, ((![v446] : Fin 1 → IVec S16 32) a x).toNat < S4480.size a := fun v446 k0_hw82 => k0_hw82

def k0_chk83 (v452 : IVec S16 32) : Prop :=
  (∀ a x, ((![v452] : Fin 1 → IVec S16 32) a x).toNat < S4480.size a)
instance k0_chk83.dec : ∀ (v452 : IVec S16 32), Decidable (k0_chk83 v452) := fun v452 => decidable_of_iff' _ (Iff.of_eq (k0_chk83.eq_1 v452))
theorem k0_idx83_inb : ∀ (v452 : IVec S16 32) (k0_hw83 : k0_chk83 v452), ∀ a x, ((![v452] : Fin 1 → IVec S16 32) a x).toNat < S4480.size a := fun v452 k0_hw83 => k0_hw83

def k0_chk84 (v462 : IVec S16 32) : Prop :=
  (∀ a x, ((![v462] : Fin 1 → IVec S16 32) a x).toNat < S4480.size a)
instance k0_chk84.dec : ∀ (v462 : IVec S16 32), Decidable (k0_chk84 v462) := fun v462 => decidable_of_iff' _ (Iff.of_eq (k0_chk84.eq_1 v462))
theorem k0_idx84_inb : ∀ (v462 : IVec S16 32) (k0_hw84 : k0_chk84 v462), ∀ a x, ((![v462] : Fin 1 → IVec S16 32) a x).toNat < S4480.size a := fun v462 k0_hw84 => k0_hw84

def k0_chk85 (v465 : IVec S16 32) : Prop :=
  (∀ a x, ((![v465] : Fin 1 → IVec S16 32) a x).toNat < S4480.size a)
instance k0_chk85.dec : ∀ (v465 : IVec S16 32), Decidable (k0_chk85 v465) := fun v465 => decidable_of_iff' _ (Iff.of_eq (k0_chk85.eq_1 v465))
theorem k0_idx85_inb : ∀ (v465 : IVec S16 32) (k0_hw85 : k0_chk85 v465), ∀ a x, ((![v465] : Fin 1 → IVec S16 32) a x).toNat < S4480.size a := fun v465 k0_hw85 => k0_hw85

def k0_chk86 (v471 : IVec S16 32) : Prop :=
  (∀ a x, ((![v471] : Fin 1 → IVec S16 32) a x).toNat < S4480.size a)
instance k0_chk86.dec : ∀ (v471 : IVec S16 32), Decidable (k0_chk86 v471) := fun v471 => decidable_of_iff' _ (Iff.of_eq (k0_chk86.eq_1 v471))
theorem k0_idx86_inb : ∀ (v471 : IVec S16 32) (k0_hw86 : k0_chk86 v471), ∀ a x, ((![v471] : Fin 1 → IVec S16 32) a x).toNat < S4480.size a := fun v471 k0_hw86 => k0_hw86

def k0_chk87 (v477 : IVec S16 32) : Prop :=
  (∀ a x, ((![v477] : Fin 1 → IVec S16 32) a x).toNat < S4480.size a)
instance k0_chk87.dec : ∀ (v477 : IVec S16 32), Decidable (k0_chk87 v477) := fun v477 => decidable_of_iff' _ (Iff.of_eq (k0_chk87.eq_1 v477))
theorem k0_idx87_inb : ∀ (v477 : IVec S16 32) (k0_hw87 : k0_chk87 v477), ∀ a x, ((![v477] : Fin 1 → IVec S16 32) a x).toNat < S4480.size a := fun v477 k0_hw87 => k0_hw87

def k0_chk88 (v487 : IVec S16 32) : Prop :=
  (∀ a x, ((![v487] : Fin 1 → IVec S16 32) a x).toNat < S4480.size a)
instance k0_chk88.dec : ∀ (v487 : IVec S16 32), Decidable (k0_chk88 v487) := fun v487 => decidable_of_iff' _ (Iff.of_eq (k0_chk88.eq_1 v487))
theorem k0_idx88_inb : ∀ (v487 : IVec S16 32) (k0_hw88 : k0_chk88 v487), ∀ a x, ((![v487] : Fin 1 → IVec S16 32) a x).toNat < S4480.size a := fun v487 k0_hw88 => k0_hw88

def k0_chk89 (v490 : IVec S16 32) : Prop :=
  (∀ a x, ((![v490] : Fin 1 → IVec S16 32) a x).toNat < S4480.size a)
instance k0_chk89.dec : ∀ (v490 : IVec S16 32), Decidable (k0_chk89 v490) := fun v490 => decidable_of_iff' _ (Iff.of_eq (k0_chk89.eq_1 v490))
theorem k0_idx89_inb : ∀ (v490 : IVec S16 32) (k0_hw89 : k0_chk89 v490), ∀ a x, ((![v490] : Fin 1 → IVec S16 32) a x).toNat < S4480.size a := fun v490 k0_hw89 => k0_hw89

def k0_chk90 (v496 : IVec S16 32) : Prop :=
  (∀ a x, ((![v496] : Fin 1 → IVec S16 32) a x).toNat < S4480.size a)
instance k0_chk90.dec : ∀ (v496 : IVec S16 32), Decidable (k0_chk90 v496) := fun v496 => decidable_of_iff' _ (Iff.of_eq (k0_chk90.eq_1 v496))
theorem k0_idx90_inb : ∀ (v496 : IVec S16 32) (k0_hw90 : k0_chk90 v496), ∀ a x, ((![v496] : Fin 1 → IVec S16 32) a x).toNat < S4480.size a := fun v496 k0_hw90 => k0_hw90

def k0_chk91 (v502 : IVec S16 32) : Prop :=
  (∀ a x, ((![v502] : Fin 1 → IVec S16 32) a x).toNat < S4480.size a)
instance k0_chk91.dec : ∀ (v502 : IVec S16 32), Decidable (k0_chk91 v502) := fun v502 => decidable_of_iff' _ (Iff.of_eq (k0_chk91.eq_1 v502))
theorem k0_idx91_inb : ∀ (v502 : IVec S16 32) (k0_hw91 : k0_chk91 v502), ∀ a x, ((![v502] : Fin 1 → IVec S16 32) a x).toNat < S4480.size a := fun v502 k0_hw91 => k0_hw91

def k0_chk92 (v512 : IVec S16 32) : Prop :=
  (∀ a x, ((![v512] : Fin 1 → IVec S16 32) a x).toNat < S4480.size a)
instance k0_chk92.dec : ∀ (v512 : IVec S16 32), Decidable (k0_chk92 v512) := fun v512 => decidable_of_iff' _ (Iff.of_eq (k0_chk92.eq_1 v512))
theorem k0_idx92_inb : ∀ (v512 : IVec S16 32) (k0_hw92 : k0_chk92 v512), ∀ a x, ((![v512] : Fin 1 → IVec S16 32) a x).toNat < S4480.size a := fun v512 k0_hw92 => k0_hw92

def k0_chk93 (v515 : IVec S16 32) : Prop :=
  (∀ a x, ((![v515] : Fin 1 → IVec S16 32) a x).toNat < S4480.size a)
instance k0_chk93.dec : ∀ (v515 : IVec S16 32), Decidable (k0_chk93 v515) := fun v515 => decidable_of_iff' _ (Iff.of_eq (k0_chk93.eq_1 v515))
theorem k0_idx93_inb : ∀ (v515 : IVec S16 32) (k0_hw93 : k0_chk93 v515), ∀ a x, ((![v515] : Fin 1 → IVec S16 32) a x).toNat < S4480.size a := fun v515 k0_hw93 => k0_hw93

def k0_chk94 (v521 : IVec S16 32) : Prop :=
  (∀ a x, ((![v521] : Fin 1 → IVec S16 32) a x).toNat < S4480.size a)
instance k0_chk94.dec : ∀ (v521 : IVec S16 32), Decidable (k0_chk94 v521) := fun v521 => decidable_of_iff' _ (Iff.of_eq (k0_chk94.eq_1 v521))
theorem k0_idx94_inb : ∀ (v521 : IVec S16 32) (k0_hw94 : k0_chk94 v521), ∀ a x, ((![v521] : Fin 1 → IVec S16 32) a x).toNat < S4480.size a := fun v521 k0_hw94 => k0_hw94

def k0_chk95 (v527 : IVec S16 32) : Prop :=
  (∀ a x, ((![v527] : Fin 1 → IVec S16 32) a x).toNat < S4480.size a)
instance k0_chk95.dec : ∀ (v527 : IVec S16 32), Decidable (k0_chk95 v527) := fun v527 => decidable_of_iff' _ (Iff.of_eq (k0_chk95.eq_1 v527))
theorem k0_idx95_inb : ∀ (v527 : IVec S16 32) (k0_hw95 : k0_chk95 v527), ∀ a x, ((![v527] : Fin 1 → IVec S16 32) a x).toNat < S4480.size a := fun v527 k0_hw95 => k0_hw95

def k0_chk96 (v537 : IVec S16 32) : Prop :=
  (∀ a x, ((![v537] : Fin 1 → IVec S16 32) a x).toNat < S4480.size a)
instance k0_chk96.dec : ∀ (v537 : IVec S16 32), Decidable (k0_chk96 v537) := fun v537 => decidable_of_iff' _ (Iff.of_eq (k0_chk96.eq_1 v537))
theorem k0_idx96_inb : ∀ (v537 : IVec S16 32) (k0_hw96 : k0_chk96 v537), ∀ a x, ((![v537] : Fin 1 → IVec S16 32) a x).toNat < S4480.size a := fun v537 k0_hw96 => k0_hw96

def k0_chk97 (v540 : IVec S16 32) : Prop :=
  (∀ a x, ((![v540] : Fin 1 → IVec S16 32) a x).toNat < S4480.size a)
instance k0_chk97.dec : ∀ (v540 : IVec S16 32), Decidable (k0_chk97 v540) := fun v540 => decidable_of_iff' _ (Iff.of_eq (k0_chk97.eq_1 v540))
theorem k0_idx97_inb : ∀ (v540 : IVec S16 32) (k0_hw97 : k0_chk97 v540), ∀ a x, ((![v540] : Fin 1 → IVec S16 32) a x).toNat < S4480.size a := fun v540 k0_hw97 => k0_hw97

def k0_chk98 (v546 : IVec S16 32) : Prop :=
  (∀ a x, ((![v546] : Fin 1 → IVec S16 32) a x).toNat < S4480.size a)
instance k0_chk98.dec : ∀ (v546 : IVec S16 32), Decidable (k0_chk98 v546) := fun v546 => decidable_of_iff' _ (Iff.of_eq (k0_chk98.eq_1 v546))
theorem k0_idx98_inb : ∀ (v546 : IVec S16 32) (k0_hw98 : k0_chk98 v546), ∀ a x, ((![v546] : Fin 1 → IVec S16 32) a x).toNat < S4480.size a := fun v546 k0_hw98 => k0_hw98

def k0_chk99 (v552 : IVec S16 32) : Prop :=
  (∀ a x, ((![v552] : Fin 1 → IVec S16 32) a x).toNat < S4480.size a)
instance k0_chk99.dec : ∀ (v552 : IVec S16 32), Decidable (k0_chk99 v552) := fun v552 => decidable_of_iff' _ (Iff.of_eq (k0_chk99.eq_1 v552))
theorem k0_idx99_inb : ∀ (v552 : IVec S16 32) (k0_hw99 : k0_chk99 v552), ∀ a x, ((![v552] : Fin 1 → IVec S16 32) a x).toNat < S4480.size a := fun v552 k0_hw99 => k0_hw99

def k0_chk100 (v562 : IVec S16 32) : Prop :=
  (∀ a x, ((![v562] : Fin 1 → IVec S16 32) a x).toNat < S4480.size a)
instance k0_chk100.dec : ∀ (v562 : IVec S16 32), Decidable (k0_chk100 v562) := fun v562 => decidable_of_iff' _ (Iff.of_eq (k0_chk100.eq_1 v562))
theorem k0_idx100_inb : ∀ (v562 : IVec S16 32) (k0_hw100 : k0_chk100 v562), ∀ a x, ((![v562] : Fin 1 → IVec S16 32) a x).toNat < S4480.size a := fun v562 k0_hw100 => k0_hw100

def k0_chk101 (v565 : IVec S16 32) : Prop :=
  (∀ a x, ((![v565] : Fin 1 → IVec S16 32) a x).toNat < S4480.size a)
instance k0_chk101.dec : ∀ (v565 : IVec S16 32), Decidable (k0_chk101 v565) := fun v565 => decidable_of_iff' _ (Iff.of_eq (k0_chk101.eq_1 v565))
theorem k0_idx101_inb : ∀ (v565 : IVec S16 32) (k0_hw101 : k0_chk101 v565), ∀ a x, ((![v565] : Fin 1 → IVec S16 32) a x).toNat < S4480.size a := fun v565 k0_hw101 => k0_hw101

def k0_chk102 (v571 : IVec S16 32) : Prop :=
  (∀ a x, ((![v571] : Fin 1 → IVec S16 32) a x).toNat < S4480.size a)
instance k0_chk102.dec : ∀ (v571 : IVec S16 32), Decidable (k0_chk102 v571) := fun v571 => decidable_of_iff' _ (Iff.of_eq (k0_chk102.eq_1 v571))
theorem k0_idx102_inb : ∀ (v571 : IVec S16 32) (k0_hw102 : k0_chk102 v571), ∀ a x, ((![v571] : Fin 1 → IVec S16 32) a x).toNat < S4480.size a := fun v571 k0_hw102 => k0_hw102

def k0_chk103 (v577 : IVec S16 32) : Prop :=
  (∀ a x, ((![v577] : Fin 1 → IVec S16 32) a x).toNat < S4480.size a)
instance k0_chk103.dec : ∀ (v577 : IVec S16 32), Decidable (k0_chk103 v577) := fun v577 => decidable_of_iff' _ (Iff.of_eq (k0_chk103.eq_1 v577))
theorem k0_idx103_inb : ∀ (v577 : IVec S16 32) (k0_hw103 : k0_chk103 v577), ∀ a x, ((![v577] : Fin 1 → IVec S16 32) a x).toNat < S4480.size a := fun v577 k0_hw103 => k0_hw103

def k0_chk104 (v587 : IVec S16 32) : Prop :=
  (∀ a x, ((![v587] : Fin 1 → IVec S16 32) a x).toNat < S4480.size a)
instance k0_chk104.dec : ∀ (v587 : IVec S16 32), Decidable (k0_chk104 v587) := fun v587 => decidable_of_iff' _ (Iff.of_eq (k0_chk104.eq_1 v587))
theorem k0_idx104_inb : ∀ (v587 : IVec S16 32) (k0_hw104 : k0_chk104 v587), ∀ a x, ((![v587] : Fin 1 → IVec S16 32) a x).toNat < S4480.size a := fun v587 k0_hw104 => k0_hw104

def k0_chk105 (v590 : IVec S16 32) : Prop :=
  (∀ a x, ((![v590] : Fin 1 → IVec S16 32) a x).toNat < S4480.size a)
instance k0_chk105.dec : ∀ (v590 : IVec S16 32), Decidable (k0_chk105 v590) := fun v590 => decidable_of_iff' _ (Iff.of_eq (k0_chk105.eq_1 v590))
theorem k0_idx105_inb : ∀ (v590 : IVec S16 32) (k0_hw105 : k0_chk105 v590), ∀ a x, ((![v590] : Fin 1 → IVec S16 32) a x).toNat < S4480.size a := fun v590 k0_hw105 => k0_hw105

def k0_chk106 (v596 : IVec S16 32) : Prop :=
  (∀ a x, ((![v596] : Fin 1 → IVec S16 32) a x).toNat < S4480.size a)
instance k0_chk106.dec : ∀ (v596 : IVec S16 32), Decidable (k0_chk106 v596) := fun v596 => decidable_of_iff' _ (Iff.of_eq (k0_chk106.eq_1 v596))
theorem k0_idx106_inb : ∀ (v596 : IVec S16 32) (k0_hw106 : k0_chk106 v596), ∀ a x, ((![v596] : Fin 1 → IVec S16 32) a x).toNat < S4480.size a := fun v596 k0_hw106 => k0_hw106

def k0_chk107 (v602 : IVec S16 32) : Prop :=
  (∀ a x, ((![v602] : Fin 1 → IVec S16 32) a x).toNat < S4480.size a)
instance k0_chk107.dec : ∀ (v602 : IVec S16 32), Decidable (k0_chk107 v602) := fun v602 => decidable_of_iff' _ (Iff.of_eq (k0_chk107.eq_1 v602))
theorem k0_idx107_inb : ∀ (v602 : IVec S16 32) (k0_hw107 : k0_chk107 v602), ∀ a x, ((![v602] : Fin 1 → IVec S16 32) a x).toNat < S4480.size a := fun v602 k0_hw107 => k0_hw107

def k0_chk108 (v612 : IVec S16 32) : Prop :=
  (∀ a x, ((![v612] : Fin 1 → IVec S16 32) a x).toNat < S4480.size a)
instance k0_chk108.dec : ∀ (v612 : IVec S16 32), Decidable (k0_chk108 v612) := fun v612 => decidable_of_iff' _ (Iff.of_eq (k0_chk108.eq_1 v612))
theorem k0_idx108_inb : ∀ (v612 : IVec S16 32) (k0_hw108 : k0_chk108 v612), ∀ a x, ((![v612] : Fin 1 → IVec S16 32) a x).toNat < S4480.size a := fun v612 k0_hw108 => k0_hw108

def k0_chk109 (v615 : IVec S16 32) : Prop :=
  (∀ a x, ((![v615] : Fin 1 → IVec S16 32) a x).toNat < S4480.size a)
instance k0_chk109.dec : ∀ (v615 : IVec S16 32), Decidable (k0_chk109 v615) := fun v615 => decidable_of_iff' _ (Iff.of_eq (k0_chk109.eq_1 v615))
theorem k0_idx109_inb : ∀ (v615 : IVec S16 32) (k0_hw109 : k0_chk109 v615), ∀ a x, ((![v615] : Fin 1 → IVec S16 32) a x).toNat < S4480.size a := fun v615 k0_hw109 => k0_hw109

def k0_chk110 (v621 : IVec S16 32) : Prop :=
  (∀ a x, ((![v621] : Fin 1 → IVec S16 32) a x).toNat < S4480.size a)
instance k0_chk110.dec : ∀ (v621 : IVec S16 32), Decidable (k0_chk110 v621) := fun v621 => decidable_of_iff' _ (Iff.of_eq (k0_chk110.eq_1 v621))
theorem k0_idx110_inb : ∀ (v621 : IVec S16 32) (k0_hw110 : k0_chk110 v621), ∀ a x, ((![v621] : Fin 1 → IVec S16 32) a x).toNat < S4480.size a := fun v621 k0_hw110 => k0_hw110

def k0_chk111 (v627 : IVec S16 32) : Prop :=
  (∀ a x, ((![v627] : Fin 1 → IVec S16 32) a x).toNat < S4480.size a)
instance k0_chk111.dec : ∀ (v627 : IVec S16 32), Decidable (k0_chk111 v627) := fun v627 => decidable_of_iff' _ (Iff.of_eq (k0_chk111.eq_1 v627))
theorem k0_idx111_inb : ∀ (v627 : IVec S16 32) (k0_hw111 : k0_chk111 v627), ∀ a x, ((![v627] : Fin 1 → IVec S16 32) a x).toNat < S4480.size a := fun v627 k0_hw111 => k0_hw111

def k0_chk112 (v637 : IVec S16 32) : Prop :=
  (∀ a x, ((![v637] : Fin 1 → IVec S16 32) a x).toNat < S4480.size a)
instance k0_chk112.dec : ∀ (v637 : IVec S16 32), Decidable (k0_chk112 v637) := fun v637 => decidable_of_iff' _ (Iff.of_eq (k0_chk112.eq_1 v637))
theorem k0_idx112_inb : ∀ (v637 : IVec S16 32) (k0_hw112 : k0_chk112 v637), ∀ a x, ((![v637] : Fin 1 → IVec S16 32) a x).toNat < S4480.size a := fun v637 k0_hw112 => k0_hw112

def k0_chk113 (v640 : IVec S16 32) : Prop :=
  (∀ a x, ((![v640] : Fin 1 → IVec S16 32) a x).toNat < S4480.size a)
instance k0_chk113.dec : ∀ (v640 : IVec S16 32), Decidable (k0_chk113 v640) := fun v640 => decidable_of_iff' _ (Iff.of_eq (k0_chk113.eq_1 v640))
theorem k0_idx113_inb : ∀ (v640 : IVec S16 32) (k0_hw113 : k0_chk113 v640), ∀ a x, ((![v640] : Fin 1 → IVec S16 32) a x).toNat < S4480.size a := fun v640 k0_hw113 => k0_hw113

def k0_chk114 (v646 : IVec S16 32) : Prop :=
  (∀ a x, ((![v646] : Fin 1 → IVec S16 32) a x).toNat < S4480.size a)
instance k0_chk114.dec : ∀ (v646 : IVec S16 32), Decidable (k0_chk114 v646) := fun v646 => decidable_of_iff' _ (Iff.of_eq (k0_chk114.eq_1 v646))
theorem k0_idx114_inb : ∀ (v646 : IVec S16 32) (k0_hw114 : k0_chk114 v646), ∀ a x, ((![v646] : Fin 1 → IVec S16 32) a x).toNat < S4480.size a := fun v646 k0_hw114 => k0_hw114

def k0_chk115 (v652 : IVec S16 32) : Prop :=
  (∀ a x, ((![v652] : Fin 1 → IVec S16 32) a x).toNat < S4480.size a)
instance k0_chk115.dec : ∀ (v652 : IVec S16 32), Decidable (k0_chk115 v652) := fun v652 => decidable_of_iff' _ (Iff.of_eq (k0_chk115.eq_1 v652))
theorem k0_idx115_inb : ∀ (v652 : IVec S16 32) (k0_hw115 : k0_chk115 v652), ∀ a x, ((![v652] : Fin 1 → IVec S16 32) a x).toNat < S4480.size a := fun v652 k0_hw115 => k0_hw115

def k0_chk116 (v662 : IVec S16 32) : Prop :=
  (∀ a x, ((![v662] : Fin 1 → IVec S16 32) a x).toNat < S4480.size a)
instance k0_chk116.dec : ∀ (v662 : IVec S16 32), Decidable (k0_chk116 v662) := fun v662 => decidable_of_iff' _ (Iff.of_eq (k0_chk116.eq_1 v662))
theorem k0_idx116_inb : ∀ (v662 : IVec S16 32) (k0_hw116 : k0_chk116 v662), ∀ a x, ((![v662] : Fin 1 → IVec S16 32) a x).toNat < S4480.size a := fun v662 k0_hw116 => k0_hw116

def k0_chk117 (v665 : IVec S16 32) : Prop :=
  (∀ a x, ((![v665] : Fin 1 → IVec S16 32) a x).toNat < S4480.size a)
instance k0_chk117.dec : ∀ (v665 : IVec S16 32), Decidable (k0_chk117 v665) := fun v665 => decidable_of_iff' _ (Iff.of_eq (k0_chk117.eq_1 v665))
theorem k0_idx117_inb : ∀ (v665 : IVec S16 32) (k0_hw117 : k0_chk117 v665), ∀ a x, ((![v665] : Fin 1 → IVec S16 32) a x).toNat < S4480.size a := fun v665 k0_hw117 => k0_hw117

def k0_chk118 (v671 : IVec S16 32) : Prop :=
  (∀ a x, ((![v671] : Fin 1 → IVec S16 32) a x).toNat < S4480.size a)
instance k0_chk118.dec : ∀ (v671 : IVec S16 32), Decidable (k0_chk118 v671) := fun v671 => decidable_of_iff' _ (Iff.of_eq (k0_chk118.eq_1 v671))
theorem k0_idx118_inb : ∀ (v671 : IVec S16 32) (k0_hw118 : k0_chk118 v671), ∀ a x, ((![v671] : Fin 1 → IVec S16 32) a x).toNat < S4480.size a := fun v671 k0_hw118 => k0_hw118

def k0_chk119 (v677 : IVec S16 32) : Prop :=
  (∀ a x, ((![v677] : Fin 1 → IVec S16 32) a x).toNat < S4480.size a)
instance k0_chk119.dec : ∀ (v677 : IVec S16 32), Decidable (k0_chk119 v677) := fun v677 => decidable_of_iff' _ (Iff.of_eq (k0_chk119.eq_1 v677))
theorem k0_idx119_inb : ∀ (v677 : IVec S16 32) (k0_hw119 : k0_chk119 v677), ∀ a x, ((![v677] : Fin 1 → IVec S16 32) a x).toNat < S4480.size a := fun v677 k0_hw119 => k0_hw119

def k0_chk120 (v687 : IVec S16 32) : Prop :=
  (∀ a x, ((![v687] : Fin 1 → IVec S16 32) a x).toNat < S4480.size a)
instance k0_chk120.dec : ∀ (v687 : IVec S16 32), Decidable (k0_chk120 v687) := fun v687 => decidable_of_iff' _ (Iff.of_eq (k0_chk120.eq_1 v687))
theorem k0_idx120_inb : ∀ (v687 : IVec S16 32) (k0_hw120 : k0_chk120 v687), ∀ a x, ((![v687] : Fin 1 → IVec S16 32) a x).toNat < S4480.size a := fun v687 k0_hw120 => k0_hw120

def k0_chk121 (v690 : IVec S16 32) : Prop :=
  (∀ a x, ((![v690] : Fin 1 → IVec S16 32) a x).toNat < S4480.size a)
instance k0_chk121.dec : ∀ (v690 : IVec S16 32), Decidable (k0_chk121 v690) := fun v690 => decidable_of_iff' _ (Iff.of_eq (k0_chk121.eq_1 v690))
theorem k0_idx121_inb : ∀ (v690 : IVec S16 32) (k0_hw121 : k0_chk121 v690), ∀ a x, ((![v690] : Fin 1 → IVec S16 32) a x).toNat < S4480.size a := fun v690 k0_hw121 => k0_hw121

def k0_chk122 (v696 : IVec S16 32) : Prop :=
  (∀ a x, ((![v696] : Fin 1 → IVec S16 32) a x).toNat < S4480.size a)
instance k0_chk122.dec : ∀ (v696 : IVec S16 32), Decidable (k0_chk122 v696) := fun v696 => decidable_of_iff' _ (Iff.of_eq (k0_chk122.eq_1 v696))
theorem k0_idx122_inb : ∀ (v696 : IVec S16 32) (k0_hw122 : k0_chk122 v696), ∀ a x, ((![v696] : Fin 1 → IVec S16 32) a x).toNat < S4480.size a := fun v696 k0_hw122 => k0_hw122

def k0_chk123 (v702 : IVec S16 32) : Prop :=
  (∀ a x, ((![v702] : Fin 1 → IVec S16 32) a x).toNat < S4480.size a)
instance k0_chk123.dec : ∀ (v702 : IVec S16 32), Decidable (k0_chk123 v702) := fun v702 => decidable_of_iff' _ (Iff.of_eq (k0_chk123.eq_1 v702))
theorem k0_idx123_inb : ∀ (v702 : IVec S16 32) (k0_hw123 : k0_chk123 v702), ∀ a x, ((![v702] : Fin 1 → IVec S16 32) a x).toNat < S4480.size a := fun v702 k0_hw123 => k0_hw123

def k0_chk124 (v712 : IVec S16 32) : Prop :=
  (∀ a x, ((![v712] : Fin 1 → IVec S16 32) a x).toNat < S4480.size a)
instance k0_chk124.dec : ∀ (v712 : IVec S16 32), Decidable (k0_chk124 v712) := fun v712 => decidable_of_iff' _ (Iff.of_eq (k0_chk124.eq_1 v712))
theorem k0_idx124_inb : ∀ (v712 : IVec S16 32) (k0_hw124 : k0_chk124 v712), ∀ a x, ((![v712] : Fin 1 → IVec S16 32) a x).toNat < S4480.size a := fun v712 k0_hw124 => k0_hw124

def k0_chk125 (v715 : IVec S16 32) : Prop :=
  (∀ a x, ((![v715] : Fin 1 → IVec S16 32) a x).toNat < S4480.size a)
instance k0_chk125.dec : ∀ (v715 : IVec S16 32), Decidable (k0_chk125 v715) := fun v715 => decidable_of_iff' _ (Iff.of_eq (k0_chk125.eq_1 v715))
theorem k0_idx125_inb : ∀ (v715 : IVec S16 32) (k0_hw125 : k0_chk125 v715), ∀ a x, ((![v715] : Fin 1 → IVec S16 32) a x).toNat < S4480.size a := fun v715 k0_hw125 => k0_hw125

def k0_chk126 (v721 : IVec S16 32) : Prop :=
  (∀ a x, ((![v721] : Fin 1 → IVec S16 32) a x).toNat < S4480.size a)
instance k0_chk126.dec : ∀ (v721 : IVec S16 32), Decidable (k0_chk126 v721) := fun v721 => decidable_of_iff' _ (Iff.of_eq (k0_chk126.eq_1 v721))
theorem k0_idx126_inb : ∀ (v721 : IVec S16 32) (k0_hw126 : k0_chk126 v721), ∀ a x, ((![v721] : Fin 1 → IVec S16 32) a x).toNat < S4480.size a := fun v721 k0_hw126 => k0_hw126

def k0_chk127 (v727 : IVec S16 32) : Prop :=
  (∀ a x, ((![v727] : Fin 1 → IVec S16 32) a x).toNat < S4480.size a)
instance k0_chk127.dec : ∀ (v727 : IVec S16 32), Decidable (k0_chk127 v727) := fun v727 => decidable_of_iff' _ (Iff.of_eq (k0_chk127.eq_1 v727))
theorem k0_idx127_inb : ∀ (v727 : IVec S16 32) (k0_hw127 : k0_chk127 v727), ∀ a x, ((![v727] : Fin 1 → IVec S16 32) a x).toNat < S4480.size a := fun v727 k0_hw127 => k0_hw127
@[reducible] def k0_t3_loop : Scf.Loop 32 :=
  let c0_i32_150 : BitVec 32 := 0#32
  let c128_i32_151 : BitVec 32 := 128#32
  let v736 : BitVec 32 := Scalar.addi c0_i32_150 c128_i32_151
  let c1_i32_152 : BitVec 32 := 1#32
  ⟨c0_i32_150, v736, c1_i32_152⟩

def k0_chk128 (v1795 : IVec S16 32) : Prop :=
  (∀ a x, ((![v1795] : Fin 1 → IVec S16 32) a x).toNat < S28672.size a)
instance k0_chk128.dec : ∀ (v1795 : IVec S16 32), Decidable (k0_chk128 v1795) := fun v1795 => decidable_of_iff' _ (Iff.of_eq (k0_chk128.eq_1 v1795))
theorem k0_idx128_inb : ∀ (v1795 : IVec S16 32) (k0_hw128 : k0_chk128 v1795), ∀ a x, ((![v1795] : Fin 1 → IVec S16 32) a x).toNat < S28672.size a := fun v1795 k0_hw128 => k0_hw128

def k0_chk129 (v1797 : IVec S16 32) : Prop :=
  (∀ a x, ((![v1797] : Fin 1 → IVec S16 32) a x).toNat < S28672.size a)
instance k0_chk129.dec : ∀ (v1797 : IVec S16 32), Decidable (k0_chk129 v1797) := fun v1797 => decidable_of_iff' _ (Iff.of_eq (k0_chk129.eq_1 v1797))
theorem k0_idx129_inb : ∀ (v1797 : IVec S16 32) (k0_hw129 : k0_chk129 v1797), ∀ a x, ((![v1797] : Fin 1 → IVec S16 32) a x).toNat < S28672.size a := fun v1797 k0_hw129 => k0_hw129

def k0_chk130 (v1799 : IVec S16 32) : Prop :=
  (∀ a x, ((![v1799] : Fin 1 → IVec S16 32) a x).toNat < S28672.size a)
instance k0_chk130.dec : ∀ (v1799 : IVec S16 32), Decidable (k0_chk130 v1799) := fun v1799 => decidable_of_iff' _ (Iff.of_eq (k0_chk130.eq_1 v1799))
theorem k0_idx130_inb : ∀ (v1799 : IVec S16 32) (k0_hw130 : k0_chk130 v1799), ∀ a x, ((![v1799] : Fin 1 → IVec S16 32) a x).toNat < S28672.size a := fun v1799 k0_hw130 => k0_hw130

def k0_chk131 (v1801 : IVec S16 32) : Prop :=
  (∀ a x, ((![v1801] : Fin 1 → IVec S16 32) a x).toNat < S28672.size a)
instance k0_chk131.dec : ∀ (v1801 : IVec S16 32), Decidable (k0_chk131 v1801) := fun v1801 => decidable_of_iff' _ (Iff.of_eq (k0_chk131.eq_1 v1801))
theorem k0_idx131_inb : ∀ (v1801 : IVec S16 32) (k0_hw131 : k0_chk131 v1801), ∀ a x, ((![v1801] : Fin 1 → IVec S16 32) a x).toNat < S28672.size a := fun v1801 k0_hw131 => k0_hw131

def k0_chk132 (v1803 : IVec S16 32) : Prop :=
  (∀ a x, ((![v1803] : Fin 1 → IVec S16 32) a x).toNat < S28672.size a)
instance k0_chk132.dec : ∀ (v1803 : IVec S16 32), Decidable (k0_chk132 v1803) := fun v1803 => decidable_of_iff' _ (Iff.of_eq (k0_chk132.eq_1 v1803))
theorem k0_idx132_inb : ∀ (v1803 : IVec S16 32) (k0_hw132 : k0_chk132 v1803), ∀ a x, ((![v1803] : Fin 1 → IVec S16 32) a x).toNat < S28672.size a := fun v1803 k0_hw132 => k0_hw132

def k0_chk133 (v1805 : IVec S16 32) : Prop :=
  (∀ a x, ((![v1805] : Fin 1 → IVec S16 32) a x).toNat < S28672.size a)
instance k0_chk133.dec : ∀ (v1805 : IVec S16 32), Decidable (k0_chk133 v1805) := fun v1805 => decidable_of_iff' _ (Iff.of_eq (k0_chk133.eq_1 v1805))
theorem k0_idx133_inb : ∀ (v1805 : IVec S16 32) (k0_hw133 : k0_chk133 v1805), ∀ a x, ((![v1805] : Fin 1 → IVec S16 32) a x).toNat < S28672.size a := fun v1805 k0_hw133 => k0_hw133

def k0_chk134 (v1807 : IVec S16 32) : Prop :=
  (∀ a x, ((![v1807] : Fin 1 → IVec S16 32) a x).toNat < S28672.size a)
instance k0_chk134.dec : ∀ (v1807 : IVec S16 32), Decidable (k0_chk134 v1807) := fun v1807 => decidable_of_iff' _ (Iff.of_eq (k0_chk134.eq_1 v1807))
theorem k0_idx134_inb : ∀ (v1807 : IVec S16 32) (k0_hw134 : k0_chk134 v1807), ∀ a x, ((![v1807] : Fin 1 → IVec S16 32) a x).toNat < S28672.size a := fun v1807 k0_hw134 => k0_hw134

def k0_chk135 (v1809 : IVec S16 32) : Prop :=
  (∀ a x, ((![v1809] : Fin 1 → IVec S16 32) a x).toNat < S28672.size a)
instance k0_chk135.dec : ∀ (v1809 : IVec S16 32), Decidable (k0_chk135 v1809) := fun v1809 => decidable_of_iff' _ (Iff.of_eq (k0_chk135.eq_1 v1809))
theorem k0_idx135_inb : ∀ (v1809 : IVec S16 32) (k0_hw135 : k0_chk135 v1809), ∀ a x, ((![v1809] : Fin 1 → IVec S16 32) a x).toNat < S28672.size a := fun v1809 k0_hw135 => k0_hw135

def k0_chk136 (v1811 : IVec S16 32) : Prop :=
  (∀ a x, ((![v1811] : Fin 1 → IVec S16 32) a x).toNat < S28672.size a)
instance k0_chk136.dec : ∀ (v1811 : IVec S16 32), Decidable (k0_chk136 v1811) := fun v1811 => decidable_of_iff' _ (Iff.of_eq (k0_chk136.eq_1 v1811))
theorem k0_idx136_inb : ∀ (v1811 : IVec S16 32) (k0_hw136 : k0_chk136 v1811), ∀ a x, ((![v1811] : Fin 1 → IVec S16 32) a x).toNat < S28672.size a := fun v1811 k0_hw136 => k0_hw136

def k0_chk137 (v1813 : IVec S16 32) : Prop :=
  (∀ a x, ((![v1813] : Fin 1 → IVec S16 32) a x).toNat < S28672.size a)
instance k0_chk137.dec : ∀ (v1813 : IVec S16 32), Decidable (k0_chk137 v1813) := fun v1813 => decidable_of_iff' _ (Iff.of_eq (k0_chk137.eq_1 v1813))
theorem k0_idx137_inb : ∀ (v1813 : IVec S16 32) (k0_hw137 : k0_chk137 v1813), ∀ a x, ((![v1813] : Fin 1 → IVec S16 32) a x).toNat < S28672.size a := fun v1813 k0_hw137 => k0_hw137

def k0_chk138 (v1815 : IVec S16 32) : Prop :=
  (∀ a x, ((![v1815] : Fin 1 → IVec S16 32) a x).toNat < S28672.size a)
instance k0_chk138.dec : ∀ (v1815 : IVec S16 32), Decidable (k0_chk138 v1815) := fun v1815 => decidable_of_iff' _ (Iff.of_eq (k0_chk138.eq_1 v1815))
theorem k0_idx138_inb : ∀ (v1815 : IVec S16 32) (k0_hw138 : k0_chk138 v1815), ∀ a x, ((![v1815] : Fin 1 → IVec S16 32) a x).toNat < S28672.size a := fun v1815 k0_hw138 => k0_hw138

def k0_chk139 (v1817 : IVec S16 32) : Prop :=
  (∀ a x, ((![v1817] : Fin 1 → IVec S16 32) a x).toNat < S28672.size a)
instance k0_chk139.dec : ∀ (v1817 : IVec S16 32), Decidable (k0_chk139 v1817) := fun v1817 => decidable_of_iff' _ (Iff.of_eq (k0_chk139.eq_1 v1817))
theorem k0_idx139_inb : ∀ (v1817 : IVec S16 32) (k0_hw139 : k0_chk139 v1817), ∀ a x, ((![v1817] : Fin 1 → IVec S16 32) a x).toNat < S28672.size a := fun v1817 k0_hw139 => k0_hw139

def k0_chk140 (v1819 : IVec S16 32) : Prop :=
  (∀ a x, ((![v1819] : Fin 1 → IVec S16 32) a x).toNat < S28672.size a)
instance k0_chk140.dec : ∀ (v1819 : IVec S16 32), Decidable (k0_chk140 v1819) := fun v1819 => decidable_of_iff' _ (Iff.of_eq (k0_chk140.eq_1 v1819))
theorem k0_idx140_inb : ∀ (v1819 : IVec S16 32) (k0_hw140 : k0_chk140 v1819), ∀ a x, ((![v1819] : Fin 1 → IVec S16 32) a x).toNat < S28672.size a := fun v1819 k0_hw140 => k0_hw140

def k0_chk141 (v1821 : IVec S16 32) : Prop :=
  (∀ a x, ((![v1821] : Fin 1 → IVec S16 32) a x).toNat < S28672.size a)
instance k0_chk141.dec : ∀ (v1821 : IVec S16 32), Decidable (k0_chk141 v1821) := fun v1821 => decidable_of_iff' _ (Iff.of_eq (k0_chk141.eq_1 v1821))
theorem k0_idx141_inb : ∀ (v1821 : IVec S16 32) (k0_hw141 : k0_chk141 v1821), ∀ a x, ((![v1821] : Fin 1 → IVec S16 32) a x).toNat < S28672.size a := fun v1821 k0_hw141 => k0_hw141

def k0_chk142 (v1838 : IVec S16 32) : Prop :=
  (∀ a x, ((![v1838] : Fin 1 → IVec S16 32) a x).toNat < S10240.size a)
instance k0_chk142.dec : ∀ (v1838 : IVec S16 32), Decidable (k0_chk142 v1838) := fun v1838 => decidable_of_iff' _ (Iff.of_eq (k0_chk142.eq_1 v1838))
theorem k0_idx142_inb : ∀ (v1838 : IVec S16 32) (k0_hw142 : k0_chk142 v1838), ∀ a x, ((![v1838] : Fin 1 → IVec S16 32) a x).toNat < S10240.size a := fun v1838 k0_hw142 => k0_hw142

def k0_chk143 (v738 : IVec S16 32) : Prop :=
  (∀ a x, ((![v738] : Fin 1 → IVec S16 32) a x).toNat < S4480.size a)
instance k0_chk143.dec : ∀ (v738 : IVec S16 32), Decidable (k0_chk143 v738) := fun v738 => decidable_of_iff' _ (Iff.of_eq (k0_chk143.eq_1 v738))
theorem k0_idx143_inb : ∀ (v738 : IVec S16 32) (k0_hw143 : k0_chk143 v738), ∀ a x, ((![v738] : Fin 1 → IVec S16 32) a x).toNat < S4480.size a := fun v738 k0_hw143 => k0_hw143

def k0_chk144 (v741 : IVec S16 32) : Prop :=
  (∀ a x, ((![v741] : Fin 1 → IVec S16 32) a x).toNat < S4480.size a)
instance k0_chk144.dec : ∀ (v741 : IVec S16 32), Decidable (k0_chk144 v741) := fun v741 => decidable_of_iff' _ (Iff.of_eq (k0_chk144.eq_1 v741))
theorem k0_idx144_inb : ∀ (v741 : IVec S16 32) (k0_hw144 : k0_chk144 v741), ∀ a x, ((![v741] : Fin 1 → IVec S16 32) a x).toNat < S4480.size a := fun v741 k0_hw144 => k0_hw144

def k0_chk145 (v747 : IVec S16 32) : Prop :=
  (∀ a x, ((![v747] : Fin 1 → IVec S16 32) a x).toNat < S4480.size a)
instance k0_chk145.dec : ∀ (v747 : IVec S16 32), Decidable (k0_chk145 v747) := fun v747 => decidable_of_iff' _ (Iff.of_eq (k0_chk145.eq_1 v747))
theorem k0_idx145_inb : ∀ (v747 : IVec S16 32) (k0_hw145 : k0_chk145 v747), ∀ a x, ((![v747] : Fin 1 → IVec S16 32) a x).toNat < S4480.size a := fun v747 k0_hw145 => k0_hw145

def k0_chk146 (v753 : IVec S16 32) : Prop :=
  (∀ a x, ((![v753] : Fin 1 → IVec S16 32) a x).toNat < S4480.size a)
instance k0_chk146.dec : ∀ (v753 : IVec S16 32), Decidable (k0_chk146 v753) := fun v753 => decidable_of_iff' _ (Iff.of_eq (k0_chk146.eq_1 v753))
theorem k0_idx146_inb : ∀ (v753 : IVec S16 32) (k0_hw146 : k0_chk146 v753), ∀ a x, ((![v753] : Fin 1 → IVec S16 32) a x).toNat < S4480.size a := fun v753 k0_hw146 => k0_hw146

def k0_chk147 (v763 : IVec S16 32) : Prop :=
  (∀ a x, ((![v763] : Fin 1 → IVec S16 32) a x).toNat < S4480.size a)
instance k0_chk147.dec : ∀ (v763 : IVec S16 32), Decidable (k0_chk147 v763) := fun v763 => decidable_of_iff' _ (Iff.of_eq (k0_chk147.eq_1 v763))
theorem k0_idx147_inb : ∀ (v763 : IVec S16 32) (k0_hw147 : k0_chk147 v763), ∀ a x, ((![v763] : Fin 1 → IVec S16 32) a x).toNat < S4480.size a := fun v763 k0_hw147 => k0_hw147

def k0_chk148 (v766 : IVec S16 32) : Prop :=
  (∀ a x, ((![v766] : Fin 1 → IVec S16 32) a x).toNat < S4480.size a)
instance k0_chk148.dec : ∀ (v766 : IVec S16 32), Decidable (k0_chk148 v766) := fun v766 => decidable_of_iff' _ (Iff.of_eq (k0_chk148.eq_1 v766))
theorem k0_idx148_inb : ∀ (v766 : IVec S16 32) (k0_hw148 : k0_chk148 v766), ∀ a x, ((![v766] : Fin 1 → IVec S16 32) a x).toNat < S4480.size a := fun v766 k0_hw148 => k0_hw148

def k0_chk149 (v772 : IVec S16 32) : Prop :=
  (∀ a x, ((![v772] : Fin 1 → IVec S16 32) a x).toNat < S4480.size a)
instance k0_chk149.dec : ∀ (v772 : IVec S16 32), Decidable (k0_chk149 v772) := fun v772 => decidable_of_iff' _ (Iff.of_eq (k0_chk149.eq_1 v772))
theorem k0_idx149_inb : ∀ (v772 : IVec S16 32) (k0_hw149 : k0_chk149 v772), ∀ a x, ((![v772] : Fin 1 → IVec S16 32) a x).toNat < S4480.size a := fun v772 k0_hw149 => k0_hw149

def k0_chk150 (v778 : IVec S16 32) : Prop :=
  (∀ a x, ((![v778] : Fin 1 → IVec S16 32) a x).toNat < S4480.size a)
instance k0_chk150.dec : ∀ (v778 : IVec S16 32), Decidable (k0_chk150 v778) := fun v778 => decidable_of_iff' _ (Iff.of_eq (k0_chk150.eq_1 v778))
theorem k0_idx150_inb : ∀ (v778 : IVec S16 32) (k0_hw150 : k0_chk150 v778), ∀ a x, ((![v778] : Fin 1 → IVec S16 32) a x).toNat < S4480.size a := fun v778 k0_hw150 => k0_hw150

def k0_chk151 (v788 : IVec S16 32) : Prop :=
  (∀ a x, ((![v788] : Fin 1 → IVec S16 32) a x).toNat < S4480.size a)
instance k0_chk151.dec : ∀ (v788 : IVec S16 32), Decidable (k0_chk151 v788) := fun v788 => decidable_of_iff' _ (Iff.of_eq (k0_chk151.eq_1 v788))
theorem k0_idx151_inb : ∀ (v788 : IVec S16 32) (k0_hw151 : k0_chk151 v788), ∀ a x, ((![v788] : Fin 1 → IVec S16 32) a x).toNat < S4480.size a := fun v788 k0_hw151 => k0_hw151

def k0_chk152 (v791 : IVec S16 32) : Prop :=
  (∀ a x, ((![v791] : Fin 1 → IVec S16 32) a x).toNat < S4480.size a)
instance k0_chk152.dec : ∀ (v791 : IVec S16 32), Decidable (k0_chk152 v791) := fun v791 => decidable_of_iff' _ (Iff.of_eq (k0_chk152.eq_1 v791))
theorem k0_idx152_inb : ∀ (v791 : IVec S16 32) (k0_hw152 : k0_chk152 v791), ∀ a x, ((![v791] : Fin 1 → IVec S16 32) a x).toNat < S4480.size a := fun v791 k0_hw152 => k0_hw152

def k0_chk153 (v797 : IVec S16 32) : Prop :=
  (∀ a x, ((![v797] : Fin 1 → IVec S16 32) a x).toNat < S4480.size a)
instance k0_chk153.dec : ∀ (v797 : IVec S16 32), Decidable (k0_chk153 v797) := fun v797 => decidable_of_iff' _ (Iff.of_eq (k0_chk153.eq_1 v797))
theorem k0_idx153_inb : ∀ (v797 : IVec S16 32) (k0_hw153 : k0_chk153 v797), ∀ a x, ((![v797] : Fin 1 → IVec S16 32) a x).toNat < S4480.size a := fun v797 k0_hw153 => k0_hw153

def k0_chk154 (v803 : IVec S16 32) : Prop :=
  (∀ a x, ((![v803] : Fin 1 → IVec S16 32) a x).toNat < S4480.size a)
instance k0_chk154.dec : ∀ (v803 : IVec S16 32), Decidable (k0_chk154 v803) := fun v803 => decidable_of_iff' _ (Iff.of_eq (k0_chk154.eq_1 v803))
theorem k0_idx154_inb : ∀ (v803 : IVec S16 32) (k0_hw154 : k0_chk154 v803), ∀ a x, ((![v803] : Fin 1 → IVec S16 32) a x).toNat < S4480.size a := fun v803 k0_hw154 => k0_hw154

def k0_chk155 (v813 : IVec S16 32) : Prop :=
  (∀ a x, ((![v813] : Fin 1 → IVec S16 32) a x).toNat < S4480.size a)
instance k0_chk155.dec : ∀ (v813 : IVec S16 32), Decidable (k0_chk155 v813) := fun v813 => decidable_of_iff' _ (Iff.of_eq (k0_chk155.eq_1 v813))
theorem k0_idx155_inb : ∀ (v813 : IVec S16 32) (k0_hw155 : k0_chk155 v813), ∀ a x, ((![v813] : Fin 1 → IVec S16 32) a x).toNat < S4480.size a := fun v813 k0_hw155 => k0_hw155

def k0_chk156 (v816 : IVec S16 32) : Prop :=
  (∀ a x, ((![v816] : Fin 1 → IVec S16 32) a x).toNat < S4480.size a)
instance k0_chk156.dec : ∀ (v816 : IVec S16 32), Decidable (k0_chk156 v816) := fun v816 => decidable_of_iff' _ (Iff.of_eq (k0_chk156.eq_1 v816))
theorem k0_idx156_inb : ∀ (v816 : IVec S16 32) (k0_hw156 : k0_chk156 v816), ∀ a x, ((![v816] : Fin 1 → IVec S16 32) a x).toNat < S4480.size a := fun v816 k0_hw156 => k0_hw156

def k0_chk157 (v822 : IVec S16 32) : Prop :=
  (∀ a x, ((![v822] : Fin 1 → IVec S16 32) a x).toNat < S4480.size a)
instance k0_chk157.dec : ∀ (v822 : IVec S16 32), Decidable (k0_chk157 v822) := fun v822 => decidable_of_iff' _ (Iff.of_eq (k0_chk157.eq_1 v822))
theorem k0_idx157_inb : ∀ (v822 : IVec S16 32) (k0_hw157 : k0_chk157 v822), ∀ a x, ((![v822] : Fin 1 → IVec S16 32) a x).toNat < S4480.size a := fun v822 k0_hw157 => k0_hw157

def k0_chk158 (v828 : IVec S16 32) : Prop :=
  (∀ a x, ((![v828] : Fin 1 → IVec S16 32) a x).toNat < S4480.size a)
instance k0_chk158.dec : ∀ (v828 : IVec S16 32), Decidable (k0_chk158 v828) := fun v828 => decidable_of_iff' _ (Iff.of_eq (k0_chk158.eq_1 v828))
theorem k0_idx158_inb : ∀ (v828 : IVec S16 32) (k0_hw158 : k0_chk158 v828), ∀ a x, ((![v828] : Fin 1 → IVec S16 32) a x).toNat < S4480.size a := fun v828 k0_hw158 => k0_hw158

def k0_chk159 (v838 : IVec S16 32) : Prop :=
  (∀ a x, ((![v838] : Fin 1 → IVec S16 32) a x).toNat < S4480.size a)
instance k0_chk159.dec : ∀ (v838 : IVec S16 32), Decidable (k0_chk159 v838) := fun v838 => decidable_of_iff' _ (Iff.of_eq (k0_chk159.eq_1 v838))
theorem k0_idx159_inb : ∀ (v838 : IVec S16 32) (k0_hw159 : k0_chk159 v838), ∀ a x, ((![v838] : Fin 1 → IVec S16 32) a x).toNat < S4480.size a := fun v838 k0_hw159 => k0_hw159

def k0_chk160 (v841 : IVec S16 32) : Prop :=
  (∀ a x, ((![v841] : Fin 1 → IVec S16 32) a x).toNat < S4480.size a)
instance k0_chk160.dec : ∀ (v841 : IVec S16 32), Decidable (k0_chk160 v841) := fun v841 => decidable_of_iff' _ (Iff.of_eq (k0_chk160.eq_1 v841))
theorem k0_idx160_inb : ∀ (v841 : IVec S16 32) (k0_hw160 : k0_chk160 v841), ∀ a x, ((![v841] : Fin 1 → IVec S16 32) a x).toNat < S4480.size a := fun v841 k0_hw160 => k0_hw160

def k0_chk161 (v847 : IVec S16 32) : Prop :=
  (∀ a x, ((![v847] : Fin 1 → IVec S16 32) a x).toNat < S4480.size a)
instance k0_chk161.dec : ∀ (v847 : IVec S16 32), Decidable (k0_chk161 v847) := fun v847 => decidable_of_iff' _ (Iff.of_eq (k0_chk161.eq_1 v847))
theorem k0_idx161_inb : ∀ (v847 : IVec S16 32) (k0_hw161 : k0_chk161 v847), ∀ a x, ((![v847] : Fin 1 → IVec S16 32) a x).toNat < S4480.size a := fun v847 k0_hw161 => k0_hw161

def k0_chk162 (v853 : IVec S16 32) : Prop :=
  (∀ a x, ((![v853] : Fin 1 → IVec S16 32) a x).toNat < S4480.size a)
instance k0_chk162.dec : ∀ (v853 : IVec S16 32), Decidable (k0_chk162 v853) := fun v853 => decidable_of_iff' _ (Iff.of_eq (k0_chk162.eq_1 v853))
theorem k0_idx162_inb : ∀ (v853 : IVec S16 32) (k0_hw162 : k0_chk162 v853), ∀ a x, ((![v853] : Fin 1 → IVec S16 32) a x).toNat < S4480.size a := fun v853 k0_hw162 => k0_hw162

def k0_chk163 (v863 : IVec S16 32) : Prop :=
  (∀ a x, ((![v863] : Fin 1 → IVec S16 32) a x).toNat < S4480.size a)
instance k0_chk163.dec : ∀ (v863 : IVec S16 32), Decidable (k0_chk163 v863) := fun v863 => decidable_of_iff' _ (Iff.of_eq (k0_chk163.eq_1 v863))
theorem k0_idx163_inb : ∀ (v863 : IVec S16 32) (k0_hw163 : k0_chk163 v863), ∀ a x, ((![v863] : Fin 1 → IVec S16 32) a x).toNat < S4480.size a := fun v863 k0_hw163 => k0_hw163

def k0_chk164 (v866 : IVec S16 32) : Prop :=
  (∀ a x, ((![v866] : Fin 1 → IVec S16 32) a x).toNat < S4480.size a)
instance k0_chk164.dec : ∀ (v866 : IVec S16 32), Decidable (k0_chk164 v866) := fun v866 => decidable_of_iff' _ (Iff.of_eq (k0_chk164.eq_1 v866))
theorem k0_idx164_inb : ∀ (v866 : IVec S16 32) (k0_hw164 : k0_chk164 v866), ∀ a x, ((![v866] : Fin 1 → IVec S16 32) a x).toNat < S4480.size a := fun v866 k0_hw164 => k0_hw164

def k0_chk165 (v872 : IVec S16 32) : Prop :=
  (∀ a x, ((![v872] : Fin 1 → IVec S16 32) a x).toNat < S4480.size a)
instance k0_chk165.dec : ∀ (v872 : IVec S16 32), Decidable (k0_chk165 v872) := fun v872 => decidable_of_iff' _ (Iff.of_eq (k0_chk165.eq_1 v872))
theorem k0_idx165_inb : ∀ (v872 : IVec S16 32) (k0_hw165 : k0_chk165 v872), ∀ a x, ((![v872] : Fin 1 → IVec S16 32) a x).toNat < S4480.size a := fun v872 k0_hw165 => k0_hw165

def k0_chk166 (v878 : IVec S16 32) : Prop :=
  (∀ a x, ((![v878] : Fin 1 → IVec S16 32) a x).toNat < S4480.size a)
instance k0_chk166.dec : ∀ (v878 : IVec S16 32), Decidable (k0_chk166 v878) := fun v878 => decidable_of_iff' _ (Iff.of_eq (k0_chk166.eq_1 v878))
theorem k0_idx166_inb : ∀ (v878 : IVec S16 32) (k0_hw166 : k0_chk166 v878), ∀ a x, ((![v878] : Fin 1 → IVec S16 32) a x).toNat < S4480.size a := fun v878 k0_hw166 => k0_hw166

def k0_chk167 (v888 : IVec S16 32) : Prop :=
  (∀ a x, ((![v888] : Fin 1 → IVec S16 32) a x).toNat < S4480.size a)
instance k0_chk167.dec : ∀ (v888 : IVec S16 32), Decidable (k0_chk167 v888) := fun v888 => decidable_of_iff' _ (Iff.of_eq (k0_chk167.eq_1 v888))
theorem k0_idx167_inb : ∀ (v888 : IVec S16 32) (k0_hw167 : k0_chk167 v888), ∀ a x, ((![v888] : Fin 1 → IVec S16 32) a x).toNat < S4480.size a := fun v888 k0_hw167 => k0_hw167

def k0_chk168 (v891 : IVec S16 32) : Prop :=
  (∀ a x, ((![v891] : Fin 1 → IVec S16 32) a x).toNat < S4480.size a)
instance k0_chk168.dec : ∀ (v891 : IVec S16 32), Decidable (k0_chk168 v891) := fun v891 => decidable_of_iff' _ (Iff.of_eq (k0_chk168.eq_1 v891))
theorem k0_idx168_inb : ∀ (v891 : IVec S16 32) (k0_hw168 : k0_chk168 v891), ∀ a x, ((![v891] : Fin 1 → IVec S16 32) a x).toNat < S4480.size a := fun v891 k0_hw168 => k0_hw168

def k0_chk169 (v897 : IVec S16 32) : Prop :=
  (∀ a x, ((![v897] : Fin 1 → IVec S16 32) a x).toNat < S4480.size a)
instance k0_chk169.dec : ∀ (v897 : IVec S16 32), Decidable (k0_chk169 v897) := fun v897 => decidable_of_iff' _ (Iff.of_eq (k0_chk169.eq_1 v897))
theorem k0_idx169_inb : ∀ (v897 : IVec S16 32) (k0_hw169 : k0_chk169 v897), ∀ a x, ((![v897] : Fin 1 → IVec S16 32) a x).toNat < S4480.size a := fun v897 k0_hw169 => k0_hw169

def k0_chk170 (v903 : IVec S16 32) : Prop :=
  (∀ a x, ((![v903] : Fin 1 → IVec S16 32) a x).toNat < S4480.size a)
instance k0_chk170.dec : ∀ (v903 : IVec S16 32), Decidable (k0_chk170 v903) := fun v903 => decidable_of_iff' _ (Iff.of_eq (k0_chk170.eq_1 v903))
theorem k0_idx170_inb : ∀ (v903 : IVec S16 32) (k0_hw170 : k0_chk170 v903), ∀ a x, ((![v903] : Fin 1 → IVec S16 32) a x).toNat < S4480.size a := fun v903 k0_hw170 => k0_hw170

def k0_chk171 (v913 : IVec S16 32) : Prop :=
  (∀ a x, ((![v913] : Fin 1 → IVec S16 32) a x).toNat < S4480.size a)
instance k0_chk171.dec : ∀ (v913 : IVec S16 32), Decidable (k0_chk171 v913) := fun v913 => decidable_of_iff' _ (Iff.of_eq (k0_chk171.eq_1 v913))
theorem k0_idx171_inb : ∀ (v913 : IVec S16 32) (k0_hw171 : k0_chk171 v913), ∀ a x, ((![v913] : Fin 1 → IVec S16 32) a x).toNat < S4480.size a := fun v913 k0_hw171 => k0_hw171

def k0_chk172 (v916 : IVec S16 32) : Prop :=
  (∀ a x, ((![v916] : Fin 1 → IVec S16 32) a x).toNat < S4480.size a)
instance k0_chk172.dec : ∀ (v916 : IVec S16 32), Decidable (k0_chk172 v916) := fun v916 => decidable_of_iff' _ (Iff.of_eq (k0_chk172.eq_1 v916))
theorem k0_idx172_inb : ∀ (v916 : IVec S16 32) (k0_hw172 : k0_chk172 v916), ∀ a x, ((![v916] : Fin 1 → IVec S16 32) a x).toNat < S4480.size a := fun v916 k0_hw172 => k0_hw172

def k0_chk173 (v922 : IVec S16 32) : Prop :=
  (∀ a x, ((![v922] : Fin 1 → IVec S16 32) a x).toNat < S4480.size a)
instance k0_chk173.dec : ∀ (v922 : IVec S16 32), Decidable (k0_chk173 v922) := fun v922 => decidable_of_iff' _ (Iff.of_eq (k0_chk173.eq_1 v922))
theorem k0_idx173_inb : ∀ (v922 : IVec S16 32) (k0_hw173 : k0_chk173 v922), ∀ a x, ((![v922] : Fin 1 → IVec S16 32) a x).toNat < S4480.size a := fun v922 k0_hw173 => k0_hw173

def k0_chk174 (v928 : IVec S16 32) : Prop :=
  (∀ a x, ((![v928] : Fin 1 → IVec S16 32) a x).toNat < S4480.size a)
instance k0_chk174.dec : ∀ (v928 : IVec S16 32), Decidable (k0_chk174 v928) := fun v928 => decidable_of_iff' _ (Iff.of_eq (k0_chk174.eq_1 v928))
theorem k0_idx174_inb : ∀ (v928 : IVec S16 32) (k0_hw174 : k0_chk174 v928), ∀ a x, ((![v928] : Fin 1 → IVec S16 32) a x).toNat < S4480.size a := fun v928 k0_hw174 => k0_hw174

def k0_chk175 (v938 : IVec S16 32) : Prop :=
  (∀ a x, ((![v938] : Fin 1 → IVec S16 32) a x).toNat < S4480.size a)
instance k0_chk175.dec : ∀ (v938 : IVec S16 32), Decidable (k0_chk175 v938) := fun v938 => decidable_of_iff' _ (Iff.of_eq (k0_chk175.eq_1 v938))
theorem k0_idx175_inb : ∀ (v938 : IVec S16 32) (k0_hw175 : k0_chk175 v938), ∀ a x, ((![v938] : Fin 1 → IVec S16 32) a x).toNat < S4480.size a := fun v938 k0_hw175 => k0_hw175

def k0_chk176 (v941 : IVec S16 32) : Prop :=
  (∀ a x, ((![v941] : Fin 1 → IVec S16 32) a x).toNat < S4480.size a)
instance k0_chk176.dec : ∀ (v941 : IVec S16 32), Decidable (k0_chk176 v941) := fun v941 => decidable_of_iff' _ (Iff.of_eq (k0_chk176.eq_1 v941))
theorem k0_idx176_inb : ∀ (v941 : IVec S16 32) (k0_hw176 : k0_chk176 v941), ∀ a x, ((![v941] : Fin 1 → IVec S16 32) a x).toNat < S4480.size a := fun v941 k0_hw176 => k0_hw176

def k0_chk177 (v947 : IVec S16 32) : Prop :=
  (∀ a x, ((![v947] : Fin 1 → IVec S16 32) a x).toNat < S4480.size a)
instance k0_chk177.dec : ∀ (v947 : IVec S16 32), Decidable (k0_chk177 v947) := fun v947 => decidable_of_iff' _ (Iff.of_eq (k0_chk177.eq_1 v947))
theorem k0_idx177_inb : ∀ (v947 : IVec S16 32) (k0_hw177 : k0_chk177 v947), ∀ a x, ((![v947] : Fin 1 → IVec S16 32) a x).toNat < S4480.size a := fun v947 k0_hw177 => k0_hw177

def k0_chk178 (v953 : IVec S16 32) : Prop :=
  (∀ a x, ((![v953] : Fin 1 → IVec S16 32) a x).toNat < S4480.size a)
instance k0_chk178.dec : ∀ (v953 : IVec S16 32), Decidable (k0_chk178 v953) := fun v953 => decidable_of_iff' _ (Iff.of_eq (k0_chk178.eq_1 v953))
theorem k0_idx178_inb : ∀ (v953 : IVec S16 32) (k0_hw178 : k0_chk178 v953), ∀ a x, ((![v953] : Fin 1 → IVec S16 32) a x).toNat < S4480.size a := fun v953 k0_hw178 => k0_hw178

def k0_chk179 (v963 : IVec S16 32) : Prop :=
  (∀ a x, ((![v963] : Fin 1 → IVec S16 32) a x).toNat < S4480.size a)
instance k0_chk179.dec : ∀ (v963 : IVec S16 32), Decidable (k0_chk179 v963) := fun v963 => decidable_of_iff' _ (Iff.of_eq (k0_chk179.eq_1 v963))
theorem k0_idx179_inb : ∀ (v963 : IVec S16 32) (k0_hw179 : k0_chk179 v963), ∀ a x, ((![v963] : Fin 1 → IVec S16 32) a x).toNat < S4480.size a := fun v963 k0_hw179 => k0_hw179

def k0_chk180 (v966 : IVec S16 32) : Prop :=
  (∀ a x, ((![v966] : Fin 1 → IVec S16 32) a x).toNat < S4480.size a)
instance k0_chk180.dec : ∀ (v966 : IVec S16 32), Decidable (k0_chk180 v966) := fun v966 => decidable_of_iff' _ (Iff.of_eq (k0_chk180.eq_1 v966))
theorem k0_idx180_inb : ∀ (v966 : IVec S16 32) (k0_hw180 : k0_chk180 v966), ∀ a x, ((![v966] : Fin 1 → IVec S16 32) a x).toNat < S4480.size a := fun v966 k0_hw180 => k0_hw180

def k0_chk181 (v972 : IVec S16 32) : Prop :=
  (∀ a x, ((![v972] : Fin 1 → IVec S16 32) a x).toNat < S4480.size a)
instance k0_chk181.dec : ∀ (v972 : IVec S16 32), Decidable (k0_chk181 v972) := fun v972 => decidable_of_iff' _ (Iff.of_eq (k0_chk181.eq_1 v972))
theorem k0_idx181_inb : ∀ (v972 : IVec S16 32) (k0_hw181 : k0_chk181 v972), ∀ a x, ((![v972] : Fin 1 → IVec S16 32) a x).toNat < S4480.size a := fun v972 k0_hw181 => k0_hw181

def k0_chk182 (v978 : IVec S16 32) : Prop :=
  (∀ a x, ((![v978] : Fin 1 → IVec S16 32) a x).toNat < S4480.size a)
instance k0_chk182.dec : ∀ (v978 : IVec S16 32), Decidable (k0_chk182 v978) := fun v978 => decidable_of_iff' _ (Iff.of_eq (k0_chk182.eq_1 v978))
theorem k0_idx182_inb : ∀ (v978 : IVec S16 32) (k0_hw182 : k0_chk182 v978), ∀ a x, ((![v978] : Fin 1 → IVec S16 32) a x).toNat < S4480.size a := fun v978 k0_hw182 => k0_hw182

def k0_chk183 (v988 : IVec S16 32) : Prop :=
  (∀ a x, ((![v988] : Fin 1 → IVec S16 32) a x).toNat < S4480.size a)
instance k0_chk183.dec : ∀ (v988 : IVec S16 32), Decidable (k0_chk183 v988) := fun v988 => decidable_of_iff' _ (Iff.of_eq (k0_chk183.eq_1 v988))
theorem k0_idx183_inb : ∀ (v988 : IVec S16 32) (k0_hw183 : k0_chk183 v988), ∀ a x, ((![v988] : Fin 1 → IVec S16 32) a x).toNat < S4480.size a := fun v988 k0_hw183 => k0_hw183

def k0_chk184 (v991 : IVec S16 32) : Prop :=
  (∀ a x, ((![v991] : Fin 1 → IVec S16 32) a x).toNat < S4480.size a)
instance k0_chk184.dec : ∀ (v991 : IVec S16 32), Decidable (k0_chk184 v991) := fun v991 => decidable_of_iff' _ (Iff.of_eq (k0_chk184.eq_1 v991))
theorem k0_idx184_inb : ∀ (v991 : IVec S16 32) (k0_hw184 : k0_chk184 v991), ∀ a x, ((![v991] : Fin 1 → IVec S16 32) a x).toNat < S4480.size a := fun v991 k0_hw184 => k0_hw184

def k0_chk185 (v997 : IVec S16 32) : Prop :=
  (∀ a x, ((![v997] : Fin 1 → IVec S16 32) a x).toNat < S4480.size a)
instance k0_chk185.dec : ∀ (v997 : IVec S16 32), Decidable (k0_chk185 v997) := fun v997 => decidable_of_iff' _ (Iff.of_eq (k0_chk185.eq_1 v997))
theorem k0_idx185_inb : ∀ (v997 : IVec S16 32) (k0_hw185 : k0_chk185 v997), ∀ a x, ((![v997] : Fin 1 → IVec S16 32) a x).toNat < S4480.size a := fun v997 k0_hw185 => k0_hw185

def k0_chk186 (v1003 : IVec S16 32) : Prop :=
  (∀ a x, ((![v1003] : Fin 1 → IVec S16 32) a x).toNat < S4480.size a)
instance k0_chk186.dec : ∀ (v1003 : IVec S16 32), Decidable (k0_chk186 v1003) := fun v1003 => decidable_of_iff' _ (Iff.of_eq (k0_chk186.eq_1 v1003))
theorem k0_idx186_inb : ∀ (v1003 : IVec S16 32) (k0_hw186 : k0_chk186 v1003), ∀ a x, ((![v1003] : Fin 1 → IVec S16 32) a x).toNat < S4480.size a := fun v1003 k0_hw186 => k0_hw186

def k0_chk187 (v1013 : IVec S16 32) : Prop :=
  (∀ a x, ((![v1013] : Fin 1 → IVec S16 32) a x).toNat < S4480.size a)
instance k0_chk187.dec : ∀ (v1013 : IVec S16 32), Decidable (k0_chk187 v1013) := fun v1013 => decidable_of_iff' _ (Iff.of_eq (k0_chk187.eq_1 v1013))
theorem k0_idx187_inb : ∀ (v1013 : IVec S16 32) (k0_hw187 : k0_chk187 v1013), ∀ a x, ((![v1013] : Fin 1 → IVec S16 32) a x).toNat < S4480.size a := fun v1013 k0_hw187 => k0_hw187

def k0_chk188 (v1016 : IVec S16 32) : Prop :=
  (∀ a x, ((![v1016] : Fin 1 → IVec S16 32) a x).toNat < S4480.size a)
instance k0_chk188.dec : ∀ (v1016 : IVec S16 32), Decidable (k0_chk188 v1016) := fun v1016 => decidable_of_iff' _ (Iff.of_eq (k0_chk188.eq_1 v1016))
theorem k0_idx188_inb : ∀ (v1016 : IVec S16 32) (k0_hw188 : k0_chk188 v1016), ∀ a x, ((![v1016] : Fin 1 → IVec S16 32) a x).toNat < S4480.size a := fun v1016 k0_hw188 => k0_hw188

def k0_chk189 (v1022 : IVec S16 32) : Prop :=
  (∀ a x, ((![v1022] : Fin 1 → IVec S16 32) a x).toNat < S4480.size a)
instance k0_chk189.dec : ∀ (v1022 : IVec S16 32), Decidable (k0_chk189 v1022) := fun v1022 => decidable_of_iff' _ (Iff.of_eq (k0_chk189.eq_1 v1022))
theorem k0_idx189_inb : ∀ (v1022 : IVec S16 32) (k0_hw189 : k0_chk189 v1022), ∀ a x, ((![v1022] : Fin 1 → IVec S16 32) a x).toNat < S4480.size a := fun v1022 k0_hw189 => k0_hw189

def k0_chk190 (v1028 : IVec S16 32) : Prop :=
  (∀ a x, ((![v1028] : Fin 1 → IVec S16 32) a x).toNat < S4480.size a)
instance k0_chk190.dec : ∀ (v1028 : IVec S16 32), Decidable (k0_chk190 v1028) := fun v1028 => decidable_of_iff' _ (Iff.of_eq (k0_chk190.eq_1 v1028))
theorem k0_idx190_inb : ∀ (v1028 : IVec S16 32) (k0_hw190 : k0_chk190 v1028), ∀ a x, ((![v1028] : Fin 1 → IVec S16 32) a x).toNat < S4480.size a := fun v1028 k0_hw190 => k0_hw190

def k0_chk191 (v1038 : IVec S16 32) : Prop :=
  (∀ a x, ((![v1038] : Fin 1 → IVec S16 32) a x).toNat < S4480.size a)
instance k0_chk191.dec : ∀ (v1038 : IVec S16 32), Decidable (k0_chk191 v1038) := fun v1038 => decidable_of_iff' _ (Iff.of_eq (k0_chk191.eq_1 v1038))
theorem k0_idx191_inb : ∀ (v1038 : IVec S16 32) (k0_hw191 : k0_chk191 v1038), ∀ a x, ((![v1038] : Fin 1 → IVec S16 32) a x).toNat < S4480.size a := fun v1038 k0_hw191 => k0_hw191

def k0_chk192 (v1041 : IVec S16 32) : Prop :=
  (∀ a x, ((![v1041] : Fin 1 → IVec S16 32) a x).toNat < S4480.size a)
instance k0_chk192.dec : ∀ (v1041 : IVec S16 32), Decidable (k0_chk192 v1041) := fun v1041 => decidable_of_iff' _ (Iff.of_eq (k0_chk192.eq_1 v1041))
theorem k0_idx192_inb : ∀ (v1041 : IVec S16 32) (k0_hw192 : k0_chk192 v1041), ∀ a x, ((![v1041] : Fin 1 → IVec S16 32) a x).toNat < S4480.size a := fun v1041 k0_hw192 => k0_hw192

def k0_chk193 (v1047 : IVec S16 32) : Prop :=
  (∀ a x, ((![v1047] : Fin 1 → IVec S16 32) a x).toNat < S4480.size a)
instance k0_chk193.dec : ∀ (v1047 : IVec S16 32), Decidable (k0_chk193 v1047) := fun v1047 => decidable_of_iff' _ (Iff.of_eq (k0_chk193.eq_1 v1047))
theorem k0_idx193_inb : ∀ (v1047 : IVec S16 32) (k0_hw193 : k0_chk193 v1047), ∀ a x, ((![v1047] : Fin 1 → IVec S16 32) a x).toNat < S4480.size a := fun v1047 k0_hw193 => k0_hw193

def k0_chk194 (v1053 : IVec S16 32) : Prop :=
  (∀ a x, ((![v1053] : Fin 1 → IVec S16 32) a x).toNat < S4480.size a)
instance k0_chk194.dec : ∀ (v1053 : IVec S16 32), Decidable (k0_chk194 v1053) := fun v1053 => decidable_of_iff' _ (Iff.of_eq (k0_chk194.eq_1 v1053))
theorem k0_idx194_inb : ∀ (v1053 : IVec S16 32) (k0_hw194 : k0_chk194 v1053), ∀ a x, ((![v1053] : Fin 1 → IVec S16 32) a x).toNat < S4480.size a := fun v1053 k0_hw194 => k0_hw194

def k0_chk195 (v1063 : IVec S16 32) : Prop :=
  (∀ a x, ((![v1063] : Fin 1 → IVec S16 32) a x).toNat < S4480.size a)
instance k0_chk195.dec : ∀ (v1063 : IVec S16 32), Decidable (k0_chk195 v1063) := fun v1063 => decidable_of_iff' _ (Iff.of_eq (k0_chk195.eq_1 v1063))
theorem k0_idx195_inb : ∀ (v1063 : IVec S16 32) (k0_hw195 : k0_chk195 v1063), ∀ a x, ((![v1063] : Fin 1 → IVec S16 32) a x).toNat < S4480.size a := fun v1063 k0_hw195 => k0_hw195

def k0_chk196 (v1066 : IVec S16 32) : Prop :=
  (∀ a x, ((![v1066] : Fin 1 → IVec S16 32) a x).toNat < S4480.size a)
instance k0_chk196.dec : ∀ (v1066 : IVec S16 32), Decidable (k0_chk196 v1066) := fun v1066 => decidable_of_iff' _ (Iff.of_eq (k0_chk196.eq_1 v1066))
theorem k0_idx196_inb : ∀ (v1066 : IVec S16 32) (k0_hw196 : k0_chk196 v1066), ∀ a x, ((![v1066] : Fin 1 → IVec S16 32) a x).toNat < S4480.size a := fun v1066 k0_hw196 => k0_hw196

def k0_chk197 (v1072 : IVec S16 32) : Prop :=
  (∀ a x, ((![v1072] : Fin 1 → IVec S16 32) a x).toNat < S4480.size a)
instance k0_chk197.dec : ∀ (v1072 : IVec S16 32), Decidable (k0_chk197 v1072) := fun v1072 => decidable_of_iff' _ (Iff.of_eq (k0_chk197.eq_1 v1072))
theorem k0_idx197_inb : ∀ (v1072 : IVec S16 32) (k0_hw197 : k0_chk197 v1072), ∀ a x, ((![v1072] : Fin 1 → IVec S16 32) a x).toNat < S4480.size a := fun v1072 k0_hw197 => k0_hw197

def k0_chk198 (v1078 : IVec S16 32) : Prop :=
  (∀ a x, ((![v1078] : Fin 1 → IVec S16 32) a x).toNat < S4480.size a)
instance k0_chk198.dec : ∀ (v1078 : IVec S16 32), Decidable (k0_chk198 v1078) := fun v1078 => decidable_of_iff' _ (Iff.of_eq (k0_chk198.eq_1 v1078))
theorem k0_idx198_inb : ∀ (v1078 : IVec S16 32) (k0_hw198 : k0_chk198 v1078), ∀ a x, ((![v1078] : Fin 1 → IVec S16 32) a x).toNat < S4480.size a := fun v1078 k0_hw198 => k0_hw198
@[reducible] def k0_t4_loop : Scf.Loop 32 :=
  let c0_i32_225 : BitVec 32 := 0#32
  let c128_i32_226 : BitVec 32 := 128#32
  let v1087 : BitVec 32 := Scalar.addi c0_i32_225 c128_i32_226
  let c1_i32_227 : BitVec 32 := 1#32
  ⟨c0_i32_225, v1087, c1_i32_227⟩

def k0_chk199 (v1795 : IVec S16 32) : Prop :=
  (∀ a x, ((![v1795] : Fin 1 → IVec S16 32) a x).toNat < S28672.size a)
instance k0_chk199.dec : ∀ (v1795 : IVec S16 32), Decidable (k0_chk199 v1795) := fun v1795 => decidable_of_iff' _ (Iff.of_eq (k0_chk199.eq_1 v1795))
theorem k0_idx199_inb : ∀ (v1795 : IVec S16 32) (k0_hw199 : k0_chk199 v1795), ∀ a x, ((![v1795] : Fin 1 → IVec S16 32) a x).toNat < S28672.size a := fun v1795 k0_hw199 => k0_hw199

def k0_chk200 (v1797 : IVec S16 32) : Prop :=
  (∀ a x, ((![v1797] : Fin 1 → IVec S16 32) a x).toNat < S28672.size a)
instance k0_chk200.dec : ∀ (v1797 : IVec S16 32), Decidable (k0_chk200 v1797) := fun v1797 => decidable_of_iff' _ (Iff.of_eq (k0_chk200.eq_1 v1797))
theorem k0_idx200_inb : ∀ (v1797 : IVec S16 32) (k0_hw200 : k0_chk200 v1797), ∀ a x, ((![v1797] : Fin 1 → IVec S16 32) a x).toNat < S28672.size a := fun v1797 k0_hw200 => k0_hw200

def k0_chk201 (v1799 : IVec S16 32) : Prop :=
  (∀ a x, ((![v1799] : Fin 1 → IVec S16 32) a x).toNat < S28672.size a)
instance k0_chk201.dec : ∀ (v1799 : IVec S16 32), Decidable (k0_chk201 v1799) := fun v1799 => decidable_of_iff' _ (Iff.of_eq (k0_chk201.eq_1 v1799))
theorem k0_idx201_inb : ∀ (v1799 : IVec S16 32) (k0_hw201 : k0_chk201 v1799), ∀ a x, ((![v1799] : Fin 1 → IVec S16 32) a x).toNat < S28672.size a := fun v1799 k0_hw201 => k0_hw201

def k0_chk202 (v1801 : IVec S16 32) : Prop :=
  (∀ a x, ((![v1801] : Fin 1 → IVec S16 32) a x).toNat < S28672.size a)
instance k0_chk202.dec : ∀ (v1801 : IVec S16 32), Decidable (k0_chk202 v1801) := fun v1801 => decidable_of_iff' _ (Iff.of_eq (k0_chk202.eq_1 v1801))
theorem k0_idx202_inb : ∀ (v1801 : IVec S16 32) (k0_hw202 : k0_chk202 v1801), ∀ a x, ((![v1801] : Fin 1 → IVec S16 32) a x).toNat < S28672.size a := fun v1801 k0_hw202 => k0_hw202

def k0_chk203 (v1803 : IVec S16 32) : Prop :=
  (∀ a x, ((![v1803] : Fin 1 → IVec S16 32) a x).toNat < S28672.size a)
instance k0_chk203.dec : ∀ (v1803 : IVec S16 32), Decidable (k0_chk203 v1803) := fun v1803 => decidable_of_iff' _ (Iff.of_eq (k0_chk203.eq_1 v1803))
theorem k0_idx203_inb : ∀ (v1803 : IVec S16 32) (k0_hw203 : k0_chk203 v1803), ∀ a x, ((![v1803] : Fin 1 → IVec S16 32) a x).toNat < S28672.size a := fun v1803 k0_hw203 => k0_hw203

def k0_chk204 (v1805 : IVec S16 32) : Prop :=
  (∀ a x, ((![v1805] : Fin 1 → IVec S16 32) a x).toNat < S28672.size a)
instance k0_chk204.dec : ∀ (v1805 : IVec S16 32), Decidable (k0_chk204 v1805) := fun v1805 => decidable_of_iff' _ (Iff.of_eq (k0_chk204.eq_1 v1805))
theorem k0_idx204_inb : ∀ (v1805 : IVec S16 32) (k0_hw204 : k0_chk204 v1805), ∀ a x, ((![v1805] : Fin 1 → IVec S16 32) a x).toNat < S28672.size a := fun v1805 k0_hw204 => k0_hw204

def k0_chk205 (v1807 : IVec S16 32) : Prop :=
  (∀ a x, ((![v1807] : Fin 1 → IVec S16 32) a x).toNat < S28672.size a)
instance k0_chk205.dec : ∀ (v1807 : IVec S16 32), Decidable (k0_chk205 v1807) := fun v1807 => decidable_of_iff' _ (Iff.of_eq (k0_chk205.eq_1 v1807))
theorem k0_idx205_inb : ∀ (v1807 : IVec S16 32) (k0_hw205 : k0_chk205 v1807), ∀ a x, ((![v1807] : Fin 1 → IVec S16 32) a x).toNat < S28672.size a := fun v1807 k0_hw205 => k0_hw205

def k0_chk206 (v1809 : IVec S16 32) : Prop :=
  (∀ a x, ((![v1809] : Fin 1 → IVec S16 32) a x).toNat < S28672.size a)
instance k0_chk206.dec : ∀ (v1809 : IVec S16 32), Decidable (k0_chk206 v1809) := fun v1809 => decidable_of_iff' _ (Iff.of_eq (k0_chk206.eq_1 v1809))
theorem k0_idx206_inb : ∀ (v1809 : IVec S16 32) (k0_hw206 : k0_chk206 v1809), ∀ a x, ((![v1809] : Fin 1 → IVec S16 32) a x).toNat < S28672.size a := fun v1809 k0_hw206 => k0_hw206

def k0_chk207 (v1811 : IVec S16 32) : Prop :=
  (∀ a x, ((![v1811] : Fin 1 → IVec S16 32) a x).toNat < S28672.size a)
instance k0_chk207.dec : ∀ (v1811 : IVec S16 32), Decidable (k0_chk207 v1811) := fun v1811 => decidable_of_iff' _ (Iff.of_eq (k0_chk207.eq_1 v1811))
theorem k0_idx207_inb : ∀ (v1811 : IVec S16 32) (k0_hw207 : k0_chk207 v1811), ∀ a x, ((![v1811] : Fin 1 → IVec S16 32) a x).toNat < S28672.size a := fun v1811 k0_hw207 => k0_hw207

def k0_chk208 (v1813 : IVec S16 32) : Prop :=
  (∀ a x, ((![v1813] : Fin 1 → IVec S16 32) a x).toNat < S28672.size a)
instance k0_chk208.dec : ∀ (v1813 : IVec S16 32), Decidable (k0_chk208 v1813) := fun v1813 => decidable_of_iff' _ (Iff.of_eq (k0_chk208.eq_1 v1813))
theorem k0_idx208_inb : ∀ (v1813 : IVec S16 32) (k0_hw208 : k0_chk208 v1813), ∀ a x, ((![v1813] : Fin 1 → IVec S16 32) a x).toNat < S28672.size a := fun v1813 k0_hw208 => k0_hw208

def k0_chk209 (v1815 : IVec S16 32) : Prop :=
  (∀ a x, ((![v1815] : Fin 1 → IVec S16 32) a x).toNat < S28672.size a)
instance k0_chk209.dec : ∀ (v1815 : IVec S16 32), Decidable (k0_chk209 v1815) := fun v1815 => decidable_of_iff' _ (Iff.of_eq (k0_chk209.eq_1 v1815))
theorem k0_idx209_inb : ∀ (v1815 : IVec S16 32) (k0_hw209 : k0_chk209 v1815), ∀ a x, ((![v1815] : Fin 1 → IVec S16 32) a x).toNat < S28672.size a := fun v1815 k0_hw209 => k0_hw209

def k0_chk210 (v1817 : IVec S16 32) : Prop :=
  (∀ a x, ((![v1817] : Fin 1 → IVec S16 32) a x).toNat < S28672.size a)
instance k0_chk210.dec : ∀ (v1817 : IVec S16 32), Decidable (k0_chk210 v1817) := fun v1817 => decidable_of_iff' _ (Iff.of_eq (k0_chk210.eq_1 v1817))
theorem k0_idx210_inb : ∀ (v1817 : IVec S16 32) (k0_hw210 : k0_chk210 v1817), ∀ a x, ((![v1817] : Fin 1 → IVec S16 32) a x).toNat < S28672.size a := fun v1817 k0_hw210 => k0_hw210

def k0_chk211 (v1819 : IVec S16 32) : Prop :=
  (∀ a x, ((![v1819] : Fin 1 → IVec S16 32) a x).toNat < S28672.size a)
instance k0_chk211.dec : ∀ (v1819 : IVec S16 32), Decidable (k0_chk211 v1819) := fun v1819 => decidable_of_iff' _ (Iff.of_eq (k0_chk211.eq_1 v1819))
theorem k0_idx211_inb : ∀ (v1819 : IVec S16 32) (k0_hw211 : k0_chk211 v1819), ∀ a x, ((![v1819] : Fin 1 → IVec S16 32) a x).toNat < S28672.size a := fun v1819 k0_hw211 => k0_hw211

def k0_chk212 (v1821 : IVec S16 32) : Prop :=
  (∀ a x, ((![v1821] : Fin 1 → IVec S16 32) a x).toNat < S28672.size a)
instance k0_chk212.dec : ∀ (v1821 : IVec S16 32), Decidable (k0_chk212 v1821) := fun v1821 => decidable_of_iff' _ (Iff.of_eq (k0_chk212.eq_1 v1821))
theorem k0_idx212_inb : ∀ (v1821 : IVec S16 32) (k0_hw212 : k0_chk212 v1821), ∀ a x, ((![v1821] : Fin 1 → IVec S16 32) a x).toNat < S28672.size a := fun v1821 k0_hw212 => k0_hw212

def k0_chk213 (v1838 : IVec S16 32) : Prop :=
  (∀ a x, ((![v1838] : Fin 1 → IVec S16 32) a x).toNat < S10240.size a)
instance k0_chk213.dec : ∀ (v1838 : IVec S16 32), Decidable (k0_chk213 v1838) := fun v1838 => decidable_of_iff' _ (Iff.of_eq (k0_chk213.eq_1 v1838))
theorem k0_idx213_inb : ∀ (v1838 : IVec S16 32) (k0_hw213 : k0_chk213 v1838), ∀ a x, ((![v1838] : Fin 1 → IVec S16 32) a x).toNat < S10240.size a := fun v1838 k0_hw213 => k0_hw213

def k0_chk214 (v1089 : IVec S16 32) : Prop :=
  (∀ a x, ((![v1089] : Fin 1 → IVec S16 32) a x).toNat < S4480.size a)
instance k0_chk214.dec : ∀ (v1089 : IVec S16 32), Decidable (k0_chk214 v1089) := fun v1089 => decidable_of_iff' _ (Iff.of_eq (k0_chk214.eq_1 v1089))
theorem k0_idx214_inb : ∀ (v1089 : IVec S16 32) (k0_hw214 : k0_chk214 v1089), ∀ a x, ((![v1089] : Fin 1 → IVec S16 32) a x).toNat < S4480.size a := fun v1089 k0_hw214 => k0_hw214

def k0_chk215 (v1092 : IVec S16 32) : Prop :=
  (∀ a x, ((![v1092] : Fin 1 → IVec S16 32) a x).toNat < S4480.size a)
instance k0_chk215.dec : ∀ (v1092 : IVec S16 32), Decidable (k0_chk215 v1092) := fun v1092 => decidable_of_iff' _ (Iff.of_eq (k0_chk215.eq_1 v1092))
theorem k0_idx215_inb : ∀ (v1092 : IVec S16 32) (k0_hw215 : k0_chk215 v1092), ∀ a x, ((![v1092] : Fin 1 → IVec S16 32) a x).toNat < S4480.size a := fun v1092 k0_hw215 => k0_hw215

def k0_chk216 (v1098 : IVec S16 32) : Prop :=
  (∀ a x, ((![v1098] : Fin 1 → IVec S16 32) a x).toNat < S4480.size a)
instance k0_chk216.dec : ∀ (v1098 : IVec S16 32), Decidable (k0_chk216 v1098) := fun v1098 => decidable_of_iff' _ (Iff.of_eq (k0_chk216.eq_1 v1098))
theorem k0_idx216_inb : ∀ (v1098 : IVec S16 32) (k0_hw216 : k0_chk216 v1098), ∀ a x, ((![v1098] : Fin 1 → IVec S16 32) a x).toNat < S4480.size a := fun v1098 k0_hw216 => k0_hw216

def k0_chk217 (v1104 : IVec S16 32) : Prop :=
  (∀ a x, ((![v1104] : Fin 1 → IVec S16 32) a x).toNat < S4480.size a)
instance k0_chk217.dec : ∀ (v1104 : IVec S16 32), Decidable (k0_chk217 v1104) := fun v1104 => decidable_of_iff' _ (Iff.of_eq (k0_chk217.eq_1 v1104))
theorem k0_idx217_inb : ∀ (v1104 : IVec S16 32) (k0_hw217 : k0_chk217 v1104), ∀ a x, ((![v1104] : Fin 1 → IVec S16 32) a x).toNat < S4480.size a := fun v1104 k0_hw217 => k0_hw217

def k0_chk218 (v1114 : IVec S16 32) : Prop :=
  (∀ a x, ((![v1114] : Fin 1 → IVec S16 32) a x).toNat < S4480.size a)
instance k0_chk218.dec : ∀ (v1114 : IVec S16 32), Decidable (k0_chk218 v1114) := fun v1114 => decidable_of_iff' _ (Iff.of_eq (k0_chk218.eq_1 v1114))
theorem k0_idx218_inb : ∀ (v1114 : IVec S16 32) (k0_hw218 : k0_chk218 v1114), ∀ a x, ((![v1114] : Fin 1 → IVec S16 32) a x).toNat < S4480.size a := fun v1114 k0_hw218 => k0_hw218

def k0_chk219 (v1117 : IVec S16 32) : Prop :=
  (∀ a x, ((![v1117] : Fin 1 → IVec S16 32) a x).toNat < S4480.size a)
instance k0_chk219.dec : ∀ (v1117 : IVec S16 32), Decidable (k0_chk219 v1117) := fun v1117 => decidable_of_iff' _ (Iff.of_eq (k0_chk219.eq_1 v1117))
theorem k0_idx219_inb : ∀ (v1117 : IVec S16 32) (k0_hw219 : k0_chk219 v1117), ∀ a x, ((![v1117] : Fin 1 → IVec S16 32) a x).toNat < S4480.size a := fun v1117 k0_hw219 => k0_hw219

def k0_chk220 (v1123 : IVec S16 32) : Prop :=
  (∀ a x, ((![v1123] : Fin 1 → IVec S16 32) a x).toNat < S4480.size a)
instance k0_chk220.dec : ∀ (v1123 : IVec S16 32), Decidable (k0_chk220 v1123) := fun v1123 => decidable_of_iff' _ (Iff.of_eq (k0_chk220.eq_1 v1123))
theorem k0_idx220_inb : ∀ (v1123 : IVec S16 32) (k0_hw220 : k0_chk220 v1123), ∀ a x, ((![v1123] : Fin 1 → IVec S16 32) a x).toNat < S4480.size a := fun v1123 k0_hw220 => k0_hw220

def k0_chk221 (v1129 : IVec S16 32) : Prop :=
  (∀ a x, ((![v1129] : Fin 1 → IVec S16 32) a x).toNat < S4480.size a)
instance k0_chk221.dec : ∀ (v1129 : IVec S16 32), Decidable (k0_chk221 v1129) := fun v1129 => decidable_of_iff' _ (Iff.of_eq (k0_chk221.eq_1 v1129))
theorem k0_idx221_inb : ∀ (v1129 : IVec S16 32) (k0_hw221 : k0_chk221 v1129), ∀ a x, ((![v1129] : Fin 1 → IVec S16 32) a x).toNat < S4480.size a := fun v1129 k0_hw221 => k0_hw221

def k0_chk222 (v1139 : IVec S16 32) : Prop :=
  (∀ a x, ((![v1139] : Fin 1 → IVec S16 32) a x).toNat < S4480.size a)
instance k0_chk222.dec : ∀ (v1139 : IVec S16 32), Decidable (k0_chk222 v1139) := fun v1139 => decidable_of_iff' _ (Iff.of_eq (k0_chk222.eq_1 v1139))
theorem k0_idx222_inb : ∀ (v1139 : IVec S16 32) (k0_hw222 : k0_chk222 v1139), ∀ a x, ((![v1139] : Fin 1 → IVec S16 32) a x).toNat < S4480.size a := fun v1139 k0_hw222 => k0_hw222

def k0_chk223 (v1142 : IVec S16 32) : Prop :=
  (∀ a x, ((![v1142] : Fin 1 → IVec S16 32) a x).toNat < S4480.size a)
instance k0_chk223.dec : ∀ (v1142 : IVec S16 32), Decidable (k0_chk223 v1142) := fun v1142 => decidable_of_iff' _ (Iff.of_eq (k0_chk223.eq_1 v1142))
theorem k0_idx223_inb : ∀ (v1142 : IVec S16 32) (k0_hw223 : k0_chk223 v1142), ∀ a x, ((![v1142] : Fin 1 → IVec S16 32) a x).toNat < S4480.size a := fun v1142 k0_hw223 => k0_hw223

def k0_chk224 (v1148 : IVec S16 32) : Prop :=
  (∀ a x, ((![v1148] : Fin 1 → IVec S16 32) a x).toNat < S4480.size a)
instance k0_chk224.dec : ∀ (v1148 : IVec S16 32), Decidable (k0_chk224 v1148) := fun v1148 => decidable_of_iff' _ (Iff.of_eq (k0_chk224.eq_1 v1148))
theorem k0_idx224_inb : ∀ (v1148 : IVec S16 32) (k0_hw224 : k0_chk224 v1148), ∀ a x, ((![v1148] : Fin 1 → IVec S16 32) a x).toNat < S4480.size a := fun v1148 k0_hw224 => k0_hw224

def k0_chk225 (v1154 : IVec S16 32) : Prop :=
  (∀ a x, ((![v1154] : Fin 1 → IVec S16 32) a x).toNat < S4480.size a)
instance k0_chk225.dec : ∀ (v1154 : IVec S16 32), Decidable (k0_chk225 v1154) := fun v1154 => decidable_of_iff' _ (Iff.of_eq (k0_chk225.eq_1 v1154))
theorem k0_idx225_inb : ∀ (v1154 : IVec S16 32) (k0_hw225 : k0_chk225 v1154), ∀ a x, ((![v1154] : Fin 1 → IVec S16 32) a x).toNat < S4480.size a := fun v1154 k0_hw225 => k0_hw225

def k0_chk226 (v1164 : IVec S16 32) : Prop :=
  (∀ a x, ((![v1164] : Fin 1 → IVec S16 32) a x).toNat < S4480.size a)
instance k0_chk226.dec : ∀ (v1164 : IVec S16 32), Decidable (k0_chk226 v1164) := fun v1164 => decidable_of_iff' _ (Iff.of_eq (k0_chk226.eq_1 v1164))
theorem k0_idx226_inb : ∀ (v1164 : IVec S16 32) (k0_hw226 : k0_chk226 v1164), ∀ a x, ((![v1164] : Fin 1 → IVec S16 32) a x).toNat < S4480.size a := fun v1164 k0_hw226 => k0_hw226

def k0_chk227 (v1167 : IVec S16 32) : Prop :=
  (∀ a x, ((![v1167] : Fin 1 → IVec S16 32) a x).toNat < S4480.size a)
instance k0_chk227.dec : ∀ (v1167 : IVec S16 32), Decidable (k0_chk227 v1167) := fun v1167 => decidable_of_iff' _ (Iff.of_eq (k0_chk227.eq_1 v1167))
theorem k0_idx227_inb : ∀ (v1167 : IVec S16 32) (k0_hw227 : k0_chk227 v1167), ∀ a x, ((![v1167] : Fin 1 → IVec S16 32) a x).toNat < S4480.size a := fun v1167 k0_hw227 => k0_hw227

def k0_chk228 (v1173 : IVec S16 32) : Prop :=
  (∀ a x, ((![v1173] : Fin 1 → IVec S16 32) a x).toNat < S4480.size a)
instance k0_chk228.dec : ∀ (v1173 : IVec S16 32), Decidable (k0_chk228 v1173) := fun v1173 => decidable_of_iff' _ (Iff.of_eq (k0_chk228.eq_1 v1173))
theorem k0_idx228_inb : ∀ (v1173 : IVec S16 32) (k0_hw228 : k0_chk228 v1173), ∀ a x, ((![v1173] : Fin 1 → IVec S16 32) a x).toNat < S4480.size a := fun v1173 k0_hw228 => k0_hw228

def k0_chk229 (v1179 : IVec S16 32) : Prop :=
  (∀ a x, ((![v1179] : Fin 1 → IVec S16 32) a x).toNat < S4480.size a)
instance k0_chk229.dec : ∀ (v1179 : IVec S16 32), Decidable (k0_chk229 v1179) := fun v1179 => decidable_of_iff' _ (Iff.of_eq (k0_chk229.eq_1 v1179))
theorem k0_idx229_inb : ∀ (v1179 : IVec S16 32) (k0_hw229 : k0_chk229 v1179), ∀ a x, ((![v1179] : Fin 1 → IVec S16 32) a x).toNat < S4480.size a := fun v1179 k0_hw229 => k0_hw229

def k0_chk230 (v1189 : IVec S16 32) : Prop :=
  (∀ a x, ((![v1189] : Fin 1 → IVec S16 32) a x).toNat < S4480.size a)
instance k0_chk230.dec : ∀ (v1189 : IVec S16 32), Decidable (k0_chk230 v1189) := fun v1189 => decidable_of_iff' _ (Iff.of_eq (k0_chk230.eq_1 v1189))
theorem k0_idx230_inb : ∀ (v1189 : IVec S16 32) (k0_hw230 : k0_chk230 v1189), ∀ a x, ((![v1189] : Fin 1 → IVec S16 32) a x).toNat < S4480.size a := fun v1189 k0_hw230 => k0_hw230

def k0_chk231 (v1192 : IVec S16 32) : Prop :=
  (∀ a x, ((![v1192] : Fin 1 → IVec S16 32) a x).toNat < S4480.size a)
instance k0_chk231.dec : ∀ (v1192 : IVec S16 32), Decidable (k0_chk231 v1192) := fun v1192 => decidable_of_iff' _ (Iff.of_eq (k0_chk231.eq_1 v1192))
theorem k0_idx231_inb : ∀ (v1192 : IVec S16 32) (k0_hw231 : k0_chk231 v1192), ∀ a x, ((![v1192] : Fin 1 → IVec S16 32) a x).toNat < S4480.size a := fun v1192 k0_hw231 => k0_hw231

def k0_chk232 (v1198 : IVec S16 32) : Prop :=
  (∀ a x, ((![v1198] : Fin 1 → IVec S16 32) a x).toNat < S4480.size a)
instance k0_chk232.dec : ∀ (v1198 : IVec S16 32), Decidable (k0_chk232 v1198) := fun v1198 => decidable_of_iff' _ (Iff.of_eq (k0_chk232.eq_1 v1198))
theorem k0_idx232_inb : ∀ (v1198 : IVec S16 32) (k0_hw232 : k0_chk232 v1198), ∀ a x, ((![v1198] : Fin 1 → IVec S16 32) a x).toNat < S4480.size a := fun v1198 k0_hw232 => k0_hw232

def k0_chk233 (v1204 : IVec S16 32) : Prop :=
  (∀ a x, ((![v1204] : Fin 1 → IVec S16 32) a x).toNat < S4480.size a)
instance k0_chk233.dec : ∀ (v1204 : IVec S16 32), Decidable (k0_chk233 v1204) := fun v1204 => decidable_of_iff' _ (Iff.of_eq (k0_chk233.eq_1 v1204))
theorem k0_idx233_inb : ∀ (v1204 : IVec S16 32) (k0_hw233 : k0_chk233 v1204), ∀ a x, ((![v1204] : Fin 1 → IVec S16 32) a x).toNat < S4480.size a := fun v1204 k0_hw233 => k0_hw233

def k0_chk234 (v1214 : IVec S16 32) : Prop :=
  (∀ a x, ((![v1214] : Fin 1 → IVec S16 32) a x).toNat < S4480.size a)
instance k0_chk234.dec : ∀ (v1214 : IVec S16 32), Decidable (k0_chk234 v1214) := fun v1214 => decidable_of_iff' _ (Iff.of_eq (k0_chk234.eq_1 v1214))
theorem k0_idx234_inb : ∀ (v1214 : IVec S16 32) (k0_hw234 : k0_chk234 v1214), ∀ a x, ((![v1214] : Fin 1 → IVec S16 32) a x).toNat < S4480.size a := fun v1214 k0_hw234 => k0_hw234

def k0_chk235 (v1217 : IVec S16 32) : Prop :=
  (∀ a x, ((![v1217] : Fin 1 → IVec S16 32) a x).toNat < S4480.size a)
instance k0_chk235.dec : ∀ (v1217 : IVec S16 32), Decidable (k0_chk235 v1217) := fun v1217 => decidable_of_iff' _ (Iff.of_eq (k0_chk235.eq_1 v1217))
theorem k0_idx235_inb : ∀ (v1217 : IVec S16 32) (k0_hw235 : k0_chk235 v1217), ∀ a x, ((![v1217] : Fin 1 → IVec S16 32) a x).toNat < S4480.size a := fun v1217 k0_hw235 => k0_hw235

def k0_chk236 (v1223 : IVec S16 32) : Prop :=
  (∀ a x, ((![v1223] : Fin 1 → IVec S16 32) a x).toNat < S4480.size a)
instance k0_chk236.dec : ∀ (v1223 : IVec S16 32), Decidable (k0_chk236 v1223) := fun v1223 => decidable_of_iff' _ (Iff.of_eq (k0_chk236.eq_1 v1223))
theorem k0_idx236_inb : ∀ (v1223 : IVec S16 32) (k0_hw236 : k0_chk236 v1223), ∀ a x, ((![v1223] : Fin 1 → IVec S16 32) a x).toNat < S4480.size a := fun v1223 k0_hw236 => k0_hw236

def k0_chk237 (v1229 : IVec S16 32) : Prop :=
  (∀ a x, ((![v1229] : Fin 1 → IVec S16 32) a x).toNat < S4480.size a)
instance k0_chk237.dec : ∀ (v1229 : IVec S16 32), Decidable (k0_chk237 v1229) := fun v1229 => decidable_of_iff' _ (Iff.of_eq (k0_chk237.eq_1 v1229))
theorem k0_idx237_inb : ∀ (v1229 : IVec S16 32) (k0_hw237 : k0_chk237 v1229), ∀ a x, ((![v1229] : Fin 1 → IVec S16 32) a x).toNat < S4480.size a := fun v1229 k0_hw237 => k0_hw237

def k0_chk238 (v1239 : IVec S16 32) : Prop :=
  (∀ a x, ((![v1239] : Fin 1 → IVec S16 32) a x).toNat < S4480.size a)
instance k0_chk238.dec : ∀ (v1239 : IVec S16 32), Decidable (k0_chk238 v1239) := fun v1239 => decidable_of_iff' _ (Iff.of_eq (k0_chk238.eq_1 v1239))
theorem k0_idx238_inb : ∀ (v1239 : IVec S16 32) (k0_hw238 : k0_chk238 v1239), ∀ a x, ((![v1239] : Fin 1 → IVec S16 32) a x).toNat < S4480.size a := fun v1239 k0_hw238 => k0_hw238

def k0_chk239 (v1242 : IVec S16 32) : Prop :=
  (∀ a x, ((![v1242] : Fin 1 → IVec S16 32) a x).toNat < S4480.size a)
instance k0_chk239.dec : ∀ (v1242 : IVec S16 32), Decidable (k0_chk239 v1242) := fun v1242 => decidable_of_iff' _ (Iff.of_eq (k0_chk239.eq_1 v1242))
theorem k0_idx239_inb : ∀ (v1242 : IVec S16 32) (k0_hw239 : k0_chk239 v1242), ∀ a x, ((![v1242] : Fin 1 → IVec S16 32) a x).toNat < S4480.size a := fun v1242 k0_hw239 => k0_hw239

def k0_chk240 (v1248 : IVec S16 32) : Prop :=
  (∀ a x, ((![v1248] : Fin 1 → IVec S16 32) a x).toNat < S4480.size a)
instance k0_chk240.dec : ∀ (v1248 : IVec S16 32), Decidable (k0_chk240 v1248) := fun v1248 => decidable_of_iff' _ (Iff.of_eq (k0_chk240.eq_1 v1248))
theorem k0_idx240_inb : ∀ (v1248 : IVec S16 32) (k0_hw240 : k0_chk240 v1248), ∀ a x, ((![v1248] : Fin 1 → IVec S16 32) a x).toNat < S4480.size a := fun v1248 k0_hw240 => k0_hw240

def k0_chk241 (v1254 : IVec S16 32) : Prop :=
  (∀ a x, ((![v1254] : Fin 1 → IVec S16 32) a x).toNat < S4480.size a)
instance k0_chk241.dec : ∀ (v1254 : IVec S16 32), Decidable (k0_chk241 v1254) := fun v1254 => decidable_of_iff' _ (Iff.of_eq (k0_chk241.eq_1 v1254))
theorem k0_idx241_inb : ∀ (v1254 : IVec S16 32) (k0_hw241 : k0_chk241 v1254), ∀ a x, ((![v1254] : Fin 1 → IVec S16 32) a x).toNat < S4480.size a := fun v1254 k0_hw241 => k0_hw241

def k0_chk242 (v1264 : IVec S16 32) : Prop :=
  (∀ a x, ((![v1264] : Fin 1 → IVec S16 32) a x).toNat < S4480.size a)
instance k0_chk242.dec : ∀ (v1264 : IVec S16 32), Decidable (k0_chk242 v1264) := fun v1264 => decidable_of_iff' _ (Iff.of_eq (k0_chk242.eq_1 v1264))
theorem k0_idx242_inb : ∀ (v1264 : IVec S16 32) (k0_hw242 : k0_chk242 v1264), ∀ a x, ((![v1264] : Fin 1 → IVec S16 32) a x).toNat < S4480.size a := fun v1264 k0_hw242 => k0_hw242

def k0_chk243 (v1267 : IVec S16 32) : Prop :=
  (∀ a x, ((![v1267] : Fin 1 → IVec S16 32) a x).toNat < S4480.size a)
instance k0_chk243.dec : ∀ (v1267 : IVec S16 32), Decidable (k0_chk243 v1267) := fun v1267 => decidable_of_iff' _ (Iff.of_eq (k0_chk243.eq_1 v1267))
theorem k0_idx243_inb : ∀ (v1267 : IVec S16 32) (k0_hw243 : k0_chk243 v1267), ∀ a x, ((![v1267] : Fin 1 → IVec S16 32) a x).toNat < S4480.size a := fun v1267 k0_hw243 => k0_hw243

def k0_chk244 (v1273 : IVec S16 32) : Prop :=
  (∀ a x, ((![v1273] : Fin 1 → IVec S16 32) a x).toNat < S4480.size a)
instance k0_chk244.dec : ∀ (v1273 : IVec S16 32), Decidable (k0_chk244 v1273) := fun v1273 => decidable_of_iff' _ (Iff.of_eq (k0_chk244.eq_1 v1273))
theorem k0_idx244_inb : ∀ (v1273 : IVec S16 32) (k0_hw244 : k0_chk244 v1273), ∀ a x, ((![v1273] : Fin 1 → IVec S16 32) a x).toNat < S4480.size a := fun v1273 k0_hw244 => k0_hw244

def k0_chk245 (v1279 : IVec S16 32) : Prop :=
  (∀ a x, ((![v1279] : Fin 1 → IVec S16 32) a x).toNat < S4480.size a)
instance k0_chk245.dec : ∀ (v1279 : IVec S16 32), Decidable (k0_chk245 v1279) := fun v1279 => decidable_of_iff' _ (Iff.of_eq (k0_chk245.eq_1 v1279))
theorem k0_idx245_inb : ∀ (v1279 : IVec S16 32) (k0_hw245 : k0_chk245 v1279), ∀ a x, ((![v1279] : Fin 1 → IVec S16 32) a x).toNat < S4480.size a := fun v1279 k0_hw245 => k0_hw245

def k0_chk246 (v1289 : IVec S16 32) : Prop :=
  (∀ a x, ((![v1289] : Fin 1 → IVec S16 32) a x).toNat < S4480.size a)
instance k0_chk246.dec : ∀ (v1289 : IVec S16 32), Decidable (k0_chk246 v1289) := fun v1289 => decidable_of_iff' _ (Iff.of_eq (k0_chk246.eq_1 v1289))
theorem k0_idx246_inb : ∀ (v1289 : IVec S16 32) (k0_hw246 : k0_chk246 v1289), ∀ a x, ((![v1289] : Fin 1 → IVec S16 32) a x).toNat < S4480.size a := fun v1289 k0_hw246 => k0_hw246

def k0_chk247 (v1292 : IVec S16 32) : Prop :=
  (∀ a x, ((![v1292] : Fin 1 → IVec S16 32) a x).toNat < S4480.size a)
instance k0_chk247.dec : ∀ (v1292 : IVec S16 32), Decidable (k0_chk247 v1292) := fun v1292 => decidable_of_iff' _ (Iff.of_eq (k0_chk247.eq_1 v1292))
theorem k0_idx247_inb : ∀ (v1292 : IVec S16 32) (k0_hw247 : k0_chk247 v1292), ∀ a x, ((![v1292] : Fin 1 → IVec S16 32) a x).toNat < S4480.size a := fun v1292 k0_hw247 => k0_hw247

def k0_chk248 (v1298 : IVec S16 32) : Prop :=
  (∀ a x, ((![v1298] : Fin 1 → IVec S16 32) a x).toNat < S4480.size a)
instance k0_chk248.dec : ∀ (v1298 : IVec S16 32), Decidable (k0_chk248 v1298) := fun v1298 => decidable_of_iff' _ (Iff.of_eq (k0_chk248.eq_1 v1298))
theorem k0_idx248_inb : ∀ (v1298 : IVec S16 32) (k0_hw248 : k0_chk248 v1298), ∀ a x, ((![v1298] : Fin 1 → IVec S16 32) a x).toNat < S4480.size a := fun v1298 k0_hw248 => k0_hw248

def k0_chk249 (v1304 : IVec S16 32) : Prop :=
  (∀ a x, ((![v1304] : Fin 1 → IVec S16 32) a x).toNat < S4480.size a)
instance k0_chk249.dec : ∀ (v1304 : IVec S16 32), Decidable (k0_chk249 v1304) := fun v1304 => decidable_of_iff' _ (Iff.of_eq (k0_chk249.eq_1 v1304))
theorem k0_idx249_inb : ∀ (v1304 : IVec S16 32) (k0_hw249 : k0_chk249 v1304), ∀ a x, ((![v1304] : Fin 1 → IVec S16 32) a x).toNat < S4480.size a := fun v1304 k0_hw249 => k0_hw249

def k0_chk250 (v1314 : IVec S16 32) : Prop :=
  (∀ a x, ((![v1314] : Fin 1 → IVec S16 32) a x).toNat < S4480.size a)
instance k0_chk250.dec : ∀ (v1314 : IVec S16 32), Decidable (k0_chk250 v1314) := fun v1314 => decidable_of_iff' _ (Iff.of_eq (k0_chk250.eq_1 v1314))
theorem k0_idx250_inb : ∀ (v1314 : IVec S16 32) (k0_hw250 : k0_chk250 v1314), ∀ a x, ((![v1314] : Fin 1 → IVec S16 32) a x).toNat < S4480.size a := fun v1314 k0_hw250 => k0_hw250

def k0_chk251 (v1317 : IVec S16 32) : Prop :=
  (∀ a x, ((![v1317] : Fin 1 → IVec S16 32) a x).toNat < S4480.size a)
instance k0_chk251.dec : ∀ (v1317 : IVec S16 32), Decidable (k0_chk251 v1317) := fun v1317 => decidable_of_iff' _ (Iff.of_eq (k0_chk251.eq_1 v1317))
theorem k0_idx251_inb : ∀ (v1317 : IVec S16 32) (k0_hw251 : k0_chk251 v1317), ∀ a x, ((![v1317] : Fin 1 → IVec S16 32) a x).toNat < S4480.size a := fun v1317 k0_hw251 => k0_hw251

def k0_chk252 (v1323 : IVec S16 32) : Prop :=
  (∀ a x, ((![v1323] : Fin 1 → IVec S16 32) a x).toNat < S4480.size a)
instance k0_chk252.dec : ∀ (v1323 : IVec S16 32), Decidable (k0_chk252 v1323) := fun v1323 => decidable_of_iff' _ (Iff.of_eq (k0_chk252.eq_1 v1323))
theorem k0_idx252_inb : ∀ (v1323 : IVec S16 32) (k0_hw252 : k0_chk252 v1323), ∀ a x, ((![v1323] : Fin 1 → IVec S16 32) a x).toNat < S4480.size a := fun v1323 k0_hw252 => k0_hw252

def k0_chk253 (v1329 : IVec S16 32) : Prop :=
  (∀ a x, ((![v1329] : Fin 1 → IVec S16 32) a x).toNat < S4480.size a)
instance k0_chk253.dec : ∀ (v1329 : IVec S16 32), Decidable (k0_chk253 v1329) := fun v1329 => decidable_of_iff' _ (Iff.of_eq (k0_chk253.eq_1 v1329))
theorem k0_idx253_inb : ∀ (v1329 : IVec S16 32) (k0_hw253 : k0_chk253 v1329), ∀ a x, ((![v1329] : Fin 1 → IVec S16 32) a x).toNat < S4480.size a := fun v1329 k0_hw253 => k0_hw253

def k0_chk254 (v1339 : IVec S16 32) : Prop :=
  (∀ a x, ((![v1339] : Fin 1 → IVec S16 32) a x).toNat < S4480.size a)
instance k0_chk254.dec : ∀ (v1339 : IVec S16 32), Decidable (k0_chk254 v1339) := fun v1339 => decidable_of_iff' _ (Iff.of_eq (k0_chk254.eq_1 v1339))
theorem k0_idx254_inb : ∀ (v1339 : IVec S16 32) (k0_hw254 : k0_chk254 v1339), ∀ a x, ((![v1339] : Fin 1 → IVec S16 32) a x).toNat < S4480.size a := fun v1339 k0_hw254 => k0_hw254

def k0_chk255 (v1342 : IVec S16 32) : Prop :=
  (∀ a x, ((![v1342] : Fin 1 → IVec S16 32) a x).toNat < S4480.size a)
instance k0_chk255.dec : ∀ (v1342 : IVec S16 32), Decidable (k0_chk255 v1342) := fun v1342 => decidable_of_iff' _ (Iff.of_eq (k0_chk255.eq_1 v1342))
theorem k0_idx255_inb : ∀ (v1342 : IVec S16 32) (k0_hw255 : k0_chk255 v1342), ∀ a x, ((![v1342] : Fin 1 → IVec S16 32) a x).toNat < S4480.size a := fun v1342 k0_hw255 => k0_hw255

def k0_chk256 (v1348 : IVec S16 32) : Prop :=
  (∀ a x, ((![v1348] : Fin 1 → IVec S16 32) a x).toNat < S4480.size a)
instance k0_chk256.dec : ∀ (v1348 : IVec S16 32), Decidable (k0_chk256 v1348) := fun v1348 => decidable_of_iff' _ (Iff.of_eq (k0_chk256.eq_1 v1348))
theorem k0_idx256_inb : ∀ (v1348 : IVec S16 32) (k0_hw256 : k0_chk256 v1348), ∀ a x, ((![v1348] : Fin 1 → IVec S16 32) a x).toNat < S4480.size a := fun v1348 k0_hw256 => k0_hw256

def k0_chk257 (v1354 : IVec S16 32) : Prop :=
  (∀ a x, ((![v1354] : Fin 1 → IVec S16 32) a x).toNat < S4480.size a)
instance k0_chk257.dec : ∀ (v1354 : IVec S16 32), Decidable (k0_chk257 v1354) := fun v1354 => decidable_of_iff' _ (Iff.of_eq (k0_chk257.eq_1 v1354))
theorem k0_idx257_inb : ∀ (v1354 : IVec S16 32) (k0_hw257 : k0_chk257 v1354), ∀ a x, ((![v1354] : Fin 1 → IVec S16 32) a x).toNat < S4480.size a := fun v1354 k0_hw257 => k0_hw257

def k0_chk258 (v1364 : IVec S16 32) : Prop :=
  (∀ a x, ((![v1364] : Fin 1 → IVec S16 32) a x).toNat < S4480.size a)
instance k0_chk258.dec : ∀ (v1364 : IVec S16 32), Decidable (k0_chk258 v1364) := fun v1364 => decidable_of_iff' _ (Iff.of_eq (k0_chk258.eq_1 v1364))
theorem k0_idx258_inb : ∀ (v1364 : IVec S16 32) (k0_hw258 : k0_chk258 v1364), ∀ a x, ((![v1364] : Fin 1 → IVec S16 32) a x).toNat < S4480.size a := fun v1364 k0_hw258 => k0_hw258

def k0_chk259 (v1367 : IVec S16 32) : Prop :=
  (∀ a x, ((![v1367] : Fin 1 → IVec S16 32) a x).toNat < S4480.size a)
instance k0_chk259.dec : ∀ (v1367 : IVec S16 32), Decidable (k0_chk259 v1367) := fun v1367 => decidable_of_iff' _ (Iff.of_eq (k0_chk259.eq_1 v1367))
theorem k0_idx259_inb : ∀ (v1367 : IVec S16 32) (k0_hw259 : k0_chk259 v1367), ∀ a x, ((![v1367] : Fin 1 → IVec S16 32) a x).toNat < S4480.size a := fun v1367 k0_hw259 => k0_hw259

def k0_chk260 (v1373 : IVec S16 32) : Prop :=
  (∀ a x, ((![v1373] : Fin 1 → IVec S16 32) a x).toNat < S4480.size a)
instance k0_chk260.dec : ∀ (v1373 : IVec S16 32), Decidable (k0_chk260 v1373) := fun v1373 => decidable_of_iff' _ (Iff.of_eq (k0_chk260.eq_1 v1373))
theorem k0_idx260_inb : ∀ (v1373 : IVec S16 32) (k0_hw260 : k0_chk260 v1373), ∀ a x, ((![v1373] : Fin 1 → IVec S16 32) a x).toNat < S4480.size a := fun v1373 k0_hw260 => k0_hw260

def k0_chk261 (v1379 : IVec S16 32) : Prop :=
  (∀ a x, ((![v1379] : Fin 1 → IVec S16 32) a x).toNat < S4480.size a)
instance k0_chk261.dec : ∀ (v1379 : IVec S16 32), Decidable (k0_chk261 v1379) := fun v1379 => decidable_of_iff' _ (Iff.of_eq (k0_chk261.eq_1 v1379))
theorem k0_idx261_inb : ∀ (v1379 : IVec S16 32) (k0_hw261 : k0_chk261 v1379), ∀ a x, ((![v1379] : Fin 1 → IVec S16 32) a x).toNat < S4480.size a := fun v1379 k0_hw261 => k0_hw261

def k0_chk262 (v1389 : IVec S16 32) : Prop :=
  (∀ a x, ((![v1389] : Fin 1 → IVec S16 32) a x).toNat < S4480.size a)
instance k0_chk262.dec : ∀ (v1389 : IVec S16 32), Decidable (k0_chk262 v1389) := fun v1389 => decidable_of_iff' _ (Iff.of_eq (k0_chk262.eq_1 v1389))
theorem k0_idx262_inb : ∀ (v1389 : IVec S16 32) (k0_hw262 : k0_chk262 v1389), ∀ a x, ((![v1389] : Fin 1 → IVec S16 32) a x).toNat < S4480.size a := fun v1389 k0_hw262 => k0_hw262

def k0_chk263 (v1392 : IVec S16 32) : Prop :=
  (∀ a x, ((![v1392] : Fin 1 → IVec S16 32) a x).toNat < S4480.size a)
instance k0_chk263.dec : ∀ (v1392 : IVec S16 32), Decidable (k0_chk263 v1392) := fun v1392 => decidable_of_iff' _ (Iff.of_eq (k0_chk263.eq_1 v1392))
theorem k0_idx263_inb : ∀ (v1392 : IVec S16 32) (k0_hw263 : k0_chk263 v1392), ∀ a x, ((![v1392] : Fin 1 → IVec S16 32) a x).toNat < S4480.size a := fun v1392 k0_hw263 => k0_hw263

def k0_chk264 (v1398 : IVec S16 32) : Prop :=
  (∀ a x, ((![v1398] : Fin 1 → IVec S16 32) a x).toNat < S4480.size a)
instance k0_chk264.dec : ∀ (v1398 : IVec S16 32), Decidable (k0_chk264 v1398) := fun v1398 => decidable_of_iff' _ (Iff.of_eq (k0_chk264.eq_1 v1398))
theorem k0_idx264_inb : ∀ (v1398 : IVec S16 32) (k0_hw264 : k0_chk264 v1398), ∀ a x, ((![v1398] : Fin 1 → IVec S16 32) a x).toNat < S4480.size a := fun v1398 k0_hw264 => k0_hw264

def k0_chk265 (v1404 : IVec S16 32) : Prop :=
  (∀ a x, ((![v1404] : Fin 1 → IVec S16 32) a x).toNat < S4480.size a)
instance k0_chk265.dec : ∀ (v1404 : IVec S16 32), Decidable (k0_chk265 v1404) := fun v1404 => decidable_of_iff' _ (Iff.of_eq (k0_chk265.eq_1 v1404))
theorem k0_idx265_inb : ∀ (v1404 : IVec S16 32) (k0_hw265 : k0_chk265 v1404), ∀ a x, ((![v1404] : Fin 1 → IVec S16 32) a x).toNat < S4480.size a := fun v1404 k0_hw265 => k0_hw265

def k0_chk266 (v1414 : IVec S16 32) : Prop :=
  (∀ a x, ((![v1414] : Fin 1 → IVec S16 32) a x).toNat < S4480.size a)
instance k0_chk266.dec : ∀ (v1414 : IVec S16 32), Decidable (k0_chk266 v1414) := fun v1414 => decidable_of_iff' _ (Iff.of_eq (k0_chk266.eq_1 v1414))
theorem k0_idx266_inb : ∀ (v1414 : IVec S16 32) (k0_hw266 : k0_chk266 v1414), ∀ a x, ((![v1414] : Fin 1 → IVec S16 32) a x).toNat < S4480.size a := fun v1414 k0_hw266 => k0_hw266

def k0_chk267 (v1417 : IVec S16 32) : Prop :=
  (∀ a x, ((![v1417] : Fin 1 → IVec S16 32) a x).toNat < S4480.size a)
instance k0_chk267.dec : ∀ (v1417 : IVec S16 32), Decidable (k0_chk267 v1417) := fun v1417 => decidable_of_iff' _ (Iff.of_eq (k0_chk267.eq_1 v1417))
theorem k0_idx267_inb : ∀ (v1417 : IVec S16 32) (k0_hw267 : k0_chk267 v1417), ∀ a x, ((![v1417] : Fin 1 → IVec S16 32) a x).toNat < S4480.size a := fun v1417 k0_hw267 => k0_hw267

def k0_chk268 (v1423 : IVec S16 32) : Prop :=
  (∀ a x, ((![v1423] : Fin 1 → IVec S16 32) a x).toNat < S4480.size a)
instance k0_chk268.dec : ∀ (v1423 : IVec S16 32), Decidable (k0_chk268 v1423) := fun v1423 => decidable_of_iff' _ (Iff.of_eq (k0_chk268.eq_1 v1423))
theorem k0_idx268_inb : ∀ (v1423 : IVec S16 32) (k0_hw268 : k0_chk268 v1423), ∀ a x, ((![v1423] : Fin 1 → IVec S16 32) a x).toNat < S4480.size a := fun v1423 k0_hw268 => k0_hw268

def k0_chk269 (v1429 : IVec S16 32) : Prop :=
  (∀ a x, ((![v1429] : Fin 1 → IVec S16 32) a x).toNat < S4480.size a)
instance k0_chk269.dec : ∀ (v1429 : IVec S16 32), Decidable (k0_chk269 v1429) := fun v1429 => decidable_of_iff' _ (Iff.of_eq (k0_chk269.eq_1 v1429))
theorem k0_idx269_inb : ∀ (v1429 : IVec S16 32) (k0_hw269 : k0_chk269 v1429), ∀ a x, ((![v1429] : Fin 1 → IVec S16 32) a x).toNat < S4480.size a := fun v1429 k0_hw269 => k0_hw269
@[reducible] def k0_t5_loop : Scf.Loop 32 :=
  let c0_i32_300 : BitVec 32 := 0#32
  let c128_i32_301 : BitVec 32 := 128#32
  let v1438 : BitVec 32 := Scalar.addi c0_i32_300 c128_i32_301
  let c1_i32_302 : BitVec 32 := 1#32
  ⟨c0_i32_300, v1438, c1_i32_302⟩

def k0_chk270 (v1795 : IVec S16 32) : Prop :=
  (∀ a x, ((![v1795] : Fin 1 → IVec S16 32) a x).toNat < S28672.size a)
instance k0_chk270.dec : ∀ (v1795 : IVec S16 32), Decidable (k0_chk270 v1795) := fun v1795 => decidable_of_iff' _ (Iff.of_eq (k0_chk270.eq_1 v1795))
theorem k0_idx270_inb : ∀ (v1795 : IVec S16 32) (k0_hw270 : k0_chk270 v1795), ∀ a x, ((![v1795] : Fin 1 → IVec S16 32) a x).toNat < S28672.size a := fun v1795 k0_hw270 => k0_hw270

def k0_chk271 (v1797 : IVec S16 32) : Prop :=
  (∀ a x, ((![v1797] : Fin 1 → IVec S16 32) a x).toNat < S28672.size a)
instance k0_chk271.dec : ∀ (v1797 : IVec S16 32), Decidable (k0_chk271 v1797) := fun v1797 => decidable_of_iff' _ (Iff.of_eq (k0_chk271.eq_1 v1797))
theorem k0_idx271_inb : ∀ (v1797 : IVec S16 32) (k0_hw271 : k0_chk271 v1797), ∀ a x, ((![v1797] : Fin 1 → IVec S16 32) a x).toNat < S28672.size a := fun v1797 k0_hw271 => k0_hw271

def k0_chk272 (v1799 : IVec S16 32) : Prop :=
  (∀ a x, ((![v1799] : Fin 1 → IVec S16 32) a x).toNat < S28672.size a)
instance k0_chk272.dec : ∀ (v1799 : IVec S16 32), Decidable (k0_chk272 v1799) := fun v1799 => decidable_of_iff' _ (Iff.of_eq (k0_chk272.eq_1 v1799))
theorem k0_idx272_inb : ∀ (v1799 : IVec S16 32) (k0_hw272 : k0_chk272 v1799), ∀ a x, ((![v1799] : Fin 1 → IVec S16 32) a x).toNat < S28672.size a := fun v1799 k0_hw272 => k0_hw272

def k0_chk273 (v1801 : IVec S16 32) : Prop :=
  (∀ a x, ((![v1801] : Fin 1 → IVec S16 32) a x).toNat < S28672.size a)
instance k0_chk273.dec : ∀ (v1801 : IVec S16 32), Decidable (k0_chk273 v1801) := fun v1801 => decidable_of_iff' _ (Iff.of_eq (k0_chk273.eq_1 v1801))
theorem k0_idx273_inb : ∀ (v1801 : IVec S16 32) (k0_hw273 : k0_chk273 v1801), ∀ a x, ((![v1801] : Fin 1 → IVec S16 32) a x).toNat < S28672.size a := fun v1801 k0_hw273 => k0_hw273

def k0_chk274 (v1803 : IVec S16 32) : Prop :=
  (∀ a x, ((![v1803] : Fin 1 → IVec S16 32) a x).toNat < S28672.size a)
instance k0_chk274.dec : ∀ (v1803 : IVec S16 32), Decidable (k0_chk274 v1803) := fun v1803 => decidable_of_iff' _ (Iff.of_eq (k0_chk274.eq_1 v1803))
theorem k0_idx274_inb : ∀ (v1803 : IVec S16 32) (k0_hw274 : k0_chk274 v1803), ∀ a x, ((![v1803] : Fin 1 → IVec S16 32) a x).toNat < S28672.size a := fun v1803 k0_hw274 => k0_hw274

def k0_chk275 (v1805 : IVec S16 32) : Prop :=
  (∀ a x, ((![v1805] : Fin 1 → IVec S16 32) a x).toNat < S28672.size a)
instance k0_chk275.dec : ∀ (v1805 : IVec S16 32), Decidable (k0_chk275 v1805) := fun v1805 => decidable_of_iff' _ (Iff.of_eq (k0_chk275.eq_1 v1805))
theorem k0_idx275_inb : ∀ (v1805 : IVec S16 32) (k0_hw275 : k0_chk275 v1805), ∀ a x, ((![v1805] : Fin 1 → IVec S16 32) a x).toNat < S28672.size a := fun v1805 k0_hw275 => k0_hw275

def k0_chk276 (v1807 : IVec S16 32) : Prop :=
  (∀ a x, ((![v1807] : Fin 1 → IVec S16 32) a x).toNat < S28672.size a)
instance k0_chk276.dec : ∀ (v1807 : IVec S16 32), Decidable (k0_chk276 v1807) := fun v1807 => decidable_of_iff' _ (Iff.of_eq (k0_chk276.eq_1 v1807))
theorem k0_idx276_inb : ∀ (v1807 : IVec S16 32) (k0_hw276 : k0_chk276 v1807), ∀ a x, ((![v1807] : Fin 1 → IVec S16 32) a x).toNat < S28672.size a := fun v1807 k0_hw276 => k0_hw276

def k0_chk277 (v1809 : IVec S16 32) : Prop :=
  (∀ a x, ((![v1809] : Fin 1 → IVec S16 32) a x).toNat < S28672.size a)
instance k0_chk277.dec : ∀ (v1809 : IVec S16 32), Decidable (k0_chk277 v1809) := fun v1809 => decidable_of_iff' _ (Iff.of_eq (k0_chk277.eq_1 v1809))
theorem k0_idx277_inb : ∀ (v1809 : IVec S16 32) (k0_hw277 : k0_chk277 v1809), ∀ a x, ((![v1809] : Fin 1 → IVec S16 32) a x).toNat < S28672.size a := fun v1809 k0_hw277 => k0_hw277

def k0_chk278 (v1811 : IVec S16 32) : Prop :=
  (∀ a x, ((![v1811] : Fin 1 → IVec S16 32) a x).toNat < S28672.size a)
instance k0_chk278.dec : ∀ (v1811 : IVec S16 32), Decidable (k0_chk278 v1811) := fun v1811 => decidable_of_iff' _ (Iff.of_eq (k0_chk278.eq_1 v1811))
theorem k0_idx278_inb : ∀ (v1811 : IVec S16 32) (k0_hw278 : k0_chk278 v1811), ∀ a x, ((![v1811] : Fin 1 → IVec S16 32) a x).toNat < S28672.size a := fun v1811 k0_hw278 => k0_hw278

def k0_chk279 (v1813 : IVec S16 32) : Prop :=
  (∀ a x, ((![v1813] : Fin 1 → IVec S16 32) a x).toNat < S28672.size a)
instance k0_chk279.dec : ∀ (v1813 : IVec S16 32), Decidable (k0_chk279 v1813) := fun v1813 => decidable_of_iff' _ (Iff.of_eq (k0_chk279.eq_1 v1813))
theorem k0_idx279_inb : ∀ (v1813 : IVec S16 32) (k0_hw279 : k0_chk279 v1813), ∀ a x, ((![v1813] : Fin 1 → IVec S16 32) a x).toNat < S28672.size a := fun v1813 k0_hw279 => k0_hw279

def k0_chk280 (v1815 : IVec S16 32) : Prop :=
  (∀ a x, ((![v1815] : Fin 1 → IVec S16 32) a x).toNat < S28672.size a)
instance k0_chk280.dec : ∀ (v1815 : IVec S16 32), Decidable (k0_chk280 v1815) := fun v1815 => decidable_of_iff' _ (Iff.of_eq (k0_chk280.eq_1 v1815))
theorem k0_idx280_inb : ∀ (v1815 : IVec S16 32) (k0_hw280 : k0_chk280 v1815), ∀ a x, ((![v1815] : Fin 1 → IVec S16 32) a x).toNat < S28672.size a := fun v1815 k0_hw280 => k0_hw280

def k0_chk281 (v1817 : IVec S16 32) : Prop :=
  (∀ a x, ((![v1817] : Fin 1 → IVec S16 32) a x).toNat < S28672.size a)
instance k0_chk281.dec : ∀ (v1817 : IVec S16 32), Decidable (k0_chk281 v1817) := fun v1817 => decidable_of_iff' _ (Iff.of_eq (k0_chk281.eq_1 v1817))
theorem k0_idx281_inb : ∀ (v1817 : IVec S16 32) (k0_hw281 : k0_chk281 v1817), ∀ a x, ((![v1817] : Fin 1 → IVec S16 32) a x).toNat < S28672.size a := fun v1817 k0_hw281 => k0_hw281

def k0_chk282 (v1819 : IVec S16 32) : Prop :=
  (∀ a x, ((![v1819] : Fin 1 → IVec S16 32) a x).toNat < S28672.size a)
instance k0_chk282.dec : ∀ (v1819 : IVec S16 32), Decidable (k0_chk282 v1819) := fun v1819 => decidable_of_iff' _ (Iff.of_eq (k0_chk282.eq_1 v1819))
theorem k0_idx282_inb : ∀ (v1819 : IVec S16 32) (k0_hw282 : k0_chk282 v1819), ∀ a x, ((![v1819] : Fin 1 → IVec S16 32) a x).toNat < S28672.size a := fun v1819 k0_hw282 => k0_hw282

def k0_chk283 (v1821 : IVec S16 32) : Prop :=
  (∀ a x, ((![v1821] : Fin 1 → IVec S16 32) a x).toNat < S28672.size a)
instance k0_chk283.dec : ∀ (v1821 : IVec S16 32), Decidable (k0_chk283 v1821) := fun v1821 => decidable_of_iff' _ (Iff.of_eq (k0_chk283.eq_1 v1821))
theorem k0_idx283_inb : ∀ (v1821 : IVec S16 32) (k0_hw283 : k0_chk283 v1821), ∀ a x, ((![v1821] : Fin 1 → IVec S16 32) a x).toNat < S28672.size a := fun v1821 k0_hw283 => k0_hw283

def k0_chk284 (v1838 : IVec S16 32) : Prop :=
  (∀ a x, ((![v1838] : Fin 1 → IVec S16 32) a x).toNat < S10240.size a)
instance k0_chk284.dec : ∀ (v1838 : IVec S16 32), Decidable (k0_chk284 v1838) := fun v1838 => decidable_of_iff' _ (Iff.of_eq (k0_chk284.eq_1 v1838))
theorem k0_idx284_inb : ∀ (v1838 : IVec S16 32) (k0_hw284 : k0_chk284 v1838), ∀ a x, ((![v1838] : Fin 1 → IVec S16 32) a x).toNat < S10240.size a := fun v1838 k0_hw284 => k0_hw284

def k0_chk285 (v1440 : IVec S16 32) : Prop :=
  (∀ a x, ((![v1440] : Fin 1 → IVec S16 32) a x).toNat < S4480.size a)
instance k0_chk285.dec : ∀ (v1440 : IVec S16 32), Decidable (k0_chk285 v1440) := fun v1440 => decidable_of_iff' _ (Iff.of_eq (k0_chk285.eq_1 v1440))
theorem k0_idx285_inb : ∀ (v1440 : IVec S16 32) (k0_hw285 : k0_chk285 v1440), ∀ a x, ((![v1440] : Fin 1 → IVec S16 32) a x).toNat < S4480.size a := fun v1440 k0_hw285 => k0_hw285

def k0_chk286 (v1443 : IVec S16 32) : Prop :=
  (∀ a x, ((![v1443] : Fin 1 → IVec S16 32) a x).toNat < S4480.size a)
instance k0_chk286.dec : ∀ (v1443 : IVec S16 32), Decidable (k0_chk286 v1443) := fun v1443 => decidable_of_iff' _ (Iff.of_eq (k0_chk286.eq_1 v1443))
theorem k0_idx286_inb : ∀ (v1443 : IVec S16 32) (k0_hw286 : k0_chk286 v1443), ∀ a x, ((![v1443] : Fin 1 → IVec S16 32) a x).toNat < S4480.size a := fun v1443 k0_hw286 => k0_hw286

def k0_chk287 (v1449 : IVec S16 32) : Prop :=
  (∀ a x, ((![v1449] : Fin 1 → IVec S16 32) a x).toNat < S4480.size a)
instance k0_chk287.dec : ∀ (v1449 : IVec S16 32), Decidable (k0_chk287 v1449) := fun v1449 => decidable_of_iff' _ (Iff.of_eq (k0_chk287.eq_1 v1449))
theorem k0_idx287_inb : ∀ (v1449 : IVec S16 32) (k0_hw287 : k0_chk287 v1449), ∀ a x, ((![v1449] : Fin 1 → IVec S16 32) a x).toNat < S4480.size a := fun v1449 k0_hw287 => k0_hw287

def k0_chk288 (v1455 : IVec S16 32) : Prop :=
  (∀ a x, ((![v1455] : Fin 1 → IVec S16 32) a x).toNat < S4480.size a)
instance k0_chk288.dec : ∀ (v1455 : IVec S16 32), Decidable (k0_chk288 v1455) := fun v1455 => decidable_of_iff' _ (Iff.of_eq (k0_chk288.eq_1 v1455))
theorem k0_idx288_inb : ∀ (v1455 : IVec S16 32) (k0_hw288 : k0_chk288 v1455), ∀ a x, ((![v1455] : Fin 1 → IVec S16 32) a x).toNat < S4480.size a := fun v1455 k0_hw288 => k0_hw288

def k0_chk289 (v1465 : IVec S16 32) : Prop :=
  (∀ a x, ((![v1465] : Fin 1 → IVec S16 32) a x).toNat < S4480.size a)
instance k0_chk289.dec : ∀ (v1465 : IVec S16 32), Decidable (k0_chk289 v1465) := fun v1465 => decidable_of_iff' _ (Iff.of_eq (k0_chk289.eq_1 v1465))
theorem k0_idx289_inb : ∀ (v1465 : IVec S16 32) (k0_hw289 : k0_chk289 v1465), ∀ a x, ((![v1465] : Fin 1 → IVec S16 32) a x).toNat < S4480.size a := fun v1465 k0_hw289 => k0_hw289

def k0_chk290 (v1468 : IVec S16 32) : Prop :=
  (∀ a x, ((![v1468] : Fin 1 → IVec S16 32) a x).toNat < S4480.size a)
instance k0_chk290.dec : ∀ (v1468 : IVec S16 32), Decidable (k0_chk290 v1468) := fun v1468 => decidable_of_iff' _ (Iff.of_eq (k0_chk290.eq_1 v1468))
theorem k0_idx290_inb : ∀ (v1468 : IVec S16 32) (k0_hw290 : k0_chk290 v1468), ∀ a x, ((![v1468] : Fin 1 → IVec S16 32) a x).toNat < S4480.size a := fun v1468 k0_hw290 => k0_hw290

def k0_chk291 (v1474 : IVec S16 32) : Prop :=
  (∀ a x, ((![v1474] : Fin 1 → IVec S16 32) a x).toNat < S4480.size a)
instance k0_chk291.dec : ∀ (v1474 : IVec S16 32), Decidable (k0_chk291 v1474) := fun v1474 => decidable_of_iff' _ (Iff.of_eq (k0_chk291.eq_1 v1474))
theorem k0_idx291_inb : ∀ (v1474 : IVec S16 32) (k0_hw291 : k0_chk291 v1474), ∀ a x, ((![v1474] : Fin 1 → IVec S16 32) a x).toNat < S4480.size a := fun v1474 k0_hw291 => k0_hw291

def k0_chk292 (v1480 : IVec S16 32) : Prop :=
  (∀ a x, ((![v1480] : Fin 1 → IVec S16 32) a x).toNat < S4480.size a)
instance k0_chk292.dec : ∀ (v1480 : IVec S16 32), Decidable (k0_chk292 v1480) := fun v1480 => decidable_of_iff' _ (Iff.of_eq (k0_chk292.eq_1 v1480))
theorem k0_idx292_inb : ∀ (v1480 : IVec S16 32) (k0_hw292 : k0_chk292 v1480), ∀ a x, ((![v1480] : Fin 1 → IVec S16 32) a x).toNat < S4480.size a := fun v1480 k0_hw292 => k0_hw292

def k0_chk293 (v1490 : IVec S16 32) : Prop :=
  (∀ a x, ((![v1490] : Fin 1 → IVec S16 32) a x).toNat < S4480.size a)
instance k0_chk293.dec : ∀ (v1490 : IVec S16 32), Decidable (k0_chk293 v1490) := fun v1490 => decidable_of_iff' _ (Iff.of_eq (k0_chk293.eq_1 v1490))
theorem k0_idx293_inb : ∀ (v1490 : IVec S16 32) (k0_hw293 : k0_chk293 v1490), ∀ a x, ((![v1490] : Fin 1 → IVec S16 32) a x).toNat < S4480.size a := fun v1490 k0_hw293 => k0_hw293

def k0_chk294 (v1493 : IVec S16 32) : Prop :=
  (∀ a x, ((![v1493] : Fin 1 → IVec S16 32) a x).toNat < S4480.size a)
instance k0_chk294.dec : ∀ (v1493 : IVec S16 32), Decidable (k0_chk294 v1493) := fun v1493 => decidable_of_iff' _ (Iff.of_eq (k0_chk294.eq_1 v1493))
theorem k0_idx294_inb : ∀ (v1493 : IVec S16 32) (k0_hw294 : k0_chk294 v1493), ∀ a x, ((![v1493] : Fin 1 → IVec S16 32) a x).toNat < S4480.size a := fun v1493 k0_hw294 => k0_hw294

def k0_chk295 (v1499 : IVec S16 32) : Prop :=
  (∀ a x, ((![v1499] : Fin 1 → IVec S16 32) a x).toNat < S4480.size a)
instance k0_chk295.dec : ∀ (v1499 : IVec S16 32), Decidable (k0_chk295 v1499) := fun v1499 => decidable_of_iff' _ (Iff.of_eq (k0_chk295.eq_1 v1499))
theorem k0_idx295_inb : ∀ (v1499 : IVec S16 32) (k0_hw295 : k0_chk295 v1499), ∀ a x, ((![v1499] : Fin 1 → IVec S16 32) a x).toNat < S4480.size a := fun v1499 k0_hw295 => k0_hw295

def k0_chk296 (v1505 : IVec S16 32) : Prop :=
  (∀ a x, ((![v1505] : Fin 1 → IVec S16 32) a x).toNat < S4480.size a)
instance k0_chk296.dec : ∀ (v1505 : IVec S16 32), Decidable (k0_chk296 v1505) := fun v1505 => decidable_of_iff' _ (Iff.of_eq (k0_chk296.eq_1 v1505))
theorem k0_idx296_inb : ∀ (v1505 : IVec S16 32) (k0_hw296 : k0_chk296 v1505), ∀ a x, ((![v1505] : Fin 1 → IVec S16 32) a x).toNat < S4480.size a := fun v1505 k0_hw296 => k0_hw296

def k0_chk297 (v1515 : IVec S16 32) : Prop :=
  (∀ a x, ((![v1515] : Fin 1 → IVec S16 32) a x).toNat < S4480.size a)
instance k0_chk297.dec : ∀ (v1515 : IVec S16 32), Decidable (k0_chk297 v1515) := fun v1515 => decidable_of_iff' _ (Iff.of_eq (k0_chk297.eq_1 v1515))
theorem k0_idx297_inb : ∀ (v1515 : IVec S16 32) (k0_hw297 : k0_chk297 v1515), ∀ a x, ((![v1515] : Fin 1 → IVec S16 32) a x).toNat < S4480.size a := fun v1515 k0_hw297 => k0_hw297

def k0_chk298 (v1518 : IVec S16 32) : Prop :=
  (∀ a x, ((![v1518] : Fin 1 → IVec S16 32) a x).toNat < S4480.size a)
instance k0_chk298.dec : ∀ (v1518 : IVec S16 32), Decidable (k0_chk298 v1518) := fun v1518 => decidable_of_iff' _ (Iff.of_eq (k0_chk298.eq_1 v1518))
theorem k0_idx298_inb : ∀ (v1518 : IVec S16 32) (k0_hw298 : k0_chk298 v1518), ∀ a x, ((![v1518] : Fin 1 → IVec S16 32) a x).toNat < S4480.size a := fun v1518 k0_hw298 => k0_hw298

def k0_chk299 (v1524 : IVec S16 32) : Prop :=
  (∀ a x, ((![v1524] : Fin 1 → IVec S16 32) a x).toNat < S4480.size a)
instance k0_chk299.dec : ∀ (v1524 : IVec S16 32), Decidable (k0_chk299 v1524) := fun v1524 => decidable_of_iff' _ (Iff.of_eq (k0_chk299.eq_1 v1524))
theorem k0_idx299_inb : ∀ (v1524 : IVec S16 32) (k0_hw299 : k0_chk299 v1524), ∀ a x, ((![v1524] : Fin 1 → IVec S16 32) a x).toNat < S4480.size a := fun v1524 k0_hw299 => k0_hw299

def k0_chk300 (v1530 : IVec S16 32) : Prop :=
  (∀ a x, ((![v1530] : Fin 1 → IVec S16 32) a x).toNat < S4480.size a)
instance k0_chk300.dec : ∀ (v1530 : IVec S16 32), Decidable (k0_chk300 v1530) := fun v1530 => decidable_of_iff' _ (Iff.of_eq (k0_chk300.eq_1 v1530))
theorem k0_idx300_inb : ∀ (v1530 : IVec S16 32) (k0_hw300 : k0_chk300 v1530), ∀ a x, ((![v1530] : Fin 1 → IVec S16 32) a x).toNat < S4480.size a := fun v1530 k0_hw300 => k0_hw300

def k0_chk301 (v1540 : IVec S16 32) : Prop :=
  (∀ a x, ((![v1540] : Fin 1 → IVec S16 32) a x).toNat < S4480.size a)
instance k0_chk301.dec : ∀ (v1540 : IVec S16 32), Decidable (k0_chk301 v1540) := fun v1540 => decidable_of_iff' _ (Iff.of_eq (k0_chk301.eq_1 v1540))
theorem k0_idx301_inb : ∀ (v1540 : IVec S16 32) (k0_hw301 : k0_chk301 v1540), ∀ a x, ((![v1540] : Fin 1 → IVec S16 32) a x).toNat < S4480.size a := fun v1540 k0_hw301 => k0_hw301

def k0_chk302 (v1543 : IVec S16 32) : Prop :=
  (∀ a x, ((![v1543] : Fin 1 → IVec S16 32) a x).toNat < S4480.size a)
instance k0_chk302.dec : ∀ (v1543 : IVec S16 32), Decidable (k0_chk302 v1543) := fun v1543 => decidable_of_iff' _ (Iff.of_eq (k0_chk302.eq_1 v1543))
theorem k0_idx302_inb : ∀ (v1543 : IVec S16 32) (k0_hw302 : k0_chk302 v1543), ∀ a x, ((![v1543] : Fin 1 → IVec S16 32) a x).toNat < S4480.size a := fun v1543 k0_hw302 => k0_hw302

def k0_chk303 (v1549 : IVec S16 32) : Prop :=
  (∀ a x, ((![v1549] : Fin 1 → IVec S16 32) a x).toNat < S4480.size a)
instance k0_chk303.dec : ∀ (v1549 : IVec S16 32), Decidable (k0_chk303 v1549) := fun v1549 => decidable_of_iff' _ (Iff.of_eq (k0_chk303.eq_1 v1549))
theorem k0_idx303_inb : ∀ (v1549 : IVec S16 32) (k0_hw303 : k0_chk303 v1549), ∀ a x, ((![v1549] : Fin 1 → IVec S16 32) a x).toNat < S4480.size a := fun v1549 k0_hw303 => k0_hw303

def k0_chk304 (v1555 : IVec S16 32) : Prop :=
  (∀ a x, ((![v1555] : Fin 1 → IVec S16 32) a x).toNat < S4480.size a)
instance k0_chk304.dec : ∀ (v1555 : IVec S16 32), Decidable (k0_chk304 v1555) := fun v1555 => decidable_of_iff' _ (Iff.of_eq (k0_chk304.eq_1 v1555))
theorem k0_idx304_inb : ∀ (v1555 : IVec S16 32) (k0_hw304 : k0_chk304 v1555), ∀ a x, ((![v1555] : Fin 1 → IVec S16 32) a x).toNat < S4480.size a := fun v1555 k0_hw304 => k0_hw304

def k0_chk305 (v1565 : IVec S16 32) : Prop :=
  (∀ a x, ((![v1565] : Fin 1 → IVec S16 32) a x).toNat < S4480.size a)
instance k0_chk305.dec : ∀ (v1565 : IVec S16 32), Decidable (k0_chk305 v1565) := fun v1565 => decidable_of_iff' _ (Iff.of_eq (k0_chk305.eq_1 v1565))
theorem k0_idx305_inb : ∀ (v1565 : IVec S16 32) (k0_hw305 : k0_chk305 v1565), ∀ a x, ((![v1565] : Fin 1 → IVec S16 32) a x).toNat < S4480.size a := fun v1565 k0_hw305 => k0_hw305

def k0_chk306 (v1568 : IVec S16 32) : Prop :=
  (∀ a x, ((![v1568] : Fin 1 → IVec S16 32) a x).toNat < S4480.size a)
instance k0_chk306.dec : ∀ (v1568 : IVec S16 32), Decidable (k0_chk306 v1568) := fun v1568 => decidable_of_iff' _ (Iff.of_eq (k0_chk306.eq_1 v1568))
theorem k0_idx306_inb : ∀ (v1568 : IVec S16 32) (k0_hw306 : k0_chk306 v1568), ∀ a x, ((![v1568] : Fin 1 → IVec S16 32) a x).toNat < S4480.size a := fun v1568 k0_hw306 => k0_hw306

def k0_chk307 (v1574 : IVec S16 32) : Prop :=
  (∀ a x, ((![v1574] : Fin 1 → IVec S16 32) a x).toNat < S4480.size a)
instance k0_chk307.dec : ∀ (v1574 : IVec S16 32), Decidable (k0_chk307 v1574) := fun v1574 => decidable_of_iff' _ (Iff.of_eq (k0_chk307.eq_1 v1574))
theorem k0_idx307_inb : ∀ (v1574 : IVec S16 32) (k0_hw307 : k0_chk307 v1574), ∀ a x, ((![v1574] : Fin 1 → IVec S16 32) a x).toNat < S4480.size a := fun v1574 k0_hw307 => k0_hw307

def k0_chk308 (v1580 : IVec S16 32) : Prop :=
  (∀ a x, ((![v1580] : Fin 1 → IVec S16 32) a x).toNat < S4480.size a)
instance k0_chk308.dec : ∀ (v1580 : IVec S16 32), Decidable (k0_chk308 v1580) := fun v1580 => decidable_of_iff' _ (Iff.of_eq (k0_chk308.eq_1 v1580))
theorem k0_idx308_inb : ∀ (v1580 : IVec S16 32) (k0_hw308 : k0_chk308 v1580), ∀ a x, ((![v1580] : Fin 1 → IVec S16 32) a x).toNat < S4480.size a := fun v1580 k0_hw308 => k0_hw308

def k0_chk309 (v1590 : IVec S16 32) : Prop :=
  (∀ a x, ((![v1590] : Fin 1 → IVec S16 32) a x).toNat < S4480.size a)
instance k0_chk309.dec : ∀ (v1590 : IVec S16 32), Decidable (k0_chk309 v1590) := fun v1590 => decidable_of_iff' _ (Iff.of_eq (k0_chk309.eq_1 v1590))
theorem k0_idx309_inb : ∀ (v1590 : IVec S16 32) (k0_hw309 : k0_chk309 v1590), ∀ a x, ((![v1590] : Fin 1 → IVec S16 32) a x).toNat < S4480.size a := fun v1590 k0_hw309 => k0_hw309

def k0_chk310 (v1593 : IVec S16 32) : Prop :=
  (∀ a x, ((![v1593] : Fin 1 → IVec S16 32) a x).toNat < S4480.size a)
instance k0_chk310.dec : ∀ (v1593 : IVec S16 32), Decidable (k0_chk310 v1593) := fun v1593 => decidable_of_iff' _ (Iff.of_eq (k0_chk310.eq_1 v1593))
theorem k0_idx310_inb : ∀ (v1593 : IVec S16 32) (k0_hw310 : k0_chk310 v1593), ∀ a x, ((![v1593] : Fin 1 → IVec S16 32) a x).toNat < S4480.size a := fun v1593 k0_hw310 => k0_hw310

def k0_chk311 (v1599 : IVec S16 32) : Prop :=
  (∀ a x, ((![v1599] : Fin 1 → IVec S16 32) a x).toNat < S4480.size a)
instance k0_chk311.dec : ∀ (v1599 : IVec S16 32), Decidable (k0_chk311 v1599) := fun v1599 => decidable_of_iff' _ (Iff.of_eq (k0_chk311.eq_1 v1599))
theorem k0_idx311_inb : ∀ (v1599 : IVec S16 32) (k0_hw311 : k0_chk311 v1599), ∀ a x, ((![v1599] : Fin 1 → IVec S16 32) a x).toNat < S4480.size a := fun v1599 k0_hw311 => k0_hw311

def k0_chk312 (v1605 : IVec S16 32) : Prop :=
  (∀ a x, ((![v1605] : Fin 1 → IVec S16 32) a x).toNat < S4480.size a)
instance k0_chk312.dec : ∀ (v1605 : IVec S16 32), Decidable (k0_chk312 v1605) := fun v1605 => decidable_of_iff' _ (Iff.of_eq (k0_chk312.eq_1 v1605))
theorem k0_idx312_inb : ∀ (v1605 : IVec S16 32) (k0_hw312 : k0_chk312 v1605), ∀ a x, ((![v1605] : Fin 1 → IVec S16 32) a x).toNat < S4480.size a := fun v1605 k0_hw312 => k0_hw312

def k0_chk313 (v1615 : IVec S16 32) : Prop :=
  (∀ a x, ((![v1615] : Fin 1 → IVec S16 32) a x).toNat < S4480.size a)
instance k0_chk313.dec : ∀ (v1615 : IVec S16 32), Decidable (k0_chk313 v1615) := fun v1615 => decidable_of_iff' _ (Iff.of_eq (k0_chk313.eq_1 v1615))
theorem k0_idx313_inb : ∀ (v1615 : IVec S16 32) (k0_hw313 : k0_chk313 v1615), ∀ a x, ((![v1615] : Fin 1 → IVec S16 32) a x).toNat < S4480.size a := fun v1615 k0_hw313 => k0_hw313

def k0_chk314 (v1618 : IVec S16 32) : Prop :=
  (∀ a x, ((![v1618] : Fin 1 → IVec S16 32) a x).toNat < S4480.size a)
instance k0_chk314.dec : ∀ (v1618 : IVec S16 32), Decidable (k0_chk314 v1618) := fun v1618 => decidable_of_iff' _ (Iff.of_eq (k0_chk314.eq_1 v1618))
theorem k0_idx314_inb : ∀ (v1618 : IVec S16 32) (k0_hw314 : k0_chk314 v1618), ∀ a x, ((![v1618] : Fin 1 → IVec S16 32) a x).toNat < S4480.size a := fun v1618 k0_hw314 => k0_hw314

def k0_chk315 (v1624 : IVec S16 32) : Prop :=
  (∀ a x, ((![v1624] : Fin 1 → IVec S16 32) a x).toNat < S4480.size a)
instance k0_chk315.dec : ∀ (v1624 : IVec S16 32), Decidable (k0_chk315 v1624) := fun v1624 => decidable_of_iff' _ (Iff.of_eq (k0_chk315.eq_1 v1624))
theorem k0_idx315_inb : ∀ (v1624 : IVec S16 32) (k0_hw315 : k0_chk315 v1624), ∀ a x, ((![v1624] : Fin 1 → IVec S16 32) a x).toNat < S4480.size a := fun v1624 k0_hw315 => k0_hw315

def k0_chk316 (v1630 : IVec S16 32) : Prop :=
  (∀ a x, ((![v1630] : Fin 1 → IVec S16 32) a x).toNat < S4480.size a)
instance k0_chk316.dec : ∀ (v1630 : IVec S16 32), Decidable (k0_chk316 v1630) := fun v1630 => decidable_of_iff' _ (Iff.of_eq (k0_chk316.eq_1 v1630))
theorem k0_idx316_inb : ∀ (v1630 : IVec S16 32) (k0_hw316 : k0_chk316 v1630), ∀ a x, ((![v1630] : Fin 1 → IVec S16 32) a x).toNat < S4480.size a := fun v1630 k0_hw316 => k0_hw316

def k0_chk317 (v1640 : IVec S16 32) : Prop :=
  (∀ a x, ((![v1640] : Fin 1 → IVec S16 32) a x).toNat < S4480.size a)
instance k0_chk317.dec : ∀ (v1640 : IVec S16 32), Decidable (k0_chk317 v1640) := fun v1640 => decidable_of_iff' _ (Iff.of_eq (k0_chk317.eq_1 v1640))
theorem k0_idx317_inb : ∀ (v1640 : IVec S16 32) (k0_hw317 : k0_chk317 v1640), ∀ a x, ((![v1640] : Fin 1 → IVec S16 32) a x).toNat < S4480.size a := fun v1640 k0_hw317 => k0_hw317

def k0_chk318 (v1643 : IVec S16 32) : Prop :=
  (∀ a x, ((![v1643] : Fin 1 → IVec S16 32) a x).toNat < S4480.size a)
instance k0_chk318.dec : ∀ (v1643 : IVec S16 32), Decidable (k0_chk318 v1643) := fun v1643 => decidable_of_iff' _ (Iff.of_eq (k0_chk318.eq_1 v1643))
theorem k0_idx318_inb : ∀ (v1643 : IVec S16 32) (k0_hw318 : k0_chk318 v1643), ∀ a x, ((![v1643] : Fin 1 → IVec S16 32) a x).toNat < S4480.size a := fun v1643 k0_hw318 => k0_hw318

def k0_chk319 (v1649 : IVec S16 32) : Prop :=
  (∀ a x, ((![v1649] : Fin 1 → IVec S16 32) a x).toNat < S4480.size a)
instance k0_chk319.dec : ∀ (v1649 : IVec S16 32), Decidable (k0_chk319 v1649) := fun v1649 => decidable_of_iff' _ (Iff.of_eq (k0_chk319.eq_1 v1649))
theorem k0_idx319_inb : ∀ (v1649 : IVec S16 32) (k0_hw319 : k0_chk319 v1649), ∀ a x, ((![v1649] : Fin 1 → IVec S16 32) a x).toNat < S4480.size a := fun v1649 k0_hw319 => k0_hw319

def k0_chk320 (v1655 : IVec S16 32) : Prop :=
  (∀ a x, ((![v1655] : Fin 1 → IVec S16 32) a x).toNat < S4480.size a)
instance k0_chk320.dec : ∀ (v1655 : IVec S16 32), Decidable (k0_chk320 v1655) := fun v1655 => decidable_of_iff' _ (Iff.of_eq (k0_chk320.eq_1 v1655))
theorem k0_idx320_inb : ∀ (v1655 : IVec S16 32) (k0_hw320 : k0_chk320 v1655), ∀ a x, ((![v1655] : Fin 1 → IVec S16 32) a x).toNat < S4480.size a := fun v1655 k0_hw320 => k0_hw320

def k0_chk321 (v1665 : IVec S16 32) : Prop :=
  (∀ a x, ((![v1665] : Fin 1 → IVec S16 32) a x).toNat < S4480.size a)
instance k0_chk321.dec : ∀ (v1665 : IVec S16 32), Decidable (k0_chk321 v1665) := fun v1665 => decidable_of_iff' _ (Iff.of_eq (k0_chk321.eq_1 v1665))
theorem k0_idx321_inb : ∀ (v1665 : IVec S16 32) (k0_hw321 : k0_chk321 v1665), ∀ a x, ((![v1665] : Fin 1 → IVec S16 32) a x).toNat < S4480.size a := fun v1665 k0_hw321 => k0_hw321

def k0_chk322 (v1668 : IVec S16 32) : Prop :=
  (∀ a x, ((![v1668] : Fin 1 → IVec S16 32) a x).toNat < S4480.size a)
instance k0_chk322.dec : ∀ (v1668 : IVec S16 32), Decidable (k0_chk322 v1668) := fun v1668 => decidable_of_iff' _ (Iff.of_eq (k0_chk322.eq_1 v1668))
theorem k0_idx322_inb : ∀ (v1668 : IVec S16 32) (k0_hw322 : k0_chk322 v1668), ∀ a x, ((![v1668] : Fin 1 → IVec S16 32) a x).toNat < S4480.size a := fun v1668 k0_hw322 => k0_hw322

def k0_chk323 (v1674 : IVec S16 32) : Prop :=
  (∀ a x, ((![v1674] : Fin 1 → IVec S16 32) a x).toNat < S4480.size a)
instance k0_chk323.dec : ∀ (v1674 : IVec S16 32), Decidable (k0_chk323 v1674) := fun v1674 => decidable_of_iff' _ (Iff.of_eq (k0_chk323.eq_1 v1674))
theorem k0_idx323_inb : ∀ (v1674 : IVec S16 32) (k0_hw323 : k0_chk323 v1674), ∀ a x, ((![v1674] : Fin 1 → IVec S16 32) a x).toNat < S4480.size a := fun v1674 k0_hw323 => k0_hw323

def k0_chk324 (v1680 : IVec S16 32) : Prop :=
  (∀ a x, ((![v1680] : Fin 1 → IVec S16 32) a x).toNat < S4480.size a)
instance k0_chk324.dec : ∀ (v1680 : IVec S16 32), Decidable (k0_chk324 v1680) := fun v1680 => decidable_of_iff' _ (Iff.of_eq (k0_chk324.eq_1 v1680))
theorem k0_idx324_inb : ∀ (v1680 : IVec S16 32) (k0_hw324 : k0_chk324 v1680), ∀ a x, ((![v1680] : Fin 1 → IVec S16 32) a x).toNat < S4480.size a := fun v1680 k0_hw324 => k0_hw324

def k0_chk325 (v1690 : IVec S16 32) : Prop :=
  (∀ a x, ((![v1690] : Fin 1 → IVec S16 32) a x).toNat < S4480.size a)
instance k0_chk325.dec : ∀ (v1690 : IVec S16 32), Decidable (k0_chk325 v1690) := fun v1690 => decidable_of_iff' _ (Iff.of_eq (k0_chk325.eq_1 v1690))
theorem k0_idx325_inb : ∀ (v1690 : IVec S16 32) (k0_hw325 : k0_chk325 v1690), ∀ a x, ((![v1690] : Fin 1 → IVec S16 32) a x).toNat < S4480.size a := fun v1690 k0_hw325 => k0_hw325

def k0_chk326 (v1693 : IVec S16 32) : Prop :=
  (∀ a x, ((![v1693] : Fin 1 → IVec S16 32) a x).toNat < S4480.size a)
instance k0_chk326.dec : ∀ (v1693 : IVec S16 32), Decidable (k0_chk326 v1693) := fun v1693 => decidable_of_iff' _ (Iff.of_eq (k0_chk326.eq_1 v1693))
theorem k0_idx326_inb : ∀ (v1693 : IVec S16 32) (k0_hw326 : k0_chk326 v1693), ∀ a x, ((![v1693] : Fin 1 → IVec S16 32) a x).toNat < S4480.size a := fun v1693 k0_hw326 => k0_hw326

def k0_chk327 (v1699 : IVec S16 32) : Prop :=
  (∀ a x, ((![v1699] : Fin 1 → IVec S16 32) a x).toNat < S4480.size a)
instance k0_chk327.dec : ∀ (v1699 : IVec S16 32), Decidable (k0_chk327 v1699) := fun v1699 => decidable_of_iff' _ (Iff.of_eq (k0_chk327.eq_1 v1699))
theorem k0_idx327_inb : ∀ (v1699 : IVec S16 32) (k0_hw327 : k0_chk327 v1699), ∀ a x, ((![v1699] : Fin 1 → IVec S16 32) a x).toNat < S4480.size a := fun v1699 k0_hw327 => k0_hw327

def k0_chk328 (v1705 : IVec S16 32) : Prop :=
  (∀ a x, ((![v1705] : Fin 1 → IVec S16 32) a x).toNat < S4480.size a)
instance k0_chk328.dec : ∀ (v1705 : IVec S16 32), Decidable (k0_chk328 v1705) := fun v1705 => decidable_of_iff' _ (Iff.of_eq (k0_chk328.eq_1 v1705))
theorem k0_idx328_inb : ∀ (v1705 : IVec S16 32) (k0_hw328 : k0_chk328 v1705), ∀ a x, ((![v1705] : Fin 1 → IVec S16 32) a x).toNat < S4480.size a := fun v1705 k0_hw328 => k0_hw328

def k0_chk329 (v1715 : IVec S16 32) : Prop :=
  (∀ a x, ((![v1715] : Fin 1 → IVec S16 32) a x).toNat < S4480.size a)
instance k0_chk329.dec : ∀ (v1715 : IVec S16 32), Decidable (k0_chk329 v1715) := fun v1715 => decidable_of_iff' _ (Iff.of_eq (k0_chk329.eq_1 v1715))
theorem k0_idx329_inb : ∀ (v1715 : IVec S16 32) (k0_hw329 : k0_chk329 v1715), ∀ a x, ((![v1715] : Fin 1 → IVec S16 32) a x).toNat < S4480.size a := fun v1715 k0_hw329 => k0_hw329

def k0_chk330 (v1718 : IVec S16 32) : Prop :=
  (∀ a x, ((![v1718] : Fin 1 → IVec S16 32) a x).toNat < S4480.size a)
instance k0_chk330.dec : ∀ (v1718 : IVec S16 32), Decidable (k0_chk330 v1718) := fun v1718 => decidable_of_iff' _ (Iff.of_eq (k0_chk330.eq_1 v1718))
theorem k0_idx330_inb : ∀ (v1718 : IVec S16 32) (k0_hw330 : k0_chk330 v1718), ∀ a x, ((![v1718] : Fin 1 → IVec S16 32) a x).toNat < S4480.size a := fun v1718 k0_hw330 => k0_hw330

def k0_chk331 (v1724 : IVec S16 32) : Prop :=
  (∀ a x, ((![v1724] : Fin 1 → IVec S16 32) a x).toNat < S4480.size a)
instance k0_chk331.dec : ∀ (v1724 : IVec S16 32), Decidable (k0_chk331 v1724) := fun v1724 => decidable_of_iff' _ (Iff.of_eq (k0_chk331.eq_1 v1724))
theorem k0_idx331_inb : ∀ (v1724 : IVec S16 32) (k0_hw331 : k0_chk331 v1724), ∀ a x, ((![v1724] : Fin 1 → IVec S16 32) a x).toNat < S4480.size a := fun v1724 k0_hw331 => k0_hw331

def k0_chk332 (v1730 : IVec S16 32) : Prop :=
  (∀ a x, ((![v1730] : Fin 1 → IVec S16 32) a x).toNat < S4480.size a)
instance k0_chk332.dec : ∀ (v1730 : IVec S16 32), Decidable (k0_chk332 v1730) := fun v1730 => decidable_of_iff' _ (Iff.of_eq (k0_chk332.eq_1 v1730))
theorem k0_idx332_inb : ∀ (v1730 : IVec S16 32) (k0_hw332 : k0_chk332 v1730), ∀ a x, ((![v1730] : Fin 1 → IVec S16 32) a x).toNat < S4480.size a := fun v1730 k0_hw332 => k0_hw332

def k0_chk333 (v1740 : IVec S16 32) : Prop :=
  (∀ a x, ((![v1740] : Fin 1 → IVec S16 32) a x).toNat < S4480.size a)
instance k0_chk333.dec : ∀ (v1740 : IVec S16 32), Decidable (k0_chk333 v1740) := fun v1740 => decidable_of_iff' _ (Iff.of_eq (k0_chk333.eq_1 v1740))
theorem k0_idx333_inb : ∀ (v1740 : IVec S16 32) (k0_hw333 : k0_chk333 v1740), ∀ a x, ((![v1740] : Fin 1 → IVec S16 32) a x).toNat < S4480.size a := fun v1740 k0_hw333 => k0_hw333

def k0_chk334 (v1743 : IVec S16 32) : Prop :=
  (∀ a x, ((![v1743] : Fin 1 → IVec S16 32) a x).toNat < S4480.size a)
instance k0_chk334.dec : ∀ (v1743 : IVec S16 32), Decidable (k0_chk334 v1743) := fun v1743 => decidable_of_iff' _ (Iff.of_eq (k0_chk334.eq_1 v1743))
theorem k0_idx334_inb : ∀ (v1743 : IVec S16 32) (k0_hw334 : k0_chk334 v1743), ∀ a x, ((![v1743] : Fin 1 → IVec S16 32) a x).toNat < S4480.size a := fun v1743 k0_hw334 => k0_hw334

def k0_chk335 (v1749 : IVec S16 32) : Prop :=
  (∀ a x, ((![v1749] : Fin 1 → IVec S16 32) a x).toNat < S4480.size a)
instance k0_chk335.dec : ∀ (v1749 : IVec S16 32), Decidable (k0_chk335 v1749) := fun v1749 => decidable_of_iff' _ (Iff.of_eq (k0_chk335.eq_1 v1749))
theorem k0_idx335_inb : ∀ (v1749 : IVec S16 32) (k0_hw335 : k0_chk335 v1749), ∀ a x, ((![v1749] : Fin 1 → IVec S16 32) a x).toNat < S4480.size a := fun v1749 k0_hw335 => k0_hw335

def k0_chk336 (v1755 : IVec S16 32) : Prop :=
  (∀ a x, ((![v1755] : Fin 1 → IVec S16 32) a x).toNat < S4480.size a)
instance k0_chk336.dec : ∀ (v1755 : IVec S16 32), Decidable (k0_chk336 v1755) := fun v1755 => decidable_of_iff' _ (Iff.of_eq (k0_chk336.eq_1 v1755))
theorem k0_idx336_inb : ∀ (v1755 : IVec S16 32) (k0_hw336 : k0_chk336 v1755), ∀ a x, ((![v1755] : Fin 1 → IVec S16 32) a x).toNat < S4480.size a := fun v1755 k0_hw336 => k0_hw336

def k0_chk337 (v1765 : IVec S16 32) : Prop :=
  (∀ a x, ((![v1765] : Fin 1 → IVec S16 32) a x).toNat < S4480.size a)
instance k0_chk337.dec : ∀ (v1765 : IVec S16 32), Decidable (k0_chk337 v1765) := fun v1765 => decidable_of_iff' _ (Iff.of_eq (k0_chk337.eq_1 v1765))
theorem k0_idx337_inb : ∀ (v1765 : IVec S16 32) (k0_hw337 : k0_chk337 v1765), ∀ a x, ((![v1765] : Fin 1 → IVec S16 32) a x).toNat < S4480.size a := fun v1765 k0_hw337 => k0_hw337

def k0_chk338 (v1768 : IVec S16 32) : Prop :=
  (∀ a x, ((![v1768] : Fin 1 → IVec S16 32) a x).toNat < S4480.size a)
instance k0_chk338.dec : ∀ (v1768 : IVec S16 32), Decidable (k0_chk338 v1768) := fun v1768 => decidable_of_iff' _ (Iff.of_eq (k0_chk338.eq_1 v1768))
theorem k0_idx338_inb : ∀ (v1768 : IVec S16 32) (k0_hw338 : k0_chk338 v1768), ∀ a x, ((![v1768] : Fin 1 → IVec S16 32) a x).toNat < S4480.size a := fun v1768 k0_hw338 => k0_hw338

def k0_chk339 (v1774 : IVec S16 32) : Prop :=
  (∀ a x, ((![v1774] : Fin 1 → IVec S16 32) a x).toNat < S4480.size a)
instance k0_chk339.dec : ∀ (v1774 : IVec S16 32), Decidable (k0_chk339 v1774) := fun v1774 => decidable_of_iff' _ (Iff.of_eq (k0_chk339.eq_1 v1774))
theorem k0_idx339_inb : ∀ (v1774 : IVec S16 32) (k0_hw339 : k0_chk339 v1774), ∀ a x, ((![v1774] : Fin 1 → IVec S16 32) a x).toNat < S4480.size a := fun v1774 k0_hw339 => k0_hw339

def k0_chk340 (v1780 : IVec S16 32) : Prop :=
  (∀ a x, ((![v1780] : Fin 1 → IVec S16 32) a x).toNat < S4480.size a)
instance k0_chk340.dec : ∀ (v1780 : IVec S16 32), Decidable (k0_chk340 v1780) := fun v1780 => decidable_of_iff' _ (Iff.of_eq (k0_chk340.eq_1 v1780))
theorem k0_idx340_inb : ∀ (v1780 : IVec S16 32) (k0_hw340 : k0_chk340 v1780), ∀ a x, ((![v1780] : Fin 1 → IVec S16 32) a x).toNat < S4480.size a := fun v1780 k0_hw340 => k0_hw340
@[reducible] def k0_t6_loop : Scf.Loop 32 :=
  let c0_i32_375 : BitVec 32 := 0#32
  let c128_i32_376 : BitVec 32 := 128#32
  let v1789 : BitVec 32 := Scalar.addi c0_i32_375 c128_i32_376
  let c1_i32_377 : BitVec 32 := 1#32
  ⟨c0_i32_375, v1789, c1_i32_377⟩

def k0_chk341 (v1795 : IVec S16 32) : Prop :=
  (∀ a x, ((![v1795] : Fin 1 → IVec S16 32) a x).toNat < S28672.size a)
instance k0_chk341.dec : ∀ (v1795 : IVec S16 32), Decidable (k0_chk341 v1795) := fun v1795 => decidable_of_iff' _ (Iff.of_eq (k0_chk341.eq_1 v1795))
theorem k0_idx341_inb : ∀ (v1795 : IVec S16 32) (k0_hw341 : k0_chk341 v1795), ∀ a x, ((![v1795] : Fin 1 → IVec S16 32) a x).toNat < S28672.size a := fun v1795 k0_hw341 => k0_hw341

def k0_chk342 (v1797 : IVec S16 32) : Prop :=
  (∀ a x, ((![v1797] : Fin 1 → IVec S16 32) a x).toNat < S28672.size a)
instance k0_chk342.dec : ∀ (v1797 : IVec S16 32), Decidable (k0_chk342 v1797) := fun v1797 => decidable_of_iff' _ (Iff.of_eq (k0_chk342.eq_1 v1797))
theorem k0_idx342_inb : ∀ (v1797 : IVec S16 32) (k0_hw342 : k0_chk342 v1797), ∀ a x, ((![v1797] : Fin 1 → IVec S16 32) a x).toNat < S28672.size a := fun v1797 k0_hw342 => k0_hw342

def k0_chk343 (v1799 : IVec S16 32) : Prop :=
  (∀ a x, ((![v1799] : Fin 1 → IVec S16 32) a x).toNat < S28672.size a)
instance k0_chk343.dec : ∀ (v1799 : IVec S16 32), Decidable (k0_chk343 v1799) := fun v1799 => decidable_of_iff' _ (Iff.of_eq (k0_chk343.eq_1 v1799))
theorem k0_idx343_inb : ∀ (v1799 : IVec S16 32) (k0_hw343 : k0_chk343 v1799), ∀ a x, ((![v1799] : Fin 1 → IVec S16 32) a x).toNat < S28672.size a := fun v1799 k0_hw343 => k0_hw343

def k0_chk344 (v1801 : IVec S16 32) : Prop :=
  (∀ a x, ((![v1801] : Fin 1 → IVec S16 32) a x).toNat < S28672.size a)
instance k0_chk344.dec : ∀ (v1801 : IVec S16 32), Decidable (k0_chk344 v1801) := fun v1801 => decidable_of_iff' _ (Iff.of_eq (k0_chk344.eq_1 v1801))
theorem k0_idx344_inb : ∀ (v1801 : IVec S16 32) (k0_hw344 : k0_chk344 v1801), ∀ a x, ((![v1801] : Fin 1 → IVec S16 32) a x).toNat < S28672.size a := fun v1801 k0_hw344 => k0_hw344

def k0_chk345 (v1803 : IVec S16 32) : Prop :=
  (∀ a x, ((![v1803] : Fin 1 → IVec S16 32) a x).toNat < S28672.size a)
instance k0_chk345.dec : ∀ (v1803 : IVec S16 32), Decidable (k0_chk345 v1803) := fun v1803 => decidable_of_iff' _ (Iff.of_eq (k0_chk345.eq_1 v1803))
theorem k0_idx345_inb : ∀ (v1803 : IVec S16 32) (k0_hw345 : k0_chk345 v1803), ∀ a x, ((![v1803] : Fin 1 → IVec S16 32) a x).toNat < S28672.size a := fun v1803 k0_hw345 => k0_hw345

def k0_chk346 (v1805 : IVec S16 32) : Prop :=
  (∀ a x, ((![v1805] : Fin 1 → IVec S16 32) a x).toNat < S28672.size a)
instance k0_chk346.dec : ∀ (v1805 : IVec S16 32), Decidable (k0_chk346 v1805) := fun v1805 => decidable_of_iff' _ (Iff.of_eq (k0_chk346.eq_1 v1805))
theorem k0_idx346_inb : ∀ (v1805 : IVec S16 32) (k0_hw346 : k0_chk346 v1805), ∀ a x, ((![v1805] : Fin 1 → IVec S16 32) a x).toNat < S28672.size a := fun v1805 k0_hw346 => k0_hw346

def k0_chk347 (v1807 : IVec S16 32) : Prop :=
  (∀ a x, ((![v1807] : Fin 1 → IVec S16 32) a x).toNat < S28672.size a)
instance k0_chk347.dec : ∀ (v1807 : IVec S16 32), Decidable (k0_chk347 v1807) := fun v1807 => decidable_of_iff' _ (Iff.of_eq (k0_chk347.eq_1 v1807))
theorem k0_idx347_inb : ∀ (v1807 : IVec S16 32) (k0_hw347 : k0_chk347 v1807), ∀ a x, ((![v1807] : Fin 1 → IVec S16 32) a x).toNat < S28672.size a := fun v1807 k0_hw347 => k0_hw347

def k0_chk348 (v1809 : IVec S16 32) : Prop :=
  (∀ a x, ((![v1809] : Fin 1 → IVec S16 32) a x).toNat < S28672.size a)
instance k0_chk348.dec : ∀ (v1809 : IVec S16 32), Decidable (k0_chk348 v1809) := fun v1809 => decidable_of_iff' _ (Iff.of_eq (k0_chk348.eq_1 v1809))
theorem k0_idx348_inb : ∀ (v1809 : IVec S16 32) (k0_hw348 : k0_chk348 v1809), ∀ a x, ((![v1809] : Fin 1 → IVec S16 32) a x).toNat < S28672.size a := fun v1809 k0_hw348 => k0_hw348

def k0_chk349 (v1811 : IVec S16 32) : Prop :=
  (∀ a x, ((![v1811] : Fin 1 → IVec S16 32) a x).toNat < S28672.size a)
instance k0_chk349.dec : ∀ (v1811 : IVec S16 32), Decidable (k0_chk349 v1811) := fun v1811 => decidable_of_iff' _ (Iff.of_eq (k0_chk349.eq_1 v1811))
theorem k0_idx349_inb : ∀ (v1811 : IVec S16 32) (k0_hw349 : k0_chk349 v1811), ∀ a x, ((![v1811] : Fin 1 → IVec S16 32) a x).toNat < S28672.size a := fun v1811 k0_hw349 => k0_hw349

def k0_chk350 (v1813 : IVec S16 32) : Prop :=
  (∀ a x, ((![v1813] : Fin 1 → IVec S16 32) a x).toNat < S28672.size a)
instance k0_chk350.dec : ∀ (v1813 : IVec S16 32), Decidable (k0_chk350 v1813) := fun v1813 => decidable_of_iff' _ (Iff.of_eq (k0_chk350.eq_1 v1813))
theorem k0_idx350_inb : ∀ (v1813 : IVec S16 32) (k0_hw350 : k0_chk350 v1813), ∀ a x, ((![v1813] : Fin 1 → IVec S16 32) a x).toNat < S28672.size a := fun v1813 k0_hw350 => k0_hw350

def k0_chk351 (v1815 : IVec S16 32) : Prop :=
  (∀ a x, ((![v1815] : Fin 1 → IVec S16 32) a x).toNat < S28672.size a)
instance k0_chk351.dec : ∀ (v1815 : IVec S16 32), Decidable (k0_chk351 v1815) := fun v1815 => decidable_of_iff' _ (Iff.of_eq (k0_chk351.eq_1 v1815))
theorem k0_idx351_inb : ∀ (v1815 : IVec S16 32) (k0_hw351 : k0_chk351 v1815), ∀ a x, ((![v1815] : Fin 1 → IVec S16 32) a x).toNat < S28672.size a := fun v1815 k0_hw351 => k0_hw351

def k0_chk352 (v1817 : IVec S16 32) : Prop :=
  (∀ a x, ((![v1817] : Fin 1 → IVec S16 32) a x).toNat < S28672.size a)
instance k0_chk352.dec : ∀ (v1817 : IVec S16 32), Decidable (k0_chk352 v1817) := fun v1817 => decidable_of_iff' _ (Iff.of_eq (k0_chk352.eq_1 v1817))
theorem k0_idx352_inb : ∀ (v1817 : IVec S16 32) (k0_hw352 : k0_chk352 v1817), ∀ a x, ((![v1817] : Fin 1 → IVec S16 32) a x).toNat < S28672.size a := fun v1817 k0_hw352 => k0_hw352

def k0_chk353 (v1819 : IVec S16 32) : Prop :=
  (∀ a x, ((![v1819] : Fin 1 → IVec S16 32) a x).toNat < S28672.size a)
instance k0_chk353.dec : ∀ (v1819 : IVec S16 32), Decidable (k0_chk353 v1819) := fun v1819 => decidable_of_iff' _ (Iff.of_eq (k0_chk353.eq_1 v1819))
theorem k0_idx353_inb : ∀ (v1819 : IVec S16 32) (k0_hw353 : k0_chk353 v1819), ∀ a x, ((![v1819] : Fin 1 → IVec S16 32) a x).toNat < S28672.size a := fun v1819 k0_hw353 => k0_hw353

def k0_chk354 (v1821 : IVec S16 32) : Prop :=
  (∀ a x, ((![v1821] : Fin 1 → IVec S16 32) a x).toNat < S28672.size a)
instance k0_chk354.dec : ∀ (v1821 : IVec S16 32), Decidable (k0_chk354 v1821) := fun v1821 => decidable_of_iff' _ (Iff.of_eq (k0_chk354.eq_1 v1821))
theorem k0_idx354_inb : ∀ (v1821 : IVec S16 32) (k0_hw354 : k0_chk354 v1821), ∀ a x, ((![v1821] : Fin 1 → IVec S16 32) a x).toNat < S28672.size a := fun v1821 k0_hw354 => k0_hw354

def k0_chk355 (v1838 : IVec S16 32) : Prop :=
  (∀ a x, ((![v1838] : Fin 1 → IVec S16 32) a x).toNat < S10240.size a)
instance k0_chk355.dec : ∀ (v1838 : IVec S16 32), Decidable (k0_chk355 v1838) := fun v1838 => decidable_of_iff' _ (Iff.of_eq (k0_chk355.eq_1 v1838))
theorem k0_idx355_inb : ∀ (v1838 : IVec S16 32) (k0_hw355 : k0_chk355 v1838), ∀ a x, ((![v1838] : Fin 1 → IVec S16 32) a x).toNat < S10240.size a := fun v1838 k0_hw355 => k0_hw355
def k0_off2 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1_i32_9 : BitVec 32 := 1#32
  let arg8 : BitVec 32 := Scf.iv c0_i32_7 c1_i32_9 k0_t1
  let c32_i32_11 : BitVec 32 := 32#32
  let v32 : BitVec 32 := Scalar.muli arg8 c32_i32_11
  let v33 : BitVec 32 := Scalar.addi v1 v32
  let c10240_i32_379 : BitVec 32 := 10240#32
  let v1790 : BitVec 32 := Scalar.muli v33 c10240_i32_379
  ![v1790.toNat]
@[reducible] def k0_t7_loop (i : grid0.Coords) : Scf.Loop 32 :=
  let c0_i32_7 : BitVec 32 := 0#32
  let c50_i32 : BitVec 32 := 50#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v7 : BitVec 32 := Scalar.subi c50_i32 v1
  let c32_i32 : BitVec 32 := 32#32
  let v8 : BitVec 32 := Scalar.addi v7 c32_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_1 : BitVec 32 := 0#32
  let v13 : BitVec 1 := Scalar.cmpi .slt v9 c0_i32_1
  let v14 : BitVec 32 := Scalar.extui v13
  let v15 : BitVec 32 := Scalar.subi v12 v14
  let c32_i32_0 : BitVec 32 := 32#32
  let c0_i32_2 : BitVec 32 := 0#32
  let v16 : BitVec 1 := Scalar.cmpi .sgt c32_i32_0 c0_i32_2
  let v17 : BitVec 32 := Scalar.extui v16
  let c0_i32_3 : BitVec 32 := 0#32
  let v18 : BitVec 1 := Scalar.cmpi .slt c32_i32_0 c0_i32_3
  let v19 : BitVec 32 := Scalar.extui v18
  let v20 : BitVec 32 := Scalar.subi v17 v19
  let v21 : BitVec 1 := Scalar.cmpi .ne v15 v20
  let v22 : BitVec 32 := Scalar.remsi v9 c32_i32_0
  let c0_i32_4 : BitVec 32 := 0#32
  let v23 : BitVec 1 := Scalar.cmpi .ne v22 c0_i32_4
  let v24 : BitVec 1 := Scalar.andi v21 v23
  let v10 : BitVec 32 := Scalar.divsi v9 c32_i32_0
  let c1_i32_5 : BitVec 32 := 1#32
  let v25 : BitVec 32 := Scalar.subi v10 c1_i32_5
  let v26 : BitVec 32 := Scalar.select v24 v25 v10
  let v27 : BitVec 32 := Scalar.subi v26 c0_i32_7
  let c1_i32_8 : BitVec 32 := 1#32
  let v29 : BitVec 32 := Scalar.divsi v27 c1_i32_8
  let v30 : BitVec 32 := Scalar.muli v29 c1_i32_8
  let v31 : BitVec 32 := Scalar.addi c0_i32_7 v30
  let v28 : BitVec 32 := Scalar.addi c0_i32_7 v27
  let c1_i32_10 : BitVec 32 := 1#32
  ⟨v31, v28, c1_i32_10⟩
def k0_off3 (i : grid0.Coords) (k0_t7 : Fin (k0_t7_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c50_i32 : BitVec 32 := 50#32
  let v7 : BitVec 32 := Scalar.subi c50_i32 v1
  let c32_i32 : BitVec 32 := 32#32
  let v8 : BitVec 32 := Scalar.addi v7 c32_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_1 : BitVec 32 := 0#32
  let v13 : BitVec 1 := Scalar.cmpi .slt v9 c0_i32_1
  let v14 : BitVec 32 := Scalar.extui v13
  let v15 : BitVec 32 := Scalar.subi v12 v14
  let c32_i32_0 : BitVec 32 := 32#32
  let c0_i32_2 : BitVec 32 := 0#32
  let v16 : BitVec 1 := Scalar.cmpi .sgt c32_i32_0 c0_i32_2
  let v17 : BitVec 32 := Scalar.extui v16
  let c0_i32_3 : BitVec 32 := 0#32
  let v18 : BitVec 1 := Scalar.cmpi .slt c32_i32_0 c0_i32_3
  let v19 : BitVec 32 := Scalar.extui v18
  let v20 : BitVec 32 := Scalar.subi v17 v19
  let v21 : BitVec 1 := Scalar.cmpi .ne v15 v20
  let v22 : BitVec 32 := Scalar.remsi v9 c32_i32_0
  let c0_i32_4 : BitVec 32 := 0#32
  let v23 : BitVec 1 := Scalar.cmpi .ne v22 c0_i32_4
  let v24 : BitVec 1 := Scalar.andi v21 v23
  let v10 : BitVec 32 := Scalar.divsi v9 c32_i32_0
  let c1_i32_5 : BitVec 32 := 1#32
  let v25 : BitVec 32 := Scalar.subi v10 c1_i32_5
  let v26 : BitVec 32 := Scalar.select v24 v25 v10
  let v27 : BitVec 32 := Scalar.subi v26 c0_i32_7
  let c1_i32_8 : BitVec 32 := 1#32
  let v29 : BitVec 32 := Scalar.divsi v27 c1_i32_8
  let v30 : BitVec 32 := Scalar.muli v29 c1_i32_8
  let v31 : BitVec 32 := Scalar.addi c0_i32_7 v30
  let c1_i32_10 : BitVec 32 := 1#32
  let arg8 : BitVec 32 := Scf.iv v31 c1_i32_10 k0_t7
  let c32_i32_11 : BitVec 32 := 32#32
  let v32 : BitVec 32 := Scalar.muli arg8 c32_i32_11
  let v33 : BitVec 32 := Scalar.addi v1 v32
  let c4480_i32 : BitVec 32 := 4480#32
  let v34 : BitVec 32 := Scalar.muli v33 c4480_i32
  ![v34.toNat]

def k0_chk356 (v36 : IVec S16 32) : Prop :=
  (∀ a x, ((![v36] : Fin 1 → IVec S16 32) a x).toNat < S4480.size a)
instance k0_chk356.dec : ∀ (v36 : IVec S16 32), Decidable (k0_chk356 v36) := fun v36 => decidable_of_iff' _ (Iff.of_eq (k0_chk356.eq_1 v36))
theorem k0_idx356_inb : ∀ (v36 : IVec S16 32) (k0_hw356 : k0_chk356 v36), ∀ a x, ((![v36] : Fin 1 → IVec S16 32) a x).toNat < S4480.size a := fun v36 k0_hw356 => k0_hw356

def k0_chk357 (v39 : IVec S16 32) : Prop :=
  (∀ a x, ((![v39] : Fin 1 → IVec S16 32) a x).toNat < S4480.size a)
instance k0_chk357.dec : ∀ (v39 : IVec S16 32), Decidable (k0_chk357 v39) := fun v39 => decidable_of_iff' _ (Iff.of_eq (k0_chk357.eq_1 v39))
theorem k0_idx357_inb : ∀ (v39 : IVec S16 32) (k0_hw357 : k0_chk357 v39), ∀ a x, ((![v39] : Fin 1 → IVec S16 32) a x).toNat < S4480.size a := fun v39 k0_hw357 => k0_hw357

def k0_chk358 (v45 : IVec S16 32) : Prop :=
  (∀ a x, ((![v45] : Fin 1 → IVec S16 32) a x).toNat < S4480.size a)
instance k0_chk358.dec : ∀ (v45 : IVec S16 32), Decidable (k0_chk358 v45) := fun v45 => decidable_of_iff' _ (Iff.of_eq (k0_chk358.eq_1 v45))
theorem k0_idx358_inb : ∀ (v45 : IVec S16 32) (k0_hw358 : k0_chk358 v45), ∀ a x, ((![v45] : Fin 1 → IVec S16 32) a x).toNat < S4480.size a := fun v45 k0_hw358 => k0_hw358

def k0_chk359 (v51 : IVec S16 32) : Prop :=
  (∀ a x, ((![v51] : Fin 1 → IVec S16 32) a x).toNat < S4480.size a)
instance k0_chk359.dec : ∀ (v51 : IVec S16 32), Decidable (k0_chk359 v51) := fun v51 => decidable_of_iff' _ (Iff.of_eq (k0_chk359.eq_1 v51))
theorem k0_idx359_inb : ∀ (v51 : IVec S16 32) (k0_hw359 : k0_chk359 v51), ∀ a x, ((![v51] : Fin 1 → IVec S16 32) a x).toNat < S4480.size a := fun v51 k0_hw359 => k0_hw359

def k0_chk360 (v61 : IVec S16 32) : Prop :=
  (∀ a x, ((![v61] : Fin 1 → IVec S16 32) a x).toNat < S4480.size a)
instance k0_chk360.dec : ∀ (v61 : IVec S16 32), Decidable (k0_chk360 v61) := fun v61 => decidable_of_iff' _ (Iff.of_eq (k0_chk360.eq_1 v61))
theorem k0_idx360_inb : ∀ (v61 : IVec S16 32) (k0_hw360 : k0_chk360 v61), ∀ a x, ((![v61] : Fin 1 → IVec S16 32) a x).toNat < S4480.size a := fun v61 k0_hw360 => k0_hw360

def k0_chk361 (v64 : IVec S16 32) : Prop :=
  (∀ a x, ((![v64] : Fin 1 → IVec S16 32) a x).toNat < S4480.size a)
instance k0_chk361.dec : ∀ (v64 : IVec S16 32), Decidable (k0_chk361 v64) := fun v64 => decidable_of_iff' _ (Iff.of_eq (k0_chk361.eq_1 v64))
theorem k0_idx361_inb : ∀ (v64 : IVec S16 32) (k0_hw361 : k0_chk361 v64), ∀ a x, ((![v64] : Fin 1 → IVec S16 32) a x).toNat < S4480.size a := fun v64 k0_hw361 => k0_hw361

def k0_chk362 (v70 : IVec S16 32) : Prop :=
  (∀ a x, ((![v70] : Fin 1 → IVec S16 32) a x).toNat < S4480.size a)
instance k0_chk362.dec : ∀ (v70 : IVec S16 32), Decidable (k0_chk362 v70) := fun v70 => decidable_of_iff' _ (Iff.of_eq (k0_chk362.eq_1 v70))
theorem k0_idx362_inb : ∀ (v70 : IVec S16 32) (k0_hw362 : k0_chk362 v70), ∀ a x, ((![v70] : Fin 1 → IVec S16 32) a x).toNat < S4480.size a := fun v70 k0_hw362 => k0_hw362

def k0_chk363 (v76 : IVec S16 32) : Prop :=
  (∀ a x, ((![v76] : Fin 1 → IVec S16 32) a x).toNat < S4480.size a)
instance k0_chk363.dec : ∀ (v76 : IVec S16 32), Decidable (k0_chk363 v76) := fun v76 => decidable_of_iff' _ (Iff.of_eq (k0_chk363.eq_1 v76))
theorem k0_idx363_inb : ∀ (v76 : IVec S16 32) (k0_hw363 : k0_chk363 v76), ∀ a x, ((![v76] : Fin 1 → IVec S16 32) a x).toNat < S4480.size a := fun v76 k0_hw363 => k0_hw363

def k0_chk364 (v86 : IVec S16 32) : Prop :=
  (∀ a x, ((![v86] : Fin 1 → IVec S16 32) a x).toNat < S4480.size a)
instance k0_chk364.dec : ∀ (v86 : IVec S16 32), Decidable (k0_chk364 v86) := fun v86 => decidable_of_iff' _ (Iff.of_eq (k0_chk364.eq_1 v86))
theorem k0_idx364_inb : ∀ (v86 : IVec S16 32) (k0_hw364 : k0_chk364 v86), ∀ a x, ((![v86] : Fin 1 → IVec S16 32) a x).toNat < S4480.size a := fun v86 k0_hw364 => k0_hw364

def k0_chk365 (v89 : IVec S16 32) : Prop :=
  (∀ a x, ((![v89] : Fin 1 → IVec S16 32) a x).toNat < S4480.size a)
instance k0_chk365.dec : ∀ (v89 : IVec S16 32), Decidable (k0_chk365 v89) := fun v89 => decidable_of_iff' _ (Iff.of_eq (k0_chk365.eq_1 v89))
theorem k0_idx365_inb : ∀ (v89 : IVec S16 32) (k0_hw365 : k0_chk365 v89), ∀ a x, ((![v89] : Fin 1 → IVec S16 32) a x).toNat < S4480.size a := fun v89 k0_hw365 => k0_hw365

def k0_chk366 (v95 : IVec S16 32) : Prop :=
  (∀ a x, ((![v95] : Fin 1 → IVec S16 32) a x).toNat < S4480.size a)
instance k0_chk366.dec : ∀ (v95 : IVec S16 32), Decidable (k0_chk366 v95) := fun v95 => decidable_of_iff' _ (Iff.of_eq (k0_chk366.eq_1 v95))
theorem k0_idx366_inb : ∀ (v95 : IVec S16 32) (k0_hw366 : k0_chk366 v95), ∀ a x, ((![v95] : Fin 1 → IVec S16 32) a x).toNat < S4480.size a := fun v95 k0_hw366 => k0_hw366

def k0_chk367 (v101 : IVec S16 32) : Prop :=
  (∀ a x, ((![v101] : Fin 1 → IVec S16 32) a x).toNat < S4480.size a)
instance k0_chk367.dec : ∀ (v101 : IVec S16 32), Decidable (k0_chk367 v101) := fun v101 => decidable_of_iff' _ (Iff.of_eq (k0_chk367.eq_1 v101))
theorem k0_idx367_inb : ∀ (v101 : IVec S16 32) (k0_hw367 : k0_chk367 v101), ∀ a x, ((![v101] : Fin 1 → IVec S16 32) a x).toNat < S4480.size a := fun v101 k0_hw367 => k0_hw367

def k0_chk368 (v111 : IVec S16 32) : Prop :=
  (∀ a x, ((![v111] : Fin 1 → IVec S16 32) a x).toNat < S4480.size a)
instance k0_chk368.dec : ∀ (v111 : IVec S16 32), Decidable (k0_chk368 v111) := fun v111 => decidable_of_iff' _ (Iff.of_eq (k0_chk368.eq_1 v111))
theorem k0_idx368_inb : ∀ (v111 : IVec S16 32) (k0_hw368 : k0_chk368 v111), ∀ a x, ((![v111] : Fin 1 → IVec S16 32) a x).toNat < S4480.size a := fun v111 k0_hw368 => k0_hw368

def k0_chk369 (v114 : IVec S16 32) : Prop :=
  (∀ a x, ((![v114] : Fin 1 → IVec S16 32) a x).toNat < S4480.size a)
instance k0_chk369.dec : ∀ (v114 : IVec S16 32), Decidable (k0_chk369 v114) := fun v114 => decidable_of_iff' _ (Iff.of_eq (k0_chk369.eq_1 v114))
theorem k0_idx369_inb : ∀ (v114 : IVec S16 32) (k0_hw369 : k0_chk369 v114), ∀ a x, ((![v114] : Fin 1 → IVec S16 32) a x).toNat < S4480.size a := fun v114 k0_hw369 => k0_hw369

def k0_chk370 (v120 : IVec S16 32) : Prop :=
  (∀ a x, ((![v120] : Fin 1 → IVec S16 32) a x).toNat < S4480.size a)
instance k0_chk370.dec : ∀ (v120 : IVec S16 32), Decidable (k0_chk370 v120) := fun v120 => decidable_of_iff' _ (Iff.of_eq (k0_chk370.eq_1 v120))
theorem k0_idx370_inb : ∀ (v120 : IVec S16 32) (k0_hw370 : k0_chk370 v120), ∀ a x, ((![v120] : Fin 1 → IVec S16 32) a x).toNat < S4480.size a := fun v120 k0_hw370 => k0_hw370

def k0_chk371 (v126 : IVec S16 32) : Prop :=
  (∀ a x, ((![v126] : Fin 1 → IVec S16 32) a x).toNat < S4480.size a)
instance k0_chk371.dec : ∀ (v126 : IVec S16 32), Decidable (k0_chk371 v126) := fun v126 => decidable_of_iff' _ (Iff.of_eq (k0_chk371.eq_1 v126))
theorem k0_idx371_inb : ∀ (v126 : IVec S16 32) (k0_hw371 : k0_chk371 v126), ∀ a x, ((![v126] : Fin 1 → IVec S16 32) a x).toNat < S4480.size a := fun v126 k0_hw371 => k0_hw371

def k0_chk372 (v136 : IVec S16 32) : Prop :=
  (∀ a x, ((![v136] : Fin 1 → IVec S16 32) a x).toNat < S4480.size a)
instance k0_chk372.dec : ∀ (v136 : IVec S16 32), Decidable (k0_chk372 v136) := fun v136 => decidable_of_iff' _ (Iff.of_eq (k0_chk372.eq_1 v136))
theorem k0_idx372_inb : ∀ (v136 : IVec S16 32) (k0_hw372 : k0_chk372 v136), ∀ a x, ((![v136] : Fin 1 → IVec S16 32) a x).toNat < S4480.size a := fun v136 k0_hw372 => k0_hw372

def k0_chk373 (v139 : IVec S16 32) : Prop :=
  (∀ a x, ((![v139] : Fin 1 → IVec S16 32) a x).toNat < S4480.size a)
instance k0_chk373.dec : ∀ (v139 : IVec S16 32), Decidable (k0_chk373 v139) := fun v139 => decidable_of_iff' _ (Iff.of_eq (k0_chk373.eq_1 v139))
theorem k0_idx373_inb : ∀ (v139 : IVec S16 32) (k0_hw373 : k0_chk373 v139), ∀ a x, ((![v139] : Fin 1 → IVec S16 32) a x).toNat < S4480.size a := fun v139 k0_hw373 => k0_hw373

def k0_chk374 (v145 : IVec S16 32) : Prop :=
  (∀ a x, ((![v145] : Fin 1 → IVec S16 32) a x).toNat < S4480.size a)
instance k0_chk374.dec : ∀ (v145 : IVec S16 32), Decidable (k0_chk374 v145) := fun v145 => decidable_of_iff' _ (Iff.of_eq (k0_chk374.eq_1 v145))
theorem k0_idx374_inb : ∀ (v145 : IVec S16 32) (k0_hw374 : k0_chk374 v145), ∀ a x, ((![v145] : Fin 1 → IVec S16 32) a x).toNat < S4480.size a := fun v145 k0_hw374 => k0_hw374

def k0_chk375 (v151 : IVec S16 32) : Prop :=
  (∀ a x, ((![v151] : Fin 1 → IVec S16 32) a x).toNat < S4480.size a)
instance k0_chk375.dec : ∀ (v151 : IVec S16 32), Decidable (k0_chk375 v151) := fun v151 => decidable_of_iff' _ (Iff.of_eq (k0_chk375.eq_1 v151))
theorem k0_idx375_inb : ∀ (v151 : IVec S16 32) (k0_hw375 : k0_chk375 v151), ∀ a x, ((![v151] : Fin 1 → IVec S16 32) a x).toNat < S4480.size a := fun v151 k0_hw375 => k0_hw375

def k0_chk376 (v161 : IVec S16 32) : Prop :=
  (∀ a x, ((![v161] : Fin 1 → IVec S16 32) a x).toNat < S4480.size a)
instance k0_chk376.dec : ∀ (v161 : IVec S16 32), Decidable (k0_chk376 v161) := fun v161 => decidable_of_iff' _ (Iff.of_eq (k0_chk376.eq_1 v161))
theorem k0_idx376_inb : ∀ (v161 : IVec S16 32) (k0_hw376 : k0_chk376 v161), ∀ a x, ((![v161] : Fin 1 → IVec S16 32) a x).toNat < S4480.size a := fun v161 k0_hw376 => k0_hw376

def k0_chk377 (v164 : IVec S16 32) : Prop :=
  (∀ a x, ((![v164] : Fin 1 → IVec S16 32) a x).toNat < S4480.size a)
instance k0_chk377.dec : ∀ (v164 : IVec S16 32), Decidable (k0_chk377 v164) := fun v164 => decidable_of_iff' _ (Iff.of_eq (k0_chk377.eq_1 v164))
theorem k0_idx377_inb : ∀ (v164 : IVec S16 32) (k0_hw377 : k0_chk377 v164), ∀ a x, ((![v164] : Fin 1 → IVec S16 32) a x).toNat < S4480.size a := fun v164 k0_hw377 => k0_hw377

def k0_chk378 (v170 : IVec S16 32) : Prop :=
  (∀ a x, ((![v170] : Fin 1 → IVec S16 32) a x).toNat < S4480.size a)
instance k0_chk378.dec : ∀ (v170 : IVec S16 32), Decidable (k0_chk378 v170) := fun v170 => decidable_of_iff' _ (Iff.of_eq (k0_chk378.eq_1 v170))
theorem k0_idx378_inb : ∀ (v170 : IVec S16 32) (k0_hw378 : k0_chk378 v170), ∀ a x, ((![v170] : Fin 1 → IVec S16 32) a x).toNat < S4480.size a := fun v170 k0_hw378 => k0_hw378

def k0_chk379 (v176 : IVec S16 32) : Prop :=
  (∀ a x, ((![v176] : Fin 1 → IVec S16 32) a x).toNat < S4480.size a)
instance k0_chk379.dec : ∀ (v176 : IVec S16 32), Decidable (k0_chk379 v176) := fun v176 => decidable_of_iff' _ (Iff.of_eq (k0_chk379.eq_1 v176))
theorem k0_idx379_inb : ∀ (v176 : IVec S16 32) (k0_hw379 : k0_chk379 v176), ∀ a x, ((![v176] : Fin 1 → IVec S16 32) a x).toNat < S4480.size a := fun v176 k0_hw379 => k0_hw379

def k0_chk380 (v186 : IVec S16 32) : Prop :=
  (∀ a x, ((![v186] : Fin 1 → IVec S16 32) a x).toNat < S4480.size a)
instance k0_chk380.dec : ∀ (v186 : IVec S16 32), Decidable (k0_chk380 v186) := fun v186 => decidable_of_iff' _ (Iff.of_eq (k0_chk380.eq_1 v186))
theorem k0_idx380_inb : ∀ (v186 : IVec S16 32) (k0_hw380 : k0_chk380 v186), ∀ a x, ((![v186] : Fin 1 → IVec S16 32) a x).toNat < S4480.size a := fun v186 k0_hw380 => k0_hw380

def k0_chk381 (v189 : IVec S16 32) : Prop :=
  (∀ a x, ((![v189] : Fin 1 → IVec S16 32) a x).toNat < S4480.size a)
instance k0_chk381.dec : ∀ (v189 : IVec S16 32), Decidable (k0_chk381 v189) := fun v189 => decidable_of_iff' _ (Iff.of_eq (k0_chk381.eq_1 v189))
theorem k0_idx381_inb : ∀ (v189 : IVec S16 32) (k0_hw381 : k0_chk381 v189), ∀ a x, ((![v189] : Fin 1 → IVec S16 32) a x).toNat < S4480.size a := fun v189 k0_hw381 => k0_hw381

def k0_chk382 (v195 : IVec S16 32) : Prop :=
  (∀ a x, ((![v195] : Fin 1 → IVec S16 32) a x).toNat < S4480.size a)
instance k0_chk382.dec : ∀ (v195 : IVec S16 32), Decidable (k0_chk382 v195) := fun v195 => decidable_of_iff' _ (Iff.of_eq (k0_chk382.eq_1 v195))
theorem k0_idx382_inb : ∀ (v195 : IVec S16 32) (k0_hw382 : k0_chk382 v195), ∀ a x, ((![v195] : Fin 1 → IVec S16 32) a x).toNat < S4480.size a := fun v195 k0_hw382 => k0_hw382

def k0_chk383 (v201 : IVec S16 32) : Prop :=
  (∀ a x, ((![v201] : Fin 1 → IVec S16 32) a x).toNat < S4480.size a)
instance k0_chk383.dec : ∀ (v201 : IVec S16 32), Decidable (k0_chk383 v201) := fun v201 => decidable_of_iff' _ (Iff.of_eq (k0_chk383.eq_1 v201))
theorem k0_idx383_inb : ∀ (v201 : IVec S16 32) (k0_hw383 : k0_chk383 v201), ∀ a x, ((![v201] : Fin 1 → IVec S16 32) a x).toNat < S4480.size a := fun v201 k0_hw383 => k0_hw383

def k0_chk384 (v211 : IVec S16 32) : Prop :=
  (∀ a x, ((![v211] : Fin 1 → IVec S16 32) a x).toNat < S4480.size a)
instance k0_chk384.dec : ∀ (v211 : IVec S16 32), Decidable (k0_chk384 v211) := fun v211 => decidable_of_iff' _ (Iff.of_eq (k0_chk384.eq_1 v211))
theorem k0_idx384_inb : ∀ (v211 : IVec S16 32) (k0_hw384 : k0_chk384 v211), ∀ a x, ((![v211] : Fin 1 → IVec S16 32) a x).toNat < S4480.size a := fun v211 k0_hw384 => k0_hw384

def k0_chk385 (v214 : IVec S16 32) : Prop :=
  (∀ a x, ((![v214] : Fin 1 → IVec S16 32) a x).toNat < S4480.size a)
instance k0_chk385.dec : ∀ (v214 : IVec S16 32), Decidable (k0_chk385 v214) := fun v214 => decidable_of_iff' _ (Iff.of_eq (k0_chk385.eq_1 v214))
theorem k0_idx385_inb : ∀ (v214 : IVec S16 32) (k0_hw385 : k0_chk385 v214), ∀ a x, ((![v214] : Fin 1 → IVec S16 32) a x).toNat < S4480.size a := fun v214 k0_hw385 => k0_hw385

def k0_chk386 (v220 : IVec S16 32) : Prop :=
  (∀ a x, ((![v220] : Fin 1 → IVec S16 32) a x).toNat < S4480.size a)
instance k0_chk386.dec : ∀ (v220 : IVec S16 32), Decidable (k0_chk386 v220) := fun v220 => decidable_of_iff' _ (Iff.of_eq (k0_chk386.eq_1 v220))
theorem k0_idx386_inb : ∀ (v220 : IVec S16 32) (k0_hw386 : k0_chk386 v220), ∀ a x, ((![v220] : Fin 1 → IVec S16 32) a x).toNat < S4480.size a := fun v220 k0_hw386 => k0_hw386

def k0_chk387 (v226 : IVec S16 32) : Prop :=
  (∀ a x, ((![v226] : Fin 1 → IVec S16 32) a x).toNat < S4480.size a)
instance k0_chk387.dec : ∀ (v226 : IVec S16 32), Decidable (k0_chk387 v226) := fun v226 => decidable_of_iff' _ (Iff.of_eq (k0_chk387.eq_1 v226))
theorem k0_idx387_inb : ∀ (v226 : IVec S16 32) (k0_hw387 : k0_chk387 v226), ∀ a x, ((![v226] : Fin 1 → IVec S16 32) a x).toNat < S4480.size a := fun v226 k0_hw387 => k0_hw387

def k0_chk388 (v236 : IVec S16 32) : Prop :=
  (∀ a x, ((![v236] : Fin 1 → IVec S16 32) a x).toNat < S4480.size a)
instance k0_chk388.dec : ∀ (v236 : IVec S16 32), Decidable (k0_chk388 v236) := fun v236 => decidable_of_iff' _ (Iff.of_eq (k0_chk388.eq_1 v236))
theorem k0_idx388_inb : ∀ (v236 : IVec S16 32) (k0_hw388 : k0_chk388 v236), ∀ a x, ((![v236] : Fin 1 → IVec S16 32) a x).toNat < S4480.size a := fun v236 k0_hw388 => k0_hw388

def k0_chk389 (v239 : IVec S16 32) : Prop :=
  (∀ a x, ((![v239] : Fin 1 → IVec S16 32) a x).toNat < S4480.size a)
instance k0_chk389.dec : ∀ (v239 : IVec S16 32), Decidable (k0_chk389 v239) := fun v239 => decidable_of_iff' _ (Iff.of_eq (k0_chk389.eq_1 v239))
theorem k0_idx389_inb : ∀ (v239 : IVec S16 32) (k0_hw389 : k0_chk389 v239), ∀ a x, ((![v239] : Fin 1 → IVec S16 32) a x).toNat < S4480.size a := fun v239 k0_hw389 => k0_hw389

def k0_chk390 (v245 : IVec S16 32) : Prop :=
  (∀ a x, ((![v245] : Fin 1 → IVec S16 32) a x).toNat < S4480.size a)
instance k0_chk390.dec : ∀ (v245 : IVec S16 32), Decidable (k0_chk390 v245) := fun v245 => decidable_of_iff' _ (Iff.of_eq (k0_chk390.eq_1 v245))
theorem k0_idx390_inb : ∀ (v245 : IVec S16 32) (k0_hw390 : k0_chk390 v245), ∀ a x, ((![v245] : Fin 1 → IVec S16 32) a x).toNat < S4480.size a := fun v245 k0_hw390 => k0_hw390

def k0_chk391 (v251 : IVec S16 32) : Prop :=
  (∀ a x, ((![v251] : Fin 1 → IVec S16 32) a x).toNat < S4480.size a)
instance k0_chk391.dec : ∀ (v251 : IVec S16 32), Decidable (k0_chk391 v251) := fun v251 => decidable_of_iff' _ (Iff.of_eq (k0_chk391.eq_1 v251))
theorem k0_idx391_inb : ∀ (v251 : IVec S16 32) (k0_hw391 : k0_chk391 v251), ∀ a x, ((![v251] : Fin 1 → IVec S16 32) a x).toNat < S4480.size a := fun v251 k0_hw391 => k0_hw391

def k0_chk392 (v261 : IVec S16 32) : Prop :=
  (∀ a x, ((![v261] : Fin 1 → IVec S16 32) a x).toNat < S4480.size a)
instance k0_chk392.dec : ∀ (v261 : IVec S16 32), Decidable (k0_chk392 v261) := fun v261 => decidable_of_iff' _ (Iff.of_eq (k0_chk392.eq_1 v261))
theorem k0_idx392_inb : ∀ (v261 : IVec S16 32) (k0_hw392 : k0_chk392 v261), ∀ a x, ((![v261] : Fin 1 → IVec S16 32) a x).toNat < S4480.size a := fun v261 k0_hw392 => k0_hw392

def k0_chk393 (v264 : IVec S16 32) : Prop :=
  (∀ a x, ((![v264] : Fin 1 → IVec S16 32) a x).toNat < S4480.size a)
instance k0_chk393.dec : ∀ (v264 : IVec S16 32), Decidable (k0_chk393 v264) := fun v264 => decidable_of_iff' _ (Iff.of_eq (k0_chk393.eq_1 v264))
theorem k0_idx393_inb : ∀ (v264 : IVec S16 32) (k0_hw393 : k0_chk393 v264), ∀ a x, ((![v264] : Fin 1 → IVec S16 32) a x).toNat < S4480.size a := fun v264 k0_hw393 => k0_hw393

def k0_chk394 (v270 : IVec S16 32) : Prop :=
  (∀ a x, ((![v270] : Fin 1 → IVec S16 32) a x).toNat < S4480.size a)
instance k0_chk394.dec : ∀ (v270 : IVec S16 32), Decidable (k0_chk394 v270) := fun v270 => decidable_of_iff' _ (Iff.of_eq (k0_chk394.eq_1 v270))
theorem k0_idx394_inb : ∀ (v270 : IVec S16 32) (k0_hw394 : k0_chk394 v270), ∀ a x, ((![v270] : Fin 1 → IVec S16 32) a x).toNat < S4480.size a := fun v270 k0_hw394 => k0_hw394

def k0_chk395 (v276 : IVec S16 32) : Prop :=
  (∀ a x, ((![v276] : Fin 1 → IVec S16 32) a x).toNat < S4480.size a)
instance k0_chk395.dec : ∀ (v276 : IVec S16 32), Decidable (k0_chk395 v276) := fun v276 => decidable_of_iff' _ (Iff.of_eq (k0_chk395.eq_1 v276))
theorem k0_idx395_inb : ∀ (v276 : IVec S16 32) (k0_hw395 : k0_chk395 v276), ∀ a x, ((![v276] : Fin 1 → IVec S16 32) a x).toNat < S4480.size a := fun v276 k0_hw395 => k0_hw395

def k0_chk396 (v286 : IVec S16 32) : Prop :=
  (∀ a x, ((![v286] : Fin 1 → IVec S16 32) a x).toNat < S4480.size a)
instance k0_chk396.dec : ∀ (v286 : IVec S16 32), Decidable (k0_chk396 v286) := fun v286 => decidable_of_iff' _ (Iff.of_eq (k0_chk396.eq_1 v286))
theorem k0_idx396_inb : ∀ (v286 : IVec S16 32) (k0_hw396 : k0_chk396 v286), ∀ a x, ((![v286] : Fin 1 → IVec S16 32) a x).toNat < S4480.size a := fun v286 k0_hw396 => k0_hw396

def k0_chk397 (v289 : IVec S16 32) : Prop :=
  (∀ a x, ((![v289] : Fin 1 → IVec S16 32) a x).toNat < S4480.size a)
instance k0_chk397.dec : ∀ (v289 : IVec S16 32), Decidable (k0_chk397 v289) := fun v289 => decidable_of_iff' _ (Iff.of_eq (k0_chk397.eq_1 v289))
theorem k0_idx397_inb : ∀ (v289 : IVec S16 32) (k0_hw397 : k0_chk397 v289), ∀ a x, ((![v289] : Fin 1 → IVec S16 32) a x).toNat < S4480.size a := fun v289 k0_hw397 => k0_hw397

def k0_chk398 (v295 : IVec S16 32) : Prop :=
  (∀ a x, ((![v295] : Fin 1 → IVec S16 32) a x).toNat < S4480.size a)
instance k0_chk398.dec : ∀ (v295 : IVec S16 32), Decidable (k0_chk398 v295) := fun v295 => decidable_of_iff' _ (Iff.of_eq (k0_chk398.eq_1 v295))
theorem k0_idx398_inb : ∀ (v295 : IVec S16 32) (k0_hw398 : k0_chk398 v295), ∀ a x, ((![v295] : Fin 1 → IVec S16 32) a x).toNat < S4480.size a := fun v295 k0_hw398 => k0_hw398

def k0_chk399 (v301 : IVec S16 32) : Prop :=
  (∀ a x, ((![v301] : Fin 1 → IVec S16 32) a x).toNat < S4480.size a)
instance k0_chk399.dec : ∀ (v301 : IVec S16 32), Decidable (k0_chk399 v301) := fun v301 => decidable_of_iff' _ (Iff.of_eq (k0_chk399.eq_1 v301))
theorem k0_idx399_inb : ∀ (v301 : IVec S16 32) (k0_hw399 : k0_chk399 v301), ∀ a x, ((![v301] : Fin 1 → IVec S16 32) a x).toNat < S4480.size a := fun v301 k0_hw399 => k0_hw399

def k0_chk400 (v311 : IVec S16 32) : Prop :=
  (∀ a x, ((![v311] : Fin 1 → IVec S16 32) a x).toNat < S4480.size a)
instance k0_chk400.dec : ∀ (v311 : IVec S16 32), Decidable (k0_chk400 v311) := fun v311 => decidable_of_iff' _ (Iff.of_eq (k0_chk400.eq_1 v311))
theorem k0_idx400_inb : ∀ (v311 : IVec S16 32) (k0_hw400 : k0_chk400 v311), ∀ a x, ((![v311] : Fin 1 → IVec S16 32) a x).toNat < S4480.size a := fun v311 k0_hw400 => k0_hw400

def k0_chk401 (v314 : IVec S16 32) : Prop :=
  (∀ a x, ((![v314] : Fin 1 → IVec S16 32) a x).toNat < S4480.size a)
instance k0_chk401.dec : ∀ (v314 : IVec S16 32), Decidable (k0_chk401 v314) := fun v314 => decidable_of_iff' _ (Iff.of_eq (k0_chk401.eq_1 v314))
theorem k0_idx401_inb : ∀ (v314 : IVec S16 32) (k0_hw401 : k0_chk401 v314), ∀ a x, ((![v314] : Fin 1 → IVec S16 32) a x).toNat < S4480.size a := fun v314 k0_hw401 => k0_hw401

def k0_chk402 (v320 : IVec S16 32) : Prop :=
  (∀ a x, ((![v320] : Fin 1 → IVec S16 32) a x).toNat < S4480.size a)
instance k0_chk402.dec : ∀ (v320 : IVec S16 32), Decidable (k0_chk402 v320) := fun v320 => decidable_of_iff' _ (Iff.of_eq (k0_chk402.eq_1 v320))
theorem k0_idx402_inb : ∀ (v320 : IVec S16 32) (k0_hw402 : k0_chk402 v320), ∀ a x, ((![v320] : Fin 1 → IVec S16 32) a x).toNat < S4480.size a := fun v320 k0_hw402 => k0_hw402

def k0_chk403 (v326 : IVec S16 32) : Prop :=
  (∀ a x, ((![v326] : Fin 1 → IVec S16 32) a x).toNat < S4480.size a)
instance k0_chk403.dec : ∀ (v326 : IVec S16 32), Decidable (k0_chk403 v326) := fun v326 => decidable_of_iff' _ (Iff.of_eq (k0_chk403.eq_1 v326))
theorem k0_idx403_inb : ∀ (v326 : IVec S16 32) (k0_hw403 : k0_chk403 v326), ∀ a x, ((![v326] : Fin 1 → IVec S16 32) a x).toNat < S4480.size a := fun v326 k0_hw403 => k0_hw403

def k0_chk404 (v336 : IVec S16 32) : Prop :=
  (∀ a x, ((![v336] : Fin 1 → IVec S16 32) a x).toNat < S4480.size a)
instance k0_chk404.dec : ∀ (v336 : IVec S16 32), Decidable (k0_chk404 v336) := fun v336 => decidable_of_iff' _ (Iff.of_eq (k0_chk404.eq_1 v336))
theorem k0_idx404_inb : ∀ (v336 : IVec S16 32) (k0_hw404 : k0_chk404 v336), ∀ a x, ((![v336] : Fin 1 → IVec S16 32) a x).toNat < S4480.size a := fun v336 k0_hw404 => k0_hw404

def k0_chk405 (v339 : IVec S16 32) : Prop :=
  (∀ a x, ((![v339] : Fin 1 → IVec S16 32) a x).toNat < S4480.size a)
instance k0_chk405.dec : ∀ (v339 : IVec S16 32), Decidable (k0_chk405 v339) := fun v339 => decidable_of_iff' _ (Iff.of_eq (k0_chk405.eq_1 v339))
theorem k0_idx405_inb : ∀ (v339 : IVec S16 32) (k0_hw405 : k0_chk405 v339), ∀ a x, ((![v339] : Fin 1 → IVec S16 32) a x).toNat < S4480.size a := fun v339 k0_hw405 => k0_hw405

def k0_chk406 (v345 : IVec S16 32) : Prop :=
  (∀ a x, ((![v345] : Fin 1 → IVec S16 32) a x).toNat < S4480.size a)
instance k0_chk406.dec : ∀ (v345 : IVec S16 32), Decidable (k0_chk406 v345) := fun v345 => decidable_of_iff' _ (Iff.of_eq (k0_chk406.eq_1 v345))
theorem k0_idx406_inb : ∀ (v345 : IVec S16 32) (k0_hw406 : k0_chk406 v345), ∀ a x, ((![v345] : Fin 1 → IVec S16 32) a x).toNat < S4480.size a := fun v345 k0_hw406 => k0_hw406

def k0_chk407 (v351 : IVec S16 32) : Prop :=
  (∀ a x, ((![v351] : Fin 1 → IVec S16 32) a x).toNat < S4480.size a)
instance k0_chk407.dec : ∀ (v351 : IVec S16 32), Decidable (k0_chk407 v351) := fun v351 => decidable_of_iff' _ (Iff.of_eq (k0_chk407.eq_1 v351))
theorem k0_idx407_inb : ∀ (v351 : IVec S16 32) (k0_hw407 : k0_chk407 v351), ∀ a x, ((![v351] : Fin 1 → IVec S16 32) a x).toNat < S4480.size a := fun v351 k0_hw407 => k0_hw407

def k0_chk408 (v361 : IVec S16 32) : Prop :=
  (∀ a x, ((![v361] : Fin 1 → IVec S16 32) a x).toNat < S4480.size a)
instance k0_chk408.dec : ∀ (v361 : IVec S16 32), Decidable (k0_chk408 v361) := fun v361 => decidable_of_iff' _ (Iff.of_eq (k0_chk408.eq_1 v361))
theorem k0_idx408_inb : ∀ (v361 : IVec S16 32) (k0_hw408 : k0_chk408 v361), ∀ a x, ((![v361] : Fin 1 → IVec S16 32) a x).toNat < S4480.size a := fun v361 k0_hw408 => k0_hw408

def k0_chk409 (v364 : IVec S16 32) : Prop :=
  (∀ a x, ((![v364] : Fin 1 → IVec S16 32) a x).toNat < S4480.size a)
instance k0_chk409.dec : ∀ (v364 : IVec S16 32), Decidable (k0_chk409 v364) := fun v364 => decidable_of_iff' _ (Iff.of_eq (k0_chk409.eq_1 v364))
theorem k0_idx409_inb : ∀ (v364 : IVec S16 32) (k0_hw409 : k0_chk409 v364), ∀ a x, ((![v364] : Fin 1 → IVec S16 32) a x).toNat < S4480.size a := fun v364 k0_hw409 => k0_hw409

def k0_chk410 (v370 : IVec S16 32) : Prop :=
  (∀ a x, ((![v370] : Fin 1 → IVec S16 32) a x).toNat < S4480.size a)
instance k0_chk410.dec : ∀ (v370 : IVec S16 32), Decidable (k0_chk410 v370) := fun v370 => decidable_of_iff' _ (Iff.of_eq (k0_chk410.eq_1 v370))
theorem k0_idx410_inb : ∀ (v370 : IVec S16 32) (k0_hw410 : k0_chk410 v370), ∀ a x, ((![v370] : Fin 1 → IVec S16 32) a x).toNat < S4480.size a := fun v370 k0_hw410 => k0_hw410

def k0_chk411 (v376 : IVec S16 32) : Prop :=
  (∀ a x, ((![v376] : Fin 1 → IVec S16 32) a x).toNat < S4480.size a)
instance k0_chk411.dec : ∀ (v376 : IVec S16 32), Decidable (k0_chk411 v376) := fun v376 => decidable_of_iff' _ (Iff.of_eq (k0_chk411.eq_1 v376))
theorem k0_idx411_inb : ∀ (v376 : IVec S16 32) (k0_hw411 : k0_chk411 v376), ∀ a x, ((![v376] : Fin 1 → IVec S16 32) a x).toNat < S4480.size a := fun v376 k0_hw411 => k0_hw411
@[reducible] def k0_t8_loop : Scf.Loop 32 :=
  let c0_i32_75 : BitVec 32 := 0#32
  let c128_i32_76 : BitVec 32 := 128#32
  let v385 : BitVec 32 := Scalar.addi c0_i32_75 c128_i32_76
  let c1_i32_77 : BitVec 32 := 1#32
  ⟨c0_i32_75, v385, c1_i32_77⟩

def k0_chk412 (v1795 : IVec S16 32) : Prop :=
  (∀ a x, ((![v1795] : Fin 1 → IVec S16 32) a x).toNat < S28672.size a)
instance k0_chk412.dec : ∀ (v1795 : IVec S16 32), Decidable (k0_chk412 v1795) := fun v1795 => decidable_of_iff' _ (Iff.of_eq (k0_chk412.eq_1 v1795))
theorem k0_idx412_inb : ∀ (v1795 : IVec S16 32) (k0_hw412 : k0_chk412 v1795), ∀ a x, ((![v1795] : Fin 1 → IVec S16 32) a x).toNat < S28672.size a := fun v1795 k0_hw412 => k0_hw412

def k0_chk413 (v1797 : IVec S16 32) : Prop :=
  (∀ a x, ((![v1797] : Fin 1 → IVec S16 32) a x).toNat < S28672.size a)
instance k0_chk413.dec : ∀ (v1797 : IVec S16 32), Decidable (k0_chk413 v1797) := fun v1797 => decidable_of_iff' _ (Iff.of_eq (k0_chk413.eq_1 v1797))
theorem k0_idx413_inb : ∀ (v1797 : IVec S16 32) (k0_hw413 : k0_chk413 v1797), ∀ a x, ((![v1797] : Fin 1 → IVec S16 32) a x).toNat < S28672.size a := fun v1797 k0_hw413 => k0_hw413

def k0_chk414 (v1799 : IVec S16 32) : Prop :=
  (∀ a x, ((![v1799] : Fin 1 → IVec S16 32) a x).toNat < S28672.size a)
instance k0_chk414.dec : ∀ (v1799 : IVec S16 32), Decidable (k0_chk414 v1799) := fun v1799 => decidable_of_iff' _ (Iff.of_eq (k0_chk414.eq_1 v1799))
theorem k0_idx414_inb : ∀ (v1799 : IVec S16 32) (k0_hw414 : k0_chk414 v1799), ∀ a x, ((![v1799] : Fin 1 → IVec S16 32) a x).toNat < S28672.size a := fun v1799 k0_hw414 => k0_hw414

def k0_chk415 (v1801 : IVec S16 32) : Prop :=
  (∀ a x, ((![v1801] : Fin 1 → IVec S16 32) a x).toNat < S28672.size a)
instance k0_chk415.dec : ∀ (v1801 : IVec S16 32), Decidable (k0_chk415 v1801) := fun v1801 => decidable_of_iff' _ (Iff.of_eq (k0_chk415.eq_1 v1801))
theorem k0_idx415_inb : ∀ (v1801 : IVec S16 32) (k0_hw415 : k0_chk415 v1801), ∀ a x, ((![v1801] : Fin 1 → IVec S16 32) a x).toNat < S28672.size a := fun v1801 k0_hw415 => k0_hw415

def k0_chk416 (v1803 : IVec S16 32) : Prop :=
  (∀ a x, ((![v1803] : Fin 1 → IVec S16 32) a x).toNat < S28672.size a)
instance k0_chk416.dec : ∀ (v1803 : IVec S16 32), Decidable (k0_chk416 v1803) := fun v1803 => decidable_of_iff' _ (Iff.of_eq (k0_chk416.eq_1 v1803))
theorem k0_idx416_inb : ∀ (v1803 : IVec S16 32) (k0_hw416 : k0_chk416 v1803), ∀ a x, ((![v1803] : Fin 1 → IVec S16 32) a x).toNat < S28672.size a := fun v1803 k0_hw416 => k0_hw416

def k0_chk417 (v1805 : IVec S16 32) : Prop :=
  (∀ a x, ((![v1805] : Fin 1 → IVec S16 32) a x).toNat < S28672.size a)
instance k0_chk417.dec : ∀ (v1805 : IVec S16 32), Decidable (k0_chk417 v1805) := fun v1805 => decidable_of_iff' _ (Iff.of_eq (k0_chk417.eq_1 v1805))
theorem k0_idx417_inb : ∀ (v1805 : IVec S16 32) (k0_hw417 : k0_chk417 v1805), ∀ a x, ((![v1805] : Fin 1 → IVec S16 32) a x).toNat < S28672.size a := fun v1805 k0_hw417 => k0_hw417

def k0_chk418 (v1807 : IVec S16 32) : Prop :=
  (∀ a x, ((![v1807] : Fin 1 → IVec S16 32) a x).toNat < S28672.size a)
instance k0_chk418.dec : ∀ (v1807 : IVec S16 32), Decidable (k0_chk418 v1807) := fun v1807 => decidable_of_iff' _ (Iff.of_eq (k0_chk418.eq_1 v1807))
theorem k0_idx418_inb : ∀ (v1807 : IVec S16 32) (k0_hw418 : k0_chk418 v1807), ∀ a x, ((![v1807] : Fin 1 → IVec S16 32) a x).toNat < S28672.size a := fun v1807 k0_hw418 => k0_hw418

def k0_chk419 (v1809 : IVec S16 32) : Prop :=
  (∀ a x, ((![v1809] : Fin 1 → IVec S16 32) a x).toNat < S28672.size a)
instance k0_chk419.dec : ∀ (v1809 : IVec S16 32), Decidable (k0_chk419 v1809) := fun v1809 => decidable_of_iff' _ (Iff.of_eq (k0_chk419.eq_1 v1809))
theorem k0_idx419_inb : ∀ (v1809 : IVec S16 32) (k0_hw419 : k0_chk419 v1809), ∀ a x, ((![v1809] : Fin 1 → IVec S16 32) a x).toNat < S28672.size a := fun v1809 k0_hw419 => k0_hw419

def k0_chk420 (v1811 : IVec S16 32) : Prop :=
  (∀ a x, ((![v1811] : Fin 1 → IVec S16 32) a x).toNat < S28672.size a)
instance k0_chk420.dec : ∀ (v1811 : IVec S16 32), Decidable (k0_chk420 v1811) := fun v1811 => decidable_of_iff' _ (Iff.of_eq (k0_chk420.eq_1 v1811))
theorem k0_idx420_inb : ∀ (v1811 : IVec S16 32) (k0_hw420 : k0_chk420 v1811), ∀ a x, ((![v1811] : Fin 1 → IVec S16 32) a x).toNat < S28672.size a := fun v1811 k0_hw420 => k0_hw420

def k0_chk421 (v1813 : IVec S16 32) : Prop :=
  (∀ a x, ((![v1813] : Fin 1 → IVec S16 32) a x).toNat < S28672.size a)
instance k0_chk421.dec : ∀ (v1813 : IVec S16 32), Decidable (k0_chk421 v1813) := fun v1813 => decidable_of_iff' _ (Iff.of_eq (k0_chk421.eq_1 v1813))
theorem k0_idx421_inb : ∀ (v1813 : IVec S16 32) (k0_hw421 : k0_chk421 v1813), ∀ a x, ((![v1813] : Fin 1 → IVec S16 32) a x).toNat < S28672.size a := fun v1813 k0_hw421 => k0_hw421

def k0_chk422 (v1815 : IVec S16 32) : Prop :=
  (∀ a x, ((![v1815] : Fin 1 → IVec S16 32) a x).toNat < S28672.size a)
instance k0_chk422.dec : ∀ (v1815 : IVec S16 32), Decidable (k0_chk422 v1815) := fun v1815 => decidable_of_iff' _ (Iff.of_eq (k0_chk422.eq_1 v1815))
theorem k0_idx422_inb : ∀ (v1815 : IVec S16 32) (k0_hw422 : k0_chk422 v1815), ∀ a x, ((![v1815] : Fin 1 → IVec S16 32) a x).toNat < S28672.size a := fun v1815 k0_hw422 => k0_hw422

def k0_chk423 (v1817 : IVec S16 32) : Prop :=
  (∀ a x, ((![v1817] : Fin 1 → IVec S16 32) a x).toNat < S28672.size a)
instance k0_chk423.dec : ∀ (v1817 : IVec S16 32), Decidable (k0_chk423 v1817) := fun v1817 => decidable_of_iff' _ (Iff.of_eq (k0_chk423.eq_1 v1817))
theorem k0_idx423_inb : ∀ (v1817 : IVec S16 32) (k0_hw423 : k0_chk423 v1817), ∀ a x, ((![v1817] : Fin 1 → IVec S16 32) a x).toNat < S28672.size a := fun v1817 k0_hw423 => k0_hw423

def k0_chk424 (v1819 : IVec S16 32) : Prop :=
  (∀ a x, ((![v1819] : Fin 1 → IVec S16 32) a x).toNat < S28672.size a)
instance k0_chk424.dec : ∀ (v1819 : IVec S16 32), Decidable (k0_chk424 v1819) := fun v1819 => decidable_of_iff' _ (Iff.of_eq (k0_chk424.eq_1 v1819))
theorem k0_idx424_inb : ∀ (v1819 : IVec S16 32) (k0_hw424 : k0_chk424 v1819), ∀ a x, ((![v1819] : Fin 1 → IVec S16 32) a x).toNat < S28672.size a := fun v1819 k0_hw424 => k0_hw424

def k0_chk425 (v1821 : IVec S16 32) : Prop :=
  (∀ a x, ((![v1821] : Fin 1 → IVec S16 32) a x).toNat < S28672.size a)
instance k0_chk425.dec : ∀ (v1821 : IVec S16 32), Decidable (k0_chk425 v1821) := fun v1821 => decidable_of_iff' _ (Iff.of_eq (k0_chk425.eq_1 v1821))
theorem k0_idx425_inb : ∀ (v1821 : IVec S16 32) (k0_hw425 : k0_chk425 v1821), ∀ a x, ((![v1821] : Fin 1 → IVec S16 32) a x).toNat < S28672.size a := fun v1821 k0_hw425 => k0_hw425

def k0_chk426 (v1838 : IVec S16 32) : Prop :=
  (∀ a x, ((![v1838] : Fin 1 → IVec S16 32) a x).toNat < S10240.size a)
instance k0_chk426.dec : ∀ (v1838 : IVec S16 32), Decidable (k0_chk426 v1838) := fun v1838 => decidable_of_iff' _ (Iff.of_eq (k0_chk426.eq_1 v1838))
theorem k0_idx426_inb : ∀ (v1838 : IVec S16 32) (k0_hw426 : k0_chk426 v1838), ∀ a x, ((![v1838] : Fin 1 → IVec S16 32) a x).toNat < S10240.size a := fun v1838 k0_hw426 => k0_hw426

def k0_chk427 (v387 : IVec S16 32) : Prop :=
  (∀ a x, ((![v387] : Fin 1 → IVec S16 32) a x).toNat < S4480.size a)
instance k0_chk427.dec : ∀ (v387 : IVec S16 32), Decidable (k0_chk427 v387) := fun v387 => decidable_of_iff' _ (Iff.of_eq (k0_chk427.eq_1 v387))
theorem k0_idx427_inb : ∀ (v387 : IVec S16 32) (k0_hw427 : k0_chk427 v387), ∀ a x, ((![v387] : Fin 1 → IVec S16 32) a x).toNat < S4480.size a := fun v387 k0_hw427 => k0_hw427

def k0_chk428 (v390 : IVec S16 32) : Prop :=
  (∀ a x, ((![v390] : Fin 1 → IVec S16 32) a x).toNat < S4480.size a)
instance k0_chk428.dec : ∀ (v390 : IVec S16 32), Decidable (k0_chk428 v390) := fun v390 => decidable_of_iff' _ (Iff.of_eq (k0_chk428.eq_1 v390))
theorem k0_idx428_inb : ∀ (v390 : IVec S16 32) (k0_hw428 : k0_chk428 v390), ∀ a x, ((![v390] : Fin 1 → IVec S16 32) a x).toNat < S4480.size a := fun v390 k0_hw428 => k0_hw428

def k0_chk429 (v396 : IVec S16 32) : Prop :=
  (∀ a x, ((![v396] : Fin 1 → IVec S16 32) a x).toNat < S4480.size a)
instance k0_chk429.dec : ∀ (v396 : IVec S16 32), Decidable (k0_chk429 v396) := fun v396 => decidable_of_iff' _ (Iff.of_eq (k0_chk429.eq_1 v396))
theorem k0_idx429_inb : ∀ (v396 : IVec S16 32) (k0_hw429 : k0_chk429 v396), ∀ a x, ((![v396] : Fin 1 → IVec S16 32) a x).toNat < S4480.size a := fun v396 k0_hw429 => k0_hw429

def k0_chk430 (v402 : IVec S16 32) : Prop :=
  (∀ a x, ((![v402] : Fin 1 → IVec S16 32) a x).toNat < S4480.size a)
instance k0_chk430.dec : ∀ (v402 : IVec S16 32), Decidable (k0_chk430 v402) := fun v402 => decidable_of_iff' _ (Iff.of_eq (k0_chk430.eq_1 v402))
theorem k0_idx430_inb : ∀ (v402 : IVec S16 32) (k0_hw430 : k0_chk430 v402), ∀ a x, ((![v402] : Fin 1 → IVec S16 32) a x).toNat < S4480.size a := fun v402 k0_hw430 => k0_hw430

def k0_chk431 (v412 : IVec S16 32) : Prop :=
  (∀ a x, ((![v412] : Fin 1 → IVec S16 32) a x).toNat < S4480.size a)
instance k0_chk431.dec : ∀ (v412 : IVec S16 32), Decidable (k0_chk431 v412) := fun v412 => decidable_of_iff' _ (Iff.of_eq (k0_chk431.eq_1 v412))
theorem k0_idx431_inb : ∀ (v412 : IVec S16 32) (k0_hw431 : k0_chk431 v412), ∀ a x, ((![v412] : Fin 1 → IVec S16 32) a x).toNat < S4480.size a := fun v412 k0_hw431 => k0_hw431

def k0_chk432 (v415 : IVec S16 32) : Prop :=
  (∀ a x, ((![v415] : Fin 1 → IVec S16 32) a x).toNat < S4480.size a)
instance k0_chk432.dec : ∀ (v415 : IVec S16 32), Decidable (k0_chk432 v415) := fun v415 => decidable_of_iff' _ (Iff.of_eq (k0_chk432.eq_1 v415))
theorem k0_idx432_inb : ∀ (v415 : IVec S16 32) (k0_hw432 : k0_chk432 v415), ∀ a x, ((![v415] : Fin 1 → IVec S16 32) a x).toNat < S4480.size a := fun v415 k0_hw432 => k0_hw432

def k0_chk433 (v421 : IVec S16 32) : Prop :=
  (∀ a x, ((![v421] : Fin 1 → IVec S16 32) a x).toNat < S4480.size a)
instance k0_chk433.dec : ∀ (v421 : IVec S16 32), Decidable (k0_chk433 v421) := fun v421 => decidable_of_iff' _ (Iff.of_eq (k0_chk433.eq_1 v421))
theorem k0_idx433_inb : ∀ (v421 : IVec S16 32) (k0_hw433 : k0_chk433 v421), ∀ a x, ((![v421] : Fin 1 → IVec S16 32) a x).toNat < S4480.size a := fun v421 k0_hw433 => k0_hw433

def k0_chk434 (v427 : IVec S16 32) : Prop :=
  (∀ a x, ((![v427] : Fin 1 → IVec S16 32) a x).toNat < S4480.size a)
instance k0_chk434.dec : ∀ (v427 : IVec S16 32), Decidable (k0_chk434 v427) := fun v427 => decidable_of_iff' _ (Iff.of_eq (k0_chk434.eq_1 v427))
theorem k0_idx434_inb : ∀ (v427 : IVec S16 32) (k0_hw434 : k0_chk434 v427), ∀ a x, ((![v427] : Fin 1 → IVec S16 32) a x).toNat < S4480.size a := fun v427 k0_hw434 => k0_hw434

def k0_chk435 (v437 : IVec S16 32) : Prop :=
  (∀ a x, ((![v437] : Fin 1 → IVec S16 32) a x).toNat < S4480.size a)
instance k0_chk435.dec : ∀ (v437 : IVec S16 32), Decidable (k0_chk435 v437) := fun v437 => decidable_of_iff' _ (Iff.of_eq (k0_chk435.eq_1 v437))
theorem k0_idx435_inb : ∀ (v437 : IVec S16 32) (k0_hw435 : k0_chk435 v437), ∀ a x, ((![v437] : Fin 1 → IVec S16 32) a x).toNat < S4480.size a := fun v437 k0_hw435 => k0_hw435

def k0_chk436 (v440 : IVec S16 32) : Prop :=
  (∀ a x, ((![v440] : Fin 1 → IVec S16 32) a x).toNat < S4480.size a)
instance k0_chk436.dec : ∀ (v440 : IVec S16 32), Decidable (k0_chk436 v440) := fun v440 => decidable_of_iff' _ (Iff.of_eq (k0_chk436.eq_1 v440))
theorem k0_idx436_inb : ∀ (v440 : IVec S16 32) (k0_hw436 : k0_chk436 v440), ∀ a x, ((![v440] : Fin 1 → IVec S16 32) a x).toNat < S4480.size a := fun v440 k0_hw436 => k0_hw436

def k0_chk437 (v446 : IVec S16 32) : Prop :=
  (∀ a x, ((![v446] : Fin 1 → IVec S16 32) a x).toNat < S4480.size a)
instance k0_chk437.dec : ∀ (v446 : IVec S16 32), Decidable (k0_chk437 v446) := fun v446 => decidable_of_iff' _ (Iff.of_eq (k0_chk437.eq_1 v446))
theorem k0_idx437_inb : ∀ (v446 : IVec S16 32) (k0_hw437 : k0_chk437 v446), ∀ a x, ((![v446] : Fin 1 → IVec S16 32) a x).toNat < S4480.size a := fun v446 k0_hw437 => k0_hw437

def k0_chk438 (v452 : IVec S16 32) : Prop :=
  (∀ a x, ((![v452] : Fin 1 → IVec S16 32) a x).toNat < S4480.size a)
instance k0_chk438.dec : ∀ (v452 : IVec S16 32), Decidable (k0_chk438 v452) := fun v452 => decidable_of_iff' _ (Iff.of_eq (k0_chk438.eq_1 v452))
theorem k0_idx438_inb : ∀ (v452 : IVec S16 32) (k0_hw438 : k0_chk438 v452), ∀ a x, ((![v452] : Fin 1 → IVec S16 32) a x).toNat < S4480.size a := fun v452 k0_hw438 => k0_hw438

def k0_chk439 (v462 : IVec S16 32) : Prop :=
  (∀ a x, ((![v462] : Fin 1 → IVec S16 32) a x).toNat < S4480.size a)
instance k0_chk439.dec : ∀ (v462 : IVec S16 32), Decidable (k0_chk439 v462) := fun v462 => decidable_of_iff' _ (Iff.of_eq (k0_chk439.eq_1 v462))
theorem k0_idx439_inb : ∀ (v462 : IVec S16 32) (k0_hw439 : k0_chk439 v462), ∀ a x, ((![v462] : Fin 1 → IVec S16 32) a x).toNat < S4480.size a := fun v462 k0_hw439 => k0_hw439

def k0_chk440 (v465 : IVec S16 32) : Prop :=
  (∀ a x, ((![v465] : Fin 1 → IVec S16 32) a x).toNat < S4480.size a)
instance k0_chk440.dec : ∀ (v465 : IVec S16 32), Decidable (k0_chk440 v465) := fun v465 => decidable_of_iff' _ (Iff.of_eq (k0_chk440.eq_1 v465))
theorem k0_idx440_inb : ∀ (v465 : IVec S16 32) (k0_hw440 : k0_chk440 v465), ∀ a x, ((![v465] : Fin 1 → IVec S16 32) a x).toNat < S4480.size a := fun v465 k0_hw440 => k0_hw440

def k0_chk441 (v471 : IVec S16 32) : Prop :=
  (∀ a x, ((![v471] : Fin 1 → IVec S16 32) a x).toNat < S4480.size a)
instance k0_chk441.dec : ∀ (v471 : IVec S16 32), Decidable (k0_chk441 v471) := fun v471 => decidable_of_iff' _ (Iff.of_eq (k0_chk441.eq_1 v471))
theorem k0_idx441_inb : ∀ (v471 : IVec S16 32) (k0_hw441 : k0_chk441 v471), ∀ a x, ((![v471] : Fin 1 → IVec S16 32) a x).toNat < S4480.size a := fun v471 k0_hw441 => k0_hw441

def k0_chk442 (v477 : IVec S16 32) : Prop :=
  (∀ a x, ((![v477] : Fin 1 → IVec S16 32) a x).toNat < S4480.size a)
instance k0_chk442.dec : ∀ (v477 : IVec S16 32), Decidable (k0_chk442 v477) := fun v477 => decidable_of_iff' _ (Iff.of_eq (k0_chk442.eq_1 v477))
theorem k0_idx442_inb : ∀ (v477 : IVec S16 32) (k0_hw442 : k0_chk442 v477), ∀ a x, ((![v477] : Fin 1 → IVec S16 32) a x).toNat < S4480.size a := fun v477 k0_hw442 => k0_hw442

def k0_chk443 (v487 : IVec S16 32) : Prop :=
  (∀ a x, ((![v487] : Fin 1 → IVec S16 32) a x).toNat < S4480.size a)
instance k0_chk443.dec : ∀ (v487 : IVec S16 32), Decidable (k0_chk443 v487) := fun v487 => decidable_of_iff' _ (Iff.of_eq (k0_chk443.eq_1 v487))
theorem k0_idx443_inb : ∀ (v487 : IVec S16 32) (k0_hw443 : k0_chk443 v487), ∀ a x, ((![v487] : Fin 1 → IVec S16 32) a x).toNat < S4480.size a := fun v487 k0_hw443 => k0_hw443

def k0_chk444 (v490 : IVec S16 32) : Prop :=
  (∀ a x, ((![v490] : Fin 1 → IVec S16 32) a x).toNat < S4480.size a)
instance k0_chk444.dec : ∀ (v490 : IVec S16 32), Decidable (k0_chk444 v490) := fun v490 => decidable_of_iff' _ (Iff.of_eq (k0_chk444.eq_1 v490))
theorem k0_idx444_inb : ∀ (v490 : IVec S16 32) (k0_hw444 : k0_chk444 v490), ∀ a x, ((![v490] : Fin 1 → IVec S16 32) a x).toNat < S4480.size a := fun v490 k0_hw444 => k0_hw444

def k0_chk445 (v496 : IVec S16 32) : Prop :=
  (∀ a x, ((![v496] : Fin 1 → IVec S16 32) a x).toNat < S4480.size a)
instance k0_chk445.dec : ∀ (v496 : IVec S16 32), Decidable (k0_chk445 v496) := fun v496 => decidable_of_iff' _ (Iff.of_eq (k0_chk445.eq_1 v496))
theorem k0_idx445_inb : ∀ (v496 : IVec S16 32) (k0_hw445 : k0_chk445 v496), ∀ a x, ((![v496] : Fin 1 → IVec S16 32) a x).toNat < S4480.size a := fun v496 k0_hw445 => k0_hw445

def k0_chk446 (v502 : IVec S16 32) : Prop :=
  (∀ a x, ((![v502] : Fin 1 → IVec S16 32) a x).toNat < S4480.size a)
instance k0_chk446.dec : ∀ (v502 : IVec S16 32), Decidable (k0_chk446 v502) := fun v502 => decidable_of_iff' _ (Iff.of_eq (k0_chk446.eq_1 v502))
theorem k0_idx446_inb : ∀ (v502 : IVec S16 32) (k0_hw446 : k0_chk446 v502), ∀ a x, ((![v502] : Fin 1 → IVec S16 32) a x).toNat < S4480.size a := fun v502 k0_hw446 => k0_hw446

def k0_chk447 (v512 : IVec S16 32) : Prop :=
  (∀ a x, ((![v512] : Fin 1 → IVec S16 32) a x).toNat < S4480.size a)
instance k0_chk447.dec : ∀ (v512 : IVec S16 32), Decidable (k0_chk447 v512) := fun v512 => decidable_of_iff' _ (Iff.of_eq (k0_chk447.eq_1 v512))
theorem k0_idx447_inb : ∀ (v512 : IVec S16 32) (k0_hw447 : k0_chk447 v512), ∀ a x, ((![v512] : Fin 1 → IVec S16 32) a x).toNat < S4480.size a := fun v512 k0_hw447 => k0_hw447

def k0_chk448 (v515 : IVec S16 32) : Prop :=
  (∀ a x, ((![v515] : Fin 1 → IVec S16 32) a x).toNat < S4480.size a)
instance k0_chk448.dec : ∀ (v515 : IVec S16 32), Decidable (k0_chk448 v515) := fun v515 => decidable_of_iff' _ (Iff.of_eq (k0_chk448.eq_1 v515))
theorem k0_idx448_inb : ∀ (v515 : IVec S16 32) (k0_hw448 : k0_chk448 v515), ∀ a x, ((![v515] : Fin 1 → IVec S16 32) a x).toNat < S4480.size a := fun v515 k0_hw448 => k0_hw448

def k0_chk449 (v521 : IVec S16 32) : Prop :=
  (∀ a x, ((![v521] : Fin 1 → IVec S16 32) a x).toNat < S4480.size a)
instance k0_chk449.dec : ∀ (v521 : IVec S16 32), Decidable (k0_chk449 v521) := fun v521 => decidable_of_iff' _ (Iff.of_eq (k0_chk449.eq_1 v521))
theorem k0_idx449_inb : ∀ (v521 : IVec S16 32) (k0_hw449 : k0_chk449 v521), ∀ a x, ((![v521] : Fin 1 → IVec S16 32) a x).toNat < S4480.size a := fun v521 k0_hw449 => k0_hw449

def k0_chk450 (v527 : IVec S16 32) : Prop :=
  (∀ a x, ((![v527] : Fin 1 → IVec S16 32) a x).toNat < S4480.size a)
instance k0_chk450.dec : ∀ (v527 : IVec S16 32), Decidable (k0_chk450 v527) := fun v527 => decidable_of_iff' _ (Iff.of_eq (k0_chk450.eq_1 v527))
theorem k0_idx450_inb : ∀ (v527 : IVec S16 32) (k0_hw450 : k0_chk450 v527), ∀ a x, ((![v527] : Fin 1 → IVec S16 32) a x).toNat < S4480.size a := fun v527 k0_hw450 => k0_hw450

def k0_chk451 (v537 : IVec S16 32) : Prop :=
  (∀ a x, ((![v537] : Fin 1 → IVec S16 32) a x).toNat < S4480.size a)
instance k0_chk451.dec : ∀ (v537 : IVec S16 32), Decidable (k0_chk451 v537) := fun v537 => decidable_of_iff' _ (Iff.of_eq (k0_chk451.eq_1 v537))
theorem k0_idx451_inb : ∀ (v537 : IVec S16 32) (k0_hw451 : k0_chk451 v537), ∀ a x, ((![v537] : Fin 1 → IVec S16 32) a x).toNat < S4480.size a := fun v537 k0_hw451 => k0_hw451

def k0_chk452 (v540 : IVec S16 32) : Prop :=
  (∀ a x, ((![v540] : Fin 1 → IVec S16 32) a x).toNat < S4480.size a)
instance k0_chk452.dec : ∀ (v540 : IVec S16 32), Decidable (k0_chk452 v540) := fun v540 => decidable_of_iff' _ (Iff.of_eq (k0_chk452.eq_1 v540))
theorem k0_idx452_inb : ∀ (v540 : IVec S16 32) (k0_hw452 : k0_chk452 v540), ∀ a x, ((![v540] : Fin 1 → IVec S16 32) a x).toNat < S4480.size a := fun v540 k0_hw452 => k0_hw452

def k0_chk453 (v546 : IVec S16 32) : Prop :=
  (∀ a x, ((![v546] : Fin 1 → IVec S16 32) a x).toNat < S4480.size a)
instance k0_chk453.dec : ∀ (v546 : IVec S16 32), Decidable (k0_chk453 v546) := fun v546 => decidable_of_iff' _ (Iff.of_eq (k0_chk453.eq_1 v546))
theorem k0_idx453_inb : ∀ (v546 : IVec S16 32) (k0_hw453 : k0_chk453 v546), ∀ a x, ((![v546] : Fin 1 → IVec S16 32) a x).toNat < S4480.size a := fun v546 k0_hw453 => k0_hw453

def k0_chk454 (v552 : IVec S16 32) : Prop :=
  (∀ a x, ((![v552] : Fin 1 → IVec S16 32) a x).toNat < S4480.size a)
instance k0_chk454.dec : ∀ (v552 : IVec S16 32), Decidable (k0_chk454 v552) := fun v552 => decidable_of_iff' _ (Iff.of_eq (k0_chk454.eq_1 v552))
theorem k0_idx454_inb : ∀ (v552 : IVec S16 32) (k0_hw454 : k0_chk454 v552), ∀ a x, ((![v552] : Fin 1 → IVec S16 32) a x).toNat < S4480.size a := fun v552 k0_hw454 => k0_hw454

def k0_chk455 (v562 : IVec S16 32) : Prop :=
  (∀ a x, ((![v562] : Fin 1 → IVec S16 32) a x).toNat < S4480.size a)
instance k0_chk455.dec : ∀ (v562 : IVec S16 32), Decidable (k0_chk455 v562) := fun v562 => decidable_of_iff' _ (Iff.of_eq (k0_chk455.eq_1 v562))
theorem k0_idx455_inb : ∀ (v562 : IVec S16 32) (k0_hw455 : k0_chk455 v562), ∀ a x, ((![v562] : Fin 1 → IVec S16 32) a x).toNat < S4480.size a := fun v562 k0_hw455 => k0_hw455

def k0_chk456 (v565 : IVec S16 32) : Prop :=
  (∀ a x, ((![v565] : Fin 1 → IVec S16 32) a x).toNat < S4480.size a)
instance k0_chk456.dec : ∀ (v565 : IVec S16 32), Decidable (k0_chk456 v565) := fun v565 => decidable_of_iff' _ (Iff.of_eq (k0_chk456.eq_1 v565))
theorem k0_idx456_inb : ∀ (v565 : IVec S16 32) (k0_hw456 : k0_chk456 v565), ∀ a x, ((![v565] : Fin 1 → IVec S16 32) a x).toNat < S4480.size a := fun v565 k0_hw456 => k0_hw456

def k0_chk457 (v571 : IVec S16 32) : Prop :=
  (∀ a x, ((![v571] : Fin 1 → IVec S16 32) a x).toNat < S4480.size a)
instance k0_chk457.dec : ∀ (v571 : IVec S16 32), Decidable (k0_chk457 v571) := fun v571 => decidable_of_iff' _ (Iff.of_eq (k0_chk457.eq_1 v571))
theorem k0_idx457_inb : ∀ (v571 : IVec S16 32) (k0_hw457 : k0_chk457 v571), ∀ a x, ((![v571] : Fin 1 → IVec S16 32) a x).toNat < S4480.size a := fun v571 k0_hw457 => k0_hw457

def k0_chk458 (v577 : IVec S16 32) : Prop :=
  (∀ a x, ((![v577] : Fin 1 → IVec S16 32) a x).toNat < S4480.size a)
instance k0_chk458.dec : ∀ (v577 : IVec S16 32), Decidable (k0_chk458 v577) := fun v577 => decidable_of_iff' _ (Iff.of_eq (k0_chk458.eq_1 v577))
theorem k0_idx458_inb : ∀ (v577 : IVec S16 32) (k0_hw458 : k0_chk458 v577), ∀ a x, ((![v577] : Fin 1 → IVec S16 32) a x).toNat < S4480.size a := fun v577 k0_hw458 => k0_hw458

def k0_chk459 (v587 : IVec S16 32) : Prop :=
  (∀ a x, ((![v587] : Fin 1 → IVec S16 32) a x).toNat < S4480.size a)
instance k0_chk459.dec : ∀ (v587 : IVec S16 32), Decidable (k0_chk459 v587) := fun v587 => decidable_of_iff' _ (Iff.of_eq (k0_chk459.eq_1 v587))
theorem k0_idx459_inb : ∀ (v587 : IVec S16 32) (k0_hw459 : k0_chk459 v587), ∀ a x, ((![v587] : Fin 1 → IVec S16 32) a x).toNat < S4480.size a := fun v587 k0_hw459 => k0_hw459

def k0_chk460 (v590 : IVec S16 32) : Prop :=
  (∀ a x, ((![v590] : Fin 1 → IVec S16 32) a x).toNat < S4480.size a)
instance k0_chk460.dec : ∀ (v590 : IVec S16 32), Decidable (k0_chk460 v590) := fun v590 => decidable_of_iff' _ (Iff.of_eq (k0_chk460.eq_1 v590))
theorem k0_idx460_inb : ∀ (v590 : IVec S16 32) (k0_hw460 : k0_chk460 v590), ∀ a x, ((![v590] : Fin 1 → IVec S16 32) a x).toNat < S4480.size a := fun v590 k0_hw460 => k0_hw460

def k0_chk461 (v596 : IVec S16 32) : Prop :=
  (∀ a x, ((![v596] : Fin 1 → IVec S16 32) a x).toNat < S4480.size a)
instance k0_chk461.dec : ∀ (v596 : IVec S16 32), Decidable (k0_chk461 v596) := fun v596 => decidable_of_iff' _ (Iff.of_eq (k0_chk461.eq_1 v596))
theorem k0_idx461_inb : ∀ (v596 : IVec S16 32) (k0_hw461 : k0_chk461 v596), ∀ a x, ((![v596] : Fin 1 → IVec S16 32) a x).toNat < S4480.size a := fun v596 k0_hw461 => k0_hw461

def k0_chk462 (v602 : IVec S16 32) : Prop :=
  (∀ a x, ((![v602] : Fin 1 → IVec S16 32) a x).toNat < S4480.size a)
instance k0_chk462.dec : ∀ (v602 : IVec S16 32), Decidable (k0_chk462 v602) := fun v602 => decidable_of_iff' _ (Iff.of_eq (k0_chk462.eq_1 v602))
theorem k0_idx462_inb : ∀ (v602 : IVec S16 32) (k0_hw462 : k0_chk462 v602), ∀ a x, ((![v602] : Fin 1 → IVec S16 32) a x).toNat < S4480.size a := fun v602 k0_hw462 => k0_hw462

def k0_chk463 (v612 : IVec S16 32) : Prop :=
  (∀ a x, ((![v612] : Fin 1 → IVec S16 32) a x).toNat < S4480.size a)
instance k0_chk463.dec : ∀ (v612 : IVec S16 32), Decidable (k0_chk463 v612) := fun v612 => decidable_of_iff' _ (Iff.of_eq (k0_chk463.eq_1 v612))
theorem k0_idx463_inb : ∀ (v612 : IVec S16 32) (k0_hw463 : k0_chk463 v612), ∀ a x, ((![v612] : Fin 1 → IVec S16 32) a x).toNat < S4480.size a := fun v612 k0_hw463 => k0_hw463

def k0_chk464 (v615 : IVec S16 32) : Prop :=
  (∀ a x, ((![v615] : Fin 1 → IVec S16 32) a x).toNat < S4480.size a)
instance k0_chk464.dec : ∀ (v615 : IVec S16 32), Decidable (k0_chk464 v615) := fun v615 => decidable_of_iff' _ (Iff.of_eq (k0_chk464.eq_1 v615))
theorem k0_idx464_inb : ∀ (v615 : IVec S16 32) (k0_hw464 : k0_chk464 v615), ∀ a x, ((![v615] : Fin 1 → IVec S16 32) a x).toNat < S4480.size a := fun v615 k0_hw464 => k0_hw464

def k0_chk465 (v621 : IVec S16 32) : Prop :=
  (∀ a x, ((![v621] : Fin 1 → IVec S16 32) a x).toNat < S4480.size a)
instance k0_chk465.dec : ∀ (v621 : IVec S16 32), Decidable (k0_chk465 v621) := fun v621 => decidable_of_iff' _ (Iff.of_eq (k0_chk465.eq_1 v621))
theorem k0_idx465_inb : ∀ (v621 : IVec S16 32) (k0_hw465 : k0_chk465 v621), ∀ a x, ((![v621] : Fin 1 → IVec S16 32) a x).toNat < S4480.size a := fun v621 k0_hw465 => k0_hw465

def k0_chk466 (v627 : IVec S16 32) : Prop :=
  (∀ a x, ((![v627] : Fin 1 → IVec S16 32) a x).toNat < S4480.size a)
instance k0_chk466.dec : ∀ (v627 : IVec S16 32), Decidable (k0_chk466 v627) := fun v627 => decidable_of_iff' _ (Iff.of_eq (k0_chk466.eq_1 v627))
theorem k0_idx466_inb : ∀ (v627 : IVec S16 32) (k0_hw466 : k0_chk466 v627), ∀ a x, ((![v627] : Fin 1 → IVec S16 32) a x).toNat < S4480.size a := fun v627 k0_hw466 => k0_hw466

def k0_chk467 (v637 : IVec S16 32) : Prop :=
  (∀ a x, ((![v637] : Fin 1 → IVec S16 32) a x).toNat < S4480.size a)
instance k0_chk467.dec : ∀ (v637 : IVec S16 32), Decidable (k0_chk467 v637) := fun v637 => decidable_of_iff' _ (Iff.of_eq (k0_chk467.eq_1 v637))
theorem k0_idx467_inb : ∀ (v637 : IVec S16 32) (k0_hw467 : k0_chk467 v637), ∀ a x, ((![v637] : Fin 1 → IVec S16 32) a x).toNat < S4480.size a := fun v637 k0_hw467 => k0_hw467

def k0_chk468 (v640 : IVec S16 32) : Prop :=
  (∀ a x, ((![v640] : Fin 1 → IVec S16 32) a x).toNat < S4480.size a)
instance k0_chk468.dec : ∀ (v640 : IVec S16 32), Decidable (k0_chk468 v640) := fun v640 => decidable_of_iff' _ (Iff.of_eq (k0_chk468.eq_1 v640))
theorem k0_idx468_inb : ∀ (v640 : IVec S16 32) (k0_hw468 : k0_chk468 v640), ∀ a x, ((![v640] : Fin 1 → IVec S16 32) a x).toNat < S4480.size a := fun v640 k0_hw468 => k0_hw468

def k0_chk469 (v646 : IVec S16 32) : Prop :=
  (∀ a x, ((![v646] : Fin 1 → IVec S16 32) a x).toNat < S4480.size a)
instance k0_chk469.dec : ∀ (v646 : IVec S16 32), Decidable (k0_chk469 v646) := fun v646 => decidable_of_iff' _ (Iff.of_eq (k0_chk469.eq_1 v646))
theorem k0_idx469_inb : ∀ (v646 : IVec S16 32) (k0_hw469 : k0_chk469 v646), ∀ a x, ((![v646] : Fin 1 → IVec S16 32) a x).toNat < S4480.size a := fun v646 k0_hw469 => k0_hw469

def k0_chk470 (v652 : IVec S16 32) : Prop :=
  (∀ a x, ((![v652] : Fin 1 → IVec S16 32) a x).toNat < S4480.size a)
instance k0_chk470.dec : ∀ (v652 : IVec S16 32), Decidable (k0_chk470 v652) := fun v652 => decidable_of_iff' _ (Iff.of_eq (k0_chk470.eq_1 v652))
theorem k0_idx470_inb : ∀ (v652 : IVec S16 32) (k0_hw470 : k0_chk470 v652), ∀ a x, ((![v652] : Fin 1 → IVec S16 32) a x).toNat < S4480.size a := fun v652 k0_hw470 => k0_hw470

def k0_chk471 (v662 : IVec S16 32) : Prop :=
  (∀ a x, ((![v662] : Fin 1 → IVec S16 32) a x).toNat < S4480.size a)
instance k0_chk471.dec : ∀ (v662 : IVec S16 32), Decidable (k0_chk471 v662) := fun v662 => decidable_of_iff' _ (Iff.of_eq (k0_chk471.eq_1 v662))
theorem k0_idx471_inb : ∀ (v662 : IVec S16 32) (k0_hw471 : k0_chk471 v662), ∀ a x, ((![v662] : Fin 1 → IVec S16 32) a x).toNat < S4480.size a := fun v662 k0_hw471 => k0_hw471

def k0_chk472 (v665 : IVec S16 32) : Prop :=
  (∀ a x, ((![v665] : Fin 1 → IVec S16 32) a x).toNat < S4480.size a)
instance k0_chk472.dec : ∀ (v665 : IVec S16 32), Decidable (k0_chk472 v665) := fun v665 => decidable_of_iff' _ (Iff.of_eq (k0_chk472.eq_1 v665))
theorem k0_idx472_inb : ∀ (v665 : IVec S16 32) (k0_hw472 : k0_chk472 v665), ∀ a x, ((![v665] : Fin 1 → IVec S16 32) a x).toNat < S4480.size a := fun v665 k0_hw472 => k0_hw472

def k0_chk473 (v671 : IVec S16 32) : Prop :=
  (∀ a x, ((![v671] : Fin 1 → IVec S16 32) a x).toNat < S4480.size a)
instance k0_chk473.dec : ∀ (v671 : IVec S16 32), Decidable (k0_chk473 v671) := fun v671 => decidable_of_iff' _ (Iff.of_eq (k0_chk473.eq_1 v671))
theorem k0_idx473_inb : ∀ (v671 : IVec S16 32) (k0_hw473 : k0_chk473 v671), ∀ a x, ((![v671] : Fin 1 → IVec S16 32) a x).toNat < S4480.size a := fun v671 k0_hw473 => k0_hw473

def k0_chk474 (v677 : IVec S16 32) : Prop :=
  (∀ a x, ((![v677] : Fin 1 → IVec S16 32) a x).toNat < S4480.size a)
instance k0_chk474.dec : ∀ (v677 : IVec S16 32), Decidable (k0_chk474 v677) := fun v677 => decidable_of_iff' _ (Iff.of_eq (k0_chk474.eq_1 v677))
theorem k0_idx474_inb : ∀ (v677 : IVec S16 32) (k0_hw474 : k0_chk474 v677), ∀ a x, ((![v677] : Fin 1 → IVec S16 32) a x).toNat < S4480.size a := fun v677 k0_hw474 => k0_hw474

def k0_chk475 (v687 : IVec S16 32) : Prop :=
  (∀ a x, ((![v687] : Fin 1 → IVec S16 32) a x).toNat < S4480.size a)
instance k0_chk475.dec : ∀ (v687 : IVec S16 32), Decidable (k0_chk475 v687) := fun v687 => decidable_of_iff' _ (Iff.of_eq (k0_chk475.eq_1 v687))
theorem k0_idx475_inb : ∀ (v687 : IVec S16 32) (k0_hw475 : k0_chk475 v687), ∀ a x, ((![v687] : Fin 1 → IVec S16 32) a x).toNat < S4480.size a := fun v687 k0_hw475 => k0_hw475

def k0_chk476 (v690 : IVec S16 32) : Prop :=
  (∀ a x, ((![v690] : Fin 1 → IVec S16 32) a x).toNat < S4480.size a)
instance k0_chk476.dec : ∀ (v690 : IVec S16 32), Decidable (k0_chk476 v690) := fun v690 => decidable_of_iff' _ (Iff.of_eq (k0_chk476.eq_1 v690))
theorem k0_idx476_inb : ∀ (v690 : IVec S16 32) (k0_hw476 : k0_chk476 v690), ∀ a x, ((![v690] : Fin 1 → IVec S16 32) a x).toNat < S4480.size a := fun v690 k0_hw476 => k0_hw476

def k0_chk477 (v696 : IVec S16 32) : Prop :=
  (∀ a x, ((![v696] : Fin 1 → IVec S16 32) a x).toNat < S4480.size a)
instance k0_chk477.dec : ∀ (v696 : IVec S16 32), Decidable (k0_chk477 v696) := fun v696 => decidable_of_iff' _ (Iff.of_eq (k0_chk477.eq_1 v696))
theorem k0_idx477_inb : ∀ (v696 : IVec S16 32) (k0_hw477 : k0_chk477 v696), ∀ a x, ((![v696] : Fin 1 → IVec S16 32) a x).toNat < S4480.size a := fun v696 k0_hw477 => k0_hw477

def k0_chk478 (v702 : IVec S16 32) : Prop :=
  (∀ a x, ((![v702] : Fin 1 → IVec S16 32) a x).toNat < S4480.size a)
instance k0_chk478.dec : ∀ (v702 : IVec S16 32), Decidable (k0_chk478 v702) := fun v702 => decidable_of_iff' _ (Iff.of_eq (k0_chk478.eq_1 v702))
theorem k0_idx478_inb : ∀ (v702 : IVec S16 32) (k0_hw478 : k0_chk478 v702), ∀ a x, ((![v702] : Fin 1 → IVec S16 32) a x).toNat < S4480.size a := fun v702 k0_hw478 => k0_hw478

def k0_chk479 (v712 : IVec S16 32) : Prop :=
  (∀ a x, ((![v712] : Fin 1 → IVec S16 32) a x).toNat < S4480.size a)
instance k0_chk479.dec : ∀ (v712 : IVec S16 32), Decidable (k0_chk479 v712) := fun v712 => decidable_of_iff' _ (Iff.of_eq (k0_chk479.eq_1 v712))
theorem k0_idx479_inb : ∀ (v712 : IVec S16 32) (k0_hw479 : k0_chk479 v712), ∀ a x, ((![v712] : Fin 1 → IVec S16 32) a x).toNat < S4480.size a := fun v712 k0_hw479 => k0_hw479

def k0_chk480 (v715 : IVec S16 32) : Prop :=
  (∀ a x, ((![v715] : Fin 1 → IVec S16 32) a x).toNat < S4480.size a)
instance k0_chk480.dec : ∀ (v715 : IVec S16 32), Decidable (k0_chk480 v715) := fun v715 => decidable_of_iff' _ (Iff.of_eq (k0_chk480.eq_1 v715))
theorem k0_idx480_inb : ∀ (v715 : IVec S16 32) (k0_hw480 : k0_chk480 v715), ∀ a x, ((![v715] : Fin 1 → IVec S16 32) a x).toNat < S4480.size a := fun v715 k0_hw480 => k0_hw480

def k0_chk481 (v721 : IVec S16 32) : Prop :=
  (∀ a x, ((![v721] : Fin 1 → IVec S16 32) a x).toNat < S4480.size a)
instance k0_chk481.dec : ∀ (v721 : IVec S16 32), Decidable (k0_chk481 v721) := fun v721 => decidable_of_iff' _ (Iff.of_eq (k0_chk481.eq_1 v721))
theorem k0_idx481_inb : ∀ (v721 : IVec S16 32) (k0_hw481 : k0_chk481 v721), ∀ a x, ((![v721] : Fin 1 → IVec S16 32) a x).toNat < S4480.size a := fun v721 k0_hw481 => k0_hw481

def k0_chk482 (v727 : IVec S16 32) : Prop :=
  (∀ a x, ((![v727] : Fin 1 → IVec S16 32) a x).toNat < S4480.size a)
instance k0_chk482.dec : ∀ (v727 : IVec S16 32), Decidable (k0_chk482 v727) := fun v727 => decidable_of_iff' _ (Iff.of_eq (k0_chk482.eq_1 v727))
theorem k0_idx482_inb : ∀ (v727 : IVec S16 32) (k0_hw482 : k0_chk482 v727), ∀ a x, ((![v727] : Fin 1 → IVec S16 32) a x).toNat < S4480.size a := fun v727 k0_hw482 => k0_hw482
@[reducible] def k0_t9_loop : Scf.Loop 32 :=
  let c0_i32_150 : BitVec 32 := 0#32
  let c128_i32_151 : BitVec 32 := 128#32
  let v736 : BitVec 32 := Scalar.addi c0_i32_150 c128_i32_151
  let c1_i32_152 : BitVec 32 := 1#32
  ⟨c0_i32_150, v736, c1_i32_152⟩

def k0_chk483 (v1795 : IVec S16 32) : Prop :=
  (∀ a x, ((![v1795] : Fin 1 → IVec S16 32) a x).toNat < S28672.size a)
instance k0_chk483.dec : ∀ (v1795 : IVec S16 32), Decidable (k0_chk483 v1795) := fun v1795 => decidable_of_iff' _ (Iff.of_eq (k0_chk483.eq_1 v1795))
theorem k0_idx483_inb : ∀ (v1795 : IVec S16 32) (k0_hw483 : k0_chk483 v1795), ∀ a x, ((![v1795] : Fin 1 → IVec S16 32) a x).toNat < S28672.size a := fun v1795 k0_hw483 => k0_hw483

def k0_chk484 (v1797 : IVec S16 32) : Prop :=
  (∀ a x, ((![v1797] : Fin 1 → IVec S16 32) a x).toNat < S28672.size a)
instance k0_chk484.dec : ∀ (v1797 : IVec S16 32), Decidable (k0_chk484 v1797) := fun v1797 => decidable_of_iff' _ (Iff.of_eq (k0_chk484.eq_1 v1797))
theorem k0_idx484_inb : ∀ (v1797 : IVec S16 32) (k0_hw484 : k0_chk484 v1797), ∀ a x, ((![v1797] : Fin 1 → IVec S16 32) a x).toNat < S28672.size a := fun v1797 k0_hw484 => k0_hw484

def k0_chk485 (v1799 : IVec S16 32) : Prop :=
  (∀ a x, ((![v1799] : Fin 1 → IVec S16 32) a x).toNat < S28672.size a)
instance k0_chk485.dec : ∀ (v1799 : IVec S16 32), Decidable (k0_chk485 v1799) := fun v1799 => decidable_of_iff' _ (Iff.of_eq (k0_chk485.eq_1 v1799))
theorem k0_idx485_inb : ∀ (v1799 : IVec S16 32) (k0_hw485 : k0_chk485 v1799), ∀ a x, ((![v1799] : Fin 1 → IVec S16 32) a x).toNat < S28672.size a := fun v1799 k0_hw485 => k0_hw485

def k0_chk486 (v1801 : IVec S16 32) : Prop :=
  (∀ a x, ((![v1801] : Fin 1 → IVec S16 32) a x).toNat < S28672.size a)
instance k0_chk486.dec : ∀ (v1801 : IVec S16 32), Decidable (k0_chk486 v1801) := fun v1801 => decidable_of_iff' _ (Iff.of_eq (k0_chk486.eq_1 v1801))
theorem k0_idx486_inb : ∀ (v1801 : IVec S16 32) (k0_hw486 : k0_chk486 v1801), ∀ a x, ((![v1801] : Fin 1 → IVec S16 32) a x).toNat < S28672.size a := fun v1801 k0_hw486 => k0_hw486

def k0_chk487 (v1803 : IVec S16 32) : Prop :=
  (∀ a x, ((![v1803] : Fin 1 → IVec S16 32) a x).toNat < S28672.size a)
instance k0_chk487.dec : ∀ (v1803 : IVec S16 32), Decidable (k0_chk487 v1803) := fun v1803 => decidable_of_iff' _ (Iff.of_eq (k0_chk487.eq_1 v1803))
theorem k0_idx487_inb : ∀ (v1803 : IVec S16 32) (k0_hw487 : k0_chk487 v1803), ∀ a x, ((![v1803] : Fin 1 → IVec S16 32) a x).toNat < S28672.size a := fun v1803 k0_hw487 => k0_hw487

def k0_chk488 (v1805 : IVec S16 32) : Prop :=
  (∀ a x, ((![v1805] : Fin 1 → IVec S16 32) a x).toNat < S28672.size a)
instance k0_chk488.dec : ∀ (v1805 : IVec S16 32), Decidable (k0_chk488 v1805) := fun v1805 => decidable_of_iff' _ (Iff.of_eq (k0_chk488.eq_1 v1805))
theorem k0_idx488_inb : ∀ (v1805 : IVec S16 32) (k0_hw488 : k0_chk488 v1805), ∀ a x, ((![v1805] : Fin 1 → IVec S16 32) a x).toNat < S28672.size a := fun v1805 k0_hw488 => k0_hw488

def k0_chk489 (v1807 : IVec S16 32) : Prop :=
  (∀ a x, ((![v1807] : Fin 1 → IVec S16 32) a x).toNat < S28672.size a)
instance k0_chk489.dec : ∀ (v1807 : IVec S16 32), Decidable (k0_chk489 v1807) := fun v1807 => decidable_of_iff' _ (Iff.of_eq (k0_chk489.eq_1 v1807))
theorem k0_idx489_inb : ∀ (v1807 : IVec S16 32) (k0_hw489 : k0_chk489 v1807), ∀ a x, ((![v1807] : Fin 1 → IVec S16 32) a x).toNat < S28672.size a := fun v1807 k0_hw489 => k0_hw489

def k0_chk490 (v1809 : IVec S16 32) : Prop :=
  (∀ a x, ((![v1809] : Fin 1 → IVec S16 32) a x).toNat < S28672.size a)
instance k0_chk490.dec : ∀ (v1809 : IVec S16 32), Decidable (k0_chk490 v1809) := fun v1809 => decidable_of_iff' _ (Iff.of_eq (k0_chk490.eq_1 v1809))
theorem k0_idx490_inb : ∀ (v1809 : IVec S16 32) (k0_hw490 : k0_chk490 v1809), ∀ a x, ((![v1809] : Fin 1 → IVec S16 32) a x).toNat < S28672.size a := fun v1809 k0_hw490 => k0_hw490

def k0_chk491 (v1811 : IVec S16 32) : Prop :=
  (∀ a x, ((![v1811] : Fin 1 → IVec S16 32) a x).toNat < S28672.size a)
instance k0_chk491.dec : ∀ (v1811 : IVec S16 32), Decidable (k0_chk491 v1811) := fun v1811 => decidable_of_iff' _ (Iff.of_eq (k0_chk491.eq_1 v1811))
theorem k0_idx491_inb : ∀ (v1811 : IVec S16 32) (k0_hw491 : k0_chk491 v1811), ∀ a x, ((![v1811] : Fin 1 → IVec S16 32) a x).toNat < S28672.size a := fun v1811 k0_hw491 => k0_hw491

def k0_chk492 (v1813 : IVec S16 32) : Prop :=
  (∀ a x, ((![v1813] : Fin 1 → IVec S16 32) a x).toNat < S28672.size a)
instance k0_chk492.dec : ∀ (v1813 : IVec S16 32), Decidable (k0_chk492 v1813) := fun v1813 => decidable_of_iff' _ (Iff.of_eq (k0_chk492.eq_1 v1813))
theorem k0_idx492_inb : ∀ (v1813 : IVec S16 32) (k0_hw492 : k0_chk492 v1813), ∀ a x, ((![v1813] : Fin 1 → IVec S16 32) a x).toNat < S28672.size a := fun v1813 k0_hw492 => k0_hw492

def k0_chk493 (v1815 : IVec S16 32) : Prop :=
  (∀ a x, ((![v1815] : Fin 1 → IVec S16 32) a x).toNat < S28672.size a)
instance k0_chk493.dec : ∀ (v1815 : IVec S16 32), Decidable (k0_chk493 v1815) := fun v1815 => decidable_of_iff' _ (Iff.of_eq (k0_chk493.eq_1 v1815))
theorem k0_idx493_inb : ∀ (v1815 : IVec S16 32) (k0_hw493 : k0_chk493 v1815), ∀ a x, ((![v1815] : Fin 1 → IVec S16 32) a x).toNat < S28672.size a := fun v1815 k0_hw493 => k0_hw493

def k0_chk494 (v1817 : IVec S16 32) : Prop :=
  (∀ a x, ((![v1817] : Fin 1 → IVec S16 32) a x).toNat < S28672.size a)
instance k0_chk494.dec : ∀ (v1817 : IVec S16 32), Decidable (k0_chk494 v1817) := fun v1817 => decidable_of_iff' _ (Iff.of_eq (k0_chk494.eq_1 v1817))
theorem k0_idx494_inb : ∀ (v1817 : IVec S16 32) (k0_hw494 : k0_chk494 v1817), ∀ a x, ((![v1817] : Fin 1 → IVec S16 32) a x).toNat < S28672.size a := fun v1817 k0_hw494 => k0_hw494

def k0_chk495 (v1819 : IVec S16 32) : Prop :=
  (∀ a x, ((![v1819] : Fin 1 → IVec S16 32) a x).toNat < S28672.size a)
instance k0_chk495.dec : ∀ (v1819 : IVec S16 32), Decidable (k0_chk495 v1819) := fun v1819 => decidable_of_iff' _ (Iff.of_eq (k0_chk495.eq_1 v1819))
theorem k0_idx495_inb : ∀ (v1819 : IVec S16 32) (k0_hw495 : k0_chk495 v1819), ∀ a x, ((![v1819] : Fin 1 → IVec S16 32) a x).toNat < S28672.size a := fun v1819 k0_hw495 => k0_hw495

def k0_chk496 (v1821 : IVec S16 32) : Prop :=
  (∀ a x, ((![v1821] : Fin 1 → IVec S16 32) a x).toNat < S28672.size a)
instance k0_chk496.dec : ∀ (v1821 : IVec S16 32), Decidable (k0_chk496 v1821) := fun v1821 => decidable_of_iff' _ (Iff.of_eq (k0_chk496.eq_1 v1821))
theorem k0_idx496_inb : ∀ (v1821 : IVec S16 32) (k0_hw496 : k0_chk496 v1821), ∀ a x, ((![v1821] : Fin 1 → IVec S16 32) a x).toNat < S28672.size a := fun v1821 k0_hw496 => k0_hw496

def k0_chk497 (v1838 : IVec S16 32) : Prop :=
  (∀ a x, ((![v1838] : Fin 1 → IVec S16 32) a x).toNat < S10240.size a)
instance k0_chk497.dec : ∀ (v1838 : IVec S16 32), Decidable (k0_chk497 v1838) := fun v1838 => decidable_of_iff' _ (Iff.of_eq (k0_chk497.eq_1 v1838))
theorem k0_idx497_inb : ∀ (v1838 : IVec S16 32) (k0_hw497 : k0_chk497 v1838), ∀ a x, ((![v1838] : Fin 1 → IVec S16 32) a x).toNat < S10240.size a := fun v1838 k0_hw497 => k0_hw497

def k0_chk498 (v738 : IVec S16 32) : Prop :=
  (∀ a x, ((![v738] : Fin 1 → IVec S16 32) a x).toNat < S4480.size a)
instance k0_chk498.dec : ∀ (v738 : IVec S16 32), Decidable (k0_chk498 v738) := fun v738 => decidable_of_iff' _ (Iff.of_eq (k0_chk498.eq_1 v738))
theorem k0_idx498_inb : ∀ (v738 : IVec S16 32) (k0_hw498 : k0_chk498 v738), ∀ a x, ((![v738] : Fin 1 → IVec S16 32) a x).toNat < S4480.size a := fun v738 k0_hw498 => k0_hw498

def k0_chk499 (v741 : IVec S16 32) : Prop :=
  (∀ a x, ((![v741] : Fin 1 → IVec S16 32) a x).toNat < S4480.size a)
instance k0_chk499.dec : ∀ (v741 : IVec S16 32), Decidable (k0_chk499 v741) := fun v741 => decidable_of_iff' _ (Iff.of_eq (k0_chk499.eq_1 v741))
theorem k0_idx499_inb : ∀ (v741 : IVec S16 32) (k0_hw499 : k0_chk499 v741), ∀ a x, ((![v741] : Fin 1 → IVec S16 32) a x).toNat < S4480.size a := fun v741 k0_hw499 => k0_hw499

def k0_chk500 (v747 : IVec S16 32) : Prop :=
  (∀ a x, ((![v747] : Fin 1 → IVec S16 32) a x).toNat < S4480.size a)
instance k0_chk500.dec : ∀ (v747 : IVec S16 32), Decidable (k0_chk500 v747) := fun v747 => decidable_of_iff' _ (Iff.of_eq (k0_chk500.eq_1 v747))
theorem k0_idx500_inb : ∀ (v747 : IVec S16 32) (k0_hw500 : k0_chk500 v747), ∀ a x, ((![v747] : Fin 1 → IVec S16 32) a x).toNat < S4480.size a := fun v747 k0_hw500 => k0_hw500

def k0_chk501 (v753 : IVec S16 32) : Prop :=
  (∀ a x, ((![v753] : Fin 1 → IVec S16 32) a x).toNat < S4480.size a)
instance k0_chk501.dec : ∀ (v753 : IVec S16 32), Decidable (k0_chk501 v753) := fun v753 => decidable_of_iff' _ (Iff.of_eq (k0_chk501.eq_1 v753))
theorem k0_idx501_inb : ∀ (v753 : IVec S16 32) (k0_hw501 : k0_chk501 v753), ∀ a x, ((![v753] : Fin 1 → IVec S16 32) a x).toNat < S4480.size a := fun v753 k0_hw501 => k0_hw501

def k0_chk502 (v763 : IVec S16 32) : Prop :=
  (∀ a x, ((![v763] : Fin 1 → IVec S16 32) a x).toNat < S4480.size a)
instance k0_chk502.dec : ∀ (v763 : IVec S16 32), Decidable (k0_chk502 v763) := fun v763 => decidable_of_iff' _ (Iff.of_eq (k0_chk502.eq_1 v763))
theorem k0_idx502_inb : ∀ (v763 : IVec S16 32) (k0_hw502 : k0_chk502 v763), ∀ a x, ((![v763] : Fin 1 → IVec S16 32) a x).toNat < S4480.size a := fun v763 k0_hw502 => k0_hw502

def k0_chk503 (v766 : IVec S16 32) : Prop :=
  (∀ a x, ((![v766] : Fin 1 → IVec S16 32) a x).toNat < S4480.size a)
instance k0_chk503.dec : ∀ (v766 : IVec S16 32), Decidable (k0_chk503 v766) := fun v766 => decidable_of_iff' _ (Iff.of_eq (k0_chk503.eq_1 v766))
theorem k0_idx503_inb : ∀ (v766 : IVec S16 32) (k0_hw503 : k0_chk503 v766), ∀ a x, ((![v766] : Fin 1 → IVec S16 32) a x).toNat < S4480.size a := fun v766 k0_hw503 => k0_hw503

def k0_chk504 (v772 : IVec S16 32) : Prop :=
  (∀ a x, ((![v772] : Fin 1 → IVec S16 32) a x).toNat < S4480.size a)
instance k0_chk504.dec : ∀ (v772 : IVec S16 32), Decidable (k0_chk504 v772) := fun v772 => decidable_of_iff' _ (Iff.of_eq (k0_chk504.eq_1 v772))
theorem k0_idx504_inb : ∀ (v772 : IVec S16 32) (k0_hw504 : k0_chk504 v772), ∀ a x, ((![v772] : Fin 1 → IVec S16 32) a x).toNat < S4480.size a := fun v772 k0_hw504 => k0_hw504

def k0_chk505 (v778 : IVec S16 32) : Prop :=
  (∀ a x, ((![v778] : Fin 1 → IVec S16 32) a x).toNat < S4480.size a)
instance k0_chk505.dec : ∀ (v778 : IVec S16 32), Decidable (k0_chk505 v778) := fun v778 => decidable_of_iff' _ (Iff.of_eq (k0_chk505.eq_1 v778))
theorem k0_idx505_inb : ∀ (v778 : IVec S16 32) (k0_hw505 : k0_chk505 v778), ∀ a x, ((![v778] : Fin 1 → IVec S16 32) a x).toNat < S4480.size a := fun v778 k0_hw505 => k0_hw505

def k0_chk506 (v788 : IVec S16 32) : Prop :=
  (∀ a x, ((![v788] : Fin 1 → IVec S16 32) a x).toNat < S4480.size a)
instance k0_chk506.dec : ∀ (v788 : IVec S16 32), Decidable (k0_chk506 v788) := fun v788 => decidable_of_iff' _ (Iff.of_eq (k0_chk506.eq_1 v788))
theorem k0_idx506_inb : ∀ (v788 : IVec S16 32) (k0_hw506 : k0_chk506 v788), ∀ a x, ((![v788] : Fin 1 → IVec S16 32) a x).toNat < S4480.size a := fun v788 k0_hw506 => k0_hw506

def k0_chk507 (v791 : IVec S16 32) : Prop :=
  (∀ a x, ((![v791] : Fin 1 → IVec S16 32) a x).toNat < S4480.size a)
instance k0_chk507.dec : ∀ (v791 : IVec S16 32), Decidable (k0_chk507 v791) := fun v791 => decidable_of_iff' _ (Iff.of_eq (k0_chk507.eq_1 v791))
theorem k0_idx507_inb : ∀ (v791 : IVec S16 32) (k0_hw507 : k0_chk507 v791), ∀ a x, ((![v791] : Fin 1 → IVec S16 32) a x).toNat < S4480.size a := fun v791 k0_hw507 => k0_hw507

def k0_chk508 (v797 : IVec S16 32) : Prop :=
  (∀ a x, ((![v797] : Fin 1 → IVec S16 32) a x).toNat < S4480.size a)
instance k0_chk508.dec : ∀ (v797 : IVec S16 32), Decidable (k0_chk508 v797) := fun v797 => decidable_of_iff' _ (Iff.of_eq (k0_chk508.eq_1 v797))
theorem k0_idx508_inb : ∀ (v797 : IVec S16 32) (k0_hw508 : k0_chk508 v797), ∀ a x, ((![v797] : Fin 1 → IVec S16 32) a x).toNat < S4480.size a := fun v797 k0_hw508 => k0_hw508

def k0_chk509 (v803 : IVec S16 32) : Prop :=
  (∀ a x, ((![v803] : Fin 1 → IVec S16 32) a x).toNat < S4480.size a)
instance k0_chk509.dec : ∀ (v803 : IVec S16 32), Decidable (k0_chk509 v803) := fun v803 => decidable_of_iff' _ (Iff.of_eq (k0_chk509.eq_1 v803))
theorem k0_idx509_inb : ∀ (v803 : IVec S16 32) (k0_hw509 : k0_chk509 v803), ∀ a x, ((![v803] : Fin 1 → IVec S16 32) a x).toNat < S4480.size a := fun v803 k0_hw509 => k0_hw509

def k0_chk510 (v813 : IVec S16 32) : Prop :=
  (∀ a x, ((![v813] : Fin 1 → IVec S16 32) a x).toNat < S4480.size a)
instance k0_chk510.dec : ∀ (v813 : IVec S16 32), Decidable (k0_chk510 v813) := fun v813 => decidable_of_iff' _ (Iff.of_eq (k0_chk510.eq_1 v813))
theorem k0_idx510_inb : ∀ (v813 : IVec S16 32) (k0_hw510 : k0_chk510 v813), ∀ a x, ((![v813] : Fin 1 → IVec S16 32) a x).toNat < S4480.size a := fun v813 k0_hw510 => k0_hw510

def k0_chk511 (v816 : IVec S16 32) : Prop :=
  (∀ a x, ((![v816] : Fin 1 → IVec S16 32) a x).toNat < S4480.size a)
instance k0_chk511.dec : ∀ (v816 : IVec S16 32), Decidable (k0_chk511 v816) := fun v816 => decidable_of_iff' _ (Iff.of_eq (k0_chk511.eq_1 v816))
theorem k0_idx511_inb : ∀ (v816 : IVec S16 32) (k0_hw511 : k0_chk511 v816), ∀ a x, ((![v816] : Fin 1 → IVec S16 32) a x).toNat < S4480.size a := fun v816 k0_hw511 => k0_hw511

def k0_chk512 (v822 : IVec S16 32) : Prop :=
  (∀ a x, ((![v822] : Fin 1 → IVec S16 32) a x).toNat < S4480.size a)
instance k0_chk512.dec : ∀ (v822 : IVec S16 32), Decidable (k0_chk512 v822) := fun v822 => decidable_of_iff' _ (Iff.of_eq (k0_chk512.eq_1 v822))
theorem k0_idx512_inb : ∀ (v822 : IVec S16 32) (k0_hw512 : k0_chk512 v822), ∀ a x, ((![v822] : Fin 1 → IVec S16 32) a x).toNat < S4480.size a := fun v822 k0_hw512 => k0_hw512

def k0_chk513 (v828 : IVec S16 32) : Prop :=
  (∀ a x, ((![v828] : Fin 1 → IVec S16 32) a x).toNat < S4480.size a)
instance k0_chk513.dec : ∀ (v828 : IVec S16 32), Decidable (k0_chk513 v828) := fun v828 => decidable_of_iff' _ (Iff.of_eq (k0_chk513.eq_1 v828))
theorem k0_idx513_inb : ∀ (v828 : IVec S16 32) (k0_hw513 : k0_chk513 v828), ∀ a x, ((![v828] : Fin 1 → IVec S16 32) a x).toNat < S4480.size a := fun v828 k0_hw513 => k0_hw513

def k0_chk514 (v838 : IVec S16 32) : Prop :=
  (∀ a x, ((![v838] : Fin 1 → IVec S16 32) a x).toNat < S4480.size a)
instance k0_chk514.dec : ∀ (v838 : IVec S16 32), Decidable (k0_chk514 v838) := fun v838 => decidable_of_iff' _ (Iff.of_eq (k0_chk514.eq_1 v838))
theorem k0_idx514_inb : ∀ (v838 : IVec S16 32) (k0_hw514 : k0_chk514 v838), ∀ a x, ((![v838] : Fin 1 → IVec S16 32) a x).toNat < S4480.size a := fun v838 k0_hw514 => k0_hw514

def k0_chk515 (v841 : IVec S16 32) : Prop :=
  (∀ a x, ((![v841] : Fin 1 → IVec S16 32) a x).toNat < S4480.size a)
instance k0_chk515.dec : ∀ (v841 : IVec S16 32), Decidable (k0_chk515 v841) := fun v841 => decidable_of_iff' _ (Iff.of_eq (k0_chk515.eq_1 v841))
theorem k0_idx515_inb : ∀ (v841 : IVec S16 32) (k0_hw515 : k0_chk515 v841), ∀ a x, ((![v841] : Fin 1 → IVec S16 32) a x).toNat < S4480.size a := fun v841 k0_hw515 => k0_hw515

def k0_chk516 (v847 : IVec S16 32) : Prop :=
  (∀ a x, ((![v847] : Fin 1 → IVec S16 32) a x).toNat < S4480.size a)
instance k0_chk516.dec : ∀ (v847 : IVec S16 32), Decidable (k0_chk516 v847) := fun v847 => decidable_of_iff' _ (Iff.of_eq (k0_chk516.eq_1 v847))
theorem k0_idx516_inb : ∀ (v847 : IVec S16 32) (k0_hw516 : k0_chk516 v847), ∀ a x, ((![v847] : Fin 1 → IVec S16 32) a x).toNat < S4480.size a := fun v847 k0_hw516 => k0_hw516

def k0_chk517 (v853 : IVec S16 32) : Prop :=
  (∀ a x, ((![v853] : Fin 1 → IVec S16 32) a x).toNat < S4480.size a)
instance k0_chk517.dec : ∀ (v853 : IVec S16 32), Decidable (k0_chk517 v853) := fun v853 => decidable_of_iff' _ (Iff.of_eq (k0_chk517.eq_1 v853))
theorem k0_idx517_inb : ∀ (v853 : IVec S16 32) (k0_hw517 : k0_chk517 v853), ∀ a x, ((![v853] : Fin 1 → IVec S16 32) a x).toNat < S4480.size a := fun v853 k0_hw517 => k0_hw517

def k0_chk518 (v863 : IVec S16 32) : Prop :=
  (∀ a x, ((![v863] : Fin 1 → IVec S16 32) a x).toNat < S4480.size a)
instance k0_chk518.dec : ∀ (v863 : IVec S16 32), Decidable (k0_chk518 v863) := fun v863 => decidable_of_iff' _ (Iff.of_eq (k0_chk518.eq_1 v863))
theorem k0_idx518_inb : ∀ (v863 : IVec S16 32) (k0_hw518 : k0_chk518 v863), ∀ a x, ((![v863] : Fin 1 → IVec S16 32) a x).toNat < S4480.size a := fun v863 k0_hw518 => k0_hw518

def k0_chk519 (v866 : IVec S16 32) : Prop :=
  (∀ a x, ((![v866] : Fin 1 → IVec S16 32) a x).toNat < S4480.size a)
instance k0_chk519.dec : ∀ (v866 : IVec S16 32), Decidable (k0_chk519 v866) := fun v866 => decidable_of_iff' _ (Iff.of_eq (k0_chk519.eq_1 v866))
theorem k0_idx519_inb : ∀ (v866 : IVec S16 32) (k0_hw519 : k0_chk519 v866), ∀ a x, ((![v866] : Fin 1 → IVec S16 32) a x).toNat < S4480.size a := fun v866 k0_hw519 => k0_hw519

def k0_chk520 (v872 : IVec S16 32) : Prop :=
  (∀ a x, ((![v872] : Fin 1 → IVec S16 32) a x).toNat < S4480.size a)
instance k0_chk520.dec : ∀ (v872 : IVec S16 32), Decidable (k0_chk520 v872) := fun v872 => decidable_of_iff' _ (Iff.of_eq (k0_chk520.eq_1 v872))
theorem k0_idx520_inb : ∀ (v872 : IVec S16 32) (k0_hw520 : k0_chk520 v872), ∀ a x, ((![v872] : Fin 1 → IVec S16 32) a x).toNat < S4480.size a := fun v872 k0_hw520 => k0_hw520

def k0_chk521 (v878 : IVec S16 32) : Prop :=
  (∀ a x, ((![v878] : Fin 1 → IVec S16 32) a x).toNat < S4480.size a)
instance k0_chk521.dec : ∀ (v878 : IVec S16 32), Decidable (k0_chk521 v878) := fun v878 => decidable_of_iff' _ (Iff.of_eq (k0_chk521.eq_1 v878))
theorem k0_idx521_inb : ∀ (v878 : IVec S16 32) (k0_hw521 : k0_chk521 v878), ∀ a x, ((![v878] : Fin 1 → IVec S16 32) a x).toNat < S4480.size a := fun v878 k0_hw521 => k0_hw521

def k0_chk522 (v888 : IVec S16 32) : Prop :=
  (∀ a x, ((![v888] : Fin 1 → IVec S16 32) a x).toNat < S4480.size a)
instance k0_chk522.dec : ∀ (v888 : IVec S16 32), Decidable (k0_chk522 v888) := fun v888 => decidable_of_iff' _ (Iff.of_eq (k0_chk522.eq_1 v888))
theorem k0_idx522_inb : ∀ (v888 : IVec S16 32) (k0_hw522 : k0_chk522 v888), ∀ a x, ((![v888] : Fin 1 → IVec S16 32) a x).toNat < S4480.size a := fun v888 k0_hw522 => k0_hw522

def k0_chk523 (v891 : IVec S16 32) : Prop :=
  (∀ a x, ((![v891] : Fin 1 → IVec S16 32) a x).toNat < S4480.size a)
instance k0_chk523.dec : ∀ (v891 : IVec S16 32), Decidable (k0_chk523 v891) := fun v891 => decidable_of_iff' _ (Iff.of_eq (k0_chk523.eq_1 v891))
theorem k0_idx523_inb : ∀ (v891 : IVec S16 32) (k0_hw523 : k0_chk523 v891), ∀ a x, ((![v891] : Fin 1 → IVec S16 32) a x).toNat < S4480.size a := fun v891 k0_hw523 => k0_hw523

def k0_chk524 (v897 : IVec S16 32) : Prop :=
  (∀ a x, ((![v897] : Fin 1 → IVec S16 32) a x).toNat < S4480.size a)
instance k0_chk524.dec : ∀ (v897 : IVec S16 32), Decidable (k0_chk524 v897) := fun v897 => decidable_of_iff' _ (Iff.of_eq (k0_chk524.eq_1 v897))
theorem k0_idx524_inb : ∀ (v897 : IVec S16 32) (k0_hw524 : k0_chk524 v897), ∀ a x, ((![v897] : Fin 1 → IVec S16 32) a x).toNat < S4480.size a := fun v897 k0_hw524 => k0_hw524

def k0_chk525 (v903 : IVec S16 32) : Prop :=
  (∀ a x, ((![v903] : Fin 1 → IVec S16 32) a x).toNat < S4480.size a)
instance k0_chk525.dec : ∀ (v903 : IVec S16 32), Decidable (k0_chk525 v903) := fun v903 => decidable_of_iff' _ (Iff.of_eq (k0_chk525.eq_1 v903))
theorem k0_idx525_inb : ∀ (v903 : IVec S16 32) (k0_hw525 : k0_chk525 v903), ∀ a x, ((![v903] : Fin 1 → IVec S16 32) a x).toNat < S4480.size a := fun v903 k0_hw525 => k0_hw525

def k0_chk526 (v913 : IVec S16 32) : Prop :=
  (∀ a x, ((![v913] : Fin 1 → IVec S16 32) a x).toNat < S4480.size a)
instance k0_chk526.dec : ∀ (v913 : IVec S16 32), Decidable (k0_chk526 v913) := fun v913 => decidable_of_iff' _ (Iff.of_eq (k0_chk526.eq_1 v913))
theorem k0_idx526_inb : ∀ (v913 : IVec S16 32) (k0_hw526 : k0_chk526 v913), ∀ a x, ((![v913] : Fin 1 → IVec S16 32) a x).toNat < S4480.size a := fun v913 k0_hw526 => k0_hw526

def k0_chk527 (v916 : IVec S16 32) : Prop :=
  (∀ a x, ((![v916] : Fin 1 → IVec S16 32) a x).toNat < S4480.size a)
instance k0_chk527.dec : ∀ (v916 : IVec S16 32), Decidable (k0_chk527 v916) := fun v916 => decidable_of_iff' _ (Iff.of_eq (k0_chk527.eq_1 v916))
theorem k0_idx527_inb : ∀ (v916 : IVec S16 32) (k0_hw527 : k0_chk527 v916), ∀ a x, ((![v916] : Fin 1 → IVec S16 32) a x).toNat < S4480.size a := fun v916 k0_hw527 => k0_hw527

def k0_chk528 (v922 : IVec S16 32) : Prop :=
  (∀ a x, ((![v922] : Fin 1 → IVec S16 32) a x).toNat < S4480.size a)
instance k0_chk528.dec : ∀ (v922 : IVec S16 32), Decidable (k0_chk528 v922) := fun v922 => decidable_of_iff' _ (Iff.of_eq (k0_chk528.eq_1 v922))
theorem k0_idx528_inb : ∀ (v922 : IVec S16 32) (k0_hw528 : k0_chk528 v922), ∀ a x, ((![v922] : Fin 1 → IVec S16 32) a x).toNat < S4480.size a := fun v922 k0_hw528 => k0_hw528

def k0_chk529 (v928 : IVec S16 32) : Prop :=
  (∀ a x, ((![v928] : Fin 1 → IVec S16 32) a x).toNat < S4480.size a)
instance k0_chk529.dec : ∀ (v928 : IVec S16 32), Decidable (k0_chk529 v928) := fun v928 => decidable_of_iff' _ (Iff.of_eq (k0_chk529.eq_1 v928))
theorem k0_idx529_inb : ∀ (v928 : IVec S16 32) (k0_hw529 : k0_chk529 v928), ∀ a x, ((![v928] : Fin 1 → IVec S16 32) a x).toNat < S4480.size a := fun v928 k0_hw529 => k0_hw529

def k0_chk530 (v938 : IVec S16 32) : Prop :=
  (∀ a x, ((![v938] : Fin 1 → IVec S16 32) a x).toNat < S4480.size a)
instance k0_chk530.dec : ∀ (v938 : IVec S16 32), Decidable (k0_chk530 v938) := fun v938 => decidable_of_iff' _ (Iff.of_eq (k0_chk530.eq_1 v938))
theorem k0_idx530_inb : ∀ (v938 : IVec S16 32) (k0_hw530 : k0_chk530 v938), ∀ a x, ((![v938] : Fin 1 → IVec S16 32) a x).toNat < S4480.size a := fun v938 k0_hw530 => k0_hw530

def k0_chk531 (v941 : IVec S16 32) : Prop :=
  (∀ a x, ((![v941] : Fin 1 → IVec S16 32) a x).toNat < S4480.size a)
instance k0_chk531.dec : ∀ (v941 : IVec S16 32), Decidable (k0_chk531 v941) := fun v941 => decidable_of_iff' _ (Iff.of_eq (k0_chk531.eq_1 v941))
theorem k0_idx531_inb : ∀ (v941 : IVec S16 32) (k0_hw531 : k0_chk531 v941), ∀ a x, ((![v941] : Fin 1 → IVec S16 32) a x).toNat < S4480.size a := fun v941 k0_hw531 => k0_hw531

def k0_chk532 (v947 : IVec S16 32) : Prop :=
  (∀ a x, ((![v947] : Fin 1 → IVec S16 32) a x).toNat < S4480.size a)
instance k0_chk532.dec : ∀ (v947 : IVec S16 32), Decidable (k0_chk532 v947) := fun v947 => decidable_of_iff' _ (Iff.of_eq (k0_chk532.eq_1 v947))
theorem k0_idx532_inb : ∀ (v947 : IVec S16 32) (k0_hw532 : k0_chk532 v947), ∀ a x, ((![v947] : Fin 1 → IVec S16 32) a x).toNat < S4480.size a := fun v947 k0_hw532 => k0_hw532

def k0_chk533 (v953 : IVec S16 32) : Prop :=
  (∀ a x, ((![v953] : Fin 1 → IVec S16 32) a x).toNat < S4480.size a)
instance k0_chk533.dec : ∀ (v953 : IVec S16 32), Decidable (k0_chk533 v953) := fun v953 => decidable_of_iff' _ (Iff.of_eq (k0_chk533.eq_1 v953))
theorem k0_idx533_inb : ∀ (v953 : IVec S16 32) (k0_hw533 : k0_chk533 v953), ∀ a x, ((![v953] : Fin 1 → IVec S16 32) a x).toNat < S4480.size a := fun v953 k0_hw533 => k0_hw533

def k0_chk534 (v963 : IVec S16 32) : Prop :=
  (∀ a x, ((![v963] : Fin 1 → IVec S16 32) a x).toNat < S4480.size a)
instance k0_chk534.dec : ∀ (v963 : IVec S16 32), Decidable (k0_chk534 v963) := fun v963 => decidable_of_iff' _ (Iff.of_eq (k0_chk534.eq_1 v963))
theorem k0_idx534_inb : ∀ (v963 : IVec S16 32) (k0_hw534 : k0_chk534 v963), ∀ a x, ((![v963] : Fin 1 → IVec S16 32) a x).toNat < S4480.size a := fun v963 k0_hw534 => k0_hw534

def k0_chk535 (v966 : IVec S16 32) : Prop :=
  (∀ a x, ((![v966] : Fin 1 → IVec S16 32) a x).toNat < S4480.size a)
instance k0_chk535.dec : ∀ (v966 : IVec S16 32), Decidable (k0_chk535 v966) := fun v966 => decidable_of_iff' _ (Iff.of_eq (k0_chk535.eq_1 v966))
theorem k0_idx535_inb : ∀ (v966 : IVec S16 32) (k0_hw535 : k0_chk535 v966), ∀ a x, ((![v966] : Fin 1 → IVec S16 32) a x).toNat < S4480.size a := fun v966 k0_hw535 => k0_hw535

def k0_chk536 (v972 : IVec S16 32) : Prop :=
  (∀ a x, ((![v972] : Fin 1 → IVec S16 32) a x).toNat < S4480.size a)
instance k0_chk536.dec : ∀ (v972 : IVec S16 32), Decidable (k0_chk536 v972) := fun v972 => decidable_of_iff' _ (Iff.of_eq (k0_chk536.eq_1 v972))
theorem k0_idx536_inb : ∀ (v972 : IVec S16 32) (k0_hw536 : k0_chk536 v972), ∀ a x, ((![v972] : Fin 1 → IVec S16 32) a x).toNat < S4480.size a := fun v972 k0_hw536 => k0_hw536

def k0_chk537 (v978 : IVec S16 32) : Prop :=
  (∀ a x, ((![v978] : Fin 1 → IVec S16 32) a x).toNat < S4480.size a)
instance k0_chk537.dec : ∀ (v978 : IVec S16 32), Decidable (k0_chk537 v978) := fun v978 => decidable_of_iff' _ (Iff.of_eq (k0_chk537.eq_1 v978))
theorem k0_idx537_inb : ∀ (v978 : IVec S16 32) (k0_hw537 : k0_chk537 v978), ∀ a x, ((![v978] : Fin 1 → IVec S16 32) a x).toNat < S4480.size a := fun v978 k0_hw537 => k0_hw537

def k0_chk538 (v988 : IVec S16 32) : Prop :=
  (∀ a x, ((![v988] : Fin 1 → IVec S16 32) a x).toNat < S4480.size a)
instance k0_chk538.dec : ∀ (v988 : IVec S16 32), Decidable (k0_chk538 v988) := fun v988 => decidable_of_iff' _ (Iff.of_eq (k0_chk538.eq_1 v988))
theorem k0_idx538_inb : ∀ (v988 : IVec S16 32) (k0_hw538 : k0_chk538 v988), ∀ a x, ((![v988] : Fin 1 → IVec S16 32) a x).toNat < S4480.size a := fun v988 k0_hw538 => k0_hw538

def k0_chk539 (v991 : IVec S16 32) : Prop :=
  (∀ a x, ((![v991] : Fin 1 → IVec S16 32) a x).toNat < S4480.size a)
instance k0_chk539.dec : ∀ (v991 : IVec S16 32), Decidable (k0_chk539 v991) := fun v991 => decidable_of_iff' _ (Iff.of_eq (k0_chk539.eq_1 v991))
theorem k0_idx539_inb : ∀ (v991 : IVec S16 32) (k0_hw539 : k0_chk539 v991), ∀ a x, ((![v991] : Fin 1 → IVec S16 32) a x).toNat < S4480.size a := fun v991 k0_hw539 => k0_hw539

def k0_chk540 (v997 : IVec S16 32) : Prop :=
  (∀ a x, ((![v997] : Fin 1 → IVec S16 32) a x).toNat < S4480.size a)
instance k0_chk540.dec : ∀ (v997 : IVec S16 32), Decidable (k0_chk540 v997) := fun v997 => decidable_of_iff' _ (Iff.of_eq (k0_chk540.eq_1 v997))
theorem k0_idx540_inb : ∀ (v997 : IVec S16 32) (k0_hw540 : k0_chk540 v997), ∀ a x, ((![v997] : Fin 1 → IVec S16 32) a x).toNat < S4480.size a := fun v997 k0_hw540 => k0_hw540

def k0_chk541 (v1003 : IVec S16 32) : Prop :=
  (∀ a x, ((![v1003] : Fin 1 → IVec S16 32) a x).toNat < S4480.size a)
instance k0_chk541.dec : ∀ (v1003 : IVec S16 32), Decidable (k0_chk541 v1003) := fun v1003 => decidable_of_iff' _ (Iff.of_eq (k0_chk541.eq_1 v1003))
theorem k0_idx541_inb : ∀ (v1003 : IVec S16 32) (k0_hw541 : k0_chk541 v1003), ∀ a x, ((![v1003] : Fin 1 → IVec S16 32) a x).toNat < S4480.size a := fun v1003 k0_hw541 => k0_hw541

def k0_chk542 (v1013 : IVec S16 32) : Prop :=
  (∀ a x, ((![v1013] : Fin 1 → IVec S16 32) a x).toNat < S4480.size a)
instance k0_chk542.dec : ∀ (v1013 : IVec S16 32), Decidable (k0_chk542 v1013) := fun v1013 => decidable_of_iff' _ (Iff.of_eq (k0_chk542.eq_1 v1013))
theorem k0_idx542_inb : ∀ (v1013 : IVec S16 32) (k0_hw542 : k0_chk542 v1013), ∀ a x, ((![v1013] : Fin 1 → IVec S16 32) a x).toNat < S4480.size a := fun v1013 k0_hw542 => k0_hw542

def k0_chk543 (v1016 : IVec S16 32) : Prop :=
  (∀ a x, ((![v1016] : Fin 1 → IVec S16 32) a x).toNat < S4480.size a)
instance k0_chk543.dec : ∀ (v1016 : IVec S16 32), Decidable (k0_chk543 v1016) := fun v1016 => decidable_of_iff' _ (Iff.of_eq (k0_chk543.eq_1 v1016))
theorem k0_idx543_inb : ∀ (v1016 : IVec S16 32) (k0_hw543 : k0_chk543 v1016), ∀ a x, ((![v1016] : Fin 1 → IVec S16 32) a x).toNat < S4480.size a := fun v1016 k0_hw543 => k0_hw543

def k0_chk544 (v1022 : IVec S16 32) : Prop :=
  (∀ a x, ((![v1022] : Fin 1 → IVec S16 32) a x).toNat < S4480.size a)
instance k0_chk544.dec : ∀ (v1022 : IVec S16 32), Decidable (k0_chk544 v1022) := fun v1022 => decidable_of_iff' _ (Iff.of_eq (k0_chk544.eq_1 v1022))
theorem k0_idx544_inb : ∀ (v1022 : IVec S16 32) (k0_hw544 : k0_chk544 v1022), ∀ a x, ((![v1022] : Fin 1 → IVec S16 32) a x).toNat < S4480.size a := fun v1022 k0_hw544 => k0_hw544

def k0_chk545 (v1028 : IVec S16 32) : Prop :=
  (∀ a x, ((![v1028] : Fin 1 → IVec S16 32) a x).toNat < S4480.size a)
instance k0_chk545.dec : ∀ (v1028 : IVec S16 32), Decidable (k0_chk545 v1028) := fun v1028 => decidable_of_iff' _ (Iff.of_eq (k0_chk545.eq_1 v1028))
theorem k0_idx545_inb : ∀ (v1028 : IVec S16 32) (k0_hw545 : k0_chk545 v1028), ∀ a x, ((![v1028] : Fin 1 → IVec S16 32) a x).toNat < S4480.size a := fun v1028 k0_hw545 => k0_hw545

def k0_chk546 (v1038 : IVec S16 32) : Prop :=
  (∀ a x, ((![v1038] : Fin 1 → IVec S16 32) a x).toNat < S4480.size a)
instance k0_chk546.dec : ∀ (v1038 : IVec S16 32), Decidable (k0_chk546 v1038) := fun v1038 => decidable_of_iff' _ (Iff.of_eq (k0_chk546.eq_1 v1038))
theorem k0_idx546_inb : ∀ (v1038 : IVec S16 32) (k0_hw546 : k0_chk546 v1038), ∀ a x, ((![v1038] : Fin 1 → IVec S16 32) a x).toNat < S4480.size a := fun v1038 k0_hw546 => k0_hw546

def k0_chk547 (v1041 : IVec S16 32) : Prop :=
  (∀ a x, ((![v1041] : Fin 1 → IVec S16 32) a x).toNat < S4480.size a)
instance k0_chk547.dec : ∀ (v1041 : IVec S16 32), Decidable (k0_chk547 v1041) := fun v1041 => decidable_of_iff' _ (Iff.of_eq (k0_chk547.eq_1 v1041))
theorem k0_idx547_inb : ∀ (v1041 : IVec S16 32) (k0_hw547 : k0_chk547 v1041), ∀ a x, ((![v1041] : Fin 1 → IVec S16 32) a x).toNat < S4480.size a := fun v1041 k0_hw547 => k0_hw547

def k0_chk548 (v1047 : IVec S16 32) : Prop :=
  (∀ a x, ((![v1047] : Fin 1 → IVec S16 32) a x).toNat < S4480.size a)
instance k0_chk548.dec : ∀ (v1047 : IVec S16 32), Decidable (k0_chk548 v1047) := fun v1047 => decidable_of_iff' _ (Iff.of_eq (k0_chk548.eq_1 v1047))
theorem k0_idx548_inb : ∀ (v1047 : IVec S16 32) (k0_hw548 : k0_chk548 v1047), ∀ a x, ((![v1047] : Fin 1 → IVec S16 32) a x).toNat < S4480.size a := fun v1047 k0_hw548 => k0_hw548

def k0_chk549 (v1053 : IVec S16 32) : Prop :=
  (∀ a x, ((![v1053] : Fin 1 → IVec S16 32) a x).toNat < S4480.size a)
instance k0_chk549.dec : ∀ (v1053 : IVec S16 32), Decidable (k0_chk549 v1053) := fun v1053 => decidable_of_iff' _ (Iff.of_eq (k0_chk549.eq_1 v1053))
theorem k0_idx549_inb : ∀ (v1053 : IVec S16 32) (k0_hw549 : k0_chk549 v1053), ∀ a x, ((![v1053] : Fin 1 → IVec S16 32) a x).toNat < S4480.size a := fun v1053 k0_hw549 => k0_hw549

def k0_chk550 (v1063 : IVec S16 32) : Prop :=
  (∀ a x, ((![v1063] : Fin 1 → IVec S16 32) a x).toNat < S4480.size a)
instance k0_chk550.dec : ∀ (v1063 : IVec S16 32), Decidable (k0_chk550 v1063) := fun v1063 => decidable_of_iff' _ (Iff.of_eq (k0_chk550.eq_1 v1063))
theorem k0_idx550_inb : ∀ (v1063 : IVec S16 32) (k0_hw550 : k0_chk550 v1063), ∀ a x, ((![v1063] : Fin 1 → IVec S16 32) a x).toNat < S4480.size a := fun v1063 k0_hw550 => k0_hw550

def k0_chk551 (v1066 : IVec S16 32) : Prop :=
  (∀ a x, ((![v1066] : Fin 1 → IVec S16 32) a x).toNat < S4480.size a)
instance k0_chk551.dec : ∀ (v1066 : IVec S16 32), Decidable (k0_chk551 v1066) := fun v1066 => decidable_of_iff' _ (Iff.of_eq (k0_chk551.eq_1 v1066))
theorem k0_idx551_inb : ∀ (v1066 : IVec S16 32) (k0_hw551 : k0_chk551 v1066), ∀ a x, ((![v1066] : Fin 1 → IVec S16 32) a x).toNat < S4480.size a := fun v1066 k0_hw551 => k0_hw551

def k0_chk552 (v1072 : IVec S16 32) : Prop :=
  (∀ a x, ((![v1072] : Fin 1 → IVec S16 32) a x).toNat < S4480.size a)
instance k0_chk552.dec : ∀ (v1072 : IVec S16 32), Decidable (k0_chk552 v1072) := fun v1072 => decidable_of_iff' _ (Iff.of_eq (k0_chk552.eq_1 v1072))
theorem k0_idx552_inb : ∀ (v1072 : IVec S16 32) (k0_hw552 : k0_chk552 v1072), ∀ a x, ((![v1072] : Fin 1 → IVec S16 32) a x).toNat < S4480.size a := fun v1072 k0_hw552 => k0_hw552

def k0_chk553 (v1078 : IVec S16 32) : Prop :=
  (∀ a x, ((![v1078] : Fin 1 → IVec S16 32) a x).toNat < S4480.size a)
instance k0_chk553.dec : ∀ (v1078 : IVec S16 32), Decidable (k0_chk553 v1078) := fun v1078 => decidable_of_iff' _ (Iff.of_eq (k0_chk553.eq_1 v1078))
theorem k0_idx553_inb : ∀ (v1078 : IVec S16 32) (k0_hw553 : k0_chk553 v1078), ∀ a x, ((![v1078] : Fin 1 → IVec S16 32) a x).toNat < S4480.size a := fun v1078 k0_hw553 => k0_hw553
@[reducible] def k0_t10_loop : Scf.Loop 32 :=
  let c0_i32_225 : BitVec 32 := 0#32
  let c128_i32_226 : BitVec 32 := 128#32
  let v1087 : BitVec 32 := Scalar.addi c0_i32_225 c128_i32_226
  let c1_i32_227 : BitVec 32 := 1#32
  ⟨c0_i32_225, v1087, c1_i32_227⟩

def k0_chk554 (v1795 : IVec S16 32) : Prop :=
  (∀ a x, ((![v1795] : Fin 1 → IVec S16 32) a x).toNat < S28672.size a)
instance k0_chk554.dec : ∀ (v1795 : IVec S16 32), Decidable (k0_chk554 v1795) := fun v1795 => decidable_of_iff' _ (Iff.of_eq (k0_chk554.eq_1 v1795))
theorem k0_idx554_inb : ∀ (v1795 : IVec S16 32) (k0_hw554 : k0_chk554 v1795), ∀ a x, ((![v1795] : Fin 1 → IVec S16 32) a x).toNat < S28672.size a := fun v1795 k0_hw554 => k0_hw554

def k0_chk555 (v1797 : IVec S16 32) : Prop :=
  (∀ a x, ((![v1797] : Fin 1 → IVec S16 32) a x).toNat < S28672.size a)
instance k0_chk555.dec : ∀ (v1797 : IVec S16 32), Decidable (k0_chk555 v1797) := fun v1797 => decidable_of_iff' _ (Iff.of_eq (k0_chk555.eq_1 v1797))
theorem k0_idx555_inb : ∀ (v1797 : IVec S16 32) (k0_hw555 : k0_chk555 v1797), ∀ a x, ((![v1797] : Fin 1 → IVec S16 32) a x).toNat < S28672.size a := fun v1797 k0_hw555 => k0_hw555

def k0_chk556 (v1799 : IVec S16 32) : Prop :=
  (∀ a x, ((![v1799] : Fin 1 → IVec S16 32) a x).toNat < S28672.size a)
instance k0_chk556.dec : ∀ (v1799 : IVec S16 32), Decidable (k0_chk556 v1799) := fun v1799 => decidable_of_iff' _ (Iff.of_eq (k0_chk556.eq_1 v1799))
theorem k0_idx556_inb : ∀ (v1799 : IVec S16 32) (k0_hw556 : k0_chk556 v1799), ∀ a x, ((![v1799] : Fin 1 → IVec S16 32) a x).toNat < S28672.size a := fun v1799 k0_hw556 => k0_hw556

def k0_chk557 (v1801 : IVec S16 32) : Prop :=
  (∀ a x, ((![v1801] : Fin 1 → IVec S16 32) a x).toNat < S28672.size a)
instance k0_chk557.dec : ∀ (v1801 : IVec S16 32), Decidable (k0_chk557 v1801) := fun v1801 => decidable_of_iff' _ (Iff.of_eq (k0_chk557.eq_1 v1801))
theorem k0_idx557_inb : ∀ (v1801 : IVec S16 32) (k0_hw557 : k0_chk557 v1801), ∀ a x, ((![v1801] : Fin 1 → IVec S16 32) a x).toNat < S28672.size a := fun v1801 k0_hw557 => k0_hw557

def k0_chk558 (v1803 : IVec S16 32) : Prop :=
  (∀ a x, ((![v1803] : Fin 1 → IVec S16 32) a x).toNat < S28672.size a)
instance k0_chk558.dec : ∀ (v1803 : IVec S16 32), Decidable (k0_chk558 v1803) := fun v1803 => decidable_of_iff' _ (Iff.of_eq (k0_chk558.eq_1 v1803))
theorem k0_idx558_inb : ∀ (v1803 : IVec S16 32) (k0_hw558 : k0_chk558 v1803), ∀ a x, ((![v1803] : Fin 1 → IVec S16 32) a x).toNat < S28672.size a := fun v1803 k0_hw558 => k0_hw558

def k0_chk559 (v1805 : IVec S16 32) : Prop :=
  (∀ a x, ((![v1805] : Fin 1 → IVec S16 32) a x).toNat < S28672.size a)
instance k0_chk559.dec : ∀ (v1805 : IVec S16 32), Decidable (k0_chk559 v1805) := fun v1805 => decidable_of_iff' _ (Iff.of_eq (k0_chk559.eq_1 v1805))
theorem k0_idx559_inb : ∀ (v1805 : IVec S16 32) (k0_hw559 : k0_chk559 v1805), ∀ a x, ((![v1805] : Fin 1 → IVec S16 32) a x).toNat < S28672.size a := fun v1805 k0_hw559 => k0_hw559

def k0_chk560 (v1807 : IVec S16 32) : Prop :=
  (∀ a x, ((![v1807] : Fin 1 → IVec S16 32) a x).toNat < S28672.size a)
instance k0_chk560.dec : ∀ (v1807 : IVec S16 32), Decidable (k0_chk560 v1807) := fun v1807 => decidable_of_iff' _ (Iff.of_eq (k0_chk560.eq_1 v1807))
theorem k0_idx560_inb : ∀ (v1807 : IVec S16 32) (k0_hw560 : k0_chk560 v1807), ∀ a x, ((![v1807] : Fin 1 → IVec S16 32) a x).toNat < S28672.size a := fun v1807 k0_hw560 => k0_hw560

def k0_chk561 (v1809 : IVec S16 32) : Prop :=
  (∀ a x, ((![v1809] : Fin 1 → IVec S16 32) a x).toNat < S28672.size a)
instance k0_chk561.dec : ∀ (v1809 : IVec S16 32), Decidable (k0_chk561 v1809) := fun v1809 => decidable_of_iff' _ (Iff.of_eq (k0_chk561.eq_1 v1809))
theorem k0_idx561_inb : ∀ (v1809 : IVec S16 32) (k0_hw561 : k0_chk561 v1809), ∀ a x, ((![v1809] : Fin 1 → IVec S16 32) a x).toNat < S28672.size a := fun v1809 k0_hw561 => k0_hw561

def k0_chk562 (v1811 : IVec S16 32) : Prop :=
  (∀ a x, ((![v1811] : Fin 1 → IVec S16 32) a x).toNat < S28672.size a)
instance k0_chk562.dec : ∀ (v1811 : IVec S16 32), Decidable (k0_chk562 v1811) := fun v1811 => decidable_of_iff' _ (Iff.of_eq (k0_chk562.eq_1 v1811))
theorem k0_idx562_inb : ∀ (v1811 : IVec S16 32) (k0_hw562 : k0_chk562 v1811), ∀ a x, ((![v1811] : Fin 1 → IVec S16 32) a x).toNat < S28672.size a := fun v1811 k0_hw562 => k0_hw562

def k0_chk563 (v1813 : IVec S16 32) : Prop :=
  (∀ a x, ((![v1813] : Fin 1 → IVec S16 32) a x).toNat < S28672.size a)
instance k0_chk563.dec : ∀ (v1813 : IVec S16 32), Decidable (k0_chk563 v1813) := fun v1813 => decidable_of_iff' _ (Iff.of_eq (k0_chk563.eq_1 v1813))
theorem k0_idx563_inb : ∀ (v1813 : IVec S16 32) (k0_hw563 : k0_chk563 v1813), ∀ a x, ((![v1813] : Fin 1 → IVec S16 32) a x).toNat < S28672.size a := fun v1813 k0_hw563 => k0_hw563

def k0_chk564 (v1815 : IVec S16 32) : Prop :=
  (∀ a x, ((![v1815] : Fin 1 → IVec S16 32) a x).toNat < S28672.size a)
instance k0_chk564.dec : ∀ (v1815 : IVec S16 32), Decidable (k0_chk564 v1815) := fun v1815 => decidable_of_iff' _ (Iff.of_eq (k0_chk564.eq_1 v1815))
theorem k0_idx564_inb : ∀ (v1815 : IVec S16 32) (k0_hw564 : k0_chk564 v1815), ∀ a x, ((![v1815] : Fin 1 → IVec S16 32) a x).toNat < S28672.size a := fun v1815 k0_hw564 => k0_hw564

def k0_chk565 (v1817 : IVec S16 32) : Prop :=
  (∀ a x, ((![v1817] : Fin 1 → IVec S16 32) a x).toNat < S28672.size a)
instance k0_chk565.dec : ∀ (v1817 : IVec S16 32), Decidable (k0_chk565 v1817) := fun v1817 => decidable_of_iff' _ (Iff.of_eq (k0_chk565.eq_1 v1817))
theorem k0_idx565_inb : ∀ (v1817 : IVec S16 32) (k0_hw565 : k0_chk565 v1817), ∀ a x, ((![v1817] : Fin 1 → IVec S16 32) a x).toNat < S28672.size a := fun v1817 k0_hw565 => k0_hw565

def k0_chk566 (v1819 : IVec S16 32) : Prop :=
  (∀ a x, ((![v1819] : Fin 1 → IVec S16 32) a x).toNat < S28672.size a)
instance k0_chk566.dec : ∀ (v1819 : IVec S16 32), Decidable (k0_chk566 v1819) := fun v1819 => decidable_of_iff' _ (Iff.of_eq (k0_chk566.eq_1 v1819))
theorem k0_idx566_inb : ∀ (v1819 : IVec S16 32) (k0_hw566 : k0_chk566 v1819), ∀ a x, ((![v1819] : Fin 1 → IVec S16 32) a x).toNat < S28672.size a := fun v1819 k0_hw566 => k0_hw566

def k0_chk567 (v1821 : IVec S16 32) : Prop :=
  (∀ a x, ((![v1821] : Fin 1 → IVec S16 32) a x).toNat < S28672.size a)
instance k0_chk567.dec : ∀ (v1821 : IVec S16 32), Decidable (k0_chk567 v1821) := fun v1821 => decidable_of_iff' _ (Iff.of_eq (k0_chk567.eq_1 v1821))
theorem k0_idx567_inb : ∀ (v1821 : IVec S16 32) (k0_hw567 : k0_chk567 v1821), ∀ a x, ((![v1821] : Fin 1 → IVec S16 32) a x).toNat < S28672.size a := fun v1821 k0_hw567 => k0_hw567

def k0_chk568 (v1838 : IVec S16 32) : Prop :=
  (∀ a x, ((![v1838] : Fin 1 → IVec S16 32) a x).toNat < S10240.size a)
instance k0_chk568.dec : ∀ (v1838 : IVec S16 32), Decidable (k0_chk568 v1838) := fun v1838 => decidable_of_iff' _ (Iff.of_eq (k0_chk568.eq_1 v1838))
theorem k0_idx568_inb : ∀ (v1838 : IVec S16 32) (k0_hw568 : k0_chk568 v1838), ∀ a x, ((![v1838] : Fin 1 → IVec S16 32) a x).toNat < S10240.size a := fun v1838 k0_hw568 => k0_hw568

def k0_chk569 (v1089 : IVec S16 32) : Prop :=
  (∀ a x, ((![v1089] : Fin 1 → IVec S16 32) a x).toNat < S4480.size a)
instance k0_chk569.dec : ∀ (v1089 : IVec S16 32), Decidable (k0_chk569 v1089) := fun v1089 => decidable_of_iff' _ (Iff.of_eq (k0_chk569.eq_1 v1089))
theorem k0_idx569_inb : ∀ (v1089 : IVec S16 32) (k0_hw569 : k0_chk569 v1089), ∀ a x, ((![v1089] : Fin 1 → IVec S16 32) a x).toNat < S4480.size a := fun v1089 k0_hw569 => k0_hw569

def k0_chk570 (v1092 : IVec S16 32) : Prop :=
  (∀ a x, ((![v1092] : Fin 1 → IVec S16 32) a x).toNat < S4480.size a)
instance k0_chk570.dec : ∀ (v1092 : IVec S16 32), Decidable (k0_chk570 v1092) := fun v1092 => decidable_of_iff' _ (Iff.of_eq (k0_chk570.eq_1 v1092))
theorem k0_idx570_inb : ∀ (v1092 : IVec S16 32) (k0_hw570 : k0_chk570 v1092), ∀ a x, ((![v1092] : Fin 1 → IVec S16 32) a x).toNat < S4480.size a := fun v1092 k0_hw570 => k0_hw570

def k0_chk571 (v1098 : IVec S16 32) : Prop :=
  (∀ a x, ((![v1098] : Fin 1 → IVec S16 32) a x).toNat < S4480.size a)
instance k0_chk571.dec : ∀ (v1098 : IVec S16 32), Decidable (k0_chk571 v1098) := fun v1098 => decidable_of_iff' _ (Iff.of_eq (k0_chk571.eq_1 v1098))
theorem k0_idx571_inb : ∀ (v1098 : IVec S16 32) (k0_hw571 : k0_chk571 v1098), ∀ a x, ((![v1098] : Fin 1 → IVec S16 32) a x).toNat < S4480.size a := fun v1098 k0_hw571 => k0_hw571

def k0_chk572 (v1104 : IVec S16 32) : Prop :=
  (∀ a x, ((![v1104] : Fin 1 → IVec S16 32) a x).toNat < S4480.size a)
instance k0_chk572.dec : ∀ (v1104 : IVec S16 32), Decidable (k0_chk572 v1104) := fun v1104 => decidable_of_iff' _ (Iff.of_eq (k0_chk572.eq_1 v1104))
theorem k0_idx572_inb : ∀ (v1104 : IVec S16 32) (k0_hw572 : k0_chk572 v1104), ∀ a x, ((![v1104] : Fin 1 → IVec S16 32) a x).toNat < S4480.size a := fun v1104 k0_hw572 => k0_hw572

def k0_chk573 (v1114 : IVec S16 32) : Prop :=
  (∀ a x, ((![v1114] : Fin 1 → IVec S16 32) a x).toNat < S4480.size a)
instance k0_chk573.dec : ∀ (v1114 : IVec S16 32), Decidable (k0_chk573 v1114) := fun v1114 => decidable_of_iff' _ (Iff.of_eq (k0_chk573.eq_1 v1114))
theorem k0_idx573_inb : ∀ (v1114 : IVec S16 32) (k0_hw573 : k0_chk573 v1114), ∀ a x, ((![v1114] : Fin 1 → IVec S16 32) a x).toNat < S4480.size a := fun v1114 k0_hw573 => k0_hw573

def k0_chk574 (v1117 : IVec S16 32) : Prop :=
  (∀ a x, ((![v1117] : Fin 1 → IVec S16 32) a x).toNat < S4480.size a)
instance k0_chk574.dec : ∀ (v1117 : IVec S16 32), Decidable (k0_chk574 v1117) := fun v1117 => decidable_of_iff' _ (Iff.of_eq (k0_chk574.eq_1 v1117))
theorem k0_idx574_inb : ∀ (v1117 : IVec S16 32) (k0_hw574 : k0_chk574 v1117), ∀ a x, ((![v1117] : Fin 1 → IVec S16 32) a x).toNat < S4480.size a := fun v1117 k0_hw574 => k0_hw574

def k0_chk575 (v1123 : IVec S16 32) : Prop :=
  (∀ a x, ((![v1123] : Fin 1 → IVec S16 32) a x).toNat < S4480.size a)
instance k0_chk575.dec : ∀ (v1123 : IVec S16 32), Decidable (k0_chk575 v1123) := fun v1123 => decidable_of_iff' _ (Iff.of_eq (k0_chk575.eq_1 v1123))
theorem k0_idx575_inb : ∀ (v1123 : IVec S16 32) (k0_hw575 : k0_chk575 v1123), ∀ a x, ((![v1123] : Fin 1 → IVec S16 32) a x).toNat < S4480.size a := fun v1123 k0_hw575 => k0_hw575

def k0_chk576 (v1129 : IVec S16 32) : Prop :=
  (∀ a x, ((![v1129] : Fin 1 → IVec S16 32) a x).toNat < S4480.size a)
instance k0_chk576.dec : ∀ (v1129 : IVec S16 32), Decidable (k0_chk576 v1129) := fun v1129 => decidable_of_iff' _ (Iff.of_eq (k0_chk576.eq_1 v1129))
theorem k0_idx576_inb : ∀ (v1129 : IVec S16 32) (k0_hw576 : k0_chk576 v1129), ∀ a x, ((![v1129] : Fin 1 → IVec S16 32) a x).toNat < S4480.size a := fun v1129 k0_hw576 => k0_hw576

def k0_chk577 (v1139 : IVec S16 32) : Prop :=
  (∀ a x, ((![v1139] : Fin 1 → IVec S16 32) a x).toNat < S4480.size a)
instance k0_chk577.dec : ∀ (v1139 : IVec S16 32), Decidable (k0_chk577 v1139) := fun v1139 => decidable_of_iff' _ (Iff.of_eq (k0_chk577.eq_1 v1139))
theorem k0_idx577_inb : ∀ (v1139 : IVec S16 32) (k0_hw577 : k0_chk577 v1139), ∀ a x, ((![v1139] : Fin 1 → IVec S16 32) a x).toNat < S4480.size a := fun v1139 k0_hw577 => k0_hw577

def k0_chk578 (v1142 : IVec S16 32) : Prop :=
  (∀ a x, ((![v1142] : Fin 1 → IVec S16 32) a x).toNat < S4480.size a)
instance k0_chk578.dec : ∀ (v1142 : IVec S16 32), Decidable (k0_chk578 v1142) := fun v1142 => decidable_of_iff' _ (Iff.of_eq (k0_chk578.eq_1 v1142))
theorem k0_idx578_inb : ∀ (v1142 : IVec S16 32) (k0_hw578 : k0_chk578 v1142), ∀ a x, ((![v1142] : Fin 1 → IVec S16 32) a x).toNat < S4480.size a := fun v1142 k0_hw578 => k0_hw578

def k0_chk579 (v1148 : IVec S16 32) : Prop :=
  (∀ a x, ((![v1148] : Fin 1 → IVec S16 32) a x).toNat < S4480.size a)
instance k0_chk579.dec : ∀ (v1148 : IVec S16 32), Decidable (k0_chk579 v1148) := fun v1148 => decidable_of_iff' _ (Iff.of_eq (k0_chk579.eq_1 v1148))
theorem k0_idx579_inb : ∀ (v1148 : IVec S16 32) (k0_hw579 : k0_chk579 v1148), ∀ a x, ((![v1148] : Fin 1 → IVec S16 32) a x).toNat < S4480.size a := fun v1148 k0_hw579 => k0_hw579

def k0_chk580 (v1154 : IVec S16 32) : Prop :=
  (∀ a x, ((![v1154] : Fin 1 → IVec S16 32) a x).toNat < S4480.size a)
instance k0_chk580.dec : ∀ (v1154 : IVec S16 32), Decidable (k0_chk580 v1154) := fun v1154 => decidable_of_iff' _ (Iff.of_eq (k0_chk580.eq_1 v1154))
theorem k0_idx580_inb : ∀ (v1154 : IVec S16 32) (k0_hw580 : k0_chk580 v1154), ∀ a x, ((![v1154] : Fin 1 → IVec S16 32) a x).toNat < S4480.size a := fun v1154 k0_hw580 => k0_hw580

def k0_chk581 (v1164 : IVec S16 32) : Prop :=
  (∀ a x, ((![v1164] : Fin 1 → IVec S16 32) a x).toNat < S4480.size a)
instance k0_chk581.dec : ∀ (v1164 : IVec S16 32), Decidable (k0_chk581 v1164) := fun v1164 => decidable_of_iff' _ (Iff.of_eq (k0_chk581.eq_1 v1164))
theorem k0_idx581_inb : ∀ (v1164 : IVec S16 32) (k0_hw581 : k0_chk581 v1164), ∀ a x, ((![v1164] : Fin 1 → IVec S16 32) a x).toNat < S4480.size a := fun v1164 k0_hw581 => k0_hw581

def k0_chk582 (v1167 : IVec S16 32) : Prop :=
  (∀ a x, ((![v1167] : Fin 1 → IVec S16 32) a x).toNat < S4480.size a)
instance k0_chk582.dec : ∀ (v1167 : IVec S16 32), Decidable (k0_chk582 v1167) := fun v1167 => decidable_of_iff' _ (Iff.of_eq (k0_chk582.eq_1 v1167))
theorem k0_idx582_inb : ∀ (v1167 : IVec S16 32) (k0_hw582 : k0_chk582 v1167), ∀ a x, ((![v1167] : Fin 1 → IVec S16 32) a x).toNat < S4480.size a := fun v1167 k0_hw582 => k0_hw582

def k0_chk583 (v1173 : IVec S16 32) : Prop :=
  (∀ a x, ((![v1173] : Fin 1 → IVec S16 32) a x).toNat < S4480.size a)
instance k0_chk583.dec : ∀ (v1173 : IVec S16 32), Decidable (k0_chk583 v1173) := fun v1173 => decidable_of_iff' _ (Iff.of_eq (k0_chk583.eq_1 v1173))
theorem k0_idx583_inb : ∀ (v1173 : IVec S16 32) (k0_hw583 : k0_chk583 v1173), ∀ a x, ((![v1173] : Fin 1 → IVec S16 32) a x).toNat < S4480.size a := fun v1173 k0_hw583 => k0_hw583

def k0_chk584 (v1179 : IVec S16 32) : Prop :=
  (∀ a x, ((![v1179] : Fin 1 → IVec S16 32) a x).toNat < S4480.size a)
instance k0_chk584.dec : ∀ (v1179 : IVec S16 32), Decidable (k0_chk584 v1179) := fun v1179 => decidable_of_iff' _ (Iff.of_eq (k0_chk584.eq_1 v1179))
theorem k0_idx584_inb : ∀ (v1179 : IVec S16 32) (k0_hw584 : k0_chk584 v1179), ∀ a x, ((![v1179] : Fin 1 → IVec S16 32) a x).toNat < S4480.size a := fun v1179 k0_hw584 => k0_hw584

def k0_chk585 (v1189 : IVec S16 32) : Prop :=
  (∀ a x, ((![v1189] : Fin 1 → IVec S16 32) a x).toNat < S4480.size a)
instance k0_chk585.dec : ∀ (v1189 : IVec S16 32), Decidable (k0_chk585 v1189) := fun v1189 => decidable_of_iff' _ (Iff.of_eq (k0_chk585.eq_1 v1189))
theorem k0_idx585_inb : ∀ (v1189 : IVec S16 32) (k0_hw585 : k0_chk585 v1189), ∀ a x, ((![v1189] : Fin 1 → IVec S16 32) a x).toNat < S4480.size a := fun v1189 k0_hw585 => k0_hw585

def k0_chk586 (v1192 : IVec S16 32) : Prop :=
  (∀ a x, ((![v1192] : Fin 1 → IVec S16 32) a x).toNat < S4480.size a)
instance k0_chk586.dec : ∀ (v1192 : IVec S16 32), Decidable (k0_chk586 v1192) := fun v1192 => decidable_of_iff' _ (Iff.of_eq (k0_chk586.eq_1 v1192))
theorem k0_idx586_inb : ∀ (v1192 : IVec S16 32) (k0_hw586 : k0_chk586 v1192), ∀ a x, ((![v1192] : Fin 1 → IVec S16 32) a x).toNat < S4480.size a := fun v1192 k0_hw586 => k0_hw586

def k0_chk587 (v1198 : IVec S16 32) : Prop :=
  (∀ a x, ((![v1198] : Fin 1 → IVec S16 32) a x).toNat < S4480.size a)
instance k0_chk587.dec : ∀ (v1198 : IVec S16 32), Decidable (k0_chk587 v1198) := fun v1198 => decidable_of_iff' _ (Iff.of_eq (k0_chk587.eq_1 v1198))
theorem k0_idx587_inb : ∀ (v1198 : IVec S16 32) (k0_hw587 : k0_chk587 v1198), ∀ a x, ((![v1198] : Fin 1 → IVec S16 32) a x).toNat < S4480.size a := fun v1198 k0_hw587 => k0_hw587

def k0_chk588 (v1204 : IVec S16 32) : Prop :=
  (∀ a x, ((![v1204] : Fin 1 → IVec S16 32) a x).toNat < S4480.size a)
instance k0_chk588.dec : ∀ (v1204 : IVec S16 32), Decidable (k0_chk588 v1204) := fun v1204 => decidable_of_iff' _ (Iff.of_eq (k0_chk588.eq_1 v1204))
theorem k0_idx588_inb : ∀ (v1204 : IVec S16 32) (k0_hw588 : k0_chk588 v1204), ∀ a x, ((![v1204] : Fin 1 → IVec S16 32) a x).toNat < S4480.size a := fun v1204 k0_hw588 => k0_hw588

def k0_chk589 (v1214 : IVec S16 32) : Prop :=
  (∀ a x, ((![v1214] : Fin 1 → IVec S16 32) a x).toNat < S4480.size a)
instance k0_chk589.dec : ∀ (v1214 : IVec S16 32), Decidable (k0_chk589 v1214) := fun v1214 => decidable_of_iff' _ (Iff.of_eq (k0_chk589.eq_1 v1214))
theorem k0_idx589_inb : ∀ (v1214 : IVec S16 32) (k0_hw589 : k0_chk589 v1214), ∀ a x, ((![v1214] : Fin 1 → IVec S16 32) a x).toNat < S4480.size a := fun v1214 k0_hw589 => k0_hw589

def k0_chk590 (v1217 : IVec S16 32) : Prop :=
  (∀ a x, ((![v1217] : Fin 1 → IVec S16 32) a x).toNat < S4480.size a)
instance k0_chk590.dec : ∀ (v1217 : IVec S16 32), Decidable (k0_chk590 v1217) := fun v1217 => decidable_of_iff' _ (Iff.of_eq (k0_chk590.eq_1 v1217))
theorem k0_idx590_inb : ∀ (v1217 : IVec S16 32) (k0_hw590 : k0_chk590 v1217), ∀ a x, ((![v1217] : Fin 1 → IVec S16 32) a x).toNat < S4480.size a := fun v1217 k0_hw590 => k0_hw590

def k0_chk591 (v1223 : IVec S16 32) : Prop :=
  (∀ a x, ((![v1223] : Fin 1 → IVec S16 32) a x).toNat < S4480.size a)
instance k0_chk591.dec : ∀ (v1223 : IVec S16 32), Decidable (k0_chk591 v1223) := fun v1223 => decidable_of_iff' _ (Iff.of_eq (k0_chk591.eq_1 v1223))
theorem k0_idx591_inb : ∀ (v1223 : IVec S16 32) (k0_hw591 : k0_chk591 v1223), ∀ a x, ((![v1223] : Fin 1 → IVec S16 32) a x).toNat < S4480.size a := fun v1223 k0_hw591 => k0_hw591

def k0_chk592 (v1229 : IVec S16 32) : Prop :=
  (∀ a x, ((![v1229] : Fin 1 → IVec S16 32) a x).toNat < S4480.size a)
instance k0_chk592.dec : ∀ (v1229 : IVec S16 32), Decidable (k0_chk592 v1229) := fun v1229 => decidable_of_iff' _ (Iff.of_eq (k0_chk592.eq_1 v1229))
theorem k0_idx592_inb : ∀ (v1229 : IVec S16 32) (k0_hw592 : k0_chk592 v1229), ∀ a x, ((![v1229] : Fin 1 → IVec S16 32) a x).toNat < S4480.size a := fun v1229 k0_hw592 => k0_hw592

def k0_chk593 (v1239 : IVec S16 32) : Prop :=
  (∀ a x, ((![v1239] : Fin 1 → IVec S16 32) a x).toNat < S4480.size a)
instance k0_chk593.dec : ∀ (v1239 : IVec S16 32), Decidable (k0_chk593 v1239) := fun v1239 => decidable_of_iff' _ (Iff.of_eq (k0_chk593.eq_1 v1239))
theorem k0_idx593_inb : ∀ (v1239 : IVec S16 32) (k0_hw593 : k0_chk593 v1239), ∀ a x, ((![v1239] : Fin 1 → IVec S16 32) a x).toNat < S4480.size a := fun v1239 k0_hw593 => k0_hw593

def k0_chk594 (v1242 : IVec S16 32) : Prop :=
  (∀ a x, ((![v1242] : Fin 1 → IVec S16 32) a x).toNat < S4480.size a)
instance k0_chk594.dec : ∀ (v1242 : IVec S16 32), Decidable (k0_chk594 v1242) := fun v1242 => decidable_of_iff' _ (Iff.of_eq (k0_chk594.eq_1 v1242))
theorem k0_idx594_inb : ∀ (v1242 : IVec S16 32) (k0_hw594 : k0_chk594 v1242), ∀ a x, ((![v1242] : Fin 1 → IVec S16 32) a x).toNat < S4480.size a := fun v1242 k0_hw594 => k0_hw594

def k0_chk595 (v1248 : IVec S16 32) : Prop :=
  (∀ a x, ((![v1248] : Fin 1 → IVec S16 32) a x).toNat < S4480.size a)
instance k0_chk595.dec : ∀ (v1248 : IVec S16 32), Decidable (k0_chk595 v1248) := fun v1248 => decidable_of_iff' _ (Iff.of_eq (k0_chk595.eq_1 v1248))
theorem k0_idx595_inb : ∀ (v1248 : IVec S16 32) (k0_hw595 : k0_chk595 v1248), ∀ a x, ((![v1248] : Fin 1 → IVec S16 32) a x).toNat < S4480.size a := fun v1248 k0_hw595 => k0_hw595

def k0_chk596 (v1254 : IVec S16 32) : Prop :=
  (∀ a x, ((![v1254] : Fin 1 → IVec S16 32) a x).toNat < S4480.size a)
instance k0_chk596.dec : ∀ (v1254 : IVec S16 32), Decidable (k0_chk596 v1254) := fun v1254 => decidable_of_iff' _ (Iff.of_eq (k0_chk596.eq_1 v1254))
theorem k0_idx596_inb : ∀ (v1254 : IVec S16 32) (k0_hw596 : k0_chk596 v1254), ∀ a x, ((![v1254] : Fin 1 → IVec S16 32) a x).toNat < S4480.size a := fun v1254 k0_hw596 => k0_hw596

def k0_chk597 (v1264 : IVec S16 32) : Prop :=
  (∀ a x, ((![v1264] : Fin 1 → IVec S16 32) a x).toNat < S4480.size a)
instance k0_chk597.dec : ∀ (v1264 : IVec S16 32), Decidable (k0_chk597 v1264) := fun v1264 => decidable_of_iff' _ (Iff.of_eq (k0_chk597.eq_1 v1264))
theorem k0_idx597_inb : ∀ (v1264 : IVec S16 32) (k0_hw597 : k0_chk597 v1264), ∀ a x, ((![v1264] : Fin 1 → IVec S16 32) a x).toNat < S4480.size a := fun v1264 k0_hw597 => k0_hw597

def k0_chk598 (v1267 : IVec S16 32) : Prop :=
  (∀ a x, ((![v1267] : Fin 1 → IVec S16 32) a x).toNat < S4480.size a)
instance k0_chk598.dec : ∀ (v1267 : IVec S16 32), Decidable (k0_chk598 v1267) := fun v1267 => decidable_of_iff' _ (Iff.of_eq (k0_chk598.eq_1 v1267))
theorem k0_idx598_inb : ∀ (v1267 : IVec S16 32) (k0_hw598 : k0_chk598 v1267), ∀ a x, ((![v1267] : Fin 1 → IVec S16 32) a x).toNat < S4480.size a := fun v1267 k0_hw598 => k0_hw598

def k0_chk599 (v1273 : IVec S16 32) : Prop :=
  (∀ a x, ((![v1273] : Fin 1 → IVec S16 32) a x).toNat < S4480.size a)
instance k0_chk599.dec : ∀ (v1273 : IVec S16 32), Decidable (k0_chk599 v1273) := fun v1273 => decidable_of_iff' _ (Iff.of_eq (k0_chk599.eq_1 v1273))
theorem k0_idx599_inb : ∀ (v1273 : IVec S16 32) (k0_hw599 : k0_chk599 v1273), ∀ a x, ((![v1273] : Fin 1 → IVec S16 32) a x).toNat < S4480.size a := fun v1273 k0_hw599 => k0_hw599

def k0_chk600 (v1279 : IVec S16 32) : Prop :=
  (∀ a x, ((![v1279] : Fin 1 → IVec S16 32) a x).toNat < S4480.size a)
instance k0_chk600.dec : ∀ (v1279 : IVec S16 32), Decidable (k0_chk600 v1279) := fun v1279 => decidable_of_iff' _ (Iff.of_eq (k0_chk600.eq_1 v1279))
theorem k0_idx600_inb : ∀ (v1279 : IVec S16 32) (k0_hw600 : k0_chk600 v1279), ∀ a x, ((![v1279] : Fin 1 → IVec S16 32) a x).toNat < S4480.size a := fun v1279 k0_hw600 => k0_hw600

def k0_chk601 (v1289 : IVec S16 32) : Prop :=
  (∀ a x, ((![v1289] : Fin 1 → IVec S16 32) a x).toNat < S4480.size a)
instance k0_chk601.dec : ∀ (v1289 : IVec S16 32), Decidable (k0_chk601 v1289) := fun v1289 => decidable_of_iff' _ (Iff.of_eq (k0_chk601.eq_1 v1289))
theorem k0_idx601_inb : ∀ (v1289 : IVec S16 32) (k0_hw601 : k0_chk601 v1289), ∀ a x, ((![v1289] : Fin 1 → IVec S16 32) a x).toNat < S4480.size a := fun v1289 k0_hw601 => k0_hw601

def k0_chk602 (v1292 : IVec S16 32) : Prop :=
  (∀ a x, ((![v1292] : Fin 1 → IVec S16 32) a x).toNat < S4480.size a)
instance k0_chk602.dec : ∀ (v1292 : IVec S16 32), Decidable (k0_chk602 v1292) := fun v1292 => decidable_of_iff' _ (Iff.of_eq (k0_chk602.eq_1 v1292))
theorem k0_idx602_inb : ∀ (v1292 : IVec S16 32) (k0_hw602 : k0_chk602 v1292), ∀ a x, ((![v1292] : Fin 1 → IVec S16 32) a x).toNat < S4480.size a := fun v1292 k0_hw602 => k0_hw602

def k0_chk603 (v1298 : IVec S16 32) : Prop :=
  (∀ a x, ((![v1298] : Fin 1 → IVec S16 32) a x).toNat < S4480.size a)
instance k0_chk603.dec : ∀ (v1298 : IVec S16 32), Decidable (k0_chk603 v1298) := fun v1298 => decidable_of_iff' _ (Iff.of_eq (k0_chk603.eq_1 v1298))
theorem k0_idx603_inb : ∀ (v1298 : IVec S16 32) (k0_hw603 : k0_chk603 v1298), ∀ a x, ((![v1298] : Fin 1 → IVec S16 32) a x).toNat < S4480.size a := fun v1298 k0_hw603 => k0_hw603

def k0_chk604 (v1304 : IVec S16 32) : Prop :=
  (∀ a x, ((![v1304] : Fin 1 → IVec S16 32) a x).toNat < S4480.size a)
instance k0_chk604.dec : ∀ (v1304 : IVec S16 32), Decidable (k0_chk604 v1304) := fun v1304 => decidable_of_iff' _ (Iff.of_eq (k0_chk604.eq_1 v1304))
theorem k0_idx604_inb : ∀ (v1304 : IVec S16 32) (k0_hw604 : k0_chk604 v1304), ∀ a x, ((![v1304] : Fin 1 → IVec S16 32) a x).toNat < S4480.size a := fun v1304 k0_hw604 => k0_hw604

def k0_chk605 (v1314 : IVec S16 32) : Prop :=
  (∀ a x, ((![v1314] : Fin 1 → IVec S16 32) a x).toNat < S4480.size a)
instance k0_chk605.dec : ∀ (v1314 : IVec S16 32), Decidable (k0_chk605 v1314) := fun v1314 => decidable_of_iff' _ (Iff.of_eq (k0_chk605.eq_1 v1314))
theorem k0_idx605_inb : ∀ (v1314 : IVec S16 32) (k0_hw605 : k0_chk605 v1314), ∀ a x, ((![v1314] : Fin 1 → IVec S16 32) a x).toNat < S4480.size a := fun v1314 k0_hw605 => k0_hw605

def k0_chk606 (v1317 : IVec S16 32) : Prop :=
  (∀ a x, ((![v1317] : Fin 1 → IVec S16 32) a x).toNat < S4480.size a)
instance k0_chk606.dec : ∀ (v1317 : IVec S16 32), Decidable (k0_chk606 v1317) := fun v1317 => decidable_of_iff' _ (Iff.of_eq (k0_chk606.eq_1 v1317))
theorem k0_idx606_inb : ∀ (v1317 : IVec S16 32) (k0_hw606 : k0_chk606 v1317), ∀ a x, ((![v1317] : Fin 1 → IVec S16 32) a x).toNat < S4480.size a := fun v1317 k0_hw606 => k0_hw606

def k0_chk607 (v1323 : IVec S16 32) : Prop :=
  (∀ a x, ((![v1323] : Fin 1 → IVec S16 32) a x).toNat < S4480.size a)
instance k0_chk607.dec : ∀ (v1323 : IVec S16 32), Decidable (k0_chk607 v1323) := fun v1323 => decidable_of_iff' _ (Iff.of_eq (k0_chk607.eq_1 v1323))
theorem k0_idx607_inb : ∀ (v1323 : IVec S16 32) (k0_hw607 : k0_chk607 v1323), ∀ a x, ((![v1323] : Fin 1 → IVec S16 32) a x).toNat < S4480.size a := fun v1323 k0_hw607 => k0_hw607

def k0_chk608 (v1329 : IVec S16 32) : Prop :=
  (∀ a x, ((![v1329] : Fin 1 → IVec S16 32) a x).toNat < S4480.size a)
instance k0_chk608.dec : ∀ (v1329 : IVec S16 32), Decidable (k0_chk608 v1329) := fun v1329 => decidable_of_iff' _ (Iff.of_eq (k0_chk608.eq_1 v1329))
theorem k0_idx608_inb : ∀ (v1329 : IVec S16 32) (k0_hw608 : k0_chk608 v1329), ∀ a x, ((![v1329] : Fin 1 → IVec S16 32) a x).toNat < S4480.size a := fun v1329 k0_hw608 => k0_hw608

def k0_chk609 (v1339 : IVec S16 32) : Prop :=
  (∀ a x, ((![v1339] : Fin 1 → IVec S16 32) a x).toNat < S4480.size a)
instance k0_chk609.dec : ∀ (v1339 : IVec S16 32), Decidable (k0_chk609 v1339) := fun v1339 => decidable_of_iff' _ (Iff.of_eq (k0_chk609.eq_1 v1339))
theorem k0_idx609_inb : ∀ (v1339 : IVec S16 32) (k0_hw609 : k0_chk609 v1339), ∀ a x, ((![v1339] : Fin 1 → IVec S16 32) a x).toNat < S4480.size a := fun v1339 k0_hw609 => k0_hw609

def k0_chk610 (v1342 : IVec S16 32) : Prop :=
  (∀ a x, ((![v1342] : Fin 1 → IVec S16 32) a x).toNat < S4480.size a)
instance k0_chk610.dec : ∀ (v1342 : IVec S16 32), Decidable (k0_chk610 v1342) := fun v1342 => decidable_of_iff' _ (Iff.of_eq (k0_chk610.eq_1 v1342))
theorem k0_idx610_inb : ∀ (v1342 : IVec S16 32) (k0_hw610 : k0_chk610 v1342), ∀ a x, ((![v1342] : Fin 1 → IVec S16 32) a x).toNat < S4480.size a := fun v1342 k0_hw610 => k0_hw610

def k0_chk611 (v1348 : IVec S16 32) : Prop :=
  (∀ a x, ((![v1348] : Fin 1 → IVec S16 32) a x).toNat < S4480.size a)
instance k0_chk611.dec : ∀ (v1348 : IVec S16 32), Decidable (k0_chk611 v1348) := fun v1348 => decidable_of_iff' _ (Iff.of_eq (k0_chk611.eq_1 v1348))
theorem k0_idx611_inb : ∀ (v1348 : IVec S16 32) (k0_hw611 : k0_chk611 v1348), ∀ a x, ((![v1348] : Fin 1 → IVec S16 32) a x).toNat < S4480.size a := fun v1348 k0_hw611 => k0_hw611

def k0_chk612 (v1354 : IVec S16 32) : Prop :=
  (∀ a x, ((![v1354] : Fin 1 → IVec S16 32) a x).toNat < S4480.size a)
instance k0_chk612.dec : ∀ (v1354 : IVec S16 32), Decidable (k0_chk612 v1354) := fun v1354 => decidable_of_iff' _ (Iff.of_eq (k0_chk612.eq_1 v1354))
theorem k0_idx612_inb : ∀ (v1354 : IVec S16 32) (k0_hw612 : k0_chk612 v1354), ∀ a x, ((![v1354] : Fin 1 → IVec S16 32) a x).toNat < S4480.size a := fun v1354 k0_hw612 => k0_hw612

def k0_chk613 (v1364 : IVec S16 32) : Prop :=
  (∀ a x, ((![v1364] : Fin 1 → IVec S16 32) a x).toNat < S4480.size a)
instance k0_chk613.dec : ∀ (v1364 : IVec S16 32), Decidable (k0_chk613 v1364) := fun v1364 => decidable_of_iff' _ (Iff.of_eq (k0_chk613.eq_1 v1364))
theorem k0_idx613_inb : ∀ (v1364 : IVec S16 32) (k0_hw613 : k0_chk613 v1364), ∀ a x, ((![v1364] : Fin 1 → IVec S16 32) a x).toNat < S4480.size a := fun v1364 k0_hw613 => k0_hw613

def k0_chk614 (v1367 : IVec S16 32) : Prop :=
  (∀ a x, ((![v1367] : Fin 1 → IVec S16 32) a x).toNat < S4480.size a)
instance k0_chk614.dec : ∀ (v1367 : IVec S16 32), Decidable (k0_chk614 v1367) := fun v1367 => decidable_of_iff' _ (Iff.of_eq (k0_chk614.eq_1 v1367))
theorem k0_idx614_inb : ∀ (v1367 : IVec S16 32) (k0_hw614 : k0_chk614 v1367), ∀ a x, ((![v1367] : Fin 1 → IVec S16 32) a x).toNat < S4480.size a := fun v1367 k0_hw614 => k0_hw614

def k0_chk615 (v1373 : IVec S16 32) : Prop :=
  (∀ a x, ((![v1373] : Fin 1 → IVec S16 32) a x).toNat < S4480.size a)
instance k0_chk615.dec : ∀ (v1373 : IVec S16 32), Decidable (k0_chk615 v1373) := fun v1373 => decidable_of_iff' _ (Iff.of_eq (k0_chk615.eq_1 v1373))
theorem k0_idx615_inb : ∀ (v1373 : IVec S16 32) (k0_hw615 : k0_chk615 v1373), ∀ a x, ((![v1373] : Fin 1 → IVec S16 32) a x).toNat < S4480.size a := fun v1373 k0_hw615 => k0_hw615

def k0_chk616 (v1379 : IVec S16 32) : Prop :=
  (∀ a x, ((![v1379] : Fin 1 → IVec S16 32) a x).toNat < S4480.size a)
instance k0_chk616.dec : ∀ (v1379 : IVec S16 32), Decidable (k0_chk616 v1379) := fun v1379 => decidable_of_iff' _ (Iff.of_eq (k0_chk616.eq_1 v1379))
theorem k0_idx616_inb : ∀ (v1379 : IVec S16 32) (k0_hw616 : k0_chk616 v1379), ∀ a x, ((![v1379] : Fin 1 → IVec S16 32) a x).toNat < S4480.size a := fun v1379 k0_hw616 => k0_hw616

def k0_chk617 (v1389 : IVec S16 32) : Prop :=
  (∀ a x, ((![v1389] : Fin 1 → IVec S16 32) a x).toNat < S4480.size a)
instance k0_chk617.dec : ∀ (v1389 : IVec S16 32), Decidable (k0_chk617 v1389) := fun v1389 => decidable_of_iff' _ (Iff.of_eq (k0_chk617.eq_1 v1389))
theorem k0_idx617_inb : ∀ (v1389 : IVec S16 32) (k0_hw617 : k0_chk617 v1389), ∀ a x, ((![v1389] : Fin 1 → IVec S16 32) a x).toNat < S4480.size a := fun v1389 k0_hw617 => k0_hw617

def k0_chk618 (v1392 : IVec S16 32) : Prop :=
  (∀ a x, ((![v1392] : Fin 1 → IVec S16 32) a x).toNat < S4480.size a)
instance k0_chk618.dec : ∀ (v1392 : IVec S16 32), Decidable (k0_chk618 v1392) := fun v1392 => decidable_of_iff' _ (Iff.of_eq (k0_chk618.eq_1 v1392))
theorem k0_idx618_inb : ∀ (v1392 : IVec S16 32) (k0_hw618 : k0_chk618 v1392), ∀ a x, ((![v1392] : Fin 1 → IVec S16 32) a x).toNat < S4480.size a := fun v1392 k0_hw618 => k0_hw618

def k0_chk619 (v1398 : IVec S16 32) : Prop :=
  (∀ a x, ((![v1398] : Fin 1 → IVec S16 32) a x).toNat < S4480.size a)
instance k0_chk619.dec : ∀ (v1398 : IVec S16 32), Decidable (k0_chk619 v1398) := fun v1398 => decidable_of_iff' _ (Iff.of_eq (k0_chk619.eq_1 v1398))
theorem k0_idx619_inb : ∀ (v1398 : IVec S16 32) (k0_hw619 : k0_chk619 v1398), ∀ a x, ((![v1398] : Fin 1 → IVec S16 32) a x).toNat < S4480.size a := fun v1398 k0_hw619 => k0_hw619

def k0_chk620 (v1404 : IVec S16 32) : Prop :=
  (∀ a x, ((![v1404] : Fin 1 → IVec S16 32) a x).toNat < S4480.size a)
instance k0_chk620.dec : ∀ (v1404 : IVec S16 32), Decidable (k0_chk620 v1404) := fun v1404 => decidable_of_iff' _ (Iff.of_eq (k0_chk620.eq_1 v1404))
theorem k0_idx620_inb : ∀ (v1404 : IVec S16 32) (k0_hw620 : k0_chk620 v1404), ∀ a x, ((![v1404] : Fin 1 → IVec S16 32) a x).toNat < S4480.size a := fun v1404 k0_hw620 => k0_hw620

def k0_chk621 (v1414 : IVec S16 32) : Prop :=
  (∀ a x, ((![v1414] : Fin 1 → IVec S16 32) a x).toNat < S4480.size a)
instance k0_chk621.dec : ∀ (v1414 : IVec S16 32), Decidable (k0_chk621 v1414) := fun v1414 => decidable_of_iff' _ (Iff.of_eq (k0_chk621.eq_1 v1414))
theorem k0_idx621_inb : ∀ (v1414 : IVec S16 32) (k0_hw621 : k0_chk621 v1414), ∀ a x, ((![v1414] : Fin 1 → IVec S16 32) a x).toNat < S4480.size a := fun v1414 k0_hw621 => k0_hw621

def k0_chk622 (v1417 : IVec S16 32) : Prop :=
  (∀ a x, ((![v1417] : Fin 1 → IVec S16 32) a x).toNat < S4480.size a)
instance k0_chk622.dec : ∀ (v1417 : IVec S16 32), Decidable (k0_chk622 v1417) := fun v1417 => decidable_of_iff' _ (Iff.of_eq (k0_chk622.eq_1 v1417))
theorem k0_idx622_inb : ∀ (v1417 : IVec S16 32) (k0_hw622 : k0_chk622 v1417), ∀ a x, ((![v1417] : Fin 1 → IVec S16 32) a x).toNat < S4480.size a := fun v1417 k0_hw622 => k0_hw622

def k0_chk623 (v1423 : IVec S16 32) : Prop :=
  (∀ a x, ((![v1423] : Fin 1 → IVec S16 32) a x).toNat < S4480.size a)
instance k0_chk623.dec : ∀ (v1423 : IVec S16 32), Decidable (k0_chk623 v1423) := fun v1423 => decidable_of_iff' _ (Iff.of_eq (k0_chk623.eq_1 v1423))
theorem k0_idx623_inb : ∀ (v1423 : IVec S16 32) (k0_hw623 : k0_chk623 v1423), ∀ a x, ((![v1423] : Fin 1 → IVec S16 32) a x).toNat < S4480.size a := fun v1423 k0_hw623 => k0_hw623

def k0_chk624 (v1429 : IVec S16 32) : Prop :=
  (∀ a x, ((![v1429] : Fin 1 → IVec S16 32) a x).toNat < S4480.size a)
instance k0_chk624.dec : ∀ (v1429 : IVec S16 32), Decidable (k0_chk624 v1429) := fun v1429 => decidable_of_iff' _ (Iff.of_eq (k0_chk624.eq_1 v1429))
theorem k0_idx624_inb : ∀ (v1429 : IVec S16 32) (k0_hw624 : k0_chk624 v1429), ∀ a x, ((![v1429] : Fin 1 → IVec S16 32) a x).toNat < S4480.size a := fun v1429 k0_hw624 => k0_hw624
@[reducible] def k0_t11_loop : Scf.Loop 32 :=
  let c0_i32_300 : BitVec 32 := 0#32
  let c128_i32_301 : BitVec 32 := 128#32
  let v1438 : BitVec 32 := Scalar.addi c0_i32_300 c128_i32_301
  let c1_i32_302 : BitVec 32 := 1#32
  ⟨c0_i32_300, v1438, c1_i32_302⟩

def k0_chk625 (v1795 : IVec S16 32) : Prop :=
  (∀ a x, ((![v1795] : Fin 1 → IVec S16 32) a x).toNat < S28672.size a)
instance k0_chk625.dec : ∀ (v1795 : IVec S16 32), Decidable (k0_chk625 v1795) := fun v1795 => decidable_of_iff' _ (Iff.of_eq (k0_chk625.eq_1 v1795))
theorem k0_idx625_inb : ∀ (v1795 : IVec S16 32) (k0_hw625 : k0_chk625 v1795), ∀ a x, ((![v1795] : Fin 1 → IVec S16 32) a x).toNat < S28672.size a := fun v1795 k0_hw625 => k0_hw625

def k0_chk626 (v1797 : IVec S16 32) : Prop :=
  (∀ a x, ((![v1797] : Fin 1 → IVec S16 32) a x).toNat < S28672.size a)
instance k0_chk626.dec : ∀ (v1797 : IVec S16 32), Decidable (k0_chk626 v1797) := fun v1797 => decidable_of_iff' _ (Iff.of_eq (k0_chk626.eq_1 v1797))
theorem k0_idx626_inb : ∀ (v1797 : IVec S16 32) (k0_hw626 : k0_chk626 v1797), ∀ a x, ((![v1797] : Fin 1 → IVec S16 32) a x).toNat < S28672.size a := fun v1797 k0_hw626 => k0_hw626

def k0_chk627 (v1799 : IVec S16 32) : Prop :=
  (∀ a x, ((![v1799] : Fin 1 → IVec S16 32) a x).toNat < S28672.size a)
instance k0_chk627.dec : ∀ (v1799 : IVec S16 32), Decidable (k0_chk627 v1799) := fun v1799 => decidable_of_iff' _ (Iff.of_eq (k0_chk627.eq_1 v1799))
theorem k0_idx627_inb : ∀ (v1799 : IVec S16 32) (k0_hw627 : k0_chk627 v1799), ∀ a x, ((![v1799] : Fin 1 → IVec S16 32) a x).toNat < S28672.size a := fun v1799 k0_hw627 => k0_hw627

def k0_chk628 (v1801 : IVec S16 32) : Prop :=
  (∀ a x, ((![v1801] : Fin 1 → IVec S16 32) a x).toNat < S28672.size a)
instance k0_chk628.dec : ∀ (v1801 : IVec S16 32), Decidable (k0_chk628 v1801) := fun v1801 => decidable_of_iff' _ (Iff.of_eq (k0_chk628.eq_1 v1801))
theorem k0_idx628_inb : ∀ (v1801 : IVec S16 32) (k0_hw628 : k0_chk628 v1801), ∀ a x, ((![v1801] : Fin 1 → IVec S16 32) a x).toNat < S28672.size a := fun v1801 k0_hw628 => k0_hw628

def k0_chk629 (v1803 : IVec S16 32) : Prop :=
  (∀ a x, ((![v1803] : Fin 1 → IVec S16 32) a x).toNat < S28672.size a)
instance k0_chk629.dec : ∀ (v1803 : IVec S16 32), Decidable (k0_chk629 v1803) := fun v1803 => decidable_of_iff' _ (Iff.of_eq (k0_chk629.eq_1 v1803))
theorem k0_idx629_inb : ∀ (v1803 : IVec S16 32) (k0_hw629 : k0_chk629 v1803), ∀ a x, ((![v1803] : Fin 1 → IVec S16 32) a x).toNat < S28672.size a := fun v1803 k0_hw629 => k0_hw629

def k0_chk630 (v1805 : IVec S16 32) : Prop :=
  (∀ a x, ((![v1805] : Fin 1 → IVec S16 32) a x).toNat < S28672.size a)
instance k0_chk630.dec : ∀ (v1805 : IVec S16 32), Decidable (k0_chk630 v1805) := fun v1805 => decidable_of_iff' _ (Iff.of_eq (k0_chk630.eq_1 v1805))
theorem k0_idx630_inb : ∀ (v1805 : IVec S16 32) (k0_hw630 : k0_chk630 v1805), ∀ a x, ((![v1805] : Fin 1 → IVec S16 32) a x).toNat < S28672.size a := fun v1805 k0_hw630 => k0_hw630

def k0_chk631 (v1807 : IVec S16 32) : Prop :=
  (∀ a x, ((![v1807] : Fin 1 → IVec S16 32) a x).toNat < S28672.size a)
instance k0_chk631.dec : ∀ (v1807 : IVec S16 32), Decidable (k0_chk631 v1807) := fun v1807 => decidable_of_iff' _ (Iff.of_eq (k0_chk631.eq_1 v1807))
theorem k0_idx631_inb : ∀ (v1807 : IVec S16 32) (k0_hw631 : k0_chk631 v1807), ∀ a x, ((![v1807] : Fin 1 → IVec S16 32) a x).toNat < S28672.size a := fun v1807 k0_hw631 => k0_hw631

def k0_chk632 (v1809 : IVec S16 32) : Prop :=
  (∀ a x, ((![v1809] : Fin 1 → IVec S16 32) a x).toNat < S28672.size a)
instance k0_chk632.dec : ∀ (v1809 : IVec S16 32), Decidable (k0_chk632 v1809) := fun v1809 => decidable_of_iff' _ (Iff.of_eq (k0_chk632.eq_1 v1809))
theorem k0_idx632_inb : ∀ (v1809 : IVec S16 32) (k0_hw632 : k0_chk632 v1809), ∀ a x, ((![v1809] : Fin 1 → IVec S16 32) a x).toNat < S28672.size a := fun v1809 k0_hw632 => k0_hw632

def k0_chk633 (v1811 : IVec S16 32) : Prop :=
  (∀ a x, ((![v1811] : Fin 1 → IVec S16 32) a x).toNat < S28672.size a)
instance k0_chk633.dec : ∀ (v1811 : IVec S16 32), Decidable (k0_chk633 v1811) := fun v1811 => decidable_of_iff' _ (Iff.of_eq (k0_chk633.eq_1 v1811))
theorem k0_idx633_inb : ∀ (v1811 : IVec S16 32) (k0_hw633 : k0_chk633 v1811), ∀ a x, ((![v1811] : Fin 1 → IVec S16 32) a x).toNat < S28672.size a := fun v1811 k0_hw633 => k0_hw633

def k0_chk634 (v1813 : IVec S16 32) : Prop :=
  (∀ a x, ((![v1813] : Fin 1 → IVec S16 32) a x).toNat < S28672.size a)
instance k0_chk634.dec : ∀ (v1813 : IVec S16 32), Decidable (k0_chk634 v1813) := fun v1813 => decidable_of_iff' _ (Iff.of_eq (k0_chk634.eq_1 v1813))
theorem k0_idx634_inb : ∀ (v1813 : IVec S16 32) (k0_hw634 : k0_chk634 v1813), ∀ a x, ((![v1813] : Fin 1 → IVec S16 32) a x).toNat < S28672.size a := fun v1813 k0_hw634 => k0_hw634

def k0_chk635 (v1815 : IVec S16 32) : Prop :=
  (∀ a x, ((![v1815] : Fin 1 → IVec S16 32) a x).toNat < S28672.size a)
instance k0_chk635.dec : ∀ (v1815 : IVec S16 32), Decidable (k0_chk635 v1815) := fun v1815 => decidable_of_iff' _ (Iff.of_eq (k0_chk635.eq_1 v1815))
theorem k0_idx635_inb : ∀ (v1815 : IVec S16 32) (k0_hw635 : k0_chk635 v1815), ∀ a x, ((![v1815] : Fin 1 → IVec S16 32) a x).toNat < S28672.size a := fun v1815 k0_hw635 => k0_hw635

def k0_chk636 (v1817 : IVec S16 32) : Prop :=
  (∀ a x, ((![v1817] : Fin 1 → IVec S16 32) a x).toNat < S28672.size a)
instance k0_chk636.dec : ∀ (v1817 : IVec S16 32), Decidable (k0_chk636 v1817) := fun v1817 => decidable_of_iff' _ (Iff.of_eq (k0_chk636.eq_1 v1817))
theorem k0_idx636_inb : ∀ (v1817 : IVec S16 32) (k0_hw636 : k0_chk636 v1817), ∀ a x, ((![v1817] : Fin 1 → IVec S16 32) a x).toNat < S28672.size a := fun v1817 k0_hw636 => k0_hw636

def k0_chk637 (v1819 : IVec S16 32) : Prop :=
  (∀ a x, ((![v1819] : Fin 1 → IVec S16 32) a x).toNat < S28672.size a)
instance k0_chk637.dec : ∀ (v1819 : IVec S16 32), Decidable (k0_chk637 v1819) := fun v1819 => decidable_of_iff' _ (Iff.of_eq (k0_chk637.eq_1 v1819))
theorem k0_idx637_inb : ∀ (v1819 : IVec S16 32) (k0_hw637 : k0_chk637 v1819), ∀ a x, ((![v1819] : Fin 1 → IVec S16 32) a x).toNat < S28672.size a := fun v1819 k0_hw637 => k0_hw637

def k0_chk638 (v1821 : IVec S16 32) : Prop :=
  (∀ a x, ((![v1821] : Fin 1 → IVec S16 32) a x).toNat < S28672.size a)
instance k0_chk638.dec : ∀ (v1821 : IVec S16 32), Decidable (k0_chk638 v1821) := fun v1821 => decidable_of_iff' _ (Iff.of_eq (k0_chk638.eq_1 v1821))
theorem k0_idx638_inb : ∀ (v1821 : IVec S16 32) (k0_hw638 : k0_chk638 v1821), ∀ a x, ((![v1821] : Fin 1 → IVec S16 32) a x).toNat < S28672.size a := fun v1821 k0_hw638 => k0_hw638

def k0_chk639 (v1838 : IVec S16 32) : Prop :=
  (∀ a x, ((![v1838] : Fin 1 → IVec S16 32) a x).toNat < S10240.size a)
instance k0_chk639.dec : ∀ (v1838 : IVec S16 32), Decidable (k0_chk639 v1838) := fun v1838 => decidable_of_iff' _ (Iff.of_eq (k0_chk639.eq_1 v1838))
theorem k0_idx639_inb : ∀ (v1838 : IVec S16 32) (k0_hw639 : k0_chk639 v1838), ∀ a x, ((![v1838] : Fin 1 → IVec S16 32) a x).toNat < S10240.size a := fun v1838 k0_hw639 => k0_hw639

def k0_chk640 (v1440 : IVec S16 32) : Prop :=
  (∀ a x, ((![v1440] : Fin 1 → IVec S16 32) a x).toNat < S4480.size a)
instance k0_chk640.dec : ∀ (v1440 : IVec S16 32), Decidable (k0_chk640 v1440) := fun v1440 => decidable_of_iff' _ (Iff.of_eq (k0_chk640.eq_1 v1440))
theorem k0_idx640_inb : ∀ (v1440 : IVec S16 32) (k0_hw640 : k0_chk640 v1440), ∀ a x, ((![v1440] : Fin 1 → IVec S16 32) a x).toNat < S4480.size a := fun v1440 k0_hw640 => k0_hw640

def k0_chk641 (v1443 : IVec S16 32) : Prop :=
  (∀ a x, ((![v1443] : Fin 1 → IVec S16 32) a x).toNat < S4480.size a)
instance k0_chk641.dec : ∀ (v1443 : IVec S16 32), Decidable (k0_chk641 v1443) := fun v1443 => decidable_of_iff' _ (Iff.of_eq (k0_chk641.eq_1 v1443))
theorem k0_idx641_inb : ∀ (v1443 : IVec S16 32) (k0_hw641 : k0_chk641 v1443), ∀ a x, ((![v1443] : Fin 1 → IVec S16 32) a x).toNat < S4480.size a := fun v1443 k0_hw641 => k0_hw641

def k0_chk642 (v1449 : IVec S16 32) : Prop :=
  (∀ a x, ((![v1449] : Fin 1 → IVec S16 32) a x).toNat < S4480.size a)
instance k0_chk642.dec : ∀ (v1449 : IVec S16 32), Decidable (k0_chk642 v1449) := fun v1449 => decidable_of_iff' _ (Iff.of_eq (k0_chk642.eq_1 v1449))
theorem k0_idx642_inb : ∀ (v1449 : IVec S16 32) (k0_hw642 : k0_chk642 v1449), ∀ a x, ((![v1449] : Fin 1 → IVec S16 32) a x).toNat < S4480.size a := fun v1449 k0_hw642 => k0_hw642

def k0_chk643 (v1455 : IVec S16 32) : Prop :=
  (∀ a x, ((![v1455] : Fin 1 → IVec S16 32) a x).toNat < S4480.size a)
instance k0_chk643.dec : ∀ (v1455 : IVec S16 32), Decidable (k0_chk643 v1455) := fun v1455 => decidable_of_iff' _ (Iff.of_eq (k0_chk643.eq_1 v1455))
theorem k0_idx643_inb : ∀ (v1455 : IVec S16 32) (k0_hw643 : k0_chk643 v1455), ∀ a x, ((![v1455] : Fin 1 → IVec S16 32) a x).toNat < S4480.size a := fun v1455 k0_hw643 => k0_hw643

def k0_chk644 (v1465 : IVec S16 32) : Prop :=
  (∀ a x, ((![v1465] : Fin 1 → IVec S16 32) a x).toNat < S4480.size a)
instance k0_chk644.dec : ∀ (v1465 : IVec S16 32), Decidable (k0_chk644 v1465) := fun v1465 => decidable_of_iff' _ (Iff.of_eq (k0_chk644.eq_1 v1465))
theorem k0_idx644_inb : ∀ (v1465 : IVec S16 32) (k0_hw644 : k0_chk644 v1465), ∀ a x, ((![v1465] : Fin 1 → IVec S16 32) a x).toNat < S4480.size a := fun v1465 k0_hw644 => k0_hw644

def k0_chk645 (v1468 : IVec S16 32) : Prop :=
  (∀ a x, ((![v1468] : Fin 1 → IVec S16 32) a x).toNat < S4480.size a)
instance k0_chk645.dec : ∀ (v1468 : IVec S16 32), Decidable (k0_chk645 v1468) := fun v1468 => decidable_of_iff' _ (Iff.of_eq (k0_chk645.eq_1 v1468))
theorem k0_idx645_inb : ∀ (v1468 : IVec S16 32) (k0_hw645 : k0_chk645 v1468), ∀ a x, ((![v1468] : Fin 1 → IVec S16 32) a x).toNat < S4480.size a := fun v1468 k0_hw645 => k0_hw645

def k0_chk646 (v1474 : IVec S16 32) : Prop :=
  (∀ a x, ((![v1474] : Fin 1 → IVec S16 32) a x).toNat < S4480.size a)
instance k0_chk646.dec : ∀ (v1474 : IVec S16 32), Decidable (k0_chk646 v1474) := fun v1474 => decidable_of_iff' _ (Iff.of_eq (k0_chk646.eq_1 v1474))
theorem k0_idx646_inb : ∀ (v1474 : IVec S16 32) (k0_hw646 : k0_chk646 v1474), ∀ a x, ((![v1474] : Fin 1 → IVec S16 32) a x).toNat < S4480.size a := fun v1474 k0_hw646 => k0_hw646

def k0_chk647 (v1480 : IVec S16 32) : Prop :=
  (∀ a x, ((![v1480] : Fin 1 → IVec S16 32) a x).toNat < S4480.size a)
instance k0_chk647.dec : ∀ (v1480 : IVec S16 32), Decidable (k0_chk647 v1480) := fun v1480 => decidable_of_iff' _ (Iff.of_eq (k0_chk647.eq_1 v1480))
theorem k0_idx647_inb : ∀ (v1480 : IVec S16 32) (k0_hw647 : k0_chk647 v1480), ∀ a x, ((![v1480] : Fin 1 → IVec S16 32) a x).toNat < S4480.size a := fun v1480 k0_hw647 => k0_hw647

def k0_chk648 (v1490 : IVec S16 32) : Prop :=
  (∀ a x, ((![v1490] : Fin 1 → IVec S16 32) a x).toNat < S4480.size a)
instance k0_chk648.dec : ∀ (v1490 : IVec S16 32), Decidable (k0_chk648 v1490) := fun v1490 => decidable_of_iff' _ (Iff.of_eq (k0_chk648.eq_1 v1490))
theorem k0_idx648_inb : ∀ (v1490 : IVec S16 32) (k0_hw648 : k0_chk648 v1490), ∀ a x, ((![v1490] : Fin 1 → IVec S16 32) a x).toNat < S4480.size a := fun v1490 k0_hw648 => k0_hw648

def k0_chk649 (v1493 : IVec S16 32) : Prop :=
  (∀ a x, ((![v1493] : Fin 1 → IVec S16 32) a x).toNat < S4480.size a)
instance k0_chk649.dec : ∀ (v1493 : IVec S16 32), Decidable (k0_chk649 v1493) := fun v1493 => decidable_of_iff' _ (Iff.of_eq (k0_chk649.eq_1 v1493))
theorem k0_idx649_inb : ∀ (v1493 : IVec S16 32) (k0_hw649 : k0_chk649 v1493), ∀ a x, ((![v1493] : Fin 1 → IVec S16 32) a x).toNat < S4480.size a := fun v1493 k0_hw649 => k0_hw649

def k0_chk650 (v1499 : IVec S16 32) : Prop :=
  (∀ a x, ((![v1499] : Fin 1 → IVec S16 32) a x).toNat < S4480.size a)
instance k0_chk650.dec : ∀ (v1499 : IVec S16 32), Decidable (k0_chk650 v1499) := fun v1499 => decidable_of_iff' _ (Iff.of_eq (k0_chk650.eq_1 v1499))
theorem k0_idx650_inb : ∀ (v1499 : IVec S16 32) (k0_hw650 : k0_chk650 v1499), ∀ a x, ((![v1499] : Fin 1 → IVec S16 32) a x).toNat < S4480.size a := fun v1499 k0_hw650 => k0_hw650

def k0_chk651 (v1505 : IVec S16 32) : Prop :=
  (∀ a x, ((![v1505] : Fin 1 → IVec S16 32) a x).toNat < S4480.size a)
instance k0_chk651.dec : ∀ (v1505 : IVec S16 32), Decidable (k0_chk651 v1505) := fun v1505 => decidable_of_iff' _ (Iff.of_eq (k0_chk651.eq_1 v1505))
theorem k0_idx651_inb : ∀ (v1505 : IVec S16 32) (k0_hw651 : k0_chk651 v1505), ∀ a x, ((![v1505] : Fin 1 → IVec S16 32) a x).toNat < S4480.size a := fun v1505 k0_hw651 => k0_hw651

def k0_chk652 (v1515 : IVec S16 32) : Prop :=
  (∀ a x, ((![v1515] : Fin 1 → IVec S16 32) a x).toNat < S4480.size a)
instance k0_chk652.dec : ∀ (v1515 : IVec S16 32), Decidable (k0_chk652 v1515) := fun v1515 => decidable_of_iff' _ (Iff.of_eq (k0_chk652.eq_1 v1515))
theorem k0_idx652_inb : ∀ (v1515 : IVec S16 32) (k0_hw652 : k0_chk652 v1515), ∀ a x, ((![v1515] : Fin 1 → IVec S16 32) a x).toNat < S4480.size a := fun v1515 k0_hw652 => k0_hw652

def k0_chk653 (v1518 : IVec S16 32) : Prop :=
  (∀ a x, ((![v1518] : Fin 1 → IVec S16 32) a x).toNat < S4480.size a)
instance k0_chk653.dec : ∀ (v1518 : IVec S16 32), Decidable (k0_chk653 v1518) := fun v1518 => decidable_of_iff' _ (Iff.of_eq (k0_chk653.eq_1 v1518))
theorem k0_idx653_inb : ∀ (v1518 : IVec S16 32) (k0_hw653 : k0_chk653 v1518), ∀ a x, ((![v1518] : Fin 1 → IVec S16 32) a x).toNat < S4480.size a := fun v1518 k0_hw653 => k0_hw653

def k0_chk654 (v1524 : IVec S16 32) : Prop :=
  (∀ a x, ((![v1524] : Fin 1 → IVec S16 32) a x).toNat < S4480.size a)
instance k0_chk654.dec : ∀ (v1524 : IVec S16 32), Decidable (k0_chk654 v1524) := fun v1524 => decidable_of_iff' _ (Iff.of_eq (k0_chk654.eq_1 v1524))
theorem k0_idx654_inb : ∀ (v1524 : IVec S16 32) (k0_hw654 : k0_chk654 v1524), ∀ a x, ((![v1524] : Fin 1 → IVec S16 32) a x).toNat < S4480.size a := fun v1524 k0_hw654 => k0_hw654

def k0_chk655 (v1530 : IVec S16 32) : Prop :=
  (∀ a x, ((![v1530] : Fin 1 → IVec S16 32) a x).toNat < S4480.size a)
instance k0_chk655.dec : ∀ (v1530 : IVec S16 32), Decidable (k0_chk655 v1530) := fun v1530 => decidable_of_iff' _ (Iff.of_eq (k0_chk655.eq_1 v1530))
theorem k0_idx655_inb : ∀ (v1530 : IVec S16 32) (k0_hw655 : k0_chk655 v1530), ∀ a x, ((![v1530] : Fin 1 → IVec S16 32) a x).toNat < S4480.size a := fun v1530 k0_hw655 => k0_hw655

def k0_chk656 (v1540 : IVec S16 32) : Prop :=
  (∀ a x, ((![v1540] : Fin 1 → IVec S16 32) a x).toNat < S4480.size a)
instance k0_chk656.dec : ∀ (v1540 : IVec S16 32), Decidable (k0_chk656 v1540) := fun v1540 => decidable_of_iff' _ (Iff.of_eq (k0_chk656.eq_1 v1540))
theorem k0_idx656_inb : ∀ (v1540 : IVec S16 32) (k0_hw656 : k0_chk656 v1540), ∀ a x, ((![v1540] : Fin 1 → IVec S16 32) a x).toNat < S4480.size a := fun v1540 k0_hw656 => k0_hw656

def k0_chk657 (v1543 : IVec S16 32) : Prop :=
  (∀ a x, ((![v1543] : Fin 1 → IVec S16 32) a x).toNat < S4480.size a)
instance k0_chk657.dec : ∀ (v1543 : IVec S16 32), Decidable (k0_chk657 v1543) := fun v1543 => decidable_of_iff' _ (Iff.of_eq (k0_chk657.eq_1 v1543))
theorem k0_idx657_inb : ∀ (v1543 : IVec S16 32) (k0_hw657 : k0_chk657 v1543), ∀ a x, ((![v1543] : Fin 1 → IVec S16 32) a x).toNat < S4480.size a := fun v1543 k0_hw657 => k0_hw657

def k0_chk658 (v1549 : IVec S16 32) : Prop :=
  (∀ a x, ((![v1549] : Fin 1 → IVec S16 32) a x).toNat < S4480.size a)
instance k0_chk658.dec : ∀ (v1549 : IVec S16 32), Decidable (k0_chk658 v1549) := fun v1549 => decidable_of_iff' _ (Iff.of_eq (k0_chk658.eq_1 v1549))
theorem k0_idx658_inb : ∀ (v1549 : IVec S16 32) (k0_hw658 : k0_chk658 v1549), ∀ a x, ((![v1549] : Fin 1 → IVec S16 32) a x).toNat < S4480.size a := fun v1549 k0_hw658 => k0_hw658

def k0_chk659 (v1555 : IVec S16 32) : Prop :=
  (∀ a x, ((![v1555] : Fin 1 → IVec S16 32) a x).toNat < S4480.size a)
instance k0_chk659.dec : ∀ (v1555 : IVec S16 32), Decidable (k0_chk659 v1555) := fun v1555 => decidable_of_iff' _ (Iff.of_eq (k0_chk659.eq_1 v1555))
theorem k0_idx659_inb : ∀ (v1555 : IVec S16 32) (k0_hw659 : k0_chk659 v1555), ∀ a x, ((![v1555] : Fin 1 → IVec S16 32) a x).toNat < S4480.size a := fun v1555 k0_hw659 => k0_hw659

def k0_chk660 (v1565 : IVec S16 32) : Prop :=
  (∀ a x, ((![v1565] : Fin 1 → IVec S16 32) a x).toNat < S4480.size a)
instance k0_chk660.dec : ∀ (v1565 : IVec S16 32), Decidable (k0_chk660 v1565) := fun v1565 => decidable_of_iff' _ (Iff.of_eq (k0_chk660.eq_1 v1565))
theorem k0_idx660_inb : ∀ (v1565 : IVec S16 32) (k0_hw660 : k0_chk660 v1565), ∀ a x, ((![v1565] : Fin 1 → IVec S16 32) a x).toNat < S4480.size a := fun v1565 k0_hw660 => k0_hw660

def k0_chk661 (v1568 : IVec S16 32) : Prop :=
  (∀ a x, ((![v1568] : Fin 1 → IVec S16 32) a x).toNat < S4480.size a)
instance k0_chk661.dec : ∀ (v1568 : IVec S16 32), Decidable (k0_chk661 v1568) := fun v1568 => decidable_of_iff' _ (Iff.of_eq (k0_chk661.eq_1 v1568))
theorem k0_idx661_inb : ∀ (v1568 : IVec S16 32) (k0_hw661 : k0_chk661 v1568), ∀ a x, ((![v1568] : Fin 1 → IVec S16 32) a x).toNat < S4480.size a := fun v1568 k0_hw661 => k0_hw661

def k0_chk662 (v1574 : IVec S16 32) : Prop :=
  (∀ a x, ((![v1574] : Fin 1 → IVec S16 32) a x).toNat < S4480.size a)
instance k0_chk662.dec : ∀ (v1574 : IVec S16 32), Decidable (k0_chk662 v1574) := fun v1574 => decidable_of_iff' _ (Iff.of_eq (k0_chk662.eq_1 v1574))
theorem k0_idx662_inb : ∀ (v1574 : IVec S16 32) (k0_hw662 : k0_chk662 v1574), ∀ a x, ((![v1574] : Fin 1 → IVec S16 32) a x).toNat < S4480.size a := fun v1574 k0_hw662 => k0_hw662

def k0_chk663 (v1580 : IVec S16 32) : Prop :=
  (∀ a x, ((![v1580] : Fin 1 → IVec S16 32) a x).toNat < S4480.size a)
instance k0_chk663.dec : ∀ (v1580 : IVec S16 32), Decidable (k0_chk663 v1580) := fun v1580 => decidable_of_iff' _ (Iff.of_eq (k0_chk663.eq_1 v1580))
theorem k0_idx663_inb : ∀ (v1580 : IVec S16 32) (k0_hw663 : k0_chk663 v1580), ∀ a x, ((![v1580] : Fin 1 → IVec S16 32) a x).toNat < S4480.size a := fun v1580 k0_hw663 => k0_hw663

def k0_chk664 (v1590 : IVec S16 32) : Prop :=
  (∀ a x, ((![v1590] : Fin 1 → IVec S16 32) a x).toNat < S4480.size a)
instance k0_chk664.dec : ∀ (v1590 : IVec S16 32), Decidable (k0_chk664 v1590) := fun v1590 => decidable_of_iff' _ (Iff.of_eq (k0_chk664.eq_1 v1590))
theorem k0_idx664_inb : ∀ (v1590 : IVec S16 32) (k0_hw664 : k0_chk664 v1590), ∀ a x, ((![v1590] : Fin 1 → IVec S16 32) a x).toNat < S4480.size a := fun v1590 k0_hw664 => k0_hw664

def k0_chk665 (v1593 : IVec S16 32) : Prop :=
  (∀ a x, ((![v1593] : Fin 1 → IVec S16 32) a x).toNat < S4480.size a)
instance k0_chk665.dec : ∀ (v1593 : IVec S16 32), Decidable (k0_chk665 v1593) := fun v1593 => decidable_of_iff' _ (Iff.of_eq (k0_chk665.eq_1 v1593))
theorem k0_idx665_inb : ∀ (v1593 : IVec S16 32) (k0_hw665 : k0_chk665 v1593), ∀ a x, ((![v1593] : Fin 1 → IVec S16 32) a x).toNat < S4480.size a := fun v1593 k0_hw665 => k0_hw665

def k0_chk666 (v1599 : IVec S16 32) : Prop :=
  (∀ a x, ((![v1599] : Fin 1 → IVec S16 32) a x).toNat < S4480.size a)
instance k0_chk666.dec : ∀ (v1599 : IVec S16 32), Decidable (k0_chk666 v1599) := fun v1599 => decidable_of_iff' _ (Iff.of_eq (k0_chk666.eq_1 v1599))
theorem k0_idx666_inb : ∀ (v1599 : IVec S16 32) (k0_hw666 : k0_chk666 v1599), ∀ a x, ((![v1599] : Fin 1 → IVec S16 32) a x).toNat < S4480.size a := fun v1599 k0_hw666 => k0_hw666

def k0_chk667 (v1605 : IVec S16 32) : Prop :=
  (∀ a x, ((![v1605] : Fin 1 → IVec S16 32) a x).toNat < S4480.size a)
instance k0_chk667.dec : ∀ (v1605 : IVec S16 32), Decidable (k0_chk667 v1605) := fun v1605 => decidable_of_iff' _ (Iff.of_eq (k0_chk667.eq_1 v1605))
theorem k0_idx667_inb : ∀ (v1605 : IVec S16 32) (k0_hw667 : k0_chk667 v1605), ∀ a x, ((![v1605] : Fin 1 → IVec S16 32) a x).toNat < S4480.size a := fun v1605 k0_hw667 => k0_hw667

def k0_chk668 (v1615 : IVec S16 32) : Prop :=
  (∀ a x, ((![v1615] : Fin 1 → IVec S16 32) a x).toNat < S4480.size a)
instance k0_chk668.dec : ∀ (v1615 : IVec S16 32), Decidable (k0_chk668 v1615) := fun v1615 => decidable_of_iff' _ (Iff.of_eq (k0_chk668.eq_1 v1615))
theorem k0_idx668_inb : ∀ (v1615 : IVec S16 32) (k0_hw668 : k0_chk668 v1615), ∀ a x, ((![v1615] : Fin 1 → IVec S16 32) a x).toNat < S4480.size a := fun v1615 k0_hw668 => k0_hw668

def k0_chk669 (v1618 : IVec S16 32) : Prop :=
  (∀ a x, ((![v1618] : Fin 1 → IVec S16 32) a x).toNat < S4480.size a)
instance k0_chk669.dec : ∀ (v1618 : IVec S16 32), Decidable (k0_chk669 v1618) := fun v1618 => decidable_of_iff' _ (Iff.of_eq (k0_chk669.eq_1 v1618))
theorem k0_idx669_inb : ∀ (v1618 : IVec S16 32) (k0_hw669 : k0_chk669 v1618), ∀ a x, ((![v1618] : Fin 1 → IVec S16 32) a x).toNat < S4480.size a := fun v1618 k0_hw669 => k0_hw669

def k0_chk670 (v1624 : IVec S16 32) : Prop :=
  (∀ a x, ((![v1624] : Fin 1 → IVec S16 32) a x).toNat < S4480.size a)
instance k0_chk670.dec : ∀ (v1624 : IVec S16 32), Decidable (k0_chk670 v1624) := fun v1624 => decidable_of_iff' _ (Iff.of_eq (k0_chk670.eq_1 v1624))
theorem k0_idx670_inb : ∀ (v1624 : IVec S16 32) (k0_hw670 : k0_chk670 v1624), ∀ a x, ((![v1624] : Fin 1 → IVec S16 32) a x).toNat < S4480.size a := fun v1624 k0_hw670 => k0_hw670

def k0_chk671 (v1630 : IVec S16 32) : Prop :=
  (∀ a x, ((![v1630] : Fin 1 → IVec S16 32) a x).toNat < S4480.size a)
instance k0_chk671.dec : ∀ (v1630 : IVec S16 32), Decidable (k0_chk671 v1630) := fun v1630 => decidable_of_iff' _ (Iff.of_eq (k0_chk671.eq_1 v1630))
theorem k0_idx671_inb : ∀ (v1630 : IVec S16 32) (k0_hw671 : k0_chk671 v1630), ∀ a x, ((![v1630] : Fin 1 → IVec S16 32) a x).toNat < S4480.size a := fun v1630 k0_hw671 => k0_hw671

def k0_chk672 (v1640 : IVec S16 32) : Prop :=
  (∀ a x, ((![v1640] : Fin 1 → IVec S16 32) a x).toNat < S4480.size a)
instance k0_chk672.dec : ∀ (v1640 : IVec S16 32), Decidable (k0_chk672 v1640) := fun v1640 => decidable_of_iff' _ (Iff.of_eq (k0_chk672.eq_1 v1640))
theorem k0_idx672_inb : ∀ (v1640 : IVec S16 32) (k0_hw672 : k0_chk672 v1640), ∀ a x, ((![v1640] : Fin 1 → IVec S16 32) a x).toNat < S4480.size a := fun v1640 k0_hw672 => k0_hw672

def k0_chk673 (v1643 : IVec S16 32) : Prop :=
  (∀ a x, ((![v1643] : Fin 1 → IVec S16 32) a x).toNat < S4480.size a)
instance k0_chk673.dec : ∀ (v1643 : IVec S16 32), Decidable (k0_chk673 v1643) := fun v1643 => decidable_of_iff' _ (Iff.of_eq (k0_chk673.eq_1 v1643))
theorem k0_idx673_inb : ∀ (v1643 : IVec S16 32) (k0_hw673 : k0_chk673 v1643), ∀ a x, ((![v1643] : Fin 1 → IVec S16 32) a x).toNat < S4480.size a := fun v1643 k0_hw673 => k0_hw673

def k0_chk674 (v1649 : IVec S16 32) : Prop :=
  (∀ a x, ((![v1649] : Fin 1 → IVec S16 32) a x).toNat < S4480.size a)
instance k0_chk674.dec : ∀ (v1649 : IVec S16 32), Decidable (k0_chk674 v1649) := fun v1649 => decidable_of_iff' _ (Iff.of_eq (k0_chk674.eq_1 v1649))
theorem k0_idx674_inb : ∀ (v1649 : IVec S16 32) (k0_hw674 : k0_chk674 v1649), ∀ a x, ((![v1649] : Fin 1 → IVec S16 32) a x).toNat < S4480.size a := fun v1649 k0_hw674 => k0_hw674

def k0_chk675 (v1655 : IVec S16 32) : Prop :=
  (∀ a x, ((![v1655] : Fin 1 → IVec S16 32) a x).toNat < S4480.size a)
instance k0_chk675.dec : ∀ (v1655 : IVec S16 32), Decidable (k0_chk675 v1655) := fun v1655 => decidable_of_iff' _ (Iff.of_eq (k0_chk675.eq_1 v1655))
theorem k0_idx675_inb : ∀ (v1655 : IVec S16 32) (k0_hw675 : k0_chk675 v1655), ∀ a x, ((![v1655] : Fin 1 → IVec S16 32) a x).toNat < S4480.size a := fun v1655 k0_hw675 => k0_hw675

def k0_chk676 (v1665 : IVec S16 32) : Prop :=
  (∀ a x, ((![v1665] : Fin 1 → IVec S16 32) a x).toNat < S4480.size a)
instance k0_chk676.dec : ∀ (v1665 : IVec S16 32), Decidable (k0_chk676 v1665) := fun v1665 => decidable_of_iff' _ (Iff.of_eq (k0_chk676.eq_1 v1665))
theorem k0_idx676_inb : ∀ (v1665 : IVec S16 32) (k0_hw676 : k0_chk676 v1665), ∀ a x, ((![v1665] : Fin 1 → IVec S16 32) a x).toNat < S4480.size a := fun v1665 k0_hw676 => k0_hw676

def k0_chk677 (v1668 : IVec S16 32) : Prop :=
  (∀ a x, ((![v1668] : Fin 1 → IVec S16 32) a x).toNat < S4480.size a)
instance k0_chk677.dec : ∀ (v1668 : IVec S16 32), Decidable (k0_chk677 v1668) := fun v1668 => decidable_of_iff' _ (Iff.of_eq (k0_chk677.eq_1 v1668))
theorem k0_idx677_inb : ∀ (v1668 : IVec S16 32) (k0_hw677 : k0_chk677 v1668), ∀ a x, ((![v1668] : Fin 1 → IVec S16 32) a x).toNat < S4480.size a := fun v1668 k0_hw677 => k0_hw677

def k0_chk678 (v1674 : IVec S16 32) : Prop :=
  (∀ a x, ((![v1674] : Fin 1 → IVec S16 32) a x).toNat < S4480.size a)
instance k0_chk678.dec : ∀ (v1674 : IVec S16 32), Decidable (k0_chk678 v1674) := fun v1674 => decidable_of_iff' _ (Iff.of_eq (k0_chk678.eq_1 v1674))
theorem k0_idx678_inb : ∀ (v1674 : IVec S16 32) (k0_hw678 : k0_chk678 v1674), ∀ a x, ((![v1674] : Fin 1 → IVec S16 32) a x).toNat < S4480.size a := fun v1674 k0_hw678 => k0_hw678

def k0_chk679 (v1680 : IVec S16 32) : Prop :=
  (∀ a x, ((![v1680] : Fin 1 → IVec S16 32) a x).toNat < S4480.size a)
instance k0_chk679.dec : ∀ (v1680 : IVec S16 32), Decidable (k0_chk679 v1680) := fun v1680 => decidable_of_iff' _ (Iff.of_eq (k0_chk679.eq_1 v1680))
theorem k0_idx679_inb : ∀ (v1680 : IVec S16 32) (k0_hw679 : k0_chk679 v1680), ∀ a x, ((![v1680] : Fin 1 → IVec S16 32) a x).toNat < S4480.size a := fun v1680 k0_hw679 => k0_hw679

def k0_chk680 (v1690 : IVec S16 32) : Prop :=
  (∀ a x, ((![v1690] : Fin 1 → IVec S16 32) a x).toNat < S4480.size a)
instance k0_chk680.dec : ∀ (v1690 : IVec S16 32), Decidable (k0_chk680 v1690) := fun v1690 => decidable_of_iff' _ (Iff.of_eq (k0_chk680.eq_1 v1690))
theorem k0_idx680_inb : ∀ (v1690 : IVec S16 32) (k0_hw680 : k0_chk680 v1690), ∀ a x, ((![v1690] : Fin 1 → IVec S16 32) a x).toNat < S4480.size a := fun v1690 k0_hw680 => k0_hw680

def k0_chk681 (v1693 : IVec S16 32) : Prop :=
  (∀ a x, ((![v1693] : Fin 1 → IVec S16 32) a x).toNat < S4480.size a)
instance k0_chk681.dec : ∀ (v1693 : IVec S16 32), Decidable (k0_chk681 v1693) := fun v1693 => decidable_of_iff' _ (Iff.of_eq (k0_chk681.eq_1 v1693))
theorem k0_idx681_inb : ∀ (v1693 : IVec S16 32) (k0_hw681 : k0_chk681 v1693), ∀ a x, ((![v1693] : Fin 1 → IVec S16 32) a x).toNat < S4480.size a := fun v1693 k0_hw681 => k0_hw681

def k0_chk682 (v1699 : IVec S16 32) : Prop :=
  (∀ a x, ((![v1699] : Fin 1 → IVec S16 32) a x).toNat < S4480.size a)
instance k0_chk682.dec : ∀ (v1699 : IVec S16 32), Decidable (k0_chk682 v1699) := fun v1699 => decidable_of_iff' _ (Iff.of_eq (k0_chk682.eq_1 v1699))
theorem k0_idx682_inb : ∀ (v1699 : IVec S16 32) (k0_hw682 : k0_chk682 v1699), ∀ a x, ((![v1699] : Fin 1 → IVec S16 32) a x).toNat < S4480.size a := fun v1699 k0_hw682 => k0_hw682

def k0_chk683 (v1705 : IVec S16 32) : Prop :=
  (∀ a x, ((![v1705] : Fin 1 → IVec S16 32) a x).toNat < S4480.size a)
instance k0_chk683.dec : ∀ (v1705 : IVec S16 32), Decidable (k0_chk683 v1705) := fun v1705 => decidable_of_iff' _ (Iff.of_eq (k0_chk683.eq_1 v1705))
theorem k0_idx683_inb : ∀ (v1705 : IVec S16 32) (k0_hw683 : k0_chk683 v1705), ∀ a x, ((![v1705] : Fin 1 → IVec S16 32) a x).toNat < S4480.size a := fun v1705 k0_hw683 => k0_hw683

def k0_chk684 (v1715 : IVec S16 32) : Prop :=
  (∀ a x, ((![v1715] : Fin 1 → IVec S16 32) a x).toNat < S4480.size a)
instance k0_chk684.dec : ∀ (v1715 : IVec S16 32), Decidable (k0_chk684 v1715) := fun v1715 => decidable_of_iff' _ (Iff.of_eq (k0_chk684.eq_1 v1715))
theorem k0_idx684_inb : ∀ (v1715 : IVec S16 32) (k0_hw684 : k0_chk684 v1715), ∀ a x, ((![v1715] : Fin 1 → IVec S16 32) a x).toNat < S4480.size a := fun v1715 k0_hw684 => k0_hw684

def k0_chk685 (v1718 : IVec S16 32) : Prop :=
  (∀ a x, ((![v1718] : Fin 1 → IVec S16 32) a x).toNat < S4480.size a)
instance k0_chk685.dec : ∀ (v1718 : IVec S16 32), Decidable (k0_chk685 v1718) := fun v1718 => decidable_of_iff' _ (Iff.of_eq (k0_chk685.eq_1 v1718))
theorem k0_idx685_inb : ∀ (v1718 : IVec S16 32) (k0_hw685 : k0_chk685 v1718), ∀ a x, ((![v1718] : Fin 1 → IVec S16 32) a x).toNat < S4480.size a := fun v1718 k0_hw685 => k0_hw685

def k0_chk686 (v1724 : IVec S16 32) : Prop :=
  (∀ a x, ((![v1724] : Fin 1 → IVec S16 32) a x).toNat < S4480.size a)
instance k0_chk686.dec : ∀ (v1724 : IVec S16 32), Decidable (k0_chk686 v1724) := fun v1724 => decidable_of_iff' _ (Iff.of_eq (k0_chk686.eq_1 v1724))
theorem k0_idx686_inb : ∀ (v1724 : IVec S16 32) (k0_hw686 : k0_chk686 v1724), ∀ a x, ((![v1724] : Fin 1 → IVec S16 32) a x).toNat < S4480.size a := fun v1724 k0_hw686 => k0_hw686

def k0_chk687 (v1730 : IVec S16 32) : Prop :=
  (∀ a x, ((![v1730] : Fin 1 → IVec S16 32) a x).toNat < S4480.size a)
instance k0_chk687.dec : ∀ (v1730 : IVec S16 32), Decidable (k0_chk687 v1730) := fun v1730 => decidable_of_iff' _ (Iff.of_eq (k0_chk687.eq_1 v1730))
theorem k0_idx687_inb : ∀ (v1730 : IVec S16 32) (k0_hw687 : k0_chk687 v1730), ∀ a x, ((![v1730] : Fin 1 → IVec S16 32) a x).toNat < S4480.size a := fun v1730 k0_hw687 => k0_hw687

def k0_chk688 (v1740 : IVec S16 32) : Prop :=
  (∀ a x, ((![v1740] : Fin 1 → IVec S16 32) a x).toNat < S4480.size a)
instance k0_chk688.dec : ∀ (v1740 : IVec S16 32), Decidable (k0_chk688 v1740) := fun v1740 => decidable_of_iff' _ (Iff.of_eq (k0_chk688.eq_1 v1740))
theorem k0_idx688_inb : ∀ (v1740 : IVec S16 32) (k0_hw688 : k0_chk688 v1740), ∀ a x, ((![v1740] : Fin 1 → IVec S16 32) a x).toNat < S4480.size a := fun v1740 k0_hw688 => k0_hw688

def k0_chk689 (v1743 : IVec S16 32) : Prop :=
  (∀ a x, ((![v1743] : Fin 1 → IVec S16 32) a x).toNat < S4480.size a)
instance k0_chk689.dec : ∀ (v1743 : IVec S16 32), Decidable (k0_chk689 v1743) := fun v1743 => decidable_of_iff' _ (Iff.of_eq (k0_chk689.eq_1 v1743))
theorem k0_idx689_inb : ∀ (v1743 : IVec S16 32) (k0_hw689 : k0_chk689 v1743), ∀ a x, ((![v1743] : Fin 1 → IVec S16 32) a x).toNat < S4480.size a := fun v1743 k0_hw689 => k0_hw689

def k0_chk690 (v1749 : IVec S16 32) : Prop :=
  (∀ a x, ((![v1749] : Fin 1 → IVec S16 32) a x).toNat < S4480.size a)
instance k0_chk690.dec : ∀ (v1749 : IVec S16 32), Decidable (k0_chk690 v1749) := fun v1749 => decidable_of_iff' _ (Iff.of_eq (k0_chk690.eq_1 v1749))
theorem k0_idx690_inb : ∀ (v1749 : IVec S16 32) (k0_hw690 : k0_chk690 v1749), ∀ a x, ((![v1749] : Fin 1 → IVec S16 32) a x).toNat < S4480.size a := fun v1749 k0_hw690 => k0_hw690

def k0_chk691 (v1755 : IVec S16 32) : Prop :=
  (∀ a x, ((![v1755] : Fin 1 → IVec S16 32) a x).toNat < S4480.size a)
instance k0_chk691.dec : ∀ (v1755 : IVec S16 32), Decidable (k0_chk691 v1755) := fun v1755 => decidable_of_iff' _ (Iff.of_eq (k0_chk691.eq_1 v1755))
theorem k0_idx691_inb : ∀ (v1755 : IVec S16 32) (k0_hw691 : k0_chk691 v1755), ∀ a x, ((![v1755] : Fin 1 → IVec S16 32) a x).toNat < S4480.size a := fun v1755 k0_hw691 => k0_hw691

def k0_chk692 (v1765 : IVec S16 32) : Prop :=
  (∀ a x, ((![v1765] : Fin 1 → IVec S16 32) a x).toNat < S4480.size a)
instance k0_chk692.dec : ∀ (v1765 : IVec S16 32), Decidable (k0_chk692 v1765) := fun v1765 => decidable_of_iff' _ (Iff.of_eq (k0_chk692.eq_1 v1765))
theorem k0_idx692_inb : ∀ (v1765 : IVec S16 32) (k0_hw692 : k0_chk692 v1765), ∀ a x, ((![v1765] : Fin 1 → IVec S16 32) a x).toNat < S4480.size a := fun v1765 k0_hw692 => k0_hw692

def k0_chk693 (v1768 : IVec S16 32) : Prop :=
  (∀ a x, ((![v1768] : Fin 1 → IVec S16 32) a x).toNat < S4480.size a)
instance k0_chk693.dec : ∀ (v1768 : IVec S16 32), Decidable (k0_chk693 v1768) := fun v1768 => decidable_of_iff' _ (Iff.of_eq (k0_chk693.eq_1 v1768))
theorem k0_idx693_inb : ∀ (v1768 : IVec S16 32) (k0_hw693 : k0_chk693 v1768), ∀ a x, ((![v1768] : Fin 1 → IVec S16 32) a x).toNat < S4480.size a := fun v1768 k0_hw693 => k0_hw693

def k0_chk694 (v1774 : IVec S16 32) : Prop :=
  (∀ a x, ((![v1774] : Fin 1 → IVec S16 32) a x).toNat < S4480.size a)
instance k0_chk694.dec : ∀ (v1774 : IVec S16 32), Decidable (k0_chk694 v1774) := fun v1774 => decidable_of_iff' _ (Iff.of_eq (k0_chk694.eq_1 v1774))
theorem k0_idx694_inb : ∀ (v1774 : IVec S16 32) (k0_hw694 : k0_chk694 v1774), ∀ a x, ((![v1774] : Fin 1 → IVec S16 32) a x).toNat < S4480.size a := fun v1774 k0_hw694 => k0_hw694

def k0_chk695 (v1780 : IVec S16 32) : Prop :=
  (∀ a x, ((![v1780] : Fin 1 → IVec S16 32) a x).toNat < S4480.size a)
instance k0_chk695.dec : ∀ (v1780 : IVec S16 32), Decidable (k0_chk695 v1780) := fun v1780 => decidable_of_iff' _ (Iff.of_eq (k0_chk695.eq_1 v1780))
theorem k0_idx695_inb : ∀ (v1780 : IVec S16 32) (k0_hw695 : k0_chk695 v1780), ∀ a x, ((![v1780] : Fin 1 → IVec S16 32) a x).toNat < S4480.size a := fun v1780 k0_hw695 => k0_hw695
@[reducible] def k0_t12_loop : Scf.Loop 32 :=
  let c0_i32_375 : BitVec 32 := 0#32
  let c128_i32_376 : BitVec 32 := 128#32
  let v1789 : BitVec 32 := Scalar.addi c0_i32_375 c128_i32_376
  let c1_i32_377 : BitVec 32 := 1#32
  ⟨c0_i32_375, v1789, c1_i32_377⟩

def k0_chk696 (v1795 : IVec S16 32) : Prop :=
  (∀ a x, ((![v1795] : Fin 1 → IVec S16 32) a x).toNat < S28672.size a)
instance k0_chk696.dec : ∀ (v1795 : IVec S16 32), Decidable (k0_chk696 v1795) := fun v1795 => decidable_of_iff' _ (Iff.of_eq (k0_chk696.eq_1 v1795))
theorem k0_idx696_inb : ∀ (v1795 : IVec S16 32) (k0_hw696 : k0_chk696 v1795), ∀ a x, ((![v1795] : Fin 1 → IVec S16 32) a x).toNat < S28672.size a := fun v1795 k0_hw696 => k0_hw696

def k0_chk697 (v1797 : IVec S16 32) : Prop :=
  (∀ a x, ((![v1797] : Fin 1 → IVec S16 32) a x).toNat < S28672.size a)
instance k0_chk697.dec : ∀ (v1797 : IVec S16 32), Decidable (k0_chk697 v1797) := fun v1797 => decidable_of_iff' _ (Iff.of_eq (k0_chk697.eq_1 v1797))
theorem k0_idx697_inb : ∀ (v1797 : IVec S16 32) (k0_hw697 : k0_chk697 v1797), ∀ a x, ((![v1797] : Fin 1 → IVec S16 32) a x).toNat < S28672.size a := fun v1797 k0_hw697 => k0_hw697

def k0_chk698 (v1799 : IVec S16 32) : Prop :=
  (∀ a x, ((![v1799] : Fin 1 → IVec S16 32) a x).toNat < S28672.size a)
instance k0_chk698.dec : ∀ (v1799 : IVec S16 32), Decidable (k0_chk698 v1799) := fun v1799 => decidable_of_iff' _ (Iff.of_eq (k0_chk698.eq_1 v1799))
theorem k0_idx698_inb : ∀ (v1799 : IVec S16 32) (k0_hw698 : k0_chk698 v1799), ∀ a x, ((![v1799] : Fin 1 → IVec S16 32) a x).toNat < S28672.size a := fun v1799 k0_hw698 => k0_hw698

def k0_chk699 (v1801 : IVec S16 32) : Prop :=
  (∀ a x, ((![v1801] : Fin 1 → IVec S16 32) a x).toNat < S28672.size a)
instance k0_chk699.dec : ∀ (v1801 : IVec S16 32), Decidable (k0_chk699 v1801) := fun v1801 => decidable_of_iff' _ (Iff.of_eq (k0_chk699.eq_1 v1801))
theorem k0_idx699_inb : ∀ (v1801 : IVec S16 32) (k0_hw699 : k0_chk699 v1801), ∀ a x, ((![v1801] : Fin 1 → IVec S16 32) a x).toNat < S28672.size a := fun v1801 k0_hw699 => k0_hw699

def k0_chk700 (v1803 : IVec S16 32) : Prop :=
  (∀ a x, ((![v1803] : Fin 1 → IVec S16 32) a x).toNat < S28672.size a)
instance k0_chk700.dec : ∀ (v1803 : IVec S16 32), Decidable (k0_chk700 v1803) := fun v1803 => decidable_of_iff' _ (Iff.of_eq (k0_chk700.eq_1 v1803))
theorem k0_idx700_inb : ∀ (v1803 : IVec S16 32) (k0_hw700 : k0_chk700 v1803), ∀ a x, ((![v1803] : Fin 1 → IVec S16 32) a x).toNat < S28672.size a := fun v1803 k0_hw700 => k0_hw700

def k0_chk701 (v1805 : IVec S16 32) : Prop :=
  (∀ a x, ((![v1805] : Fin 1 → IVec S16 32) a x).toNat < S28672.size a)
instance k0_chk701.dec : ∀ (v1805 : IVec S16 32), Decidable (k0_chk701 v1805) := fun v1805 => decidable_of_iff' _ (Iff.of_eq (k0_chk701.eq_1 v1805))
theorem k0_idx701_inb : ∀ (v1805 : IVec S16 32) (k0_hw701 : k0_chk701 v1805), ∀ a x, ((![v1805] : Fin 1 → IVec S16 32) a x).toNat < S28672.size a := fun v1805 k0_hw701 => k0_hw701

def k0_chk702 (v1807 : IVec S16 32) : Prop :=
  (∀ a x, ((![v1807] : Fin 1 → IVec S16 32) a x).toNat < S28672.size a)
instance k0_chk702.dec : ∀ (v1807 : IVec S16 32), Decidable (k0_chk702 v1807) := fun v1807 => decidable_of_iff' _ (Iff.of_eq (k0_chk702.eq_1 v1807))
theorem k0_idx702_inb : ∀ (v1807 : IVec S16 32) (k0_hw702 : k0_chk702 v1807), ∀ a x, ((![v1807] : Fin 1 → IVec S16 32) a x).toNat < S28672.size a := fun v1807 k0_hw702 => k0_hw702

def k0_chk703 (v1809 : IVec S16 32) : Prop :=
  (∀ a x, ((![v1809] : Fin 1 → IVec S16 32) a x).toNat < S28672.size a)
instance k0_chk703.dec : ∀ (v1809 : IVec S16 32), Decidable (k0_chk703 v1809) := fun v1809 => decidable_of_iff' _ (Iff.of_eq (k0_chk703.eq_1 v1809))
theorem k0_idx703_inb : ∀ (v1809 : IVec S16 32) (k0_hw703 : k0_chk703 v1809), ∀ a x, ((![v1809] : Fin 1 → IVec S16 32) a x).toNat < S28672.size a := fun v1809 k0_hw703 => k0_hw703

def k0_chk704 (v1811 : IVec S16 32) : Prop :=
  (∀ a x, ((![v1811] : Fin 1 → IVec S16 32) a x).toNat < S28672.size a)
instance k0_chk704.dec : ∀ (v1811 : IVec S16 32), Decidable (k0_chk704 v1811) := fun v1811 => decidable_of_iff' _ (Iff.of_eq (k0_chk704.eq_1 v1811))
theorem k0_idx704_inb : ∀ (v1811 : IVec S16 32) (k0_hw704 : k0_chk704 v1811), ∀ a x, ((![v1811] : Fin 1 → IVec S16 32) a x).toNat < S28672.size a := fun v1811 k0_hw704 => k0_hw704

def k0_chk705 (v1813 : IVec S16 32) : Prop :=
  (∀ a x, ((![v1813] : Fin 1 → IVec S16 32) a x).toNat < S28672.size a)
instance k0_chk705.dec : ∀ (v1813 : IVec S16 32), Decidable (k0_chk705 v1813) := fun v1813 => decidable_of_iff' _ (Iff.of_eq (k0_chk705.eq_1 v1813))
theorem k0_idx705_inb : ∀ (v1813 : IVec S16 32) (k0_hw705 : k0_chk705 v1813), ∀ a x, ((![v1813] : Fin 1 → IVec S16 32) a x).toNat < S28672.size a := fun v1813 k0_hw705 => k0_hw705

def k0_chk706 (v1815 : IVec S16 32) : Prop :=
  (∀ a x, ((![v1815] : Fin 1 → IVec S16 32) a x).toNat < S28672.size a)
instance k0_chk706.dec : ∀ (v1815 : IVec S16 32), Decidable (k0_chk706 v1815) := fun v1815 => decidable_of_iff' _ (Iff.of_eq (k0_chk706.eq_1 v1815))
theorem k0_idx706_inb : ∀ (v1815 : IVec S16 32) (k0_hw706 : k0_chk706 v1815), ∀ a x, ((![v1815] : Fin 1 → IVec S16 32) a x).toNat < S28672.size a := fun v1815 k0_hw706 => k0_hw706

def k0_chk707 (v1817 : IVec S16 32) : Prop :=
  (∀ a x, ((![v1817] : Fin 1 → IVec S16 32) a x).toNat < S28672.size a)
instance k0_chk707.dec : ∀ (v1817 : IVec S16 32), Decidable (k0_chk707 v1817) := fun v1817 => decidable_of_iff' _ (Iff.of_eq (k0_chk707.eq_1 v1817))
theorem k0_idx707_inb : ∀ (v1817 : IVec S16 32) (k0_hw707 : k0_chk707 v1817), ∀ a x, ((![v1817] : Fin 1 → IVec S16 32) a x).toNat < S28672.size a := fun v1817 k0_hw707 => k0_hw707

def k0_chk708 (v1819 : IVec S16 32) : Prop :=
  (∀ a x, ((![v1819] : Fin 1 → IVec S16 32) a x).toNat < S28672.size a)
instance k0_chk708.dec : ∀ (v1819 : IVec S16 32), Decidable (k0_chk708 v1819) := fun v1819 => decidable_of_iff' _ (Iff.of_eq (k0_chk708.eq_1 v1819))
theorem k0_idx708_inb : ∀ (v1819 : IVec S16 32) (k0_hw708 : k0_chk708 v1819), ∀ a x, ((![v1819] : Fin 1 → IVec S16 32) a x).toNat < S28672.size a := fun v1819 k0_hw708 => k0_hw708

def k0_chk709 (v1821 : IVec S16 32) : Prop :=
  (∀ a x, ((![v1821] : Fin 1 → IVec S16 32) a x).toNat < S28672.size a)
instance k0_chk709.dec : ∀ (v1821 : IVec S16 32), Decidable (k0_chk709 v1821) := fun v1821 => decidable_of_iff' _ (Iff.of_eq (k0_chk709.eq_1 v1821))
theorem k0_idx709_inb : ∀ (v1821 : IVec S16 32) (k0_hw709 : k0_chk709 v1821), ∀ a x, ((![v1821] : Fin 1 → IVec S16 32) a x).toNat < S28672.size a := fun v1821 k0_hw709 => k0_hw709

def k0_chk710 (v1838 : IVec S16 32) : Prop :=
  (∀ a x, ((![v1838] : Fin 1 → IVec S16 32) a x).toNat < S10240.size a)
instance k0_chk710.dec : ∀ (v1838 : IVec S16 32), Decidable (k0_chk710 v1838) := fun v1838 => decidable_of_iff' _ (Iff.of_eq (k0_chk710.eq_1 v1838))
theorem k0_idx710_inb : ∀ (v1838 : IVec S16 32) (k0_hw710 : k0_chk710 v1838), ∀ a x, ((![v1838] : Fin 1 → IVec S16 32) a x).toNat < S10240.size a := fun v1838 k0_hw710 => k0_hw710
def k0_off4 (i : grid0.Coords) (k0_t7 : Fin (k0_t7_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c50_i32 : BitVec 32 := 50#32
  let v7 : BitVec 32 := Scalar.subi c50_i32 v1
  let c32_i32 : BitVec 32 := 32#32
  let v8 : BitVec 32 := Scalar.addi v7 c32_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_1 : BitVec 32 := 0#32
  let v13 : BitVec 1 := Scalar.cmpi .slt v9 c0_i32_1
  let v14 : BitVec 32 := Scalar.extui v13
  let v15 : BitVec 32 := Scalar.subi v12 v14
  let c32_i32_0 : BitVec 32 := 32#32
  let c0_i32_2 : BitVec 32 := 0#32
  let v16 : BitVec 1 := Scalar.cmpi .sgt c32_i32_0 c0_i32_2
  let v17 : BitVec 32 := Scalar.extui v16
  let c0_i32_3 : BitVec 32 := 0#32
  let v18 : BitVec 1 := Scalar.cmpi .slt c32_i32_0 c0_i32_3
  let v19 : BitVec 32 := Scalar.extui v18
  let v20 : BitVec 32 := Scalar.subi v17 v19
  let v21 : BitVec 1 := Scalar.cmpi .ne v15 v20
  let v22 : BitVec 32 := Scalar.remsi v9 c32_i32_0
  let c0_i32_4 : BitVec 32 := 0#32
  let v23 : BitVec 1 := Scalar.cmpi .ne v22 c0_i32_4
  let v24 : BitVec 1 := Scalar.andi v21 v23
  let v10 : BitVec 32 := Scalar.divsi v9 c32_i32_0
  let c1_i32_5 : BitVec 32 := 1#32
  let v25 : BitVec 32 := Scalar.subi v10 c1_i32_5
  let v26 : BitVec 32 := Scalar.select v24 v25 v10
  let v27 : BitVec 32 := Scalar.subi v26 c0_i32_7
  let c1_i32_8 : BitVec 32 := 1#32
  let v29 : BitVec 32 := Scalar.divsi v27 c1_i32_8
  let v30 : BitVec 32 := Scalar.muli v29 c1_i32_8
  let v31 : BitVec 32 := Scalar.addi c0_i32_7 v30
  let c1_i32_10 : BitVec 32 := 1#32
  let arg8 : BitVec 32 := Scf.iv v31 c1_i32_10 k0_t7
  let c32_i32_11 : BitVec 32 := 32#32
  let v32 : BitVec 32 := Scalar.muli arg8 c32_i32_11
  let v33 : BitVec 32 := Scalar.addi v1 v32
  let c10240_i32_379 : BitVec 32 := 10240#32
  let v1790 : BitVec 32 := Scalar.muli v33 c10240_i32_379
  ![v1790.toNat]
abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x56 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x56x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S56x2x128_S14x4x2x128 : S56x2x128.ShapeCasts S14x4x2x128
  bcast_S_S14x16x128 : S_.BroadcastsInDim S14x16x128 (![] : Fin 0 → Fin S14x16x128.rank)
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  slices_S100000x56_S4000x56_96000_0 : S100000x56.Slices ![96000, 0] S4000x56
  shapeCasts_S4000x56_S224000 : S4000x56.ShapeCasts S224000
  shapeCasts_S14x16x128_S28672 : S14x16x128.ShapeCasts S28672
  iota_S16_d0_w32_scVector : S16.Iotas .scVector 32 [0]
  h_S4480 : 0 < S4480.numel
  h_S28672 : 0 < S28672.numel
  h_S10240 : 0 < S10240.numel
  transposes_S56x2x128_S2x56x128_1_0_2 : S56x2x128.Transposes [1, 0, 2] S2x56x128
  inb_S2x56x128_S1x56x128_0_0_0 : ∀ a, (![0, 0, 0] : Fin 3 → Nat) a + S1x56x128.size a ≤ S2x56x128.size a
  h_S1x56x128 : 0 < S1x56x128.numel
  shapeCasts_S1x56x128_S56x128 : S1x56x128.ShapeCasts S56x128
  inb_S2x56x128_S1x56x128_1_0_0 : ∀ a, (![1, 0, 0] : Fin 3 → Nat) a + S1x56x128.size a ≤ S2x56x128.size a
  reduces_S56x128_S128 : S56x128.Reduces [0] S128
  shapeCasts_S128_S1x128 : S128.ShapeCasts S1x128
  inb_S16000x56_S16000x56_0_0 : ∀ a, (![0, 0] : Fin 2 → Nat) a + S16000x56.size a ≤ S16000x56.size a
  h_S16000x56 : 0 < S16000x56.numel
  broadcasts_S1x128_S16000x128 : S1x128.Broadcasts S16000x128
  inb_S16000x128_S16000x128_0_0 : ∀ a, (![0, 0] : Fin 2 → Nat) a + S16000x128.size a ≤ S16000x128.size a
  h_S16000x128 : 0 < S16000x128.numel
  shapeCasts_S512000_S4000x128 : S512000.ShapeCasts S4000x128
  updateFits_S100000x128_S4000x128 : S100000x128.Slices (fun _ => 0) S4000x128
  h_S_ : 0 < S_.numel
  gather_S14x4x2x128_S16x2_S14x16x128_02_12_n_n_12_1_1411128_wf : GatherDims.WF S14x4x2x128 S16x2 S14x16x128 [0, 2] [1, 2] [] [1, 2] [] 1 ![14, 1, 1, 128]
  dot_S16000x56_S56x128_S16000x128_1_0_0_1_n_n_wf : DotDims.WF S16000x56 S56x128 S16000x128 [1] [0] [0] [1] [] []
  hcc0_scoped0 : 0 + S_.numel ≤ 10
  hcc0_scoped1 : 1 + S_.numel ≤ 10
  hcc0_scoped2 : 2 + S_.numel ≤ 10
  hcc0_scoped3 : 3 + S_.numel ≤ 10
  hcc0_scoped4 : 4 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : ∀ i : grid0.Coords, (k0_t1_loop i).OK
  k0_off1_inb : ∀ (i : grid0.Coords) (k0_t1 : Fin (k0_t1_loop i).trips), ∀ a, (k0_off1 i k0_t1) a + S4480.size a ≤ S224000.size a
  k0_t2_ok : k0_t2_loop.OK
  k0_t3_ok : k0_t3_loop.OK
  k0_t4_ok : k0_t4_loop.OK
  k0_t5_ok : k0_t5_loop.OK
  k0_t6_ok : k0_t6_loop.OK
  k0_off2_inb : ∀ (i : grid0.Coords) (k0_t1 : Fin (k0_t1_loop i).trips), ∀ a, (k0_off2 i k0_t1) a + S10240.size a ≤ S512000.size a
  k0_t7_ok : ∀ i : grid0.Coords, (k0_t7_loop i).OK
  k0_off3_inb : ∀ (i : grid0.Coords) (k0_t7 : Fin (k0_t7_loop i).trips), ∀ a, (k0_off3 i k0_t7) a + S4480.size a ≤ S224000.size a
  k0_t8_ok : k0_t8_loop.OK
  k0_t9_ok : k0_t9_loop.OK
  k0_t10_ok : k0_t10_loop.OK
  k0_t11_ok : k0_t11_loop.OK
  k0_t12_ok : k0_t12_loop.OK
  k0_off4_inb : ∀ (i : grid0.Coords) (k0_t7 : Fin (k0_t7_loop i).trips), ∀ a, (k0_off4 i k0_t7) a + S10240.size a ≤ S512000.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S16000x56.size a < S100000x56.size a
  hwx1_0 : ∀ i : grid1.Coords, EltTy.bits .i32 = 32 ∨ (Rect.unit (s := S100000x56) (fun a => cc1_transform_0 i a * S16000x56.size a) (fun a => (Pipeline.Clip.of (cc1_transform_0 i a) (S16000x56.size a) (S100000x56.size a)).extent (S16000x56.size a)) fun a => Pipeline.Clip.inb (Pipeline.Clip.ok_of (hstart1_0 i a))).WholeWords (EltTy.packing .i32)
  hwxs1_0 : ∀ i : grid1.Coords, EltTy.bits .i32 = 32 ∨ (Rect.unit (s := S16000x56) (fun _ => 0) (fun a => (Pipeline.Clip.of (cc1_transform_0 i a) (S16000x56.size a) (S100000x56.size a)).extent (S16000x56.size a)) fun a => (Nat.zero_add _).trans_le (Pipeline.Clip.extent_le (Pipeline.Clip.ok_of (hstart1_0 i a)))).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x56x128.size a ≤ S2x56x128.size a
  hwx1_1 : ∀ i : grid1.Coords, EltTy.bits .f32 = 32 ∨ (Rect.block (s := S2x56x128) S2x56x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S16000x128.size a < S100000x128.size a
  hwx1_2 : ∀ i : grid1.Coords, EltTy.bits .f32 = 32 ∨ (Rect.unit (s := S100000x128) (fun a => cc1_transform_2 i a * S16000x128.size a) (fun a => (Pipeline.Clip.of (cc1_transform_2 i a) (S16000x128.size a) (S100000x128.size a)).extent (S16000x128.size a)) fun a => Pipeline.Clip.inb (Pipeline.Clip.ok_of (hstart1_2 i a))).WholeWords (EltTy.packing .f32)
  hwxs1_2 : ∀ i : grid1.Coords, EltTy.bits .f32 = 32 ∨ (Rect.unit (s := S16000x128) (fun _ => 0) (fun a => (Pipeline.Clip.of (cc1_transform_2 i a) (S16000x128.size a) (S100000x128.size a)).extent (S16000x128.size a)) fun a => (Nat.zero_add _).trans_le (Pipeline.Clip.extent_le (Pipeline.Clip.ok_of (hstart1_2 i a)))).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
def gather_S14x4x2x128_S16x2_S14x16x128_02_12_n_n_12_1_1411128 : GatherDims S14x4x2x128 S16x2 S14x16x128 where
  offsetDims := [0, 2]
  collapsedSliceDims := [1, 2]
  operandBatchingDims := []
  startIndicesBatchingDims := []
  startIndexMap := [1, 2]
  indexVectorDim := 1
  sliceSizes := ![14, 1, 1, 128]
  wf := gather_S14x4x2x128_S16x2_S14x16x128_02_12_n_n_12_1_1411128_wf
def dot_S16000x56_S56x128_S16000x128_1_0_0_1_n_n : DotDims S16000x56 S56x128 S16000x128 where
  lhsContracting := [1]
  rhsContracting := [0]
  lhsNonContracting := [0]
  rhsNonContracting := [1]
  lhsBatch := []
  rhsBatch := []
  wf := dot_S16000x56_S56x128_S16000x128_1_0_0_1_n_n_wf

abbrev win1_0 : Pipeline.Window sig grid1 :=
  Pipeline.Window.ofSpecClip (Memref.whole main_arg0) S16000x56.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v71) S2x56x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_v72) S16000x128.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x56 : Shape := ⟨2, ![100000, 56]⟩
abbrev S56x2x128 : Shape := ⟨3, ![56, 2, 128]⟩
abbrev S56 : Shape := ⟨1, ![56]⟩
abbrev S1x56 : Shape := ⟨2, ![1, 56]⟩
abbrev S_ : Shape := ⟨0, ![]⟩
abbrev S100000x56x1 : Shape := ⟨3, ![100000, 56, 1]⟩
abbrev S100000x56x2 : Shape := ⟨3, ![100000, 56, 2]⟩
abbrev S100000x56x128 : Shape := ⟨3, ![100000, 56, 128]⟩
abbrev S100000x128 : Shape := ⟨2, ![100000, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x56, .i32⟩
  | .hbm, ⟨1, _⟩ => ⟨S56x2x128, .f32⟩
  | .hbm, ⟨2, _⟩ => ⟨S56, .i32⟩
  | .hbm, ⟨3, _⟩ => ⟨S1x56, .i32⟩
  | .hbm, ⟨4, _⟩ => ⟨S_, .i32⟩
  | .hbm, ⟨5, _⟩ => ⟨S1x56, .i32⟩
  | .hbm, ⟨6, _⟩ => ⟨S1x56, .i1⟩
  | .hbm, ⟨7, _⟩ => ⟨S_, .i32⟩
  | .hbm, ⟨8, _⟩ => ⟨S1x56, .i32⟩
  | .hbm, ⟨9, _⟩ => ⟨S1x56, .i32⟩
  | .hbm, ⟨10, _⟩ => ⟨S1x56, .i32⟩
  | .hbm, ⟨11, _⟩ => ⟨S_, .i32⟩
  | .hbm, ⟨12, _⟩ => ⟨S100000x56, .i32⟩
  | .hbm, ⟨13, _⟩ => ⟨S100000x56, .i1⟩
  | .hbm, ⟨14, _⟩ => ⟨S_, .i32⟩
  | .hbm, ⟨15, _⟩ => ⟨S100000x56, .i32⟩
  | .hbm, ⟨16, _⟩ => ⟨S100000x56, .i32⟩
  | .hbm, ⟨17, _⟩ => ⟨S100000x56, .i32⟩
  | .hbm, ⟨18, _⟩ => ⟨S100000x56, .i32⟩
  | .hbm, ⟨19, _⟩ => ⟨S100000x56x1, .i32⟩
  | .hbm, ⟨20, _⟩ => ⟨S100000x56x1, .i32⟩
  | .hbm, ⟨21, _⟩ => ⟨S100000x56x2, .i32⟩
  | .hbm, ⟨22, _⟩ => ⟨S100000x56x128, .f32⟩
  | .hbm, ⟨23, _⟩ => ⟨S_, .f32⟩
  | .hbm, ⟨24, _⟩ => ⟨S100000x128, .f32⟩
  | _, _ => ⟨S100000x56, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S56_S1x56_1 : S56.BroadcastsInDim S1x56 (![1] : Fin 1 → Fin S1x56.rank)
  bcast_S_S1x56 : S_.BroadcastsInDim S1x56 (![] : Fin 0 → Fin S1x56.rank)
  bcast_S_S100000x56 : S_.BroadcastsInDim S100000x56 (![] : Fin 0 → Fin S100000x56.rank)
  bcast_S1x56_S100000x56_0_1 : S1x56.BroadcastsInDim S100000x56 (![0, 1] : Fin 2 → Fin S100000x56.rank)
  bcast_S100000x56_S100000x56x1_0_1 : S100000x56.BroadcastsInDim S100000x56x1 (![0, 1] : Fin 2 → Fin S100000x56x1.rank)
  concatenates_S100000x56x1_S100000x56x1_S100000x56x2_d2 : Shape.Concatenates [S100000x56x1, S100000x56x1] S100000x56x2 2
  reducesTo_S100000x56x128_S100000x128_d1 : S100000x56x128.ReducesTo [1] S100000x128
  h_S_ : 0 < S_.numel
  gather_S56x2x128_S100000x56x2_S100000x56x128_2_01_n_n_01_2_11128_wf : GatherDims.WF S56x2x128 S100000x56x2 S100000x56x128 [2] [0, 1] [] [0, 1] [] 2 ![1, 1, 128]

variable [Facts₀]

def gather_S56x2x128_S100000x56x2_S100000x56x128_2_01_n_n_01_2_11128 : GatherDims S56x2x128 S100000x56x2 S100000x56x128 where
  offsetDims := [2]
  collapsedSliceDims := [0, 1]
  operandBatchingDims := []
  startIndicesBatchingDims := []
  startIndexMap := [0, 1]
  indexVectorDim := 2
  sliceSizes := ![1, 1, 128]
  wf := gather_S56x2x128_S100000x56x2_S100000x56x128_2_01_n_n_01_2_11128_wf

class Facts : Prop extends Facts₀ where

variable [Facts]
-- ==== Proof.Bits.Setup.lean ====
/-
  The vocabulary of the kernel program's run: the program's table of bodies as the launch of its
  thirty-two tile tasks sees it, the side conditions of that launch, and the names of the arrays
  and scratch buffers a tile task touches. The tile with core coordinate `c` and subcore coordinate `s`
  has worker number `2 s + c`; it handles the micro-batches `w, w + 32, …` below fifty.
-/
import proofs.«203024_g60129542144782_cont_9to1_m_748_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203024_g60129542144782_cont_9to1_m_748_22_alg».proof.Proof.Gen.Kernel
import proofs.«203024_g60129542144782_cont_9to1_m_748_22_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! The ghost state: the launch handshakes' rounds, the rounds of the TensorCore region's staging cells, and the
    counters of the tiles' own copies (each tile only copies between its scratch and the arrays and waits at once). -/
abbrev UH : Type := URounds (GSem nD τ sig) ℕ
abbrev UP : Type := URounds (GSem nD τ sig) Unit
abbrev UU : Type := UH × (UP × Counters)

/-- The tile's core and subcore, from its grid coordinates. -/
abbrev cV (L : grid0.Coords) : Fin τ.nSC := (L 0).castLE hcore0
abbrev jV (L : grid0.Coords) : Fin τ.nSub := (L 1).castLE hsub0

/-- The three arrays of the call as a tile addresses them, and its three scratch buffers. -/
abbrev xsM : Memref sig .scVector .hbm S224000 .i32 := Memref.whole main_v68_scv
abbrev gtM : Memref sig .scVector .hbm S28672 .f32 := Memref.whole main_v69_scv
abbrev outM : Memref sig .scVector .hbm S512000 .f32 := Memref.whole main_v70_scv
abbrev xbufM : Memref sig .scVector .vmem S4480 .i32 := Memref.whole cc0_scratch0
abbrev obufM : Memref sig .scVector .vmem S10240 .f32 := Memref.whole cc0_scratch1
abbrev tbufM : Memref sig .scVector .vmem S28672 .f32 := Memref.whole cc0_scratch2

end Cert.Proof.KB

end
-- ==== Proof.Spec.lean ====
/-
  The function both programs compute, stated once over literal shapes.

  For a row `n` of the index matrix `x : [100000, 56]` (entries 0 or 1) and a column `d`, the result is the sum over
  the 56 features `f` of the table entry `t[f, x[n, f], d]`: each feature contributes row 0 or row 1 of its own
  two-row table. `sel` reads a word as that row number (1 for the word one, 0 otherwise), so the function is total;
  on the inputs the claim speaks of (`Bin`: every entry is the word zero or the word one) it is the plain lookup.
-/
import Idealize.ShloMosaic.PureOps.Ideal
import Idealize.ShloMosaic.Lib.ValueIdx

noncomputable section

namespace Cert.Spec

open Idealize.ShloMosaic Idealize.ShloMosaic.ValueIdx

abbrev SX : Shape := ⟨2, ![100000, 56]⟩
abbrev ST : Shape := ⟨3, ![56, 2, 128]⟩
abbrev SO : Shape := ⟨2, ![100000, 128]⟩

/-- The row of a two-row table a word selects: row 1 for the word one, row 0 otherwise. -/
def sel (w : BitVec 32) : Fin 2 := if w = 1#32 then 1 else 0

theorem sel_zero : sel 0#32 = 0 := by decide
theorem sel_one : sel 1#32 = 1 := by decide

/-- Entry `(n, d)` of the result: the sum over the features of the selected table rows' entries at column `d`. -/
def G (x : IVec SX 32) (t : FVec Ideal ST .f32) : FVec Ideal SO .f32 :=
  fun i => ∑ f : Fin 56, t (ix3 f (sel (x (ix2 (i 0 : Fin 100000) f))) (i 1 : Fin 128))

/-- Every entry of the index matrix is the word zero or the word one. -/
def Bin (x : IVec SX 32) : Prop := ∀ j, x j = 0#32 ∨ x j = 1#32

/-- Every table entry is a real number. -/
def Finite (t : FVec Ideal ST .f32) : Prop := ∀ j, ∃ r : ℝ, t j = (r : EReal)

end Cert.Spec

end
-- ==== Proof.LibLookupLaws.lean ====
/-
  The algebra of a lookup that sums, over 56 features, one of two table rows per feature.

  Two regroupings of the sum `∑ f, T f (b f)` (`T f r` the entry of feature `f`'s row `r`, `b f` the row the
  feature selects), stated over the extended reals:

  * the grouped form: the features taken four at a time, the four selected rows of a group read off a
    sixteen-row table indexed by the group's four bits as one number, the fourteen group values added pairwise
    as a tree;
  * the linear form: `∑ f, b f * (T f 1 - T f 0) + ∑ f, T f 0`, valid when the table entries are real numbers.

  With them the bit law both rest on: bit `k` of `b0 + 2 b1 + 4 b2 + 8 b3` is `bk`.
-/
import proofs.«203024_g60129542144782_cont_9to1_m_748_22_alg».proof.Proof.Spec

noncomputable section

namespace Cert.LookupLaws

open Idealize.ShloMosaic

/-! ## The bit law -/

/-- Bit `k` of the number `c`, as the row number of a two-row table. -/
def bit (k c : ℕ) : Fin 2 := ⟨c / 2 ^ k % 2, Nat.mod_lt _ (by decide)⟩

/-- The number below sixteen whose bits, lowest first, are `b0 b1 b2 b3`. -/
def word4 (b0 b1 b2 b3 : Fin 2) : Fin 16 := ⟨b0.val + 2 * b1.val + 4 * b2.val + 8 * b3.val, by omega⟩

/-- Shifting right by `k` and masking with one reads bit `k`: the quotient by `2 ^ k`, modulo two. -/
theorem shiftRight_and_one (c k : ℕ) : (c >>> k) &&& 1 = c / 2 ^ k % 2 := by
  rw [Nat.shiftRight_eq_div_pow, Nat.and_one_is_mod]

/-- `bit k c` is the shifted and masked number. -/
theorem bit_val (k c : ℕ) : (bit k c).val = (c >>> k) &&& 1 := (shiftRight_and_one c k).symm

/-- Bit 0 of `b0 + 2 b1 + 4 b2 + 8 b3` is `b0`. -/
theorem bit_zero_word4 (b0 b1 b2 b3 : Fin 2) : bit 0 (word4 b0 b1 b2 b3).val = b0 := by
  apply Fin.ext; simp only [bit, word4]; omega

/-- Bit 1 of `b0 + 2 b1 + 4 b2 + 8 b3` is `b1`. -/
theorem bit_one_word4 (b0 b1 b2 b3 : Fin 2) : bit 1 (word4 b0 b1 b2 b3).val = b1 := by
  apply Fin.ext; simp only [bit, word4]; omega

/-- Bit 2 of `b0 + 2 b1 + 4 b2 + 8 b3` is `b2`. -/
theorem bit_two_word4 (b0 b1 b2 b3 : Fin 2) : bit 2 (word4 b0 b1 b2 b3).val = b2 := by
  apply Fin.ext; simp only [bit, word4]; omega

/-- Bit 3 of `b0 + 2 b1 + 4 b2 + 8 b3` is `b3`. -/
theorem bit_three_word4 (b0 b1 b2 b3 : Fin 2) : bit 3 (word4 b0 b1 b2 b3).val = b3 := by
  apply Fin.ext; simp only [bit, word4]; omega

/-- The number `b0 + 2 b1 + 4 b2 + 8 b3` computed on 32-bit words, each bit a word zero or one, the sum taken from the
    left: the word of that number. -/
theorem word4_word : ∀ b0 b1 b2 b3 : Fin 2,
    BitVec.ofNat 32 b0.val + BitVec.ofNat 32 b1.val * 2#32 + BitVec.ofNat 32 b2.val * 4#32 + BitVec.ofNat 32 b3.val * 8#32
      = BitVec.ofNat 32 (word4 b0 b1 b2 b3).val := by decide

/-- The bit law on 32-bit words, in the form a host program computes it: the number `c < 16` as a word, shifted
    right arithmetically by `k < 4`, masked with one, and two added if the result is negative (it never is), is
    bit `k` of `c` as a word. -/
theorem word_bit (c : Fin 16) (k : Fin 4) :
    Scalar.select
        (IntOp.cmpi .slt (IntOp.andi (IntOp.shrsi .host (BitVec.ofNat 32 c.val) (BitVec.ofNat 32 k.val)) 1#32) 0#32)
        (IntOp.addi (IntOp.andi (IntOp.shrsi .host (BitVec.ofNat 32 c.val) (BitVec.ofNat 32 k.val)) 1#32) 2#32)
        (IntOp.andi (IntOp.shrsi .host (BitVec.ofNat 32 c.val) (BitVec.ofNat 32 k.val)) 1#32)
      = BitVec.ofNat 32 (bit k.val c.val).val := by
  revert c k; decide

/-! ## The grouped form -/

section Grouped

variable (T : Fin 56 → Fin 2 → EReal) (b : Fin 56 → Fin 2)

/-- Feature `4 j + k` of group `j`. -/
def feat (j : Fin 14) (k : Fin 4) : Fin 56 := ⟨4 * j.val + k.val, by omega⟩

/-- The grouped table: entry `(j, c)` adds, starting from zero, the rows of the four features of group `j` that
    the four bits of `c` select, lowest bit first. -/
def gt (j : Fin 14) (c : Fin 16) : EReal :=
  (((0 + T (feat j 0) (bit 0 c.val)) + T (feat j 1) (bit 1 c.val)) + T (feat j 2) (bit 2 c.val))
    + T (feat j 3) (bit 3 c.val)

/-- The number of group `j`: the rows its four features select, as four bits, the first feature's lowest. -/
def code (j : Fin 14) : Fin 16 := word4 (b (feat j 0)) (b (feat j 1)) (b (feat j 2)) (b (feat j 3))

/-- A group's number spelt out: `b0 + 2 b1 + 4 b2 + 8 b3` over the rows its features select. -/
theorem code_val (j : Fin 14) :
    (code b j).val = (b (feat j 0)).val + 2 * (b (feat j 1)).val + 4 * (b (feat j 2)).val + 8 * (b (feat j 3)).val := rfl

/-- The grouped table at a group's own number is the sum of the group's four selected entries. -/
theorem gt_code (j : Fin 14) : gt T j (code b j) = ∑ k : Fin 4, T (feat j k) (b (feat j k)) := by
  unfold gt code
  rw [bit_zero_word4, bit_one_word4, bit_two_word4, bit_three_word4, zero_add, Fin.sum_univ_four]

/-- A sum over the 56 features is the sum over the 14 groups of the sums over each group's four features. -/
theorem sum_features (g : Fin 56 → EReal) : ∑ f : Fin 56, g f = ∑ j : Fin 14, ∑ k : Fin 4, g (feat j k) := by
  rw [← Fintype.sum_prod_type' (f := fun j k => g (feat j k))]
  refine (Fintype.sum_equiv (finProdFinEquiv : Fin 14 × Fin 4 ≃ Fin 56) _ _ fun p => ?_).symm
  congr 1; apply Fin.ext
  simp only [finProdFinEquiv_apply_val, feat]; omega

/-- Fourteen values added pairwise as a tree — neighbours first, `s i = v (2 i) + v (2 i + 1)`, then the seven sums
    again by neighbours with the odd one carried, `((s0 + s1) + (s2 + s3)) + ((s4 + s5) + s6)` — is their sum. -/
theorem tree14 (v : Fin 14 → EReal) :
    (((v 0 + v 1) + (v 2 + v 3)) + ((v 4 + v 5) + (v 6 + v 7)))
      + (((v 8 + v 9) + (v 10 + v 11)) + (v 12 + v 13)) = ∑ j : Fin 14, v j := by
  have h : ∑ j : Fin 14, v j = v 0 + (v 1 + (v 2 + (v 3 + (v 4 + (v 5 + (v 6 + (v 7 + (v 8 + (v 9 + (v 10
      + (v 11 + (v 12 + v 13)))))))))))) := by
    simp only [Fin.sum_univ_succ, Fin.sum_univ_zero, add_zero]; rfl
  rw [h]; simp only [add_assoc]

/-- THE GROUPED FORM: the tree sum of the grouped table's entries at the groups' numbers is the sum over all
    features of the selected entries. -/
theorem tree_gt_eq_sum :
    (((gt T 0 (code b 0) + gt T 1 (code b 1)) + (gt T 2 (code b 2) + gt T 3 (code b 3)))
        + ((gt T 4 (code b 4) + gt T 5 (code b 5)) + (gt T 6 (code b 6) + gt T 7 (code b 7))))
      + (((gt T 8 (code b 8) + gt T 9 (code b 9)) + (gt T 10 (code b 10) + gt T 11 (code b 11)))
        + (gt T 12 (code b 12) + gt T 13 (code b 13)))
      = ∑ f : Fin 56, T f (b f) := by
  rw [tree14 (fun j => gt T j (code b j)), sum_features]
  exact Finset.sum_congr rfl fun j _ => gt_code T b j

end Grouped

/-! ## The linear form -/

section Linear

/-- The coercion of the reals into the extended reals carries finite sums. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- THE LINEAR FORM: when every table entry is a real number, the sum of the selected entries is the sum of the
    rows 0 plus, per feature, the row number (0 or 1, as a real) times the difference of the two rows. -/
theorem linear_eq_sum (T : Fin 56 → Fin 2 → EReal) (hT : ∀ f r, ∃ x : ℝ, T f r = (x : EReal)) (b : Fin 56 → Fin 2) :
    (∑ f : Fin 56, (((b f).val : ℝ) : EReal) * (T f 1 - T f 0)) + (∑ f : Fin 56, T f 0) = ∑ f : Fin 56, T f (b f) := by
  choose t ht using hT
  simp only [ht]
  simp only [← EReal.coe_sub, ← EReal.coe_mul, ← coe_sum, ← EReal.coe_add]
  congr 1
  rw [← Finset.sum_add_distrib]
  refine Finset.sum_congr rfl fun f _ => ?_
  have h2 : b f = 0 ∨ b f = 1 := by
    rcases b f with ⟨v, hv⟩
    rcases v with _ | _ | v
    · left; rfl
    · right; rfl
    · omega
  rcases h2 with h | h <;> rw [h] <;> simp

end Linear

end Cert.LookupLaws

end
-- ==== Proof.Bits.GroupedTable.lean ====
/-
  The two arrays the host part of the program hands to the lookup on the last 4000 rows, as functions of the
  program's arguments, read at an index.

  * the grouped table `[14, 16, 128]`, flattened: entry `(j, c, d)` adds, starting from zero, for `k = 0, 1, 2, 3` the
    table entry of feature `4 j + k`, row "bit `k` of `c`", column `d`. The program builds it from the table reshaped to
    `[14, 4, 2, 128]` by four gathers, the `k`-th through a `[16, 2]` array of start indices whose row `c` is
    `(k, bit k of c)`; the bit is computed on words as `(c >> k) & 1`, followed by "add 2 if negative", which never fires;
  * the rows `96000 …` of the index matrix, flattened.
-/
import proofs.«203024_g60129542144782_cont_9to1_m_748_22_alg».proof.Kernel
import proofs.«203024_g60129542144782_cont_9to1_m_748_22_alg».proof.Proof.Gen.Kernel
import proofs.«203024_g60129542144782_cont_9to1_m_748_22_alg».proof.Proof.LibLookupLaws
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.GroupedTableB

open Cert.Kernel Cert.Kernel.Facts₀
open Idealize.ShloMosaic Idealize.ShloMosaic.ValueIdx
open Cert.LookupLaws (bit feat)

variable {F : FTy → Type} [FloatOps F]

/-! ## The terms, operation by operation -/

/-- The table reshaped to `[14, 4, 2, 128]`: feature `4 j + k` at `(j, k)`. -/
def tr (t : FVec F S56x2x128 .f32) : FVec F S14x4x2x128 .f32 :=
  shapeCast S14x4x2x128 t shapeCasts_S56x2x128_S14x4x2x128

/-- The word `w` sixteen times. -/
def splat (w : BitVec 32) : IVec S16 32 := broadcastInDim S16 ![] bcast_S_S16 (constantI S_ 32 w)

/-- `(c >> k) & 1` for `c = 0 … 15`, on words, the shift arithmetic. -/
def masked (kw : BitVec 32) : IVec S16 32 := andi (Host.shrsi (iotaInDim S16 32 0) (splat kw)) (splat 1#32)

/-- The same with two added where it is negative. -/
def bitIdx (kw : BitVec 32) : IVec S16 32 :=
  select (cmpi .slt (masked kw) (splat 0#32)) (addi (masked kw) (splat 2#32)) (masked kw)

/-- The `[16, 2]` start indices of the `k`-th gather: row `c` is `(k, bit k of c)`. -/
def startIdx (kw : BitVec 32) : IVec S16x2 32 :=
  concatenate S16x2 1 [⟨S16x1, broadcastInDim S16x1 ![0] bcast_S16_S16x1_0 (id (splat kw))⟩,
    ⟨S16x1, broadcastInDim S16x1 ![0] bcast_S16_S16x1_0 (bitIdx kw)⟩] concatenates_S16x1_S16x1_S16x2_d1

/-- The `k`-th gather: entry `(j, c, d)` is the reshaped table at `(j, k, bit k of c, d)`. -/
def gath (t : FVec F S56x2x128 .f32) (kw : BitVec 32) : FVec F S14x16x128 .f32 :=
  Host.gather gather_S14x4x2x128_S16x2_S14x16x128_02_12_n_n_12_1_1411128 (tr t) (startIdx kw)

/-- The grouped table `[14, 16, 128]`: zero, plus the four gathers in turn. -/
def gt3 (t : FVec F S56x2x128 .f32) : FVec F S14x16x128 .f32 :=
  addf (addf (addf (addf (broadcastInDim S14x16x128 ![] bcast_S_S14x16x128 (constant S_ .f32 0x00000000#32))
    (gath t 0#32)) (gath t 1#32)) (gath t 2#32)) (gath t 3#32)

/-- The grouped table flattened to `[28672]`: what the lookup on the last rows is handed. -/
def gtTerm (t : FVec F S56x2x128 .f32) : FVec F S28672 .f32 :=
  shapeCast S28672 (gt3 t) shapeCasts_S14x16x128_S28672

/-- Rows `96000 … 99999` of the index matrix flattened to `[224000]`: what the lookup on the last rows is handed. -/
def xsTerm (x : IVec S100000x56 32) : IVec S224000 32 :=
  shapeCast S224000 (extractStridedSlice S4000x56 ![96000, 0] x slices_S100000x56_S4000x56_96000_0)
    shapeCasts_S4000x56_S224000

/-! ## Reading them at an index -/

/-- The index rows read at `r * 56 + f`: row `96000 + r`, feature `f`. -/
theorem xsTerm_apply (x : IVec S100000x56 32) (r : Fin 4000) (f : Fin 56) :
    xsTerm x (ix1 ⟨r.val * 56 + f.val, by omega⟩) = x (ix2 ⟨96000 + r.val, by omega⟩ f) := by
  unfold xsTerm
  rw [shapeCast_apply _ shapeCasts_S4000x56_S224000 _ (ix2 r f) (by
    rw [Shape.rowMajor_val_two, Shape.rowMajor_val_one]; rfl)]
  exact extractStridedSlice_apply _ x slices_S100000x56_S4000x56_96000_0 _ _ (fun a => match a with
    | ⟨0, _⟩ => rfl
    | ⟨1, _⟩ => by show f.val = 0 + f.val; omega)

local notation "GD" => gather_S14x4x2x128_S16x2_S14x16x128_02_12_n_n_12_1_1411128

/-- The gather of the program read at `(j, c, d)`: the operand at `(j, p, q, d)` with `(p, q)` row `c` of the start
    indices, each read as a signed integer and clamped to its axis. -/
theorem gather_apply {α : Type} (x : S14x4x2x128.Idx → α) (idx : IVec S16x2 32) (j : Fin 14) (c : Fin 16) (d : Fin 128) :
    Host.gather GD x idx (ix3 j c d)
      = x (ix4 j ⟨min (idx (ix2 c 0)).toInt.toNat 3, by omega⟩ ⟨min (idx (ix2 c 1)).toInt.toNat 1, by omega⟩ d) := by
  unfold Host.gather
  congr 1
  funext a
  refine Fin.ext ?_
  show (GD).start (ix3 j c d) idx a + (GD).batchCoord (ix3 j c d) a + (GD).offCoord (ix3 j c d) a = _
  rw [GatherDims.batchCoord_eq_zero _ _ _ List.not_mem_nil, Nat.add_zero]
  match a with
  | ⟨0, _⟩ =>
    unfold GatherDims.start GatherDims.offCoord
    rw [dif_neg (show (⟨0, by decide⟩ : Fin 4) ∉ (GD).startIndexMap from by decide),
      dif_pos (show (⟨0, by decide⟩ : Fin 4) ∈ (GD).sKept from by decide), Nat.zero_add]
    rfl
  | ⟨1, _⟩ =>
    rw [GatherDims.offCoord_eq_zero _ _ _ (show (⟨1, by decide⟩ : Fin 4) ∉ (GD).sKept from by decide), Nat.add_zero]
    unfold GatherDims.start
    rw [dif_pos (show (⟨1, by decide⟩ : Fin 4) ∈ (GD).startIndexMap from by decide)]
    have hsi : (GD).siIdx (ix3 j c d) ⟨List.idxOf (⟨1, by decide⟩ : Fin 4) (GD).startIndexMap,
        List.idxOf_lt_length_iff.2 (by decide)⟩ = ix2 c 0 := by
      funext b; refine Fin.ext ?_
      match b with
      | ⟨0, _⟩ => rfl
      | ⟨1, _⟩ => rfl
    rw [hsi]; rfl
  | ⟨2, _⟩ =>
    rw [GatherDims.offCoord_eq_zero _ _ _ (show (⟨2, by decide⟩ : Fin 4) ∉ (GD).sKept from by decide), Nat.add_zero]
    unfold GatherDims.start
    rw [dif_pos (show (⟨2, by decide⟩ : Fin 4) ∈ (GD).startIndexMap from by decide)]
    have hsi : (GD).siIdx (ix3 j c d) ⟨List.idxOf (⟨2, by decide⟩ : Fin 4) (GD).startIndexMap,
        List.idxOf_lt_length_iff.2 (by decide)⟩ = ix2 c 1 := by
      funext b; refine Fin.ext ?_
      match b with
      | ⟨0, _⟩ => rfl
      | ⟨1, _⟩ => rfl
    rw [hsi]; rfl
  | ⟨3, _⟩ =>
    unfold GatherDims.start GatherDims.offCoord
    rw [dif_neg (show (⟨3, by decide⟩ : Fin 4) ∉ (GD).startIndexMap from by decide),
      dif_pos (show (⟨3, by decide⟩ : Fin 4) ∈ (GD).sKept from by decide), Nat.zero_add]
    rfl

/-- Column 0 of the start indices is the constant `k`. -/
theorem startIdx_zero (kw : BitVec 32) (c : Fin 16) : startIdx kw (ix2 c 0) = kw := by
  unfold startIdx
  exact (concatenate_pair_apply_left (t := S16x2) (s₁ := S16x1) (s₂ := S16x1) (1 : Fin 2) _ _
    concatenates_S16x1_S16x1_S16x2_d1 (ix2 c (0 : Fin 2)) rfl (ix2 c (0 : Fin 1))
    (fun b => match b with
      | ⟨0, _⟩ => rfl
      | ⟨1, _⟩ => rfl)).trans rfl

/-- Column 1 of the start indices is the computed bit. -/
theorem startIdx_one (kw : BitVec 32) (c : Fin 16) : startIdx kw (ix2 c 1) = bitIdx kw (ix1 c) := by
  unfold startIdx
  exact (concatenate_pair_apply_right (t := S16x2) (s₁ := S16x1) (s₂ := S16x1) (1 : Fin 2) _ _
    concatenates_S16x1_S16x1_S16x2_d1 (ix2 c (1 : Fin 2)) rfl rfl (ix2 c (0 : Fin 1))
    (fun b => match b with
      | ⟨0, _⟩ => fun _ => rfl
      | ⟨1, _⟩ => fun h => absurd rfl h)
    rfl).trans rfl

/-- The computed bit, for the shift `k < 4`, is bit `k` of `c` as a word. -/
theorem bitIdx_apply (c : Fin 16) (k : Fin 4) :
    bitIdx (BitVec.ofNat 32 k.val) (ix1 c) = BitVec.ofNat 32 (bit k.val c.val).val :=
  Cert.LookupLaws.word_bit c k

/-- A shift amount below four, read signed and clamped to `[0, 3]`, is itself. -/
theorem clamp_shift : ∀ k : Fin 4, min (BitVec.ofNat 32 k.val).toInt.toNat 3 = k.val := by decide

/-- A bit, read signed and clamped to `[0, 1]`, is itself. -/
theorem clamp_bit : ∀ b : Fin 2, min (BitVec.ofNat 32 b.val).toInt.toNat 1 = b.val := by decide

/-- The reshaped table at `(j, k, r, d)` is the table at feature `4 j + k`, row `r`, column `d`. -/
theorem tr_apply (t : FVec F S56x2x128 .f32) (j : Fin 14) (k : Fin 4) (r : Fin 2) (d : Fin 128) :
    tr t (ix4 j k r d) = t (ix3 (feat j k) r d) := by
  unfold tr
  exact shapeCast_apply t shapeCasts_S56x2x128_S14x4x2x128 _ (ix3 (feat j k) r d) (by
    rw [Shape.rowMajor_val_three, Shape.rowMajor_val_four]
    show ((4 * j.val + k.val) * 2 + r.val) * 128 + d.val = ((j.val * 4 + k.val) * 2 + r.val) * 128 + d.val
    omega)

/-- The `k`-th gather at `(j, c, d)`: the table at feature `4 j + k`, row "bit `k` of `c`", column `d`. -/
theorem gath_apply (t : FVec F S56x2x128 .f32) (k : Fin 4) (j : Fin 14) (c : Fin 16) (d : Fin 128) :
    gath t (BitVec.ofNat 32 k.val) (ix3 j c d) = t (ix3 (feat j k) (bit k.val c.val) d) := by
  unfold gath
  rw [gather_apply]
  refine Eq.trans ?_ (tr_apply t j k (bit k.val c.val) d)
  congr 1
  funext a
  refine Fin.ext ?_
  match a with
  | ⟨0, _⟩ => rfl
  | ⟨1, _⟩ =>
    show min (startIdx (BitVec.ofNat 32 k.val) (ix2 c 0)).toInt.toNat 3 = k.val
    rw [startIdx_zero, clamp_shift]
  | ⟨2, _⟩ =>
    show min (startIdx (BitVec.ofNat 32 k.val) (ix2 c 1)).toInt.toNat 1 = (bit k.val c.val).val
    rw [startIdx_one, bitIdx_apply, clamp_bit]
  | ⟨3, _⟩ => rfl

/-- The grouped table `[14, 16, 128]` at `(j, c, d)`, floats read as extended reals: zero, plus for `k = 0, 1, 2, 3` in
    turn the table at feature `4 j + k`, row "bit `k` of `c`", column `d`. -/
theorem gt3_apply (t : FVec Ideal S56x2x128 .f32) (j : Fin 14) (c : Fin 16) (d : Fin 128) :
    gt3 (F := Ideal) t (ix3 j c d)
      = (((0 + t (ix3 (feat j 0) (bit 0 c.val) d)) + t (ix3 (feat j 1) (bit 1 c.val) d))
          + t (ix3 (feat j 2) (bit 2 c.val) d)) + t (ix3 (feat j 3) (bit 3 c.val) d) := by
  unfold gt3
  rw [addf_apply, addf_apply, addf_apply, addf_apply, broadcastInDim_scalar_apply, constant_apply,
    Ideal.ofBits_zero_f32]
  rw [show (0#32 : BitVec 32) = BitVec.ofNat 32 (0 : Fin 4).val from rfl, gath_apply t 0 j c d,
    show (1#32 : BitVec 32) = BitVec.ofNat 32 (1 : Fin 4).val from rfl, gath_apply t 1 j c d,
    show (2#32 : BitVec 32) = BitVec.ofNat 32 (2 : Fin 4).val from rfl, gath_apply t 2 j c d,
    show (3#32 : BitVec 32) = BitVec.ofNat 32 (3 : Fin 4).val from rfl, gath_apply t 3 j c d]
  rfl

/-- THE GROUPED TABLE READ AT AN INDEX: position `j * 2048 + c * 128 + d` of the flattened table is entry `(j, c, d)`. -/
theorem gtTerm_apply (t : FVec Ideal S56x2x128 .f32) (j : Fin 14) (c : Fin 16) (d : Fin 128) :
    gtTerm (F := Ideal) t (ix1 ⟨j.val * 2048 + c.val * 128 + d.val, by omega⟩)
      = (((0 + t (ix3 (feat j 0) (bit 0 c.val) d)) + t (ix3 (feat j 1) (bit 1 c.val) d))
          + t (ix3 (feat j 2) (bit 2 c.val) d)) + t (ix3 (feat j 3) (bit 3 c.val) d) := by
  unfold gtTerm
  rw [shapeCast_apply _ shapeCasts_S14x16x128_S28672 _ (ix3 j c d) (by
    rw [Shape.rowMajor_val_three, Shape.rowMajor_val_one]
    show (j.val * 16 + c.val) * 128 + d.val = j.val * 2048 + c.val * 128 + d.val
    omega)]
  exact gt3_apply t j c d

/-- The same, as the grouped table of the lookup laws over the column `d` of the table. -/
theorem gtTerm_eq_gt (t : FVec Ideal S56x2x128 .f32) (j : Fin 14) (c : Fin 16) (d : Fin 128) :
    gtTerm (F := Ideal) t (ix1 ⟨j.val * 2048 + c.val * 128 + d.val, by omega⟩)
      = Cert.LookupLaws.gt (fun f r => t (ix3 f r d)) j c :=
  gtTerm_apply t j c d

end Cert.GroupedTableB

end
-- ==== Proof.Bits.LaunchDefs.lean ====
/-
  What the one SparseCore call hands over and takes back. The TensorCore gives the call the flattened last 4000 rows
  of the index matrix and the flattened grouped table to READ, and the flat result array of 512000 entries to WRITE.
  Each of the two cores gets a read share of the two inputs and the result's micro-batches of its own parity; each of
  its sixteen tiles a read share again and the micro-batches of its own worker number `2 s + c` modulo 32
  (micro-batch `m` is the 10240 entries from `10240 m`; there are fifty). Everything comes back the same way, the
  result's entries at whatever the tiles left.
-/
import proofs.«203024_g60129542144782_cont_9to1_m_748_22_alg».proof.Proof.Bits.Setup
import proofs.«203024_g60129542144782_cont_9to1_m_748_22_alg».proof.Proof.Bits.GroupedTable

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- The handshakes' rounds library: the left factor of the ghost state. -/
abbrev EH : Emb UH (MT nD τ sig (HIx 1) (Elt F) ℕ UU ℕ) := embL

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev xsLoc (d : Dev nD) : Loc nD τ sig := (SparseCore.T d).loc main_v68
abbrev gtLoc (d : Dev nD) : Loc nD τ sig := (SparseCore.T d).loc main_v69
abbrev outLoc (d : Dev nD) : Loc nD τ sig := (SparseCore.T d).loc main_v70

variable [FloatOps F]

/-- The two inputs of the call as the host operations before it leave them: functions of the launch memory. -/
def Xv (d : Dev nD) : Buf (Elt F) (xsLoc d) := Cert.GroupedTableB.xsTerm (m (a0Loc d))
def Gv (d : Dev nD) : Buf (Elt F) (gtLoc d) := Cert.GroupedTableB.gtTerm (F := F) (m (a1Loc d))

/-- A core's read share of an input, and a tile's. -/
abbrev qC (c : Fin 2) : PosShare TreeShare := Transfers.shareTok fullShare 2 c
abbrev qT (c : Fin 2) (s : Fin 16) : PosShare TreeShare := Transfers.shareTok (qC c) 16 s

/-- The worker number of tile `s` of core `c`. -/
def wid (c : Fin 2) (s : Fin 16) : ℕ := 2 * s.val + c.val

/-- The result entries of a tile's micro-batches, and of a core's. -/
def tileSet (c : Fin 2) (s : Fin 16) : Finset S512000.Idx := Finset.univ.filter fun j => ((j 0).val / 10240) % 32 = wid c s
def coreSet (c : Fin 2) : Finset S512000.Idx := Finset.univ.filter fun j => ((j 0).val / 10240) % 2 = c.val

/-- A core's part of the call, and a tile's. -/
def forCore (d : Dev nD) (c : Fin 2) : sProp 𝕄 :=
  iprop((xsLoc d ↦{qC c} Xv m d) ∗ (gtLoc d ↦{qC c} Gv m d) ∗ ∃ f, outLoc d ↦[coreSet c]{fullShare} f)
def forTile (d : Dev nD) (c : Fin 2) (s : Fin 16) : sProp 𝕄 :=
  iprop((xsLoc d ↦{qT c s} Xv m d) ∗ (gtLoc d ↦{qT c s} Gv m d) ∗ ∃ f, outLoc d ↦[tileSet c s]{fullShare} f)

/-- What is known of the result's entries when they come back: a per-entry fact `Φ d j v` ("entry `j` of device `d`'s
    result holds `v`" is acceptable) — trivial for the run's frame, the specification's value for its result. -/
def OutOK (Φ : Dev nD → S512000.Idx → Elt F .f32 → Prop) (d : Dev nD) (S : Finset S512000.Idx) (f : Buf (Elt F) (outLoc d)) : Prop :=
  ∀ j ∈ S, Φ d j (f j)

def backCore (Φ : Dev nD → S512000.Idx → Elt F .f32 → Prop) (d : Dev nD) (c : Fin 2) : sProp 𝕄 :=
  iprop((xsLoc d ↦{qC c} Xv m d) ∗ (gtLoc d ↦{qC c} Gv m d) ∗ ∃ f, (outLoc d ↦[coreSet c]{fullShare} f) ∗ ⌜OutOK Φ d (coreSet c) f⌝)
def backTile (Φ : Dev nD → S512000.Idx → Elt F .f32 → Prop) (d : Dev nD) (c : Fin 2) (s : Fin 16) : sProp 𝕄 :=
  iprop((xsLoc d ↦{qT c s} Xv m d) ∗ (gtLoc d ↦{qT c s} Gv m d) ∗ ∃ f, (outLoc d ↦[tileSet c s]{fullShare} f) ∗ ⌜OutOK Φ d (tileSet c s) f⌝)

instance backCore_storable (Φ : Dev nD → S512000.Idx → Elt F .f32 → Prop) (d : Dev nD) (c : Fin 2) : BI.Storable (upEmb : UEmb _ 𝕄) (backCore m Φ d c) := by
  unfold backCore; infer_instance
instance backTile_storable (Φ : Dev nD → S512000.Idx → Elt F .f32 → Prop) (d : Dev nD) (c : Fin 2) (s : Fin 16) : BI.Storable (upEmb : UEmb _ 𝕄) (backTile m Φ d c s) := by
  unfold backTile; infer_instance

instance forCore_storable (d : Dev nD) (c : Fin 2) : BI.Storable (upEmb : UEmb _ 𝕄) (forCore m d c) := by
  unfold forCore; infer_instance
instance forTile_storable (d : Dev nD) (c : Fin 2) (s : Fin 16) : BI.Storable (upEmb : UEmb _ 𝕄) (forTile m d c s) := by
  unfold forTile; infer_instance

/-- The call's payloads: out, the parts as above; back, the same with the fact about the result's entries; nothing of a
    kernel's own protocol. -/
def P (Φ : Dev nD → S512000.Idx → Elt F .f32 → Prop) : (K (F := F)).Pay (nD := nD) (Val := Elt F) (Name := ℕ) (U := UU) where
  st := fun q d c => match q with | 0 => forCore m d (Fin.cast nCore_zero c)
  dn := fun q d c => match q with | 0 => backCore m Φ d (Fin.cast nCore_zero c)
  go := fun q d c s => match q with | 0 => forTile m d (Fin.cast nCore_zero c) (Fin.cast nSub_zero s)
  td := fun q d c s => match q with | 0 => backTile m Φ d (Fin.cast nCore_zero c) (Fin.cast nSub_zero s)
  x := fun _ _ => iprop(emp)

instance P_storable (Φ : Dev nD → S512000.Idx → Elt F .f32 → Prop) : (P (F := F) m Φ).IsStorable where
  st q d c := match q with | 0 => (inferInstance : BI.Storable (upEmb : UEmb _ 𝕄) (forCore m d (Fin.cast nCore_zero c)))
  dn q d c := match q with | 0 => (inferInstance : BI.Storable (upEmb : UEmb _ 𝕄) (backCore m Φ d (Fin.cast nCore_zero c)))
  go q d c s := match q with | 0 => (inferInstance : BI.Storable (upEmb : UEmb _ 𝕄) (forTile m d (Fin.cast nCore_zero c) (Fin.cast nSub_zero s)))
  td q d c s := match q with | 0 => (inferInstance : BI.Storable (upEmb : UEmb _ 𝕄) (backTile m Φ d (Fin.cast nCore_zero c) (Fin.cast nSub_zero s)))

end Cert.Proof.KB

end
-- ==== Proof.Bits.LaunchSplit.lean ====
/-
  How the call's operands are dealt to the cores' tiles and gathered back.

  Each input array is only read: a core holds a share of it, which is cut into sixteen tile shares and a remainder;
  the remainder waits while the tiles run and the shares rejoin it afterwards. The result array is written: micro-batch
  `b` (the 10240 entries from `10240 b`) belongs to worker `b mod 32`, worker `2 s + c` is tile `s` of core `c`, so a
  core's entries (the micro-batches of its parity) are the disjoint union of its tiles' entries, and the two cores'
  entries are all of the array. Each tile's entries come back at whatever the tile left there.
-/
import proofs.«203024_g60129542144782_cont_9to1_m_748_22_alg».proof.Proof.Bits.LaunchDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The tiles of one core

Micro-batch `b` of the result (the 10240 entries from `10240 b`) belongs to worker `b mod 32`, and worker `2 s + c` is
tile `s` of core `c`. So the sixteen tiles of core `c` own pairwise disjoint sets of entries, and together exactly the
micro-batches of parity `c`. -/

theorem mem_tileSet {c : Fin 2} {s : Fin 16} {j : S512000.Idx} :
    j ∈ tileSet c s ↔ ((j 0).val / 10240) % 32 = 2 * s.val + c.val := by
  unfold tileSet wid
  rw [Finset.mem_filter]
  exact ⟨fun h => h.2, fun h => ⟨Finset.mem_univ _, h⟩⟩

theorem mem_coreSet {c : Fin 2} {j : S512000.Idx} : j ∈ coreSet c ↔ ((j 0).val / 10240) % 2 = c.val := by
  unfold coreSet
  rw [Finset.mem_filter]
  exact ⟨fun h => h.2, fun h => ⟨Finset.mem_univ _, h⟩⟩

theorem tiles_disjoint (c : Fin 2) : ∀ s ∈ (Finset.univ : Finset (Fin 16)), ∀ s' ∈ (Finset.univ : Finset (Fin 16)),
    s ≠ s' → Disjoint (tileSet c s) (tileSet c s') := by
  intro s _ s' _ h
  rw [Finset.disjoint_left]
  intro j h1 h2
  rw [mem_tileSet] at h1 h2
  exact h (Fin.ext (by omega))

theorem tiles_cover (c : Fin 2) : (Finset.univ : Finset (Fin 16)).biUnion (tileSet c) = coreSet c := by
  ext j
  rw [Finset.mem_biUnion, mem_coreSet]
  constructor
  · rintro ⟨s, _, hs⟩
    rw [mem_tileSet] at hs
    have := c.isLt; omega
  · intro h
    refine ⟨⟨((j 0).val / 10240 % 32) / 2, by omega⟩, Finset.mem_univ _, ?_⟩
    rw [mem_tileSet]
    show _ = 2 * (((j 0).val / 10240 % 32) / 2) + c.val
    omega

/-- The two cores own disjoint sets of entries, and together all of them. -/
theorem cores_disjoint : ∀ c ∈ (Finset.univ : Finset (Fin 2)), ∀ c' ∈ (Finset.univ : Finset (Fin 2)),
    c ≠ c' → Disjoint (coreSet c) (coreSet c') := by
  intro c _ c' _ h
  rw [Finset.disjoint_left]
  intro j h1 h2
  rw [mem_coreSet] at h1 h2
  exact h (Fin.ext (h1.symm.trans h2))

theorem cores_cover : (Finset.univ : Finset (Fin 2)).biUnion coreSet = (Finset.univ : Finset S512000.Idx) := by
  ext j
  rw [Finset.mem_biUnion]
  refine ⟨fun _ => Finset.mem_univ _, fun _ => ⟨⟨(j 0).val / 10240 % 2, Nat.mod_lt _ (by decide)⟩, Finset.mem_univ _, ?_⟩⟩
  rw [mem_coreSet]

omit m ρ in
/-- A core's entries of the result, held at `f`, are its tiles' entries held at `f`. -/
theorem out_tiles (d : Dev nD) (c : Fin 2) (f : Buf (Elt F) (outLoc d)) :
    (outLoc d ↦[coreSet c]{fullShare} f : sProp 𝕄)
      = bigSep Finset.univ fun s : Fin 16 => outLoc d ↦[tileSet c s]{fullShare} f := by
  rw [← pointsTo_biUnion Finset.univ (ℓ := outLoc d) (tileSet c) (tiles_disjoint c), tiles_cover]; try rfl

omit m ρ in
/-- Pieces of the result over pairwise disjoint sets of entries, each at whatever was left there and each with the
    per-entry fact on its set, are the union of the sets at ONE array, with the fact on the union: the joined array
    agrees with each piece on that piece's set. -/
theorem outPieces_join [∀ e, Nonempty (Elt F e)] (Φ : Dev nD → S512000.Idx → Elt F .f32 → Prop) (d : Dev nD)
    {I : Type} [DecidableEq I] (S : Finset I) (Kt : I → Finset S512000.Idx)
    (hdis : ∀ t ∈ S, ∀ t' ∈ S, t ≠ t' → Disjoint (Kt t) (Kt t')) :
    (bigSep S fun t => iprop(∃ f, (outLoc d ↦[Kt t]{fullShare} f) ∗ ⌜OutOK Φ d (Kt t) f⌝))
      ⊢ (iprop(∃ g, (outLoc d ↦[S.biUnion Kt]{fullShare} g) ∗ ⌜OutOK Φ d (S.biUnion Kt) g⌝) : sProp 𝕄) := by
  refine (bigSep_exists_pi S (fun t (f : Buf (Elt F) (outLoc d)) =>
    iprop((outLoc d ↦[Kt t]{fullShare} f) ∗ ⌜OutOK Φ d (Kt t) f⌝))).trans ?_
  iintro ⟨%fs, H⟩
  have hswap : (bigSep S fun t => (iprop((outLoc d ↦[Kt t]{fullShare} fs t) ∗ ⌜OutOK Φ d (Kt t) (fs t)⌝) : sProp 𝕄))
      ⊢ (bigSep S fun t => (iprop(⌜OutOK Φ d (Kt t) (fs t)⌝ ∗ (outLoc d ↦[Kt t]{fullShare} fs t)) : sProp 𝕄)) :=
    bigSep_mono fun t _ => by
      show (iprop((outLoc d ↦[Kt t]{fullShare} fs t) ∗ ⌜OutOK Φ d (Kt t) (fs t)⌝) : sProp 𝕄)
        ⊢ iprop(⌜OutOK Φ d (Kt t) (fs t)⌝ ∗ (outLoc d ↦[Kt t]{fullShare} fs t))
      iintro ⟨Ha, %hb⟩
      isplitr; · ipureintro; exact hb
      iexact Ha
  ihave H1 := hswap $$ H
  ihave H2 := (bigSep_pure_sep S (fun t => OutOK Φ d (Kt t) (fs t)) (fun t => (outLoc d ↦[Kt t]{fullShare} fs t : sProp 𝕄))) $$ H1
  icases H2 with ⟨%hok, Hp⟩
  ihave H3 := (pointsTo_biUnion_join S Kt fs (Classical.choice inferInstance) hdis) $$ Hp
  icases H3 with ⟨%g, %hg, Hg⟩
  iexists g
  isplitl [Hg]; · iexact Hg
  ipureintro
  intro j hj
  obtain ⟨t, ht, hjt⟩ := Finset.mem_biUnion.mp hj
  rw [hg t ht j hjt]
  exact hok t ht j hjt

omit m ρ in
/-- A core's entries held at `f` give each tile its entries at some array. -/
theorem out_tiles_some (d : Dev nD) (c : Fin 2) (f : Buf (Elt F) (outLoc d)) :
    (outLoc d ↦[coreSet c]{fullShare} f : sProp 𝕄)
      ⊢ bigSep Finset.univ fun s : Fin 16 => iprop(∃ g, outLoc d ↦[tileSet c s]{fullShare} g) := by
  rw [out_tiles]
  exact bigSep_mono fun s _ => exists_intro (Φ := fun g => (outLoc d ↦[tileSet c s]{fullShare} g : sProp 𝕄)) f

omit m ρ in
/-- A family over the call's sixteen tasks per core is one over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- **A core's part of the call splits into its sixteen tiles' parts and comes back from them.** Each input is read
    through a share: the core's share is cut into sixteen tile shares and a remainder, which waits on the way back; the
    core's entries of the result are its tiles' entries, each tile's coming back at whatever it left, the per-entry
    fact with it. -/
theorem vecSplit [∀ e, Nonempty (Elt F e)] (Φ : Dev nD → S512000.Idx → Elt F .f32 → Prop) :
    (K (F := F)).VecSplit' (P m Φ) 0 := by
  intro d c
  show forCore m d (Fin.cast nCore_zero c) ⊢ |={Set.univ}=> iprop(
      (bigSep Finset.univ fun i : Fin ((K (F := F)).nSub 0) => forTile m d (Fin.cast nCore_zero c) (Fin.cast nSub_zero i))
      ∗ ((bigSep Finset.univ fun i : Fin ((K (F := F)).nSub 0) => backTile m Φ d (Fin.cast nCore_zero c) (Fin.cast nSub_zero i))
          -∗ backCore m Φ d (Fin.cast nCore_zero c)))
  generalize Fin.cast nCore_zero c = c'
  rw [bigSep_tasks (F := F) (fun s => forTile m d c' s), bigSep_tasks (F := F) (fun s => backTile m Φ d c' s)]
  unfold forCore forTile backCore backTile
  rw [bigSep_sep', bigSep_sep', bigSep_sep', bigSep_sep']
  iintro ⟨Hx, Hg, %f, Ho⟩
  ihave Hx' := (Transfers.pointsTo_toks_split (ℓ := xsLoc d) (S := Finset.univ) (f := Xv m d) (qC c') 16) $$ Hx
  icases Hx' with ⟨Hxd, Hxs⟩
  ihave Hg' := (Transfers.pointsTo_toks_split (ℓ := gtLoc d) (S := Finset.univ) (f := Gv m d) (qC c') 16) $$ Hg
  icases Hg' with ⟨Hgd, Hgs⟩
  ihave Ho' := (out_tiles_some (F := F) d c' f) $$ Ho
  imodintro
  isplitl [Hxs Hgs Ho']
  · isplitl [Hxs]; · iexact Hxs
    isplitl [Hgs]; · iexact Hgs
    iexact Ho'
  iintro ⟨Hxs, Hgs, Hos⟩
  isplitl [Hxd Hxs]
  · iapply (Transfers.pointsTo_toks_join (ℓ := xsLoc d) (S := Finset.univ) (f := Xv m d) (qC c') 16)
    isplitl [Hxd]; · iexact Hxd
    iexact Hxs
  isplitl [Hgd Hgs]
  · iapply (Transfers.pointsTo_toks_join (ℓ := gtLoc d) (S := Finset.univ) (f := Gv m d) (qC c') 16)
    isplitl [Hgd]; · iexact Hgd
    iexact Hgs
  ihave Hj := (outPieces_join (F := F) Φ d Finset.univ (tileSet c') (tiles_disjoint c')) $$ Hos
  rw [tiles_cover]
  iexact Hj

end Cert.Proof.KB

end
-- ==== Proof.Bits.TcBody.lean ====
/-
  The TensorCore kernel's body, once, at a symbolic grid point.

  The body reads the three staged blocks — the index block `x` (16000 rows of 56 words), the transposed tables
  `tt` (2 × 56 × 128) and the output block — and stores into the output block, at row `r` and column `d`,

      (∑ f, float (x r f) * (tt 1 f d - tt 0 f d)) + ∑ f, tt 0 f d.

  This module proves the body's triple over whole staging buffers (any float instance) and the block's value at the
  instance of extended reals.
-/
import proofs.«203024_g60129542144782_cont_9to1_m_748_22_alg».proof.Proof.Gen.Kernel.Launch
import proofs.«203024_g60129542144782_cont_9to1_m_748_22_alg».proof.Proof.Gen.Kernel.Skeleton
import proofs.«203024_g60129542144782_cont_9to1_m_748_22_alg».proof.Proof.Gen.Kernel.Points
import Idealize.ShloMosaic.Lib.Pipeline.FrameBody
import Idealize.ShloMosaic.Lib.SparseCore.Launch
import Idealize.ShloMosaic.Lib.Tactic

set_option maxRecDepth 16384

noncomputable section

namespace Cert.Kernel.Tc

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Name : Type} [DecidableEq Name] {U : Type} [URA U]

local notation "𝕄" => MT nD τ sig (HIx 1) (Elt F) Name U ℕ

/-! ## The body's accesses -/

abbrev rT0 : Rect S2x56x128 := Rect.unit (s := S2x56x128) ![0, 0, 0] S1x56x128.size inb_S2x56x128_S1x56x128_0_0_0
abbrev rT1 : Rect S2x56x128 := Rect.unit (s := S2x56x128) ![1, 0, 0] S1x56x128.size inb_S2x56x128_S1x56x128_1_0_0
abbrev rX : Rect S16000x56 := Rect.unit (s := S16000x56) ![0, 0] S16000x56.size inb_S16000x56_S16000x56_0_0
abbrev rO : Rect S16000x128 := Rect.unit (s := S16000x128) ![0, 0] S16000x128.size inb_S16000x128_S16000x128_0_0

/-! ## What the body leaves in the output block -/

/-- The output block after the body, from the index block `x` and the tables `tt`: its one store, which covers it. -/
def outBlk (x : Vec F S16000x56 .i32) (tt : Vec F S2x56x128 .f32) : Vec F S16000x128 .f32 :=
  View.canon [⟨rO, k1_pay1 (View.ld tt rT0) (View.ld tt rT1) (View.ld x rX)⟩]

theorem coverO (p0 : Vec F S16000x128 .f32) (y : S16000x128.Idx) :
    ∃ pc ∈ ([⟨rO, p0⟩] : List (View.Piece (Elt F) S16000x128 .f32)), y ∈ pc.1.set :=
  View.cover_of_tiled [⟨rO, p0⟩] S16000x128.size (by rfl) y

/-! ## The body's triple -/

set_option maxHeartbeats 1000000 in
/-- The body on whole staging memrefs, the index block at read contents `x`, the tables at `tt`, the output block at
    anything, runs to the continuation holding the two inputs as they were and the output block at `outBlk x tt`. -/
theorem sound_kernel (c : Dev nD) (E : Set Name) (i : grid1.Coords)
    (arg1 : Memref sig .tc .vmem S16000x56 .i32) (harg1 : arg1.IsWhole)
    (arg2 : Memref sig .tc .vmem S2x56x128 .f32) (harg2 : arg2.IsWhole)
    (arg3 : Memref sig .tc .vmem S16000x128 .f32) (harg3 : arg3.IsWhole)
    (x : Vec F S16000x56 .i32) (tt : Vec F S2x56x128 .f32) (K : PUnit → sProp 𝕄) :
    iprop(owns (c : Thread nD τ) arg1 fullShare x ∗ owns (c : Thread nD τ) arg2 fullShare tt ∗ (∃ d, owns (c : Thread nD τ) arg3 fullShare d)
        ∗ (iprop(owns (c : Thread nD τ) arg1 fullShare x ∗ owns (c : Thread nD τ) arg2 fullShare tt
            ∗ owns (c : Thread nD τ) arg3 fullShare (outBlk x tt)) -∗ K ⟨⟩))
      ⊢ wp frame (wpE (defs₀ (F := F)) Variants.none c none) E (cc1__tc_body i arg1 harg1 arg2 harg2 arg3 harg3) K := by
  simp only [cc1__tc_body_eq_skeleton]; unfold cc1__tc_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The windows' blocks and the pipeline's proof data -/

/-- No grid point's transfer is cut: the six blocks of 16000 rows lie inside the 100000 rows. -/
theorem clip0 : ∀ (t : Fin cfg1.N) (a), (cfg1.win 0).clip (cfg1.grid.coords t) a = none :=
  (by decide +kernel : ∀ (t : Fin grid1.N) (a), win1_0.clip (grid1.coords t) a = none)
theorem clip2 : ∀ (t : Fin cfg1.N) (a), (cfg1.win 2).clip (cfg1.grid.coords t) a = none :=
  (by decide +kernel : ∀ (t : Fin grid1.N) (a), win1_2.clip (grid1.coords t) a = none)

section Data

/- The three arrays of the pipeline on core `c` as the region finds them: the index matrix `x`, the transposed
   tables `tt`, the result `f0`. -/
variable (c : Dev nD) (x : Buf (Elt F) ((c.tc : Thread nD τ).loc main_arg0)) (tt : Buf (Elt F) ((c.tc : Thread nD τ).loc main_v71))
  (f0 : Buf (Elt F) ((c.tc : Thread nD τ).loc main_v72))

/-- The index block at point `t` as a whole staging buffer holds it once fetched (the fetch fills all of it): rows
    `16000 t … 16000 t + 15999` of `x`. -/
def xBlk (t : Fin cfg1.N) : S16000x56.Idx → Elt F .i32 :=
  win1_0.fill (grid1.coords t) (fun _ => Classical.arbitrary _) ((win1_0.blk t).view.read (Elt F) x)

/-- The transposed tables as their staging buffer holds them: the one block, the whole array. -/
def tBlk (t : Fin cfg1.N) : S2x56x128.Idx → Elt F .f32 := (win1_1.blk t).view.read (Elt F) tt

variable (O : CellTallies nD τ sig (HIx 1)) (B : Set (SemLoc sig × HIx 1))

/-- The proof data of the pipeline on core `c`: the arrays as the region finds them; after the body at point
    `t` the two inputs' buffers at their blocks and the output's at the body's value of them; no invariant; the
    core owing the constant `O` throughout, its recorded pairs within `B`; full shares. -/
def dats : Dat τ (Elt F) (HIx 1) Name U ℕ cfg1 c where
  A w := match w with
    | ⟨0, _⟩ => x
    | ⟨1, _⟩ => tt
    | ⟨2, _⟩ => f0
  after w t := match w with
    | ⟨0, _⟩ => xBlk c x t
    | ⟨1, _⟩ => tBlk c tt t
    | ⟨2, _⟩ => outBlk (xBlk c x t) (tBlk c tt t)
  Φ _ := iprop(emp)
  q _ := fullShare
  owed _ := O
  recorded _ := B

theorem A_0 : (dats (Name := Name) (U := U) c x tt f0 O B).A 0 = x := by dsimp only [dats]
theorem A_1 : (dats (Name := Name) (U := U) c x tt f0 O B).A 1 = tt := by dsimp only [dats]
theorem A_2 : (dats (Name := Name) (U := U) c x tt f0 O B).A 2 = f0 := by dsimp only [dats]
theorem after_0 (t : Fin cfg1.N) : (dats (Name := Name) (U := U) c x tt f0 O B).after 0 t = xBlk c x t := by dsimp only [dats]
theorem after_1 (t : Fin cfg1.N) : (dats (Name := Name) (U := U) c x tt f0 O B).after 1 t = tBlk c tt t := by dsimp only [dats]
theorem after_2 (t : Fin cfg1.N) : (dats (Name := Name) (U := U) c x tt f0 O B).after 2 t = outBlk (xBlk c x t) (tBlk c tt t) := by dsimp only [dats]

/-- The index block is fetched at every point, and the fetch fills the whole buffer. -/
theorem before_0 (t : Fin cfg1.N) (d) : (dats (Name := Name) (U := U) c x tt f0 O B).before 0 t d = xBlk c x t := by
  unfold Dat.before; rw [if_pos (fetch1_0 t)]
  exact (dats (Name := Name) (U := U) c x tt f0 O B).fetched_of_clip_none 0 t (clip0 t) d _

/-- The tables' buffer holds the tables at every point, fetched there (the first) or not. -/
theorem before_1 (t : Fin cfg1.N) (d) : (dats (Name := Name) (U := U) c x tt f0 O B).before 1 t d = tBlk c tt t :=
  ((dats (Name := Name) (U := U) c x tt f0 O B).before_in_eq_fetched 1 rfl (fun _ => rfl) (fun _ _ _ => rfl)
    (fun t => by rw [after_1]; rfl) t d).trans rfl

/-! ## The body obligation, at a generic point -/

/-- What the body is called with at point `t` (the windows one by one), -/
def bodyPre (t : Fin cfg1.N) : sProp 𝕄 :=
  iprop((dats (Name := Name) (U := U) c x tt f0 O B).Φ t.castSucc ∗ (dats (Name := Name) (U := U) c x tt f0 O B).owesAt none t.castSucc
    ∗ (∃ d, owns (c : Thread nD τ) (st1_0 t) fullShare ((dats (Name := Name) (U := U) c x tt f0 O B).before 0 t d))
    ∗ (∃ d, owns (c : Thread nD τ) (st1_1 t) fullShare ((dats (Name := Name) (U := U) c x tt f0 O B).before 1 t d))
    ∗ (∃ d, owns (c : Thread nD τ) (st1_2 t) fullShare ((dats (Name := Name) (U := U) c x tt f0 O B).before 2 t d)))

/-- and what it returns. -/
def bodyPost (t : Fin cfg1.N) : sProp 𝕄 :=
  iprop((dats (Name := Name) (U := U) c x tt f0 O B).Φ t.succ ∗ (dats (Name := Name) (U := U) c x tt f0 O B).owesAt none t.succ
    ∗ owns (c : Thread nD τ) (st1_0 t) fullShare ((dats (Name := Name) (U := U) c x tt f0 O B).after 0 t)
    ∗ owns (c : Thread nD τ) (st1_1 t) fullShare ((dats (Name := Name) (U := U) c x tt f0 O B).after 1 t)
    ∗ owns (c : Thread nD τ) (st1_2 t) fullShare ((dats (Name := Name) (U := U) c x tt f0 O B).after 2 t))

/-- The body at any point: the inputs' buffers hold their blocks, so the kernel's triple applies; the invariant and the
    core's `owes` pass through unread. -/
theorem sound_body (t : Fin cfg1.N) :
    bodyPre (Name := Name) (U := U) c x tt f0 O B t
      ⊢ wp frame (wpE (defs₀ (F := F)) Variants.none c none) Set.univ (bodyAt1 t) (fun _ => bodyPost (Name := Name) (U := U) c x tt f0 O B t) := by
  unfold bodyPre bodyPost bodyAt1
  simp only [before_0, before_1]
  rw [show (dats (Name := Name) (U := U) c x tt f0 O B).Φ t.succ = (dats (Name := Name) (U := U) c x tt f0 O B).Φ t.castSucc from rfl,
    show (dats (Name := Name) (U := U) c x tt f0 O B).owesAt none t.succ = (dats (Name := Name) (U := U) c x tt f0 O B).owesAt none t.castSucc from rfl,
    after_0, after_1, after_2]
  iintro ⟨HΦ, Ho, ⟨%d0, H0⟩, ⟨%d1, H1⟩, ⟨%d2, H2⟩⟩
  iapply (sound_kernel c Set.univ (grid1.coords t) _ _ _ _ _ _ (xBlk c x t) (tBlk c tt t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation : BodyObligation (dats (Name := Name) (U := U) c x tt f0 O B) (defs₀ (F := F)) Variants.none none Set.univ := fun t => by
  rw [bigSep_W1, bigSep_W1]
  exact sound_body c x tt f0 O B t

end Data

end Cert.Kernel.Tc

end
-- ==== Proof.Bits.TcRegion.lean ====
/-
  The TensorCore pallas_call of the kernel program as one step of @main on the TensorCore.

  The region runs the six-point pipeline over the index matrix `x` (blocks of 16000 rows), the transposed tables `tt`
  (one block) and the result (blocks of 16000 rows): it leaves `x` and `tt` as they were and the result's rows below
  96000 at the body's value of their blocks; its rows from 96000 on, which no block holds, keep their contents.
-/
import proofs.«203024_g60129542144782_cont_9to1_m_748_22_alg».proof.Proof.Bits.TcBody
import proofs.«203024_g60129542144782_cont_9to1_m_748_22_alg».proof.Proof.Bits.Setup
import Idealize.ShloMosaic.Lib.Pipeline.Regions

set_option maxRecDepth 16384

noncomputable section

namespace Cert.Kernel.Tc

open Cert.Kernel Cert.Kernel.Gen Cert.Proof.KB

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg owesWithin)

variable {F : FTy → Type} [FloatOps F]

local notation "𝕄" => MT nD τ sig (HIx 1) (Elt F) ℕ UU ℕ

/-- The rounds of the region's staging cells inside the certificate's ghost state: the middle factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-- The pipeline's configuration as the library's region rule takes it: no prefetched table. -/
abbrev adm : (p : Fin 1) → (pcfgs (F := F) p).Adm := fun p => (cfgs p).toPCfg_adm

section Region

/- Per core: the three arrays as the region finds them, the tallies the core owes throughout (none at a kernel's own
   index) and a bound on its recorded pairs. -/
variable (x : (c : Dev nD) → Buf (Elt F) ((c.tc : Thread nD τ).loc main_arg0))
  (tt : (c : Dev nD) → Buf (Elt F) ((c.tc : Thread nD τ).loc main_v71))
  (f0 : (c : Dev nD) → Buf (Elt F) ((c.tc : Thread nD τ).loc main_v72))
  (O : Dev nD → CellTallies nD τ sig (HIx 1)) (B : Dev nD → Set (SemLoc sig × HIx 1))

/-- The proof data of the one pipeline, per core. -/
abbrev pdats : (p : Fin 1) → (c : Dev nD) → Dat τ (Elt F) (HIx 1) ℕ UU ℕ (Pipeline.pin (pcfgs (F := F)) adm p) c :=
  fun _ c => dats c (x c) (tt c) (f0 c) (O c) (B c)

/-- What the TensorCore holds of the region's arrays and debts when it enters it, -/
def pre (c : Dev nD) : sProp 𝕄 :=
  iprop((((c.tc : Thread nD τ).loc main_arg0) ↦{fullShare} x c) ∗ (((c.tc : Thread nD τ).loc main_v71) ↦{fullShare} tt c)
    ∗ (((c.tc : Thread nD τ).loc main_v72) ↦{fullShare} f0 c) ∗ owesWithin c (O c) (B c))

/-- and when it leaves it: each array after the pipeline's write-backs, the core owing what it owed, its recorded
    pairs now also the staging cells' at a kernel's own index. -/
def post (c : Dev nD) : sProp 𝕄 :=
  iprop((((c.tc : Thread nD τ).loc main_arg0) ↦{fullShare} (pdats x tt f0 O B 0 c).arrAt 0 cfg1.N)
    ∗ (((c.tc : Thread nD τ).loc main_v71) ↦{fullShare} (pdats x tt f0 O B 0 c).arrAt 1 cfg1.N)
    ∗ (((c.tc : Thread nD τ).loc main_v72) ↦{fullShare} (pdats x tt f0 O B 0 c).arrAt 2 cfg1.N)
    ∗ owesWithin c (O c) (B c ∪ cfg1.waitPairs none))

/-- No table is prefetched: nothing is held of any. -/
theorem prefHeld_none (c : Dev nD) (q) (Vp) :
    (Pipeline.prefHeld (Val := Elt F) (pcfgs (F := F) 0).pre c q Vp : sProp 𝕄) = BI.emp := by
  unfold Pipeline.prefHeld
  rw [Finset.univ_eq_empty, BI.bigSep_empty]

/-- The pipeline's three arrays, whole and at the full share, one by one. -/
theorem arrays3 (c : Dev nD) (G : (w : Fin cfg1.W) → Buf (Elt F) ((cfg1.win w).arr.view.loc (c.tc : Thread nD τ))) :
    ((pdats x tt f0 O B 0 c).arrays G : sProp 𝕄)
      = iprop((((c.tc : Thread nD τ).loc main_arg0) ↦{fullShare} G 0) ∗ (((c.tc : Thread nD τ).loc main_v71) ↦{fullShare} G 1)
          ∗ (((c.tc : Thread nD τ).loc main_v72) ↦{fullShare} G 2)) := by
  rw [Pipeline.arrays_eq (Pipeline.pin (pcfgs (F := F)) adm) (pdats x tt f0 O B) 0 c arr_whole1
    (fun w => (pdats x tt f0 O B 0 c).share_full (fun _ => rfl) w) G, bigSep_W1]

variable (L : GSem nD τ sig → Finset (HIx 1)) (lv : GSem nD τ sig → HIx 1 → ℕ)

/-- The region as the library's rule takes it: the generated layout, no semaphore of the kernel's own, the body
    obligation, the wait evidence of the five staging cells, and the four entailments around `pre` / `post`. -/
def region (hwait : ∀ (c : Dev nD) (sm : SemLoc sig), (levAts L lv : sProp 𝕄) ⊢ MayWait (c.tc : Thread nD τ) sm none (O c)) :
    RegionSeg (pcfgs (F := F)) adm (pdats x tt f0 O B) none (defs₀ (F := F)) Variants.none L lv 0 where
  win := winFacts1.to₀
  block_pos := block_pos1
  stage_whole := stage_whole1
  K := PEmpty
  osem := fun k => k.elim
  ho := Pipeline.OwnSemFacts.none _
  hbody := fun c => (body_obligation c (x c) (tt c) (f0 c) (O c) (B c)).loose
  hwaits := fun c => Pipeline.cellsWaits_intro (Pipeline.pin (pcfgs (F := F)) adm) (pdats x tt f0 O B) none 0 c
    (fun w s t => hwait c _)
  pre := pre x tt f0 O B
  post := post x tt f0 O B
  X := fun _ => iprop(emp)
  Y := fun _ => iprop(emp)
  Z := fun _ => iprop(emp)
  hentry := fun c => by
    rw [arrays3, prefHeld_none]
    unfold pre
    iintro ⟨⟨H0, H1, H2, Ho⟩, -, -⟩
    imodintro
    isplitl [H0 H1 H2]
    · isplitl [H0]; · iexact H0
      isplitl [H1]; · iexact H1
      iexact H2
    isplitr; · iempintro
    isplitl [Ho]
    · iapply (Pipeline.owesWithin_mono c (O c) (Set.subset_union_left)); iexact Ho
    isplitr <;> iempintro
  hin := fun c => by
    iintro -; iempintro
  hout := fun c => by
    rw [scopedRest1_eq, Pipeline.ownSems0_none]
    iintro -
    isplitr; · iempintro
    isplitr <;> iempintro
  hexit := fun c => by
    rw [arrays3]
    unfold post
    iintro ⟨⟨H0, H1, H2⟩, Ho, -, -⟩
    imodintro
    isplitl [H0]; · iexact H0
    isplitl [H1]; · iexact H1
    isplitl [H2]; · iexact H2
    iexact Ho

set_option maxHeartbeats 400000 in
/-- **The region's step inside @main.** On device `d`'s TensorCore, under the program's whole table of bodies: from the
    region boundary, the three arrays whole (`pre`), the level facts, and the ghost state and duty tokens of the
    pipeline's five staging cells, the pallas_call's line runs to the boundary and the arrays as the pipeline leaves
    them (`post`). -/
theorem wp_region [∀ e, Nonempty (Elt F e)]
    (hwait : ∀ (c : Dev nD) (sm : SemLoc sig), (levAts L lv : sProp 𝕄) ⊢ MayWait (c.tc : Thread nD τ) sm none (O c))
    (d : Dev nD) (Ψ : PUnit → sProp 𝕄) :
    iprop((iprop(boundary (d.tc : Thread nD τ) ∗ post x tt f0 O B d) -∗ Ψ ⟨⟩)
        ∗ boundary (d.tc : Thread nD τ) ∗ pre x tt f0 O B d ∗ levAts L lv
        ∗ Pipeline.cellsGhost cfgs EP 0 d ∗ Pipeline.toksInit cfgs EP 0 d)
      ⊢ wp frame (wpE ((K (F := F)).defs (D (F := F))) 𝒱 (T d) none) Set.univ
          (Prog.lift (.customCall (SparseCore.inner (Pipeline.entry 0)) ())) Ψ := by
  have hwp := (region x tt f0 O B L lv hwait).wp (pcfgs (F := F)) adm (pdats x tt f0 O B) none cellOf_inj EP (defs₀ (F := F)) Variants.none L lv
    d none (fun u h => nomatch h) (fun _ => Prog.ret PUnit.unit) Ψ
  have hl := (K (F := F)).wp_liftProg (D (F := F)) 𝒱 (T d) Set.univ none
    (Prog.op (.customCall (Pipeline.entry 0) ()) fun _ => Prog.ret PUnit.unit) Ψ
  -- the two rules in this module's spelling: the lifted one-line program is the printed line, the library's
  -- configuration family is the printed one
  have hl' : wp frame (wpE (D (F := F)) 𝒱 (T d) none) Set.univ (Prog.op (.customCall (Pipeline.entry 0) ()) fun _ => Prog.ret PUnit.unit) Ψ
      ⊢ wp frame (wpE ((K (F := F)).defs (D (F := F))) 𝒱 (T d) none) Set.univ
          (Prog.lift (.customCall (SparseCore.inner (Pipeline.entry 0)) ())) Ψ := hl
  have hwp' : iprop((iprop(boundary (d.tc : Thread nD τ) ∗ post x tt f0 O B d)
            -∗ wp frame (wpE (D (F := F)) 𝒱 (T d) none) Set.univ (Prog.ret PUnit.unit) Ψ)
        ∗ boundary (d.tc : Thread nD τ) ∗ pre x tt f0 O B d ∗ levAts L lv
        ∗ Pipeline.cellsGhost cfgs EP 0 d ∗ Pipeline.toksInit cfgs EP 0 d)
      ⊢ wp frame (wpE (D (F := F)) 𝒱 (T d) none) Set.univ (Prog.op (.customCall (Pipeline.entry 0) ()) fun _ => Prog.ret PUnit.unit) Ψ := hwp
  refine BI.Entails.trans (?_ : _ ⊢ iprop((iprop(boundary (d.tc : Thread nD τ) ∗ post x tt f0 O B d)
            -∗ wp frame (wpE (D (F := F)) 𝒱 (T d) none) Set.univ (Prog.ret PUnit.unit) Ψ)
        ∗ boundary (d.tc : Thread nD τ) ∗ pre x tt f0 O B d ∗ levAts L lv
        ∗ Pipeline.cellsGhost cfgs EP 0 d ∗ Pipeline.toksInit cfgs EP 0 d)) (hwp'.trans hl')
  iintro ⟨Hk, Hb, Hpre, Hla, Hg, Ht⟩
  isplitl [Hk]
  · iintro H
    rw [wp_ret]; imodintro
    iapply Hk; iexact H
  isplitl [Hb]; · iexact Hb
  isplitl [Hpre]; · iexact Hpre
  isplitl [Hla]; · iexact Hla
  isplitl [Hg]; · iexact Hg
  iexact Ht

set_option maxHeartbeats 400000 in
/-- The same with the rest of @main after the line. -/
theorem wp_region_bind [∀ e, Nonempty (Elt F e)]
    (hwait : ∀ (c : Dev nD) (sm : SemLoc sig), (levAts L lv : sProp 𝕄) ⊢ MayWait (c.tc : Thread nD τ) sm none (O c))
    (d : Dev nD) {α : Type} (k : PUnit → Prog (TpuEff nD τ sig (Elt F) (SparseCore.Sig (ΛP (F := F)) 1) .tc) α) (Φ : α → sProp 𝕄) :
    iprop((iprop(boundary (d.tc : Thread nD τ) ∗ post x tt f0 O B d)
            -∗ wp frame (wpE ((K (F := F)).defs (D (F := F))) 𝒱 (T d) none) Set.univ (k ⟨⟩) Φ)
        ∗ boundary (d.tc : Thread nD τ) ∗ pre x tt f0 O B d ∗ levAts L lv
        ∗ Pipeline.cellsGhost cfgs EP 0 d ∗ Pipeline.toksInit cfgs EP 0 d)
      ⊢ wp frame (wpE ((K (F := F)).defs (D (F := F))) 𝒱 (T d) none) Set.univ
          (Prog.lift (.customCall (SparseCore.inner (Pipeline.entry 0)) ()) >>= k) Φ := by
  rw [wp_bind]
  exact wp_region x tt f0 O B L lv hwait d
    (fun a => wp frame (wpE ((K (F := F)).defs (D (F := F))) 𝒱 (T d) none) Set.univ (k a) Φ)

end Region

end Cert.Kernel.Tc

end
-- ==== Proof.Bits.TcFund.lean ====
/-
  The launch element's share for the TensorCore region: the rounds of the pipeline's five staging cells, funded once
  for every device — each cell's launch state, its owner at round 0, and one duty token per transfer the pipeline issues.
-/
import proofs.«203024_g60129542144782_cont_9to1_m_748_22_alg».proof.Proof.Bits.TcRegion

set_option maxRecDepth 16384

noncomputable section

namespace Cert.Kernel.Tc

open Cert.Kernel Cert.Kernel.Gen Cert.Proof.KB

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg owesWithin)

variable {F : FTy → Type} [FloatOps F]

local notation "𝕄" => MT nD τ sig (HIx 1) (Elt F) ℕ UU ℕ

/-- The staging cells' rounds at launch: the cells and the tokens of every transfer the pipeline issues. -/
def uP : UP := initOf (Pipeline.cells (nD := nD) (τ := τ) cfgs cellOf_inj) (Pipeline.launchToks (nD := nD) (τ := τ) cfgs cellOf_inj)

/-- What the launch element leaves each device for the region. -/
def Gtc0 (d : Dev nD) : sProp 𝕄 := iprop(Pipeline.cellsGhost cfgs EP 0 d ∗ Pipeline.toksInit cfgs EP 0 d)

/-- The launch element — the handshakes' rounds `a`, the staging cells' rounds, the counters `cnt` — splits into its
    three factors, and the staging cells' rounds fund every device's share for the region. -/
theorem hfund (a : UH) (cnt : Counters) :
    (ownU ((a, (uP, cnt)) : UU) : sProp 𝕄)
      ⊢ |={Set.univ}=> iprop(BI.own ((embL : Emb UH (MT nD τ sig (HIx 1) (Elt F) ℕ UU ℕ)) a)
          ∗ BI.own (((Emb.inr : Emb Counters (UP × Counters)).trans (embR : Emb (UP × Counters) (MT nD τ sig (HIx 1) (Elt F) ℕ UU ℕ))) cnt)
          ∗ bigSep Finset.univ fun d : Dev nD => Gtc0 (F := F) d) := by
  have e1 : ∀ (Φ : Fin 1 → sProp 𝕄), bigSep Finset.univ Φ = Φ 0 := fun Φ => by
    rw [show (Finset.univ : Finset (Fin 1)) = {0} from rfl, bigSep_singleton]
  have hg : iprop((bigSep Finset.univ fun c : Dev nD => bigSep Finset.univ fun p : Fin 1 => (Pipeline.cellsGhost cfgs EP p c : sProp 𝕄))
        ∗ (bigSep Finset.univ fun c : Dev nD => bigSep Finset.univ fun p : Fin 1 => (Pipeline.toksInit cfgs EP p c : sProp 𝕄)))
      = bigSep Finset.univ fun d : Dev nD => Gtc0 (F := F) d := by
    unfold Gtc0
    rw [bigSep_sep', bigSep_congr fun c _ => e1 _, bigSep_congr fun c _ => e1 _]
  have hfg : (BI.own (((Emb.inl : Emb UP (UP × Counters)).trans (embR : Emb (UP × Counters) (MT nD τ sig (HIx 1) (Elt F) ℕ UU ℕ))) uP) : sProp 𝕄)
      ⊢ iprop(|==> ((bigSep Finset.univ fun c : Dev nD => bigSep Finset.univ fun p : Fin 1 => (Pipeline.cellsGhost cfgs EP p c : sProp 𝕄))
          ∗ (bigSep Finset.univ fun c : Dev nD => bigSep Finset.univ fun p : Fin 1 => (Pipeline.toksInit cfgs EP p c : sProp 𝕄)))) :=
    Pipeline.fund_ghost cfgs (EP (F := F)) cellOf_inj
  iintro Hu
  ihave H := (ownU_pair _ _) $$ Hu
  icases H with ⟨HH, HR⟩
  ihave H2 := (own_pair_emb (embR : Emb (UP × Counters) (MT nD τ sig (HIx 1) (Elt F) ℕ UU ℕ)) uP cnt) $$ HR
  icases H2 with ⟨HP, HC⟩
  imod hfg $$ HP with Hg
  imodintro
  isplitl [HH]; · iexact HH
  isplitl [HC]; · iexact HC
  rw [← hg]
  iexact Hg

end Cert.Kernel.Tc

end
-- ==== Proof.Bits.HostOps.lean ====
/-
  The host operations of the kernel program's entry function, as lists.

  On each device the TensorCore runs ninety-one host operations (the grouped table built from the tables by four
  lookups, and the last 4000 rows of the index matrix laid flat), the call of the lookup kernel on those rows, one
  transpose, the call of the blocked kernel on all rows, and four more host operations that put the first call's rows
  in place of rows `96000 …` of the second call's result. The lists below are those operations in program order, cut
  where the mathematics cuts them; `main_eq` says the program is exactly their run with the two calls in between.
-/
import proofs.«203024_g60129542144782_cont_9to1_m_748_22_alg».proof.Proof.Bits.Setup
import Idealize.ShloMosaic.Lib.Pipeline.Frame
import Idealize.ShloMosaic.Lib.Pipeline.Regions

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)
open Idealize.ShloMosaic.Tactic

variable {F : FTy → Type} [FloatOps F]

/-- The opening four operations: the table reshaped to `[14, 4, 2, 128]`, the words `0 … 15`, and the zero array `[14, 16, 128]` the grouped table's sum starts from. -/
def opsG0 : List (HloOp τ sig (Elt F)) :=
  [
    StableHlo.reshape main_arg1 main_v0 rfl shapeCasts_S56x2x128_S14x4x2x128,
    StableHlo.nullary main_v1 (iotaInDim S16 32 0),
    StableHlo.nullary main_cst (constant S_ .f32 0x00000000#32),
    StableHlo.unary main_cst main_v2 (broadcastInDim S14x16x128 ![] bcast_S_S14x16x128 : (⟨S_, .f32⟩ : BufTy).Contents (Elt F) → (⟨S14x16x128, .f32⟩ : BufTy).Contents (Elt F)) ]

theorem opsG0_sub : (opsG0 (F := F)).Forall fun op => op.bufs ⊆ StableHlo.tcRefs τ sig :=
  ⟨StableHlo.reshape_bufs_sub .., StableHlo.nullary_bufs_sub .., StableHlo.nullary_bufs_sub .., StableHlo.unary_bufs_sub ..⟩

theorem opsG0_fresh : (opsG0 (F := F)).Forall fun op => op.fresh = ∅ :=
  ⟨rfl, rfl, rfl, rfl⟩

/-- The lookup for `k = 0`: the bit `(c >> 0) & 1` of `c = 0 … 15`, wrapped by two if negative, paired with the word `0` as a start index; the gather of the reshaped table; the running sum. -/
def opsL0 : List (HloOp τ sig (Elt F)) :=
  [
    StableHlo.nullary main_c (constantI S_ 32 0#32),
    StableHlo.unary main_c main_v3 (broadcastInDim S16 ![] bcast_S_S16 : (⟨S_, .i32⟩ : BufTy).Contents (Elt F) → (⟨S16, .i32⟩ : BufTy).Contents (Elt F)),
    StableHlo.binary main_v1 main_v3 main_v4 (Host.shrsi : (⟨S16, .i32⟩ : BufTy).Contents (Elt F) → (⟨S16, .i32⟩ : BufTy).Contents (Elt F) → (⟨S16, .i32⟩ : BufTy).Contents (Elt F)),
    StableHlo.nullary main_c_0 (constantI S_ 32 1#32),
    StableHlo.unary main_c_0 main_v5 (broadcastInDim S16 ![] bcast_S_S16 : (⟨S_, .i32⟩ : BufTy).Contents (Elt F) → (⟨S16, .i32⟩ : BufTy).Contents (Elt F)),
    StableHlo.binary main_v4 main_v5 main_v6 (andi : (⟨S16, .i32⟩ : BufTy).Contents (Elt F) → (⟨S16, .i32⟩ : BufTy).Contents (Elt F) → (⟨S16, .i32⟩ : BufTy).Contents (Elt F)),
    StableHlo.nullary main_c_1 (constantI S_ 32 0#32),
    StableHlo.unary main_c_1 main_v7 (broadcastInDim S16 ![] bcast_S_S16 : (⟨S_, .i32⟩ : BufTy).Contents (Elt F) → (⟨S16, .i32⟩ : BufTy).Contents (Elt F)),
    StableHlo.binary main_v6 main_v7 main_v8 (cmpi .slt : (⟨S16, .i32⟩ : BufTy).Contents (Elt F) → (⟨S16, .i32⟩ : BufTy).Contents (Elt F) → (⟨S16, .i1⟩ : BufTy).Contents (Elt F)),
    StableHlo.nullary main_c_2 (constantI S_ 32 2#32),
    StableHlo.unary main_c_2 main_v9 (broadcastInDim S16 ![] bcast_S_S16 : (⟨S_, .i32⟩ : BufTy).Contents (Elt F) → (⟨S16, .i32⟩ : BufTy).Contents (Elt F)),
    StableHlo.binary main_v6 main_v9 main_v10 (addi : (⟨S16, .i32⟩ : BufTy).Contents (Elt F) → (⟨S16, .i32⟩ : BufTy).Contents (Elt F) → (⟨S16, .i32⟩ : BufTy).Contents (Elt F)),
    StableHlo.ternary main_v8 main_v10 main_v6 main_v11 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_3 (constantI S_ 32 0#32),
    StableHlo.unary main_c_3 main_v12 (broadcastInDim S16 ![] bcast_S_S16 : (⟨S_, .i32⟩ : BufTy).Contents (Elt F) → (⟨S16, .i32⟩ : BufTy).Contents (Elt F)),
    StableHlo.unary main_v12 main_v13 (id : (⟨S16, .i32⟩ : BufTy).Contents (Elt F) → (⟨S16, .i32⟩ : BufTy).Contents (Elt F)),
    StableHlo.unary main_v13 main_v14 (broadcastInDim S16x1 ![0] bcast_S16_S16x1_0 : (⟨S16, .i32⟩ : BufTy).Contents (Elt F) → (⟨S16x1, .i32⟩ : BufTy).Contents (Elt F)),
    StableHlo.unary main_v11 main_v15 (broadcastInDim S16x1 ![0] bcast_S16_S16x1_0 : (⟨S16, .i32⟩ : BufTy).Contents (Elt F) → (⟨S16x1, .i32⟩ : BufTy).Contents (Elt F)),
    StableHlo.binary main_v14 main_v15 main_v16 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    StableHlo.binary main_v0 main_v16 main_v17 ((fun x i => Host.gather gather_S14x4x2x128_S16x2_S14x16x128_02_12_n_n_12_1_1411128 x i) : (⟨S14x4x2x128, .f32⟩ : BufTy).Contents (Elt F) → (⟨S16x2, .i32⟩ : BufTy).Contents (Elt F) → (⟨S14x16x128, .f32⟩ : BufTy).Contents (Elt F)),
    StableHlo.binary main_v2 main_v17 main_v18 (addf : (⟨S14x16x128, .f32⟩ : BufTy).Contents (Elt F) → (⟨S14x16x128, .f32⟩ : BufTy).Contents (Elt F) → (⟨S14x16x128, .f32⟩ : BufTy).Contents (Elt F)) ]

theorem opsL0_sub : (opsL0 (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub ..⟩

theorem opsL0_fresh : (opsL0 (F := F)).Forall fun op => op.fresh = ∅ :=
  ⟨rfl, rfl, rfl, rfl, rfl, rfl, rfl, rfl, rfl, rfl, rfl, rfl, rfl, rfl, rfl, rfl, rfl, rfl, rfl, rfl, rfl⟩

/-- The lookup for `k = 1`, likewise. -/
def opsL1 : List (HloOp τ sig (Elt F)) :=
  [
    StableHlo.nullary main_c_4 (constantI S_ 32 1#32),
    StableHlo.unary main_c_4 main_v19 (broadcastInDim S16 ![] bcast_S_S16 : (⟨S_, .i32⟩ : BufTy).Contents (Elt F) → (⟨S16, .i32⟩ : BufTy).Contents (Elt F)),
    StableHlo.binary main_v1 main_v19 main_v20 (Host.shrsi : (⟨S16, .i32⟩ : BufTy).Contents (Elt F) → (⟨S16, .i32⟩ : BufTy).Contents (Elt F) → (⟨S16, .i32⟩ : BufTy).Contents (Elt F)),
    StableHlo.nullary main_c_5 (constantI S_ 32 1#32),
    StableHlo.unary main_c_5 main_v21 (broadcastInDim S16 ![] bcast_S_S16 : (⟨S_, .i32⟩ : BufTy).Contents (Elt F) → (⟨S16, .i32⟩ : BufTy).Contents (Elt F)),
    StableHlo.binary main_v20 main_v21 main_v22 (andi : (⟨S16, .i32⟩ : BufTy).Contents (Elt F) → (⟨S16, .i32⟩ : BufTy).Contents (Elt F) → (⟨S16, .i32⟩ : BufTy).Contents (Elt F)),
    StableHlo.nullary main_c_6 (constantI S_ 32 0#32),
    StableHlo.unary main_c_6 main_v23 (broadcastInDim S16 ![] bcast_S_S16 : (⟨S_, .i32⟩ : BufTy).Contents (Elt F) → (⟨S16, .i32⟩ : BufTy).Contents (Elt F)),
    StableHlo.binary main_v22 main_v23 main_v24 (cmpi .slt : (⟨S16, .i32⟩ : BufTy).Contents (Elt F) → (⟨S16, .i32⟩ : BufTy).Contents (Elt F) → (⟨S16, .i1⟩ : BufTy).Contents (Elt F)),
    StableHlo.nullary main_c_7 (constantI S_ 32 2#32),
    StableHlo.unary main_c_7 main_v25 (broadcastInDim S16 ![] bcast_S_S16 : (⟨S_, .i32⟩ : BufTy).Contents (Elt F) → (⟨S16, .i32⟩ : BufTy).Contents (Elt F)),
    StableHlo.binary main_v22 main_v25 main_v26 (addi : (⟨S16, .i32⟩ : BufTy).Contents (Elt F) → (⟨S16, .i32⟩ : BufTy).Contents (Elt F) → (⟨S16, .i32⟩ : BufTy).Contents (Elt F)),
    StableHlo.ternary main_v24 main_v26 main_v22 main_v27 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_8 (constantI S_ 32 1#32),
    StableHlo.unary main_c_8 main_v28 (broadcastInDim S16 ![] bcast_S_S16 : (⟨S_, .i32⟩ : BufTy).Contents (Elt F) → (⟨S16, .i32⟩ : BufTy).Contents (Elt F)),
    StableHlo.unary main_v28 main_v29 (id : (⟨S16, .i32⟩ : BufTy).Contents (Elt F) → (⟨S16, .i32⟩ : BufTy).Contents (Elt F)),
    StableHlo.unary main_v29 main_v30 (broadcastInDim S16x1 ![0] bcast_S16_S16x1_0 : (⟨S16, .i32⟩ : BufTy).Contents (Elt F) → (⟨S16x1, .i32⟩ : BufTy).Contents (Elt F)),
    StableHlo.unary main_v27 main_v31 (broadcastInDim S16x1 ![0] bcast_S16_S16x1_0 : (⟨S16, .i32⟩ : BufTy).Contents (Elt F) → (⟨S16x1, .i32⟩ : BufTy).Contents (Elt F)),
    StableHlo.binary main_v30 main_v31 main_v32 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    StableHlo.binary main_v0 main_v32 main_v33 ((fun x i => Host.gather gather_S14x4x2x128_S16x2_S14x16x128_02_12_n_n_12_1_1411128 x i) : (⟨S14x4x2x128, .f32⟩ : BufTy).Contents (Elt F) → (⟨S16x2, .i32⟩ : BufTy).Contents (Elt F) → (⟨S14x16x128, .f32⟩ : BufTy).Contents (Elt F)),
    StableHlo.binary main_v18 main_v33 main_v34 (addf : (⟨S14x16x128, .f32⟩ : BufTy).Contents (Elt F) → (⟨S14x16x128, .f32⟩ : BufTy).Contents (Elt F) → (⟨S14x16x128, .f32⟩ : BufTy).Contents (Elt F)) ]

theorem opsL1_sub : (opsL1 (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub ..⟩

theorem opsL1_fresh : (opsL1 (F := F)).Forall fun op => op.fresh = ∅ :=
  ⟨rfl, rfl, rfl, rfl, rfl, rfl, rfl, rfl, rfl, rfl, rfl, rfl, rfl, rfl, rfl, rfl, rfl, rfl, rfl, rfl, rfl⟩

/-- The lookup for `k = 2`, its first fourteen operations (up to the word `2` that its start index pairs the bit with). -/
def opsL2a : List (HloOp τ sig (Elt F)) :=
  [
    StableHlo.nullary main_c_9 (constantI S_ 32 2#32),
    StableHlo.unary main_c_9 main_v35 (broadcastInDim S16 ![] bcast_S_S16 : (⟨S_, .i32⟩ : BufTy).Contents (Elt F) → (⟨S16, .i32⟩ : BufTy).Contents (Elt F)),
    StableHlo.binary main_v1 main_v35 main_v36 (Host.shrsi : (⟨S16, .i32⟩ : BufTy).Contents (Elt F) → (⟨S16, .i32⟩ : BufTy).Contents (Elt F) → (⟨S16, .i32⟩ : BufTy).Contents (Elt F)),
    StableHlo.nullary main_c_10 (constantI S_ 32 1#32),
    StableHlo.unary main_c_10 main_v37 (broadcastInDim S16 ![] bcast_S_S16 : (⟨S_, .i32⟩ : BufTy).Contents (Elt F) → (⟨S16, .i32⟩ : BufTy).Contents (Elt F)),
    StableHlo.binary main_v36 main_v37 main_v38 (andi : (⟨S16, .i32⟩ : BufTy).Contents (Elt F) → (⟨S16, .i32⟩ : BufTy).Contents (Elt F) → (⟨S16, .i32⟩ : BufTy).Contents (Elt F)),
    StableHlo.nullary main_c_11 (constantI S_ 32 0#32),
    StableHlo.unary main_c_11 main_v39 (broadcastInDim S16 ![] bcast_S_S16 : (⟨S_, .i32⟩ : BufTy).Contents (Elt F) → (⟨S16, .i32⟩ : BufTy).Contents (Elt F)),
    StableHlo.binary main_v38 main_v39 main_v40 (cmpi .slt : (⟨S16, .i32⟩ : BufTy).Contents (Elt F) → (⟨S16, .i32⟩ : BufTy).Contents (Elt F) → (⟨S16, .i1⟩ : BufTy).Contents (Elt F)),
    StableHlo.nullary main_c_12 (constantI S_ 32 2#32),
    StableHlo.unary main_c_12 main_v41 (broadcastInDim S16 ![] bcast_S_S16 : (⟨S_, .i32⟩ : BufTy).Contents (Elt F) → (⟨S16, .i32⟩ : BufTy).Contents (Elt F)),
    StableHlo.binary main_v38 main_v41 main_v42 (addi : (⟨S16, .i32⟩ : BufTy).Contents (Elt F) → (⟨S16, .i32⟩ : BufTy).Contents (Elt F) → (⟨S16, .i32⟩ : BufTy).Contents (Elt F)),
    StableHlo.ternary main_v40 main_v42 main_v38 main_v43 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_13 (constantI S_ 32 2#32) ]

theorem opsL2a_sub : (opsL2a (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub ..⟩

theorem opsL2a_fresh : (opsL2a (F := F)).Forall fun op => op.fresh = ∅ :=
  ⟨rfl, rfl, rfl, rfl, rfl, rfl, rfl, rfl, rfl, rfl, rfl, rfl, rfl, rfl⟩

/-- The lookup for `k = 2`, its last seven operations. -/
def opsL2b : List (HloOp τ sig (Elt F)) :=
  [
    StableHlo.unary main_c_13 main_v44 (broadcastInDim S16 ![] bcast_S_S16 : (⟨S_, .i32⟩ : BufTy).Contents (Elt F) → (⟨S16, .i32⟩ : BufTy).Contents (Elt F)),
    StableHlo.unary main_v44 main_v45 (id : (⟨S16, .i32⟩ : BufTy).Contents (Elt F) → (⟨S16, .i32⟩ : BufTy).Contents (Elt F)),
    StableHlo.unary main_v45 main_v46 (broadcastInDim S16x1 ![0] bcast_S16_S16x1_0 : (⟨S16, .i32⟩ : BufTy).Contents (Elt F) → (⟨S16x1, .i32⟩ : BufTy).Contents (Elt F)),
    StableHlo.unary main_v43 main_v47 (broadcastInDim S16x1 ![0] bcast_S16_S16x1_0 : (⟨S16, .i32⟩ : BufTy).Contents (Elt F) → (⟨S16x1, .i32⟩ : BufTy).Contents (Elt F)),
    StableHlo.binary main_v46 main_v47 main_v48 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    StableHlo.binary main_v0 main_v48 main_v49 ((fun x i => Host.gather gather_S14x4x2x128_S16x2_S14x16x128_02_12_n_n_12_1_1411128 x i) : (⟨S14x4x2x128, .f32⟩ : BufTy).Contents (Elt F) → (⟨S16x2, .i32⟩ : BufTy).Contents (Elt F) → (⟨S14x16x128, .f32⟩ : BufTy).Contents (Elt F)),
    StableHlo.binary main_v34 main_v49 main_v50 (addf : (⟨S14x16x128, .f32⟩ : BufTy).Contents (Elt F) → (⟨S14x16x128, .f32⟩ : BufTy).Contents (Elt F) → (⟨S14x16x128, .f32⟩ : BufTy).Contents (Elt F)) ]

theorem opsL2b_sub : (opsL2b (F := F)).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.binary_bufs_sub ..⟩

theorem opsL2b_fresh : (opsL2b (F := F)).Forall fun op => op.fresh = ∅ :=
  ⟨rfl, rfl, rfl, rfl, rfl, rfl, rfl⟩

/-- The lookup for `k = 3`. -/
def opsL3 : List (HloOp τ sig (Elt F)) :=
  [
    StableHlo.nullary main_c_14 (constantI S_ 32 3#32),
    StableHlo.unary main_c_14 main_v51 (broadcastInDim S16 ![] bcast_S_S16 : (⟨S_, .i32⟩ : BufTy).Contents (Elt F) → (⟨S16, .i32⟩ : BufTy).Contents (Elt F)),
    StableHlo.binary main_v1 main_v51 main_v52 (Host.shrsi : (⟨S16, .i32⟩ : BufTy).Contents (Elt F) → (⟨S16, .i32⟩ : BufTy).Contents (Elt F) → (⟨S16, .i32⟩ : BufTy).Contents (Elt F)),
    StableHlo.nullary main_c_15 (constantI S_ 32 1#32),
    StableHlo.unary main_c_15 main_v53 (broadcastInDim S16 ![] bcast_S_S16 : (⟨S_, .i32⟩ : BufTy).Contents (Elt F) → (⟨S16, .i32⟩ : BufTy).Contents (Elt F)),
    StableHlo.binary main_v52 main_v53 main_v54 (andi : (⟨S16, .i32⟩ : BufTy).Contents (Elt F) → (⟨S16, .i32⟩ : BufTy).Contents (Elt F) → (⟨S16, .i32⟩ : BufTy).Contents (Elt F)),
    StableHlo.nullary main_c_16 (constantI S_ 32 0#32),
    StableHlo.unary main_c_16 main_v55 (broadcastInDim S16 ![] bcast_S_S16 : (⟨S_, .i32⟩ : BufTy).Contents (Elt F) → (⟨S16, .i32⟩ : BufTy).Contents (Elt F)),
    StableHlo.binary main_v54 main_v55 main_v56 (cmpi .slt : (⟨S16, .i32⟩ : BufTy).Contents (Elt F) → (⟨S16, .i32⟩ : BufTy).Contents (Elt F) → (⟨S16, .i1⟩ : BufTy).Contents (Elt F)),
    StableHlo.nullary main_c_17 (constantI S_ 32 2#32),
    StableHlo.unary main_c_17 main_v57 (broadcastInDim S16 ![] bcast_S_S16 : (⟨S_, .i32⟩ : BufTy).Contents (Elt F) → (⟨S16, .i32⟩ : BufTy).Contents (Elt F)),
    StableHlo.binary main_v54 main_v57 main_v58 (addi : (⟨S16, .i32⟩ : BufTy).Contents (Elt F) → (⟨S16, .i32⟩ : BufTy).Contents (Elt F) → (⟨S16, .i32⟩ : BufTy).Contents (Elt F)),
    StableHlo.ternary main_v56 main_v58 main_v54 main_v59 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_18 (constantI S_ 32 3#32),
    StableHlo.unary main_c_18 main_v60 (broadcastInDim S16 ![] bcast_S_S16 : (⟨S_, .i32⟩ : BufTy).Contents (Elt F) → (⟨S16, .i32⟩ : BufTy).Contents (Elt F)),
    StableHlo.unary main_v60 main_v61 (id : (⟨S16, .i32⟩ : BufTy).Contents (Elt F) → (⟨S16, .i32⟩ : BufTy).Contents (Elt F)),
    StableHlo.unary main_v61 main_v62 (broadcastInDim S16x1 ![0] bcast_S16_S16x1_0 : (⟨S16, .i32⟩ : BufTy).Contents (Elt F) → (⟨S16x1, .i32⟩ : BufTy).Contents (Elt F)),
    StableHlo.unary main_v59 main_v63 (broadcastInDim S16x1 ![0] bcast_S16_S16x1_0 : (⟨S16, .i32⟩ : BufTy).Contents (Elt F) → (⟨S16x1, .i32⟩ : BufTy).Contents (Elt F)),
    StableHlo.binary main_v62 main_v63 main_v64 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    StableHlo.binary main_v0 main_v64 main_v65 ((fun x i => Host.gather gather_S14x4x2x128_S16x2_S14x16x128_02_12_n_n_12_1_1411128 x i) : (⟨S14x4x2x128, .f32⟩ : BufTy).Contents (Elt F) → (⟨S16x2, .i32⟩ : BufTy).Contents (Elt F) → (⟨S14x16x128, .f32⟩ : BufTy).Contents (Elt F)),
    StableHlo.binary main_v50 main_v65 main_v66 (addf : (⟨S14x16x128, .f32⟩ : BufTy).Contents (Elt F) → (⟨S14x16x128, .f32⟩ : BufTy).Contents (Elt F) → (⟨S14x16x128, .f32⟩ : BufTy).Contents (Elt F)) ]

theorem opsL3_sub : (opsL3 (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub ..⟩

theorem opsL3_fresh : (opsL3 (F := F)).Forall fun op => op.fresh = ∅ :=
  ⟨rfl, rfl, rfl, rfl, rfl, rfl, rfl, rfl, rfl, rfl, rfl, rfl, rfl, rfl, rfl, rfl, rfl, rfl, rfl, rfl, rfl⟩

/-- The closing three operations before the first call: the last 4000 rows of the index matrix sliced out and flattened, and the grouped table flattened. -/
def opsG1 : List (HloOp τ sig (Elt F)) :=
  [
    StableHlo.unary main_arg0 main_v67 ((extractStridedSlice S4000x56 ![96000, 0] · slices_S100000x56_S4000x56_96000_0) : (⟨S100000x56, .i32⟩ : BufTy).Contents (Elt F) → (⟨S4000x56, .i32⟩ : BufTy).Contents (Elt F)),
    StableHlo.reshape main_v67 main_v68 rfl shapeCasts_S4000x56_S224000,
    StableHlo.reshape main_v66 main_v69 rfl shapeCasts_S14x16x128_S28672 ]

theorem opsG1_sub : (opsG1 (F := F)).Forall fun op => op.bufs ⊆ StableHlo.tcRefs τ sig :=
  ⟨StableHlo.unary_bufs_sub .., StableHlo.reshape_bufs_sub .., StableHlo.reshape_bufs_sub ..⟩

theorem opsG1_fresh : (opsG1 (F := F)).Forall fun op => op.fresh = ∅ :=
  ⟨rfl, rfl, rfl⟩

/-- The one host operation between the two calls: the table transposed to `[2, 56, 128]`. -/
def opsB : List (HloOp τ sig (Elt F)) :=
  [
    StableHlo.unary main_arg1 main_v71 ((transpose S2x56x128 [1, 0, 2] · transposes_S56x2x128_S2x56x128_1_0_2) : (⟨S56x2x128, .f32⟩ : BufTy).Contents (Elt F) → (⟨S2x56x128, .f32⟩ : BufTy).Contents (Elt F)) ]

theorem opsB_sub : (opsB (F := F)).Forall fun op => op.bufs ⊆ StableHlo.tcRefs τ sig :=
  StableHlo.unary_bufs_sub ..

theorem opsB_fresh : (opsB (F := F)).Forall fun op => op.fresh = ∅ :=
  rfl

/-- The four host operations after the second call: the first call's result reshaped to `[4000, 128]`, the two start words `96000` and `0`, and the update of rows `96000 …` of the second call's result by it. -/
def opsC : List (HloOp τ sig (Elt F)) :=
  [
    StableHlo.reshape main_v70 main_v73 rfl shapeCasts_S512000_S4000x128,
    StableHlo.nullary main_c_19 (constantI S_ 32 96000#32),
    StableHlo.nullary main_c_20 (constantI S_ 32 0#32),
    StableHlo.binaryIndexed main_v72 main_v73 ![main_c_19, main_c_20] ⟨S_, .i32⟩ main_v74 ((fun x u i => Host.dynamicUpdateSlice x u (fun k => (i k (Shape.Idx.first h_S_)).toInt) updateFits_S100000x128_S4000x128) : (⟨S100000x128, .f32⟩ : BufTy).Contents (Elt F) → (⟨S4000x128, .f32⟩ : BufTy).Contents (Elt F) → (Fin 2 → (⟨S_, .i32⟩ : BufTy).Contents (Elt F)) → (⟨S100000x128, .f32⟩ : BufTy).Contents (Elt F)) ]

theorem opsC_sub : (opsC (F := F)).Forall fun op => op.bufs ⊆ StableHlo.tcRefs τ sig :=
  ⟨StableHlo.reshape_bufs_sub .., StableHlo.nullary_bufs_sub .., StableHlo.nullary_bufs_sub .., StableHlo.binaryIndexed_bufs_sub ..⟩

theorem opsC_fresh : (opsC (F := F)).Forall fun op => op.fresh = ∅ :=
  ⟨rfl, rfl, rfl, rfl⟩

/-- The operations of the program's first sixty statements. -/
def opsW0 : List (HloOp τ sig (Elt F)) := opsG0 ++ opsL0 ++ opsL1 ++ opsL2a
/-- The operations of the remaining statements up to the first call. -/
def opsW1 : List (HloOp τ sig (Elt F)) := opsL2b ++ opsL3 ++ opsG1
/-- All ninety-one operations before the first call, in order. -/
def opsA : List (HloOp τ sig (Elt F)) := opsW0 ++ opsW1

/-- The program's first sixty statements are those operations in a row. -/
theorem main_part0_eq (d : Dev nD) : main_part0 (F := F) d = StableHlo.seq opsW0 := by
  chain_rfl

/-- The remaining statements: thirty-one operations, the first call, one operation, the second call, four
    operations. -/
theorem main_part1_eq (d : Dev nD) :
    main_part1 (F := F) d = (StableHlo.seq opsW1 >>= fun _ => sc.run d 0 >>= fun _ => StableHlo.seq opsB >>= fun _ =>
      Prog.lift (.customCall (SparseCore.inner (Pipeline.entry 0)) ()) >>= fun _ => StableHlo.seq opsC) := by
  chain_rfl

/-- The whole program on a device: the ninety-one operations, the first call, the transpose, the second call, the
    last four operations. -/
theorem main_eq (d : Dev nD) :
    main (F := F) d = (StableHlo.seq opsA >>= fun _ => sc.run d 0 >>= fun _ => StableHlo.seq opsB >>= fun _ =>
      Prog.lift (.customCall (SparseCore.inner (Pipeline.entry 0)) ()) >>= fun _ => StableHlo.seq opsC) := by
  show (main_part0 (F := F) d >>= fun _ => main_part1 (F := F) d) = _
  rw [main_part0_eq, main_part1_eq, opsA, StableHlo.seq_append, bind_assoc]

end Cert.Proof.KB

end
-- ==== Proof.Bits.HostRun.lean ====
/-
  Running the host operations of the kernel program's entry function.

  A host operation reads and writes whole unscoped buffers of the TensorCore. Holding the region boundary and ALL of
  those buffers at a valuation `V`, a row of host operations runs to its end and leaves the same set held at the row's
  composed result: each operation in turn replaces the contents of the buffer it writes by its function of the contents
  of the buffers it reads. The three rows of the program — before the first call, between the calls, after the second
  call — are instances.
-/
import proofs.«203024_g60129542144782_cont_9to1_m_748_22_alg».proof.Proof.Bits.Setup
import proofs.«203024_g60129542144782_cont_9to1_m_748_22_alg».proof.Proof.Bits.HostOps
import Idealize.ShloMosaic.Lib.Pipeline.Frame
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)
open Idealize.ShloMosaic.Tactic

variable {F : FTy → Type} [FloatOps F]

/-! ## The rule for a row of host operations

Every host operation of the program names unscoped references of the TensorCore only, so the whole row runs holding
the region boundary and ALL the TensorCore's unscoped buffers whole: it ends with that same set held at the row's
composed result (each operation rewrites the buffer it writes and leaves the rest). -/

local notation "𝕄" => MT nD τ sig (HIx 1) (Elt F) ℕ UU ℕ

/-- A property of every element of two lists is one of their concatenation. -/
theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

theorem opsA_sub : (opsA (F := F)).Forall fun op => op.bufs ⊆ StableHlo.tcRefs τ sig :=
  forall_append (forall_append (forall_append (forall_append opsG0_sub opsL0_sub) opsL1_sub) opsL2a_sub)
    (forall_append (forall_append opsL2b_sub opsL3_sub) opsG1_sub)

theorem opsA_fresh : (opsA (F := F)).Forall fun op => op.fresh = ∅ :=
  forall_append (forall_append (forall_append (forall_append opsG0_fresh opsL0_fresh) opsL1_fresh) opsL2a_fresh)
    (forall_append (forall_append opsL2b_fresh opsL3_fresh) opsG1_fresh)

/-- What the launch deals the TensorCore of its unscoped buffers is that set held at the launch contents. -/
theorem unscoped_held (m : (ℓ : Loc nD τ sig) → Buf (Elt F) ℓ) (d : Dev nD) :
    (unscopedBufs d (fun b => m ((SparseCore.T d).loc b)) : sProp 𝕄)
      = held (SparseCore.T d) (Pipeline.ucRefs τ sig) (fun b => m (d, b)) :=
  Pipeline.unscopedBufs_held d (fun b => m (d, b))

/-- A row of host operations at the head of the TensorCore's program, holding the boundary and the unscoped buffers at
    `V`: what follows it runs holding them at the row's composed result. -/
theorem wp_host (d : Dev nD) {β : Type}
    (k : PUnit → Prog (TpuEff nD τ sig (Elt F) (SparseCore.Sig (ΛP (F := F)) 1) .tc) β) {Q : β → sProp 𝕄}
    (ops : List (HloOp τ sig (Elt F))) (hsub : ops.Forall fun op => op.bufs ⊆ StableHlo.tcRefs τ sig)
    (hfresh : ops.Forall fun op => op.fresh = ∅) (V : Valuation τ sig (Elt F)) :
    iprop(boundary (SparseCore.T d) ∗ (held (SparseCore.T d) (Pipeline.ucRefs τ sig) V : sProp 𝕄))
      ⊢ iprop(((boundary (SparseCore.T d) ∗ (held (SparseCore.T d) (Pipeline.ucRefs τ sig) (StableHlo.after ops V) : sProp 𝕄))
                -∗ wp frame (wpE ((K (F := F)).defs (D (F := F))) 𝒱 (SparseCore.T d) none) Set.univ (k ⟨⟩) Q)
        -∗ wp frame (wpE ((K (F := F)).defs (D (F := F))) 𝒱 (SparseCore.T d) none) Set.univ (StableHlo.seq ops >>= k) Q) :=
  StableHlo.wp_seq 𝒱 none Set.univ d (Pipeline.ucRefs τ sig) k ops
    (fun op h => Pipeline.sub_ucRefs op ((List.forall_iff_forall_mem.mp hsub) op h))
    (fun op h => (List.forall_iff_forall_mem.mp hfresh) op h) V

/-- The ninety-one operations before the first call. -/
theorem wp_A (d : Dev nD) {β : Type}
    (k : PUnit → Prog (TpuEff nD τ sig (Elt F) (SparseCore.Sig (ΛP (F := F)) 1) .tc) β) {Q : β → sProp 𝕄}
    (V : Valuation τ sig (Elt F)) :
    iprop(boundary (SparseCore.T d) ∗ (held (SparseCore.T d) (Pipeline.ucRefs τ sig) V : sProp 𝕄))
      ⊢ iprop(((boundary (SparseCore.T d) ∗ (held (SparseCore.T d) (Pipeline.ucRefs τ sig) (StableHlo.after opsA V) : sProp 𝕄))
                -∗ wp frame (wpE ((K (F := F)).defs (D (F := F))) 𝒱 (SparseCore.T d) none) Set.univ (k ⟨⟩) Q)
        -∗ wp frame (wpE ((K (F := F)).defs (D (F := F))) 𝒱 (SparseCore.T d) none) Set.univ (StableHlo.seq opsA >>= k) Q) :=
  wp_host d k opsA opsA_sub opsA_fresh V

/-- The transpose between the two calls. -/
theorem wp_B (d : Dev nD) {β : Type}
    (k : PUnit → Prog (TpuEff nD τ sig (Elt F) (SparseCore.Sig (ΛP (F := F)) 1) .tc) β) {Q : β → sProp 𝕄}
    (V : Valuation τ sig (Elt F)) :
    iprop(boundary (SparseCore.T d) ∗ (held (SparseCore.T d) (Pipeline.ucRefs τ sig) V : sProp 𝕄))
      ⊢ iprop(((boundary (SparseCore.T d) ∗ (held (SparseCore.T d) (Pipeline.ucRefs τ sig) (StableHlo.after opsB V) : sProp 𝕄))
                -∗ wp frame (wpE ((K (F := F)).defs (D (F := F))) 𝒱 (SparseCore.T d) none) Set.univ (k ⟨⟩) Q)
        -∗ wp frame (wpE ((K (F := F)).defs (D (F := F))) 𝒱 (SparseCore.T d) none) Set.univ (StableHlo.seq opsB >>= k) Q) :=
  wp_host d k opsB opsB_sub opsB_fresh V

/-- The four operations after the second call. -/
theorem wp_C (d : Dev nD) {β : Type}
    (k : PUnit → Prog (TpuEff nD τ sig (Elt F) (SparseCore.Sig (ΛP (F := F)) 1) .tc) β) {Q : β → sProp 𝕄}
    (V : Valuation τ sig (Elt F)) :
    iprop(boundary (SparseCore.T d) ∗ (held (SparseCore.T d) (Pipeline.ucRefs τ sig) V : sProp 𝕄))
      ⊢ iprop(((boundary (SparseCore.T d) ∗ (held (SparseCore.T d) (Pipeline.ucRefs τ sig) (StableHlo.after opsC V) : sProp 𝕄))
                -∗ wp frame (wpE ((K (F := F)).defs (D (F := F))) 𝒱 (SparseCore.T d) none) Set.univ (k ⟨⟩) Q)
        -∗ wp frame (wpE ((K (F := F)).defs (D (F := F))) 𝒱 (SparseCore.T d) none) Set.univ (StableHlo.seq opsC >>= k) Q) :=
  wp_host d k opsC opsC_sub opsC_fresh V

end Cert.Proof.KB

end
-- ==== Proof.Bits.HostKeep.lean ====
/-
  What each row of host operations writes, and that it leaves everything else alone.

  Every host operation writes exactly one buffer. For each row of the program the references it writes are listed in
  order; a reference outside the list holds, after the row, what it held before.
-/
import proofs.«203024_g60129542144782_cont_9to1_m_748_22_alg».proof.Proof.Bits.HostOps
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx
open Idealize.ShloMosaic.StableHlo

variable {F : FTy → Type} [FloatOps F]

/-- Read a composed valuation at a literal reference: each operation's result at its own result buffer is its
    function's value, at any other reference what was there before (the library's `after_results` loop, for goals in
    which the fold over the row has already been unfolded). -/
macro "read_results" : tactic =>
  `(tactic| (repeat (first
      | rw [nullary_result] | rw [unary_result] | rw [binary_result] | rw [ternary_result]
      | rw [reshape_result] | rw [binaryIndexed_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [binaryIndexed_result_ne]; rotate_left; decide))))

/-! ## What each row writes

The references each row of operations writes, in order; a reference outside a row's list keeps its contents through
the row. -/

/-- An operation that writes the one reference `y` writes inside any list holding `y`. -/
theorem single_sub_map {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

def wG0 : List (Ref sig .tc) := [main_v0, main_v1, main_cst, main_v2]
theorem opsG0_writes : (opsG0 (F := F)).Forall fun op => op.writes ⊆ ((wG0).map (Proc.devRef (τ := τ) .tc)).toFinset :=
  ⟨single_sub_map (y := main_v0) (by decide), single_sub_map (y := main_v1) (by decide), single_sub_map (y := main_cst) (by decide), single_sub_map (y := main_v2) (by decide)⟩
/-- A reference the row does not write keeps its contents. -/
theorem opsG0_keep (V : Valuation τ sig (Elt F)) (r : Ref sig .tc) (hr : r ∉ wG0) :
    after (opsG0 (F := F)) V (Proc.devRef .tc r) = V (Proc.devRef .tc r) :=
  after_of_writes_sub opsG0 V opsG0_writes hr

def wL0 : List (Ref sig .tc) := [main_c, main_v3, main_v4, main_c_0, main_v5, main_v6, main_c_1, main_v7, main_v8, main_c_2, main_v9, main_v10, main_v11, main_c_3, main_v12, main_v13, main_v14, main_v15, main_v16, main_v17, main_v18]
theorem opsL0_writes : (opsL0 (F := F)).Forall fun op => op.writes ⊆ ((wL0).map (Proc.devRef (τ := τ) .tc)).toFinset :=
  ⟨single_sub_map (y := main_c) (by decide), single_sub_map (y := main_v3) (by decide), single_sub_map (y := main_v4) (by decide), single_sub_map (y := main_c_0) (by decide), single_sub_map (y := main_v5) (by decide), single_sub_map (y := main_v6) (by decide), single_sub_map (y := main_c_1) (by decide), single_sub_map (y := main_v7) (by decide), single_sub_map (y := main_v8) (by decide), single_sub_map (y := main_c_2) (by decide), single_sub_map (y := main_v9) (by decide), single_sub_map (y := main_v10) (by decide), single_sub_map (y := main_v11) (by decide), single_sub_map (y := main_c_3) (by decide), single_sub_map (y := main_v12) (by decide), single_sub_map (y := main_v13) (by decide), single_sub_map (y := main_v14) (by decide), single_sub_map (y := main_v15) (by decide), single_sub_map (y := main_v16) (by decide), single_sub_map (y := main_v17) (by decide), single_sub_map (y := main_v18) (by decide)⟩
/-- A reference the row does not write keeps its contents. -/
theorem opsL0_keep (V : Valuation τ sig (Elt F)) (r : Ref sig .tc) (hr : r ∉ wL0) :
    after (opsL0 (F := F)) V (Proc.devRef .tc r) = V (Proc.devRef .tc r) :=
  after_of_writes_sub opsL0 V opsL0_writes hr

def wL1 : List (Ref sig .tc) := [main_c_4, main_v19, main_v20, main_c_5, main_v21, main_v22, main_c_6, main_v23, main_v24, main_c_7, main_v25, main_v26, main_v27, main_c_8, main_v28, main_v29, main_v30, main_v31, main_v32, main_v33, main_v34]
theorem opsL1_writes : (opsL1 (F := F)).Forall fun op => op.writes ⊆ ((wL1).map (Proc.devRef (τ := τ) .tc)).toFinset :=
  ⟨single_sub_map (y := main_c_4) (by decide), single_sub_map (y := main_v19) (by decide), single_sub_map (y := main_v20) (by decide), single_sub_map (y := main_c_5) (by decide), single_sub_map (y := main_v21) (by decide), single_sub_map (y := main_v22) (by decide), single_sub_map (y := main_c_6) (by decide), single_sub_map (y := main_v23) (by decide), single_sub_map (y := main_v24) (by decide), single_sub_map (y := main_c_7) (by decide), single_sub_map (y := main_v25) (by decide), single_sub_map (y := main_v26) (by decide), single_sub_map (y := main_v27) (by decide), single_sub_map (y := main_c_8) (by decide), single_sub_map (y := main_v28) (by decide), single_sub_map (y := main_v29) (by decide), single_sub_map (y := main_v30) (by decide), single_sub_map (y := main_v31) (by decide), single_sub_map (y := main_v32) (by decide), single_sub_map (y := main_v33) (by decide), single_sub_map (y := main_v34) (by decide)⟩
/-- A reference the row does not write keeps its contents. -/
theorem opsL1_keep (V : Valuation τ sig (Elt F)) (r : Ref sig .tc) (hr : r ∉ wL1) :
    after (opsL1 (F := F)) V (Proc.devRef .tc r) = V (Proc.devRef .tc r) :=
  after_of_writes_sub opsL1 V opsL1_writes hr

def wL2a : List (Ref sig .tc) := [main_c_9, main_v35, main_v36, main_c_10, main_v37, main_v38, main_c_11, main_v39, main_v40, main_c_12, main_v41, main_v42, main_v43, main_c_13]
theorem opsL2a_writes : (opsL2a (F := F)).Forall fun op => op.writes ⊆ ((wL2a).map (Proc.devRef (τ := τ) .tc)).toFinset :=
  ⟨single_sub_map (y := main_c_9) (by decide), single_sub_map (y := main_v35) (by decide), single_sub_map (y := main_v36) (by decide), single_sub_map (y := main_c_10) (by decide), single_sub_map (y := main_v37) (by decide), single_sub_map (y := main_v38) (by decide), single_sub_map (y := main_c_11) (by decide), single_sub_map (y := main_v39) (by decide), single_sub_map (y := main_v40) (by decide), single_sub_map (y := main_c_12) (by decide), single_sub_map (y := main_v41) (by decide), single_sub_map (y := main_v42) (by decide), single_sub_map (y := main_v43) (by decide), single_sub_map (y := main_c_13) (by decide)⟩
/-- A reference the row does not write keeps its contents. -/
theorem opsL2a_keep (V : Valuation τ sig (Elt F)) (r : Ref sig .tc) (hr : r ∉ wL2a) :
    after (opsL2a (F := F)) V (Proc.devRef .tc r) = V (Proc.devRef .tc r) :=
  after_of_writes_sub opsL2a V opsL2a_writes hr

def wL2b : List (Ref sig .tc) := [main_v44, main_v45, main_v46, main_v47, main_v48, main_v49, main_v50]
theorem opsL2b_writes : (opsL2b (F := F)).Forall fun op => op.writes ⊆ ((wL2b).map (Proc.devRef (τ := τ) .tc)).toFinset :=
  ⟨single_sub_map (y := main_v44) (by decide), single_sub_map (y := main_v45) (by decide), single_sub_map (y := main_v46) (by decide), single_sub_map (y := main_v47) (by decide), single_sub_map (y := main_v48) (by decide), single_sub_map (y := main_v49) (by decide), single_sub_map (y := main_v50) (by decide)⟩
/-- A reference the row does not write keeps its contents. -/
theorem opsL2b_keep (V : Valuation τ sig (Elt F)) (r : Ref sig .tc) (hr : r ∉ wL2b) :
    after (opsL2b (F := F)) V (Proc.devRef .tc r) = V (Proc.devRef .tc r) :=
  after_of_writes_sub opsL2b V opsL2b_writes hr

def wL3 : List (Ref sig .tc) := [main_c_14, main_v51, main_v52, main_c_15, main_v53, main_v54, main_c_16, main_v55, main_v56, main_c_17, main_v57, main_v58, main_v59, main_c_18, main_v60, main_v61, main_v62, main_v63, main_v64, main_v65, main_v66]
theorem opsL3_writes : (opsL3 (F := F)).Forall fun op => op.writes ⊆ ((wL3).map (Proc.devRef (τ := τ) .tc)).toFinset :=
  ⟨single_sub_map (y := main_c_14) (by decide), single_sub_map (y := main_v51) (by decide), single_sub_map (y := main_v52) (by decide), single_sub_map (y := main_c_15) (by decide), single_sub_map (y := main_v53) (by decide), single_sub_map (y := main_v54) (by decide), single_sub_map (y := main_c_16) (by decide), single_sub_map (y := main_v55) (by decide), single_sub_map (y := main_v56) (by decide), single_sub_map (y := main_c_17) (by decide), single_sub_map (y := main_v57) (by decide), single_sub_map (y := main_v58) (by decide), single_sub_map (y := main_v59) (by decide), single_sub_map (y := main_c_18) (by decide), single_sub_map (y := main_v60) (by decide), single_sub_map (y := main_v61) (by decide), single_sub_map (y := main_v62) (by decide), single_sub_map (y := main_v63) (by decide), single_sub_map (y := main_v64) (by decide), single_sub_map (y := main_v65) (by decide), single_sub_map (y := main_v66) (by decide)⟩
/-- A reference the row does not write keeps its contents. -/
theorem opsL3_keep (V : Valuation τ sig (Elt F)) (r : Ref sig .tc) (hr : r ∉ wL3) :
    after (opsL3 (F := F)) V (Proc.devRef .tc r) = V (Proc.devRef .tc r) :=
  after_of_writes_sub opsL3 V opsL3_writes hr

def wG1 : List (Ref sig .tc) := [main_v67, main_v68, main_v69]
theorem opsG1_writes : (opsG1 (F := F)).Forall fun op => op.writes ⊆ ((wG1).map (Proc.devRef (τ := τ) .tc)).toFinset :=
  ⟨single_sub_map (y := main_v67) (by decide), single_sub_map (y := main_v68) (by decide), single_sub_map (y := main_v69) (by decide)⟩
/-- A reference the row does not write keeps its contents. -/
theorem opsG1_keep (V : Valuation τ sig (Elt F)) (r : Ref sig .tc) (hr : r ∉ wG1) :
    after (opsG1 (F := F)) V (Proc.devRef .tc r) = V (Proc.devRef .tc r) :=
  after_of_writes_sub opsG1 V opsG1_writes hr

def wB : List (Ref sig .tc) := [main_v71]
theorem opsB_writes : (opsB (F := F)).Forall fun op => op.writes ⊆ ((wB).map (Proc.devRef (τ := τ) .tc)).toFinset :=
  single_sub_map (y := main_v71) (by decide)
/-- A reference the row does not write keeps its contents. -/
theorem opsB_keep (V : Valuation τ sig (Elt F)) (r : Ref sig .tc) (hr : r ∉ wB) :
    after (opsB (F := F)) V (Proc.devRef .tc r) = V (Proc.devRef .tc r) :=
  after_of_writes_sub opsB V opsB_writes hr

def wC : List (Ref sig .tc) := [main_v73, main_c_19, main_c_20, main_v74]
theorem opsC_writes : (opsC (F := F)).Forall fun op => op.writes ⊆ ((wC).map (Proc.devRef (τ := τ) .tc)).toFinset :=
  ⟨single_sub_map (y := main_v73) (by decide), single_sub_map (y := main_c_19) (by decide), single_sub_map (y := main_c_20) (by decide), single_sub_map (y := main_v74) (by decide)⟩
/-- A reference the row does not write keeps its contents. -/
theorem opsC_keep (V : Valuation τ sig (Elt F)) (r : Ref sig .tc) (hr : r ∉ wC) :
    after (opsC (F := F)) V (Proc.devRef .tc r) = V (Proc.devRef .tc r) :=
  after_of_writes_sub opsC V opsC_writes hr

end Cert.Proof.KB

end
-- ==== Proof.Bits.HostLookups.lean ====
/-
  The four lookups that build the grouped table, one at a time.

  Each lookup is a row of host operations that computes, on words, the bit `(c >> k) & 1` of `c = 0 … 15` ("add two if
  negative" never fires), pairs it with the word `k` as a start index `(k, bit)`, gathers the reshaped table
  `[14, 4, 2, 128]` at those start indices, and adds the gather to the running sum. Read as one function of the
  table, each row's result is the running sum plus that gather.
-/
import proofs.«203024_g60129542144782_cont_9to1_m_748_22_alg».proof.Proof.Bits.HostOps
import proofs.«203024_g60129542144782_cont_9to1_m_748_22_alg».proof.Proof.Bits.HostKeep
import proofs.«203024_g60129542144782_cont_9to1_m_748_22_alg».proof.Proof.Bits.GroupedTable
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx
open Idealize.ShloMosaic.StableHlo

variable {F : FTy → Type} [FloatOps F]

set_option maxHeartbeats 4000000 in
/-- The lookup for `k = 0`, run from a valuation that holds the reshaped table and the words `0 … 15`: its result is the running sum plus the `k`-th gather — entry `(j, c, d)` the table entry of feature `4 j + 0`, row "bit 0 of `c`", column `d`. -/
theorem L0_acc (W : Valuation τ sig (Elt F)) (t : FVec F S56x2x128 .f32)
    (h0 : W (Proc.devRef .tc main_v0) = Cert.GroupedTableB.tr t)
    (h1 : W (Proc.devRef .tc main_v1) = iotaInDim S16 32 0) :
    after (opsL0 (F := F)) W (Proc.devRef .tc main_v18)
      = addf (W (Proc.devRef .tc main_v2)) (Cert.GroupedTableB.gath t 0#32) := by
  unfold opsL0
  after_results_simp
  read_results
  rw [h0, h1]
  rfl

set_option maxHeartbeats 4000000 in
/-- The lookup for `k = 1`, run from a valuation that holds the reshaped table and the words `0 … 15`: its result is the running sum plus the `k`-th gather — entry `(j, c, d)` the table entry of feature `4 j + 1`, row "bit 1 of `c`", column `d`. -/
theorem L1_acc (W : Valuation τ sig (Elt F)) (t : FVec F S56x2x128 .f32)
    (h0 : W (Proc.devRef .tc main_v0) = Cert.GroupedTableB.tr t)
    (h1 : W (Proc.devRef .tc main_v1) = iotaInDim S16 32 0) :
    after (opsL1 (F := F)) W (Proc.devRef .tc main_v34)
      = addf (W (Proc.devRef .tc main_v18)) (Cert.GroupedTableB.gath t 1#32) := by
  unfold opsL1
  after_results_simp
  read_results
  rw [h0, h1]
  rfl

set_option maxHeartbeats 4000000 in
/-- The lookup for `k = 2`, run from a valuation that holds the reshaped table and the words `0 … 15`: its result is the running sum plus the `k`-th gather — entry `(j, c, d)` the table entry of feature `4 j + 2`, row "bit 2 of `c`", column `d`. -/
theorem L2_acc (W : Valuation τ sig (Elt F)) (t : FVec F S56x2x128 .f32)
    (h0 : W (Proc.devRef .tc main_v0) = Cert.GroupedTableB.tr t)
    (h1 : W (Proc.devRef .tc main_v1) = iotaInDim S16 32 0) :
    after (opsL2b (F := F)) (after (opsL2a (F := F)) W) (Proc.devRef .tc main_v50)
      = addf (W (Proc.devRef .tc main_v34)) (Cert.GroupedTableB.gath t 2#32) := by
  rw [← StableHlo.after_append]
  unfold opsL2a opsL2b
  simp only [List.cons_append, List.nil_append]
  after_results_simp
  read_results
  rw [h0, h1]
  rfl

set_option maxHeartbeats 4000000 in
/-- The lookup for `k = 3`, run from a valuation that holds the reshaped table and the words `0 … 15`: its result is the running sum plus the `k`-th gather — entry `(j, c, d)` the table entry of feature `4 j + 3`, row "bit 3 of `c`", column `d`. -/
theorem L3_acc (W : Valuation τ sig (Elt F)) (t : FVec F S56x2x128 .f32)
    (h0 : W (Proc.devRef .tc main_v0) = Cert.GroupedTableB.tr t)
    (h1 : W (Proc.devRef .tc main_v1) = iotaInDim S16 32 0) :
    after (opsL3 (F := F)) W (Proc.devRef .tc main_v66)
      = addf (W (Proc.devRef .tc main_v50)) (Cert.GroupedTableB.gath t 3#32) := by
  unfold opsL3
  after_results_simp
  read_results
  rw [h0, h1]
  rfl

end Cert.Proof.KB

end
-- ==== Proof.Bits.HostVals.lean ====
/-
  What the host operations of the kernel program compute, as equations of buffers.

  Before the first call: the two arguments are untouched; the call's index operand is rows `96000 …` of the index
  matrix laid flat; its table operand is the grouped table laid flat — entry `(j, c, d)` is zero plus, for
  `k = 0, 1, 2, 3`, the table entry of feature `4 j + k`, row "bit `k` of `c`", column `d` (the four lookups of the
  program, each adding its gather to the running sum). Between the calls: the table with its first two axes exchanged.
  After the second call: the result is the second call's result with the first call's rows, as `[4000, 128]`, in place
  of its rows `96000 …`; read at `(n, d)` that is the second call's entry for `n < 96000` and the first call's flat
  entry `(n - 96000) * 128 + d` from there on.
-/
import proofs.«203024_g60129542144782_cont_9to1_m_748_22_alg».proof.Proof.Bits.HostOps
import proofs.«203024_g60129542144782_cont_9to1_m_748_22_alg».proof.Proof.Bits.HostKeep
import proofs.«203024_g60129542144782_cont_9to1_m_748_22_alg».proof.Proof.Bits.HostLookups
import Idealize.ShloMosaic.Lib.Pipeline.Frame
import proofs.«203024_g60129542144782_cont_9to1_m_748_22_alg».proof.Proof.Bits.GroupedTable
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx
open Idealize.ShloMosaic.StableHlo

variable {F : FTy → Type} [FloatOps F]

/-! ## Before the first call -/

/-- The opening operations: the table reshaped to `[14, 4, 2, 128]` … -/
theorem G0_v0 (V : Valuation τ sig (Elt F)) :
    after (opsG0 (F := F)) V (Proc.devRef .tc main_v0) = Cert.GroupedTableB.tr (V (Proc.devRef .tc main_arg1)) := by
  unfold opsG0
  after_results
  rfl
/-- … the words `0 … 15` … -/
theorem G0_v1 (V : Valuation τ sig (Elt F)) :
    after (opsG0 (F := F)) V (Proc.devRef .tc main_v1) = iotaInDim S16 32 0 := by
  unfold opsG0
  after_results
/-- … and the zero array the sum starts from. -/
theorem G0_v2 (V : Valuation τ sig (Elt F)) :
    after (opsG0 (F := F)) V (Proc.devRef .tc main_v2)
      = broadcastInDim S14x16x128 ![] bcast_S_S14x16x128 (constant (F := F) S_ .f32 0x00000000#32) := by
  unfold opsG0
  after_results

/-- The closing operations: the last 4000 rows of the index matrix, flattened … -/
theorem G1_v68 (W : Valuation τ sig (Elt F)) :
    after (opsG1 (F := F)) W (Proc.devRef .tc main_v68) = Cert.GroupedTableB.xsTerm (W (Proc.devRef .tc main_arg0)) := by
  unfold opsG1
  after_results
  rfl
/-- … and the running sum, flattened. -/
theorem G1_v69 (W : Valuation τ sig (Elt F)) :
    after (opsG1 (F := F)) W (Proc.devRef .tc main_v69)
      = shapeCast S28672 (W (Proc.devRef .tc main_v66)) shapeCasts_S14x16x128_S28672 := by
  unfold opsG1
  after_results
  rfl

/-- The ninety-one operations, row by row. -/
theorem afterA_eq (V : Valuation τ sig (Elt F)) :
    after (opsA (F := F)) V = after (opsG1 (F := F)) (after (opsL3 (F := F)) (after (opsL2b (F := F)) (after (opsL2a (F := F)) (after (opsL1 (F := F)) (after (opsL0 (F := F)) (after (opsG0 (F := F)) V)))))) := by
  unfold opsA opsW0 opsW1
  simp only [StableHlo.after_append]

/-- The references the ninety-one operations write. -/
def wA : List (Ref sig .tc) := wG0 ++ wL0 ++ wL1 ++ wL2a ++ wL2b ++ wL3 ++ wG1

/-- Whatever the ninety-one operations do not write is, after them, what it was: in particular the two arguments and
    the buffers of the two calls' results. -/
theorem afterA_keep (V : Valuation τ sig (Elt F)) (r : Ref sig .tc) (hr : r ∉ wA) :
    after (opsA (F := F)) V (Proc.devRef .tc r) = V (Proc.devRef .tc r) := by
  unfold wA at hr
  simp only [List.mem_append, not_or] at hr
  obtain ⟨⟨⟨⟨⟨⟨h0, h1⟩, h2⟩, h3⟩, h4⟩, h5⟩, h6⟩ := hr
  rw [afterA_eq, opsG1_keep _ r h6, opsL3_keep _ r h5, opsL2b_keep _ r h4, opsL2a_keep _ r h3, opsL1_keep _ r h2,
    opsL0_keep _ r h1, opsG0_keep _ r h0]

theorem afterA_arg0 (V : Valuation τ sig (Elt F)) :
    after (opsA (F := F)) V (Proc.devRef .tc main_arg0) = V (Proc.devRef .tc main_arg0) := afterA_keep V main_arg0 (by decide)
theorem afterA_arg1 (V : Valuation τ sig (Elt F)) :
    after (opsA (F := F)) V (Proc.devRef .tc main_arg1) = V (Proc.devRef .tc main_arg1) := afterA_keep V main_arg1 (by decide)

/-- After the ninety-one operations the first call's index operand is rows `96000 …` of the index matrix, flattened. -/
theorem afterA_v68 (V : Valuation τ sig (Elt F)) :
    after (opsA (F := F)) V (Proc.devRef .tc main_v68) = Cert.GroupedTableB.xsTerm (V (Proc.devRef .tc main_arg0)) := by
  rw [afterA_eq, G1_v68, opsL3_keep _ main_arg0 (by decide), opsL2b_keep _ main_arg0 (by decide),
    opsL2a_keep _ main_arg0 (by decide), opsL1_keep _ main_arg0 (by decide), opsL0_keep _ main_arg0 (by decide),
    opsG0_keep _ main_arg0 (by decide)]

/-- After the ninety-one operations the first call's table operand is the grouped table, flattened: zero plus the
    four gathers in turn, each read off the reshaped table. -/
theorem afterA_v69 (V : Valuation τ sig (Elt F)) :
    after (opsA (F := F)) V (Proc.devRef .tc main_v69) = Cert.GroupedTableB.gtTerm (V (Proc.devRef .tc main_arg1)) := by
  have e0 := G0_v0 V
  have e1 := G0_v1 V
  have e2 := G0_v2 V
  -- the reshaped table and the words 0 … 15 stay put through the lookups
  have k20 : (after (opsL0 (F := F)) (after (opsG0 (F := F)) V)) (Proc.devRef .tc main_v0) = _ := (opsL0_keep _ main_v0 (by decide)).trans e0
  have k21 : (after (opsL0 (F := F)) (after (opsG0 (F := F)) V)) (Proc.devRef .tc main_v1) = _ := (opsL0_keep _ main_v1 (by decide)).trans e1
  have k30 : (after (opsL1 (F := F)) (after (opsL0 (F := F)) (after (opsG0 (F := F)) V))) (Proc.devRef .tc main_v0) = _ := (opsL1_keep _ main_v0 (by decide)).trans k20
  have k31 : (after (opsL1 (F := F)) (after (opsL0 (F := F)) (after (opsG0 (F := F)) V))) (Proc.devRef .tc main_v1) = _ := (opsL1_keep _ main_v1 (by decide)).trans k21
  have k50 : (after (opsL2b (F := F)) (after (opsL2a (F := F)) (after (opsL1 (F := F)) (after (opsL0 (F := F)) (after (opsG0 (F := F)) V))))) (Proc.devRef .tc main_v0) = _ :=
    ((opsL2b_keep _ main_v0 (by decide)).trans (opsL2a_keep _ main_v0 (by decide))).trans k30
  have k51 : (after (opsL2b (F := F)) (after (opsL2a (F := F)) (after (opsL1 (F := F)) (after (opsL0 (F := F)) (after (opsG0 (F := F)) V))))) (Proc.devRef .tc main_v1) = _ :=
    ((opsL2b_keep _ main_v1 (by decide)).trans (opsL2a_keep _ main_v1 (by decide))).trans k31
  -- the running sum, lookup by lookup
  have a1 := L0_acc (after (opsG0 (F := F)) V) (V (Proc.devRef .tc main_arg1)) e0 e1
  have a2 := L1_acc (after (opsL0 (F := F)) (after (opsG0 (F := F)) V)) (V (Proc.devRef .tc main_arg1)) k20 k21
  have a3 := L2_acc (after (opsL1 (F := F)) (after (opsL0 (F := F)) (after (opsG0 (F := F)) V))) (V (Proc.devRef .tc main_arg1)) k30 k31
  have a4 := L3_acc (after (opsL2b (F := F)) (after (opsL2a (F := F)) (after (opsL1 (F := F)) (after (opsL0 (F := F)) (after (opsG0 (F := F)) V))))) (V (Proc.devRef .tc main_arg1)) k50 k51
  rw [afterA_eq, G1_v69, a4, a3, a2, a1, e2]
  rfl

/-! ## Between the calls: the transpose -/

/-- After the transpose the new array is the table with its first two axes exchanged. -/
theorem afterB_v71 (V : Valuation τ sig (Elt F)) :
    after (opsB (F := F)) V (Proc.devRef .tc main_v71)
      = transpose S2x56x128 [1, 0, 2] (V (Proc.devRef .tc main_arg1)) transposes_S56x2x128_S2x56x128_1_0_2 := by
  unfold opsB
  after_results

/-- Read at `(r, f, d)`: the table at `(f, r, d)`. -/
theorem afterB_v71_apply (V : Valuation τ sig (Elt F)) (r : Fin 2) (f : Fin 56) (d : Fin 128) :
    after (opsB (F := F)) V (Proc.devRef .tc main_v71) (ix3 r f d) = V (Proc.devRef .tc main_arg1) (ix3 f r d) := by
  rw [afterB_v71]
  exact transpose_apply _ _ transposes_S56x2x128_S2x56x128_1_0_2 (ix3 r f d) (ix3 f r d)
    (fun b => by match b with | ⟨0, _⟩ => rfl | ⟨1, _⟩ => rfl | ⟨2, _⟩ => rfl)

/-! ## After the second call: the rows put in place -/

/-- The update's window at rows `96000 …`, all columns, lies inside the result. -/
theorem slices_upd : S100000x128.Slices (![96000, 0] : Fin 2 → Nat) S4000x128 := by decide

/-- The update operation from a valuation whose two start words are `96000` and `0`: the clamp of the start leaves
    `(96000, 0)` alone (`96000 ≤ 100000 - 4000`, `0 ≤ 128 - 128`), so the result is the first array with the second in
    place of its rows `96000 …`. -/
theorem dus_result (W : Valuation τ sig (Elt F))
    (h19 : W (Proc.devRef .tc main_c_19) = constantI S_ 32 96000#32)
    (h20 : W (Proc.devRef .tc main_c_20) = constantI S_ 32 0#32) :
    (StableHlo.binaryIndexed main_v72 main_v73 ![main_c_19, main_c_20] ⟨S_, .i32⟩ main_v74 ((fun x u i => Host.dynamicUpdateSlice x u (fun k => (i k (Shape.Idx.first h_S_)).toInt) updateFits_S100000x128_S4000x128) : (⟨S100000x128, .f32⟩ : BufTy).Contents (Elt F) → (⟨S4000x128, .f32⟩ : BufTy).Contents (Elt F) → (Fin 2 → (⟨S_, .i32⟩ : BufTy).Contents (Elt F)) → (⟨S100000x128, .f32⟩ : BufTy).Contents (Elt F))).result W
        (Proc.devRef .tc main_v74)
      = updateSlice (W (Proc.devRef .tc main_v72)) (W (Proc.devRef .tc main_v73)) ![96000, 0] slices_upd := by
  rw [binaryIndexed_result]
  refine Host.dynamicUpdateSlice_eq_updateSlice (s := S100000x128) (u := S4000x128) _ _ _ _ (![96000, 0] : Fin 2 → Nat)
    (fun a => ?_) slices_upd
  match a with
  | ⟨0, _⟩ =>
    show (min (max (BitVec.toInt ((W (Proc.devRef .tc main_c_19) : IVec S_ 32) (Shape.Idx.first h_S_))) 0)
      ((100000 - 4000 : Nat) : Int)).toNat = 96000
    rw [h19]; decide
  | ⟨1, _⟩ =>
    show (min (max (BitVec.toInt ((W (Proc.devRef .tc main_c_20) : IVec S_ 32) (Shape.Idx.first h_S_))) 0)
      ((128 - 128 : Nat) : Int)).toNat = 0
    rw [h20]; decide

/-- After the last four operations the result array is the second call's result with the first call's result, as
    `[4000, 128]`, in place of its rows `96000 …`. -/
theorem afterC_v74 (V : Valuation τ sig (Elt F)) :
    after (opsC (F := F)) V (Proc.devRef .tc main_v74)
      = updateSlice (V (Proc.devRef .tc main_v72))
          (shapeCast S4000x128 (V (Proc.devRef .tc main_v70)) shapeCasts_S512000_S4000x128) ![96000, 0] slices_upd := by
  unfold opsC
  simp only [after_cons, after_nil]
  rw [dus_result _ (by read_results) (by read_results)]
  read_results
  rfl

/-- Read at `(n, d)` below row 96000: the second call's result there. -/
theorem afterC_v74_lo (V : Valuation τ sig (Elt F)) (n : Fin 100000) (d : Fin 128) (hn : n.val < 96000) :
    after (opsC (F := F)) V (Proc.devRef .tc main_v74) (ix2 n d) = V (Proc.devRef .tc main_v72) (ix2 n d) := by
  rw [afterC_v74]
  unfold updateSlice
  rw [dif_neg (fun h => by have := (h (0 : Fin 2)).1; revert this; show ¬ (96000 ≤ n.val); omega)]

/-- Read at `(n, d)` from row 96000 on: the first call's flat result at `(n - 96000) * 128 + d`. -/
theorem afterC_v74_hi (V : Valuation τ sig (Elt F)) (n : Fin 100000) (d : Fin 128) (hn : 96000 ≤ n.val) :
    after (opsC (F := F)) V (Proc.devRef .tc main_v74) (ix2 n d)
      = V (Proc.devRef .tc main_v70) (ix1 ⟨(n.val - 96000) * 128 + d.val, by omega⟩) := by
  rw [afterC_v74]
  unfold updateSlice
  rw [dif_pos (fun a => by
    match a with
    | ⟨0, _⟩ => exact ⟨hn, show n.val < 96000 + 4000 by omega⟩
    | ⟨1, _⟩ => exact ⟨Nat.zero_le _, show d.val < 0 + 128 by omega⟩)]
  refine shapeCast_apply _ shapeCasts_S512000_S4000x128 _ _ ?_
  rw [Shape.rowMajor_val_one, Shape.rowMajor_val_two]
  show (n.val - 96000) * 128 + d.val = (n.val - 96000) * 128 + (d.val - 0)
  omega

/-- The last four operations leave every buffer but the four they write as it was. -/
theorem afterC_keep (V : Valuation τ sig (Elt F)) (r : Ref sig .tc)
    (h73 : r ≠ main_v73) (h19 : r ≠ main_c_19) (h20 : r ≠ main_c_20) (h74 : r ≠ main_v74) :
    after (opsC (F := F)) V (Proc.devRef .tc r) = V (Proc.devRef .tc r) := by
  unfold opsC
  simp only [after_cons, after_nil]
  rw [binaryIndexed_result_ne _ _ _ _ _ _ _ _ _ _ _ _ h74, nullary_result_ne _ _ _ _ h20, nullary_result_ne _ _ _ _ h19,
    reshape_result_ne _ _ _ _ _ _ _ h73]

end Cert.Proof.KB

end
-- ==== Proof.Bits.LaunchMain.lean ====
/-
  The program's entry function on a device's TensorCore, from the launch to its end.

  The TensorCore holds all its unscoped buffers at one valuation at a time. It runs the ninety-one host operations;
  takes the call's two inputs and result buffer out of the set, deals the two cores their parts (a share of each
  input, the result's micro-batches of the core's parity), runs the call and gathers the parts back — the result at
  one array `g`, each of its entries with the call's per-entry fact —; runs the transpose; takes the region's three
  arrays out, runs the region (which owes nothing: the one call is over) and puts them back, the region's result in
  its buffer; runs the last four operations. What is left for the claim: the two arguments as launched, and the result
  array, which is the region's result with `g`, as `[4000, 128]`, in place of its rows `96000 …`.
-/
import proofs.«203024_g60129542144782_cont_9to1_m_748_22_alg».proof.Proof.Bits.LaunchDefs
import proofs.«203024_g60129542144782_cont_9to1_m_748_22_alg».proof.Proof.Bits.LaunchSplit
import proofs.«203024_g60129542144782_cont_9to1_m_748_22_alg».proof.Proof.Bits.TcFund
import proofs.«203024_g60129542144782_cont_9to1_m_748_22_alg».proof.Proof.Bits.HostRun
import proofs.«203024_g60129542144782_cont_9to1_m_748_22_alg».proof.Proof.Bits.HostVals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

open Cert.Kernel.Tc (EP uP Gtc0 hfund)
open Idealize.ShloMosaic.StableHlo (held_sub_split held_congr after)

/-! ## Taking named buffers out of the held set and putting them back -/

omit m ρ in
/-- An unscoped reference of the TensorCore is one of the held set. -/
theorem mem_uc (b : Ref sig .tc) (h : (Proc.devRef (τ := τ) .tc b).isScoped = false) :
    Proc.devRef .tc b ∈ Pipeline.ucRefs τ sig :=
  Finset.mem_filter.mpr ⟨StableHlo.devRef_mem_tcRefs b, by simp [h]⟩

omit m ρ in
/-- Three distinct buffers held at a valuation, one by one. -/
theorem held_three (d : Dev nD) {a b c : DevRef τ sig} (hab : a ≠ b) (hac : a ≠ c) (hbc : b ≠ c)
    (W : Valuation τ sig (Elt F)) :
    (held (SparseCore.T d) {a, b, c} W : sProp 𝕄)
      = iprop(((d, a) ↦{fullShare} W a) ∗ ((d, b) ↦{fullShare} W b) ∗ ((d, c) ↦{fullShare} W c)) := by
  unfold held
  rw [SparseCore.bigSep_insert' (by simp [hab, hac]), SparseCore.bigSep_insert' (by simp [hbc]), bigSep_singleton]

omit m ρ in
/-- The held set is three of its buffers and the rest. -/
theorem held_take (d : Dev nD) {a b c : DevRef τ sig} (hab : a ≠ b) (hac : a ≠ c) (hbc : b ≠ c)
    (hs : ({a, b, c} : Finset (DevRef τ sig)) ⊆ Pipeline.ucRefs τ sig) (W : Valuation τ sig (Elt F)) :
    (held (SparseCore.T d) (Pipeline.ucRefs τ sig) W : sProp 𝕄)
      = iprop((((d, a) ↦{fullShare} W a) ∗ ((d, b) ↦{fullShare} W b) ∗ ((d, c) ↦{fullShare} W c))
          ∗ held (SparseCore.T d) (Pipeline.ucRefs τ sig \ {a, b, c}) W) := by
  rw [held_sub_split (SparseCore.T d) hs W, held_three d hab hac hbc W]

omit m ρ in
/-- The rest does not see a change of the valuation at the three. -/
theorem held_rest_congr (d : Dev nD) {a b c : DevRef τ sig} {W W' : Valuation τ sig (Elt F)}
    (h : ∀ r, r ≠ a → r ≠ b → r ≠ c → W r = W' r) :
    (held (SparseCore.T d) (Pipeline.ucRefs τ sig \ {a, b, c}) W : sProp 𝕄)
      = held (SparseCore.T d) (Pipeline.ucRefs τ sig \ {a, b, c}) W' :=
  held_congr (SparseCore.T d) fun r hr => by
    have hn := (Finset.mem_sdiff.mp hr).2
    simp only [Finset.mem_insert, Finset.mem_singleton, not_or] at hn
    exact h r hn.1 hn.2.1 hn.2.2

variable [FloatOps F]

/-! ## The call's operands dealt to the two cores and gathered back -/

omit m ρ in
/-- A family over the call's two cores is its two members. -/
theorem bigSep_cores (Ψ : Fin 2 → sProp 𝕄) :
    (bigSep Finset.univ fun c : Fin ((K (F := F)).nCore 0) => Ψ (Fin.cast nCore_zero c)) = iprop(Ψ 0 ∗ Ψ 1) := by
  rw [show (bigSep Finset.univ fun c : Fin ((K (F := F)).nCore 0) => Ψ (Fin.cast nCore_zero c)) = bigSep Finset.univ Ψ from
    bigSep_congr fun _ _ => congrArg Ψ (Fin.ext rfl), bigSep_univ_two]

omit m ρ in
/-- The whole result array is the two cores' entries. -/
theorem out_cores (d : Dev nD) (f : Buf (Elt F) (outLoc d)) :
    (outLoc d ↦{fullShare} f : sProp 𝕄)
      = iprop((outLoc d ↦[coreSet 0]{fullShare} f) ∗ (outLoc d ↦[coreSet 1]{fullShare} f)) := by
  rw [← bigSep_univ_two (fun c => (outLoc d ↦[coreSet c]{fullShare} f : sProp 𝕄)),
    ← pointsTo_biUnion Finset.univ (ℓ := outLoc d) coreSet cores_disjoint, cores_cover]; try rfl

/-- The two inputs and the result, whole, deal the two cores their parts; each input's remainder stays behind. -/
theorem call_in (d : Dev nD) (f : Buf (Elt F) (outLoc d)) :
    iprop((xsLoc d ↦{fullShare} Xv m d) ∗ (gtLoc d ↦{fullShare} Gv m d) ∗ (outLoc d ↦{fullShare} f))
      ⊢ (iprop((forCore m d 0 ∗ forCore m d 1) ∗ (xsLoc d ↦{Transfers.shareDrop fullShare 2} Xv m d)
          ∗ (gtLoc d ↦{Transfers.shareDrop fullShare 2} Gv m d)) : sProp 𝕄) := by
  unfold forCore
  rw [out_cores]
  iintro ⟨Hx, Hg, Ho0, Ho1⟩
  ihave Hx' := (Transfers.pointsTo_toks_split (ℓ := xsLoc d) (S := Finset.univ) (f := Xv m d) fullShare 2) $$ Hx
  icases Hx' with ⟨Hxd, Hxs⟩
  ihave Hxs' := (Entails.of_eq (bigSep_univ_two (fun c : Fin 2 => (xsLoc d ↦{Transfers.shareTok fullShare 2 c} Xv m d : sProp 𝕄)))) $$ Hxs
  icases Hxs' with ⟨Hx0, Hx1⟩
  ihave Hg' := (Transfers.pointsTo_toks_split (ℓ := gtLoc d) (S := Finset.univ) (f := Gv m d) fullShare 2) $$ Hg
  icases Hg' with ⟨Hgd, Hgs⟩
  ihave Hgs' := (Entails.of_eq (bigSep_univ_two (fun c : Fin 2 => (gtLoc d ↦{Transfers.shareTok fullShare 2 c} Gv m d : sProp 𝕄)))) $$ Hgs
  icases Hgs' with ⟨Hg0, Hg1⟩
  isplitl [Hx0 Hx1 Hg0 Hg1 Ho0 Ho1]
  · isplitl [Hx0 Hg0 Ho0]
    · isplitl [Hx0]; · iexact Hx0
      isplitl [Hg0]; · iexact Hg0
      iexists f; iexact Ho0
    · isplitl [Hx1]; · iexact Hx1
      isplitl [Hg1]; · iexact Hg1
      iexists f; iexact Ho1
  isplitl [Hxd]; · iexact Hxd
  iexact Hgd

/-- The two cores' parts coming back and the remainders are the two inputs whole again and the result whole at one
    array, the per-entry fact holding of every entry. -/
theorem call_out [∀ e, Nonempty (Elt F e)] (Φ : Dev nD → S512000.Idx → Elt F .f32 → Prop) (d : Dev nD) :
    iprop((backCore m Φ d 0 ∗ backCore m Φ d 1) ∗ (xsLoc d ↦{Transfers.shareDrop fullShare 2} Xv m d)
        ∗ (gtLoc d ↦{Transfers.shareDrop fullShare 2} Gv m d))
      ⊢ (iprop((xsLoc d ↦{fullShare} Xv m d) ∗ (gtLoc d ↦{fullShare} Gv m d)
          ∗ ∃ g, (outLoc d ↦{fullShare} g) ∗ ⌜∀ j, Φ d j (g j)⌝) : sProp 𝕄) := by
  unfold backCore
  iintro ⟨⟨⟨Hx0, Hg0, Ho0⟩, ⟨Hx1, Hg1, Ho1⟩⟩, Hxd, Hgd⟩
  isplitl [Hx0 Hx1 Hxd]
  · iapply (Transfers.pointsTo_toks_join (ℓ := xsLoc d) (S := Finset.univ) (f := Xv m d) fullShare 2)
    isplitl [Hxd]; · iexact Hxd
    iapply (Entails.of_eq (bigSep_univ_two (fun c : Fin 2 => (xsLoc d ↦{Transfers.shareTok fullShare 2 c} Xv m d : sProp 𝕄))).symm)
    isplitl [Hx0]; · iexact Hx0
    iexact Hx1
  isplitl [Hg0 Hg1 Hgd]
  · iapply (Transfers.pointsTo_toks_join (ℓ := gtLoc d) (S := Finset.univ) (f := Gv m d) fullShare 2)
    isplitl [Hgd]; · iexact Hgd
    iapply (Entails.of_eq (bigSep_univ_two (fun c : Fin 2 => (gtLoc d ↦{Transfers.shareTok fullShare 2 c} Gv m d : sProp 𝕄))).symm)
    isplitl [Hg0]; · iexact Hg0
    iexact Hg1
  ihave Hb := (Entails.of_eq (bigSep_univ_two (fun c : Fin 2 =>
    (iprop(∃ f, (outLoc d ↦[coreSet c]{fullShare} f) ∗ ⌜OutOK Φ d (coreSet c) f⌝) : sProp 𝕄))).symm) $$ [Ho0 Ho1]
  · isplitl [Ho0]; · iexact Ho0
    iexact Ho1
  ihave Hj := (outPieces_join (F := F) Φ d Finset.univ coreSet cores_disjoint) $$ Hb
  rw [cores_cover]
  icases Hj with ⟨%g, Hg, %hg⟩
  iexists g
  isplitl [Hg]; · iexact Hg
  ipureintro
  exact fun j => hg j (Finset.mem_univ j)

/-- The launch element: the handshakes' rounds, the rounds of the TensorCore region's staging cells, no transfer
    counted yet. -/
def u₀ : UU := (initOf (K (F := F)).hsCells (K (F := F)).hsToks, (uP, 1))

omit m ρ in
theorem bigSep_emp' {I : Type} (s : Finset I) : (bigSep s fun _ => iprop(emp)) = (iprop(emp) : sProp 𝕄) := bigSep_emp_const s

/-- The launch element pays for the handshakes' rounds and, per device, for the region's staging cells; the call's
    proofs are dealt nothing of their own. -/
theorem hu₀ (Φ : Dev nD → S512000.Idx → Elt F .f32 → Prop) : (ownU (u₀ (F := F)) : sProp 𝕄)
    ⊢ |={Set.univ}=> iprop(BI.own (EH (initOf (K (F := F)).hsCells (K (F := F)).hsToks))
        ∗ (bigSep Finset.univ fun d : Dev nD => Gtc0 (F := F) d)
        ∗ bigSep Finset.univ fun thr : Thread nD τ => bigSep Finset.univ fun q : Fin 1 => (P m Φ).x q thr) := by
  unfold u₀
  iintro Hu
  imod (hfund (F := F) (initOf (K (F := F)).hsCells (K (F := F)).hsToks) 1) $$ Hu with H
  icases H with ⟨HH, -, HG⟩
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The valuations along the program

The TensorCore's unscoped buffers are held at one valuation at a time: the launch memory; after the ninety-one
operations; with the first call's result `g` in its buffer; after the transpose; with the region's result in its
buffer; after the last four operations. -/

abbrev V0 (d : Dev nD) : Valuation τ sig (Elt F) := fun b => m (d, b)
def VA (d : Dev nD) : Valuation τ sig (Elt F) := after (opsA (F := F)) (V0 m d)
def V1 (d : Dev nD) (g : Buf (Elt F) (outLoc d)) : Valuation τ sig (Elt F) :=
  Function.update (VA m d) (Proc.devRef .tc main_v70) g
def V2 (d : Dev nD) (g : Buf (Elt F) (outLoc d)) : Valuation τ sig (Elt F) := after (opsB (F := F)) (V1 m d g)

/-- The region's three arrays as it finds them on device `c`: the index matrix, the transposed tables, and whatever the
    launch left in its result buffer; it owes nothing, and its recorded waits are all at or below the first call's band. -/
def xR (c : Dev nD) : Buf (Elt F) ((c.tc : Thread nD τ).loc main_arg0) := m (a0Loc c)
def ttR (c : Dev nD) : Buf (Elt F) ((c.tc : Thread nD τ).loc main_v71) :=
  transpose S2x56x128 [1, 0, 2] (m (a1Loc c)) transposes_S56x2x128_S2x56x128_1_0_2
def f0R (c : Dev nD) : Buf (Elt F) ((c.tc : Thread nD τ).loc main_v72) := m ((SparseCore.T c).loc main_v72)
def OR : Dev nD → CellTallies nD τ sig (HIx 1) := fun _ => 0
def BR : Dev nD → Set (SemLoc sig × HIx 1) := fun c => {p | (K (F := F)).lev (SparseCore.T c, p.1) p.2 ≤ 8}

/-- What the region leaves in its result buffer. -/
def A2 (d : Dev nD) : Buf (Elt F) ((d.tc : Thread nD τ).loc main_v72) :=
  (Cert.Kernel.Tc.pdats (xR m) (ttR m) (f0R m) OR (BR (F := F)) 0 d).arrAt 2 cfg1.N

def V3 (d : Dev nD) (g : Buf (Elt F) (outLoc d)) : Valuation τ sig (Elt F) :=
  Function.update (V2 m d g) (Proc.devRef .tc main_v72) (A2 m d)
def V4 (d : Dev nD) (g : Buf (Elt F) (outLoc d)) : Valuation τ sig (Elt F) := after (opsC (F := F)) (V3 m d g)

omit m ρ in
/-- The region only reads its first two arrays: it leaves the index matrix as it found it … -/
theorem arrAt_in0 (c : Dev nD) (x : Buf (Elt F) ((c.tc : Thread nD τ).loc main_arg0))
    (tt : Buf (Elt F) ((c.tc : Thread nD τ).loc main_v71)) (f0 : Buf (Elt F) ((c.tc : Thread nD τ).loc main_v72))
    (O : CellTallies nD τ sig (HIx 1)) (B : Set (SemLoc sig × HIx 1)) (n : Nat) :
    (Cert.Kernel.Tc.dats (Name := ℕ) (U := UU) c x tt f0 O B).arrAt 0 n = x :=
  ((Cert.Kernel.Tc.dats (Name := ℕ) (U := UU) c x tt f0 O B).arrAt_in 0 rfl n).trans
    (Cert.Kernel.Tc.A_0 c x tt f0 O B)
omit m ρ in
/-- … and the transposed tables likewise. -/
theorem arrAt_in1 (c : Dev nD) (x : Buf (Elt F) ((c.tc : Thread nD τ).loc main_arg0))
    (tt : Buf (Elt F) ((c.tc : Thread nD τ).loc main_v71)) (f0 : Buf (Elt F) ((c.tc : Thread nD τ).loc main_v72))
    (O : CellTallies nD τ sig (HIx 1)) (B : Set (SemLoc sig × HIx 1)) (n : Nat) :
    (Cert.Kernel.Tc.dats (Name := ℕ) (U := UU) c x tt f0 O B).arrAt 1 n = tt :=
  ((Cert.Kernel.Tc.dats (Name := ℕ) (U := UU) c x tt f0 O B).arrAt_in 1 rfl n).trans
    (Cert.Kernel.Tc.A_1 c x tt f0 O B)

omit ρ in
theorem VA_v68 (d : Dev nD) : VA m d (Proc.devRef .tc main_v68) = Xv m d := afterA_v68 (V0 m d)
omit ρ in
theorem VA_v69 (d : Dev nD) : VA m d (Proc.devRef .tc main_v69) = Gv m d := afterA_v69 (V0 m d)

omit ρ in
theorem V2_arg0 (d : Dev nD) (g : Buf (Elt F) (outLoc d)) : V2 m d g (Proc.devRef .tc main_arg0) = xR m d := by
  unfold V2 V1
  rw [opsB_keep _ main_arg0 (by decide), Function.update_of_ne (by decide)]
  exact afterA_arg0 (V0 m d)
omit ρ in
theorem V2_v71 (d : Dev nD) (g : Buf (Elt F) (outLoc d)) : V2 m d g (Proc.devRef .tc main_v71) = ttR m d := by
  unfold V2 V1
  rw [afterB_v71, Function.update_of_ne (by decide)]
  exact congrArg (fun t => transpose S2x56x128 [1, 0, 2] t transposes_S56x2x128_S2x56x128_1_0_2) (afterA_arg1 (V0 m d))
omit ρ in
theorem V2_v72 (d : Dev nD) (g : Buf (Elt F) (outLoc d)) : V2 m d g (Proc.devRef .tc main_v72) = f0R m d := by
  unfold V2 V1
  rw [opsB_keep _ main_v72 (by decide), Function.update_of_ne (by decide)]
  exact afterA_keep (V0 m d) main_v72 (by decide)
omit ρ in
theorem V4_arg0 (d : Dev nD) (g : Buf (Elt F) (outLoc d)) : V4 m d g (Proc.devRef .tc main_arg0) = m (a0Loc d) := by
  unfold V4 V3
  rw [afterC_keep _ main_arg0 (by decide) (by decide) (by decide) (by decide), Function.update_of_ne (by decide)]
  exact V2_arg0 m d g
omit ρ in
theorem V4_arg1 (d : Dev nD) (g : Buf (Elt F) (outLoc d)) : V4 m d g (Proc.devRef .tc main_arg1) = m (a1Loc d) := by
  unfold V4 V3 V2 V1
  rw [afterC_keep _ main_arg1 (by decide) (by decide) (by decide) (by decide), Function.update_of_ne (by decide),
    opsB_keep _ main_arg1 (by decide), Function.update_of_ne (by decide)]
  exact afterA_arg1 (V0 m d)
omit ρ in
/-- The program's result: the region's result with the first call's result, as `[4000, 128]`, in place of its rows
    `96000 …`. -/
theorem V4_v74 (d : Dev nD) (g : Buf (Elt F) (outLoc d)) :
    V4 m d g (Proc.devRef .tc main_v74)
      = updateSlice (A2 m d) (shapeCast S4000x128 g shapeCasts_S512000_S4000x128) ![96000, 0] slices_upd := by
  unfold V4
  rw [afterC_v74]
  unfold V3
  rw [Function.update_self, Function.update_of_ne (by decide)]
  unfold V2
  rw [opsB_keep _ main_v70 (by decide)]
  unfold V1
  rw [Function.update_self]

/-! ## @main on the TensorCore -/

omit m ρ in
/-- A row of operations is itself followed by nothing. -/
theorem seq_bind_pure (ops : List (HloOp τ sig (Elt F))) :
    (StableHlo.seq ops : Prog (TpuEff nD τ sig (Elt F) (SparseCore.Sig (ΛP (F := F)) 1) .tc) PUnit)
      = (StableHlo.seq ops >>= fun u => pure u) := by
  induction ops with
  | nil => simp only [StableHlo.seq, pure_bind]
  | cons op ops ih => simp only [StableHlo.seq, bind_assoc]; rw [← ih]

omit m ρ in
/-- Nothing is owed once the one call is over, so any wait is allowed. -/
theorem hwaitR (c : Dev nD) (sm : SemLoc sig) :
    (levAts (K (F := F)).L (K (F := F)).lev : sProp 𝕄) ⊢ MayWait (c.tc : Thread nD τ) sm none (OR c) := by
  show _ ⊢ MayWait (c.tc : Thread nD τ) sm none 0
  rw [MayWait_zero]
  iintro -
  iempintro

omit ρ in
theorem V1_v68 (d : Dev nD) (g : Buf (Elt F) (outLoc d)) : V1 m d g (Proc.devRef .tc main_v68) = Xv m d := by
  unfold V1; rw [Function.update_of_ne (by decide)]; exact VA_v68 m d
omit ρ in
theorem V1_v69 (d : Dev nD) (g : Buf (Elt F) (outLoc d)) : V1 m d g (Proc.devRef .tc main_v69) = Gv m d := by
  unfold V1; rw [Function.update_of_ne (by decide)]; exact VA_v69 m d
omit ρ in
theorem V1_v70 (d : Dev nD) (g : Buf (Elt F) (outLoc d)) : V1 m d g (Proc.devRef .tc main_v70) = g := by
  unfold V1; rw [Function.update_self]

omit m ρ in
theorem sub_call : ({Proc.devRef .tc main_v68, Proc.devRef .tc main_v69, Proc.devRef .tc main_v70} : Finset (DevRef τ sig))
    ⊆ Pipeline.ucRefs τ sig := by
  intro r hr
  simp only [Finset.mem_insert, Finset.mem_singleton] at hr
  rcases hr with rfl | rfl | rfl
  · exact mem_uc main_v68 (by decide)
  · exact mem_uc main_v69 (by decide)
  · exact mem_uc main_v70 (by decide)
omit m ρ in
theorem sub_region : ({Proc.devRef .tc main_arg0, Proc.devRef .tc main_v71, Proc.devRef .tc main_v72} : Finset (DevRef τ sig))
    ⊆ Pipeline.ucRefs τ sig := by
  intro r hr
  simp only [Finset.mem_insert, Finset.mem_singleton] at hr
  rcases hr with rfl | rfl | rfl
  · exact mem_uc main_arg0 (by decide)
  · exact mem_uc main_v71 (by decide)
  · exact mem_uc main_v72 (by decide)
omit m ρ in
theorem sub_fin : ({Proc.devRef .tc main_arg0, Proc.devRef .tc main_arg1, Proc.devRef .tc main_v74} : Finset (DevRef τ sig))
    ⊆ Pipeline.ucRefs τ sig := by
  intro r hr
  simp only [Finset.mem_insert, Finset.mem_singleton] at hr
  rcases hr with rfl | rfl | rfl
  · exact mem_uc main_arg0 (by decide)
  · exact mem_uc main_arg1 (by decide)
  · exact mem_uc main_v74 (by decide)

omit ρ in
theorem st0_eq (Φ : Dev nD → S512000.Idx → Elt F .f32 → Prop) (d : Dev nD) :
    (bigSep Finset.univ fun c : Fin ((K (F := F)).nCore 0) => (P m Φ).st 0 d c) = iprop(forCore m d 0 ∗ forCore m d 1) :=
  bigSep_cores (F := F) (fun c => forCore m d c)
omit ρ in
theorem dn0_eq (Φ : Dev nD → S512000.Idx → Elt F .f32 → Prop) (d : Dev nD) :
    (bigSep Finset.univ fun c : Fin ((K (F := F)).nCore 0) => (P m Φ).dn 0 d c) = iprop(backCore m Φ d 0 ∗ backCore m Φ d 1) :=
  bigSep_cores (F := F) (fun c => backCore m Φ d c)

omit ρ in
theorem V3_arg0 (d : Dev nD) (g : Buf (Elt F) (outLoc d)) : V3 m d g (Proc.devRef .tc main_arg0) = xR m d := by
  unfold V3; rw [Function.update_of_ne (by decide)]; exact V2_arg0 m d g
omit ρ in
theorem V3_v71 (d : Dev nD) (g : Buf (Elt F) (outLoc d)) : V3 m d g (Proc.devRef .tc main_v71) = ttR m d := by
  unfold V3; rw [Function.update_of_ne (by decide)]; exact V2_v71 m d g
omit ρ in
theorem V3_v72 (d : Dev nD) (g : Buf (Elt F) (outLoc d)) : V3 m d g (Proc.devRef .tc main_v72) = A2 m d := by
  unfold V3; rw [Function.update_self]

omit m ρ in
/-- Recorded waits within the call's band or at the region's own cells (whose index is no call's) are within the
    call's band. -/
theorem wbelow_of_sub (d : Dev nD) (W' : Waits sig (HIx 1))
    (h : (↑W' : Set (SemLoc sig × HIx 1)) ⊆ BR (F := F) d ∪ cfg1.waitPairs none) :
    (K (F := F)).WBelow (SparseCore.T d) W' (8 * 1) := by
  intro p hp
  rcases h (Finset.mem_coe.mpr hp) with h1 | h2
  · exact h1
  · obtain ⟨w, s, rfl⟩ := h2
    exact Nat.zero_le _

/-- What @main leaves the claim: the two arguments as launched, and the result — the region's result with the first
    call's result `g` in place of its rows `96000 …`, every entry of `g` with the call's per-entry fact. -/
def FIN (Φ : Dev nD → S512000.Idx → Elt F .f32 → Prop) (d : Dev nD) : sProp 𝕄 :=
  iprop((a0Loc d ↦{fullShare} m (a0Loc d)) ∗ (a1Loc d ↦{fullShare} m (a1Loc d))
    ∗ ∃ g : Buf (Elt F) (outLoc d), ⌜∀ j, Φ d j (g j)⌝
        ∗ ((SparseCore.T d).loc main_v74 ↦{fullShare}
            updateSlice (A2 m d) (shapeCast S4000x128 g shapeCasts_S512000_S4000x128) ![96000, 0] slices_upd))

set_option maxHeartbeats 1000000 in
/-- @main on device `d`'s TensorCore: the ninety-one operations; the call, its operands dealt to the two cores and
    gathered back; the transpose; the region; the last four operations. -/
theorem hmain [∀ e, Nonempty (Elt F e)] (Φ : Dev nD → S512000.Idx → Elt F .f32 → Prop)
    (κ : GSem nD τ sig → ℕ) (d : Dev nD) :
    iprop((K (F := F)).ctx EH (P m Φ) κ ∗ (K (F := F)).tcSt EH d 0 ∗ (K (F := F)).tcRes m ρ d ∗ Gtc0 (F := F) d)
      ⊢ wp frame (wpE ((K (F := F)).defs (D (F := F))) 𝒱 (SparseCore.T d) none) Set.univ (main d)
          fun _ => iprop((K (F := F)).tcSt EH d 1 ∗ FIN m Φ d) := by
  unfold SparseCore.Cfg.tcRes
  rw [unscoped_held, main_eq]
  iintro ⟨#Hctx, Hst, ⟨Hb, Hheld, -, -⟩, HG⟩
  -- the ninety-one operations
  iapply (wp_A d _ (V0 m d)) $$ [Hb Hheld]
  · isplitl [Hb]; · iexact Hb
    iexact Hheld
  iintro ⟨Hb, Hheld⟩
  rw [show after (opsA (F := F)) (V0 m d) = VA m d from rfl]
  -- the call's three buffers out of the set
  ihave Hh := (Entails.of_eq (held_take (F := F) d (by decide) (by decide) (by decide) sub_call (VA m d))) $$ Hheld
  icases Hh with ⟨⟨Hx, Hg, Ho⟩, Hrest⟩
  rw [VA_v68, VA_v69]
  ihave Hin := (call_in m d (VA m d (Proc.devRef .tc main_v70))) $$ [Hx Hg Ho]
  · isplitl [Hx]; · iexact Hx
    isplitl [Hg]; · iexact Hg
    iexact Ho
  icases Hin with ⟨Hcores, Hxd, Hgd⟩
  -- the call
  rw [wp_bind]
  iapply ((K (F := F)).wp_run (D (F := F)) 𝒱 (EH := EH) (P := P m Φ) κ d 0) $$ [Hst Hcores Hb Hxd Hgd Hrest HG]
  isplitr; · iexact Hctx
  isplitl [Hst]; · iexact Hst
  isplitl [Hcores]
  · rw [st0_eq]; iexact Hcores
  iintro ⟨Hst, Hdn⟩
  ihave Hdn' := (Entails.of_eq (dn0_eq m Φ d)) $$ Hdn
  ihave Hout := (call_out m Φ d) $$ [Hdn' Hxd Hgd]
  · isplitl [Hdn']; · iexact Hdn'
    isplitl [Hxd]; · iexact Hxd
    iexact Hgd
  icases Hout with ⟨Hx, Hg, %g, Ho, %hΦ⟩
  -- back into the set, the result at `g`
  ihave Hheld := (Entails.of_eq (held_take (F := F) d (by decide) (by decide) (by decide) sub_call (V1 m d g)).symm) $$ [Hx Hg Ho Hrest]
  · rw [V1_v68, V1_v69, V1_v70,
      held_rest_congr (F := F) d (W := V1 m d g) (W' := VA m d) (fun r _ _ h => Function.update_of_ne h _ _)]
    isplitl [Hx Hg Ho]
    · isplitl [Hx]; · iexact Hx
      isplitl [Hg]; · iexact Hg
      iexact Ho
    iexact Hrest
  -- the transpose
  iapply (wp_B d _ (V1 m d g)) $$ [Hb Hheld]
  · isplitl [Hb]; · iexact Hb
    iexact Hheld
  iintro ⟨Hb, Hheld⟩
  rw [show after (opsB (F := F)) (V1 m d g) = V2 m d g from rfl]
  -- the region's three arrays out of the set
  ihave Hh := (Entails.of_eq (held_take (F := F) d (by decide) (by decide) (by decide) sub_region (V2 m d g))) $$ Hheld
  icases Hh with ⟨⟨Ha, Ht, Hf⟩, Hrest⟩
  rw [V2_arg0, V2_v71, V2_v72]
  -- the region: it owes nothing (the one call is over); its recorded waits stay at or below the call's band
  unfold SparseCore.Cfg.tcSt
  icases Hst with ⟨⟨%W, %hW, HO⟩, Hst'⟩
  rw [show (K (F := F)).Otc d ((0 : Fin 1).val + 1) = 0 from (K (F := F)).Otc_end d (by decide)]
  ihave Hlev := ((K (F := F)).ctx_levAts (EH := EH) (P := P m Φ) κ) $$ Hctx
  ihave HG' := (Entails.of_eq (show Gtc0 (F := F) d = iprop(Pipeline.cellsGhost cfgs EP 0 d ∗ Pipeline.toksInit cfgs EP 0 d) from rfl)) $$ HG
  icases HG' with ⟨Hgh, Htk⟩
  iapply (Cert.Kernel.Tc.wp_region_bind (xR m) (ttR m) (f0R m) OR (BR (F := F)) (K (F := F)).L (K (F := F)).lev
    (hwaitR (F := F)) d _ _) $$ [Hb Ha Ht Hf HO Hlev Hgh Htk Hst' Hrest]
  rw [show (K (F := F)).Otc d 1 = 0 from (K (F := F)).Otc_end d (by decide)]
  isplitl [Hst' Hrest]
  · iintro ⟨Hb, Hpost⟩
    unfold Cert.Kernel.Tc.post
    icases Hpost with ⟨Ha, Ht, Hf, HOW⟩
    rw [arrAt_in0 (F := F) d (xR m d) (ttR m d) (f0R m d) (OR d) (BR (F := F) d) cfg1.N,
      arrAt_in1 (F := F) d (xR m d) (ttR m d) (f0R m d) (OR d) (BR (F := F) d) cfg1.N,
      show (Cert.Kernel.Tc.pdats (xR m) (ttR m) (f0R m) OR (BR (F := F)) 0 d).arrAt 2 cfg1.N = A2 m d from rfl]
    -- back into the set, the region's result in its buffer
    ihave Hheld := (Entails.of_eq (held_take (F := F) d (by decide) (by decide) (by decide) sub_region (V3 m d g)).symm) $$ [Ha Ht Hf Hrest]
    · rw [V3_arg0, V3_v71, V3_v72,
        held_rest_congr (F := F) d (W := V3 m d g) (W' := V2 m d g) (fun r _ _ h => Function.update_of_ne h _ _)]
      isplitl [Ha Ht Hf]
      · isplitl [Ha]; · iexact Ha
        isplitl [Ht]; · iexact Ht
        iexact Hf
      iexact Hrest
    -- the last four operations
    rw [seq_bind_pure (F := F) (opsC (F := F))]
    iapply (wp_C d _ (V3 m d g)) $$ [Hb Hheld]
    · isplitl [Hb]; · iexact Hb
      iexact Hheld
    iintro ⟨Hb, Hheld⟩
    rw [show after (opsC (F := F)) (V3 m d g) = V4 m d g from rfl, wp_pure]
    imodintro
    isplitl [HOW Hst']
    · isplitl [HOW]
      · icases HOW with ⟨%W', %hW', HO'⟩
        iexists W'
        isplitr; · ipureintro; exact wbelow_of_sub (F := F) d W' hW'
        iexact HO'
      iexact Hst'
    ihave Hh := (Entails.of_eq (held_take (F := F) d (by decide) (by decide) (by decide) sub_fin (V4 m d g))) $$ Hheld
    icases Hh with ⟨⟨Ha, Ha1, Hr⟩, -⟩
    rw [V4_arg0, V4_arg1, V4_v74]
    unfold FIN
    isplitl [Ha]; · iexact Ha
    isplitl [Ha1]; · iexact Ha1
    iexists g
    isplitr; · ipureintro; exact hΦ
    iexact Hr
  isplitl [Hb]; · iexact Hb
  isplitl [Ha Ht Hf HO]
  · unfold Cert.Kernel.Tc.pre
    isplitl [Ha]; · iexact Ha
    isplitl [Ht]; · iexact Ht
    isplitl [Hf]; · iexact Hf
    iexists W
    isplitr
    · ipureintro
      intro p hp
      exact hW p (Finset.mem_coe.mp hp)
    iexact HO
  isplitr; · iexact Hlev
  isplitl [Hgh]; · iexact Hgh
  iexact Htk

end Cert.Proof.KB

end
-- ==== Proof.Bits.LaunchRun.lean ====
/-
  The kernel program's run, assembled.

  Given what one tile task does with its part of the call (the tile's obligation), the launch theorem for programs
  with a SparseCore call puts the pieces together: the split of a core's part among its tiles, the launch element of
  the ghost state, the TensorCore's run of the entry function, and the reading of the final state. The result: every
  weakly fair execution terminates without fault, the two arguments unchanged, and the result array the TensorCore
  region's result with the call's result in place of its rows `96000 …`.
-/
import proofs.«203024_g60129542144782_cont_9to1_m_748_22_alg».proof.Proof.Bits.LaunchDefs
import proofs.«203024_g60129542144782_cont_9to1_m_748_22_alg».proof.Proof.Bits.LaunchSplit
import proofs.«203024_g60129542144782_cont_9to1_m_748_22_alg».proof.Proof.Bits.LaunchMain
import proofs.«203024_g60129542144782_cont_9to1_m_748_22_alg».proof.Proof.Gen.Pre_input_domain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

open Cert.Kernel.Tc (EP uP Gtc0 hfund)

variable [FloatOps F]

/-! ## The program's run -/

/-- What the final state says on device `d`: the two arguments as launched; the result the region's result with some
    array `g`, as `[4000, 128]`, in place of its rows `96000 …`, every entry of `g` with the per-entry fact. -/
def fq (Φ : Dev nD → S512000.Idx → Elt F .f32 → Prop) (d : Dev nD) (s' : Phys nD τ sig (Elt F)) : Prop :=
  s'.mem.mem (a0Loc d) = m (a0Loc d) ∧ s'.mem.mem (a1Loc d) = m (a1Loc d)
    ∧ ∃ g : Buf (Elt F) (outLoc d), (∀ j, Φ d j (g j))
        ∧ s'.mem.mem ((SparseCore.T d).loc main_v74)
            = updateSlice (A2 m d) (shapeCast S4000x128 g shapeCasts_S512000_S4000x128) ![96000, 0] slices_upd

omit ρ in
theorem hfin (Φ : Dev nD → S512000.Idx → Elt F .f32 → Prop) (d : Dev nD) (s' : Phys nD τ sig (Elt F)) :
    iprop(FIN m Φ d ∗ SI s') ⊢ (⌜fq m Φ d s'⌝ : sProp 𝕄) := by
  unfold FIN
  iintro ⟨⟨Ha0, Ha1, %g, %hg, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (SI_pointsTo_agree (st := s') (ℓ := (SparseCore.T d).loc main_v74) (I := Finset.univ) (q := fullShare)
    (f := updateSlice (A2 m d) (shapeCast S4000x128 g shapeCasts_S512000_S4000x128) ![96000, 0] slices_upd)) $$ [HSI Hr]
  · isplitl [HSI] <;> iassumption
  icases H with %h3
  ipureintro
  exact ⟨funext fun i => h1 i (Finset.mem_univ i), funext fun i => h2 i (Finset.mem_univ i), g, hg,
    funext fun i => h3 i (Finset.mem_univ i)⟩

/-- The claim's reading of the final memory: on every device, what `fq` says. -/
def QC (Φ : Dev nD → S512000.Idx → Elt F .f32 → Prop) : PUnit × MemSt nD τ sig (Elt F) → Prop := fun r =>
  ∀ d : Dev nD, r.2.mem (a0Loc d) = m (a0Loc d) ∧ r.2.mem (a1Loc d) = m (a1Loc d)
    ∧ ∃ g : Buf (Elt F) (outLoc d), (∀ j, Φ d j (g j))
        ∧ r.2.mem ((SparseCore.T d).loc main_v74)
            = updateSlice (A2 m d) (shapeCast S4000x128 g shapeCasts_S512000_S4000x128) ![96000, 0] slices_upd

/-- **The program's run**, given the tile's obligation: every weakly fair execution of the program from the launch
    memory `m` terminates, nothing faulting, the two arguments unchanged and the result as `QC` says. -/
theorem run_main [∀ e, Nonempty (Elt F e)] (Φ : Dev nD → S512000.Idx → Elt F .f32 → Prop)
    (hTile : (K (F := F)).TileObl (D (F := F)) 𝒱 (P m Φ) v₀ 0) :
    θ_run (Cert.Kernel.defs (F := F)) (Cert.Kernel.threads (F := F)) ⟨m, fun _ => 0, ρ⟩ (QC m Φ) :=
  SparseCore.Cfg.θ_run_sc (K := K (F := F)) (D := D (F := F)) (𝒱 := 𝒱) (EH := EH) (P := P m Φ) facts v₀
    (fun q hq => match q with | 0 => nomatch hq)
    (fun q _ => match q with | 0 => hTile)
    (fun q _ => match q with | 0 => SparseCore.Cfg.VecSplit.of_plain (vecSplit m Φ))
    m ρ main (fun d => Gtc0 (F := F) d) (FIN m Φ) (u₀ (F := F)) (sep_elim_left.trans (hu₀ m Φ)) (hmain m ρ Φ) (fq m Φ) (hfin m Φ)
    (QC m Φ) (fun _ h => h)

/-- **The frame**, given the tile's obligation at the trivial per-entry fact: the program runs (terminates, nothing
    faulting) and its two argument arrays end unchanged. -/
theorem frame_run [∀ e, Nonempty (Elt F e)]
    (hTile : (K (F := F)).TileObl (D (F := F)) 𝒱 (P m (fun _ _ _ => True)) v₀ 0) :
    θ_run (Cert.Kernel.defs (F := F)) (Cert.Kernel.threads (F := F)) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)) :=
  (θ_run (Cert.Kernel.defs (F := F)) _ _).mono (fun _ h c => ⟨(h c).1, (h c).2.1⟩)
    (run_main m ρ (fun _ _ _ => True) hTile)

end Cert.Proof.KB

end
-- ==== Proof.Bits.TileFacts.lean ====
/-
  Bounds on the index vectors of a tile task. A tile gathers sixteen lanes at a time: from its copy of
  eighty rows of the index matrix (4480 words) at lane * 56 + (a constant below 3640), from its copy of the grouped
  table (28672 words) at a base below 28672 - 127 plus a column number that was masked to seven bits, and it scatters
  into its block of results (10240 words) at lane * 128 + (a masked column) + (a multiple of 2048 up to 8192).
  Words are 32-bit; every sum here stays far below 2^32, so the word arithmetic is the natural-number arithmetic.
-/
import proofs.«203024_g60129542144782_cont_9to1_m_748_22_alg».proof.Proof.Bits.Setup

noncomputable section

namespace Cert.Proof.KB

open Cert.Kernel Cert.Kernel.Gen
open Idealize.ShloMosaic

/-- Every lane of `b` leaves room for a seven-bit offset inside a buffer of `n` words. -/
def Below (n : Nat) (b : IVec S16 32) : Prop := ∀ l, (b l).toNat + 128 ≤ n

/-- Every lane of `b` is at most `n`. -/
def AtMost (n : Nat) (b : IVec S16 32) : Prop := ∀ l, (b l).toNat ≤ n

/-- Every lane is the word zero or the word one. -/
def Bit (v : IVec S16 32) : Prop := ∀ l, v l = 0#32 ∨ v l = 1#32

/-- Every entry of an integer array is the word zero or the word one. -/
def Bin32 {s : Shape} (v : IVec s 32) : Prop := ∀ j, v j = 0#32 ∨ v j = 1#32

/-- Lanes gathered from an array of zeros and ones are zeros and ones. -/
theorem bit_loadIdx {F : FTy → Type} {s : Shape} (R : IVec s 32) (hR : Bin32 R) (idxs : Fin s.rank → IVec S16 32)
    (h : ∀ a x, (idxs a x).toNat < s.size a) : Bit (loadIdx (F := F) (e := .i32) R idxs h) := fun _ => hR _

theorem code_le : ∀ a b c e : Fin 2,
    ((((BitVec.ofNat 32 a.val + BitVec.ofNat 32 b.val * 2#32) + BitVec.ofNat 32 c.val * 4#32) + BitVec.ofNat 32 e.val * 8#32) * 128#32).toNat ≤ 1920 := by decide

theorem bit_cases (w : BitVec 32) (h : w = 0#32 ∨ w = 1#32) : ∃ a : Fin 2, w = BitVec.ofNat 32 a.val := by
  rcases h with h | h
  · exact ⟨0, h⟩
  · exact ⟨1, h⟩

/-- A group's base: its four 0/1 entries read as a four-bit number, times 128, plus the group's offset (at most 26624),
    leaves room for a column inside the grouped table's copy. -/
theorem below_base (x0 x1 x2 x3 : IVec S16 32) (h0 : Bit x0) (h1 : Bit x1) (h2 : Bit x2) (h3 : Bit x3) (c : BitVec 32) (hc : c.toNat ≤ 26624) :
    Below 28672 (addi (muli (addi (addi (addi x0 (muli x1 (broadcast S16 2#32))) (muli x2 (broadcast S16 4#32))) (muli x3 (broadcast S16 8#32))) (broadcast S16 128#32)) (broadcast S16 c)) := by
  intro l
  obtain ⟨a0, e0⟩ := bit_cases _ (h0 l)
  obtain ⟨a1, e1⟩ := bit_cases _ (h1 l)
  obtain ⟨a2, e2⟩ := bit_cases _ (h2 l)
  obtain ⟨a3, e3⟩ := bit_cases _ (h3 l)
  show ((((x0 l + x1 l * 2#32) + x2 l * 4#32) + x3 l * 8#32) * 128#32 + c).toNat + 128 ≤ 28672
  rw [e0, e1, e2, e3, BitVec.toNat_add]
  have := code_le a0 a1 a2 a3
  omega

theorem and127_le (w : BitVec 32) : (w &&& 127#32).toNat ≤ 127 := by
  rw [BitVec.toNat_and]; exact Nat.and_le_right

/-- A base with room for 128 words, plus a seven-bit column, is inside the grouped table's copy. -/
theorem chk_tbuf (b w : IVec S16 32) (hb : Below 28672 b) :
    ∀ (a : Fin 1) (x : S16.Idx), ((![addi b (andi w (broadcast S16 127#32))] : Fin 1 → IVec S16 32) a x).toNat < S28672.size a := by
  intro a x
  obtain rfl : a = 0 := Subsingleton.elim _ _
  have h1 := hb x
  have h2 := and127_le (w x)
  show ((b x) + ((w x) &&& 127#32)).toNat < 28672
  rw [BitVec.toNat_add]
  omega

/-- A row start up to 1920, a seven-bit column and a block offset up to 8192 stay inside the result block. -/
theorem chk_obuf (v6 w : IVec S16 32) (c : BitVec 32) (h6 : AtMost 1920 v6) (hc : c.toNat ≤ 8192) :
    ∀ (a : Fin 1) (x : S16.Idx),
      ((![addi (addi v6 (andi w (broadcast S16 127#32))) (broadcast S16 c)] : Fin 1 → IVec S16 32) a x).toNat < S10240.size a := by
  intro a x
  obtain rfl : a = 0 := Subsingleton.elim _ _
  have h1 := h6 x
  have h2 := and127_le (w x)
  show (((v6 x) + ((w x) &&& 127#32)) + c).toNat < 10240
  rw [BitVec.toNat_add, BitVec.toNat_add]
  omega

/-- A row start up to 840 plus a constant up to 3639 stays inside the copy of the eighty rows. -/
theorem chk_xbuf (v4 : IVec S16 32) (c : BitVec 32) (h4 : AtMost 840 v4) (hc : c.toNat ≤ 3639) :
    ∀ (a : Fin 1) (x : S16.Idx), ((![addi v4 (broadcast S16 c)] : Fin 1 → IVec S16 32) a x).toNat < S4480.size a := by
  intro a x
  obtain rfl : a = 0 := Subsingleton.elim _ _
  have h1 := h4 x
  show ((v4 x) + c).toNat < 4480
  rw [BitVec.toNat_add]
  omega

/-- The lane numbers times 56 are at most 840, and times 128 at most 1920. -/
theorem lane56 : ∀ n : Fin 16, (BitVec.ofNat 32 n.val * 56#32).toNat ≤ 840 := by decide
theorem lane128 : ∀ n : Fin 16, (BitVec.ofNat 32 n.val * 128#32).toNat ≤ 1920 := by decide

theorem iota56_atMost : AtMost 840 (k0_pay1) := by
  intro l
  show ((BitVec.ofNat 32 (0 * 16 + (l 0).val)) * 56#32).toNat ≤ 840
  rw [Nat.zero_mul, Nat.zero_add]
  exact lane56 (l 0)

theorem iota128_atMost : AtMost 1920 (k0_pay2) := by
  intro l
  show ((BitVec.ofNat 32 (0 * 16 + (l 0).val)) * 128#32).toNat ≤ 1920
  rw [Nat.zero_mul, Nat.zero_add]
  exact lane128 (l 0)

end Cert.Proof.KB

end
-- ==== Proof.Bits.TileTrips.lean ====
/-
  One trip of each of the five column loops of a tile task. Trip `k` of the loop for row group `q` gathers, for every
  lane, fourteen entries of the grouped table's copy — one per group of four features, at that group's base plus the
  column (k + lane) mod 128 —, adds them pairwise, and scatters the sums into the block of results at row
  16 q + lane and that column. The table's copy is only read; the block of results is rewritten.
-/
import proofs.«203024_g60129542144782_cont_9to1_m_748_22_alg».proof.Proof.Bits.TileFacts

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-- One trip of the column loop of row group 0. -/
theorem trip2 (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v59 : IVec S16 32) (v84 : IVec S16 32) (v109 : IVec S16 32) (v134 : IVec S16 32) (v159 : IVec S16 32) (v184 : IVec S16 32) (v209 : IVec S16 32) (v234 : IVec S16 32) (v259 : IVec S16 32) (v284 : IVec S16 32) (v309 : IVec S16 32) (v334 : IVec S16 32) (v359 : IVec S16 32) (v380 : IVec S16 32) (v381 : IVec S16 32)
    (g7 : Buf (Elt F) (arg7.view.loc (V d (cV i) (jV i)))) (f6 : Buf (Elt F) (arg6.view.loc (V d (cV i) (jV i))))
    (hb0 : Below 28672 v59) (hb1 : Below 28672 v84) (hb2 : Below 28672 v109) (hb3 : Below 28672 v134) (hb4 : Below 28672 v159) (hb5 : Below 28672 v184) (hb6 : Below 28672 v209) (hb7 : Below 28672 v234) (hb8 : Below 28672 v259) (hb9 : Below 28672 v284) (hb10 : Below 28672 v309) (hb11 : Below 28672 v334) (hb12 : Below 28672 v359) (hb13 : Below 28672 (k0_pay95 v380 v381)) (h6 : AtMost 1920 v6) (k : Fin k0_t2_loop.trips) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (k0_t2_body i arg2 harg2 arg3 harg3 arg4 harg4 arg5 harg5 arg6 harg6 arg7 harg7 v32_r0 v1791_r1 v1791_r2 v1791_r3 v1791_r4 v2 v4 v6 v59 v84 v109 v134 v159 v184 v209 v234 v259 v284 v309 v334 v359 v380 v381 k ())
          fun _ => iprop((arg7.view.loc (V d (cV i) (jV i)) ↦{fullShare} g7) ∗ ∃ f, (arg6.view.loc (V d (cV i) (jV i)) ↦{fullShare} f)) := by
  have hc57 : k0_chk57 (addi v59 (k0_pay3 v2 0#32 1#32 k)) := by intro a x; exact chk_tbuf _ _ hb0 a x
  have hc58 : k0_chk58 (addi v84 (k0_pay3 v2 0#32 1#32 k)) := by intro a x; exact chk_tbuf _ _ hb1 a x
  have hc59 : k0_chk59 (addi v109 (k0_pay3 v2 0#32 1#32 k)) := by intro a x; exact chk_tbuf _ _ hb2 a x
  have hc60 : k0_chk60 (addi v134 (k0_pay3 v2 0#32 1#32 k)) := by intro a x; exact chk_tbuf _ _ hb3 a x
  have hc61 : k0_chk61 (addi v159 (k0_pay3 v2 0#32 1#32 k)) := by intro a x; exact chk_tbuf _ _ hb4 a x
  have hc62 : k0_chk62 (addi v184 (k0_pay3 v2 0#32 1#32 k)) := by intro a x; exact chk_tbuf _ _ hb5 a x
  have hc63 : k0_chk63 (addi v209 (k0_pay3 v2 0#32 1#32 k)) := by intro a x; exact chk_tbuf _ _ hb6 a x
  have hc64 : k0_chk64 (addi v234 (k0_pay3 v2 0#32 1#32 k)) := by intro a x; exact chk_tbuf _ _ hb7 a x
  have hc65 : k0_chk65 (addi v259 (k0_pay3 v2 0#32 1#32 k)) := by intro a x; exact chk_tbuf _ _ hb8 a x
  have hc66 : k0_chk66 (addi v284 (k0_pay3 v2 0#32 1#32 k)) := by intro a x; exact chk_tbuf _ _ hb9 a x
  have hc67 : k0_chk67 (addi v309 (k0_pay3 v2 0#32 1#32 k)) := by intro a x; exact chk_tbuf _ _ hb10 a x
  have hc68 : k0_chk68 (addi v334 (k0_pay3 v2 0#32 1#32 k)) := by intro a x; exact chk_tbuf _ _ hb11 a x
  have hc69 : k0_chk69 (addi v359 (k0_pay3 v2 0#32 1#32 k)) := by intro a x; exact chk_tbuf _ _ hb12 a x
  have hc70 : k0_chk70 (addi (k0_pay95 v380 v381) (k0_pay3 v2 0#32 1#32 k)) := by intro a x; exact chk_tbuf _ _ hb13 a x
  have hc71 : k0_chk71 (k0_pay97 v6 (k0_pay3 v2 0#32 1#32 k)) := by intro a x; exact chk_obuf _ _ _ h6 (by decide) a x
  unfold k0_t2_body
  simp only [k0_part1_eq_skeleton]; unfold k0_part1_skel
  unfold SparseCore.vectorLoadIdx SparseCore.vectorStoreIdx
  iintro ⟨H7, H6⟩
  sl_exec (disch := assumption)
  sl_step
  isplitl [H7]; · iexact H7
  iexists _; iexact H6

/-- One trip of the column loop of row group 1. -/
theorem trip3 (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v410 : IVec S16 32) (v435 : IVec S16 32) (v460 : IVec S16 32) (v485 : IVec S16 32) (v510 : IVec S16 32) (v535 : IVec S16 32) (v560 : IVec S16 32) (v585 : IVec S16 32) (v610 : IVec S16 32) (v635 : IVec S16 32) (v660 : IVec S16 32) (v685 : IVec S16 32) (v710 : IVec S16 32) (v733 : IVec S16 32)
    (g7 : Buf (Elt F) (arg7.view.loc (V d (cV i) (jV i)))) (f6 : Buf (Elt F) (arg6.view.loc (V d (cV i) (jV i))))
    (hb0 : Below 28672 v410) (hb1 : Below 28672 v435) (hb2 : Below 28672 v460) (hb3 : Below 28672 v485) (hb4 : Below 28672 v510) (hb5 : Below 28672 v535) (hb6 : Below 28672 v560) (hb7 : Below 28672 v585) (hb8 : Below 28672 v610) (hb9 : Below 28672 v635) (hb10 : Below 28672 v660) (hb11 : Below 28672 v685) (hb12 : Below 28672 v710) (hb13 : Below 28672 (k0_pay173 v733)) (h6 : AtMost 1920 v6) (k : Fin k0_t3_loop.trips) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (k0_t3_body i arg2 harg2 arg3 harg3 arg4 harg4 arg5 harg5 arg6 harg6 arg7 harg7 v32_r0 v1791_r1 v1791_r2 v1791_r3 v1791_r4 v2 v4 v6 v410 v435 v460 v485 v510 v535 v560 v585 v610 v635 v660 v685 v710 v733 k ())
          fun _ => iprop((arg7.view.loc (V d (cV i) (jV i)) ↦{fullShare} g7) ∗ ∃ f, (arg6.view.loc (V d (cV i) (jV i)) ↦{fullShare} f)) := by
  have hc128 : k0_chk128 (addi v410 (k0_pay6 v2 0#32 1#32 k)) := by intro a x; exact chk_tbuf _ _ hb0 a x
  have hc129 : k0_chk129 (addi v435 (k0_pay6 v2 0#32 1#32 k)) := by intro a x; exact chk_tbuf _ _ hb1 a x
  have hc130 : k0_chk130 (addi v460 (k0_pay6 v2 0#32 1#32 k)) := by intro a x; exact chk_tbuf _ _ hb2 a x
  have hc131 : k0_chk131 (addi v485 (k0_pay6 v2 0#32 1#32 k)) := by intro a x; exact chk_tbuf _ _ hb3 a x
  have hc132 : k0_chk132 (addi v510 (k0_pay6 v2 0#32 1#32 k)) := by intro a x; exact chk_tbuf _ _ hb4 a x
  have hc133 : k0_chk133 (addi v535 (k0_pay6 v2 0#32 1#32 k)) := by intro a x; exact chk_tbuf _ _ hb5 a x
  have hc134 : k0_chk134 (addi v560 (k0_pay6 v2 0#32 1#32 k)) := by intro a x; exact chk_tbuf _ _ hb6 a x
  have hc135 : k0_chk135 (addi v585 (k0_pay6 v2 0#32 1#32 k)) := by intro a x; exact chk_tbuf _ _ hb7 a x
  have hc136 : k0_chk136 (addi v610 (k0_pay6 v2 0#32 1#32 k)) := by intro a x; exact chk_tbuf _ _ hb8 a x
  have hc137 : k0_chk137 (addi v635 (k0_pay6 v2 0#32 1#32 k)) := by intro a x; exact chk_tbuf _ _ hb9 a x
  have hc138 : k0_chk138 (addi v660 (k0_pay6 v2 0#32 1#32 k)) := by intro a x; exact chk_tbuf _ _ hb10 a x
  have hc139 : k0_chk139 (addi v685 (k0_pay6 v2 0#32 1#32 k)) := by intro a x; exact chk_tbuf _ _ hb11 a x
  have hc140 : k0_chk140 (addi v710 (k0_pay6 v2 0#32 1#32 k)) := by intro a x; exact chk_tbuf _ _ hb12 a x
  have hc141 : k0_chk141 (addi (k0_pay173 v733) (k0_pay6 v2 0#32 1#32 k)) := by intro a x; exact chk_tbuf _ _ hb13 a x
  have hc142 : k0_chk142 (k0_pay175 v6 (k0_pay6 v2 0#32 1#32 k)) := by intro a x; exact chk_obuf _ _ _ h6 (by decide) a x
  unfold k0_t3_body
  simp only [k0_part2_eq_skeleton]; unfold k0_part2_skel
  unfold SparseCore.vectorLoadIdx SparseCore.vectorStoreIdx
  iintro ⟨H7, H6⟩
  sl_exec (disch := assumption)
  sl_step
  isplitl [H7]; · iexact H7
  iexists _; iexact H6

/-- One trip of the column loop of row group 2. -/
theorem trip4 (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v761 : IVec S16 32) (v786 : IVec S16 32) (v811 : IVec S16 32) (v836 : IVec S16 32) (v861 : IVec S16 32) (v886 : IVec S16 32) (v911 : IVec S16 32) (v936 : IVec S16 32) (v961 : IVec S16 32) (v986 : IVec S16 32) (v1011 : IVec S16 32) (v1036 : IVec S16 32) (v1061 : IVec S16 32) (v1084 : IVec S16 32) (c26624_i32_223 : BitVec 32)
    (g7 : Buf (Elt F) (arg7.view.loc (V d (cV i) (jV i)))) (f6 : Buf (Elt F) (arg6.view.loc (V d (cV i) (jV i))))
    (hb0 : Below 28672 v761) (hb1 : Below 28672 v786) (hb2 : Below 28672 v811) (hb3 : Below 28672 v836) (hb4 : Below 28672 v861) (hb5 : Below 28672 v886) (hb6 : Below 28672 v911) (hb7 : Below 28672 v936) (hb8 : Below 28672 v961) (hb9 : Below 28672 v986) (hb10 : Below 28672 v1011) (hb11 : Below 28672 v1036) (hb12 : Below 28672 v1061) (hb13 : Below 28672 (k0_pay254 v1084 c26624_i32_223)) (h6 : AtMost 1920 v6) (k : Fin k0_t4_loop.trips) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (k0_t4_body i arg2 harg2 arg3 harg3 arg4 harg4 arg5 harg5 arg6 harg6 arg7 harg7 v32_r0 v1791_r1 v1791_r2 v1791_r3 v1791_r4 v2 v4 v6 v761 v786 v811 v836 v861 v886 v911 v936 v961 v986 v1011 v1036 v1061 v1084 c26624_i32_223 k ())
          fun _ => iprop((arg7.view.loc (V d (cV i) (jV i)) ↦{fullShare} g7) ∗ ∃ f, (arg6.view.loc (V d (cV i) (jV i)) ↦{fullShare} f)) := by
  have hc199 : k0_chk199 (addi v761 (k0_pay9 v2 0#32 1#32 k)) := by intro a x; exact chk_tbuf _ _ hb0 a x
  have hc200 : k0_chk200 (addi v786 (k0_pay9 v2 0#32 1#32 k)) := by intro a x; exact chk_tbuf _ _ hb1 a x
  have hc201 : k0_chk201 (addi v811 (k0_pay9 v2 0#32 1#32 k)) := by intro a x; exact chk_tbuf _ _ hb2 a x
  have hc202 : k0_chk202 (addi v836 (k0_pay9 v2 0#32 1#32 k)) := by intro a x; exact chk_tbuf _ _ hb3 a x
  have hc203 : k0_chk203 (addi v861 (k0_pay9 v2 0#32 1#32 k)) := by intro a x; exact chk_tbuf _ _ hb4 a x
  have hc204 : k0_chk204 (addi v886 (k0_pay9 v2 0#32 1#32 k)) := by intro a x; exact chk_tbuf _ _ hb5 a x
  have hc205 : k0_chk205 (addi v911 (k0_pay9 v2 0#32 1#32 k)) := by intro a x; exact chk_tbuf _ _ hb6 a x
  have hc206 : k0_chk206 (addi v936 (k0_pay9 v2 0#32 1#32 k)) := by intro a x; exact chk_tbuf _ _ hb7 a x
  have hc207 : k0_chk207 (addi v961 (k0_pay9 v2 0#32 1#32 k)) := by intro a x; exact chk_tbuf _ _ hb8 a x
  have hc208 : k0_chk208 (addi v986 (k0_pay9 v2 0#32 1#32 k)) := by intro a x; exact chk_tbuf _ _ hb9 a x
  have hc209 : k0_chk209 (addi v1011 (k0_pay9 v2 0#32 1#32 k)) := by intro a x; exact chk_tbuf _ _ hb10 a x
  have hc210 : k0_chk210 (addi v1036 (k0_pay9 v2 0#32 1#32 k)) := by intro a x; exact chk_tbuf _ _ hb11 a x
  have hc211 : k0_chk211 (addi v1061 (k0_pay9 v2 0#32 1#32 k)) := by intro a x; exact chk_tbuf _ _ hb12 a x
  have hc212 : k0_chk212 (addi (k0_pay254 v1084 c26624_i32_223) (k0_pay9 v2 0#32 1#32 k)) := by intro a x; exact chk_tbuf _ _ hb13 a x
  have hc213 : k0_chk213 (k0_pay256 v6 (k0_pay9 v2 0#32 1#32 k)) := by intro a x; exact chk_obuf _ _ _ h6 (by decide) a x
  unfold k0_t4_body
  simp only [k0_part3_eq_skeleton]; unfold k0_part3_skel
  unfold SparseCore.vectorLoadIdx SparseCore.vectorStoreIdx
  iintro ⟨H7, H6⟩
  sl_exec (disch := assumption)
  sl_step
  isplitl [H7]; · iexact H7
  iexists _; iexact H6

/-- One trip of the column loop of row group 3. -/
theorem trip5 (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v1112 : IVec S16 32) (v1137 : IVec S16 32) (v1162 : IVec S16 32) (v1187 : IVec S16 32) (v1212 : IVec S16 32) (v1237 : IVec S16 32) (v1262 : IVec S16 32) (v1287 : IVec S16 32) (v1312 : IVec S16 32) (v1337 : IVec S16 32) (v1362 : IVec S16 32) (v1387 : IVec S16 32) (v1412 : IVec S16 32) (v1435 : IVec S16 32) (v1436 : IVec S16 32)
    (g7 : Buf (Elt F) (arg7.view.loc (V d (cV i) (jV i)))) (f6 : Buf (Elt F) (arg6.view.loc (V d (cV i) (jV i))))
    (hb0 : Below 28672 v1112) (hb1 : Below 28672 v1137) (hb2 : Below 28672 v1162) (hb3 : Below 28672 v1187) (hb4 : Below 28672 v1212) (hb5 : Below 28672 v1237) (hb6 : Below 28672 v1262) (hb7 : Below 28672 v1287) (hb8 : Below 28672 v1312) (hb9 : Below 28672 v1337) (hb10 : Below 28672 v1362) (hb11 : Below 28672 v1387) (hb12 : Below 28672 v1412) (hb13 : Below 28672 (k0_pay335 v1435 v1436)) (h6 : AtMost 1920 v6) (k : Fin k0_t5_loop.trips) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (k0_t5_body i arg2 harg2 arg3 harg3 arg4 harg4 arg5 harg5 arg6 harg6 arg7 harg7 v32_r0 v1791_r1 v1791_r2 v1791_r3 v1791_r4 v2 v4 v6 v1112 v1137 v1162 v1187 v1212 v1237 v1262 v1287 v1312 v1337 v1362 v1387 v1412 v1435 v1436 k ())
          fun _ => iprop((arg7.view.loc (V d (cV i) (jV i)) ↦{fullShare} g7) ∗ ∃ f, (arg6.view.loc (V d (cV i) (jV i)) ↦{fullShare} f)) := by
  have hc270 : k0_chk270 (addi v1112 (k0_pay12 v2 0#32 1#32 k)) := by intro a x; exact chk_tbuf _ _ hb0 a x
  have hc271 : k0_chk271 (addi v1137 (k0_pay12 v2 0#32 1#32 k)) := by intro a x; exact chk_tbuf _ _ hb1 a x
  have hc272 : k0_chk272 (addi v1162 (k0_pay12 v2 0#32 1#32 k)) := by intro a x; exact chk_tbuf _ _ hb2 a x
  have hc273 : k0_chk273 (addi v1187 (k0_pay12 v2 0#32 1#32 k)) := by intro a x; exact chk_tbuf _ _ hb3 a x
  have hc274 : k0_chk274 (addi v1212 (k0_pay12 v2 0#32 1#32 k)) := by intro a x; exact chk_tbuf _ _ hb4 a x
  have hc275 : k0_chk275 (addi v1237 (k0_pay12 v2 0#32 1#32 k)) := by intro a x; exact chk_tbuf _ _ hb5 a x
  have hc276 : k0_chk276 (addi v1262 (k0_pay12 v2 0#32 1#32 k)) := by intro a x; exact chk_tbuf _ _ hb6 a x
  have hc277 : k0_chk277 (addi v1287 (k0_pay12 v2 0#32 1#32 k)) := by intro a x; exact chk_tbuf _ _ hb7 a x
  have hc278 : k0_chk278 (addi v1312 (k0_pay12 v2 0#32 1#32 k)) := by intro a x; exact chk_tbuf _ _ hb8 a x
  have hc279 : k0_chk279 (addi v1337 (k0_pay12 v2 0#32 1#32 k)) := by intro a x; exact chk_tbuf _ _ hb9 a x
  have hc280 : k0_chk280 (addi v1362 (k0_pay12 v2 0#32 1#32 k)) := by intro a x; exact chk_tbuf _ _ hb10 a x
  have hc281 : k0_chk281 (addi v1387 (k0_pay12 v2 0#32 1#32 k)) := by intro a x; exact chk_tbuf _ _ hb11 a x
  have hc282 : k0_chk282 (addi v1412 (k0_pay12 v2 0#32 1#32 k)) := by intro a x; exact chk_tbuf _ _ hb12 a x
  have hc283 : k0_chk283 (addi (k0_pay335 v1435 v1436) (k0_pay12 v2 0#32 1#32 k)) := by intro a x; exact chk_tbuf _ _ hb13 a x
  have hc284 : k0_chk284 (k0_pay337 v6 (k0_pay12 v2 0#32 1#32 k)) := by intro a x; exact chk_obuf _ _ _ h6 (by decide) a x
  unfold k0_t5_body
  simp only [k0_part4_eq_skeleton]; unfold k0_part4_skel
  unfold SparseCore.vectorLoadIdx SparseCore.vectorStoreIdx
  iintro ⟨H7, H6⟩
  sl_exec (disch := assumption)
  sl_step
  isplitl [H7]; · iexact H7
  iexists _; iexact H6

/-- One trip of the column loop of row group 4. -/
theorem trip6 (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v1 : BitVec 32) (v2 : IVec S16 32) (v4 : IVec S16 32) (v6 : IVec S16 32) (c0_i32_7 : BitVec 32) (c1_i32_9 : BitVec 32) (k0_t1 : Fin (k0_t1_loop i).trips) (v1463 : IVec S16 32) (v1488 : IVec S16 32) (v1513 : IVec S16 32) (v1538 : IVec S16 32) (v1563 : IVec S16 32) (v1588 : IVec S16 32) (v1613 : IVec S16 32) (v1638 : IVec S16 32) (v1663 : IVec S16 32) (v1688 : IVec S16 32) (v1713 : IVec S16 32) (v1738 : IVec S16 32) (v1763 : IVec S16 32) (v1788 : IVec S16 32)
    (g7 : Buf (Elt F) (arg7.view.loc (V d (cV i) (jV i)))) (f6 : Buf (Elt F) (arg6.view.loc (V d (cV i) (jV i))))
    (hb0 : Below 28672 v1463) (hb1 : Below 28672 v1488) (hb2 : Below 28672 v1513) (hb3 : Below 28672 v1538) (hb4 : Below 28672 v1563) (hb5 : Below 28672 v1588) (hb6 : Below 28672 v1613) (hb7 : Below 28672 v1638) (hb8 : Below 28672 v1663) (hb9 : Below 28672 v1688) (hb10 : Below 28672 v1713) (hb11 : Below 28672 v1738) (hb12 : Below 28672 v1763) (hb13 : Below 28672 v1788) (h6 : AtMost 1920 v6) (k : Fin k0_t6_loop.trips) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (k0_t6_body i arg2 harg2 arg3 harg3 arg4 harg4 arg5 harg5 arg6 harg6 arg7 harg7 v32_r0 v1791_r1 v1791_r2 v1791_r3 v1791_r4 v1 v2 v4 v6 c0_i32_7 c1_i32_9 k0_t1 v1463 v1488 v1513 v1538 v1563 v1588 v1613 v1638 v1663 v1688 v1713 v1738 v1763 v1788 k ())
          fun _ => iprop((arg7.view.loc (V d (cV i) (jV i)) ↦{fullShare} g7) ∗ ∃ f, (arg6.view.loc (V d (cV i) (jV i)) ↦{fullShare} f)) := by
  have hc341 : k0_chk341 (addi v1463 (k0_pay15 v2 0#32 1#32 k)) := by intro a x; exact chk_tbuf _ _ hb0 a x
  have hc342 : k0_chk342 (addi v1488 (k0_pay15 v2 0#32 1#32 k)) := by intro a x; exact chk_tbuf _ _ hb1 a x
  have hc343 : k0_chk343 (addi v1513 (k0_pay15 v2 0#32 1#32 k)) := by intro a x; exact chk_tbuf _ _ hb2 a x
  have hc344 : k0_chk344 (addi v1538 (k0_pay15 v2 0#32 1#32 k)) := by intro a x; exact chk_tbuf _ _ hb3 a x
  have hc345 : k0_chk345 (addi v1563 (k0_pay15 v2 0#32 1#32 k)) := by intro a x; exact chk_tbuf _ _ hb4 a x
  have hc346 : k0_chk346 (addi v1588 (k0_pay15 v2 0#32 1#32 k)) := by intro a x; exact chk_tbuf _ _ hb5 a x
  have hc347 : k0_chk347 (addi v1613 (k0_pay15 v2 0#32 1#32 k)) := by intro a x; exact chk_tbuf _ _ hb6 a x
  have hc348 : k0_chk348 (addi v1638 (k0_pay15 v2 0#32 1#32 k)) := by intro a x; exact chk_tbuf _ _ hb7 a x
  have hc349 : k0_chk349 (addi v1663 (k0_pay15 v2 0#32 1#32 k)) := by intro a x; exact chk_tbuf _ _ hb8 a x
  have hc350 : k0_chk350 (addi v1688 (k0_pay15 v2 0#32 1#32 k)) := by intro a x; exact chk_tbuf _ _ hb9 a x
  have hc351 : k0_chk351 (addi v1713 (k0_pay15 v2 0#32 1#32 k)) := by intro a x; exact chk_tbuf _ _ hb10 a x
  have hc352 : k0_chk352 (addi v1738 (k0_pay15 v2 0#32 1#32 k)) := by intro a x; exact chk_tbuf _ _ hb11 a x
  have hc353 : k0_chk353 (addi v1763 (k0_pay15 v2 0#32 1#32 k)) := by intro a x; exact chk_tbuf _ _ hb12 a x
  have hc354 : k0_chk354 (addi v1788 (k0_pay15 v2 0#32 1#32 k)) := by intro a x; exact chk_tbuf _ _ hb13 a x
  have hc355 : k0_chk355 (k0_pay415 v6 (k0_pay15 v2 0#32 1#32 k)) := by intro a x; exact chk_obuf _ _ _ h6 (by decide) a x
  unfold k0_t6_body
  simp only [k0_part5_eq_skeleton]; unfold k0_part5_skel
  unfold SparseCore.vectorLoadIdx SparseCore.vectorStoreIdx
  iintro ⟨H7, H6⟩
  sl_exec (disch := assumption)
  sl_step
  isplitl [H7]; · iexact H7
  iexists _; iexact H6

end Cert.Proof.KB

end
-- ==== Proof.Bits.Chunk.lean ====
/-
  One micro-batch of a tile task: eighty rows of the index matrix are copied in, each of the five groups of sixteen
  rows has its fourteen table bases computed from the rows' 0/1 entries and its 128 columns summed into the block of
  results, and the block is copied out to the micro-batch's place in the result array.
-/
import proofs.«203024_g60129542144782_cont_9to1_m_748_22_alg».proof.Proof.Bits.TileTrips

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-- What a column loop keeps: the grouped table's copy, and the block of results at some contents. -/
def invq (d : Dev nD) (i : grid0.Coords) (arg6 : Memref sig .scVector .vmem S10240 .f32) (arg7 : Memref sig .scVector .vmem S28672 .f32)
    (g7 : Buf (Elt F) (arg7.view.loc (V d (cV i) (jV i)))) (_ : Nat) (_ : PUnit) : sProp 𝕄 :=
  iprop((arg7.view.loc (V d (cV i) (jV i)) ↦{fullShare} g7) ∗ ∃ f, (arg6.view.loc (V d (cV i) (jV i)) ↦{fullShare} f))

macro "below_tac" : tactic => `(tactic| ((try dsimp only []); exact below_base _ _ _ _ (bit_loadIdx _ (by assumption) _ _) (bit_loadIdx _ (by assumption) _ _) (bit_loadIdx _ (by assumption) _ _) (bit_loadIdx _ (by assumption) _ _) _ (by decide)))

theorem trip2' (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v59 : IVec S16 32) (v84 : IVec S16 32) (v109 : IVec S16 32) (v134 : IVec S16 32) (v159 : IVec S16 32) (v184 : IVec S16 32) (v209 : IVec S16 32) (v234 : IVec S16 32) (v259 : IVec S16 32) (v284 : IVec S16 32) (v309 : IVec S16 32) (v334 : IVec S16 32) (v359 : IVec S16 32) (v380 : IVec S16 32) (v381 : IVec S16 32)
    (g7 : Buf (Elt F) (arg7.view.loc (V d (cV i) (jV i))))
    (hb0 : Below 28672 v59) (hb1 : Below 28672 v84) (hb2 : Below 28672 v109) (hb3 : Below 28672 v134) (hb4 : Below 28672 v159) (hb5 : Below 28672 v184) (hb6 : Below 28672 v209) (hb7 : Below 28672 v234) (hb8 : Below 28672 v259) (hb9 : Below 28672 v284) (hb10 : Below 28672 v309) (hb11 : Below 28672 v334) (hb12 : Below 28672 v359) (hb13 : Below 28672 (k0_pay95 v380 v381)) (h6 : AtMost 1920 v6) (k : Fin k0_t2_loop.trips) :
    (invq d i arg6 arg7 g7 k.val () : sProp 𝕄)
      ⊢ wp frame (wpE (defs₀ (F := F)) 𝒱₀ (V d (cV i) (jV i)) none) Set.univ
          (k0_t2_body i arg2 harg2 arg3 harg3 arg4 harg4 arg5 harg5 arg6 harg6 arg7 harg7 v32_r0 v1791_r1 v1791_r2 v1791_r3 v1791_r4 v2 v4 v6 v59 v84 v109 v134 v159 v184 v209 v234 v259 v284 v309 v334 v359 v380 v381 k ())
          fun r => invq d i arg6 arg7 g7 (k.val + 1) r := by
  unfold invq
  iintro ⟨H7, %f6, H6⟩
  iapply (trip2 d i arg2 harg2 arg3 harg3 arg4 harg4 arg5 harg5 arg6 harg6 arg7 harg7 v32_r0 v1791_r1 v1791_r2 v1791_r3 v1791_r4 v2 v4 v6 v59 v84 v109 v134 v159 v184 v209 v234 v259 v284 v309 v334 v359 v380 v381 g7 f6 hb0 hb1 hb2 hb3 hb4 hb5 hb6 hb7 hb8 hb9 hb10 hb11 hb12 hb13 h6 k) $$ [H7 H6]
  isplitl [H7]; · iexact H7
  iexact H6

theorem trip3' (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v410 : IVec S16 32) (v435 : IVec S16 32) (v460 : IVec S16 32) (v485 : IVec S16 32) (v510 : IVec S16 32) (v535 : IVec S16 32) (v560 : IVec S16 32) (v585 : IVec S16 32) (v610 : IVec S16 32) (v635 : IVec S16 32) (v660 : IVec S16 32) (v685 : IVec S16 32) (v710 : IVec S16 32) (v733 : IVec S16 32)
    (g7 : Buf (Elt F) (arg7.view.loc (V d (cV i) (jV i))))
    (hb0 : Below 28672 v410) (hb1 : Below 28672 v435) (hb2 : Below 28672 v460) (hb3 : Below 28672 v485) (hb4 : Below 28672 v510) (hb5 : Below 28672 v535) (hb6 : Below 28672 v560) (hb7 : Below 28672 v585) (hb8 : Below 28672 v610) (hb9 : Below 28672 v635) (hb10 : Below 28672 v660) (hb11 : Below 28672 v685) (hb12 : Below 28672 v710) (hb13 : Below 28672 (k0_pay173 v733)) (h6 : AtMost 1920 v6) (k : Fin k0_t3_loop.trips) :
    (invq d i arg6 arg7 g7 k.val () : sProp 𝕄)
      ⊢ wp frame (wpE (defs₀ (F := F)) 𝒱₀ (V d (cV i) (jV i)) none) Set.univ
          (k0_t3_body i arg2 harg2 arg3 harg3 arg4 harg4 arg5 harg5 arg6 harg6 arg7 harg7 v32_r0 v1791_r1 v1791_r2 v1791_r3 v1791_r4 v2 v4 v6 v410 v435 v460 v485 v510 v535 v560 v585 v610 v635 v660 v685 v710 v733 k ())
          fun r => invq d i arg6 arg7 g7 (k.val + 1) r := by
  unfold invq
  iintro ⟨H7, %f6, H6⟩
  iapply (trip3 d i arg2 harg2 arg3 harg3 arg4 harg4 arg5 harg5 arg6 harg6 arg7 harg7 v32_r0 v1791_r1 v1791_r2 v1791_r3 v1791_r4 v2 v4 v6 v410 v435 v460 v485 v510 v535 v560 v585 v610 v635 v660 v685 v710 v733 g7 f6 hb0 hb1 hb2 hb3 hb4 hb5 hb6 hb7 hb8 hb9 hb10 hb11 hb12 hb13 h6 k) $$ [H7 H6]
  isplitl [H7]; · iexact H7
  iexact H6

theorem trip4' (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v761 : IVec S16 32) (v786 : IVec S16 32) (v811 : IVec S16 32) (v836 : IVec S16 32) (v861 : IVec S16 32) (v886 : IVec S16 32) (v911 : IVec S16 32) (v936 : IVec S16 32) (v961 : IVec S16 32) (v986 : IVec S16 32) (v1011 : IVec S16 32) (v1036 : IVec S16 32) (v1061 : IVec S16 32) (v1084 : IVec S16 32) (c26624_i32_223 : BitVec 32)
    (g7 : Buf (Elt F) (arg7.view.loc (V d (cV i) (jV i))))
    (hb0 : Below 28672 v761) (hb1 : Below 28672 v786) (hb2 : Below 28672 v811) (hb3 : Below 28672 v836) (hb4 : Below 28672 v861) (hb5 : Below 28672 v886) (hb6 : Below 28672 v911) (hb7 : Below 28672 v936) (hb8 : Below 28672 v961) (hb9 : Below 28672 v986) (hb10 : Below 28672 v1011) (hb11 : Below 28672 v1036) (hb12 : Below 28672 v1061) (hb13 : Below 28672 (k0_pay254 v1084 c26624_i32_223)) (h6 : AtMost 1920 v6) (k : Fin k0_t4_loop.trips) :
    (invq d i arg6 arg7 g7 k.val () : sProp 𝕄)
      ⊢ wp frame (wpE (defs₀ (F := F)) 𝒱₀ (V d (cV i) (jV i)) none) Set.univ
          (k0_t4_body i arg2 harg2 arg3 harg3 arg4 harg4 arg5 harg5 arg6 harg6 arg7 harg7 v32_r0 v1791_r1 v1791_r2 v1791_r3 v1791_r4 v2 v4 v6 v761 v786 v811 v836 v861 v886 v911 v936 v961 v986 v1011 v1036 v1061 v1084 c26624_i32_223 k ())
          fun r => invq d i arg6 arg7 g7 (k.val + 1) r := by
  unfold invq
  iintro ⟨H7, %f6, H6⟩
  iapply (trip4 d i arg2 harg2 arg3 harg3 arg4 harg4 arg5 harg5 arg6 harg6 arg7 harg7 v32_r0 v1791_r1 v1791_r2 v1791_r3 v1791_r4 v2 v4 v6 v761 v786 v811 v836 v861 v886 v911 v936 v961 v986 v1011 v1036 v1061 v1084 c26624_i32_223 g7 f6 hb0 hb1 hb2 hb3 hb4 hb5 hb6 hb7 hb8 hb9 hb10 hb11 hb12 hb13 h6 k) $$ [H7 H6]
  isplitl [H7]; · iexact H7
  iexact H6

theorem trip5' (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v1112 : IVec S16 32) (v1137 : IVec S16 32) (v1162 : IVec S16 32) (v1187 : IVec S16 32) (v1212 : IVec S16 32) (v1237 : IVec S16 32) (v1262 : IVec S16 32) (v1287 : IVec S16 32) (v1312 : IVec S16 32) (v1337 : IVec S16 32) (v1362 : IVec S16 32) (v1387 : IVec S16 32) (v1412 : IVec S16 32) (v1435 : IVec S16 32) (v1436 : IVec S16 32)
    (g7 : Buf (Elt F) (arg7.view.loc (V d (cV i) (jV i))))
    (hb0 : Below 28672 v1112) (hb1 : Below 28672 v1137) (hb2 : Below 28672 v1162) (hb3 : Below 28672 v1187) (hb4 : Below 28672 v1212) (hb5 : Below 28672 v1237) (hb6 : Below 28672 v1262) (hb7 : Below 28672 v1287) (hb8 : Below 28672 v1312) (hb9 : Below 28672 v1337) (hb10 : Below 28672 v1362) (hb11 : Below 28672 v1387) (hb12 : Below 28672 v1412) (hb13 : Below 28672 (k0_pay335 v1435 v1436)) (h6 : AtMost 1920 v6) (k : Fin k0_t5_loop.trips) :
    (invq d i arg6 arg7 g7 k.val () : sProp 𝕄)
      ⊢ wp frame (wpE (defs₀ (F := F)) 𝒱₀ (V d (cV i) (jV i)) none) Set.univ
          (k0_t5_body i arg2 harg2 arg3 harg3 arg4 harg4 arg5 harg5 arg6 harg6 arg7 harg7 v32_r0 v1791_r1 v1791_r2 v1791_r3 v1791_r4 v2 v4 v6 v1112 v1137 v1162 v1187 v1212 v1237 v1262 v1287 v1312 v1337 v1362 v1387 v1412 v1435 v1436 k ())
          fun r => invq d i arg6 arg7 g7 (k.val + 1) r := by
  unfold invq
  iintro ⟨H7, %f6, H6⟩
  iapply (trip5 d i arg2 harg2 arg3 harg3 arg4 harg4 arg5 harg5 arg6 harg6 arg7 harg7 v32_r0 v1791_r1 v1791_r2 v1791_r3 v1791_r4 v2 v4 v6 v1112 v1137 v1162 v1187 v1212 v1237 v1262 v1287 v1312 v1337 v1362 v1387 v1412 v1435 v1436 g7 f6 hb0 hb1 hb2 hb3 hb4 hb5 hb6 hb7 hb8 hb9 hb10 hb11 hb12 hb13 h6 k) $$ [H7 H6]
  isplitl [H7]; · iexact H7
  iexact H6

theorem trip6' (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v1 : BitVec 32) (v2 : IVec S16 32) (v4 : IVec S16 32) (v6 : IVec S16 32) (c0_i32_7 : BitVec 32) (c1_i32_9 : BitVec 32) (k0_t1 : Fin (k0_t1_loop i).trips) (v1463 : IVec S16 32) (v1488 : IVec S16 32) (v1513 : IVec S16 32) (v1538 : IVec S16 32) (v1563 : IVec S16 32) (v1588 : IVec S16 32) (v1613 : IVec S16 32) (v1638 : IVec S16 32) (v1663 : IVec S16 32) (v1688 : IVec S16 32) (v1713 : IVec S16 32) (v1738 : IVec S16 32) (v1763 : IVec S16 32) (v1788 : IVec S16 32)
    (g7 : Buf (Elt F) (arg7.view.loc (V d (cV i) (jV i))))
    (hb0 : Below 28672 v1463) (hb1 : Below 28672 v1488) (hb2 : Below 28672 v1513) (hb3 : Below 28672 v1538) (hb4 : Below 28672 v1563) (hb5 : Below 28672 v1588) (hb6 : Below 28672 v1613) (hb7 : Below 28672 v1638) (hb8 : Below 28672 v1663) (hb9 : Below 28672 v1688) (hb10 : Below 28672 v1713) (hb11 : Below 28672 v1738) (hb12 : Below 28672 v1763) (hb13 : Below 28672 v1788) (h6 : AtMost 1920 v6) (k : Fin k0_t6_loop.trips) :
    (invq d i arg6 arg7 g7 k.val () : sProp 𝕄)
      ⊢ wp frame (wpE (defs₀ (F := F)) 𝒱₀ (V d (cV i) (jV i)) none) Set.univ
          (k0_t6_body i arg2 harg2 arg3 harg3 arg4 harg4 arg5 harg5 arg6 harg6 arg7 harg7 v32_r0 v1791_r1 v1791_r2 v1791_r3 v1791_r4 v1 v2 v4 v6 c0_i32_7 c1_i32_9 k0_t1 v1463 v1488 v1513 v1538 v1563 v1588 v1613 v1638 v1663 v1688 v1713 v1738 v1763 v1788 k ())
          fun r => invq d i arg6 arg7 g7 (k.val + 1) r := by
  unfold invq
  iintro ⟨H7, %f6, H6⟩
  iapply (trip6 d i arg2 harg2 arg3 harg3 arg4 harg4 arg5 harg5 arg6 harg6 arg7 harg7 v32_r0 v1791_r1 v1791_r2 v1791_r3 v1791_r4 v1 v2 v4 v6 c0_i32_7 c1_i32_9 k0_t1 v1463 v1488 v1513 v1538 v1563 v1588 v1613 v1638 v1663 v1688 v1713 v1738 v1763 v1788 g7 f6 hb0 hb1 hb2 hb3 hb4 hb5 hb6 hb7 hb8 hb9 hb10 hb11 hb12 hb13 h6 k) $$ [H7 H6]
  isplitl [H7]; · iexact H7
  iexact H6

set_option maxHeartbeats 4000000 in
set_option maxRecDepth 65536 in
theorem chunk (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v1 : BitVec 32) (v2 v4 v6 : IVec S16 32) (c0 c1 : BitVec 32) (t : Fin (k0_t1_loop i).trips)
    (O : CellTallies nD τ sig (HIx 1)) (W : Waits sig (HIx 1)) (qx : PosShare TreeShare)
    (fx : Buf (Elt F) (arg2.view.loc (V d (cV i) (jV i)))) (g7 : Buf (Elt F) (arg7.view.loc (V d (cV i) (jV i))))
    (fo : Buf (Elt F) ((arg4.slice (Rect.unit (s := S512000) (k0_off2 i t) S10240.size (k0_off2_inb i t)) (fun _ => rfl)).view.loc (V d (cV i) (jV i))))
    (h4 : AtMost 840 v4) (h6 : AtMost 1920 v6) (hfx : Bin32 (arg2.view.read (Elt F) fx)) :
    iprop(Transfers.MayWaits (V d (cV i) (jV i)) (none : HIx 1) O
        ∗ (arg2.view.loc (V d (cV i) (jV i)) ↦{qx} fx)
        ∗ (arg7.view.loc (V d (cV i) (jV i)) ↦{fullShare} g7)
        ∗ (∃ f5, arg5.view.loc (V d (cV i) (jV i)) ↦{fullShare} f5)
        ∗ (∃ f6, arg6.view.loc (V d (cV i) (jV i)) ↦{fullShare} f6)
        ∗ ((arg4.slice (Rect.unit (s := S512000) (k0_off2 i t) S10240.size (k0_off2_inb i t)) (fun _ => rfl)).view.loc (V d (cV i) (jV i))
              ↦[(arg4.slice (Rect.unit (s := S512000) (k0_off2 i t) S10240.size (k0_off2_inb i t)) (fun _ => rfl)).view.set]{fullShare} fo)
        ∗ semVal ((V d (cV i) (jV i)), SemLoc.dma v1791_r1.sem) 0
        ∗ semVal ((V d (cV i) (jV i)), SemLoc.dma v1791_r2.sem) 0
        ∗ ∃ W', ⌜∀ p ∈ W', p ∈ W ∨ p.2 = none⌝ ∗ owes (V d (cV i) (jV i)) O W' : sProp 𝕄)
      ⊢ wp frame (wpE (defs₀ (F := F)) 𝒱₀ (V d (cV i) (jV i)) none) Set.univ
          (k0_part51 i arg2 harg2 arg3 harg3 arg4 harg4 arg5 harg5 arg6 harg6 arg7 harg7 v32_r0 v1791_r1 v1791_r2 v1791_r3 v1791_r4 v1 v2 v4 v6 c0 c1 t)
          fun _ => iprop((arg2.view.loc (V d (cV i) (jV i)) ↦{qx} fx)
            ∗ (arg7.view.loc (V d (cV i) (jV i)) ↦{fullShare} g7)
            ∗ (∃ f5, arg5.view.loc (V d (cV i) (jV i)) ↦{fullShare} f5)
            ∗ (∃ f6, arg6.view.loc (V d (cV i) (jV i)) ↦{fullShare} f6)
            ∗ (∃ fo', (arg4.slice (Rect.unit (s := S512000) (k0_off2 i t) S10240.size (k0_off2_inb i t)) (fun _ => rfl)).view.loc (V d (cV i) (jV i)) ↦[(arg4.slice (Rect.unit (s := S512000) (k0_off2 i t) S10240.size (k0_off2_inb i t)) (fun _ => rfl)).view.set]{fullShare} fo')
            ∗ semVal ((V d (cV i) (jV i)), SemLoc.dma v1791_r1.sem) 0
            ∗ semVal ((V d (cV i) (jV i)), SemLoc.dma v1791_r2.sem) 0
            ∗ ∃ W', ⌜∀ p ∈ W', p ∈ W ∨ p.2 = none⌝ ∗ owes (V d (cV i) (jV i)) O W') := by
  have hc1 : k0_chk1 (k0_pay18 v4) := by intro a x; exact chk_xbuf _ _ h4 (by decide) a x
  have hc2 : k0_chk2 (k0_pay19 v4) := by intro a x; exact chk_xbuf _ _ h4 (by decide) a x
  have hc3 : k0_chk3 (k0_pay20 v4) := by intro a x; exact chk_xbuf _ _ h4 (by decide) a x
  have hc4 : k0_chk4 (k0_pay21 v4) := by intro a x; exact chk_xbuf _ _ h4 (by decide) a x
  have hc5 : k0_chk5 (k0_pay23 v4) := by intro a x; exact chk_xbuf _ _ h4 (by decide) a x
  have hc6 : k0_chk6 (k0_pay24 v4) := by intro a x; exact chk_xbuf _ _ h4 (by decide) a x
  have hc7 : k0_chk7 (k0_pay25 v4) := by intro a x; exact chk_xbuf _ _ h4 (by decide) a x
  have hc8 : k0_chk8 (k0_pay26 v4) := by intro a x; exact chk_xbuf _ _ h4 (by decide) a x
  have hc9 : k0_chk9 (k0_pay28 v4) := by intro a x; exact chk_xbuf _ _ h4 (by decide) a x
  have hc10 : k0_chk10 (k0_pay29 v4) := by intro a x; exact chk_xbuf _ _ h4 (by decide) a x
  have hc11 : k0_chk11 (k0_pay30 v4) := by intro a x; exact chk_xbuf _ _ h4 (by decide) a x
  have hc12 : k0_chk12 (k0_pay31 v4) := by intro a x; exact chk_xbuf _ _ h4 (by decide) a x
  have hc13 : k0_chk13 (k0_pay34 v4) := by intro a x; exact chk_xbuf _ _ h4 (by decide) a x
  have hc14 : k0_chk14 (k0_pay35 v4) := by intro a x; exact chk_xbuf _ _ h4 (by decide) a x
  have hc15 : k0_chk15 (k0_pay36 v4) := by intro a x; exact chk_xbuf _ _ h4 (by decide) a x
  have hc16 : k0_chk16 (k0_pay37 v4) := by intro a x; exact chk_xbuf _ _ h4 (by decide) a x
  have hc17 : k0_chk17 (k0_pay39 v4) := by intro a x; exact chk_xbuf _ _ h4 (by decide) a x
  have hc18 : k0_chk18 (k0_pay40 v4) := by intro a x; exact chk_xbuf _ _ h4 (by decide) a x
  have hc20 : k0_chk20 (k0_pay43 v4) := by intro a x; exact chk_xbuf _ _ h4 (by decide) a x
  have hc21 : k0_chk21 (k0_pay45 v4) := by intro a x; exact chk_xbuf _ _ h4 (by decide) a x
  have hc22 : k0_chk22 (k0_pay46 v4) := by intro a x; exact chk_xbuf _ _ h4 (by decide) a x
  have hc23 : k0_chk23 (k0_pay47 v4) := by intro a x; exact chk_xbuf _ _ h4 (by decide) a x
  have hc24 : k0_chk24 (k0_pay48 v4) := by intro a x; exact chk_xbuf _ _ h4 (by decide) a x
  have hc25 : k0_chk25 (k0_pay50 v4) := by intro a x; exact chk_xbuf _ _ h4 (by decide) a x
  have hc26 : k0_chk26 (k0_pay51 v4) := by intro a x; exact chk_xbuf _ _ h4 (by decide) a x
  have hc27 : k0_chk27 (k0_pay52 v4) := by intro a x; exact chk_xbuf _ _ h4 (by decide) a x
  have hc28 : k0_chk28 (k0_pay53 v4) := by intro a x; exact chk_xbuf _ _ h4 (by decide) a x
  have hc29 : k0_chk29 (k0_pay55 v4) := by intro a x; exact chk_xbuf _ _ h4 (by decide) a x
  have hc30 : k0_chk30 (k0_pay56 v4) := by intro a x; exact chk_xbuf _ _ h4 (by decide) a x
  have hc31 : k0_chk31 (k0_pay58 v4) := by intro a x; exact chk_xbuf _ _ h4 (by decide) a x
  have hc32 : k0_chk32 (k0_pay60 v4) := by intro a x; exact chk_xbuf _ _ h4 (by decide) a x
  have hc33 : k0_chk33 (k0_pay62 v4) := by intro a x; exact chk_xbuf _ _ h4 (by decide) a x
  have hc34 : k0_chk34 (k0_pay63 v4) := by intro a x; exact chk_xbuf _ _ h4 (by decide) a x
  have hc35 : k0_chk35 (k0_pay64 v4) := by intro a x; exact chk_xbuf _ _ h4 (by decide) a x
  have hc36 : k0_chk36 (k0_pay65 v4) := by intro a x; exact chk_xbuf _ _ h4 (by decide) a x
  have hc37 : k0_chk37 (k0_pay67 v4) := by intro a x; exact chk_xbuf _ _ h4 (by decide) a x
  have hc38 : k0_chk38 (k0_pay68 v4 37#32) := by intro a x; exact chk_xbuf _ _ h4 (by decide) a x
  have hc39 : k0_chk39 (k0_pay69 v4) := by intro a x; exact chk_xbuf _ _ h4 (by decide) a x
  have hc40 : k0_chk40 (k0_pay70 v4) := by intro a x; exact chk_xbuf _ _ h4 (by decide) a x
  have hc41 : k0_chk41 (k0_pay72 v4) := by intro a x; exact chk_xbuf _ _ h4 (by decide) a x
  have hc42 : k0_chk42 (k0_pay73 v4) := by intro a x; exact chk_xbuf _ _ h4 (by decide) a x
  have hc43 : k0_chk43 (k0_pay74 v4) := by intro a x; exact chk_xbuf _ _ h4 (by decide) a x
  have hc44 : k0_chk44 (k0_pay76 v4) := by intro a x; exact chk_xbuf _ _ h4 (by decide) a x
  have hc45 : k0_chk45 (k0_pay78 v4) := by intro a x; exact chk_xbuf _ _ h4 (by decide) a x
  have hc46 : k0_chk46 (k0_pay79 v4) := by intro a x; exact chk_xbuf _ _ h4 (by decide) a x
  have hc47 : k0_chk47 (k0_pay80 v4) := by intro a x; exact chk_xbuf _ _ h4 (by decide) a x
  have hc48 : k0_chk48 (k0_pay81 v4) := by intro a x; exact chk_xbuf _ _ h4 (by decide) a x
  have hc49 : k0_chk49 (k0_pay83 v4) := by intro a x; exact chk_xbuf _ _ h4 (by decide) a x
  have hc50 : k0_chk50 (k0_pay84 v4) := by intro a x; exact chk_xbuf _ _ h4 (by decide) a x
  have hc51 : k0_chk51 (k0_pay86 v4) := by intro a x; exact chk_xbuf _ _ h4 (by decide) a x
  have hc52 : k0_chk52 (k0_pay87 v4) := by intro a x; exact chk_xbuf _ _ h4 (by decide) a x
  have hc53 : k0_chk53 (k0_pay89 v4) := by intro a x; exact chk_xbuf _ _ h4 (by decide) a x
  have hc54 : k0_chk54 (k0_pay90 v4) := by intro a x; exact chk_xbuf _ _ h4 (by decide) a x
  have hc55 : k0_chk55 (k0_pay91 v4) := by intro a x; exact chk_xbuf _ _ h4 (by decide) a x
  have hc56 : k0_chk56 (k0_pay92 v4) := by intro a x; exact chk_xbuf _ _ h4 (by decide) a x
  have hc72 : k0_chk72 (k0_pay98 v4) := by intro a x; exact chk_xbuf _ _ h4 (by decide) a x
  have hc73 : k0_chk73 (k0_pay99 v4) := by intro a x; exact chk_xbuf _ _ h4 (by decide) a x
  have hc74 : k0_chk74 (k0_pay100 v4) := by intro a x; exact chk_xbuf _ _ h4 (by decide) a x
  have hc75 : k0_chk75 (k0_pay101 v4) := by intro a x; exact chk_xbuf _ _ h4 (by decide) a x
  have hc76 : k0_chk76 (k0_pay103 v4) := by intro a x; exact chk_xbuf _ _ h4 (by decide) a x
  have hc77 : k0_chk77 (k0_pay104 v4) := by intro a x; exact chk_xbuf _ _ h4 (by decide) a x
  have hc78 : k0_chk78 (k0_pay105 v4) := by intro a x; exact chk_xbuf _ _ h4 (by decide) a x
  have hc79 : k0_chk79 (k0_pay106 v4) := by intro a x; exact chk_xbuf _ _ h4 (by decide) a x
  have hc80 : k0_chk80 (k0_pay108 v4) := by intro a x; exact chk_xbuf _ _ h4 (by decide) a x
  have hc81 : k0_chk81 (k0_pay109 v4) := by intro a x; exact chk_xbuf _ _ h4 (by decide) a x
  have hc82 : k0_chk82 (k0_pay110 v4) := by intro a x; exact chk_xbuf _ _ h4 (by decide) a x
  have hc83 : k0_chk83 (k0_pay111 v4) := by intro a x; exact chk_xbuf _ _ h4 (by decide) a x
  have hc84 : k0_chk84 (k0_pay114 v4) := by intro a x; exact chk_xbuf _ _ h4 (by decide) a x
  have hc85 : k0_chk85 (k0_pay115 v4) := by intro a x; exact chk_xbuf _ _ h4 (by decide) a x
  have hc86 : k0_chk86 (k0_pay116 v4) := by intro a x; exact chk_xbuf _ _ h4 (by decide) a x
  have hc87 : k0_chk87 (k0_pay117 v4) := by intro a x; exact chk_xbuf _ _ h4 (by decide) a x
  have hc88 : k0_chk88 (k0_pay119 v4) := by intro a x; exact chk_xbuf _ _ h4 (by decide) a x
  have hc89 : k0_chk89 (k0_pay120 v4) := by intro a x; exact chk_xbuf _ _ h4 (by decide) a x
  have hc91 : k0_chk91 (k0_pay123 v4) := by intro a x; exact chk_xbuf _ _ h4 (by decide) a x
  have hc92 : k0_chk92 (k0_pay125 v4) := by intro a x; exact chk_xbuf _ _ h4 (by decide) a x
  have hc93 : k0_chk93 (k0_pay126 v4) := by intro a x; exact chk_xbuf _ _ h4 (by decide) a x
  have hc94 : k0_chk94 (k0_pay127 v4) := by intro a x; exact chk_xbuf _ _ h4 (by decide) a x
  have hc95 : k0_chk95 (k0_pay128 v4) := by intro a x; exact chk_xbuf _ _ h4 (by decide) a x
  have hc96 : k0_chk96 (k0_pay130 v4 920#32) := by intro a x; exact chk_xbuf _ _ h4 (by decide) a x
  have hc97 : k0_chk97 (k0_pay131 v4) := by intro a x; exact chk_xbuf _ _ h4 (by decide) a x
  have hc98 : k0_chk98 (k0_pay132 v4) := by intro a x; exact chk_xbuf _ _ h4 (by decide) a x
  have hc99 : k0_chk99 (k0_pay133 v4) := by intro a x; exact chk_xbuf _ _ h4 (by decide) a x
  have hc100 : k0_chk100 (k0_pay135 v4) := by intro a x; exact chk_xbuf _ _ h4 (by decide) a x
  have hc101 : k0_chk101 (k0_pay136 v4) := by intro a x; exact chk_xbuf _ _ h4 (by decide) a x
  have hc102 : k0_chk102 (k0_pay137 v4) := by intro a x; exact chk_xbuf _ _ h4 (by decide) a x
  have hc103 : k0_chk103 (k0_pay139 v4) := by intro a x; exact chk_xbuf _ _ h4 (by decide) a x
  have hc104 : k0_chk104 (k0_pay141 v4) := by intro a x; exact chk_xbuf _ _ h4 (by decide) a x
  have hc105 : k0_chk105 (k0_pay142 v4) := by intro a x; exact chk_xbuf _ _ h4 (by decide) a x
  have hc106 : k0_chk106 (k0_pay143 v4) := by intro a x; exact chk_xbuf _ _ h4 (by decide) a x
  have hc107 : k0_chk107 (k0_pay144 v4) := by intro a x; exact chk_xbuf _ _ h4 (by decide) a x
  have hc108 : k0_chk108 (k0_pay146 v4) := by intro a x; exact chk_xbuf _ _ h4 (by decide) a x
  have hc110 : k0_chk110 (k0_pay148 v4) := by intro a x; exact chk_xbuf _ _ h4 (by decide) a x
  have hc111 : k0_chk111 (k0_pay149 v4) := by intro a x; exact chk_xbuf _ _ h4 (by decide) a x
  have hc112 : k0_chk112 (k0_pay151 v4) := by intro a x; exact chk_xbuf _ _ h4 (by decide) a x
  have hc113 : k0_chk113 (k0_pay152 v4) := by intro a x; exact chk_xbuf _ _ h4 (by decide) a x
  have hc114 : k0_chk114 (k0_pay153 v4) := by intro a x; exact chk_xbuf _ _ h4 (by decide) a x
  have hc115 : k0_chk115 (k0_pay155 v4) := by intro a x; exact chk_xbuf _ _ h4 (by decide) a x
  have hc116 : k0_chk116 (k0_pay157 v4) := by intro a x; exact chk_xbuf _ _ h4 (by decide) a x
  have hc117 : k0_chk117 (k0_pay158 v4) := by intro a x; exact chk_xbuf _ _ h4 (by decide) a x
  have hc118 : k0_chk118 (k0_pay159 v4) := by intro a x; exact chk_xbuf _ _ h4 (by decide) a x
  have hc119 : k0_chk119 (k0_pay160 v4) := by intro a x; exact chk_xbuf _ _ h4 (by decide) a x
  have hc120 : k0_chk120 (k0_pay162 v4) := by intro a x; exact chk_xbuf _ _ h4 (by decide) a x
  have hc121 : k0_chk121 (k0_pay163 v4) := by intro a x; exact chk_xbuf _ _ h4 (by decide) a x
  have hc122 : k0_chk122 (k0_pay165 v4) := by intro a x; exact chk_xbuf _ _ h4 (by decide) a x
  have hc123 : k0_chk123 (k0_pay166 v4) := by intro a x; exact chk_xbuf _ _ h4 (by decide) a x
  have hc124 : k0_chk124 (k0_pay168 v4) := by intro a x; exact chk_xbuf _ _ h4 (by decide) a x
  have hc125 : k0_chk125 (k0_pay169 v4) := by intro a x; exact chk_xbuf _ _ h4 (by decide) a x
  have hc126 : k0_chk126 (k0_pay170 v4) := by intro a x; exact chk_xbuf _ _ h4 (by decide) a x
  have hc127 : k0_chk127 (k0_pay171 v4) := by intro a x; exact chk_xbuf _ _ h4 (by decide) a x
  have hc143 : k0_chk143 (k0_pay176 v4) := by intro a x; exact chk_xbuf _ _ h4 (by decide) a x
  have hc144 : k0_chk144 (k0_pay177 v4) := by intro a x; exact chk_xbuf _ _ h4 (by decide) a x
  have hc145 : k0_chk145 (k0_pay178 v4) := by intro a x; exact chk_xbuf _ _ h4 (by decide) a x
  have hc146 : k0_chk146 (k0_pay179 v4) := by intro a x; exact chk_xbuf _ _ h4 (by decide) a x
  have hc147 : k0_chk147 (k0_pay181 v4) := by intro a x; exact chk_xbuf _ _ h4 (by decide) a x
  have hc148 : k0_chk148 (k0_pay182 v4) := by intro a x; exact chk_xbuf _ _ h4 (by decide) a x
  have hc149 : k0_chk149 (k0_pay184 v4) := by intro a x; exact chk_xbuf _ _ h4 (by decide) a x
  have hc150 : k0_chk150 (k0_pay185 v4) := by intro a x; exact chk_xbuf _ _ h4 (by decide) a x
  have hc151 : k0_chk151 (k0_pay187 v4) := by intro a x; exact chk_xbuf _ _ h4 (by decide) a x
  have hc152 : k0_chk152 (k0_pay188 v4) := by intro a x; exact chk_xbuf _ _ h4 (by decide) a x
  have hc153 : k0_chk153 (k0_pay189 v4) := by intro a x; exact chk_xbuf _ _ h4 (by decide) a x
  have hc154 : k0_chk154 (k0_pay190 v4) := by intro a x; exact chk_xbuf _ _ h4 (by decide) a x
  have hc155 : k0_chk155 (k0_pay194 v4) := by intro a x; exact chk_xbuf _ _ h4 (by decide) a x
  have hc156 : k0_chk156 (k0_pay195 v4) := by intro a x; exact chk_xbuf _ _ h4 (by decide) a x
  have hc157 : k0_chk157 (k0_pay196 v4) := by intro a x; exact chk_xbuf _ _ h4 (by decide) a x
  have hc158 : k0_chk158 (k0_pay197 v4) := by intro a x; exact chk_xbuf _ _ h4 (by decide) a x
  have hc159 : k0_chk159 (k0_pay199 v4) := by intro a x; exact chk_xbuf _ _ h4 (by decide) a x
  have hc160 : k0_chk160 (k0_pay200 v4) := by intro a x; exact chk_xbuf _ _ h4 (by decide) a x
  have hc161 : k0_chk161 (k0_pay202 v4) := by intro a x; exact chk_xbuf _ _ h4 (by decide) a x
  have hc162 : k0_chk162 (k0_pay203 v4) := by intro a x; exact chk_xbuf _ _ h4 (by decide) a x
  have hc163 : k0_chk163 (k0_pay205 v4) := by intro a x; exact chk_xbuf _ _ h4 (by decide) a x
  have hc164 : k0_chk164 (k0_pay206 v4) := by intro a x; exact chk_xbuf _ _ h4 (by decide) a x
  have hc165 : k0_chk165 (k0_pay207 v4) := by intro a x; exact chk_xbuf _ _ h4 (by decide) a x
  have hc166 : k0_chk166 (k0_pay208 v4) := by intro a x; exact chk_xbuf _ _ h4 (by decide) a x
  have hc168 : k0_chk168 (k0_pay211 v4) := by intro a x; exact chk_xbuf _ _ h4 (by decide) a x
  have hc169 : k0_chk169 (k0_pay212 v4) := by intro a x; exact chk_xbuf _ _ h4 (by decide) a x
  have hc170 : k0_chk170 (k0_pay213 v4) := by intro a x; exact chk_xbuf _ _ h4 (by decide) a x
  have hc171 : k0_chk171 (k0_pay215 v4) := by intro a x; exact chk_xbuf _ _ h4 (by decide) a x
  have hc172 : k0_chk172 (k0_pay216 v4) := by intro a x; exact chk_xbuf _ _ h4 (by decide) a x
  have hc173 : k0_chk173 (k0_pay217 v4) := by intro a x; exact chk_xbuf _ _ h4 (by decide) a x
  have hc174 : k0_chk174 (k0_pay219 v4 1823#32) := by intro a x; exact chk_xbuf _ _ h4 (by decide) a x
  have hc175 : k0_chk175 (k0_pay221 v4) := by intro a x; exact chk_xbuf _ _ h4 (by decide) a x
  have hc176 : k0_chk176 (k0_pay222 v4) := by intro a x; exact chk_xbuf _ _ h4 (by decide) a x
  have hc177 : k0_chk177 (k0_pay223 v4) := by intro a x; exact chk_xbuf _ _ h4 (by decide) a x
  have hc178 : k0_chk178 (k0_pay224 v4) := by intro a x; exact chk_xbuf _ _ h4 (by decide) a x
  have hc179 : k0_chk179 (k0_pay226 v4) := by intro a x; exact chk_xbuf _ _ h4 (by decide) a x
  have hc181 : k0_chk181 (k0_pay228 v4) := by intro a x; exact chk_xbuf _ _ h4 (by decide) a x
  have hc182 : k0_chk182 (k0_pay229 v4) := by intro a x; exact chk_xbuf _ _ h4 (by decide) a x
  have hc183 : k0_chk183 (k0_pay231 v4) := by intro a x; exact chk_xbuf _ _ h4 (by decide) a x
  have hc184 : k0_chk184 (k0_pay232 v4) := by intro a x; exact chk_xbuf _ _ h4 (by decide) a x
  have hc185 : k0_chk185 (k0_pay233 v4) := by intro a x; exact chk_xbuf _ _ h4 (by decide) a x
  have hc186 : k0_chk186 (k0_pay235 v4) := by intro a x; exact chk_xbuf _ _ h4 (by decide) a x
  have hc187 : k0_chk187 (k0_pay238 v4) := by intro a x; exact chk_xbuf _ _ h4 (by decide) a x
  have hc188 : k0_chk188 (k0_pay239 v4) := by intro a x; exact chk_xbuf _ _ h4 (by decide) a x
  have hc189 : k0_chk189 (k0_pay240 v4) := by intro a x; exact chk_xbuf _ _ h4 (by decide) a x
  have hc190 : k0_chk190 (k0_pay241 v4) := by intro a x; exact chk_xbuf _ _ h4 (by decide) a x
  have hc191 : k0_chk191 (k0_pay243 v4) := by intro a x; exact chk_xbuf _ _ h4 (by decide) a x
  have hc192 : k0_chk192 (k0_pay244 v4) := by intro a x; exact chk_xbuf _ _ h4 (by decide) a x
  have hc193 : k0_chk193 (k0_pay246 v4) := by intro a x; exact chk_xbuf _ _ h4 (by decide) a x
  have hc194 : k0_chk194 (k0_pay247 v4) := by intro a x; exact chk_xbuf _ _ h4 (by decide) a x
  have hc195 : k0_chk195 (k0_pay249 v4) := by intro a x; exact chk_xbuf _ _ h4 (by decide) a x
  have hc196 : k0_chk196 (k0_pay250 v4) := by intro a x; exact chk_xbuf _ _ h4 (by decide) a x
  have hc197 : k0_chk197 (k0_pay251 v4) := by intro a x; exact chk_xbuf _ _ h4 (by decide) a x
  have hc198 : k0_chk198 (k0_pay252 v4) := by intro a x; exact chk_xbuf _ _ h4 (by decide) a x
  have hc214 : k0_chk214 (k0_pay257 v4) := by intro a x; exact chk_xbuf _ _ h4 (by decide) a x
  have hc215 : k0_chk215 (k0_pay258 v4) := by intro a x; exact chk_xbuf _ _ h4 (by decide) a x
  have hc216 : k0_chk216 (k0_pay259 v4) := by intro a x; exact chk_xbuf _ _ h4 (by decide) a x
  have hc217 : k0_chk217 (k0_pay260 v4) := by intro a x; exact chk_xbuf _ _ h4 (by decide) a x
  have hc218 : k0_chk218 (k0_pay262 v4) := by intro a x; exact chk_xbuf _ _ h4 (by decide) a x
  have hc219 : k0_chk219 (k0_pay263 v4) := by intro a x; exact chk_xbuf _ _ h4 (by decide) a x
  have hc220 : k0_chk220 (k0_pay265 v4) := by intro a x; exact chk_xbuf _ _ h4 (by decide) a x
  have hc221 : k0_chk221 (k0_pay266 v4) := by intro a x; exact chk_xbuf _ _ h4 (by decide) a x
  have hc222 : k0_chk222 (k0_pay268 v4) := by intro a x; exact chk_xbuf _ _ h4 (by decide) a x
  have hc223 : k0_chk223 (k0_pay269 v4) := by intro a x; exact chk_xbuf _ _ h4 (by decide) a x
  have hc224 : k0_chk224 (k0_pay270 v4) := by intro a x; exact chk_xbuf _ _ h4 (by decide) a x
  have hc225 : k0_chk225 (k0_pay271 v4) := by intro a x; exact chk_xbuf _ _ h4 (by decide) a x
  have hc226 : k0_chk226 (k0_pay274 v4) := by intro a x; exact chk_xbuf _ _ h4 (by decide) a x
  have hc227 : k0_chk227 (k0_pay275 v4) := by intro a x; exact chk_xbuf _ _ h4 (by decide) a x
  have hc228 : k0_chk228 (k0_pay276 v4) := by intro a x; exact chk_xbuf _ _ h4 (by decide) a x
  have hc229 : k0_chk229 (k0_pay277 v4) := by intro a x; exact chk_xbuf _ _ h4 (by decide) a x
  have hc230 : k0_chk230 (k0_pay279 v4) := by intro a x; exact chk_xbuf _ _ h4 (by decide) a x
  have hc231 : k0_chk231 (k0_pay280 v4) := by intro a x; exact chk_xbuf _ _ h4 (by decide) a x
  have hc232 : k0_chk232 (k0_pay282 v4) := by intro a x; exact chk_xbuf _ _ h4 (by decide) a x
  have hc233 : k0_chk233 (k0_pay283 v4) := by intro a x; exact chk_xbuf _ _ h4 (by decide) a x
  have hc234 : k0_chk234 (k0_pay285 v4) := by intro a x; exact chk_xbuf _ _ h4 (by decide) a x
  have hc235 : k0_chk235 (k0_pay286 v4) := by intro a x; exact chk_xbuf _ _ h4 (by decide) a x
  have hc236 : k0_chk236 (k0_pay287 v4) := by intro a x; exact chk_xbuf _ _ h4 (by decide) a x
  have hc237 : k0_chk237 (k0_pay288 v4) := by intro a x; exact chk_xbuf _ _ h4 (by decide) a x
  have hc239 : k0_chk239 (k0_pay291 v4) := by intro a x; exact chk_xbuf _ _ h4 (by decide) a x
  have hc240 : k0_chk240 (k0_pay292 v4) := by intro a x; exact chk_xbuf _ _ h4 (by decide) a x
  have hc241 : k0_chk241 (k0_pay293 v4) := by intro a x; exact chk_xbuf _ _ h4 (by decide) a x
  have hc242 : k0_chk242 (k0_pay295 v4) := by intro a x; exact chk_xbuf _ _ h4 (by decide) a x
  have hc243 : k0_chk243 (k0_pay296 v4) := by intro a x; exact chk_xbuf _ _ h4 (by decide) a x
  have hc244 : k0_chk244 (k0_pay297 v4) := by intro a x; exact chk_xbuf _ _ h4 (by decide) a x
  have hc246 : k0_chk246 (k0_pay301 v4) := by intro a x; exact chk_xbuf _ _ h4 (by decide) a x
  have hc247 : k0_chk247 (k0_pay302 v4) := by intro a x; exact chk_xbuf _ _ h4 (by decide) a x
  have hc248 : k0_chk248 (k0_pay303 v4) := by intro a x; exact chk_xbuf _ _ h4 (by decide) a x
  have hc249 : k0_chk249 (k0_pay304 v4) := by intro a x; exact chk_xbuf _ _ h4 (by decide) a x
  have hc250 : k0_chk250 (k0_pay306 v4) := by intro a x; exact chk_xbuf _ _ h4 (by decide) a x
  have hc251 : k0_chk251 (k0_pay307 v4) := by intro a x; exact chk_xbuf _ _ h4 (by decide) a x
  have hc252 : k0_chk252 (k0_pay308 v4) := by intro a x; exact chk_xbuf _ _ h4 (by decide) a x
  have hc253 : k0_chk253 (k0_pay309 v4) := by intro a x; exact chk_xbuf _ _ h4 (by decide) a x
  have hc254 : k0_chk254 (k0_pay311 v4) := by intro a x; exact chk_xbuf _ _ h4 (by decide) a x
  have hc255 : k0_chk255 (k0_pay312 v4) := by intro a x; exact chk_xbuf _ _ h4 (by decide) a x
  have hc256 : k0_chk256 (k0_pay313 v4) := by intro a x; exact chk_xbuf _ _ h4 (by decide) a x
  have hc257 : k0_chk257 (k0_pay315 v4) := by intro a x; exact chk_xbuf _ _ h4 (by decide) a x
  have hc258 : k0_chk258 (k0_pay318 v4) := by intro a x; exact chk_xbuf _ _ h4 (by decide) a x
  have hc259 : k0_chk259 (k0_pay319 v4) := by intro a x; exact chk_xbuf _ _ h4 (by decide) a x
  have hc260 : k0_chk260 (k0_pay320 v4) := by intro a x; exact chk_xbuf _ _ h4 (by decide) a x
  have hc261 : k0_chk261 (k0_pay321 v4) := by intro a x; exact chk_xbuf _ _ h4 (by decide) a x
  have hc262 : k0_chk262 (k0_pay323 v4) := by intro a x; exact chk_xbuf _ _ h4 (by decide) a x
  have hc263 : k0_chk263 (k0_pay324 v4) := by intro a x; exact chk_xbuf _ _ h4 (by decide) a x
  have hc264 : k0_chk264 (k0_pay326 v4 2738#32) := by intro a x; exact chk_xbuf _ _ h4 (by decide) a x
  have hc265 : k0_chk265 (k0_pay327 v4) := by intro a x; exact chk_xbuf _ _ h4 (by decide) a x
  have hc266 : k0_chk266 (k0_pay329 v4) := by intro a x; exact chk_xbuf _ _ h4 (by decide) a x
  have hc267 : k0_chk267 (k0_pay330 v4) := by intro a x; exact chk_xbuf _ _ h4 (by decide) a x
  have hc268 : k0_chk268 (k0_pay331 v4) := by intro a x; exact chk_xbuf _ _ h4 (by decide) a x
  have hc269 : k0_chk269 (k0_pay332 v4) := by intro a x; exact chk_xbuf _ _ h4 (by decide) a x
  have hc285 : k0_chk285 (k0_pay338 v4) := by intro a x; exact chk_xbuf _ _ h4 (by decide) a x
  have hc286 : k0_chk286 (k0_pay339 v4) := by intro a x; exact chk_xbuf _ _ h4 (by decide) a x
  have hc287 : k0_chk287 (k0_pay340 v4) := by intro a x; exact chk_xbuf _ _ h4 (by decide) a x
  have hc288 : k0_chk288 (k0_pay341 v4) := by intro a x; exact chk_xbuf _ _ h4 (by decide) a x
  have hc289 : k0_chk289 (k0_pay343 v4) := by intro a x; exact chk_xbuf _ _ h4 (by decide) a x
  have hc290 : k0_chk290 (k0_pay344 v4) := by intro a x; exact chk_xbuf _ _ h4 (by decide) a x
  have hc291 : k0_chk291 (k0_pay346 v4) := by intro a x; exact chk_xbuf _ _ h4 (by decide) a x
  have hc292 : k0_chk292 (k0_pay347 v4) := by intro a x; exact chk_xbuf _ _ h4 (by decide) a x
  have hc293 : k0_chk293 (k0_pay349 v4) := by intro a x; exact chk_xbuf _ _ h4 (by decide) a x
  have hc294 : k0_chk294 (k0_pay350 v4) := by intro a x; exact chk_xbuf _ _ h4 (by decide) a x
  have hc295 : k0_chk295 (k0_pay351 v4) := by intro a x; exact chk_xbuf _ _ h4 (by decide) a x
  have hc296 : k0_chk296 (k0_pay352 v4) := by intro a x; exact chk_xbuf _ _ h4 (by decide) a x
  have hc297 : k0_chk297 (k0_pay355 v4) := by intro a x; exact chk_xbuf _ _ h4 (by decide) a x
  have hc298 : k0_chk298 (k0_pay356 v4) := by intro a x; exact chk_xbuf _ _ h4 (by decide) a x
  have hc299 : k0_chk299 (k0_pay357 v4) := by intro a x; exact chk_xbuf _ _ h4 (by decide) a x
  have hc300 : k0_chk300 (k0_pay358 v4) := by intro a x; exact chk_xbuf _ _ h4 (by decide) a x
  have hc301 : k0_chk301 (k0_pay360 v4) := by intro a x; exact chk_xbuf _ _ h4 (by decide) a x
  have hc302 : k0_chk302 (k0_pay361 v4) := by intro a x; exact chk_xbuf _ _ h4 (by decide) a x
  have hc303 : k0_chk303 (k0_pay363 v4) := by intro a x; exact chk_xbuf _ _ h4 (by decide) a x
  have hc304 : k0_chk304 (k0_pay364 v4) := by intro a x; exact chk_xbuf _ _ h4 (by decide) a x
  have hc305 : k0_chk305 (k0_pay366 v4) := by intro a x; exact chk_xbuf _ _ h4 (by decide) a x
  have hc306 : k0_chk306 (k0_pay367 v4) := by intro a x; exact chk_xbuf _ _ h4 (by decide) a x
  have hc307 : k0_chk307 (k0_pay368 v4) := by intro a x; exact chk_xbuf _ _ h4 (by decide) a x
  have hc308 : k0_chk308 (k0_pay369 v4) := by intro a x; exact chk_xbuf _ _ h4 (by decide) a x
  have hc309 : k0_chk309 (k0_pay371 v4) := by intro a x; exact chk_xbuf _ _ h4 (by decide) a x
  have hc310 : k0_chk310 (k0_pay372 v4) := by intro a x; exact chk_xbuf _ _ h4 (by decide) a x
  have hc311 : k0_chk311 (k0_pay373 v4) := by intro a x; exact chk_xbuf _ _ h4 (by decide) a x
  have hc312 : k0_chk312 (k0_pay374 v4) := by intro a x; exact chk_xbuf _ _ h4 (by decide) a x
  have hc313 : k0_chk313 (k0_pay376 v4) := by intro a x; exact chk_xbuf _ _ h4 (by decide) a x
  have hc314 : k0_chk314 (k0_pay377 v4) := by intro a x; exact chk_xbuf _ _ h4 (by decide) a x
  have hc315 : k0_chk315 (k0_pay378 v4) := by intro a x; exact chk_xbuf _ _ h4 (by decide) a x
  have hc317 : k0_chk317 (k0_pay382 v4) := by intro a x; exact chk_xbuf _ _ h4 (by decide) a x
  have hc318 : k0_chk318 (k0_pay383 v4) := by intro a x; exact chk_xbuf _ _ h4 (by decide) a x
  have hc319 : k0_chk319 (k0_pay384 v4) := by intro a x; exact chk_xbuf _ _ h4 (by decide) a x
  have hc320 : k0_chk320 (k0_pay385 v4) := by intro a x; exact chk_xbuf _ _ h4 (by decide) a x
  have hc321 : k0_chk321 (k0_pay387 v4) := by intro a x; exact chk_xbuf _ _ h4 (by decide) a x
  have hc322 : k0_chk322 (k0_pay388 v4) := by intro a x; exact chk_xbuf _ _ h4 (by decide) a x
  have hc323 : k0_chk323 (k0_pay389 v4) := by intro a x; exact chk_xbuf _ _ h4 (by decide) a x
  have hc324 : k0_chk324 (k0_pay390 v4) := by intro a x; exact chk_xbuf _ _ h4 (by decide) a x
  have hc325 : k0_chk325 (k0_pay392 v4) := by intro a x; exact chk_xbuf _ _ h4 (by decide) a x
  have hc326 : k0_chk326 (k0_pay393 v4) := by intro a x; exact chk_xbuf _ _ h4 (by decide) a x
  have hc327 : k0_chk327 (k0_pay394 v4) := by intro a x; exact chk_xbuf _ _ h4 (by decide) a x
  have hc328 : k0_chk328 (k0_pay395 v4) := by intro a x; exact chk_xbuf _ _ h4 (by decide) a x
  have hc329 : k0_chk329 (k0_pay398 v4) := by intro a x; exact chk_xbuf _ _ h4 (by decide) a x
  have hc330 : k0_chk330 (k0_pay399 v4) := by intro a x; exact chk_xbuf _ _ h4 (by decide) a x
  have hc331 : k0_chk331 (k0_pay400 v4) := by intro a x; exact chk_xbuf _ _ h4 (by decide) a x
  have hc332 : k0_chk332 (k0_pay401 v4) := by intro a x; exact chk_xbuf _ _ h4 (by decide) a x
  have hc333 : k0_chk333 (k0_pay403 v4) := by intro a x; exact chk_xbuf _ _ h4 (by decide) a x
  have hc334 : k0_chk334 (k0_pay404 v4) := by intro a x; exact chk_xbuf _ _ h4 (by decide) a x
  have hc336 : k0_chk336 (k0_pay407 v4) := by intro a x; exact chk_xbuf _ _ h4 (by decide) a x
  have hc337 : k0_chk337 (k0_pay409 v4) := by intro a x; exact chk_xbuf _ _ h4 (by decide) a x
  have hc338 : k0_chk338 (k0_pay410 v4) := by intro a x; exact chk_xbuf _ _ h4 (by decide) a x
  have hc339 : k0_chk339 (k0_pay411 v4) := by intro a x; exact chk_xbuf _ _ h4 (by decide) a x
  have hc340 : k0_chk340 (k0_pay412 v4) := by intro a x; exact chk_xbuf _ _ h4 (by decide) a x
  have hc19 : k0_chk19 (addi v4 k0_pay42) := by intro a x; exact chk_xbuf _ _ h4 (by decide) a x
  have hc90 : k0_chk90 (k0_pay122 v4) := by intro a x; exact chk_xbuf _ _ h4 (by decide) a x
  have hc109 : k0_chk109 (addi v4 k0_pay147) := by intro a x; exact chk_xbuf _ _ h4 (by decide) a x
  have hc167 : k0_chk167 (addi v4 k0_pay210) := by intro a x; exact chk_xbuf _ _ h4 (by decide) a x
  have hc180 : k0_chk180 (k0_pay227 v4) := by intro a x; exact chk_xbuf _ _ h4 (by decide) a x
  have hc238 : k0_chk238 (k0_pay290 v4) := by intro a x; exact chk_xbuf _ _ h4 (by decide) a x
  have hc245 : k0_chk245 (addi v4 k0_pay299) := by intro a x; exact chk_xbuf _ _ h4 (by decide) a x
  have hc316 : k0_chk316 (k0_pay380 v4) := by intro a x; exact chk_xbuf _ _ h4 (by decide) a x
  have hc335 : k0_chk335 (addi v4 k0_pay406) := by intro a x; exact chk_xbuf _ _ h4 (by decide) a x
  rw [k0_part51_eq_skeleton]; unfold k0_part51_skel
  rw [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel
  iintro ⟨#Hmw, Hx, H7, ⟨%f5, H5⟩, ⟨%f6, H6⟩, Ho, Hs1, Hs2, %W', %hW', HO⟩
  -- the copy of the eighty rows and its wait
  sl_exec (disch := assumption)
  have hR : Bin32 (View.readAt (Elt F) arg5.view (LoadRect.whole S4480) (View.write (Elt F) arg5.view f5 (chunk.sl.dma0 d i arg2 t fx) Finset.univ)) := by
    intro j
    rw [View.readAt_apply, View.read_write_univ]
    unfold chunk.sl.dma0
    first | exact hfx _ | (rw [Memref.view_slice]; exact hfx _)
  generalize View.write (Elt F) arg5.view f5 (chunk.sl.dma0 d i arg2 t fx) Finset.univ = F5 at hR ⊢
  unfold SparseCore.vectorLoadIdx
  sl_exec (disch := assumption)
  -- the column loop of row group 0
  try rw [bind_assoc]
  sl_for (invq d i arg6 arg7 g7) $$ [H7 H6]
  case region =>
    intro k _
    refine trip2' d i arg2 harg2 arg3 harg3 arg4 harg4 arg5 harg5 arg6 harg6 arg7 harg7 v32_r0 v1791_r1 v1791_r2 v1791_r3 v1791_r4 v2 v4 v6 _ _ _ _ _ _ _ _ _ _ _ _ _ _ _ g7 ?_ ?_ ?_ ?_ ?_ ?_ ?_ ?_ ?_ ?_ ?_ ?_ ?_ ?_ h6 k
    all_goals below_tac
  · unfold invq
    isplitl [H7]; · iexact H7
    iexists _; iexact H6
  iintro %_ HI
  unfold invq
  icases HI with ⟨H7, %f62, H6⟩
  sl_exec (disch := assumption)
  -- the column loop of row group 1
  try rw [bind_assoc]
  sl_for (invq d i arg6 arg7 g7) $$ [H7 H6]
  case region =>
    intro k _
    refine trip3' d i arg2 harg2 arg3 harg3 arg4 harg4 arg5 harg5 arg6 harg6 arg7 harg7 v32_r0 v1791_r1 v1791_r2 v1791_r3 v1791_r4 v2 v4 v6 _ _ _ _ _ _ _ _ _ _ _ _ _ _ g7 ?_ ?_ ?_ ?_ ?_ ?_ ?_ ?_ ?_ ?_ ?_ ?_ ?_ ?_ h6 k
    all_goals below_tac
  · unfold invq
    isplitl [H7]; · iexact H7
    iexists _; iexact H6
  iintro %_ HI
  unfold invq
  icases HI with ⟨H7, %f63, H6⟩
  sl_exec (disch := assumption)
  -- the column loop of row group 2
  try rw [bind_assoc]
  sl_for (invq d i arg6 arg7 g7) $$ [H7 H6]
  case region =>
    intro k _
    refine trip4' d i arg2 harg2 arg3 harg3 arg4 harg4 arg5 harg5 arg6 harg6 arg7 harg7 v32_r0 v1791_r1 v1791_r2 v1791_r3 v1791_r4 v2 v4 v6 _ _ _ _ _ _ _ _ _ _ _ _ _ _ _ g7 ?_ ?_ ?_ ?_ ?_ ?_ ?_ ?_ ?_ ?_ ?_ ?_ ?_ ?_ h6 k
    all_goals below_tac
  · unfold invq
    isplitl [H7]; · iexact H7
    iexists _; iexact H6
  iintro %_ HI
  unfold invq
  icases HI with ⟨H7, %f64, H6⟩
  sl_exec (disch := assumption)
  -- the column loop of row group 3
  try rw [bind_assoc]
  sl_for (invq d i arg6 arg7 g7) $$ [H7 H6]
  case region =>
    intro k _
    refine trip5' d i arg2 harg2 arg3 harg3 arg4 harg4 arg5 harg5 arg6 harg6 arg7 harg7 v32_r0 v1791_r1 v1791_r2 v1791_r3 v1791_r4 v2 v4 v6 _ _ _ _ _ _ _ _ _ _ _ _ _ _ _ g7 ?_ ?_ ?_ ?_ ?_ ?_ ?_ ?_ ?_ ?_ ?_ ?_ ?_ ?_ h6 k
    all_goals below_tac
  · unfold invq
    isplitl [H7]; · iexact H7
    iexists _; iexact H6
  iintro %_ HI
  unfold invq
  icases HI with ⟨H7, %f65, H6⟩
  sl_exec (disch := assumption)
  -- the column loop of row group 4
  try rw [bind_assoc]
  sl_for (invq d i arg6 arg7 g7) $$ [H7 H6]
  case region =>
    intro k _
    refine trip6' d i arg2 harg2 arg3 harg3 arg4 harg4 arg5 harg5 arg6 harg6 arg7 harg7 v32_r0 v1791_r1 v1791_r2 v1791_r3 v1791_r4 v1 v2 v4 v6 c0 c1 t _ _ _ _ _ _ _ _ _ _ _ _ _ _ g7 ?_ ?_ ?_ ?_ ?_ ?_ ?_ ?_ ?_ ?_ ?_ ?_ ?_ ?_ h6 k
    all_goals below_tac
  · unfold invq
    isplitl [H7]; · iexact H7
    iexists _; iexact H6
  iintro %_ HI
  unfold invq
  icases HI with ⟨H7, %f66, H6⟩
  sl_exec (disch := assumption)
  sl_step
  isplitl [Hx]; · iexact Hx
  isplitl [H7]; · iexact H7
  isplitl [H5]; · iexists _; iexact H5
  isplitl [H6]; · iexists _; iexact H6
  isplitl [Ho]; · iexists _; iexact Ho
  isplitl [Hs1]; · iexact Hs1
  isplitl [Hs2]; · iexact Hs2
  iexists (insert (SemLoc.dma v1791_r2.sem, (default : HIx 1)) (insert (SemLoc.dma v1791_r1.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KB

end
-- ==== Proof.Bits.TileSplit.lean ====
/-
  How the flat result array of the one SparseCore call is divided among a tile's micro-batches.

  The tile with worker number `w = 2 s + c` handles the micro-batches `w, w + 32, …` below fifty: one when `w ≥ 18`, two
  otherwise. In trip `t` of its outer loop it reads the eighty index rows from `4480 (w + 32 t)` of the flattened index
  rows and writes the 10240 result entries from `10240 (w + 32 t)`. The windows written in different trips are
  disjoint and together make up the tile's share of the result array.
-/
import proofs.«203024_g60129542144782_cont_9to1_m_748_22_alg».proof.Proof.Bits.LaunchDefs

-- the trip count is decided at each of the thirty-two grid points
set_option synthInstance.maxSize 4096
set_option Elab.async false

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Coordinates, worker numbers, trip counts -/

/-- The grid coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The worker number of the tile at grid coordinates `i`. -/
def widOf (i : grid0.Coords) : ℕ := 2 * (i 1).val + (i 0).val

theorem widOf_coordsV (c : Fin 2) (s : Fin 16) : widOf (coordsV c s) = wid c s := rfl

theorem widOf_lt (i : grid0.Coords) : widOf i < 32 := by
  have h0 : (i 0).val < 2 := (i 0).isLt
  have h1 : (i 1).val < 16 := (i 1).isLt
  unfold widOf; omega

/-- Every grid point is the coordinates of a tile of a core. -/
theorem eq_coordsV (i : grid0.Coords) : i = coordsV (i 0) (i 1) := by
  funext a
  match a with
  | ⟨0, _⟩ => rfl
  | ⟨1, _⟩ => rfl

/-- The outer loop's trip count at each of the thirty-two tiles. -/
theorem trips_coordsV : ∀ (c : Fin 2) (s : Fin 16), (k0_t1_loop (coordsV c s)).trips = (81 - (2 * s.val + c.val)) / 32 := by
  decide +kernel

/-- The outer loop's trip count: the micro-batches `w, w + 32, …` below fifty. -/
theorem trips_eq (i : grid0.Coords) : (k0_t1_loop i).trips = (81 - widOf i) / 32 := by
  rw [eq_coordsV i]
  exact trips_coordsV (i 0) (i 1)

/-- A trip's micro-batch is below fifty. -/
theorem batch_lt (i : grid0.Coords) (t : Fin (k0_t1_loop i).trips) : widOf i + 32 * t.val < 50 := by
  have h : t.val < (81 - widOf i) / 32 := lt_of_lt_of_eq t.isLt (trips_eq i)
  have := widOf_lt i
  omega

/-! ## The result windows -/

/-- The entries of micro-batch `n` of the flat result array. -/
def batchSet (n : ℕ) : Finset S512000.Idx := Finset.univ.filter fun j => (j 0).val / 10240 = n

theorem mem_batchSet (n : ℕ) (j : S512000.Idx) : j ∈ batchSet n ↔ (j 0).val / 10240 = n := by
  unfold batchSet; rw [Finset.mem_filter]; exact ⟨fun h => h.2, fun h => ⟨Finset.mem_univ _, h⟩⟩

/-- The window of the result array a tile writes in trip `t` of its outer loop. -/
abbrev outSl (i : grid0.Coords) (t : Fin (k0_t1_loop i).trips) : Memref sig .scVector .hbm S10240 .f32 :=
  outM.slice (Rect.unit (s := S512000) (k0_off2 i t) S10240.size (k0_off2_inb i t)) (fun _ => rfl)

/-- The window's offset in closed form. -/
theorem off2_eq (i : grid0.Coords) (t : Fin (k0_t1_loop i).trips) : k0_off2 i t = ![10240 * (widOf i + 32 * t.val)] := by
  rw [k0_off2_eq]
  unfold widOf
  congr 1
  omega

/-- The window's entries: micro-batch `w + 32 t`. -/
theorem set_outSl (i : grid0.Coords) (t : Fin (k0_t1_loop i).trips) :
    (outSl i t).view.set = batchSet (widOf i + 32 * t.val) := by
  show ((View.whole (main_v70_scv : Ref sig .scVector)).slice
    (Rect.unit (s := S512000) (k0_off2 i t) S10240.size (k0_off2_inb i t))).set = _
  rw [View.set_slice]
  refine Finset.map_refl.trans ?_
  ext j
  rw [Rect.mem_set_unit, mem_batchSet, off2_eq]
  constructor
  · intro h
    have := h 0
    have h1 : 10240 * (widOf i + 32 * t.val) ≤ (j 0).val := this.1
    have h2 : (j 0).val < 10240 * (widOf i + 32 * t.val) + 10240 := this.2
    omega
  · intro h a
    match a with
    | ⟨0, _⟩ =>
      show 10240 * (widOf i + 32 * t.val) ≤ (j 0).val ∧ (j 0).val < 10240 * (widOf i + 32 * t.val) + 10240
      omega

/-- Different micro-batches have no entry in common. -/
theorem batchSet_disjoint {n n' : ℕ} (h : n ≠ n') : Disjoint (batchSet n) (batchSet n') := by
  rw [Finset.disjoint_left]
  intro j hj hj'
  rw [mem_batchSet] at hj hj'
  exact h (hj.symm.trans hj')

/-- The windows of a tile's trips are pairwise disjoint. -/
theorem outSl_disjoint (i : grid0.Coords) :
    ∀ t ∈ (Finset.univ : Finset (Fin (k0_t1_loop i).trips)), ∀ t' ∈ (Finset.univ : Finset (Fin (k0_t1_loop i).trips)),
      t ≠ t' → Disjoint (outSl i t).view.set (outSl i t').view.set := by
  intro t _ t' _ h
  rw [set_outSl, set_outSl]
  exact batchSet_disjoint fun e => h (Fin.ext (Nat.eq_of_mul_eq_mul_left (by decide : 0 < 32) (Nat.add_left_cancel e)))

/-- Together they are the tile's share of the result array. -/
theorem outSl_cover (c : Fin 2) (s : Fin 16) :
    (Finset.univ : Finset (Fin (k0_t1_loop (coordsV c s)).trips)).biUnion (fun t => (outSl (coordsV c s) t).view.set)
      = tileSet c s := by
  ext j
  rw [Finset.mem_biUnion]
  unfold tileSet
  rw [Finset.mem_filter]
  have hj : (j 0).val < 512000 := (j 0).isLt
  have hw := widOf_lt (coordsV c s)
  rw [← widOf_coordsV c s]
  constructor
  · rintro ⟨t, -, ht⟩
    rw [set_outSl, mem_batchSet] at ht
    refine ⟨Finset.mem_univ _, ?_⟩
    omega
  · rintro ⟨-, h⟩
    have htr : (j 0).val / 10240 / 32 < (k0_t1_loop (coordsV c s)).trips :=
      lt_of_lt_of_eq (show (j 0).val / 10240 / 32 < (81 - widOf (coordsV c s)) / 32 by omega) (trips_eq _).symm
    refine ⟨⟨(j 0).val / 10240 / 32, htr⟩, Finset.mem_univ _, ?_⟩
    rw [set_outSl, mem_batchSet]
    show (j 0).val / 10240 = widOf (coordsV c s) + 32 * ((j 0).val / 10240 / 32)
    omega

/-! ## The result array's share, trip by trip -/

section Split

variable [FloatOps F] (d : Dev nD) (c : Fin 2) (s : Fin 16)

/-- A tile's share of the result array held at one valuation is its trips' windows held at it. -/
theorem outPts_windows (f : Buf (Elt F) (outLoc d)) :
    (outLoc d ↦[tileSet c s]{fullShare} f : sProp 𝕄)
      = bigSep Finset.univ fun t : Fin (k0_t1_loop (coordsV c s)).trips =>
          (outLoc d ↦[(outSl (coordsV c s) t).view.set]{fullShare} f : sProp 𝕄) := by
  rw [← outSl_cover c s, pointsTo_biUnion Finset.univ (ℓ := outLoc d) _ (outSl_disjoint _)]

/-- SPLIT: a tile's share of the result array, at whatever it holds, gives each trip its window, at whatever it
    holds — stated at the window's own location, which is the result array's. -/
theorem out_split :
    (iprop(∃ f, outLoc d ↦[tileSet c s]{fullShare} f) : sProp 𝕄)
      ⊢ bigSep Finset.univ fun t : Fin (k0_t1_loop (coordsV c s)).trips =>
          iprop(∃ f, (outSl (coordsV c s) t).view.loc (V d (cV (coordsV c s)) (jV (coordsV c s)))
            ↦[(outSl (coordsV c s) t).view.set]{fullShare} f) := by
  refine exists_elim fun f => ?_
  rw [outPts_windows]
  exact bigSep_mono fun t _ => exists_intro (Φ := fun f : Buf (Elt F) (outLoc d) =>
    (outLoc d ↦[(outSl (coordsV c s) t).view.set]{fullShare} f : sProp 𝕄)) f

/-- JOIN: the trips' windows, each at whatever it holds, give back the tile's share of the result array. -/
theorem out_join :
    (bigSep Finset.univ fun t : Fin (k0_t1_loop (coordsV c s)).trips =>
        iprop(∃ f, (outSl (coordsV c s) t).view.loc (V d (cV (coordsV c s)) (jV (coordsV c s)))
          ↦[(outSl (coordsV c s) t).view.set]{fullShare} f))
      ⊢ (iprop(∃ f, outLoc d ↦[tileSet c s]{fullShare} f) : sProp 𝕄) := by
  refine (bigSep_exists_pi Finset.univ (fun (t : Fin (k0_t1_loop (coordsV c s)).trips) (f : Buf (Elt F) (outLoc d)) =>
    (outLoc d ↦[(outSl (coordsV c s) t).view.set]{fullShare} f : sProp 𝕄))).trans ?_
  iintro ⟨%fs, H⟩
  ihave H' := (pointsTo_biUnion_join Finset.univ (fun t => (outSl (coordsV c s) t).view.set) fs
    (Classical.arbitrary _) (outSl_disjoint (coordsV c s))) $$ H
  icases H' with ⟨%g, -, Hg⟩
  rw [outSl_cover]
  iexists g; iexact Hg

end Split

/-! ## The index rows a trip reads -/

section IndexRows

variable [FloatOps F]

/-- The window of the flattened index rows a tile reads in trip `t` of its outer loop. -/
abbrev xsSl (i : grid0.Coords) (t : Fin (k0_t1_loop i).trips) : Memref sig .scVector .hbm S4480 .i32 :=
  xsM.slice (Rect.unit (s := S224000) (k0_off1 i t) S4480.size (k0_off1_inb i t)) (fun _ => rfl)

/-- The window's offset in closed form. -/
theorem off1_eq (i : grid0.Coords) (t : Fin (k0_t1_loop i).trips) : k0_off1 i t = ![4480 * (widOf i + 32 * t.val)] := by
  rw [k0_off1_eq]
  unfold widOf
  congr 1
  omega

/-- Reading the window at position `p` reads the flattened index rows at `4480 (w + 32 t) + p`. -/
theorem read_xsSl (i : grid0.Coords) (t : Fin (k0_t1_loop i).trips) (X : S224000.Idx → Elt F .i32) (p : ℕ) (hp : p < 4480) :
    (xsSl i t).view.read (Elt F) X (ix1 ⟨p, hp⟩)
      = xsM.view.read (Elt F) X (ix1 ⟨4480 * (widOf i + 32 * t.val) + p, by have := batch_lt i t; omega⟩) := by
  show X ((Rect.unit (s := S224000) (k0_off1 i t) S4480.size (k0_off1_inb i t)).emb (ix1 ⟨p, hp⟩)) = X (ix1 ⟨_, _⟩)
  congr 1
  funext a
  match a with
  | ⟨0, _⟩ =>
    refine Fin.ext ?_
    rw [Rect.emb_apply]
    show k0_off1 i t 0 + 1 * p = 4480 * (widOf i + 32 * t.val) + p
    rw [off1_eq]
    show 4480 * (widOf i + 32 * t.val) + 1 * p = _
    omega

/-- With the flattened index rows those of the last 4000 rows of the index matrix `x`, the window at `r * 56 + f` is the
    entry of row `96000 + 80 (w + 32 t) + r`, feature `f`. -/
theorem read_xsSl_xsTerm (i : grid0.Coords) (t : Fin (k0_t1_loop i).trips) (x : IVec S100000x56 32)
    (r : Fin 80) (f : Fin 56) :
    (xsSl i t).view.read (Elt F) (Cert.GroupedTableB.xsTerm x) (ix1 ⟨r.val * 56 + f.val, by omega⟩)
      = x (ix2 ⟨96000 + 80 * (widOf i + 32 * t.val) + r.val, by have := batch_lt i t; omega⟩ f) := by
  have hb := batch_lt i t
  rw [read_xsSl]
  show Cert.GroupedTableB.xsTerm x (ix1 ⟨4480 * (widOf i + 32 * t.val) + (r.val * 56 + f.val), _⟩) = _
  have key := Cert.GroupedTableB.xsTerm_apply x ⟨80 * (widOf i + 32 * t.val) + r.val, by omega⟩ f
  have e : (⟨(80 * (widOf i + 32 * t.val) + r.val) * 56 + f.val, by omega⟩ : Fin 224000)
      = ⟨4480 * (widOf i + 32 * t.val) + (r.val * 56 + f.val), by omega⟩ := Fin.ext (by
    show (80 * (widOf i + 32 * t.val) + r.val) * 56 + f.val = 4480 * (widOf i + 32 * t.val) + (r.val * 56 + f.val)
    omega)
  rw [← e]
  exact key.trans (congrArg (fun n => x (ix2 n f)) (Fin.ext (by
    show 96000 + (80 * (widOf i + 32 * t.val) + r.val) = 96000 + 80 * (widOf i + 32 * t.val) + r.val; omega)))

end IndexRows

end Cert.Proof.KB

end
-- ==== Proof.Bits.TileBody.lean ====
/-
  A tile task whole: it copies the grouped table into its own scratch, then handles its micro-batches in turn (the
  second printed loop has no trip), each by the micro-batch run; what it holds of the result array is exactly the
  places of its micro-batches.
-/
import proofs.«203024_g60129542144782_cont_9to1_m_748_22_alg».proof.Proof.Bits.Chunk
import proofs.«203024_g60129542144782_cont_9to1_m_748_22_alg».proof.Proof.Bits.TileSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

section Tile

variable (d : Dev nD) (L : grid0.Coords)

abbrev s0cell (d : Dev nD) (c : Fin τ.nSC) (s : Fin τ.nSub) : GSem nD τ sig := (V d c s, .dma cc0_scoped0.sem)
abbrev s1cell (d : Dev nD) (c : Fin τ.nSC) (s : Fin τ.nSub) : GSem nD τ sig := (V d c s, .dma cc0_scoped1.sem)
abbrev s2cell (d : Dev nD) (c : Fin τ.nSC) (s : Fin τ.nSub) : GSem nD τ sig := (V d c s, .dma cc0_scoped2.sem)

omit [FloatOps F] in
/-- The three semaphores the task uses are among the tile's own: they are them, at zero, and the rest. -/
theorem ownSems0_V :
    (ownSems0 (V d (cV L) (jV L)) : sProp 𝕄)
      = iprop(semVal (s0cell d (cV L) (jV L)) 0 ∗ semVal (s1cell d (cV L) (jV L)) 0 ∗ semVal (s2cell d (cV L) (jV L)) 0
          ∗ bigSep ((((ownCells (V d (cV L) (jV L))).erase (s0cell d (cV L) (jV L))).erase (s1cell d (cV L) (jV L))).erase (s2cell d (cV L) (jV L)))
              fun g => semVal g 0) := by
  unfold SparseCore.Cfg.ownSems0
  rw [SparseCore.bigSep_erase' ((mem_ownCells (g := s0cell d (cV L) (jV L))).mpr ⟨rfl, by
      show (SemLoc.dma cc0_scoped0.sem : SemLoc sig).isScoped .scVector = true; decide⟩),
    SparseCore.bigSep_erase' (Finset.mem_erase.mpr ⟨by simp [s0cell, s1cell]; decide, (mem_ownCells (g := s1cell d (cV L) (jV L))).mpr ⟨rfl, by
      show (SemLoc.dma cc0_scoped1.sem : SemLoc sig).isScoped .scVector = true; decide⟩⟩),
    SparseCore.bigSep_erase' (Finset.mem_erase.mpr ⟨by simp [s1cell, s2cell]; decide, Finset.mem_erase.mpr ⟨by simp [s0cell, s2cell]; decide,
      (mem_ownCells (g := s2cell d (cV L) (jV L))).mpr ⟨rfl, by show (SemLoc.dma cc0_scoped2.sem : SemLoc sig).isScoped .scVector = true; decide⟩⟩⟩)]

omit [FloatOps F] in
/-- The three scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_xbuf (f : Buf (Elt F) ((V d (cV L) (jV L)).loc cc0_scratch0)) :
    ((xbufM : Memref sig .scVector .vmem S4480 .i32).view.loc (V d (cV L) (jV L)) ↦{fullShare} f : sProp 𝕄) = (V d (cV L) (jV L)).loc cc0_scratch0 ↦{fullShare} f := rfl
omit [FloatOps F] in
theorem pts_obuf (f : Buf (Elt F) ((V d (cV L) (jV L)).loc cc0_scratch1)) :
    ((obufM : Memref sig .scVector .vmem S10240 .f32).view.loc (V d (cV L) (jV L)) ↦{fullShare} f : sProp 𝕄) = (V d (cV L) (jV L)).loc cc0_scratch1 ↦{fullShare} f := rfl
omit [FloatOps F] in
theorem pts_tbuf (f : Buf (Elt F) ((V d (cV L) (jV L)).loc cc0_scratch2)) :
    ((tbufM : Memref sig .scVector .vmem S28672 .f32).view.loc (V d (cV L) (jV L)) ↦{fullShare} f : sProp 𝕄) = (V d (cV L) (jV L)).loc cc0_scratch2 ↦{fullShare} f := rfl

/-- What the loop over a tile's micro-batches keeps. -/
def invT (O : CellTallies nD τ sig (HIx 1)) (W : Waits sig (HIx 1)) (qx : PosShare TreeShare)
    (X : Buf (Elt F) (xsM.view.loc (V d (cV L) (jV L)))) (_ : Nat) (_ : PUnit) : sProp 𝕄 :=
  iprop(Transfers.MayWaits (V d (cV L) (jV L)) (none : HIx 1) O
    ∗ (xsM.view.loc (V d (cV L) (jV L)) ↦{qx} X)
    ∗ (∃ g7, tbufM.view.loc (V d (cV L) (jV L)) ↦{fullShare} g7)
    ∗ (∃ f5, xbufM.view.loc (V d (cV L) (jV L)) ↦{fullShare} f5)
    ∗ (∃ f6, obufM.view.loc (V d (cV L) (jV L)) ↦{fullShare} f6)
    ∗ (bigSep Finset.univ fun t : Fin (k0_t1_loop L).trips => iprop(∃ f, (outSl L t).view.loc (V d (cV L) (jV L)) ↦[(outSl L t).view.set]{fullShare} f))
    ∗ semVal (s1cell d (cV L) (jV L)) 0
    ∗ semVal (s2cell d (cV L) (jV L)) 0
    ∗ ∃ W', ⌜∀ p ∈ W', p ∈ W ∨ p.2 = none⌝ ∗ owes (V d (cV L) (jV L)) O W')

/-- One micro-batch keeps what the loop keeps: its own place in the result array is taken out of the tile's places,
    rewritten, and put back. -/
theorem chunk_step (O : CellTallies nD τ sig (HIx 1)) (W : Waits sig (HIx 1)) (qx : PosShare TreeShare)
    (X : Buf (Elt F) (xsM.view.loc (V d (cV L) (jV L)))) (hX : Bin32 (xsM.view.read (Elt F) X))
    (v1 : BitVec 32) (v2 : IVec S16 32) (t : Fin (k0_t1_loop L).trips) :
    (invT d L O W qx X t.val () : sProp 𝕄)
      ⊢ wp frame (wpE (defs₀ (F := F)) 𝒱₀ (V d (cV L) (jV L)) none) Set.univ
          (k0_t1_body L xsM (Memref.isWhole_whole _) gtM (Memref.isWhole_whole _) outM (Memref.isWhole_whole _) xbufM (Memref.isWhole_whole _) obufM (Memref.isWhole_whole _) tbufM (Memref.isWhole_whole _) cc0_scoped0 cc0_scoped1 cc0_scoped2 cc0_scoped3 cc0_scoped4 v1 v2 t ())
          fun r => invT d L O W qx X (t.val + 1) r := by
  unfold invT k0_t1_body
  iintro ⟨#Hmw, Hx, ⟨%g7, H7⟩, H5, H6, Ho, Hs1, Hs2, HO⟩
  ihave Ho' := (Entails.of_eq (SparseCore.bigSep_erase' (Finset.mem_univ t))) $$ Ho
  icases Ho' with ⟨⟨%fo, Hot⟩, Hor⟩
  rw [wp_bind]
  ihave Hc := (chunk d L xsM (Memref.isWhole_whole _) gtM (Memref.isWhole_whole _) outM (Memref.isWhole_whole _) xbufM (Memref.isWhole_whole _) obufM (Memref.isWhole_whole _) tbufM (Memref.isWhole_whole _) cc0_scoped0 cc0_scoped1 cc0_scoped2 cc0_scoped3 cc0_scoped4 v1 v2 k0_pay1 k0_pay2 0#32 1#32 t O W qx X g7 fo iota56_atMost iota128_atMost hX) $$ [Hx H7 H5 H6 Hot Hs1 Hs2 HO]
  · isplitr; · iexact Hmw
    isplitl [Hx]; · iexact Hx
    isplitl [H7]; · iexact H7
    isplitl [H5]; · iexact H5
    isplitl [H6]; · iexact H6
    isplitl [Hot]; · iexact Hot
    isplitl [Hs1]; · iexact Hs1
    isplitl [Hs2]; · iexact Hs2
    iexact HO
  iapply (wp_wand frame _ _) $$ Hc
  iintro %_ ⟨Hx, H7, H5, H6, Hot, Hs1, Hs2, HO⟩
  sl_step
  isplitr; · iexact Hmw
  isplitl [Hx]; · iexact Hx
  isplitl [H7]; · iexists _; iexact H7
  isplitl [H5]; · iexact H5
  isplitl [H6]; · iexact H6
  isplitl [Hot Hor]
  · iapply (Entails.of_eq (SparseCore.bigSep_erase' (Finset.mem_univ t)).symm)
    isplitl [Hot]; · iexact Hot
    iexact Hor
  isplitl [Hs1]; · iexact Hs1
  isplitl [Hs2]; · iexact Hs2
  iexact HO

set_option maxHeartbeats 4000000 in
set_option maxRecDepth 65536 in
theorem tile_body (hF : (K (F := F)).Facts) (O : CellTallies nD τ sig (HIx 1)) (W : Waits sig (HIx 1)) (hO : ∀ g, O g none = 0)
    (qx qg : PosShare TreeShare) (X : Buf (Elt F) (xsM.view.loc (V d (cV L) (jV L)))) (G : Buf (Elt F) (gtM.view.loc (V d (cV L) (jV L))))
    (hX : Bin32 (xsM.view.read (Elt F) X)) :
    iprop(levAts (K (F := F)).L (K (F := F)).lev ∗ emp
        ∗ ((xsM.view.loc (V d (cV L) (jV L)) ↦{qx} X) ∗ (gtM.view.loc (V d (cV L) (jV L)) ↦{qg} G)
            ∗ bigSep Finset.univ fun t : Fin (k0_t1_loop L).trips => iprop(∃ f, (outSl L t).view.loc (V d (cV L) (jV L)) ↦[(outSl L t).view.set]{fullShare} f))
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__sc_body L xsM (Memref.isWhole_whole _) gtM (Memref.isWhole_whole _) outM (Memref.isWhole_whole _)
            xbufM (Memref.isWhole_whole _) obufM (Memref.isWhole_whole _) tbufM (Memref.isWhole_whole _)
            cc0_scoped0 cc0_scoped1 cc0_scoped2 cc0_scoped3 cc0_scoped4)
          fun _ => iprop(((xsM.view.loc (V d (cV L) (jV L)) ↦{qx} X) ∗ (gtM.view.loc (V d (cV L) (jV L)) ↦{qg} G)
              ∗ bigSep Finset.univ fun t : Fin (k0_t1_loop L).trips => iprop(∃ f, (outSl L t).view.loc (V d (cV L) (jV L)) ↦[(outSl L t).view.set]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hx, Hg, Ho⟩, ⟨⟨%f5, H5⟩, ⟨%f6, H6⟩, ⟨%f7, H7⟩, Hbufs⟩, ⟨Hs0, Hs1, Hs2, Hsems⟩, HO⟩
  ihave Hmw := ((K (F := F)).mayWaits_none (thr := (V d (cV L) (jV L))) hO) $$ Hlv
  ihave H5' := (Entails.of_eq (pts_xbuf (F := F) d L f5).symm) $$ H5
  ihave H6' := (Entails.of_eq (pts_obuf (F := F) d L f6).symm) $$ H6
  ihave H7' := (Entails.of_eq (pts_tbuf (F := F) d L f7).symm) $$ H7
  sl_exec
  sl_for (invT d L O W qx X) $$ [Hmw Hx H7' H5' H6' Ho Hs1 Hs2 HO]
  case region =>
    intro t _
    exact chunk_step d L O W qx X hX _ _ t
  · unfold invT
    isplitl [Hmw]; · iexact Hmw
    isplitl [Hx]; · iexact Hx
    isplitl [H7']; · iexists _; iexact H7'
    isplitl [H5']; · iexists _; iexact H5'
    isplitl [H6']; · iexists _; iexact H6'
    isplitl [Ho]; · iexact Ho
    isplitl [Hs1]; · iexact Hs1
    isplitl [Hs2]; · iexact Hs2
    iexists (insert (SemLoc.dma cc0_scoped0.sem, (default : HIx 1)) W); isplitr
    · ipureintro; intro p hp
      rcases Finset.mem_insert.mp hp with hp | hp
      · exact .inr (by subst hp; rfl)
      · exact .inl hp
    · iexact HO
  iintro %_ HI
  unfold invT
  icases HI with ⟨-, Hx, ⟨%g7, H7⟩, ⟨%f5', H5⟩, ⟨%f6', H6⟩, Ho, Hs1, Hs2, %W', %hW', HO⟩
  unfold tile_body.sl.prog.cont_1
  sl_for0 (Nat.le_zero.mp (k0_t7_abs L).2.1)
  unfold tile_body.sl.prog.cont_2
  sl_step
  isplitl [Hx Hg Ho]
  · isplitl [Hx]; · iexact Hx
    isplitl [Hg]; · iexact Hg
    iexact Ho
  isplitl [H5 H6 H7 Hbufs]
  · isplitl [H5]; · iexists _; iexact H5
    isplitl [H6]; · iexists _; iexact H6
    isplitl [H7]; · iexists _; iexact H7
    iexact Hbufs
  isplitl [Hs0 Hs1 Hs2 Hsems]
  · isplitl [Hs0]; · iexact Hs0
    isplitl [Hs1]; · iexact Hs1
    isplitl [Hs2]; · iexact Hs2
    iexact Hsems
  iexists W'; isplitr
  · ipureintro; exact hW'
  · iexact HO

end Tile

end Cert.Proof.KB

end
-- ==== Proof.Bits.TileObl.lean ====
/-
  The tile tasks' obligation of the launch: every tile's task, from its part of the call (read shares of the two
  inputs, the places of its micro-batches in the result array), runs to its end and hands the same back.
-/
import proofs.«203024_g60129542144782_cont_9to1_m_748_22_alg».proof.Proof.Bits.TileBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ)

theorem defs₀_vector (c : Fin τ.nSC) (s : Fin τ.nSub) :
    defs₀ (F := F) (.scVector c s) 0 ()
      = SparseCore.onTile hcore0 hsub0 (fun c s => cc0__sc_body (coordsV c s)
          xsM (Memref.isWhole_whole _) gtM (Memref.isWhole_whole _) outM (Memref.isWhole_whole _) xbufM (Memref.isWhole_whole _) obufM (Memref.isWhole_whole _) tbufM (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's part of the call, as its task holds it. -/
theorem go_to_task (d : Dev nD) (c : Fin 2) (s : Fin 16) :
    (forTile m d c s : sProp 𝕄)
      ⊢ iprop((xsM.view.loc (V d (cV (coordsV c s)) (jV (coordsV c s))) ↦{qT c s} Xv m d)
          ∗ (gtM.view.loc (V d (cV (coordsV c s)) (jV (coordsV c s))) ↦{qT c s} Gv m d)
          ∗ bigSep Finset.univ fun t : Fin (k0_t1_loop (coordsV c s)).trips =>
              iprop(∃ f, (outSl (coordsV c s) t).view.loc (V d (cV (coordsV c s)) (jV (coordsV c s))) ↦[(outSl (coordsV c s) t).view.set]{fullShare} f)) := by
  unfold forTile
  iintro ⟨Hx, Hg, Ho⟩
  isplitl [Hx]; · iexact Hx
  isplitl [Hg]; · iexact Hg
  iapply (out_split (F := F) d c s); iexact Ho

theorem task_to_td (d : Dev nD) (c : Fin 2) (s : Fin 16) :
    iprop((xsM.view.loc (V d (cV (coordsV c s)) (jV (coordsV c s))) ↦{qT c s} Xv m d)
          ∗ (gtM.view.loc (V d (cV (coordsV c s)) (jV (coordsV c s))) ↦{qT c s} Gv m d)
          ∗ bigSep Finset.univ fun t : Fin (k0_t1_loop (coordsV c s)).trips =>
              iprop(∃ f, (outSl (coordsV c s) t).view.loc (V d (cV (coordsV c s)) (jV (coordsV c s))) ↦[(outSl (coordsV c s) t).view.set]{fullShare} f))
      ⊢ (backTile m (fun _ _ _ => True) d c s : sProp 𝕄) := by
  unfold backTile
  iintro ⟨Hx, Hg, Ho⟩
  isplitl [Hx]; · iexact Hx
  isplitl [Hg]; · iexact Hg
  ihave Ho' := (out_join (F := F) d c s) $$ Ho
  icases Ho' with ⟨%f, Ho⟩
  iexists f
  isplitl [Ho]; · iexact Ho
  ipureintro; exact fun _ _ => trivial

omit [FloatOps F] in
theorem obl_pre {A X A' B C E : sProp 𝕄} (h : A ⊢ A') : iprop(E ∗ X ∗ A ∗ B ∗ C) ⊢ iprop(E ∗ X ∗ A' ∗ B ∗ C) := by
  iintro ⟨HE, HX, HA, HB, HC⟩
  isplitl [HE]; · iexact HE
  isplitl [HX]; · iexact HX
  isplitl [HA]; · iapply h; iexact HA
  isplitl [HB]; · iexact HB
  iexact HC

omit [FloatOps F] in
theorem obl_back {A A' B C E : sProp 𝕄} (h : A ⊢ A') : iprop(A ∗ B ∗ C ∗ E) ⊢ iprop(A' ∗ B ∗ C ∗ E) := by
  iintro ⟨HA, HB, HC, HE⟩
  isplitl [HA]; · iapply h; iexact HA
  isplitl [HB]; · iexact HB
  isplitl [HC]; · iexact HC
  iexact HE

set_option maxRecDepth 65536 in
/-- The obligation at the one call, for the run's frame (nothing claimed of the result's entries). -/
theorem tileObl (hF : (K (F := F)).Facts) (hpre : ∀ d, Bin32 (Xv m d)) :
    (K (F := F)).TileObl (D (F := F)) 𝒱 (P m (fun _ _ _ => True)) v₀ 0 := by
  intro d c i O W hO _ _
  simp only [show (P m (fun _ _ _ => True)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hgo : (P m (fun _ _ _ => True)).go 0 d c i = forTile m d ⟨_, hc.1⟩ ⟨_, hc.2⟩ := rfl
  have htd : (P m (fun _ _ _ => True)).td 0 d c i = backTile m (fun _ _ _ => True) d ⟨_, hc.1⟩ ⟨_, hc.2⟩ := rfl
  rw [hgo, htd]
  exact (obl_pre (C := iprop(scopedSems0 _ ∗ owes _ O W)) (go_to_task m d ⟨_, hc.1⟩ ⟨_, hc.2⟩)).trans
    ((tile_body d (coordsV ⟨_, hc.1⟩ ⟨_, hc.2⟩) hF O W hO (qT ⟨_, hc.1⟩ ⟨_, hc.2⟩) (qT ⟨_, hc.1⟩ ⟨_, hc.2⟩)
      (Xv m d) (Gv m d) (hpre d)).trans (wp_mono frame _ _ fun _ => (obl_back (task_to_td m d ⟨_, hc.1⟩ ⟨_, hc.2⟩)).trans obl_post))

end Cert.Proof.KB

end
-- ==== Proof.PreFacts.lean ====
/-
  What the input-domain predicate gives.

  The predicate is the conjunction of two "for all entries" statements, each computed as a reduction by `and` from the
  constant one: every table entry `v` has `|v| < +∞`, and every entry `w` of the index matrix has `0 ≤ w` and `w ≤ 1` as
  signed words. The predicate being one at its single index therefore gives, entry by entry: every word of the index
  matrix is zero or one (for every float instance: only words are compared), and, at the ideal instance, every table
  entry is a real number (the extended reals' absolute value is `+∞` at both infinities).
-/
import proofs.«203024_g60129542144782_cont_9to1_m_748_22_alg».proof.Pre_input_domain
import proofs.«203024_g60129542144782_cont_9to1_m_748_22_alg».proof.Proof.Gen.Pre_input_domain
import proofs.«203024_g60129542144782_cont_9to1_m_748_22_alg».proof.Proof.Spec
import Idealize.ShloMosaic.Lib.ReduceAll

noncomputable section

namespace Cert.PreFacts

open Idealize.ShloMosaic Idealize.ShloMosaic.ValueIdx Cert.Pre_input_domain

/-- The scalar shape has one index. -/
instance : Subsingleton S_.Idx := ⟨fun a b => funext fun d => d.elim0⟩

/-! ## The index matrix

The predicate asks `0 ≤ w` and `w ≤ 1` of every entry `w`, both as signed comparisons. A 32-bit word whose signed value
lies in `[0, 1]` is the word zero or the word one. -/

/-- A word with `0 ≤ w` and `w ≤ 1`, signed, is the word zero or the word one. -/
theorem word_zero_or_one (w : BitVec 32)
    (h : IntOp.andi (IntOp.cmpi .sge w 0#32) (IntOp.cmpi .sle w 1#32) = 1#1) : w = 0#32 ∨ w = 1#32 := by
  obtain ⟨h0, h1⟩ := IntOp.andi_eq_one.1 h
  rw [IntOp.cmpi_sge] at h0
  rw [IntOp.cmpi_sle] at h1
  have z : (0#32 : BitVec 32).toInt = 0 := by decide
  have o : (1#32 : BitVec 32).toInt = 1 := by decide
  rw [z] at h0
  rw [o] at h1
  have hw : w.toInt = 0 ∨ w.toInt = 1 := by omega
  rcases hw with e | e
  · exact Or.inl (BitVec.eq_of_toInt_eq (e.trans z.symm))
  · exact Or.inr (BitVec.eq_of_toInt_eq (e.trans o.symm))

/-- The predicate all ones: every entry of the index matrix is the word zero or the word one. For every float
    instance: the part of the predicate that speaks of the index matrix compares words only. -/
theorem bin_of_pre {F : FTy → Type} [FloatOps F] [Cert.Pre_input_domain.Facts]
    (x : IVec S100000x56 32) (t : FVec F S56x2x128 .f32)
    (h : Cert.Pre_input_domain.fn (F := F) x t = fun _ => 1#1) : Cert.Spec.Bin x := by
  intro j
  have e := congrFun h ix0
  dsimp only [Cert.Pre_input_domain.fn] at e
  obtain ⟨_, e9⟩ := IntOp.andi_eq_one.1 e
  exact word_zero_or_one _ (Host.reduce_andi_all _ _ _ _ _ e9 j)

/-! ## The tables

The predicate asks `|v| < +∞` of every table entry `v`. On the extended reals `|v| = max v (-v)`; it is `+∞` at both
infinities (the bottom element also stands for a value that is not a number), and below `+∞` exactly at the reals. -/

/-- The word `0x7F800000` denotes `+∞`. -/
theorem inf_word : Ideal.ofBits .f32 0x7F800000#32 = (⊤ : EReal) := by simp [Ideal.ofBits, Ideal.ieee]

/-- An extended real whose absolute value is below `+∞` is a real number. -/
theorem real_of_abs_lt_inf (v : EReal)
    (h : Ideal.cmp .olt (max v (-v)) (Ideal.ofBits .f32 0x7F800000#32) = 1#1) : ∃ r : ℝ, v = (r : EReal) := by
  rw [inf_word] at h
  have ob : ∀ b : Bool, BitVec.ofBool b = 1#1 → b = true := by decide
  have hb : decide (max v (-v) < (⊤ : EReal)) = true := ob _ h
  have h' : max v (-v) < (⊤ : EReal) := of_decide_eq_true hb
  induction v using EReal.rec with
  | bot => simp at h'
  | coe r => exact ⟨r, rfl⟩
  | top => simp at h'

/-- The predicate all ones, at the ideal instance: every table entry is a real number. -/
theorem finite_of_pre [Cert.Pre_input_domain.Facts]
    (x : IVec S100000x56 32) (t : FVec Ideal S56x2x128 .f32)
    (h : Cert.Pre_input_domain.fn (F := Ideal) x t = fun _ => 1#1) : Cert.Spec.Finite t := by
  intro j
  have e := congrFun h ix0
  dsimp only [Cert.Pre_input_domain.fn] at e
  obtain ⟨e3, _⟩ := IntOp.andi_eq_one.1 e
  exact real_of_abs_lt_inf _ (Host.reduce_andi_all _ _ _ _ _ e3 j)

end Cert.PreFacts

end
-- ==== Proof.Bits.FramePre.lean ====
/-
  From the input-domain precondition to the run's frame.

  The precondition makes every entry of the index matrix the word zero or the word one. The lookup call's index
  operand is rows `96000 …` of that matrix laid flat: flat position `j < 224000` is row `96000 + j / 56`, feature
  `j mod 56`, so every entry of the operand is again zero or one, which is what a tile task needs in order to stay
  inside the grouped table. With the tile's obligation so discharged, the assembled run gives the frame: the program
  terminates without fault and its two arguments end unchanged.
-/
import proofs.«203024_g60129542144782_cont_9to1_m_748_22_alg».proof.Proof.Bits.LaunchRun
import proofs.«203024_g60129542144782_cont_9to1_m_748_22_alg».proof.Proof.Bits.TileObl
import proofs.«203024_g60129542144782_cont_9to1_m_748_22_alg».proof.Proof.PreFacts
import proofs.«203024_g60129542144782_cont_9to1_m_748_22_alg».proof.Proof.Gen.Pre_input_domain

noncomputable section

namespace Cert.Proof.KB

open Cert.Kernel Cert.Kernel.Gen

open Idealize.ShloMosaic Idealize.ShloMosaic.ValueIdx
open Idealize.ShloMosaic.SparseCore (S V T)
open Idealize.SL.Sem

variable {F : FTy → Type} [FloatOps F]

/-- Rows `96000 …` of a zero-or-one index matrix, laid flat, are zero-or-one. -/
theorem bin_xsTerm (x : IVec S100000x56 32) (hx : Cert.Spec.Bin x) : Bin32 (Cert.GroupedTableB.xsTerm x) := by
  have key : ∀ (r : Fin 4000) (f : Fin 56),
      Cert.GroupedTableB.xsTerm x (ix1 ⟨r.val * 56 + f.val, by have := r.isLt; have := f.isLt; omega⟩) = 0#32
        ∨ Cert.GroupedTableB.xsTerm x (ix1 ⟨r.val * 56 + f.val, by have := r.isLt; have := f.isLt; omega⟩) = 1#32 :=
    fun r f => by rw [Cert.GroupedTableB.xsTerm_apply]; exact hx _
  intro j
  have hr : (j 0).val / 56 < 4000 := by have : (j 0).val < 224000 := (j 0).isLt; omega
  have hf : (j 0).val % 56 < 56 := Nat.mod_lt _ (by decide)
  have e : j = ix1 ⟨(⟨(j 0).val / 56, hr⟩ : Fin 4000).val * 56 + (⟨(j 0).val % 56, hf⟩ : Fin 56).val,
      by have : (j 0).val < 224000 := (j 0).isLt; show (j 0).val / 56 * 56 + (j 0).val % 56 < 224000; omega⟩ := by
    funext a
    match a with
    | ⟨0, _⟩ => exact Fin.ext (by show (j 0).val = (j 0).val / 56 * 56 + (j 0).val % 56; omega)
  rw [e]
  exact key ⟨(j 0).val / 56, hr⟩ ⟨(j 0).val % 56, hf⟩

/-- The tile's obligation for the run's frame, from the precondition on every device. -/
theorem tile_of_pre [Cert.Pre_input_domain.Facts] (m : (ℓ : Loc nD τ sig) → Buf (Elt F) ℓ)
    (h : ∀ c : Dev nD, Cert.Pre_input_domain.fn (F := F) (m ((c.tc : Thread nD τ).loc main_arg0))
      (m ((c.tc : Thread nD τ).loc main_arg1)) = fun _ => 1#1) :
    (K (F := F)).TileObl (D (F := F)) 𝒱 (P m (fun _ _ _ => True)) v₀ 0 :=
  tileObl m facts fun d => by
    show Bin32 (Cert.GroupedTableB.xsTerm (m (a0Loc d)))
    exact bin_xsTerm _ (Cert.PreFacts.bin_of_pre _ _ (h d))

/-- **The program's frame**: under the precondition it runs (terminates, nothing faulting) and its two argument arrays
    end unchanged. -/
theorem frame_prog : Cert.frame_Kernel := fun m ρ hpre => frame_run m ρ (tile_of_pre m hpre)

end Cert.Proof.KB

end
-- ==== Proof.Setup.lean ====
/-
  The vocabulary of the kernel program's run: the program's table of bodies as the launch of its
  thirty-two tile tasks sees it, the side conditions of that launch, and the names of the arrays
  and scratch buffers a tile task touches. The tile with core coordinate `c` and subcore coordinate `s`
  has worker number `2 s + c`; it handles the micro-batches `w, w + 32, …` below fifty.
-/
import proofs.«203024_g60129542144782_cont_9to1_m_748_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203024_g60129542144782_cont_9to1_m_748_22_alg».proof.Proof.Gen.KernelIdeal
import proofs.«203024_g60129542144782_cont_9to1_m_748_22_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! The ghost state: the launch handshakes' rounds, the rounds of the TensorCore region's staging cells, and the
    counters of the tiles' own copies (each tile only copies between its scratch and the arrays and waits at once). -/
abbrev UH : Type := URounds (GSem nD τ sig) ℕ
abbrev UP : Type := URounds (GSem nD τ sig) Unit
abbrev UU : Type := UH × (UP × Counters)

/-- The tile's core and subcore, from its grid coordinates. -/
abbrev cV (L : grid0.Coords) : Fin τ.nSC := (L 0).castLE hcore0
abbrev jV (L : grid0.Coords) : Fin τ.nSub := (L 1).castLE hsub0

/-- The three arrays of the call as a tile addresses them, and its three scratch buffers. -/
abbrev xsM : Memref sig .scVector .hbm S224000 .i32 := Memref.whole main_v68_scv
abbrev gtM : Memref sig .scVector .hbm S28672 .f32 := Memref.whole main_v69_scv
abbrev outM : Memref sig .scVector .hbm S512000 .f32 := Memref.whole main_v70_scv
abbrev xbufM : Memref sig .scVector .vmem S4480 .i32 := Memref.whole cc0_scratch0
abbrev obufM : Memref sig .scVector .vmem S10240 .f32 := Memref.whole cc0_scratch1
abbrev tbufM : Memref sig .scVector .vmem S28672 .f32 := Memref.whole cc0_scratch2

end Cert.Proof.KI

end
-- ==== Proof.GroupedTable.lean ====
/-
  The two arrays the host part of the program hands to the lookup on the last 4000 rows, as functions of the
  program's arguments, read at an index.

  * the grouped table `[14, 16, 128]`, flattened: entry `(j, c, d)` adds, starting from zero, for `k = 0, 1, 2, 3` the
    table entry of feature `4 j + k`, row "bit `k` of `c`", column `d`. The program builds it from the table reshaped to
    `[14, 4, 2, 128]` by four gathers, the `k`-th through a `[16, 2]` array of start indices whose row `c` is
    `(k, bit k of c)`; the bit is computed on words as `(c >> k) & 1`, followed by "add 2 if negative", which never fires;
  * the rows `96000 …` of the index matrix, flattened.
-/
import proofs.«203024_g60129542144782_cont_9to1_m_748_22_alg».proof.KernelIdeal
import proofs.«203024_g60129542144782_cont_9to1_m_748_22_alg».proof.Proof.Gen.KernelIdeal
import proofs.«203024_g60129542144782_cont_9to1_m_748_22_alg».proof.Proof.LibLookupLaws
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.GroupedTable

open Cert.KernelIdeal Cert.KernelIdeal.Facts₀
open Idealize.ShloMosaic Idealize.ShloMosaic.ValueIdx
open Cert.LookupLaws (bit feat)

variable {F : FTy → Type} [FloatOps F]

/-! ## The terms, operation by operation -/

/-- The table reshaped to `[14, 4, 2, 128]`: feature `4 j + k` at `(j, k)`. -/
def tr (t : FVec F S56x2x128 .f32) : FVec F S14x4x2x128 .f32 :=
  shapeCast S14x4x2x128 t shapeCasts_S56x2x128_S14x4x2x128

/-- The word `w` sixteen times. -/
def splat (w : BitVec 32) : IVec S16 32 := broadcastInDim S16 ![] bcast_S_S16 (constantI S_ 32 w)

/-- `(c >> k) & 1` for `c = 0 … 15`, on words, the shift arithmetic. -/
def masked (kw : BitVec 32) : IVec S16 32 := andi (Host.shrsi (iotaInDim S16 32 0) (splat kw)) (splat 1#32)

/-- The same with two added where it is negative. -/
def bitIdx (kw : BitVec 32) : IVec S16 32 :=
  select (cmpi .slt (masked kw) (splat 0#32)) (addi (masked kw) (splat 2#32)) (masked kw)

/-- The `[16, 2]` start indices of the `k`-th gather: row `c` is `(k, bit k of c)`. -/
def startIdx (kw : BitVec 32) : IVec S16x2 32 :=
  concatenate S16x2 1 [⟨S16x1, broadcastInDim S16x1 ![0] bcast_S16_S16x1_0 (id (splat kw))⟩,
    ⟨S16x1, broadcastInDim S16x1 ![0] bcast_S16_S16x1_0 (bitIdx kw)⟩] concatenates_S16x1_S16x1_S16x2_d1

/-- The `k`-th gather: entry `(j, c, d)` is the reshaped table at `(j, k, bit k of c, d)`. -/
def gath (t : FVec F S56x2x128 .f32) (kw : BitVec 32) : FVec F S14x16x128 .f32 :=
  Host.gather gather_S14x4x2x128_S16x2_S14x16x128_02_12_n_n_12_1_1411128 (tr t) (startIdx kw)

/-- The grouped table `[14, 16, 128]`: zero, plus the four gathers in turn. -/
def gt3 (t : FVec F S56x2x128 .f32) : FVec F S14x16x128 .f32 :=
  addf (addf (addf (addf (broadcastInDim S14x16x128 ![] bcast_S_S14x16x128 (constant S_ .f32 0x00000000#32))
    (gath t 0#32)) (gath t 1#32)) (gath t 2#32)) (gath t 3#32)

/-- The grouped table flattened to `[28672]`: what the lookup on the last rows is handed. -/
def gtTerm (t : FVec F S56x2x128 .f32) : FVec F S28672 .f32 :=
  shapeCast S28672 (gt3 t) shapeCasts_S14x16x128_S28672

/-- Rows `96000 … 99999` of the index matrix flattened to `[224000]`: what the lookup on the last rows is handed. -/
def xsTerm (x : IVec S100000x56 32) : IVec S224000 32 :=
  shapeCast S224000 (extractStridedSlice S4000x56 ![96000, 0] x slices_S100000x56_S4000x56_96000_0)
    shapeCasts_S4000x56_S224000

/-! ## Reading them at an index -/

/-- The index rows read at `r * 56 + f`: row `96000 + r`, feature `f`. -/
theorem xsTerm_apply (x : IVec S100000x56 32) (r : Fin 4000) (f : Fin 56) :
    xsTerm x (ix1 ⟨r.val * 56 + f.val, by omega⟩) = x (ix2 ⟨96000 + r.val, by omega⟩ f) := by
  unfold xsTerm
  rw [shapeCast_apply _ shapeCasts_S4000x56_S224000 _ (ix2 r f) (by
    rw [Shape.rowMajor_val_two, Shape.rowMajor_val_one]; rfl)]
  exact extractStridedSlice_apply _ x slices_S100000x56_S4000x56_96000_0 _ _ (fun a => match a with
    | ⟨0, _⟩ => rfl
    | ⟨1, _⟩ => by show f.val = 0 + f.val; omega)

local notation "GD" => gather_S14x4x2x128_S16x2_S14x16x128_02_12_n_n_12_1_1411128

/-- The gather of the program read at `(j, c, d)`: the operand at `(j, p, q, d)` with `(p, q)` row `c` of the start
    indices, each read as a signed integer and clamped to its axis. -/
theorem gather_apply {α : Type} (x : S14x4x2x128.Idx → α) (idx : IVec S16x2 32) (j : Fin 14) (c : Fin 16) (d : Fin 128) :
    Host.gather GD x idx (ix3 j c d)
      = x (ix4 j ⟨min (idx (ix2 c 0)).toInt.toNat 3, by omega⟩ ⟨min (idx (ix2 c 1)).toInt.toNat 1, by omega⟩ d) := by
  unfold Host.gather
  congr 1
  funext a
  refine Fin.ext ?_
  show (GD).start (ix3 j c d) idx a + (GD).batchCoord (ix3 j c d) a + (GD).offCoord (ix3 j c d) a = _
  rw [GatherDims.batchCoord_eq_zero _ _ _ List.not_mem_nil, Nat.add_zero]
  match a with
  | ⟨0, _⟩ =>
    unfold GatherDims.start GatherDims.offCoord
    rw [dif_neg (show (⟨0, by decide⟩ : Fin 4) ∉ (GD).startIndexMap from by decide),
      dif_pos (show (⟨0, by decide⟩ : Fin 4) ∈ (GD).sKept from by decide), Nat.zero_add]
    rfl
  | ⟨1, _⟩ =>
    rw [GatherDims.offCoord_eq_zero _ _ _ (show (⟨1, by decide⟩ : Fin 4) ∉ (GD).sKept from by decide), Nat.add_zero]
    unfold GatherDims.start
    rw [dif_pos (show (⟨1, by decide⟩ : Fin 4) ∈ (GD).startIndexMap from by decide)]
    have hsi : (GD).siIdx (ix3 j c d) ⟨List.idxOf (⟨1, by decide⟩ : Fin 4) (GD).startIndexMap,
        List.idxOf_lt_length_iff.2 (by decide)⟩ = ix2 c 0 := by
      funext b; refine Fin.ext ?_
      match b with
      | ⟨0, _⟩ => rfl
      | ⟨1, _⟩ => rfl
    rw [hsi]; rfl
  | ⟨2, _⟩ =>
    rw [GatherDims.offCoord_eq_zero _ _ _ (show (⟨2, by decide⟩ : Fin 4) ∉ (GD).sKept from by decide), Nat.add_zero]
    unfold GatherDims.start
    rw [dif_pos (show (⟨2, by decide⟩ : Fin 4) ∈ (GD).startIndexMap from by decide)]
    have hsi : (GD).siIdx (ix3 j c d) ⟨List.idxOf (⟨2, by decide⟩ : Fin 4) (GD).startIndexMap,
        List.idxOf_lt_length_iff.2 (by decide)⟩ = ix2 c 1 := by
      funext b; refine Fin.ext ?_
      match b with
      | ⟨0, _⟩ => rfl
      | ⟨1, _⟩ => rfl
    rw [hsi]; rfl
  | ⟨3, _⟩ =>
    unfold GatherDims.start GatherDims.offCoord
    rw [dif_neg (show (⟨3, by decide⟩ : Fin 4) ∉ (GD).startIndexMap from by decide),
      dif_pos (show (⟨3, by decide⟩ : Fin 4) ∈ (GD).sKept from by decide), Nat.zero_add]
    rfl

/-- Column 0 of the start indices is the constant `k`. -/
theorem startIdx_zero (kw : BitVec 32) (c : Fin 16) : startIdx kw (ix2 c 0) = kw := by
  unfold startIdx
  exact (concatenate_pair_apply_left (t := S16x2) (s₁ := S16x1) (s₂ := S16x1) (1 : Fin 2) _ _
    concatenates_S16x1_S16x1_S16x2_d1 (ix2 c (0 : Fin 2)) rfl (ix2 c (0 : Fin 1))
    (fun b => match b with
      | ⟨0, _⟩ => rfl
      | ⟨1, _⟩ => rfl)).trans rfl

/-- Column 1 of the start indices is the computed bit. -/
theorem startIdx_one (kw : BitVec 32) (c : Fin 16) : startIdx kw (ix2 c 1) = bitIdx kw (ix1 c) := by
  unfold startIdx
  exact (concatenate_pair_apply_right (t := S16x2) (s₁ := S16x1) (s₂ := S16x1) (1 : Fin 2) _ _
    concatenates_S16x1_S16x1_S16x2_d1 (ix2 c (1 : Fin 2)) rfl rfl (ix2 c (0 : Fin 1))
    (fun b => match b with
      | ⟨0, _⟩ => fun _ => rfl
      | ⟨1, _⟩ => fun h => absurd rfl h)
    rfl).trans rfl

/-- The computed bit, for the shift `k < 4`, is bit `k` of `c` as a word. -/
theorem bitIdx_apply (c : Fin 16) (k : Fin 4) :
    bitIdx (BitVec.ofNat 32 k.val) (ix1 c) = BitVec.ofNat 32 (bit k.val c.val).val :=
  Cert.LookupLaws.word_bit c k

/-- A shift amount below four, read signed and clamped to `[0, 3]`, is itself. -/
theorem clamp_shift : ∀ k : Fin 4, min (BitVec.ofNat 32 k.val).toInt.toNat 3 = k.val := by decide

/-- A bit, read signed and clamped to `[0, 1]`, is itself. -/
theorem clamp_bit : ∀ b : Fin 2, min (BitVec.ofNat 32 b.val).toInt.toNat 1 = b.val := by decide

/-- The reshaped table at `(j, k, r, d)` is the table at feature `4 j + k`, row `r`, column `d`. -/
theorem tr_apply (t : FVec F S56x2x128 .f32) (j : Fin 14) (k : Fin 4) (r : Fin 2) (d : Fin 128) :
    tr t (ix4 j k r d) = t (ix3 (feat j k) r d) := by
  unfold tr
  exact shapeCast_apply t shapeCasts_S56x2x128_S14x4x2x128 _ (ix3 (feat j k) r d) (by
    rw [Shape.rowMajor_val_three, Shape.rowMajor_val_four]
    show ((4 * j.val + k.val) * 2 + r.val) * 128 + d.val = ((j.val * 4 + k.val) * 2 + r.val) * 128 + d.val
    omega)

/-- The `k`-th gather at `(j, c, d)`: the table at feature `4 j + k`, row "bit `k` of `c`", column `d`. -/
theorem gath_apply (t : FVec F S56x2x128 .f32) (k : Fin 4) (j : Fin 14) (c : Fin 16) (d : Fin 128) :
    gath t (BitVec.ofNat 32 k.val) (ix3 j c d) = t (ix3 (feat j k) (bit k.val c.val) d) := by
  unfold gath
  rw [gather_apply]
  refine Eq.trans ?_ (tr_apply t j k (bit k.val c.val) d)
  congr 1
  funext a
  refine Fin.ext ?_
  match a with
  | ⟨0, _⟩ => rfl
  | ⟨1, _⟩ =>
    show min (startIdx (BitVec.ofNat 32 k.val) (ix2 c 0)).toInt.toNat 3 = k.val
    rw [startIdx_zero, clamp_shift]
  | ⟨2, _⟩ =>
    show min (startIdx (BitVec.ofNat 32 k.val) (ix2 c 1)).toInt.toNat 1 = (bit k.val c.val).val
    rw [startIdx_one, bitIdx_apply, clamp_bit]
  | ⟨3, _⟩ => rfl

/-- The grouped table `[14, 16, 128]` at `(j, c, d)`, floats read as extended reals: zero, plus for `k = 0, 1, 2, 3` in
    turn the table at feature `4 j + k`, row "bit `k` of `c`", column `d`. -/
theorem gt3_apply (t : FVec Ideal S56x2x128 .f32) (j : Fin 14) (c : Fin 16) (d : Fin 128) :
    gt3 (F := Ideal) t (ix3 j c d)
      = (((0 + t (ix3 (feat j 0) (bit 0 c.val) d)) + t (ix3 (feat j 1) (bit 1 c.val) d))
          + t (ix3 (feat j 2) (bit 2 c.val) d)) + t (ix3 (feat j 3) (bit 3 c.val) d) := by
  unfold gt3
  rw [addf_apply, addf_apply, addf_apply, addf_apply, broadcastInDim_scalar_apply, constant_apply,
    Ideal.ofBits_zero_f32]
  rw [show (0#32 : BitVec 32) = BitVec.ofNat 32 (0 : Fin 4).val from rfl, gath_apply t 0 j c d,
    show (1#32 : BitVec 32) = BitVec.ofNat 32 (1 : Fin 4).val from rfl, gath_apply t 1 j c d,
    show (2#32 : BitVec 32) = BitVec.ofNat 32 (2 : Fin 4).val from rfl, gath_apply t 2 j c d,
    show (3#32 : BitVec 32) = BitVec.ofNat 32 (3 : Fin 4).val from rfl, gath_apply t 3 j c d]
  rfl

/-- THE GROUPED TABLE READ AT AN INDEX: position `j * 2048 + c * 128 + d` of the flattened table is entry `(j, c, d)`. -/
theorem gtTerm_apply (t : FVec Ideal S56x2x128 .f32) (j : Fin 14) (c : Fin 16) (d : Fin 128) :
    gtTerm (F := Ideal) t (ix1 ⟨j.val * 2048 + c.val * 128 + d.val, by omega⟩)
      = (((0 + t (ix3 (feat j 0) (bit 0 c.val) d)) + t (ix3 (feat j 1) (bit 1 c.val) d))
          + t (ix3 (feat j 2) (bit 2 c.val) d)) + t (ix3 (feat j 3) (bit 3 c.val) d) := by
  unfold gtTerm
  rw [shapeCast_apply _ shapeCasts_S14x16x128_S28672 _ (ix3 j c d) (by
    rw [Shape.rowMajor_val_three, Shape.rowMajor_val_one]
    show (j.val * 16 + c.val) * 128 + d.val = j.val * 2048 + c.val * 128 + d.val
    omega)]
  exact gt3_apply t j c d

/-- The same, as the grouped table of the lookup laws over the column `d` of the table. -/
theorem gtTerm_eq_gt (t : FVec Ideal S56x2x128 .f32) (j : Fin 14) (c : Fin 16) (d : Fin 128) :
    gtTerm (F := Ideal) t (ix1 ⟨j.val * 2048 + c.val * 128 + d.val, by omega⟩)
      = Cert.LookupLaws.gt (fun f r => t (ix3 f r d)) j c :=
  gtTerm_apply t j c d

end Cert.GroupedTable

end
-- ==== Proof.LaunchDefs.lean ====
/-
  What the one SparseCore call hands over and takes back. The TensorCore gives the call the flattened last 4000 rows
  of the index matrix and the flattened grouped table to READ, and the flat result array of 512000 entries to WRITE.
  Each of the two cores gets a read share of the two inputs and the result's micro-batches of its own parity; each of
  its sixteen tiles a read share again and the micro-batches of its own worker number `2 s + c` modulo 32
  (micro-batch `m` is the 10240 entries from `10240 m`; there are fifty). Everything comes back the same way, the
  result's entries at whatever the tiles left.
-/
import proofs.«203024_g60129542144782_cont_9to1_m_748_22_alg».proof.Proof.Setup
import proofs.«203024_g60129542144782_cont_9to1_m_748_22_alg».proof.Proof.GroupedTable

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- The handshakes' rounds library: the left factor of the ghost state. -/
abbrev EH : Emb UH (MT nD τ sig (HIx 1) (Elt F) ℕ UU ℕ) := embL

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev xsLoc (d : Dev nD) : Loc nD τ sig := (SparseCore.T d).loc main_v68
abbrev gtLoc (d : Dev nD) : Loc nD τ sig := (SparseCore.T d).loc main_v69
abbrev outLoc (d : Dev nD) : Loc nD τ sig := (SparseCore.T d).loc main_v70

variable [FloatOps F]

/-- The two inputs of the call as the host operations before it leave them: functions of the launch memory. -/
def Xv (d : Dev nD) : Buf (Elt F) (xsLoc d) := Cert.GroupedTable.xsTerm (m (a0Loc d))
def Gv (d : Dev nD) : Buf (Elt F) (gtLoc d) := Cert.GroupedTable.gtTerm (F := F) (m (a1Loc d))

/-- A core's read share of an input, and a tile's. -/
abbrev qC (c : Fin 2) : PosShare TreeShare := Transfers.shareTok fullShare 2 c
abbrev qT (c : Fin 2) (s : Fin 16) : PosShare TreeShare := Transfers.shareTok (qC c) 16 s

/-- The worker number of tile `s` of core `c`. -/
def wid (c : Fin 2) (s : Fin 16) : ℕ := 2 * s.val + c.val

/-- The result entries of a tile's micro-batches, and of a core's. -/
def tileSet (c : Fin 2) (s : Fin 16) : Finset S512000.Idx := Finset.univ.filter fun j => ((j 0).val / 10240) % 32 = wid c s
def coreSet (c : Fin 2) : Finset S512000.Idx := Finset.univ.filter fun j => ((j 0).val / 10240) % 2 = c.val

/-- A core's part of the call, and a tile's. -/
def forCore (d : Dev nD) (c : Fin 2) : sProp 𝕄 :=
  iprop((xsLoc d ↦{qC c} Xv m d) ∗ (gtLoc d ↦{qC c} Gv m d) ∗ ∃ f, outLoc d ↦[coreSet c]{fullShare} f)
def forTile (d : Dev nD) (c : Fin 2) (s : Fin 16) : sProp 𝕄 :=
  iprop((xsLoc d ↦{qT c s} Xv m d) ∗ (gtLoc d ↦{qT c s} Gv m d) ∗ ∃ f, outLoc d ↦[tileSet c s]{fullShare} f)

/-- What is known of the result's entries when they come back: a per-entry fact `Φ d j v` ("entry `j` of device `d`'s
    result holds `v`" is acceptable) — trivial for the run's frame, the specification's value for its result. -/
def OutOK (Φ : Dev nD → S512000.Idx → Elt F .f32 → Prop) (d : Dev nD) (S : Finset S512000.Idx) (f : Buf (Elt F) (outLoc d)) : Prop :=
  ∀ j ∈ S, Φ d j (f j)

def backCore (Φ : Dev nD → S512000.Idx → Elt F .f32 → Prop) (d : Dev nD) (c : Fin 2) : sProp 𝕄 :=
  iprop((xsLoc d ↦{qC c} Xv m d) ∗ (gtLoc d ↦{qC c} Gv m d) ∗ ∃ f, (outLoc d ↦[coreSet c]{fullShare} f) ∗ ⌜OutOK Φ d (coreSet c) f⌝)
def backTile (Φ : Dev nD → S512000.Idx → Elt F .f32 → Prop) (d : Dev nD) (c : Fin 2) (s : Fin 16) : sProp 𝕄 :=
  iprop((xsLoc d ↦{qT c s} Xv m d) ∗ (gtLoc d ↦{qT c s} Gv m d) ∗ ∃ f, (outLoc d ↦[tileSet c s]{fullShare} f) ∗ ⌜OutOK Φ d (tileSet c s) f⌝)

instance backCore_storable (Φ : Dev nD → S512000.Idx → Elt F .f32 → Prop) (d : Dev nD) (c : Fin 2) : BI.Storable (upEmb : UEmb _ 𝕄) (backCore m Φ d c) := by
  unfold backCore; infer_instance
instance backTile_storable (Φ : Dev nD → S512000.Idx → Elt F .f32 → Prop) (d : Dev nD) (c : Fin 2) (s : Fin 16) : BI.Storable (upEmb : UEmb _ 𝕄) (backTile m Φ d c s) := by
  unfold backTile; infer_instance

instance forCore_storable (d : Dev nD) (c : Fin 2) : BI.Storable (upEmb : UEmb _ 𝕄) (forCore m d c) := by
  unfold forCore; infer_instance
instance forTile_storable (d : Dev nD) (c : Fin 2) (s : Fin 16) : BI.Storable (upEmb : UEmb _ 𝕄) (forTile m d c s) := by
  unfold forTile; infer_instance

/-- The call's payloads: out, the parts as above; back, the same with the fact about the result's entries; nothing of a
    kernel's own protocol. -/
def P (Φ : Dev nD → S512000.Idx → Elt F .f32 → Prop) : (K (F := F)).Pay (nD := nD) (Val := Elt F) (Name := ℕ) (U := UU) where
  st := fun q d c => match q with | 0 => forCore m d (Fin.cast nCore_zero c)
  dn := fun q d c => match q with | 0 => backCore m Φ d (Fin.cast nCore_zero c)
  go := fun q d c s => match q with | 0 => forTile m d (Fin.cast nCore_zero c) (Fin.cast nSub_zero s)
  td := fun q d c s => match q with | 0 => backTile m Φ d (Fin.cast nCore_zero c) (Fin.cast nSub_zero s)
  x := fun _ _ => iprop(emp)

instance P_storable (Φ : Dev nD → S512000.Idx → Elt F .f32 → Prop) : (P (F := F) m Φ).IsStorable where
  st q d c := match q with | 0 => (inferInstance : BI.Storable (upEmb : UEmb _ 𝕄) (forCore m d (Fin.cast nCore_zero c)))
  dn q d c := match q with | 0 => (inferInstance : BI.Storable (upEmb : UEmb _ 𝕄) (backCore m Φ d (Fin.cast nCore_zero c)))
  go q d c s := match q with | 0 => (inferInstance : BI.Storable (upEmb : UEmb _ 𝕄) (forTile m d (Fin.cast nCore_zero c) (Fin.cast nSub_zero s)))
  td q d c s := match q with | 0 => (inferInstance : BI.Storable (upEmb : UEmb _ 𝕄) (backTile m Φ d (Fin.cast nCore_zero c) (Fin.cast nSub_zero s)))

end Cert.Proof.KI

end
-- ==== Proof.LaunchSplit.lean ====
/-
  How the call's operands are dealt to the cores' tiles and gathered back.

  Each input array is only read: a core holds a share of it, which is cut into sixteen tile shares and a remainder;
  the remainder waits while the tiles run and the shares rejoin it afterwards. The result array is written: micro-batch
  `b` (the 10240 entries from `10240 b`) belongs to worker `b mod 32`, worker `2 s + c` is tile `s` of core `c`, so a
  core's entries (the micro-batches of its parity) are the disjoint union of its tiles' entries, and the two cores'
  entries are all of the array. Each tile's entries come back at whatever the tile left there.
-/
import proofs.«203024_g60129542144782_cont_9to1_m_748_22_alg».proof.Proof.LaunchDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The tiles of one core

Micro-batch `b` of the result (the 10240 entries from `10240 b`) belongs to worker `b mod 32`, and worker `2 s + c` is
tile `s` of core `c`. So the sixteen tiles of core `c` own pairwise disjoint sets of entries, and together exactly the
micro-batches of parity `c`. -/

theorem mem_tileSet {c : Fin 2} {s : Fin 16} {j : S512000.Idx} :
    j ∈ tileSet c s ↔ ((j 0).val / 10240) % 32 = 2 * s.val + c.val := by
  unfold tileSet wid
  rw [Finset.mem_filter]
  exact ⟨fun h => h.2, fun h => ⟨Finset.mem_univ _, h⟩⟩

theorem mem_coreSet {c : Fin 2} {j : S512000.Idx} : j ∈ coreSet c ↔ ((j 0).val / 10240) % 2 = c.val := by
  unfold coreSet
  rw [Finset.mem_filter]
  exact ⟨fun h => h.2, fun h => ⟨Finset.mem_univ _, h⟩⟩

theorem tiles_disjoint (c : Fin 2) : ∀ s ∈ (Finset.univ : Finset (Fin 16)), ∀ s' ∈ (Finset.univ : Finset (Fin 16)),
    s ≠ s' → Disjoint (tileSet c s) (tileSet c s') := by
  intro s _ s' _ h
  rw [Finset.disjoint_left]
  intro j h1 h2
  rw [mem_tileSet] at h1 h2
  exact h (Fin.ext (by omega))

theorem tiles_cover (c : Fin 2) : (Finset.univ : Finset (Fin 16)).biUnion (tileSet c) = coreSet c := by
  ext j
  rw [Finset.mem_biUnion, mem_coreSet]
  constructor
  · rintro ⟨s, _, hs⟩
    rw [mem_tileSet] at hs
    have := c.isLt; omega
  · intro h
    refine ⟨⟨((j 0).val / 10240 % 32) / 2, by omega⟩, Finset.mem_univ _, ?_⟩
    rw [mem_tileSet]
    show _ = 2 * (((j 0).val / 10240 % 32) / 2) + c.val
    omega

/-- The two cores own disjoint sets of entries, and together all of them. -/
theorem cores_disjoint : ∀ c ∈ (Finset.univ : Finset (Fin 2)), ∀ c' ∈ (Finset.univ : Finset (Fin 2)),
    c ≠ c' → Disjoint (coreSet c) (coreSet c') := by
  intro c _ c' _ h
  rw [Finset.disjoint_left]
  intro j h1 h2
  rw [mem_coreSet] at h1 h2
  exact h (Fin.ext (h1.symm.trans h2))

theorem cores_cover : (Finset.univ : Finset (Fin 2)).biUnion coreSet = (Finset.univ : Finset S512000.Idx) := by
  ext j
  rw [Finset.mem_biUnion]
  refine ⟨fun _ => Finset.mem_univ _, fun _ => ⟨⟨(j 0).val / 10240 % 2, Nat.mod_lt _ (by decide)⟩, Finset.mem_univ _, ?_⟩⟩
  rw [mem_coreSet]

omit m ρ in
/-- A core's entries of the result, held at `f`, are its tiles' entries held at `f`. -/
theorem out_tiles (d : Dev nD) (c : Fin 2) (f : Buf (Elt F) (outLoc d)) :
    (outLoc d ↦[coreSet c]{fullShare} f : sProp 𝕄)
      = bigSep Finset.univ fun s : Fin 16 => outLoc d ↦[tileSet c s]{fullShare} f := by
  rw [← pointsTo_biUnion Finset.univ (ℓ := outLoc d) (tileSet c) (tiles_disjoint c), tiles_cover]; try rfl

omit m ρ in
/-- Pieces of the result over pairwise disjoint sets of entries, each at whatever was left there and each with the
    per-entry fact on its set, are the union of the sets at ONE array, with the fact on the union: the joined array
    agrees with each piece on that piece's set. -/
theorem outPieces_join [∀ e, Nonempty (Elt F e)] (Φ : Dev nD → S512000.Idx → Elt F .f32 → Prop) (d : Dev nD)
    {I : Type} [DecidableEq I] (S : Finset I) (Kt : I → Finset S512000.Idx)
    (hdis : ∀ t ∈ S, ∀ t' ∈ S, t ≠ t' → Disjoint (Kt t) (Kt t')) :
    (bigSep S fun t => iprop(∃ f, (outLoc d ↦[Kt t]{fullShare} f) ∗ ⌜OutOK Φ d (Kt t) f⌝))
      ⊢ (iprop(∃ g, (outLoc d ↦[S.biUnion Kt]{fullShare} g) ∗ ⌜OutOK Φ d (S.biUnion Kt) g⌝) : sProp 𝕄) := by
  refine (bigSep_exists_pi S (fun t (f : Buf (Elt F) (outLoc d)) =>
    iprop((outLoc d ↦[Kt t]{fullShare} f) ∗ ⌜OutOK Φ d (Kt t) f⌝))).trans ?_
  iintro ⟨%fs, H⟩
  have hswap : (bigSep S fun t => (iprop((outLoc d ↦[Kt t]{fullShare} fs t) ∗ ⌜OutOK Φ d (Kt t) (fs t)⌝) : sProp 𝕄))
      ⊢ (bigSep S fun t => (iprop(⌜OutOK Φ d (Kt t) (fs t)⌝ ∗ (outLoc d ↦[Kt t]{fullShare} fs t)) : sProp 𝕄)) :=
    bigSep_mono fun t _ => by
      show (iprop((outLoc d ↦[Kt t]{fullShare} fs t) ∗ ⌜OutOK Φ d (Kt t) (fs t)⌝) : sProp 𝕄)
        ⊢ iprop(⌜OutOK Φ d (Kt t) (fs t)⌝ ∗ (outLoc d ↦[Kt t]{fullShare} fs t))
      iintro ⟨Ha, %hb⟩
      isplitr; · ipureintro; exact hb
      iexact Ha
  ihave H1 := hswap $$ H
  ihave H2 := (bigSep_pure_sep S (fun t => OutOK Φ d (Kt t) (fs t)) (fun t => (outLoc d ↦[Kt t]{fullShare} fs t : sProp 𝕄))) $$ H1
  icases H2 with ⟨%hok, Hp⟩
  ihave H3 := (pointsTo_biUnion_join S Kt fs (Classical.choice inferInstance) hdis) $$ Hp
  icases H3 with ⟨%g, %hg, Hg⟩
  iexists g
  isplitl [Hg]; · iexact Hg
  ipureintro
  intro j hj
  obtain ⟨t, ht, hjt⟩ := Finset.mem_biUnion.mp hj
  rw [hg t ht j hjt]
  exact hok t ht j hjt

omit m ρ in
/-- A core's entries held at `f` give each tile its entries at some array. -/
theorem out_tiles_some (d : Dev nD) (c : Fin 2) (f : Buf (Elt F) (outLoc d)) :
    (outLoc d ↦[coreSet c]{fullShare} f : sProp 𝕄)
      ⊢ bigSep Finset.univ fun s : Fin 16 => iprop(∃ g, outLoc d ↦[tileSet c s]{fullShare} g) := by
  rw [out_tiles]
  exact bigSep_mono fun s _ => exists_intro (Φ := fun g => (outLoc d ↦[tileSet c s]{fullShare} g : sProp 𝕄)) f

omit m ρ in
/-- A family over the call's sixteen tasks per core is one over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- **A core's part of the call splits into its sixteen tiles' parts and comes back from them.** Each input is read
    through a share: the core's share is cut into sixteen tile shares and a remainder, which waits on the way back; the
    core's entries of the result are its tiles' entries, each tile's coming back at whatever it left, the per-entry
    fact with it. -/
theorem vecSplit [∀ e, Nonempty (Elt F e)] (Φ : Dev nD → S512000.Idx → Elt F .f32 → Prop) :
    (K (F := F)).VecSplit' (P m Φ) 0 := by
  intro d c
  show forCore m d (Fin.cast nCore_zero c) ⊢ |={Set.univ}=> iprop(
      (bigSep Finset.univ fun i : Fin ((K (F := F)).nSub 0) => forTile m d (Fin.cast nCore_zero c) (Fin.cast nSub_zero i))
      ∗ ((bigSep Finset.univ fun i : Fin ((K (F := F)).nSub 0) => backTile m Φ d (Fin.cast nCore_zero c) (Fin.cast nSub_zero i))
          -∗ backCore m Φ d (Fin.cast nCore_zero c)))
  generalize Fin.cast nCore_zero c = c'
  rw [bigSep_tasks (F := F) (fun s => forTile m d c' s), bigSep_tasks (F := F) (fun s => backTile m Φ d c' s)]
  unfold forCore forTile backCore backTile
  rw [bigSep_sep', bigSep_sep', bigSep_sep', bigSep_sep']
  iintro ⟨Hx, Hg, %f, Ho⟩
  ihave Hx' := (Transfers.pointsTo_toks_split (ℓ := xsLoc d) (S := Finset.univ) (f := Xv m d) (qC c') 16) $$ Hx
  icases Hx' with ⟨Hxd, Hxs⟩
  ihave Hg' := (Transfers.pointsTo_toks_split (ℓ := gtLoc d) (S := Finset.univ) (f := Gv m d) (qC c') 16) $$ Hg
  icases Hg' with ⟨Hgd, Hgs⟩
  ihave Ho' := (out_tiles_some (F := F) d c' f) $$ Ho
  imodintro
  isplitl [Hxs Hgs Ho']
  · isplitl [Hxs]; · iexact Hxs
    isplitl [Hgs]; · iexact Hgs
    iexact Ho'
  iintro ⟨Hxs, Hgs, Hos⟩
  isplitl [Hxd Hxs]
  · iapply (Transfers.pointsTo_toks_join (ℓ := xsLoc d) (S := Finset.univ) (f := Xv m d) (qC c') 16)
    isplitl [Hxd]; · iexact Hxd
    iexact Hxs
  isplitl [Hgd Hgs]
  · iapply (Transfers.pointsTo_toks_join (ℓ := gtLoc d) (S := Finset.univ) (f := Gv m d) (qC c') 16)
    isplitl [Hgd]; · iexact Hgd
    iexact Hgs
  ihave Hj := (outPieces_join (F := F) Φ d Finset.univ (tileSet c') (tiles_disjoint c')) $$ Hos
  rw [tiles_cover]
  iexact Hj

end Cert.Proof.KI

end
-- ==== Proof.TcBody.lean ====
/-
  The TensorCore kernel's body, once, at a symbolic grid point.

  The body reads the three staged blocks — the index block `x` (16000 rows of 56 words), the transposed tables
  `tt` (2 × 56 × 128) and the output block — and stores into the output block, at row `r` and column `d`,

      (∑ f, float (x r f) * (tt 1 f d - tt 0 f d)) + ∑ f, tt 0 f d.

  This module proves the body's triple over whole staging buffers (any float instance) and the block's value at the
  instance of extended reals.
-/
import proofs.«203024_g60129542144782_cont_9to1_m_748_22_alg».proof.Proof.Gen.KernelIdeal.Launch
import proofs.«203024_g60129542144782_cont_9to1_m_748_22_alg».proof.Proof.Gen.KernelIdeal.Skeleton
import proofs.«203024_g60129542144782_cont_9to1_m_748_22_alg».proof.Proof.Gen.KernelIdeal.Points
import Idealize.ShloMosaic.Lib.Pipeline.FrameBody
import Idealize.ShloMosaic.Lib.SparseCore.Launch
import Idealize.ShloMosaic.Lib.Tactic

set_option maxRecDepth 16384

noncomputable section

namespace Cert.KernelIdeal.Tc

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Name : Type} [DecidableEq Name] {U : Type} [URA U]

local notation "𝕄" => MT nD τ sig (HIx 1) (Elt F) Name U ℕ

/-! ## The body's accesses -/

abbrev rT0 : Rect S2x56x128 := Rect.unit (s := S2x56x128) ![0, 0, 0] S1x56x128.size inb_S2x56x128_S1x56x128_0_0_0
abbrev rT1 : Rect S2x56x128 := Rect.unit (s := S2x56x128) ![1, 0, 0] S1x56x128.size inb_S2x56x128_S1x56x128_1_0_0
abbrev rX : Rect S16000x56 := Rect.unit (s := S16000x56) ![0, 0] S16000x56.size inb_S16000x56_S16000x56_0_0
abbrev rO : Rect S16000x128 := Rect.unit (s := S16000x128) ![0, 0] S16000x128.size inb_S16000x128_S16000x128_0_0

/-! ## What the body leaves in the output block -/

/-- The output block after the body, from the index block `x` and the tables `tt`: its one store, which covers it. -/
def outBlk (x : Vec F S16000x56 .i32) (tt : Vec F S2x56x128 .f32) : Vec F S16000x128 .f32 :=
  View.canon [⟨rO, k1_pay1 (View.ld tt rT0) (View.ld tt rT1) (View.ld x rX)⟩]

theorem coverO (p0 : Vec F S16000x128 .f32) (y : S16000x128.Idx) :
    ∃ pc ∈ ([⟨rO, p0⟩] : List (View.Piece (Elt F) S16000x128 .f32)), y ∈ pc.1.set :=
  View.cover_of_tiled [⟨rO, p0⟩] S16000x128.size (by rfl) y

/-! ## The body's triple -/

set_option maxHeartbeats 1000000 in
/-- The body on whole staging memrefs, the index block at read contents `x`, the tables at `tt`, the output block at
    anything, runs to the continuation holding the two inputs as they were and the output block at `outBlk x tt`. -/
theorem sound_kernel (c : Dev nD) (E : Set Name) (i : grid1.Coords)
    (arg1 : Memref sig .tc .vmem S16000x56 .i32) (harg1 : arg1.IsWhole)
    (arg2 : Memref sig .tc .vmem S2x56x128 .f32) (harg2 : arg2.IsWhole)
    (arg3 : Memref sig .tc .vmem S16000x128 .f32) (harg3 : arg3.IsWhole)
    (x : Vec F S16000x56 .i32) (tt : Vec F S2x56x128 .f32) (K : PUnit → sProp 𝕄) :
    iprop(owns (c : Thread nD τ) arg1 fullShare x ∗ owns (c : Thread nD τ) arg2 fullShare tt ∗ (∃ d, owns (c : Thread nD τ) arg3 fullShare d)
        ∗ (iprop(owns (c : Thread nD τ) arg1 fullShare x ∗ owns (c : Thread nD τ) arg2 fullShare tt
            ∗ owns (c : Thread nD τ) arg3 fullShare (outBlk x tt)) -∗ K ⟨⟩))
      ⊢ wp frame (wpE (defs₀ (F := F)) Variants.none c none) E (cc1__tc_body i arg1 harg1 arg2 harg2 arg3 harg3) K := by
  simp only [cc1__tc_body_eq_skeleton]; unfold cc1__tc_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The windows' blocks and the pipeline's proof data -/

/-- No grid point's transfer is cut: the six blocks of 16000 rows lie inside the 100000 rows. -/
theorem clip0 : ∀ (t : Fin cfg1.N) (a), (cfg1.win 0).clip (cfg1.grid.coords t) a = none :=
  (by decide +kernel : ∀ (t : Fin grid1.N) (a), win1_0.clip (grid1.coords t) a = none)
theorem clip2 : ∀ (t : Fin cfg1.N) (a), (cfg1.win 2).clip (cfg1.grid.coords t) a = none :=
  (by decide +kernel : ∀ (t : Fin grid1.N) (a), win1_2.clip (grid1.coords t) a = none)

section Data

/- The three arrays of the pipeline on core `c` as the region finds them: the index matrix `x`, the transposed
   tables `tt`, the result `f0`. -/
variable (c : Dev nD) (x : Buf (Elt F) ((c.tc : Thread nD τ).loc main_arg0)) (tt : Buf (Elt F) ((c.tc : Thread nD τ).loc main_v71))
  (f0 : Buf (Elt F) ((c.tc : Thread nD τ).loc main_v72))

/-- The index block at point `t` as a whole staging buffer holds it once fetched (the fetch fills all of it): rows
    `16000 t … 16000 t + 15999` of `x`. -/
def xBlk (t : Fin cfg1.N) : S16000x56.Idx → Elt F .i32 :=
  win1_0.fill (grid1.coords t) (fun _ => Classical.arbitrary _) ((win1_0.blk t).view.read (Elt F) x)

/-- The transposed tables as their staging buffer holds them: the one block, the whole array. -/
def tBlk (t : Fin cfg1.N) : S2x56x128.Idx → Elt F .f32 := (win1_1.blk t).view.read (Elt F) tt

variable (O : CellTallies nD τ sig (HIx 1)) (B : Set (SemLoc sig × HIx 1))

/-- The proof data of the pipeline on core `c`: the arrays as the region finds them; after the body at point
    `t` the two inputs' buffers at their blocks and the output's at the body's value of them; no invariant; the
    core owing the constant `O` throughout, its recorded pairs within `B`; full shares. -/
def dats : Dat τ (Elt F) (HIx 1) Name U ℕ cfg1 c where
  A w := match w with
    | ⟨0, _⟩ => x
    | ⟨1, _⟩ => tt
    | ⟨2, _⟩ => f0
  after w t := match w with
    | ⟨0, _⟩ => xBlk c x t
    | ⟨1, _⟩ => tBlk c tt t
    | ⟨2, _⟩ => outBlk (xBlk c x t) (tBlk c tt t)
  Φ _ := iprop(emp)
  q _ := fullShare
  owed _ := O
  recorded _ := B

theorem A_0 : (dats (Name := Name) (U := U) c x tt f0 O B).A 0 = x := by dsimp only [dats]
theorem A_1 : (dats (Name := Name) (U := U) c x tt f0 O B).A 1 = tt := by dsimp only [dats]
theorem A_2 : (dats (Name := Name) (U := U) c x tt f0 O B).A 2 = f0 := by dsimp only [dats]
theorem after_0 (t : Fin cfg1.N) : (dats (Name := Name) (U := U) c x tt f0 O B).after 0 t = xBlk c x t := by dsimp only [dats]
theorem after_1 (t : Fin cfg1.N) : (dats (Name := Name) (U := U) c x tt f0 O B).after 1 t = tBlk c tt t := by dsimp only [dats]
theorem after_2 (t : Fin cfg1.N) : (dats (Name := Name) (U := U) c x tt f0 O B).after 2 t = outBlk (xBlk c x t) (tBlk c tt t) := by dsimp only [dats]

/-- The index block is fetched at every point, and the fetch fills the whole buffer. -/
theorem before_0 (t : Fin cfg1.N) (d) : (dats (Name := Name) (U := U) c x tt f0 O B).before 0 t d = xBlk c x t := by
  unfold Dat.before; rw [if_pos (fetch1_0 t)]
  exact (dats (Name := Name) (U := U) c x tt f0 O B).fetched_of_clip_none 0 t (clip0 t) d _

/-- The tables' buffer holds the tables at every point, fetched there (the first) or not. -/
theorem before_1 (t : Fin cfg1.N) (d) : (dats (Name := Name) (U := U) c x tt f0 O B).before 1 t d = tBlk c tt t :=
  ((dats (Name := Name) (U := U) c x tt f0 O B).before_in_eq_fetched 1 rfl (fun _ => rfl) (fun _ _ _ => rfl)
    (fun t => by rw [after_1]; rfl) t d).trans rfl

/-! ## The body obligation, at a generic point -/

/-- What the body is called with at point `t` (the windows one by one), -/
def bodyPre (t : Fin cfg1.N) : sProp 𝕄 :=
  iprop((dats (Name := Name) (U := U) c x tt f0 O B).Φ t.castSucc ∗ (dats (Name := Name) (U := U) c x tt f0 O B).owesAt none t.castSucc
    ∗ (∃ d, owns (c : Thread nD τ) (st1_0 t) fullShare ((dats (Name := Name) (U := U) c x tt f0 O B).before 0 t d))
    ∗ (∃ d, owns (c : Thread nD τ) (st1_1 t) fullShare ((dats (Name := Name) (U := U) c x tt f0 O B).before 1 t d))
    ∗ (∃ d, owns (c : Thread nD τ) (st1_2 t) fullShare ((dats (Name := Name) (U := U) c x tt f0 O B).before 2 t d)))

/-- and what it returns. -/
def bodyPost (t : Fin cfg1.N) : sProp 𝕄 :=
  iprop((dats (Name := Name) (U := U) c x tt f0 O B).Φ t.succ ∗ (dats (Name := Name) (U := U) c x tt f0 O B).owesAt none t.succ
    ∗ owns (c : Thread nD τ) (st1_0 t) fullShare ((dats (Name := Name) (U := U) c x tt f0 O B).after 0 t)
    ∗ owns (c : Thread nD τ) (st1_1 t) fullShare ((dats (Name := Name) (U := U) c x tt f0 O B).after 1 t)
    ∗ owns (c : Thread nD τ) (st1_2 t) fullShare ((dats (Name := Name) (U := U) c x tt f0 O B).after 2 t))

/-- The body at any point: the inputs' buffers hold their blocks, so the kernel's triple applies; the invariant and the
    core's `owes` pass through unread. -/
theorem sound_body (t : Fin cfg1.N) :
    bodyPre (Name := Name) (U := U) c x tt f0 O B t
      ⊢ wp frame (wpE (defs₀ (F := F)) Variants.none c none) Set.univ (bodyAt1 t) (fun _ => bodyPost (Name := Name) (U := U) c x tt f0 O B t) := by
  unfold bodyPre bodyPost bodyAt1
  simp only [before_0, before_1]
  rw [show (dats (Name := Name) (U := U) c x tt f0 O B).Φ t.succ = (dats (Name := Name) (U := U) c x tt f0 O B).Φ t.castSucc from rfl,
    show (dats (Name := Name) (U := U) c x tt f0 O B).owesAt none t.succ = (dats (Name := Name) (U := U) c x tt f0 O B).owesAt none t.castSucc from rfl,
    after_0, after_1, after_2]
  iintro ⟨HΦ, Ho, ⟨%d0, H0⟩, ⟨%d1, H1⟩, ⟨%d2, H2⟩⟩
  iapply (sound_kernel c Set.univ (grid1.coords t) _ _ _ _ _ _ (xBlk c x t) (tBlk c tt t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation : BodyObligation (dats (Name := Name) (U := U) c x tt f0 O B) (defs₀ (F := F)) Variants.none none Set.univ := fun t => by
  rw [bigSep_W1, bigSep_W1]
  exact sound_body c x tt f0 O B t

end Data

end Cert.KernelIdeal.Tc

end
-- ==== Proof.TcRegion.lean ====
/-
  The TensorCore pallas_call of the kernel program as one step of @main on the TensorCore.

  The region runs the six-point pipeline over the index matrix `x` (blocks of 16000 rows), the transposed tables `tt`
  (one block) and the result (blocks of 16000 rows): it leaves `x` and `tt` as they were and the result's rows below
  96000 at the body's value of their blocks; its rows from 96000 on, which no block holds, keep their contents.
-/
import proofs.«203024_g60129542144782_cont_9to1_m_748_22_alg».proof.Proof.TcBody
import proofs.«203024_g60129542144782_cont_9to1_m_748_22_alg».proof.Proof.Setup
import Idealize.ShloMosaic.Lib.Pipeline.Regions

set_option maxRecDepth 16384

noncomputable section

namespace Cert.KernelIdeal.Tc

open Cert.KernelIdeal Cert.KernelIdeal.Gen Cert.Proof.KI

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg owesWithin)

variable {F : FTy → Type} [FloatOps F]

local notation "𝕄" => MT nD τ sig (HIx 1) (Elt F) ℕ UU ℕ

/-- The rounds of the region's staging cells inside the certificate's ghost state: the middle factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-- The pipeline's configuration as the library's region rule takes it: no prefetched table. -/
abbrev adm : (p : Fin 1) → (pcfgs (F := F) p).Adm := fun p => (cfgs p).toPCfg_adm

section Region

/- Per core: the three arrays as the region finds them, the tallies the core owes throughout (none at a kernel's own
   index) and a bound on its recorded pairs. -/
variable (x : (c : Dev nD) → Buf (Elt F) ((c.tc : Thread nD τ).loc main_arg0))
  (tt : (c : Dev nD) → Buf (Elt F) ((c.tc : Thread nD τ).loc main_v71))
  (f0 : (c : Dev nD) → Buf (Elt F) ((c.tc : Thread nD τ).loc main_v72))
  (O : Dev nD → CellTallies nD τ sig (HIx 1)) (B : Dev nD → Set (SemLoc sig × HIx 1))

/-- The proof data of the one pipeline, per core. -/
abbrev pdats : (p : Fin 1) → (c : Dev nD) → Dat τ (Elt F) (HIx 1) ℕ UU ℕ (Pipeline.pin (pcfgs (F := F)) adm p) c :=
  fun _ c => dats c (x c) (tt c) (f0 c) (O c) (B c)

/-- What the TensorCore holds of the region's arrays and debts when it enters it, -/
def pre (c : Dev nD) : sProp 𝕄 :=
  iprop((((c.tc : Thread nD τ).loc main_arg0) ↦{fullShare} x c) ∗ (((c.tc : Thread nD τ).loc main_v71) ↦{fullShare} tt c)
    ∗ (((c.tc : Thread nD τ).loc main_v72) ↦{fullShare} f0 c) ∗ owesWithin c (O c) (B c))

/-- and when it leaves it: each array after the pipeline's write-backs, the core owing what it owed, its recorded
    pairs now also the staging cells' at a kernel's own index. -/
def post (c : Dev nD) : sProp 𝕄 :=
  iprop((((c.tc : Thread nD τ).loc main_arg0) ↦{fullShare} (pdats x tt f0 O B 0 c).arrAt 0 cfg1.N)
    ∗ (((c.tc : Thread nD τ).loc main_v71) ↦{fullShare} (pdats x tt f0 O B 0 c).arrAt 1 cfg1.N)
    ∗ (((c.tc : Thread nD τ).loc main_v72) ↦{fullShare} (pdats x tt f0 O B 0 c).arrAt 2 cfg1.N)
    ∗ owesWithin c (O c) (B c ∪ cfg1.waitPairs none))

/-- No table is prefetched: nothing is held of any. -/
theorem prefHeld_none (c : Dev nD) (q) (Vp) :
    (Pipeline.prefHeld (Val := Elt F) (pcfgs (F := F) 0).pre c q Vp : sProp 𝕄) = BI.emp := by
  unfold Pipeline.prefHeld
  rw [Finset.univ_eq_empty, BI.bigSep_empty]

/-- The pipeline's three arrays, whole and at the full share, one by one. -/
theorem arrays3 (c : Dev nD) (G : (w : Fin cfg1.W) → Buf (Elt F) ((cfg1.win w).arr.view.loc (c.tc : Thread nD τ))) :
    ((pdats x tt f0 O B 0 c).arrays G : sProp 𝕄)
      = iprop((((c.tc : Thread nD τ).loc main_arg0) ↦{fullShare} G 0) ∗ (((c.tc : Thread nD τ).loc main_v71) ↦{fullShare} G 1)
          ∗ (((c.tc : Thread nD τ).loc main_v72) ↦{fullShare} G 2)) := by
  rw [Pipeline.arrays_eq (Pipeline.pin (pcfgs (F := F)) adm) (pdats x tt f0 O B) 0 c arr_whole1
    (fun w => (pdats x tt f0 O B 0 c).share_full (fun _ => rfl) w) G, bigSep_W1]

variable (L : GSem nD τ sig → Finset (HIx 1)) (lv : GSem nD τ sig → HIx 1 → ℕ)

/-- The region as the library's rule takes it: the generated layout, no semaphore of the kernel's own, the body
    obligation, the wait evidence of the five staging cells, and the four entailments around `pre` / `post`. -/
def region (hwait : ∀ (c : Dev nD) (sm : SemLoc sig), (levAts L lv : sProp 𝕄) ⊢ MayWait (c.tc : Thread nD τ) sm none (O c)) :
    RegionSeg (pcfgs (F := F)) adm (pdats x tt f0 O B) none (defs₀ (F := F)) Variants.none L lv 0 where
  win := winFacts1.to₀
  block_pos := block_pos1
  stage_whole := stage_whole1
  K := PEmpty
  osem := fun k => k.elim
  ho := Pipeline.OwnSemFacts.none _
  hbody := fun c => (body_obligation c (x c) (tt c) (f0 c) (O c) (B c)).loose
  hwaits := fun c => Pipeline.cellsWaits_intro (Pipeline.pin (pcfgs (F := F)) adm) (pdats x tt f0 O B) none 0 c
    (fun w s t => hwait c _)
  pre := pre x tt f0 O B
  post := post x tt f0 O B
  X := fun _ => iprop(emp)
  Y := fun _ => iprop(emp)
  Z := fun _ => iprop(emp)
  hentry := fun c => by
    rw [arrays3, prefHeld_none]
    unfold pre
    iintro ⟨⟨H0, H1, H2, Ho⟩, -, -⟩
    imodintro
    isplitl [H0 H1 H2]
    · isplitl [H0]; · iexact H0
      isplitl [H1]; · iexact H1
      iexact H2
    isplitr; · iempintro
    isplitl [Ho]
    · iapply (Pipeline.owesWithin_mono c (O c) (Set.subset_union_left)); iexact Ho
    isplitr <;> iempintro
  hin := fun c => by
    iintro -; iempintro
  hout := fun c => by
    rw [scopedRest1_eq, Pipeline.ownSems0_none]
    iintro -
    isplitr; · iempintro
    isplitr <;> iempintro
  hexit := fun c => by
    rw [arrays3]
    unfold post
    iintro ⟨⟨H0, H1, H2⟩, Ho, -, -⟩
    imodintro
    isplitl [H0]; · iexact H0
    isplitl [H1]; · iexact H1
    isplitl [H2]; · iexact H2
    iexact Ho

set_option maxHeartbeats 400000 in
/-- **The region's step inside @main.** On device `d`'s TensorCore, under the program's whole table of bodies: from the
    region boundary, the three arrays whole (`pre`), the level facts, and the ghost state and duty tokens of the
    pipeline's five staging cells, the pallas_call's line runs to the boundary and the arrays as the pipeline leaves
    them (`post`). -/
theorem wp_region [∀ e, Nonempty (Elt F e)]
    (hwait : ∀ (c : Dev nD) (sm : SemLoc sig), (levAts L lv : sProp 𝕄) ⊢ MayWait (c.tc : Thread nD τ) sm none (O c))
    (d : Dev nD) (Ψ : PUnit → sProp 𝕄) :
    iprop((iprop(boundary (d.tc : Thread nD τ) ∗ post x tt f0 O B d) -∗ Ψ ⟨⟩)
        ∗ boundary (d.tc : Thread nD τ) ∗ pre x tt f0 O B d ∗ levAts L lv
        ∗ Pipeline.cellsGhost cfgs EP 0 d ∗ Pipeline.toksInit cfgs EP 0 d)
      ⊢ wp frame (wpE ((K (F := F)).defs (D (F := F))) 𝒱 (T d) none) Set.univ
          (Prog.lift (.customCall (SparseCore.inner (Pipeline.entry 0)) ())) Ψ := by
  have hwp := (region x tt f0 O B L lv hwait).wp (pcfgs (F := F)) adm (pdats x tt f0 O B) none cellOf_inj EP (defs₀ (F := F)) Variants.none L lv
    d none (fun u h => nomatch h) (fun _ => Prog.ret PUnit.unit) Ψ
  have hl := (K (F := F)).wp_liftProg (D (F := F)) 𝒱 (T d) Set.univ none
    (Prog.op (.customCall (Pipeline.entry 0) ()) fun _ => Prog.ret PUnit.unit) Ψ
  -- the two rules in this module's spelling: the lifted one-line program is the printed line, the library's
  -- configuration family is the printed one
  have hl' : wp frame (wpE (D (F := F)) 𝒱 (T d) none) Set.univ (Prog.op (.customCall (Pipeline.entry 0) ()) fun _ => Prog.ret PUnit.unit) Ψ
      ⊢ wp frame (wpE ((K (F := F)).defs (D (F := F))) 𝒱 (T d) none) Set.univ
          (Prog.lift (.customCall (SparseCore.inner (Pipeline.entry 0)) ())) Ψ := hl
  have hwp' : iprop((iprop(boundary (d.tc : Thread nD τ) ∗ post x tt f0 O B d)
            -∗ wp frame (wpE (D (F := F)) 𝒱 (T d) none) Set.univ (Prog.ret PUnit.unit) Ψ)
        ∗ boundary (d.tc : Thread nD τ) ∗ pre x tt f0 O B d ∗ levAts L lv
        ∗ Pipeline.cellsGhost cfgs EP 0 d ∗ Pipeline.toksInit cfgs EP 0 d)
      ⊢ wp frame (wpE (D (F := F)) 𝒱 (T d) none) Set.univ (Prog.op (.customCall (Pipeline.entry 0) ()) fun _ => Prog.ret PUnit.unit) Ψ := hwp
  refine BI.Entails.trans (?_ : _ ⊢ iprop((iprop(boundary (d.tc : Thread nD τ) ∗ post x tt f0 O B d)
            -∗ wp frame (wpE (D (F := F)) 𝒱 (T d) none) Set.univ (Prog.ret PUnit.unit) Ψ)
        ∗ boundary (d.tc : Thread nD τ) ∗ pre x tt f0 O B d ∗ levAts L lv
        ∗ Pipeline.cellsGhost cfgs EP 0 d ∗ Pipeline.toksInit cfgs EP 0 d)) (hwp'.trans hl')
  iintro ⟨Hk, Hb, Hpre, Hla, Hg, Ht⟩
  isplitl [Hk]
  · iintro H
    rw [wp_ret]; imodintro
    iapply Hk; iexact H
  isplitl [Hb]; · iexact Hb
  isplitl [Hpre]; · iexact Hpre
  isplitl [Hla]; · iexact Hla
  isplitl [Hg]; · iexact Hg
  iexact Ht

set_option maxHeartbeats 400000 in
/-- The same with the rest of @main after the line. -/
theorem wp_region_bind [∀ e, Nonempty (Elt F e)]
    (hwait : ∀ (c : Dev nD) (sm : SemLoc sig), (levAts L lv : sProp 𝕄) ⊢ MayWait (c.tc : Thread nD τ) sm none (O c))
    (d : Dev nD) {α : Type} (k : PUnit → Prog (TpuEff nD τ sig (Elt F) (SparseCore.Sig (ΛP (F := F)) 1) .tc) α) (Φ : α → sProp 𝕄) :
    iprop((iprop(boundary (d.tc : Thread nD τ) ∗ post x tt f0 O B d)
            -∗ wp frame (wpE ((K (F := F)).defs (D (F := F))) 𝒱 (T d) none) Set.univ (k ⟨⟩) Φ)
        ∗ boundary (d.tc : Thread nD τ) ∗ pre x tt f0 O B d ∗ levAts L lv
        ∗ Pipeline.cellsGhost cfgs EP 0 d ∗ Pipeline.toksInit cfgs EP 0 d)
      ⊢ wp frame (wpE ((K (F := F)).defs (D (F := F))) 𝒱 (T d) none) Set.univ
          (Prog.lift (.customCall (SparseCore.inner (Pipeline.entry 0)) ()) >>= k) Φ := by
  rw [wp_bind]
  exact wp_region x tt f0 O B L lv hwait d
    (fun a => wp frame (wpE ((K (F := F)).defs (D (F := F))) 𝒱 (T d) none) Set.univ (k a) Φ)

end Region

end Cert.KernelIdeal.Tc

end
-- ==== Proof.TcFund.lean ====
/-
  The launch element's share for the TensorCore region: the rounds of the pipeline's five staging cells, funded once
  for every device — each cell's launch state, its owner at round 0, and one duty token per transfer the pipeline issues.
-/
import proofs.«203024_g60129542144782_cont_9to1_m_748_22_alg».proof.Proof.TcRegion

set_option maxRecDepth 16384

noncomputable section

namespace Cert.KernelIdeal.Tc

open Cert.KernelIdeal Cert.KernelIdeal.Gen Cert.Proof.KI

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg owesWithin)

variable {F : FTy → Type} [FloatOps F]

local notation "𝕄" => MT nD τ sig (HIx 1) (Elt F) ℕ UU ℕ

/-- The staging cells' rounds at launch: the cells and the tokens of every transfer the pipeline issues. -/
def uP : UP := initOf (Pipeline.cells (nD := nD) (τ := τ) cfgs cellOf_inj) (Pipeline.launchToks (nD := nD) (τ := τ) cfgs cellOf_inj)

/-- What the launch element leaves each device for the region. -/
def Gtc0 (d : Dev nD) : sProp 𝕄 := iprop(Pipeline.cellsGhost cfgs EP 0 d ∗ Pipeline.toksInit cfgs EP 0 d)

/-- The launch element — the handshakes' rounds `a`, the staging cells' rounds, the counters `cnt` — splits into its
    three factors, and the staging cells' rounds fund every device's share for the region. -/
theorem hfund (a : UH) (cnt : Counters) :
    (ownU ((a, (uP, cnt)) : UU) : sProp 𝕄)
      ⊢ |={Set.univ}=> iprop(BI.own ((embL : Emb UH (MT nD τ sig (HIx 1) (Elt F) ℕ UU ℕ)) a)
          ∗ BI.own (((Emb.inr : Emb Counters (UP × Counters)).trans (embR : Emb (UP × Counters) (MT nD τ sig (HIx 1) (Elt F) ℕ UU ℕ))) cnt)
          ∗ bigSep Finset.univ fun d : Dev nD => Gtc0 (F := F) d) := by
  have e1 : ∀ (Φ : Fin 1 → sProp 𝕄), bigSep Finset.univ Φ = Φ 0 := fun Φ => by
    rw [show (Finset.univ : Finset (Fin 1)) = {0} from rfl, bigSep_singleton]
  have hg : iprop((bigSep Finset.univ fun c : Dev nD => bigSep Finset.univ fun p : Fin 1 => (Pipeline.cellsGhost cfgs EP p c : sProp 𝕄))
        ∗ (bigSep Finset.univ fun c : Dev nD => bigSep Finset.univ fun p : Fin 1 => (Pipeline.toksInit cfgs EP p c : sProp 𝕄)))
      = bigSep Finset.univ fun d : Dev nD => Gtc0 (F := F) d := by
    unfold Gtc0
    rw [bigSep_sep', bigSep_congr fun c _ => e1 _, bigSep_congr fun c _ => e1 _]
  have hfg : (BI.own (((Emb.inl : Emb UP (UP × Counters)).trans (embR : Emb (UP × Counters) (MT nD τ sig (HIx 1) (Elt F) ℕ UU ℕ))) uP) : sProp 𝕄)
      ⊢ iprop(|==> ((bigSep Finset.univ fun c : Dev nD => bigSep Finset.univ fun p : Fin 1 => (Pipeline.cellsGhost cfgs EP p c : sProp 𝕄))
          ∗ (bigSep Finset.univ fun c : Dev nD => bigSep Finset.univ fun p : Fin 1 => (Pipeline.toksInit cfgs EP p c : sProp 𝕄)))) :=
    Pipeline.fund_ghost cfgs (EP (F := F)) cellOf_inj
  iintro Hu
  ihave H := (ownU_pair _ _) $$ Hu
  icases H with ⟨HH, HR⟩
  ihave H2 := (own_pair_emb (embR : Emb (UP × Counters) (MT nD τ sig (HIx 1) (Elt F) ℕ UU ℕ)) uP cnt) $$ HR
  icases H2 with ⟨HP, HC⟩
  imod hfg $$ HP with Hg
  imodintro
  isplitl [HH]; · iexact HH
  isplitl [HC]; · iexact HC
  rw [← hg]
  iexact Hg

end Cert.KernelIdeal.Tc

end
-- ==== Proof.HostOps.lean ====
/-
  The host operations of the kernel program's entry function, as lists.

  On each device the TensorCore runs ninety-one host operations (the grouped table built from the tables by four
  lookups, and the last 4000 rows of the index matrix laid flat), the call of the lookup kernel on those rows, one
  transpose, the call of the blocked kernel on all rows, and four more host operations that put the first call's rows
  in place of rows `96000 …` of the second call's result. The lists below are those operations in program order, cut
  where the mathematics cuts them; `main_eq` says the program is exactly their run with the two calls in between.
-/
import proofs.«203024_g60129542144782_cont_9to1_m_748_22_alg».proof.Proof.Setup
import Idealize.ShloMosaic.Lib.Pipeline.Frame
import Idealize.ShloMosaic.Lib.Pipeline.Regions

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)
open Idealize.ShloMosaic.Tactic

variable {F : FTy → Type} [FloatOps F]

/-- The opening four operations: the table reshaped to `[14, 4, 2, 128]`, the words `0 … 15`, and the zero array `[14, 16, 128]` the grouped table's sum starts from. -/
def opsG0 : List (HloOp τ sig (Elt F)) :=
  [
    StableHlo.reshape main_arg1 main_v0 rfl shapeCasts_S56x2x128_S14x4x2x128,
    StableHlo.nullary main_v1 (iotaInDim S16 32 0),
    StableHlo.nullary main_cst (constant S_ .f32 0x00000000#32),
    StableHlo.unary main_cst main_v2 (broadcastInDim S14x16x128 ![] bcast_S_S14x16x128 : (⟨S_, .f32⟩ : BufTy).Contents (Elt F) → (⟨S14x16x128, .f32⟩ : BufTy).Contents (Elt F)) ]

theorem opsG0_sub : (opsG0 (F := F)).Forall fun op => op.bufs ⊆ StableHlo.tcRefs τ sig :=
  ⟨StableHlo.reshape_bufs_sub .., StableHlo.nullary_bufs_sub .., StableHlo.nullary_bufs_sub .., StableHlo.unary_bufs_sub ..⟩

theorem opsG0_fresh : (opsG0 (F := F)).Forall fun op => op.fresh = ∅ :=
  ⟨rfl, rfl, rfl, rfl⟩

/-- The lookup for `k = 0`: the bit `(c >> 0) & 1` of `c = 0 … 15`, wrapped by two if negative, paired with the word `0` as a start index; the gather of the reshaped table; the running sum. -/
def opsL0 : List (HloOp τ sig (Elt F)) :=
  [
    StableHlo.nullary main_c (constantI S_ 32 0#32),
    StableHlo.unary main_c main_v3 (broadcastInDim S16 ![] bcast_S_S16 : (⟨S_, .i32⟩ : BufTy).Contents (Elt F) → (⟨S16, .i32⟩ : BufTy).Contents (Elt F)),
    StableHlo.binary main_v1 main_v3 main_v4 (Host.shrsi : (⟨S16, .i32⟩ : BufTy).Contents (Elt F) → (⟨S16, .i32⟩ : BufTy).Contents (Elt F) → (⟨S16, .i32⟩ : BufTy).Contents (Elt F)),
    StableHlo.nullary main_c_0 (constantI S_ 32 1#32),
    StableHlo.unary main_c_0 main_v5 (broadcastInDim S16 ![] bcast_S_S16 : (⟨S_, .i32⟩ : BufTy).Contents (Elt F) → (⟨S16, .i32⟩ : BufTy).Contents (Elt F)),
    StableHlo.binary main_v4 main_v5 main_v6 (andi : (⟨S16, .i32⟩ : BufTy).Contents (Elt F) → (⟨S16, .i32⟩ : BufTy).Contents (Elt F) → (⟨S16, .i32⟩ : BufTy).Contents (Elt F)),
    StableHlo.nullary main_c_1 (constantI S_ 32 0#32),
    StableHlo.unary main_c_1 main_v7 (broadcastInDim S16 ![] bcast_S_S16 : (⟨S_, .i32⟩ : BufTy).Contents (Elt F) → (⟨S16, .i32⟩ : BufTy).Contents (Elt F)),
    StableHlo.binary main_v6 main_v7 main_v8 (cmpi .slt : (⟨S16, .i32⟩ : BufTy).Contents (Elt F) → (⟨S16, .i32⟩ : BufTy).Contents (Elt F) → (⟨S16, .i1⟩ : BufTy).Contents (Elt F)),
    StableHlo.nullary main_c_2 (constantI S_ 32 2#32),
    StableHlo.unary main_c_2 main_v9 (broadcastInDim S16 ![] bcast_S_S16 : (⟨S_, .i32⟩ : BufTy).Contents (Elt F) → (⟨S16, .i32⟩ : BufTy).Contents (Elt F)),
    StableHlo.binary main_v6 main_v9 main_v10 (addi : (⟨S16, .i32⟩ : BufTy).Contents (Elt F) → (⟨S16, .i32⟩ : BufTy).Contents (Elt F) → (⟨S16, .i32⟩ : BufTy).Contents (Elt F)),
    StableHlo.ternary main_v8 main_v10 main_v6 main_v11 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_3 (constantI S_ 32 0#32),
    StableHlo.unary main_c_3 main_v12 (broadcastInDim S16 ![] bcast_S_S16 : (⟨S_, .i32⟩ : BufTy).Contents (Elt F) → (⟨S16, .i32⟩ : BufTy).Contents (Elt F)),
    StableHlo.unary main_v12 main_v13 (id : (⟨S16, .i32⟩ : BufTy).Contents (Elt F) → (⟨S16, .i32⟩ : BufTy).Contents (Elt F)),
    StableHlo.unary main_v13 main_v14 (broadcastInDim S16x1 ![0] bcast_S16_S16x1_0 : (⟨S16, .i32⟩ : BufTy).Contents (Elt F) → (⟨S16x1, .i32⟩ : BufTy).Contents (Elt F)),
    StableHlo.unary main_v11 main_v15 (broadcastInDim S16x1 ![0] bcast_S16_S16x1_0 : (⟨S16, .i32⟩ : BufTy).Contents (Elt F) → (⟨S16x1, .i32⟩ : BufTy).Contents (Elt F)),
    StableHlo.binary main_v14 main_v15 main_v16 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    StableHlo.binary main_v0 main_v16 main_v17 ((fun x i => Host.gather gather_S14x4x2x128_S16x2_S14x16x128_02_12_n_n_12_1_1411128 x i) : (⟨S14x4x2x128, .f32⟩ : BufTy).Contents (Elt F) → (⟨S16x2, .i32⟩ : BufTy).Contents (Elt F) → (⟨S14x16x128, .f32⟩ : BufTy).Contents (Elt F)),
    StableHlo.binary main_v2 main_v17 main_v18 (addf : (⟨S14x16x128, .f32⟩ : BufTy).Contents (Elt F) → (⟨S14x16x128, .f32⟩ : BufTy).Contents (Elt F) → (⟨S14x16x128, .f32⟩ : BufTy).Contents (Elt F)) ]

theorem opsL0_sub : (opsL0 (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub ..⟩

theorem opsL0_fresh : (opsL0 (F := F)).Forall fun op => op.fresh = ∅ :=
  ⟨rfl, rfl, rfl, rfl, rfl, rfl, rfl, rfl, rfl, rfl, rfl, rfl, rfl, rfl, rfl, rfl, rfl, rfl, rfl, rfl, rfl⟩

/-- The lookup for `k = 1`, likewise. -/
def opsL1 : List (HloOp τ sig (Elt F)) :=
  [
    StableHlo.nullary main_c_4 (constantI S_ 32 1#32),
    StableHlo.unary main_c_4 main_v19 (broadcastInDim S16 ![] bcast_S_S16 : (⟨S_, .i32⟩ : BufTy).Contents (Elt F) → (⟨S16, .i32⟩ : BufTy).Contents (Elt F)),
    StableHlo.binary main_v1 main_v19 main_v20 (Host.shrsi : (⟨S16, .i32⟩ : BufTy).Contents (Elt F) → (⟨S16, .i32⟩ : BufTy).Contents (Elt F) → (⟨S16, .i32⟩ : BufTy).Contents (Elt F)),
    StableHlo.nullary main_c_5 (constantI S_ 32 1#32),
    StableHlo.unary main_c_5 main_v21 (broadcastInDim S16 ![] bcast_S_S16 : (⟨S_, .i32⟩ : BufTy).Contents (Elt F) → (⟨S16, .i32⟩ : BufTy).Contents (Elt F)),
    StableHlo.binary main_v20 main_v21 main_v22 (andi : (⟨S16, .i32⟩ : BufTy).Contents (Elt F) → (⟨S16, .i32⟩ : BufTy).Contents (Elt F) → (⟨S16, .i32⟩ : BufTy).Contents (Elt F)),
    StableHlo.nullary main_c_6 (constantI S_ 32 0#32),
    StableHlo.unary main_c_6 main_v23 (broadcastInDim S16 ![] bcast_S_S16 : (⟨S_, .i32⟩ : BufTy).Contents (Elt F) → (⟨S16, .i32⟩ : BufTy).Contents (Elt F)),
    StableHlo.binary main_v22 main_v23 main_v24 (cmpi .slt : (⟨S16, .i32⟩ : BufTy).Contents (Elt F) → (⟨S16, .i32⟩ : BufTy).Contents (Elt F) → (⟨S16, .i1⟩ : BufTy).Contents (Elt F)),
    StableHlo.nullary main_c_7 (constantI S_ 32 2#32),
    StableHlo.unary main_c_7 main_v25 (broadcastInDim S16 ![] bcast_S_S16 : (⟨S_, .i32⟩ : BufTy).Contents (Elt F) → (⟨S16, .i32⟩ : BufTy).Contents (Elt F)),
    StableHlo.binary main_v22 main_v25 main_v26 (addi : (⟨S16, .i32⟩ : BufTy).Contents (Elt F) → (⟨S16, .i32⟩ : BufTy).Contents (Elt F) → (⟨S16, .i32⟩ : BufTy).Contents (Elt F)),
    StableHlo.ternary main_v24 main_v26 main_v22 main_v27 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_8 (constantI S_ 32 1#32),
    StableHlo.unary main_c_8 main_v28 (broadcastInDim S16 ![] bcast_S_S16 : (⟨S_, .i32⟩ : BufTy).Contents (Elt F) → (⟨S16, .i32⟩ : BufTy).Contents (Elt F)),
    StableHlo.unary main_v28 main_v29 (id : (⟨S16, .i32⟩ : BufTy).Contents (Elt F) → (⟨S16, .i32⟩ : BufTy).Contents (Elt F)),
    StableHlo.unary main_v29 main_v30 (broadcastInDim S16x1 ![0] bcast_S16_S16x1_0 : (⟨S16, .i32⟩ : BufTy).Contents (Elt F) → (⟨S16x1, .i32⟩ : BufTy).Contents (Elt F)),
    StableHlo.unary main_v27 main_v31 (broadcastInDim S16x1 ![0] bcast_S16_S16x1_0 : (⟨S16, .i32⟩ : BufTy).Contents (Elt F) → (⟨S16x1, .i32⟩ : BufTy).Contents (Elt F)),
    StableHlo.binary main_v30 main_v31 main_v32 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    StableHlo.binary main_v0 main_v32 main_v33 ((fun x i => Host.gather gather_S14x4x2x128_S16x2_S14x16x128_02_12_n_n_12_1_1411128 x i) : (⟨S14x4x2x128, .f32⟩ : BufTy).Contents (Elt F) → (⟨S16x2, .i32⟩ : BufTy).Contents (Elt F) → (⟨S14x16x128, .f32⟩ : BufTy).Contents (Elt F)),
    StableHlo.binary main_v18 main_v33 main_v34 (addf : (⟨S14x16x128, .f32⟩ : BufTy).Contents (Elt F) → (⟨S14x16x128, .f32⟩ : BufTy).Contents (Elt F) → (⟨S14x16x128, .f32⟩ : BufTy).Contents (Elt F)) ]

theorem opsL1_sub : (opsL1 (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub ..⟩

theorem opsL1_fresh : (opsL1 (F := F)).Forall fun op => op.fresh = ∅ :=
  ⟨rfl, rfl, rfl, rfl, rfl, rfl, rfl, rfl, rfl, rfl, rfl, rfl, rfl, rfl, rfl, rfl, rfl, rfl, rfl, rfl, rfl⟩

/-- The lookup for `k = 2`, its first fourteen operations (up to the word `2` that its start index pairs the bit with). -/
def opsL2a : List (HloOp τ sig (Elt F)) :=
  [
    StableHlo.nullary main_c_9 (constantI S_ 32 2#32),
    StableHlo.unary main_c_9 main_v35 (broadcastInDim S16 ![] bcast_S_S16 : (⟨S_, .i32⟩ : BufTy).Contents (Elt F) → (⟨S16, .i32⟩ : BufTy).Contents (Elt F)),
    StableHlo.binary main_v1 main_v35 main_v36 (Host.shrsi : (⟨S16, .i32⟩ : BufTy).Contents (Elt F) → (⟨S16, .i32⟩ : BufTy).Contents (Elt F) → (⟨S16, .i32⟩ : BufTy).Contents (Elt F)),
    StableHlo.nullary main_c_10 (constantI S_ 32 1#32),
    StableHlo.unary main_c_10 main_v37 (broadcastInDim S16 ![] bcast_S_S16 : (⟨S_, .i32⟩ : BufTy).Contents (Elt F) → (⟨S16, .i32⟩ : BufTy).Contents (Elt F)),
    StableHlo.binary main_v36 main_v37 main_v38 (andi : (⟨S16, .i32⟩ : BufTy).Contents (Elt F) → (⟨S16, .i32⟩ : BufTy).Contents (Elt F) → (⟨S16, .i32⟩ : BufTy).Contents (Elt F)),
    StableHlo.nullary main_c_11 (constantI S_ 32 0#32),
    StableHlo.unary main_c_11 main_v39 (broadcastInDim S16 ![] bcast_S_S16 : (⟨S_, .i32⟩ : BufTy).Contents (Elt F) → (⟨S16, .i32⟩ : BufTy).Contents (Elt F)),
    StableHlo.binary main_v38 main_v39 main_v40 (cmpi .slt : (⟨S16, .i32⟩ : BufTy).Contents (Elt F) → (⟨S16, .i32⟩ : BufTy).Contents (Elt F) → (⟨S16, .i1⟩ : BufTy).Contents (Elt F)),
    StableHlo.nullary main_c_12 (constantI S_ 32 2#32),
    StableHlo.unary main_c_12 main_v41 (broadcastInDim S16 ![] bcast_S_S16 : (⟨S_, .i32⟩ : BufTy).Contents (Elt F) → (⟨S16, .i32⟩ : BufTy).Contents (Elt F)),
    StableHlo.binary main_v38 main_v41 main_v42 (addi : (⟨S16, .i32⟩ : BufTy).Contents (Elt F) → (⟨S16, .i32⟩ : BufTy).Contents (Elt F) → (⟨S16, .i32⟩ : BufTy).Contents (Elt F)),
    StableHlo.ternary main_v40 main_v42 main_v38 main_v43 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_13 (constantI S_ 32 2#32) ]

theorem opsL2a_sub : (opsL2a (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub ..⟩

theorem opsL2a_fresh : (opsL2a (F := F)).Forall fun op => op.fresh = ∅ :=
  ⟨rfl, rfl, rfl, rfl, rfl, rfl, rfl, rfl, rfl, rfl, rfl, rfl, rfl, rfl⟩

/-- The lookup for `k = 2`, its last seven operations. -/
def opsL2b : List (HloOp τ sig (Elt F)) :=
  [
    StableHlo.unary main_c_13 main_v44 (broadcastInDim S16 ![] bcast_S_S16 : (⟨S_, .i32⟩ : BufTy).Contents (Elt F) → (⟨S16, .i32⟩ : BufTy).Contents (Elt F)),
    StableHlo.unary main_v44 main_v45 (id : (⟨S16, .i32⟩ : BufTy).Contents (Elt F) → (⟨S16, .i32⟩ : BufTy).Contents (Elt F)),
    StableHlo.unary main_v45 main_v46 (broadcastInDim S16x1 ![0] bcast_S16_S16x1_0 : (⟨S16, .i32⟩ : BufTy).Contents (Elt F) → (⟨S16x1, .i32⟩ : BufTy).Contents (Elt F)),
    StableHlo.unary main_v43 main_v47 (broadcastInDim S16x1 ![0] bcast_S16_S16x1_0 : (⟨S16, .i32⟩ : BufTy).Contents (Elt F) → (⟨S16x1, .i32⟩ : BufTy).Contents (Elt F)),
    StableHlo.binary main_v46 main_v47 main_v48 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    StableHlo.binary main_v0 main_v48 main_v49 ((fun x i => Host.gather gather_S14x4x2x128_S16x2_S14x16x128_02_12_n_n_12_1_1411128 x i) : (⟨S14x4x2x128, .f32⟩ : BufTy).Contents (Elt F) → (⟨S16x2, .i32⟩ : BufTy).Contents (Elt F) → (⟨S14x16x128, .f32⟩ : BufTy).Contents (Elt F)),
    StableHlo.binary main_v34 main_v49 main_v50 (addf : (⟨S14x16x128, .f32⟩ : BufTy).Contents (Elt F) → (⟨S14x16x128, .f32⟩ : BufTy).Contents (Elt F) → (⟨S14x16x128, .f32⟩ : BufTy).Contents (Elt F)) ]

theorem opsL2b_sub : (opsL2b (F := F)).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.binary_bufs_sub ..⟩

theorem opsL2b_fresh : (opsL2b (F := F)).Forall fun op => op.fresh = ∅ :=
  ⟨rfl, rfl, rfl, rfl, rfl, rfl, rfl⟩

/-- The lookup for `k = 3`. -/
def opsL3 : List (HloOp τ sig (Elt F)) :=
  [
    StableHlo.nullary main_c_14 (constantI S_ 32 3#32),
    StableHlo.unary main_c_14 main_v51 (broadcastInDim S16 ![] bcast_S_S16 : (⟨S_, .i32⟩ : BufTy).Contents (Elt F) → (⟨S16, .i32⟩ : BufTy).Contents (Elt F)),
    StableHlo.binary main_v1 main_v51 main_v52 (Host.shrsi : (⟨S16, .i32⟩ : BufTy).Contents (Elt F) → (⟨S16, .i32⟩ : BufTy).Contents (Elt F) → (⟨S16, .i32⟩ : BufTy).Contents (Elt F)),
    StableHlo.nullary main_c_15 (constantI S_ 32 1#32),
    StableHlo.unary main_c_15 main_v53 (broadcastInDim S16 ![] bcast_S_S16 : (⟨S_, .i32⟩ : BufTy).Contents (Elt F) → (⟨S16, .i32⟩ : BufTy).Contents (Elt F)),
    StableHlo.binary main_v52 main_v53 main_v54 (andi : (⟨S16, .i32⟩ : BufTy).Contents (Elt F) → (⟨S16, .i32⟩ : BufTy).Contents (Elt F) → (⟨S16, .i32⟩ : BufTy).Contents (Elt F)),
    StableHlo.nullary main_c_16 (constantI S_ 32 0#32),
    StableHlo.unary main_c_16 main_v55 (broadcastInDim S16 ![] bcast_S_S16 : (⟨S_, .i32⟩ : BufTy).Contents (Elt F) → (⟨S16, .i32⟩ : BufTy).Contents (Elt F)),
    StableHlo.binary main_v54 main_v55 main_v56 (cmpi .slt : (⟨S16, .i32⟩ : BufTy).Contents (Elt F) → (⟨S16, .i32⟩ : BufTy).Contents (Elt F) → (⟨S16, .i1⟩ : BufTy).Contents (Elt F)),
    StableHlo.nullary main_c_17 (constantI S_ 32 2#32),
    StableHlo.unary main_c_17 main_v57 (broadcastInDim S16 ![] bcast_S_S16 : (⟨S_, .i32⟩ : BufTy).Contents (Elt F) → (⟨S16, .i32⟩ : BufTy).Contents (Elt F)),
    StableHlo.binary main_v54 main_v57 main_v58 (addi : (⟨S16, .i32⟩ : BufTy).Contents (Elt F) → (⟨S16, .i32⟩ : BufTy).Contents (Elt F) → (⟨S16, .i32⟩ : BufTy).Contents (Elt F)),
    StableHlo.ternary main_v56 main_v58 main_v54 main_v59 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_18 (constantI S_ 32 3#32),
    StableHlo.unary main_c_18 main_v60 (broadcastInDim S16 ![] bcast_S_S16 : (⟨S_, .i32⟩ : BufTy).Contents (Elt F) → (⟨S16, .i32⟩ : BufTy).Contents (Elt F)),
    StableHlo.unary main_v60 main_v61 (id : (⟨S16, .i32⟩ : BufTy).Contents (Elt F) → (⟨S16, .i32⟩ : BufTy).Contents (Elt F)),
    StableHlo.unary main_v61 main_v62 (broadcastInDim S16x1 ![0] bcast_S16_S16x1_0 : (⟨S16, .i32⟩ : BufTy).Contents (Elt F) → (⟨S16x1, .i32⟩ : BufTy).Contents (Elt F)),
    StableHlo.unary main_v59 main_v63 (broadcastInDim S16x1 ![0] bcast_S16_S16x1_0 : (⟨S16, .i32⟩ : BufTy).Contents (Elt F) → (⟨S16x1, .i32⟩ : BufTy).Contents (Elt F)),
    StableHlo.binary main_v62 main_v63 main_v64 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    StableHlo.binary main_v0 main_v64 main_v65 ((fun x i => Host.gather gather_S14x4x2x128_S16x2_S14x16x128_02_12_n_n_12_1_1411128 x i) : (⟨S14x4x2x128, .f32⟩ : BufTy).Contents (Elt F) → (⟨S16x2, .i32⟩ : BufTy).Contents (Elt F) → (⟨S14x16x128, .f32⟩ : BufTy).Contents (Elt F)),
    StableHlo.binary main_v50 main_v65 main_v66 (addf : (⟨S14x16x128, .f32⟩ : BufTy).Contents (Elt F) → (⟨S14x16x128, .f32⟩ : BufTy).Contents (Elt F) → (⟨S14x16x128, .f32⟩ : BufTy).Contents (Elt F)) ]

theorem opsL3_sub : (opsL3 (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub ..⟩

theorem opsL3_fresh : (opsL3 (F := F)).Forall fun op => op.fresh = ∅ :=
  ⟨rfl, rfl, rfl, rfl, rfl, rfl, rfl, rfl, rfl, rfl, rfl, rfl, rfl, rfl, rfl, rfl, rfl, rfl, rfl, rfl, rfl⟩

/-- The closing three operations before the first call: the last 4000 rows of the index matrix sliced out and flattened, and the grouped table flattened. -/
def opsG1 : List (HloOp τ sig (Elt F)) :=
  [
    StableHlo.unary main_arg0 main_v67 ((extractStridedSlice S4000x56 ![96000, 0] · slices_S100000x56_S4000x56_96000_0) : (⟨S100000x56, .i32⟩ : BufTy).Contents (Elt F) → (⟨S4000x56, .i32⟩ : BufTy).Contents (Elt F)),
    StableHlo.reshape main_v67 main_v68 rfl shapeCasts_S4000x56_S224000,
    StableHlo.reshape main_v66 main_v69 rfl shapeCasts_S14x16x128_S28672 ]

theorem opsG1_sub : (opsG1 (F := F)).Forall fun op => op.bufs ⊆ StableHlo.tcRefs τ sig :=
  ⟨StableHlo.unary_bufs_sub .., StableHlo.reshape_bufs_sub .., StableHlo.reshape_bufs_sub ..⟩

theorem opsG1_fresh : (opsG1 (F := F)).Forall fun op => op.fresh = ∅ :=
  ⟨rfl, rfl, rfl⟩

/-- The one host operation between the two calls: the table transposed to `[2, 56, 128]`. -/
def opsB : List (HloOp τ sig (Elt F)) :=
  [
    StableHlo.unary main_arg1 main_v71 ((transpose S2x56x128 [1, 0, 2] · transposes_S56x2x128_S2x56x128_1_0_2) : (⟨S56x2x128, .f32⟩ : BufTy).Contents (Elt F) → (⟨S2x56x128, .f32⟩ : BufTy).Contents (Elt F)) ]

theorem opsB_sub : (opsB (F := F)).Forall fun op => op.bufs ⊆ StableHlo.tcRefs τ sig :=
  StableHlo.unary_bufs_sub ..

theorem opsB_fresh : (opsB (F := F)).Forall fun op => op.fresh = ∅ :=
  rfl

/-- The four host operations after the second call: the first call's result reshaped to `[4000, 128]`, the two start words `96000` and `0`, and the update of rows `96000 …` of the second call's result by it. -/
def opsC : List (HloOp τ sig (Elt F)) :=
  [
    StableHlo.reshape main_v70 main_v73 rfl shapeCasts_S512000_S4000x128,
    StableHlo.nullary main_c_19 (constantI S_ 32 96000#32),
    StableHlo.nullary main_c_20 (constantI S_ 32 0#32),
    StableHlo.binaryIndexed main_v72 main_v73 ![main_c_19, main_c_20] ⟨S_, .i32⟩ main_v74 ((fun x u i => Host.dynamicUpdateSlice x u (fun k => (i k (Shape.Idx.first h_S_)).toInt) updateFits_S100000x128_S4000x128) : (⟨S100000x128, .f32⟩ : BufTy).Contents (Elt F) → (⟨S4000x128, .f32⟩ : BufTy).Contents (Elt F) → (Fin 2 → (⟨S_, .i32⟩ : BufTy).Contents (Elt F)) → (⟨S100000x128, .f32⟩ : BufTy).Contents (Elt F)) ]

theorem opsC_sub : (opsC (F := F)).Forall fun op => op.bufs ⊆ StableHlo.tcRefs τ sig :=
  ⟨StableHlo.reshape_bufs_sub .., StableHlo.nullary_bufs_sub .., StableHlo.nullary_bufs_sub .., StableHlo.binaryIndexed_bufs_sub ..⟩

theorem opsC_fresh : (opsC (F := F)).Forall fun op => op.fresh = ∅ :=
  ⟨rfl, rfl, rfl, rfl⟩

/-- The operations of the program's first sixty statements. -/
def opsW0 : List (HloOp τ sig (Elt F)) := opsG0 ++ opsL0 ++ opsL1 ++ opsL2a
/-- The operations of the remaining statements up to the first call. -/
def opsW1 : List (HloOp τ sig (Elt F)) := opsL2b ++ opsL3 ++ opsG1
/-- All ninety-one operations before the first call, in order. -/
def opsA : List (HloOp τ sig (Elt F)) := opsW0 ++ opsW1

/-- The program's first sixty statements are those operations in a row. -/
theorem main_part0_eq (d : Dev nD) : main_part0 (F := F) d = StableHlo.seq opsW0 := by
  chain_rfl

/-- The remaining statements: thirty-one operations, the first call, one operation, the second call, four
    operations. -/
theorem main_part1_eq (d : Dev nD) :
    main_part1 (F := F) d = (StableHlo.seq opsW1 >>= fun _ => sc.run d 0 >>= fun _ => StableHlo.seq opsB >>= fun _ =>
      Prog.lift (.customCall (SparseCore.inner (Pipeline.entry 0)) ()) >>= fun _ => StableHlo.seq opsC) := by
  chain_rfl

/-- The whole program on a device: the ninety-one operations, the first call, the transpose, the second call, the
    last four operations. -/
theorem main_eq (d : Dev nD) :
    main (F := F) d = (StableHlo.seq opsA >>= fun _ => sc.run d 0 >>= fun _ => StableHlo.seq opsB >>= fun _ =>
      Prog.lift (.customCall (SparseCore.inner (Pipeline.entry 0)) ()) >>= fun _ => StableHlo.seq opsC) := by
  show (main_part0 (F := F) d >>= fun _ => main_part1 (F := F) d) = _
  rw [main_part0_eq, main_part1_eq, opsA, StableHlo.seq_append, bind_assoc]

end Cert.Proof.KI

end
-- ==== Proof.HostRun.lean ====
/-
  Running the host operations of the kernel program's entry function.

  A host operation reads and writes whole unscoped buffers of the TensorCore. Holding the region boundary and ALL of
  those buffers at a valuation `V`, a row of host operations runs to its end and leaves the same set held at the row's
  composed result: each operation in turn replaces the contents of the buffer it writes by its function of the contents
  of the buffers it reads. The three rows of the program — before the first call, between the calls, after the second
  call — are instances.
-/
import proofs.«203024_g60129542144782_cont_9to1_m_748_22_alg».proof.Proof.Setup
import proofs.«203024_g60129542144782_cont_9to1_m_748_22_alg».proof.Proof.HostOps
import Idealize.ShloMosaic.Lib.Pipeline.Frame
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held held_split held_sdiff_result wp_hlo_within)
open Idealize.ShloMosaic.Tactic

variable {F : FTy → Type} [FloatOps F]

/-! ## The rule for a row of host operations

Every host operation of the program names unscoped references of the TensorCore only, so the whole row runs holding
the region boundary and ALL the TensorCore's unscoped buffers whole: it ends with that same set held at the row's
composed result (each operation rewrites the buffer it writes and leaves the rest). -/

local notation "𝕄" => MT nD τ sig (HIx 1) (Elt F) ℕ UU ℕ

/-- A property of every element of two lists is one of their concatenation. -/
theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

theorem opsA_sub : (opsA (F := F)).Forall fun op => op.bufs ⊆ StableHlo.tcRefs τ sig :=
  forall_append (forall_append (forall_append (forall_append opsG0_sub opsL0_sub) opsL1_sub) opsL2a_sub)
    (forall_append (forall_append opsL2b_sub opsL3_sub) opsG1_sub)

theorem opsA_fresh : (opsA (F := F)).Forall fun op => op.fresh = ∅ :=
  forall_append (forall_append (forall_append (forall_append opsG0_fresh opsL0_fresh) opsL1_fresh) opsL2a_fresh)
    (forall_append (forall_append opsL2b_fresh opsL3_fresh) opsG1_fresh)

/-- What the launch deals the TensorCore of its unscoped buffers is that set held at the launch contents. -/
theorem unscoped_held (m : (ℓ : Loc nD τ sig) → Buf (Elt F) ℓ) (d : Dev nD) :
    (unscopedBufs d (fun b => m ((SparseCore.T d).loc b)) : sProp 𝕄)
      = held (SparseCore.T d) (Pipeline.ucRefs τ sig) (fun b => m (d, b)) :=
  Pipeline.unscopedBufs_held d (fun b => m (d, b))

/-- A row of host operations at the head of the TensorCore's program, holding the boundary and the unscoped buffers at
    `V`: what follows it runs holding them at the row's composed result. -/
theorem wp_host (d : Dev nD) {β : Type}
    (k : PUnit → Prog (TpuEff nD τ sig (Elt F) (SparseCore.Sig (ΛP (F := F)) 1) .tc) β) {Q : β → sProp 𝕄}
    (ops : List (HloOp τ sig (Elt F))) (hsub : ops.Forall fun op => op.bufs ⊆ StableHlo.tcRefs τ sig)
    (hfresh : ops.Forall fun op => op.fresh = ∅) (V : Valuation τ sig (Elt F)) :
    iprop(boundary (SparseCore.T d) ∗ (held (SparseCore.T d) (Pipeline.ucRefs τ sig) V : sProp 𝕄))
      ⊢ iprop(((boundary (SparseCore.T d) ∗ (held (SparseCore.T d) (Pipeline.ucRefs τ sig) (StableHlo.after ops V) : sProp 𝕄))
                -∗ wp frame (wpE ((K (F := F)).defs (D (F := F))) 𝒱 (SparseCore.T d) none) Set.univ (k ⟨⟩) Q)
        -∗ wp frame (wpE ((K (F := F)).defs (D (F := F))) 𝒱 (SparseCore.T d) none) Set.univ (StableHlo.seq ops >>= k) Q) :=
  StableHlo.wp_seq 𝒱 none Set.univ d (Pipeline.ucRefs τ sig) k ops
    (fun op h => Pipeline.sub_ucRefs op ((List.forall_iff_forall_mem.mp hsub) op h))
    (fun op h => (List.forall_iff_forall_mem.mp hfresh) op h) V

/-- The ninety-one operations before the first call. -/
theorem wp_A (d : Dev nD) {β : Type}
    (k : PUnit → Prog (TpuEff nD τ sig (Elt F) (SparseCore.Sig (ΛP (F := F)) 1) .tc) β) {Q : β → sProp 𝕄}
    (V : Valuation τ sig (Elt F)) :
    iprop(boundary (SparseCore.T d) ∗ (held (SparseCore.T d) (Pipeline.ucRefs τ sig) V : sProp 𝕄))
      ⊢ iprop(((boundary (SparseCore.T d) ∗ (held (SparseCore.T d) (Pipeline.ucRefs τ sig) (StableHlo.after opsA V) : sProp 𝕄))
                -∗ wp frame (wpE ((K (F := F)).defs (D (F := F))) 𝒱 (SparseCore.T d) none) Set.univ (k ⟨⟩) Q)
        -∗ wp frame (wpE ((K (F := F)).defs (D (F := F))) 𝒱 (SparseCore.T d) none) Set.univ (StableHlo.seq opsA >>= k) Q) :=
  wp_host d k opsA opsA_sub opsA_fresh V

/-- The transpose between the two calls. -/
theorem wp_B (d : Dev nD) {β : Type}
    (k : PUnit → Prog (TpuEff nD τ sig (Elt F) (SparseCore.Sig (ΛP (F := F)) 1) .tc) β) {Q : β → sProp 𝕄}
    (V : Valuation τ sig (Elt F)) :
    iprop(boundary (SparseCore.T d) ∗ (held (SparseCore.T d) (Pipeline.ucRefs τ sig) V : sProp 𝕄))
      ⊢ iprop(((boundary (SparseCore.T d) ∗ (held (SparseCore.T d) (Pipeline.ucRefs τ sig) (StableHlo.after opsB V) : sProp 𝕄))
                -∗ wp frame (wpE ((K (F := F)).defs (D (F := F))) 𝒱 (SparseCore.T d) none) Set.univ (k ⟨⟩) Q)
        -∗ wp frame (wpE ((K (F := F)).defs (D (F := F))) 𝒱 (SparseCore.T d) none) Set.univ (StableHlo.seq opsB >>= k) Q) :=
  wp_host d k opsB opsB_sub opsB_fresh V

/-- The four operations after the second call. -/
theorem wp_C (d : Dev nD) {β : Type}
    (k : PUnit → Prog (TpuEff nD τ sig (Elt F) (SparseCore.Sig (ΛP (F := F)) 1) .tc) β) {Q : β → sProp 𝕄}
    (V : Valuation τ sig (Elt F)) :
    iprop(boundary (SparseCore.T d) ∗ (held (SparseCore.T d) (Pipeline.ucRefs τ sig) V : sProp 𝕄))
      ⊢ iprop(((boundary (SparseCore.T d) ∗ (held (SparseCore.T d) (Pipeline.ucRefs τ sig) (StableHlo.after opsC V) : sProp 𝕄))
                -∗ wp frame (wpE ((K (F := F)).defs (D (F := F))) 𝒱 (SparseCore.T d) none) Set.univ (k ⟨⟩) Q)
        -∗ wp frame (wpE ((K (F := F)).defs (D (F := F))) 𝒱 (SparseCore.T d) none) Set.univ (StableHlo.seq opsC >>= k) Q) :=
  wp_host d k opsC opsC_sub opsC_fresh V

end Cert.Proof.KI

end
-- ==== Proof.HostKeep.lean ====
/-
  What each row of host operations writes, and that it leaves everything else alone.

  Every host operation writes exactly one buffer. For each row of the program the references it writes are listed in
  order; a reference outside the list holds, after the row, what it held before.
-/
import proofs.«203024_g60129542144782_cont_9to1_m_748_22_alg».proof.Proof.HostOps
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx
open Idealize.ShloMosaic.StableHlo

variable {F : FTy → Type} [FloatOps F]

/-- Read a composed valuation at a literal reference: each operation's result at its own result buffer is its
    function's value, at any other reference what was there before (the library's `after_results` loop, for goals in
    which the fold over the row has already been unfolded). -/
macro "read_results" : tactic =>
  `(tactic| (repeat (first
      | rw [nullary_result] | rw [unary_result] | rw [binary_result] | rw [ternary_result]
      | rw [reshape_result] | rw [binaryIndexed_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [binaryIndexed_result_ne]; rotate_left; decide))))

/-! ## What each row writes

The references each row of operations writes, in order; a reference outside a row's list keeps its contents through
the row. -/

/-- An operation that writes the one reference `y` writes inside any list holding `y`. -/
theorem single_sub_map {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

def wG0 : List (Ref sig .tc) := [main_v0, main_v1, main_cst, main_v2]
theorem opsG0_writes : (opsG0 (F := F)).Forall fun op => op.writes ⊆ ((wG0).map (Proc.devRef (τ := τ) .tc)).toFinset :=
  ⟨single_sub_map (y := main_v0) (by decide), single_sub_map (y := main_v1) (by decide), single_sub_map (y := main_cst) (by decide), single_sub_map (y := main_v2) (by decide)⟩
/-- A reference the row does not write keeps its contents. -/
theorem opsG0_keep (V : Valuation τ sig (Elt F)) (r : Ref sig .tc) (hr : r ∉ wG0) :
    after (opsG0 (F := F)) V (Proc.devRef .tc r) = V (Proc.devRef .tc r) :=
  after_of_writes_sub opsG0 V opsG0_writes hr

def wL0 : List (Ref sig .tc) := [main_c, main_v3, main_v4, main_c_0, main_v5, main_v6, main_c_1, main_v7, main_v8, main_c_2, main_v9, main_v10, main_v11, main_c_3, main_v12, main_v13, main_v14, main_v15, main_v16, main_v17, main_v18]
theorem opsL0_writes : (opsL0 (F := F)).Forall fun op => op.writes ⊆ ((wL0).map (Proc.devRef (τ := τ) .tc)).toFinset :=
  ⟨single_sub_map (y := main_c) (by decide), single_sub_map (y := main_v3) (by decide), single_sub_map (y := main_v4) (by decide), single_sub_map (y := main_c_0) (by decide), single_sub_map (y := main_v5) (by decide), single_sub_map (y := main_v6) (by decide), single_sub_map (y := main_c_1) (by decide), single_sub_map (y := main_v7) (by decide), single_sub_map (y := main_v8) (by decide), single_sub_map (y := main_c_2) (by decide), single_sub_map (y := main_v9) (by decide), single_sub_map (y := main_v10) (by decide), single_sub_map (y := main_v11) (by decide), single_sub_map (y := main_c_3) (by decide), single_sub_map (y := main_v12) (by decide), single_sub_map (y := main_v13) (by decide), single_sub_map (y := main_v14) (by decide), single_sub_map (y := main_v15) (by decide), single_sub_map (y := main_v16) (by decide), single_sub_map (y := main_v17) (by decide), single_sub_map (y := main_v18) (by decide)⟩
/-- A reference the row does not write keeps its contents. -/
theorem opsL0_keep (V : Valuation τ sig (Elt F)) (r : Ref sig .tc) (hr : r ∉ wL0) :
    after (opsL0 (F := F)) V (Proc.devRef .tc r) = V (Proc.devRef .tc r) :=
  after_of_writes_sub opsL0 V opsL0_writes hr

def wL1 : List (Ref sig .tc) := [main_c_4, main_v19, main_v20, main_c_5, main_v21, main_v22, main_c_6, main_v23, main_v24, main_c_7, main_v25, main_v26, main_v27, main_c_8, main_v28, main_v29, main_v30, main_v31, main_v32, main_v33, main_v34]
theorem opsL1_writes : (opsL1 (F := F)).Forall fun op => op.writes ⊆ ((wL1).map (Proc.devRef (τ := τ) .tc)).toFinset :=
  ⟨single_sub_map (y := main_c_4) (by decide), single_sub_map (y := main_v19) (by decide), single_sub_map (y := main_v20) (by decide), single_sub_map (y := main_c_5) (by decide), single_sub_map (y := main_v21) (by decide), single_sub_map (y := main_v22) (by decide), single_sub_map (y := main_c_6) (by decide), single_sub_map (y := main_v23) (by decide), single_sub_map (y := main_v24) (by decide), single_sub_map (y := main_c_7) (by decide), single_sub_map (y := main_v25) (by decide), single_sub_map (y := main_v26) (by decide), single_sub_map (y := main_v27) (by decide), single_sub_map (y := main_c_8) (by decide), single_sub_map (y := main_v28) (by decide), single_sub_map (y := main_v29) (by decide), single_sub_map (y := main_v30) (by decide), single_sub_map (y := main_v31) (by decide), single_sub_map (y := main_v32) (by decide), single_sub_map (y := main_v33) (by decide), single_sub_map (y := main_v34) (by decide)⟩
/-- A reference the row does not write keeps its contents. -/
theorem opsL1_keep (V : Valuation τ sig (Elt F)) (r : Ref sig .tc) (hr : r ∉ wL1) :
    after (opsL1 (F := F)) V (Proc.devRef .tc r) = V (Proc.devRef .tc r) :=
  after_of_writes_sub opsL1 V opsL1_writes hr

def wL2a : List (Ref sig .tc) := [main_c_9, main_v35, main_v36, main_c_10, main_v37, main_v38, main_c_11, main_v39, main_v40, main_c_12, main_v41, main_v42, main_v43, main_c_13]
theorem opsL2a_writes : (opsL2a (F := F)).Forall fun op => op.writes ⊆ ((wL2a).map (Proc.devRef (τ := τ) .tc)).toFinset :=
  ⟨single_sub_map (y := main_c_9) (by decide), single_sub_map (y := main_v35) (by decide), single_sub_map (y := main_v36) (by decide), single_sub_map (y := main_c_10) (by decide), single_sub_map (y := main_v37) (by decide), single_sub_map (y := main_v38) (by decide), single_sub_map (y := main_c_11) (by decide), single_sub_map (y := main_v39) (by decide), single_sub_map (y := main_v40) (by decide), single_sub_map (y := main_c_12) (by decide), single_sub_map (y := main_v41) (by decide), single_sub_map (y := main_v42) (by decide), single_sub_map (y := main_v43) (by decide), single_sub_map (y := main_c_13) (by decide)⟩
/-- A reference the row does not write keeps its contents. -/
theorem opsL2a_keep (V : Valuation τ sig (Elt F)) (r : Ref sig .tc) (hr : r ∉ wL2a) :
    after (opsL2a (F := F)) V (Proc.devRef .tc r) = V (Proc.devRef .tc r) :=
  after_of_writes_sub opsL2a V opsL2a_writes hr

def wL2b : List (Ref sig .tc) := [main_v44, main_v45, main_v46, main_v47, main_v48, main_v49, main_v50]
theorem opsL2b_writes : (opsL2b (F := F)).Forall fun op => op.writes ⊆ ((wL2b).map (Proc.devRef (τ := τ) .tc)).toFinset :=
  ⟨single_sub_map (y := main_v44) (by decide), single_sub_map (y := main_v45) (by decide), single_sub_map (y := main_v46) (by decide), single_sub_map (y := main_v47) (by decide), single_sub_map (y := main_v48) (by decide), single_sub_map (y := main_v49) (by decide), single_sub_map (y := main_v50) (by decide)⟩
/-- A reference the row does not write keeps its contents. -/
theorem opsL2b_keep (V : Valuation τ sig (Elt F)) (r : Ref sig .tc) (hr : r ∉ wL2b) :
    after (opsL2b (F := F)) V (Proc.devRef .tc r) = V (Proc.devRef .tc r) :=
  after_of_writes_sub opsL2b V opsL2b_writes hr

def wL3 : List (Ref sig .tc) := [main_c_14, main_v51, main_v52, main_c_15, main_v53, main_v54, main_c_16, main_v55, main_v56, main_c_17, main_v57, main_v58, main_v59, main_c_18, main_v60, main_v61, main_v62, main_v63, main_v64, main_v65, main_v66]
theorem opsL3_writes : (opsL3 (F := F)).Forall fun op => op.writes ⊆ ((wL3).map (Proc.devRef (τ := τ) .tc)).toFinset :=
  ⟨single_sub_map (y := main_c_14) (by decide), single_sub_map (y := main_v51) (by decide), single_sub_map (y := main_v52) (by decide), single_sub_map (y := main_c_15) (by decide), single_sub_map (y := main_v53) (by decide), single_sub_map (y := main_v54) (by decide), single_sub_map (y := main_c_16) (by decide), single_sub_map (y := main_v55) (by decide), single_sub_map (y := main_v56) (by decide), single_sub_map (y := main_c_17) (by decide), single_sub_map (y := main_v57) (by decide), single_sub_map (y := main_v58) (by decide), single_sub_map (y := main_v59) (by decide), single_sub_map (y := main_c_18) (by decide), single_sub_map (y := main_v60) (by decide), single_sub_map (y := main_v61) (by decide), single_sub_map (y := main_v62) (by decide), single_sub_map (y := main_v63) (by decide), single_sub_map (y := main_v64) (by decide), single_sub_map (y := main_v65) (by decide), single_sub_map (y := main_v66) (by decide)⟩
/-- A reference the row does not write keeps its contents. -/
theorem opsL3_keep (V : Valuation τ sig (Elt F)) (r : Ref sig .tc) (hr : r ∉ wL3) :
    after (opsL3 (F := F)) V (Proc.devRef .tc r) = V (Proc.devRef .tc r) :=
  after_of_writes_sub opsL3 V opsL3_writes hr

def wG1 : List (Ref sig .tc) := [main_v67, main_v68, main_v69]
theorem opsG1_writes : (opsG1 (F := F)).Forall fun op => op.writes ⊆ ((wG1).map (Proc.devRef (τ := τ) .tc)).toFinset :=
  ⟨single_sub_map (y := main_v67) (by decide), single_sub_map (y := main_v68) (by decide), single_sub_map (y := main_v69) (by decide)⟩
/-- A reference the row does not write keeps its contents. -/
theorem opsG1_keep (V : Valuation τ sig (Elt F)) (r : Ref sig .tc) (hr : r ∉ wG1) :
    after (opsG1 (F := F)) V (Proc.devRef .tc r) = V (Proc.devRef .tc r) :=
  after_of_writes_sub opsG1 V opsG1_writes hr

def wB : List (Ref sig .tc) := [main_v71]
theorem opsB_writes : (opsB (F := F)).Forall fun op => op.writes ⊆ ((wB).map (Proc.devRef (τ := τ) .tc)).toFinset :=
  single_sub_map (y := main_v71) (by decide)
/-- A reference the row does not write keeps its contents. -/
theorem opsB_keep (V : Valuation τ sig (Elt F)) (r : Ref sig .tc) (hr : r ∉ wB) :
    after (opsB (F := F)) V (Proc.devRef .tc r) = V (Proc.devRef .tc r) :=
  after_of_writes_sub opsB V opsB_writes hr

def wC : List (Ref sig .tc) := [main_v73, main_c_19, main_c_20, main_v74]
theorem opsC_writes : (opsC (F := F)).Forall fun op => op.writes ⊆ ((wC).map (Proc.devRef (τ := τ) .tc)).toFinset :=
  ⟨single_sub_map (y := main_v73) (by decide), single_sub_map (y := main_c_19) (by decide), single_sub_map (y := main_c_20) (by decide), single_sub_map (y := main_v74) (by decide)⟩
/-- A reference the row does not write keeps its contents. -/
theorem opsC_keep (V : Valuation τ sig (Elt F)) (r : Ref sig .tc) (hr : r ∉ wC) :
    after (opsC (F := F)) V (Proc.devRef .tc r) = V (Proc.devRef .tc r) :=
  after_of_writes_sub opsC V opsC_writes hr

end Cert.Proof.KI

end
-- ==== Proof.HostLookups.lean ====
/-
  The four lookups that build the grouped table, one at a time.

  Each lookup is a row of host operations that computes, on words, the bit `(c >> k) & 1` of `c = 0 … 15` ("add two if
  negative" never fires), pairs it with the word `k` as a start index `(k, bit)`, gathers the reshaped table
  `[14, 4, 2, 128]` at those start indices, and adds the gather to the running sum. Read as one function of the
  table, each row's result is the running sum plus that gather.
-/
import proofs.«203024_g60129542144782_cont_9to1_m_748_22_alg».proof.Proof.HostOps
import proofs.«203024_g60129542144782_cont_9to1_m_748_22_alg».proof.Proof.HostKeep
import proofs.«203024_g60129542144782_cont_9to1_m_748_22_alg».proof.Proof.GroupedTable
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx
open Idealize.ShloMosaic.StableHlo

variable {F : FTy → Type} [FloatOps F]

set_option maxHeartbeats 4000000 in
/-- The lookup for `k = 0`, run from a valuation that holds the reshaped table and the words `0 … 15`: its result is the running sum plus the `k`-th gather — entry `(j, c, d)` the table entry of feature `4 j + 0`, row "bit 0 of `c`", column `d`. -/
theorem L0_acc (W : Valuation τ sig (Elt F)) (t : FVec F S56x2x128 .f32)
    (h0 : W (Proc.devRef .tc main_v0) = Cert.GroupedTable.tr t)
    (h1 : W (Proc.devRef .tc main_v1) = iotaInDim S16 32 0) :
    after (opsL0 (F := F)) W (Proc.devRef .tc main_v18)
      = addf (W (Proc.devRef .tc main_v2)) (Cert.GroupedTable.gath t 0#32) := by
  unfold opsL0
  after_results_simp
  read_results
  rw [h0, h1]
  rfl

set_option maxHeartbeats 4000000 in
/-- The lookup for `k = 1`, run from a valuation that holds the reshaped table and the words `0 … 15`: its result is the running sum plus the `k`-th gather — entry `(j, c, d)` the table entry of feature `4 j + 1`, row "bit 1 of `c`", column `d`. -/
theorem L1_acc (W : Valuation τ sig (Elt F)) (t : FVec F S56x2x128 .f32)
    (h0 : W (Proc.devRef .tc main_v0) = Cert.GroupedTable.tr t)
    (h1 : W (Proc.devRef .tc main_v1) = iotaInDim S16 32 0) :
    after (opsL1 (F := F)) W (Proc.devRef .tc main_v34)
      = addf (W (Proc.devRef .tc main_v18)) (Cert.GroupedTable.gath t 1#32) := by
  unfold opsL1
  after_results_simp
  read_results
  rw [h0, h1]
  rfl

set_option maxHeartbeats 4000000 in
/-- The lookup for `k = 2`, run from a valuation that holds the reshaped table and the words `0 … 15`: its result is the running sum plus the `k`-th gather — entry `(j, c, d)` the table entry of feature `4 j + 2`, row "bit 2 of `c`", column `d`. -/
theorem L2_acc (W : Valuation τ sig (Elt F)) (t : FVec F S56x2x128 .f32)
    (h0 : W (Proc.devRef .tc main_v0) = Cert.GroupedTable.tr t)
    (h1 : W (Proc.devRef .tc main_v1) = iotaInDim S16 32 0) :
    after (opsL2b (F := F)) (after (opsL2a (F := F)) W) (Proc.devRef .tc main_v50)
      = addf (W (Proc.devRef .tc main_v34)) (Cert.GroupedTable.gath t 2#32) := by
  rw [← StableHlo.after_append]
  unfold opsL2a opsL2b
  simp only [List.cons_append, List.nil_append]
  after_results_simp
  read_results
  rw [h0, h1]
  rfl

set_option maxHeartbeats 4000000 in
/-- The lookup for `k = 3`, run from a valuation that holds the reshaped table and the words `0 … 15`: its result is the running sum plus the `k`-th gather — entry `(j, c, d)` the table entry of feature `4 j + 3`, row "bit 3 of `c`", column `d`. -/
theorem L3_acc (W : Valuation τ sig (Elt F)) (t : FVec F S56x2x128 .f32)
    (h0 : W (Proc.devRef .tc main_v0) = Cert.GroupedTable.tr t)
    (h1 : W (Proc.devRef .tc main_v1) = iotaInDim S16 32 0) :
    after (opsL3 (F := F)) W (Proc.devRef .tc main_v66)
      = addf (W (Proc.devRef .tc main_v50)) (Cert.GroupedTable.gath t 3#32) := by
  unfold opsL3
  after_results_simp
  read_results
  rw [h0, h1]
  rfl

end Cert.Proof.KI

end
-- ==== Proof.HostVals.lean ====
/-
  What the host operations of the kernel program compute, as equations of buffers.

  Before the first call: the two arguments are untouched; the call's index operand is rows `96000 …` of the index
  matrix laid flat; its table operand is the grouped table laid flat — entry `(j, c, d)` is zero plus, for
  `k = 0, 1, 2, 3`, the table entry of feature `4 j + k`, row "bit `k` of `c`", column `d` (the four lookups of the
  program, each adding its gather to the running sum). Between the calls: the table with its first two axes exchanged.
  After the second call: the result is the second call's result with the first call's rows, as `[4000, 128]`, in place
  of its rows `96000 …`; read at `(n, d)` that is the second call's entry for `n < 96000` and the first call's flat
  entry `(n - 96000) * 128 + d` from there on.
-/
import proofs.«203024_g60129542144782_cont_9to1_m_748_22_alg».proof.Proof.HostOps
import proofs.«203024_g60129542144782_cont_9to1_m_748_22_alg».proof.Proof.HostKeep
import proofs.«203024_g60129542144782_cont_9to1_m_748_22_alg».proof.Proof.HostLookups
import Idealize.ShloMosaic.Lib.Pipeline.Frame
import proofs.«203024_g60129542144782_cont_9to1_m_748_22_alg».proof.Proof.GroupedTable
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx
open Idealize.ShloMosaic.StableHlo

variable {F : FTy → Type} [FloatOps F]

/-! ## Before the first call -/

/-- The opening operations: the table reshaped to `[14, 4, 2, 128]` … -/
theorem G0_v0 (V : Valuation τ sig (Elt F)) :
    after (opsG0 (F := F)) V (Proc.devRef .tc main_v0) = Cert.GroupedTable.tr (V (Proc.devRef .tc main_arg1)) := by
  unfold opsG0
  after_results
  rfl
/-- … the words `0 … 15` … -/
theorem G0_v1 (V : Valuation τ sig (Elt F)) :
    after (opsG0 (F := F)) V (Proc.devRef .tc main_v1) = iotaInDim S16 32 0 := by
  unfold opsG0
  after_results
/-- … and the zero array the sum starts from. -/
theorem G0_v2 (V : Valuation τ sig (Elt F)) :
    after (opsG0 (F := F)) V (Proc.devRef .tc main_v2)
      = broadcastInDim S14x16x128 ![] bcast_S_S14x16x128 (constant (F := F) S_ .f32 0x00000000#32) := by
  unfold opsG0
  after_results

/-- The closing operations: the last 4000 rows of the index matrix, flattened … -/
theorem G1_v68 (W : Valuation τ sig (Elt F)) :
    after (opsG1 (F := F)) W (Proc.devRef .tc main_v68) = Cert.GroupedTable.xsTerm (W (Proc.devRef .tc main_arg0)) := by
  unfold opsG1
  after_results
  rfl
/-- … and the running sum, flattened. -/
theorem G1_v69 (W : Valuation τ sig (Elt F)) :
    after (opsG1 (F := F)) W (Proc.devRef .tc main_v69)
      = shapeCast S28672 (W (Proc.devRef .tc main_v66)) shapeCasts_S14x16x128_S28672 := by
  unfold opsG1
  after_results
  rfl

/-- The ninety-one operations, row by row. -/
theorem afterA_eq (V : Valuation τ sig (Elt F)) :
    after (opsA (F := F)) V = after (opsG1 (F := F)) (after (opsL3 (F := F)) (after (opsL2b (F := F)) (after (opsL2a (F := F)) (after (opsL1 (F := F)) (after (opsL0 (F := F)) (after (opsG0 (F := F)) V)))))) := by
  unfold opsA opsW0 opsW1
  simp only [StableHlo.after_append]

/-- The references the ninety-one operations write. -/
def wA : List (Ref sig .tc) := wG0 ++ wL0 ++ wL1 ++ wL2a ++ wL2b ++ wL3 ++ wG1

/-- Whatever the ninety-one operations do not write is, after them, what it was: in particular the two arguments and
    the buffers of the two calls' results. -/
theorem afterA_keep (V : Valuation τ sig (Elt F)) (r : Ref sig .tc) (hr : r ∉ wA) :
    after (opsA (F := F)) V (Proc.devRef .tc r) = V (Proc.devRef .tc r) := by
  unfold wA at hr
  simp only [List.mem_append, not_or] at hr
  obtain ⟨⟨⟨⟨⟨⟨h0, h1⟩, h2⟩, h3⟩, h4⟩, h5⟩, h6⟩ := hr
  rw [afterA_eq, opsG1_keep _ r h6, opsL3_keep _ r h5, opsL2b_keep _ r h4, opsL2a_keep _ r h3, opsL1_keep _ r h2,
    opsL0_keep _ r h1, opsG0_keep _ r h0]

theorem afterA_arg0 (V : Valuation τ sig (Elt F)) :
    after (opsA (F := F)) V (Proc.devRef .tc main_arg0) = V (Proc.devRef .tc main_arg0) := afterA_keep V main_arg0 (by decide)
theorem afterA_arg1 (V : Valuation τ sig (Elt F)) :
    after (opsA (F := F)) V (Proc.devRef .tc main_arg1) = V (Proc.devRef .tc main_arg1) := afterA_keep V main_arg1 (by decide)

/-- After the ninety-one operations the first call's index operand is rows `96000 …` of the index matrix, flattened. -/
theorem afterA_v68 (V : Valuation τ sig (Elt F)) :
    after (opsA (F := F)) V (Proc.devRef .tc main_v68) = Cert.GroupedTable.xsTerm (V (Proc.devRef .tc main_arg0)) := by
  rw [afterA_eq, G1_v68, opsL3_keep _ main_arg0 (by decide), opsL2b_keep _ main_arg0 (by decide),
    opsL2a_keep _ main_arg0 (by decide), opsL1_keep _ main_arg0 (by decide), opsL0_keep _ main_arg0 (by decide),
    opsG0_keep _ main_arg0 (by decide)]

/-- After the ninety-one operations the first call's table operand is the grouped table, flattened: zero plus the
    four gathers in turn, each read off the reshaped table. -/
theorem afterA_v69 (V : Valuation τ sig (Elt F)) :
    after (opsA (F := F)) V (Proc.devRef .tc main_v69) = Cert.GroupedTable.gtTerm (V (Proc.devRef .tc main_arg1)) := by
  have e0 := G0_v0 V
  have e1 := G0_v1 V
  have e2 := G0_v2 V
  -- the reshaped table and the words 0 … 15 stay put through the lookups
  have k20 : (after (opsL0 (F := F)) (after (opsG0 (F := F)) V)) (Proc.devRef .tc main_v0) = _ := (opsL0_keep _ main_v0 (by decide)).trans e0
  have k21 : (after (opsL0 (F := F)) (after (opsG0 (F := F)) V)) (Proc.devRef .tc main_v1) = _ := (opsL0_keep _ main_v1 (by decide)).trans e1
  have k30 : (after (opsL1 (F := F)) (after (opsL0 (F := F)) (after (opsG0 (F := F)) V))) (Proc.devRef .tc main_v0) = _ := (opsL1_keep _ main_v0 (by decide)).trans k20
  have k31 : (after (opsL1 (F := F)) (after (opsL0 (F := F)) (after (opsG0 (F := F)) V))) (Proc.devRef .tc main_v1) = _ := (opsL1_keep _ main_v1 (by decide)).trans k21
  have k50 : (after (opsL2b (F := F)) (after (opsL2a (F := F)) (after (opsL1 (F := F)) (after (opsL0 (F := F)) (after (opsG0 (F := F)) V))))) (Proc.devRef .tc main_v0) = _ :=
    ((opsL2b_keep _ main_v0 (by decide)).trans (opsL2a_keep _ main_v0 (by decide))).trans k30
  have k51 : (after (opsL2b (F := F)) (after (opsL2a (F := F)) (after (opsL1 (F := F)) (after (opsL0 (F := F)) (after (opsG0 (F := F)) V))))) (Proc.devRef .tc main_v1) = _ :=
    ((opsL2b_keep _ main_v1 (by decide)).trans (opsL2a_keep _ main_v1 (by decide))).trans k31
  -- the running sum, lookup by lookup
  have a1 := L0_acc (after (opsG0 (F := F)) V) (V (Proc.devRef .tc main_arg1)) e0 e1
  have a2 := L1_acc (after (opsL0 (F := F)) (after (opsG0 (F := F)) V)) (V (Proc.devRef .tc main_arg1)) k20 k21
  have a3 := L2_acc (after (opsL1 (F := F)) (after (opsL0 (F := F)) (after (opsG0 (F := F)) V))) (V (Proc.devRef .tc main_arg1)) k30 k31
  have a4 := L3_acc (after (opsL2b (F := F)) (after (opsL2a (F := F)) (after (opsL1 (F := F)) (after (opsL0 (F := F)) (after (opsG0 (F := F)) V))))) (V (Proc.devRef .tc main_arg1)) k50 k51
  rw [afterA_eq, G1_v69, a4, a3, a2, a1, e2]
  rfl

/-! ## Between the calls: the transpose -/

/-- After the transpose the new array is the table with its first two axes exchanged. -/
theorem afterB_v71 (V : Valuation τ sig (Elt F)) :
    after (opsB (F := F)) V (Proc.devRef .tc main_v71)
      = transpose S2x56x128 [1, 0, 2] (V (Proc.devRef .tc main_arg1)) transposes_S56x2x128_S2x56x128_1_0_2 := by
  unfold opsB
  after_results

/-- Read at `(r, f, d)`: the table at `(f, r, d)`. -/
theorem afterB_v71_apply (V : Valuation τ sig (Elt F)) (r : Fin 2) (f : Fin 56) (d : Fin 128) :
    after (opsB (F := F)) V (Proc.devRef .tc main_v71) (ix3 r f d) = V (Proc.devRef .tc main_arg1) (ix3 f r d) := by
  rw [afterB_v71]
  exact transpose_apply _ _ transposes_S56x2x128_S2x56x128_1_0_2 (ix3 r f d) (ix3 f r d)
    (fun b => by match b with | ⟨0, _⟩ => rfl | ⟨1, _⟩ => rfl | ⟨2, _⟩ => rfl)

/-! ## After the second call: the rows put in place -/

/-- The update's window at rows `96000 …`, all columns, lies inside the result. -/
theorem slices_upd : S100000x128.Slices (![96000, 0] : Fin 2 → Nat) S4000x128 := by decide

/-- The update operation from a valuation whose two start words are `96000` and `0`: the clamp of the start leaves
    `(96000, 0)` alone (`96000 ≤ 100000 - 4000`, `0 ≤ 128 - 128`), so the result is the first array with the second in
    place of its rows `96000 …`. -/
theorem dus_result (W : Valuation τ sig (Elt F))
    (h19 : W (Proc.devRef .tc main_c_19) = constantI S_ 32 96000#32)
    (h20 : W (Proc.devRef .tc main_c_20) = constantI S_ 32 0#32) :
    (StableHlo.binaryIndexed main_v72 main_v73 ![main_c_19, main_c_20] ⟨S_, .i32⟩ main_v74 ((fun x u i => Host.dynamicUpdateSlice x u (fun k => (i k (Shape.Idx.first h_S_)).toInt) updateFits_S100000x128_S4000x128) : (⟨S100000x128, .f32⟩ : BufTy).Contents (Elt F) → (⟨S4000x128, .f32⟩ : BufTy).Contents (Elt F) → (Fin 2 → (⟨S_, .i32⟩ : BufTy).Contents (Elt F)) → (⟨S100000x128, .f32⟩ : BufTy).Contents (Elt F))).result W
        (Proc.devRef .tc main_v74)
      = updateSlice (W (Proc.devRef .tc main_v72)) (W (Proc.devRef .tc main_v73)) ![96000, 0] slices_upd := by
  rw [binaryIndexed_result]
  refine Host.dynamicUpdateSlice_eq_updateSlice (s := S100000x128) (u := S4000x128) _ _ _ _ (![96000, 0] : Fin 2 → Nat)
    (fun a => ?_) slices_upd
  match a with
  | ⟨0, _⟩ =>
    show (min (max (BitVec.toInt ((W (Proc.devRef .tc main_c_19) : IVec S_ 32) (Shape.Idx.first h_S_))) 0)
      ((100000 - 4000 : Nat) : Int)).toNat = 96000
    rw [h19]; decide
  | ⟨1, _⟩ =>
    show (min (max (BitVec.toInt ((W (Proc.devRef .tc main_c_20) : IVec S_ 32) (Shape.Idx.first h_S_))) 0)
      ((128 - 128 : Nat) : Int)).toNat = 0
    rw [h20]; decide

/-- After the last four operations the result array is the second call's result with the first call's result, as
    `[4000, 128]`, in place of its rows `96000 …`. -/
theorem afterC_v74 (V : Valuation τ sig (Elt F)) :
    after (opsC (F := F)) V (Proc.devRef .tc main_v74)
      = updateSlice (V (Proc.devRef .tc main_v72))
          (shapeCast S4000x128 (V (Proc.devRef .tc main_v70)) shapeCasts_S512000_S4000x128) ![96000, 0] slices_upd := by
  unfold opsC
  simp only [after_cons, after_nil]
  rw [dus_result _ (by read_results) (by read_results)]
  read_results
  rfl

/-- Read at `(n, d)` below row 96000: the second call's result there. -/
theorem afterC_v74_lo (V : Valuation τ sig (Elt F)) (n : Fin 100000) (d : Fin 128) (hn : n.val < 96000) :
    after (opsC (F := F)) V (Proc.devRef .tc main_v74) (ix2 n d) = V (Proc.devRef .tc main_v72) (ix2 n d) := by
  rw [afterC_v74]
  unfold updateSlice
  rw [dif_neg (fun h => by have := (h (0 : Fin 2)).1; revert this; show ¬ (96000 ≤ n.val); omega)]

/-- Read at `(n, d)` from row 96000 on: the first call's flat result at `(n - 96000) * 128 + d`. -/
theorem afterC_v74_hi (V : Valuation τ sig (Elt F)) (n : Fin 100000) (d : Fin 128) (hn : 96000 ≤ n.val) :
    after (opsC (F := F)) V (Proc.devRef .tc main_v74) (ix2 n d)
      = V (Proc.devRef .tc main_v70) (ix1 ⟨(n.val - 96000) * 128 + d.val, by omega⟩) := by
  rw [afterC_v74]
  unfold updateSlice
  rw [dif_pos (fun a => by
    match a with
    | ⟨0, _⟩ => exact ⟨hn, show n.val < 96000 + 4000 by omega⟩
    | ⟨1, _⟩ => exact ⟨Nat.zero_le _, show d.val < 0 + 128 by omega⟩)]
  refine shapeCast_apply _ shapeCasts_S512000_S4000x128 _ _ ?_
  rw [Shape.rowMajor_val_one, Shape.rowMajor_val_two]
  show (n.val - 96000) * 128 + d.val = (n.val - 96000) * 128 + (d.val - 0)
  omega

/-- The last four operations leave every buffer but the four they write as it was. -/
theorem afterC_keep (V : Valuation τ sig (Elt F)) (r : Ref sig .tc)
    (h73 : r ≠ main_v73) (h19 : r ≠ main_c_19) (h20 : r ≠ main_c_20) (h74 : r ≠ main_v74) :
    after (opsC (F := F)) V (Proc.devRef .tc r) = V (Proc.devRef .tc r) := by
  unfold opsC
  simp only [after_cons, after_nil]
  rw [binaryIndexed_result_ne _ _ _ _ _ _ _ _ _ _ _ _ h74, nullary_result_ne _ _ _ _ h20, nullary_result_ne _ _ _ _ h19,
    reshape_result_ne _ _ _ _ _ _ _ h73]

end Cert.Proof.KI

end
-- ==== Proof.LaunchMain.lean ====
/-
  The program's entry function on a device's TensorCore, from the launch to its end.

  The TensorCore holds all its unscoped buffers at one valuation at a time. It runs the ninety-one host operations;
  takes the call's two inputs and result buffer out of the set, deals the two cores their parts (a share of each
  input, the result's micro-batches of the core's parity), runs the call and gathers the parts back — the result at
  one array `g`, each of its entries with the call's per-entry fact —; runs the transpose; takes the region's three
  arrays out, runs the region (which owes nothing: the one call is over) and puts them back, the region's result in
  its buffer; runs the last four operations. What is left for the claim: the two arguments as launched, and the result
  array, which is the region's result with `g`, as `[4000, 128]`, in place of its rows `96000 …`.
-/
import proofs.«203024_g60129542144782_cont_9to1_m_748_22_alg».proof.Proof.LaunchDefs
import proofs.«203024_g60129542144782_cont_9to1_m_748_22_alg».proof.Proof.LaunchSplit
import proofs.«203024_g60129542144782_cont_9to1_m_748_22_alg».proof.Proof.TcFund
import proofs.«203024_g60129542144782_cont_9to1_m_748_22_alg».proof.Proof.HostRun
import proofs.«203024_g60129542144782_cont_9to1_m_748_22_alg».proof.Proof.HostVals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

open Cert.KernelIdeal.Tc (EP uP Gtc0 hfund)
open Idealize.ShloMosaic.StableHlo (held_sub_split held_congr after)

/-! ## Taking named buffers out of the held set and putting them back -/

omit m ρ in
/-- An unscoped reference of the TensorCore is one of the held set. -/
theorem mem_uc (b : Ref sig .tc) (h : (Proc.devRef (τ := τ) .tc b).isScoped = false) :
    Proc.devRef .tc b ∈ Pipeline.ucRefs τ sig :=
  Finset.mem_filter.mpr ⟨StableHlo.devRef_mem_tcRefs b, by simp [h]⟩

omit m ρ in
/-- Three distinct buffers held at a valuation, one by one. -/
theorem held_three (d : Dev nD) {a b c : DevRef τ sig} (hab : a ≠ b) (hac : a ≠ c) (hbc : b ≠ c)
    (W : Valuation τ sig (Elt F)) :
    (held (SparseCore.T d) {a, b, c} W : sProp 𝕄)
      = iprop(((d, a) ↦{fullShare} W a) ∗ ((d, b) ↦{fullShare} W b) ∗ ((d, c) ↦{fullShare} W c)) := by
  unfold held
  rw [SparseCore.bigSep_insert' (by simp [hab, hac]), SparseCore.bigSep_insert' (by simp [hbc]), bigSep_singleton]

omit m ρ in
/-- The held set is three of its buffers and the rest. -/
theorem held_take (d : Dev nD) {a b c : DevRef τ sig} (hab : a ≠ b) (hac : a ≠ c) (hbc : b ≠ c)
    (hs : ({a, b, c} : Finset (DevRef τ sig)) ⊆ Pipeline.ucRefs τ sig) (W : Valuation τ sig (Elt F)) :
    (held (SparseCore.T d) (Pipeline.ucRefs τ sig) W : sProp 𝕄)
      = iprop((((d, a) ↦{fullShare} W a) ∗ ((d, b) ↦{fullShare} W b) ∗ ((d, c) ↦{fullShare} W c))
          ∗ held (SparseCore.T d) (Pipeline.ucRefs τ sig \ {a, b, c}) W) := by
  rw [held_sub_split (SparseCore.T d) hs W, held_three d hab hac hbc W]

omit m ρ in
/-- The rest does not see a change of the valuation at the three. -/
theorem held_rest_congr (d : Dev nD) {a b c : DevRef τ sig} {W W' : Valuation τ sig (Elt F)}
    (h : ∀ r, r ≠ a → r ≠ b → r ≠ c → W r = W' r) :
    (held (SparseCore.T d) (Pipeline.ucRefs τ sig \ {a, b, c}) W : sProp 𝕄)
      = held (SparseCore.T d) (Pipeline.ucRefs τ sig \ {a, b, c}) W' :=
  held_congr (SparseCore.T d) fun r hr => by
    have hn := (Finset.mem_sdiff.mp hr).2
    simp only [Finset.mem_insert, Finset.mem_singleton, not_or] at hn
    exact h r hn.1 hn.2.1 hn.2.2

variable [FloatOps F]

/-! ## The call's operands dealt to the two cores and gathered back -/

omit m ρ in
/-- A family over the call's two cores is its two members. -/
theorem bigSep_cores (Ψ : Fin 2 → sProp 𝕄) :
    (bigSep Finset.univ fun c : Fin ((K (F := F)).nCore 0) => Ψ (Fin.cast nCore_zero c)) = iprop(Ψ 0 ∗ Ψ 1) := by
  rw [show (bigSep Finset.univ fun c : Fin ((K (F := F)).nCore 0) => Ψ (Fin.cast nCore_zero c)) = bigSep Finset.univ Ψ from
    bigSep_congr fun _ _ => congrArg Ψ (Fin.ext rfl), bigSep_univ_two]

omit m ρ in
/-- The whole result array is the two cores' entries. -/
theorem out_cores (d : Dev nD) (f : Buf (Elt F) (outLoc d)) :
    (outLoc d ↦{fullShare} f : sProp 𝕄)
      = iprop((outLoc d ↦[coreSet 0]{fullShare} f) ∗ (outLoc d ↦[coreSet 1]{fullShare} f)) := by
  rw [← bigSep_univ_two (fun c => (outLoc d ↦[coreSet c]{fullShare} f : sProp 𝕄)),
    ← pointsTo_biUnion Finset.univ (ℓ := outLoc d) coreSet cores_disjoint, cores_cover]; try rfl

/-- The two inputs and the result, whole, deal the two cores their parts; each input's remainder stays behind. -/
theorem call_in (d : Dev nD) (f : Buf (Elt F) (outLoc d)) :
    iprop((xsLoc d ↦{fullShare} Xv m d) ∗ (gtLoc d ↦{fullShare} Gv m d) ∗ (outLoc d ↦{fullShare} f))
      ⊢ (iprop((forCore m d 0 ∗ forCore m d 1) ∗ (xsLoc d ↦{Transfers.shareDrop fullShare 2} Xv m d)
          ∗ (gtLoc d ↦{Transfers.shareDrop fullShare 2} Gv m d)) : sProp 𝕄) := by
  unfold forCore
  rw [out_cores]
  iintro ⟨Hx, Hg, Ho0, Ho1⟩
  ihave Hx' := (Transfers.pointsTo_toks_split (ℓ := xsLoc d) (S := Finset.univ) (f := Xv m d) fullShare 2) $$ Hx
  icases Hx' with ⟨Hxd, Hxs⟩
  ihave Hxs' := (Entails.of_eq (bigSep_univ_two (fun c : Fin 2 => (xsLoc d ↦{Transfers.shareTok fullShare 2 c} Xv m d : sProp 𝕄)))) $$ Hxs
  icases Hxs' with ⟨Hx0, Hx1⟩
  ihave Hg' := (Transfers.pointsTo_toks_split (ℓ := gtLoc d) (S := Finset.univ) (f := Gv m d) fullShare 2) $$ Hg
  icases Hg' with ⟨Hgd, Hgs⟩
  ihave Hgs' := (Entails.of_eq (bigSep_univ_two (fun c : Fin 2 => (gtLoc d ↦{Transfers.shareTok fullShare 2 c} Gv m d : sProp 𝕄)))) $$ Hgs
  icases Hgs' with ⟨Hg0, Hg1⟩
  isplitl [Hx0 Hx1 Hg0 Hg1 Ho0 Ho1]
  · isplitl [Hx0 Hg0 Ho0]
    · isplitl [Hx0]; · iexact Hx0
      isplitl [Hg0]; · iexact Hg0
      iexists f; iexact Ho0
    · isplitl [Hx1]; · iexact Hx1
      isplitl [Hg1]; · iexact Hg1
      iexists f; iexact Ho1
  isplitl [Hxd]; · iexact Hxd
  iexact Hgd

/-- The two cores' parts coming back and the remainders are the two inputs whole again and the result whole at one
    array, the per-entry fact holding of every entry. -/
theorem call_out [∀ e, Nonempty (Elt F e)] (Φ : Dev nD → S512000.Idx → Elt F .f32 → Prop) (d : Dev nD) :
    iprop((backCore m Φ d 0 ∗ backCore m Φ d 1) ∗ (xsLoc d ↦{Transfers.shareDrop fullShare 2} Xv m d)
        ∗ (gtLoc d ↦{Transfers.shareDrop fullShare 2} Gv m d))
      ⊢ (iprop((xsLoc d ↦{fullShare} Xv m d) ∗ (gtLoc d ↦{fullShare} Gv m d)
          ∗ ∃ g, (outLoc d ↦{fullShare} g) ∗ ⌜∀ j, Φ d j (g j)⌝) : sProp 𝕄) := by
  unfold backCore
  iintro ⟨⟨⟨Hx0, Hg0, Ho0⟩, ⟨Hx1, Hg1, Ho1⟩⟩, Hxd, Hgd⟩
  isplitl [Hx0 Hx1 Hxd]
  · iapply (Transfers.pointsTo_toks_join (ℓ := xsLoc d) (S := Finset.univ) (f := Xv m d) fullShare 2)
    isplitl [Hxd]; · iexact Hxd
    iapply (Entails.of_eq (bigSep_univ_two (fun c : Fin 2 => (xsLoc d ↦{Transfers.shareTok fullShare 2 c} Xv m d : sProp 𝕄))).symm)
    isplitl [Hx0]; · iexact Hx0
    iexact Hx1
  isplitl [Hg0 Hg1 Hgd]
  · iapply (Transfers.pointsTo_toks_join (ℓ := gtLoc d) (S := Finset.univ) (f := Gv m d) fullShare 2)
    isplitl [Hgd]; · iexact Hgd
    iapply (Entails.of_eq (bigSep_univ_two (fun c : Fin 2 => (gtLoc d ↦{Transfers.shareTok fullShare 2 c} Gv m d : sProp 𝕄))).symm)
    isplitl [Hg0]; · iexact Hg0
    iexact Hg1
  ihave Hb := (Entails.of_eq (bigSep_univ_two (fun c : Fin 2 =>
    (iprop(∃ f, (outLoc d ↦[coreSet c]{fullShare} f) ∗ ⌜OutOK Φ d (coreSet c) f⌝) : sProp 𝕄))).symm) $$ [Ho0 Ho1]
  · isplitl [Ho0]; · iexact Ho0
    iexact Ho1
  ihave Hj := (outPieces_join (F := F) Φ d Finset.univ coreSet cores_disjoint) $$ Hb
  rw [cores_cover]
  icases Hj with ⟨%g, Hg, %hg⟩
  iexists g
  isplitl [Hg]; · iexact Hg
  ipureintro
  exact fun j => hg j (Finset.mem_univ j)

/-- The launch element: the handshakes' rounds, the rounds of the TensorCore region's staging cells, no transfer
    counted yet. -/
def u₀ : UU := (initOf (K (F := F)).hsCells (K (F := F)).hsToks, (uP, 1))

omit m ρ in
theorem bigSep_emp' {I : Type} (s : Finset I) : (bigSep s fun _ => iprop(emp)) = (iprop(emp) : sProp 𝕄) := bigSep_emp_const s

/-- The launch element pays for the handshakes' rounds and, per device, for the region's staging cells; the call's
    proofs are dealt nothing of their own. -/
theorem hu₀ (Φ : Dev nD → S512000.Idx → Elt F .f32 → Prop) : (ownU (u₀ (F := F)) : sProp 𝕄)
    ⊢ |={Set.univ}=> iprop(BI.own (EH (initOf (K (F := F)).hsCells (K (F := F)).hsToks))
        ∗ (bigSep Finset.univ fun d : Dev nD => Gtc0 (F := F) d)
        ∗ bigSep Finset.univ fun thr : Thread nD τ => bigSep Finset.univ fun q : Fin 1 => (P m Φ).x q thr) := by
  unfold u₀
  iintro Hu
  imod (hfund (F := F) (initOf (K (F := F)).hsCells (K (F := F)).hsToks) 1) $$ Hu with H
  icases H with ⟨HH, -, HG⟩
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The valuations along the program

The TensorCore's unscoped buffers are held at one valuation at a time: the launch memory; after the ninety-one
operations; with the first call's result `g` in its buffer; after the transpose; with the region's result in its
buffer; after the last four operations. -/

abbrev V0 (d : Dev nD) : Valuation τ sig (Elt F) := fun b => m (d, b)
def VA (d : Dev nD) : Valuation τ sig (Elt F) := after (opsA (F := F)) (V0 m d)
def V1 (d : Dev nD) (g : Buf (Elt F) (outLoc d)) : Valuation τ sig (Elt F) :=
  Function.update (VA m d) (Proc.devRef .tc main_v70) g
def V2 (d : Dev nD) (g : Buf (Elt F) (outLoc d)) : Valuation τ sig (Elt F) := after (opsB (F := F)) (V1 m d g)

/-- The region's three arrays as it finds them on device `c`: the index matrix, the transposed tables, and whatever the
    launch left in its result buffer; it owes nothing, and its recorded waits are all at or below the first call's band. -/
def xR (c : Dev nD) : Buf (Elt F) ((c.tc : Thread nD τ).loc main_arg0) := m (a0Loc c)
def ttR (c : Dev nD) : Buf (Elt F) ((c.tc : Thread nD τ).loc main_v71) :=
  transpose S2x56x128 [1, 0, 2] (m (a1Loc c)) transposes_S56x2x128_S2x56x128_1_0_2
def f0R (c : Dev nD) : Buf (Elt F) ((c.tc : Thread nD τ).loc main_v72) := m ((SparseCore.T c).loc main_v72)
def OR : Dev nD → CellTallies nD τ sig (HIx 1) := fun _ => 0
def BR : Dev nD → Set (SemLoc sig × HIx 1) := fun c => {p | (K (F := F)).lev (SparseCore.T c, p.1) p.2 ≤ 8}

/-- What the region leaves in its result buffer. -/
def A2 (d : Dev nD) : Buf (Elt F) ((d.tc : Thread nD τ).loc main_v72) :=
  (Cert.KernelIdeal.Tc.pdats (xR m) (ttR m) (f0R m) OR (BR (F := F)) 0 d).arrAt 2 cfg1.N

def V3 (d : Dev nD) (g : Buf (Elt F) (outLoc d)) : Valuation τ sig (Elt F) :=
  Function.update (V2 m d g) (Proc.devRef .tc main_v72) (A2 m d)
def V4 (d : Dev nD) (g : Buf (Elt F) (outLoc d)) : Valuation τ sig (Elt F) := after (opsC (F := F)) (V3 m d g)

omit m ρ in
/-- The region only reads its first two arrays: it leaves the index matrix as it found it … -/
theorem arrAt_in0 (c : Dev nD) (x : Buf (Elt F) ((c.tc : Thread nD τ).loc main_arg0))
    (tt : Buf (Elt F) ((c.tc : Thread nD τ).loc main_v71)) (f0 : Buf (Elt F) ((c.tc : Thread nD τ).loc main_v72))
    (O : CellTallies nD τ sig (HIx 1)) (B : Set (SemLoc sig × HIx 1)) (n : Nat) :
    (Cert.KernelIdeal.Tc.dats (Name := ℕ) (U := UU) c x tt f0 O B).arrAt 0 n = x :=
  ((Cert.KernelIdeal.Tc.dats (Name := ℕ) (U := UU) c x tt f0 O B).arrAt_in 0 rfl n).trans
    (Cert.KernelIdeal.Tc.A_0 c x tt f0 O B)
omit m ρ in
/-- … and the transposed tables likewise. -/
theorem arrAt_in1 (c : Dev nD) (x : Buf (Elt F) ((c.tc : Thread nD τ).loc main_arg0))
    (tt : Buf (Elt F) ((c.tc : Thread nD τ).loc main_v71)) (f0 : Buf (Elt F) ((c.tc : Thread nD τ).loc main_v72))
    (O : CellTallies nD τ sig (HIx 1)) (B : Set (SemLoc sig × HIx 1)) (n : Nat) :
    (Cert.KernelIdeal.Tc.dats (Name := ℕ) (U := UU) c x tt f0 O B).arrAt 1 n = tt :=
  ((Cert.KernelIdeal.Tc.dats (Name := ℕ) (U := UU) c x tt f0 O B).arrAt_in 1 rfl n).trans
    (Cert.KernelIdeal.Tc.A_1 c x tt f0 O B)

omit ρ in
theorem VA_v68 (d : Dev nD) : VA m d (Proc.devRef .tc main_v68) = Xv m d := afterA_v68 (V0 m d)
omit ρ in
theorem VA_v69 (d : Dev nD) : VA m d (Proc.devRef .tc main_v69) = Gv m d := afterA_v69 (V0 m d)

omit ρ in
theorem V2_arg0 (d : Dev nD) (g : Buf (Elt F) (outLoc d)) : V2 m d g (Proc.devRef .tc main_arg0) = xR m d := by
  unfold V2 V1
  rw [opsB_keep _ main_arg0 (by decide), Function.update_of_ne (by decide)]
  exact afterA_arg0 (V0 m d)
omit ρ in
theorem V2_v71 (d : Dev nD) (g : Buf (Elt F) (outLoc d)) : V2 m d g (Proc.devRef .tc main_v71) = ttR m d := by
  unfold V2 V1
  rw [afterB_v71, Function.update_of_ne (by decide)]
  exact congrArg (fun t => transpose S2x56x128 [1, 0, 2] t transposes_S56x2x128_S2x56x128_1_0_2) (afterA_arg1 (V0 m d))
omit ρ in
theorem V2_v72 (d : Dev nD) (g : Buf (Elt F) (outLoc d)) : V2 m d g (Proc.devRef .tc main_v72) = f0R m d := by
  unfold V2 V1
  rw [opsB_keep _ main_v72 (by decide), Function.update_of_ne (by decide)]
  exact afterA_keep (V0 m d) main_v72 (by decide)
omit ρ in
theorem V4_arg0 (d : Dev nD) (g : Buf (Elt F) (outLoc d)) : V4 m d g (Proc.devRef .tc main_arg0) = m (a0Loc d) := by
  unfold V4 V3
  rw [afterC_keep _ main_arg0 (by decide) (by decide) (by decide) (by decide), Function.update_of_ne (by decide)]
  exact V2_arg0 m d g
omit ρ in
theorem V4_arg1 (d : Dev nD) (g : Buf (Elt F) (outLoc d)) : V4 m d g (Proc.devRef .tc main_arg1) = m (a1Loc d) := by
  unfold V4 V3 V2 V1
  rw [afterC_keep _ main_arg1 (by decide) (by decide) (by decide) (by decide), Function.update_of_ne (by decide),
    opsB_keep _ main_arg1 (by decide), Function.update_of_ne (by decide)]
  exact afterA_arg1 (V0 m d)
omit ρ in
/-- The program's result: the region's result with the first call's result, as `[4000, 128]`, in place of its rows
    `96000 …`. -/
theorem V4_v74 (d : Dev nD) (g : Buf (Elt F) (outLoc d)) :
    V4 m d g (Proc.devRef .tc main_v74)
      = updateSlice (A2 m d) (shapeCast S4000x128 g shapeCasts_S512000_S4000x128) ![96000, 0] slices_upd := by
  unfold V4
  rw [afterC_v74]
  unfold V3
  rw [Function.update_self, Function.update_of_ne (by decide)]
  unfold V2
  rw [opsB_keep _ main_v70 (by decide)]
  unfold V1
  rw [Function.update_self]

/-! ## @main on the TensorCore -/

omit m ρ in
/-- A row of operations is itself followed by nothing. -/
theorem seq_bind_pure (ops : List (HloOp τ sig (Elt F))) :
    (StableHlo.seq ops : Prog (TpuEff nD τ sig (Elt F) (SparseCore.Sig (ΛP (F := F)) 1) .tc) PUnit)
      = (StableHlo.seq ops >>= fun u => pure u) := by
  induction ops with
  | nil => simp only [StableHlo.seq, pure_bind]
  | cons op ops ih => simp only [StableHlo.seq, bind_assoc]; rw [← ih]

omit m ρ in
/-- Nothing is owed once the one call is over, so any wait is allowed. -/
theorem hwaitR (c : Dev nD) (sm : SemLoc sig) :
    (levAts (K (F := F)).L (K (F := F)).lev : sProp 𝕄) ⊢ MayWait (c.tc : Thread nD τ) sm none (OR c) := by
  show _ ⊢ MayWait (c.tc : Thread nD τ) sm none 0
  rw [MayWait_zero]
  iintro -
  iempintro

omit ρ in
theorem V1_v68 (d : Dev nD) (g : Buf (Elt F) (outLoc d)) : V1 m d g (Proc.devRef .tc main_v68) = Xv m d := by
  unfold V1; rw [Function.update_of_ne (by decide)]; exact VA_v68 m d
omit ρ in
theorem V1_v69 (d : Dev nD) (g : Buf (Elt F) (outLoc d)) : V1 m d g (Proc.devRef .tc main_v69) = Gv m d := by
  unfold V1; rw [Function.update_of_ne (by decide)]; exact VA_v69 m d
omit ρ in
theorem V1_v70 (d : Dev nD) (g : Buf (Elt F) (outLoc d)) : V1 m d g (Proc.devRef .tc main_v70) = g := by
  unfold V1; rw [Function.update_self]

omit m ρ in
theorem sub_call : ({Proc.devRef .tc main_v68, Proc.devRef .tc main_v69, Proc.devRef .tc main_v70} : Finset (DevRef τ sig))
    ⊆ Pipeline.ucRefs τ sig := by
  intro r hr
  simp only [Finset.mem_insert, Finset.mem_singleton] at hr
  rcases hr with rfl | rfl | rfl
  · exact mem_uc main_v68 (by decide)
  · exact mem_uc main_v69 (by decide)
  · exact mem_uc main_v70 (by decide)
omit m ρ in
theorem sub_region : ({Proc.devRef .tc main_arg0, Proc.devRef .tc main_v71, Proc.devRef .tc main_v72} : Finset (DevRef τ sig))
    ⊆ Pipeline.ucRefs τ sig := by
  intro r hr
  simp only [Finset.mem_insert, Finset.mem_singleton] at hr
  rcases hr with rfl | rfl | rfl
  · exact mem_uc main_arg0 (by decide)
  · exact mem_uc main_v71 (by decide)
  · exact mem_uc main_v72 (by decide)
omit m ρ in
theorem sub_fin : ({Proc.devRef .tc main_arg0, Proc.devRef .tc main_arg1, Proc.devRef .tc main_v74} : Finset (DevRef τ sig))
    ⊆ Pipeline.ucRefs τ sig := by
  intro r hr
  simp only [Finset.mem_insert, Finset.mem_singleton] at hr
  rcases hr with rfl | rfl | rfl
  · exact mem_uc main_arg0 (by decide)
  · exact mem_uc main_arg1 (by decide)
  · exact mem_uc main_v74 (by decide)

omit ρ in
theorem st0_eq (Φ : Dev nD → S512000.Idx → Elt F .f32 → Prop) (d : Dev nD) :
    (bigSep Finset.univ fun c : Fin ((K (F := F)).nCore 0) => (P m Φ).st 0 d c) = iprop(forCore m d 0 ∗ forCore m d 1) :=
  bigSep_cores (F := F) (fun c => forCore m d c)
omit ρ in
theorem dn0_eq (Φ : Dev nD → S512000.Idx → Elt F .f32 → Prop) (d : Dev nD) :
    (bigSep Finset.univ fun c : Fin ((K (F := F)).nCore 0) => (P m Φ).dn 0 d c) = iprop(backCore m Φ d 0 ∗ backCore m Φ d 1) :=
  bigSep_cores (F := F) (fun c => backCore m Φ d c)

omit ρ in
theorem V3_arg0 (d : Dev nD) (g : Buf (Elt F) (outLoc d)) : V3 m d g (Proc.devRef .tc main_arg0) = xR m d := by
  unfold V3; rw [Function.update_of_ne (by decide)]; exact V2_arg0 m d g
omit ρ in
theorem V3_v71 (d : Dev nD) (g : Buf (Elt F) (outLoc d)) : V3 m d g (Proc.devRef .tc main_v71) = ttR m d := by
  unfold V3; rw [Function.update_of_ne (by decide)]; exact V2_v71 m d g
omit ρ in
theorem V3_v72 (d : Dev nD) (g : Buf (Elt F) (outLoc d)) : V3 m d g (Proc.devRef .tc main_v72) = A2 m d := by
  unfold V3; rw [Function.update_self]

omit m ρ in
/-- Recorded waits within the call's band or at the region's own cells (whose index is no call's) are within the
    call's band. -/
theorem wbelow_of_sub (d : Dev nD) (W' : Waits sig (HIx 1))
    (h : (↑W' : Set (SemLoc sig × HIx 1)) ⊆ BR (F := F) d ∪ cfg1.waitPairs none) :
    (K (F := F)).WBelow (SparseCore.T d) W' (8 * 1) := by
  intro p hp
  rcases h (Finset.mem_coe.mpr hp) with h1 | h2
  · exact h1
  · obtain ⟨w, s, rfl⟩ := h2
    exact Nat.zero_le _

/-- What @main leaves the claim: the two arguments as launched, and the result — the region's result with the first
    call's result `g` in place of its rows `96000 …`, every entry of `g` with the call's per-entry fact. -/
def FIN (Φ : Dev nD → S512000.Idx → Elt F .f32 → Prop) (d : Dev nD) : sProp 𝕄 :=
  iprop((a0Loc d ↦{fullShare} m (a0Loc d)) ∗ (a1Loc d ↦{fullShare} m (a1Loc d))
    ∗ ∃ g : Buf (Elt F) (outLoc d), ⌜∀ j, Φ d j (g j)⌝
        ∗ ((SparseCore.T d).loc main_v74 ↦{fullShare}
            updateSlice (A2 m d) (shapeCast S4000x128 g shapeCasts_S512000_S4000x128) ![96000, 0] slices_upd))

set_option maxHeartbeats 1000000 in
/-- @main on device `d`'s TensorCore: the ninety-one operations; the call, its operands dealt to the two cores and
    gathered back; the transpose; the region; the last four operations. -/
theorem hmain [∀ e, Nonempty (Elt F e)] (Φ : Dev nD → S512000.Idx → Elt F .f32 → Prop)
    (κ : GSem nD τ sig → ℕ) (d : Dev nD) :
    iprop((K (F := F)).ctx EH (P m Φ) κ ∗ (K (F := F)).tcSt EH d 0 ∗ (K (F := F)).tcRes m ρ d ∗ Gtc0 (F := F) d)
      ⊢ wp frame (wpE ((K (F := F)).defs (D (F := F))) 𝒱 (SparseCore.T d) none) Set.univ (main d)
          fun _ => iprop((K (F := F)).tcSt EH d 1 ∗ FIN m Φ d) := by
  unfold SparseCore.Cfg.tcRes
  rw [unscoped_held, main_eq]
  iintro ⟨#Hctx, Hst, ⟨Hb, Hheld, -, -⟩, HG⟩
  -- the ninety-one operations
  iapply (wp_A d _ (V0 m d)) $$ [Hb Hheld]
  · isplitl [Hb]; · iexact Hb
    iexact Hheld
  iintro ⟨Hb, Hheld⟩
  rw [show after (opsA (F := F)) (V0 m d) = VA m d from rfl]
  -- the call's three buffers out of the set
  ihave Hh := (Entails.of_eq (held_take (F := F) d (by decide) (by decide) (by decide) sub_call (VA m d))) $$ Hheld
  icases Hh with ⟨⟨Hx, Hg, Ho⟩, Hrest⟩
  rw [VA_v68, VA_v69]
  ihave Hin := (call_in m d (VA m d (Proc.devRef .tc main_v70))) $$ [Hx Hg Ho]
  · isplitl [Hx]; · iexact Hx
    isplitl [Hg]; · iexact Hg
    iexact Ho
  icases Hin with ⟨Hcores, Hxd, Hgd⟩
  -- the call
  rw [wp_bind]
  iapply ((K (F := F)).wp_run (D (F := F)) 𝒱 (EH := EH) (P := P m Φ) κ d 0) $$ [Hst Hcores Hb Hxd Hgd Hrest HG]
  isplitr; · iexact Hctx
  isplitl [Hst]; · iexact Hst
  isplitl [Hcores]
  · rw [st0_eq]; iexact Hcores
  iintro ⟨Hst, Hdn⟩
  ihave Hdn' := (Entails.of_eq (dn0_eq m Φ d)) $$ Hdn
  ihave Hout := (call_out m Φ d) $$ [Hdn' Hxd Hgd]
  · isplitl [Hdn']; · iexact Hdn'
    isplitl [Hxd]; · iexact Hxd
    iexact Hgd
  icases Hout with ⟨Hx, Hg, %g, Ho, %hΦ⟩
  -- back into the set, the result at `g`
  ihave Hheld := (Entails.of_eq (held_take (F := F) d (by decide) (by decide) (by decide) sub_call (V1 m d g)).symm) $$ [Hx Hg Ho Hrest]
  · rw [V1_v68, V1_v69, V1_v70,
      held_rest_congr (F := F) d (W := V1 m d g) (W' := VA m d) (fun r _ _ h => Function.update_of_ne h _ _)]
    isplitl [Hx Hg Ho]
    · isplitl [Hx]; · iexact Hx
      isplitl [Hg]; · iexact Hg
      iexact Ho
    iexact Hrest
  -- the transpose
  iapply (wp_B d _ (V1 m d g)) $$ [Hb Hheld]
  · isplitl [Hb]; · iexact Hb
    iexact Hheld
  iintro ⟨Hb, Hheld⟩
  rw [show after (opsB (F := F)) (V1 m d g) = V2 m d g from rfl]
  -- the region's three arrays out of the set
  ihave Hh := (Entails.of_eq (held_take (F := F) d (by decide) (by decide) (by decide) sub_region (V2 m d g))) $$ Hheld
  icases Hh with ⟨⟨Ha, Ht, Hf⟩, Hrest⟩
  rw [V2_arg0, V2_v71, V2_v72]
  -- the region: it owes nothing (the one call is over); its recorded waits stay at or below the call's band
  unfold SparseCore.Cfg.tcSt
  icases Hst with ⟨⟨%W, %hW, HO⟩, Hst'⟩
  rw [show (K (F := F)).Otc d ((0 : Fin 1).val + 1) = 0 from (K (F := F)).Otc_end d (by decide)]
  ihave Hlev := ((K (F := F)).ctx_levAts (EH := EH) (P := P m Φ) κ) $$ Hctx
  ihave HG' := (Entails.of_eq (show Gtc0 (F := F) d = iprop(Pipeline.cellsGhost cfgs EP 0 d ∗ Pipeline.toksInit cfgs EP 0 d) from rfl)) $$ HG
  icases HG' with ⟨Hgh, Htk⟩
  iapply (Cert.KernelIdeal.Tc.wp_region_bind (xR m) (ttR m) (f0R m) OR (BR (F := F)) (K (F := F)).L (K (F := F)).lev
    (hwaitR (F := F)) d _ _) $$ [Hb Ha Ht Hf HO Hlev Hgh Htk Hst' Hrest]
  rw [show (K (F := F)).Otc d 1 = 0 from (K (F := F)).Otc_end d (by decide)]
  isplitl [Hst' Hrest]
  · iintro ⟨Hb, Hpost⟩
    unfold Cert.KernelIdeal.Tc.post
    icases Hpost with ⟨Ha, Ht, Hf, HOW⟩
    rw [arrAt_in0 (F := F) d (xR m d) (ttR m d) (f0R m d) (OR d) (BR (F := F) d) cfg1.N,
      arrAt_in1 (F := F) d (xR m d) (ttR m d) (f0R m d) (OR d) (BR (F := F) d) cfg1.N,
      show (Cert.KernelIdeal.Tc.pdats (xR m) (ttR m) (f0R m) OR (BR (F := F)) 0 d).arrAt 2 cfg1.N = A2 m d from rfl]
    -- back into the set, the region's result in its buffer
    ihave Hheld := (Entails.of_eq (held_take (F := F) d (by decide) (by decide) (by decide) sub_region (V3 m d g)).symm) $$ [Ha Ht Hf Hrest]
    · rw [V3_arg0, V3_v71, V3_v72,
        held_rest_congr (F := F) d (W := V3 m d g) (W' := V2 m d g) (fun r _ _ h => Function.update_of_ne h _ _)]
      isplitl [Ha Ht Hf]
      · isplitl [Ha]; · iexact Ha
        isplitl [Ht]; · iexact Ht
        iexact Hf
      iexact Hrest
    -- the last four operations
    rw [seq_bind_pure (F := F) (opsC (F := F))]
    iapply (wp_C d _ (V3 m d g)) $$ [Hb Hheld]
    · isplitl [Hb]; · iexact Hb
      iexact Hheld
    iintro ⟨Hb, Hheld⟩
    rw [show after (opsC (F := F)) (V3 m d g) = V4 m d g from rfl, wp_pure]
    imodintro
    isplitl [HOW Hst']
    · isplitl [HOW]
      · icases HOW with ⟨%W', %hW', HO'⟩
        iexists W'
        isplitr; · ipureintro; exact wbelow_of_sub (F := F) d W' hW'
        iexact HO'
      iexact Hst'
    ihave Hh := (Entails.of_eq (held_take (F := F) d (by decide) (by decide) (by decide) sub_fin (V4 m d g))) $$ Hheld
    icases Hh with ⟨⟨Ha, Ha1, Hr⟩, -⟩
    rw [V4_arg0, V4_arg1, V4_v74]
    unfold FIN
    isplitl [Ha]; · iexact Ha
    isplitl [Ha1]; · iexact Ha1
    iexists g
    isplitr; · ipureintro; exact hΦ
    iexact Hr
  isplitl [Hb]; · iexact Hb
  isplitl [Ha Ht Hf HO]
  · unfold Cert.KernelIdeal.Tc.pre
    isplitl [Ha]; · iexact Ha
    isplitl [Ht]; · iexact Ht
    isplitl [Hf]; · iexact Hf
    iexists W
    isplitr
    · ipureintro
      intro p hp
      exact hW p (Finset.mem_coe.mp hp)
    iexact HO
  isplitr; · iexact Hlev
  isplitl [Hgh]; · iexact Hgh
  iexact Htk

end Cert.Proof.KI

end
-- ==== Proof.LaunchRun.lean ====
/-
  The kernel program's run, assembled.

  Given what one tile task does with its part of the call (the tile's obligation), the launch theorem for programs
  with a SparseCore call puts the pieces together: the split of a core's part among its tiles, the launch element of
  the ghost state, the TensorCore's run of the entry function, and the reading of the final state. The result: every
  weakly fair execution terminates without fault, the two arguments unchanged, and the result array the TensorCore
  region's result with the call's result in place of its rows `96000 …`.
-/
import proofs.«203024_g60129542144782_cont_9to1_m_748_22_alg».proof.Proof.LaunchDefs
import proofs.«203024_g60129542144782_cont_9to1_m_748_22_alg».proof.Proof.LaunchSplit
import proofs.«203024_g60129542144782_cont_9to1_m_748_22_alg».proof.Proof.LaunchMain
import proofs.«203024_g60129542144782_cont_9to1_m_748_22_alg».proof.Proof.Gen.Pre_input_domain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

open Cert.KernelIdeal.Tc (EP uP Gtc0 hfund)

variable [FloatOps F]

/-! ## The program's run -/

/-- What the final state says on device `d`: the two arguments as launched; the result the region's result with some
    array `g`, as `[4000, 128]`, in place of its rows `96000 …`, every entry of `g` with the per-entry fact. -/
def fq (Φ : Dev nD → S512000.Idx → Elt F .f32 → Prop) (d : Dev nD) (s' : Phys nD τ sig (Elt F)) : Prop :=
  s'.mem.mem (a0Loc d) = m (a0Loc d) ∧ s'.mem.mem (a1Loc d) = m (a1Loc d)
    ∧ ∃ g : Buf (Elt F) (outLoc d), (∀ j, Φ d j (g j))
        ∧ s'.mem.mem ((SparseCore.T d).loc main_v74)
            = updateSlice (A2 m d) (shapeCast S4000x128 g shapeCasts_S512000_S4000x128) ![96000, 0] slices_upd

omit ρ in
theorem hfin (Φ : Dev nD → S512000.Idx → Elt F .f32 → Prop) (d : Dev nD) (s' : Phys nD τ sig (Elt F)) :
    iprop(FIN m Φ d ∗ SI s') ⊢ (⌜fq m Φ d s'⌝ : sProp 𝕄) := by
  unfold FIN
  iintro ⟨⟨Ha0, Ha1, %g, %hg, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (SI_pointsTo_agree (st := s') (ℓ := (SparseCore.T d).loc main_v74) (I := Finset.univ) (q := fullShare)
    (f := updateSlice (A2 m d) (shapeCast S4000x128 g shapeCasts_S512000_S4000x128) ![96000, 0] slices_upd)) $$ [HSI Hr]
  · isplitl [HSI] <;> iassumption
  icases H with %h3
  ipureintro
  exact ⟨funext fun i => h1 i (Finset.mem_univ i), funext fun i => h2 i (Finset.mem_univ i), g, hg,
    funext fun i => h3 i (Finset.mem_univ i)⟩

/-- The claim's reading of the final memory: on every device, what `fq` says. -/
def QC (Φ : Dev nD → S512000.Idx → Elt F .f32 → Prop) : PUnit × MemSt nD τ sig (Elt F) → Prop := fun r =>
  ∀ d : Dev nD, r.2.mem (a0Loc d) = m (a0Loc d) ∧ r.2.mem (a1Loc d) = m (a1Loc d)
    ∧ ∃ g : Buf (Elt F) (outLoc d), (∀ j, Φ d j (g j))
        ∧ r.2.mem ((SparseCore.T d).loc main_v74)
            = updateSlice (A2 m d) (shapeCast S4000x128 g shapeCasts_S512000_S4000x128) ![96000, 0] slices_upd

/-- **The program's run**, given the tile's obligation: every weakly fair execution of the program from the launch
    memory `m` terminates, nothing faulting, the two arguments unchanged and the result as `QC` says. -/
theorem run_main [∀ e, Nonempty (Elt F e)] (Φ : Dev nD → S512000.Idx → Elt F .f32 → Prop)
    (hTile : (K (F := F)).TileObl (D (F := F)) 𝒱 (P m Φ) v₀ 0) :
    θ_run (Cert.KernelIdeal.defs (F := F)) (Cert.KernelIdeal.threads (F := F)) ⟨m, fun _ => 0, ρ⟩ (QC m Φ) :=
  SparseCore.Cfg.θ_run_sc (K := K (F := F)) (D := D (F := F)) (𝒱 := 𝒱) (EH := EH) (P := P m Φ) facts v₀
    (fun q hq => match q with | 0 => nomatch hq)
    (fun q _ => match q with | 0 => hTile)
    (fun q _ => match q with | 0 => SparseCore.Cfg.VecSplit.of_plain (vecSplit m Φ))
    m ρ main (fun d => Gtc0 (F := F) d) (FIN m Φ) (u₀ (F := F)) (sep_elim_left.trans (hu₀ m Φ)) (hmain m ρ Φ) (fq m Φ) (hfin m Φ)
    (QC m Φ) (fun _ h => h)

/-- **The frame**, given the tile's obligation at the trivial per-entry fact: the program runs (terminates, nothing
    faulting) and its two argument arrays end unchanged. -/
theorem frame_run [∀ e, Nonempty (Elt F e)]
    (hTile : (K (F := F)).TileObl (D (F := F)) 𝒱 (P m (fun _ _ _ => True)) v₀ 0) :
    θ_run (Cert.KernelIdeal.defs (F := F)) (Cert.KernelIdeal.threads (F := F)) ⟨m, fun _ => 0, ρ⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run (Cert.KernelIdeal.defs (F := F)) _ _).mono (fun _ h c => ⟨(h c).1, (h c).2.1⟩)
    (run_main m ρ (fun _ _ _ => True) hTile)

end Cert.Proof.KI

end
-- ==== Proof.TileFacts.lean ====
/-
  Bounds on the index vectors of a tile task. A tile gathers sixteen lanes at a time: from its copy of
  eighty rows of the index matrix (4480 words) at lane * 56 + (a constant below 3640), from its copy of the grouped
  table (28672 words) at a base below 28672 - 127 plus a column number that was masked to seven bits, and it scatters
  into its block of results (10240 words) at lane * 128 + (a masked column) + (a multiple of 2048 up to 8192).
  Words are 32-bit; every sum here stays far below 2^32, so the word arithmetic is the natural-number arithmetic.
-/
import proofs.«203024_g60129542144782_cont_9to1_m_748_22_alg».proof.Proof.Setup

noncomputable section

namespace Cert.Proof.KI

open Cert.KernelIdeal Cert.KernelIdeal.Gen
open Idealize.ShloMosaic

/-- Every lane of `b` leaves room for a seven-bit offset inside a buffer of `n` words. -/
def Below (n : Nat) (b : IVec S16 32) : Prop := ∀ l, (b l).toNat + 128 ≤ n

/-- Every lane of `b` is at most `n`. -/
def AtMost (n : Nat) (b : IVec S16 32) : Prop := ∀ l, (b l).toNat ≤ n

/-- Every lane is the word zero or the word one. -/
def Bit (v : IVec S16 32) : Prop := ∀ l, v l = 0#32 ∨ v l = 1#32

/-- Every entry of an integer array is the word zero or the word one. -/
def Bin32 {s : Shape} (v : IVec s 32) : Prop := ∀ j, v j = 0#32 ∨ v j = 1#32

/-- Lanes gathered from an array of zeros and ones are zeros and ones. -/
theorem bit_loadIdx {F : FTy → Type} {s : Shape} (R : IVec s 32) (hR : Bin32 R) (idxs : Fin s.rank → IVec S16 32)
    (h : ∀ a x, (idxs a x).toNat < s.size a) : Bit (loadIdx (F := F) (e := .i32) R idxs h) := fun _ => hR _

theorem code_le : ∀ a b c e : Fin 2,
    ((((BitVec.ofNat 32 a.val + BitVec.ofNat 32 b.val * 2#32) + BitVec.ofNat 32 c.val * 4#32) + BitVec.ofNat 32 e.val * 8#32) * 128#32).toNat ≤ 1920 := by decide

theorem bit_cases (w : BitVec 32) (h : w = 0#32 ∨ w = 1#32) : ∃ a : Fin 2, w = BitVec.ofNat 32 a.val := by
  rcases h with h | h
  · exact ⟨0, h⟩
  · exact ⟨1, h⟩

/-- A group's base: its four 0/1 entries read as a four-bit number, times 128, plus the group's offset (at most 26624),
    leaves room for a column inside the grouped table's copy. -/
theorem below_base (x0 x1 x2 x3 : IVec S16 32) (h0 : Bit x0) (h1 : Bit x1) (h2 : Bit x2) (h3 : Bit x3) (c : BitVec 32) (hc : c.toNat ≤ 26624) :
    Below 28672 (addi (muli (addi (addi (addi x0 (muli x1 (broadcast S16 2#32))) (muli x2 (broadcast S16 4#32))) (muli x3 (broadcast S16 8#32))) (broadcast S16 128#32)) (broadcast S16 c)) := by
  intro l
  obtain ⟨a0, e0⟩ := bit_cases _ (h0 l)
  obtain ⟨a1, e1⟩ := bit_cases _ (h1 l)
  obtain ⟨a2, e2⟩ := bit_cases _ (h2 l)
  obtain ⟨a3, e3⟩ := bit_cases _ (h3 l)
  show ((((x0 l + x1 l * 2#32) + x2 l * 4#32) + x3 l * 8#32) * 128#32 + c).toNat + 128 ≤ 28672
  rw [e0, e1, e2, e3, BitVec.toNat_add]
  have := code_le a0 a1 a2 a3
  omega

theorem and127_le (w : BitVec 32) : (w &&& 127#32).toNat ≤ 127 := by
  rw [BitVec.toNat_and]; exact Nat.and_le_right

/-- A base with room for 128 words, plus a seven-bit column, is inside the grouped table's copy. -/
theorem chk_tbuf (b w : IVec S16 32) (hb : Below 28672 b) :
    ∀ (a : Fin 1) (x : S16.Idx), ((![addi b (andi w (broadcast S16 127#32))] : Fin 1 → IVec S16 32) a x).toNat < S28672.size a := by
  intro a x
  obtain rfl : a = 0 := Subsingleton.elim _ _
  have h1 := hb x
  have h2 := and127_le (w x)
  show ((b x) + ((w x) &&& 127#32)).toNat < 28672
  rw [BitVec.toNat_add]
  omega

/-- A row start up to 1920, a seven-bit column and a block offset up to 8192 stay inside the result block. -/
theorem chk_obuf (v6 w : IVec S16 32) (c : BitVec 32) (h6 : AtMost 1920 v6) (hc : c.toNat ≤ 8192) :
    ∀ (a : Fin 1) (x : S16.Idx),
      ((![addi (addi v6 (andi w (broadcast S16 127#32))) (broadcast S16 c)] : Fin 1 → IVec S16 32) a x).toNat < S10240.size a := by
  intro a x
  obtain rfl : a = 0 := Subsingleton.elim _ _
  have h1 := h6 x
  have h2 := and127_le (w x)
  show (((v6 x) + ((w x) &&& 127#32)) + c).toNat < 10240
  rw [BitVec.toNat_add, BitVec.toNat_add]
  omega

/-- A row start up to 840 plus a constant up to 3639 stays inside the copy of the eighty rows. -/
theorem chk_xbuf (v4 : IVec S16 32) (c : BitVec 32) (h4 : AtMost 840 v4) (hc : c.toNat ≤ 3639) :
    ∀ (a : Fin 1) (x : S16.Idx), ((![addi v4 (broadcast S16 c)] : Fin 1 → IVec S16 32) a x).toNat < S4480.size a := by
  intro a x
  obtain rfl : a = 0 := Subsingleton.elim _ _
  have h1 := h4 x
  show ((v4 x) + c).toNat < 4480
  rw [BitVec.toNat_add]
  omega

/-- The lane numbers times 56 are at most 840, and times 128 at most 1920. -/
theorem lane56 : ∀ n : Fin 16, (BitVec.ofNat 32 n.val * 56#32).toNat ≤ 840 := by decide
theorem lane128 : ∀ n : Fin 16, (BitVec.ofNat 32 n.val * 128#32).toNat ≤ 1920 := by decide

theorem iota56_atMost : AtMost 840 (k0_pay1) := by
  intro l
  show ((BitVec.ofNat 32 (0 * 16 + (l 0).val)) * 56#32).toNat ≤ 840
  rw [Nat.zero_mul, Nat.zero_add]
  exact lane56 (l 0)

theorem iota128_atMost : AtMost 1920 (k0_pay2) := by
  intro l
  show ((BitVec.ofNat 32 (0 * 16 + (l 0).val)) * 128#32).toNat ≤ 1920
  rw [Nat.zero_mul, Nat.zero_add]
  exact lane128 (l 0)

end Cert.Proof.KI

end
-- ==== Proof.TileTrips.lean ====
/-
  One trip of each of the five column loops of a tile task. Trip `k` of the loop for row group `q` gathers, for every
  lane, fourteen entries of the grouped table's copy — one per group of four features, at that group's base plus the
  column (k + lane) mod 128 —, adds them pairwise, and scatters the sums into the block of results at row
  16 q + lane and that column. The table's copy is only read; the block of results is rewritten.
-/
import proofs.«203024_g60129542144782_cont_9to1_m_748_22_alg».proof.Proof.TileFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-- One trip of the column loop of row group 0. -/
theorem trip2 (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v59 : IVec S16 32) (v84 : IVec S16 32) (v109 : IVec S16 32) (v134 : IVec S16 32) (v159 : IVec S16 32) (v184 : IVec S16 32) (v209 : IVec S16 32) (v234 : IVec S16 32) (v259 : IVec S16 32) (v284 : IVec S16 32) (v309 : IVec S16 32) (v334 : IVec S16 32) (v359 : IVec S16 32) (v380 : IVec S16 32) (v381 : IVec S16 32)
    (g7 : Buf (Elt F) (arg7.view.loc (V d (cV i) (jV i)))) (f6 : Buf (Elt F) (arg6.view.loc (V d (cV i) (jV i))))
    (hb0 : Below 28672 v59) (hb1 : Below 28672 v84) (hb2 : Below 28672 v109) (hb3 : Below 28672 v134) (hb4 : Below 28672 v159) (hb5 : Below 28672 v184) (hb6 : Below 28672 v209) (hb7 : Below 28672 v234) (hb8 : Below 28672 v259) (hb9 : Below 28672 v284) (hb10 : Below 28672 v309) (hb11 : Below 28672 v334) (hb12 : Below 28672 v359) (hb13 : Below 28672 (k0_pay95 v380 v381)) (h6 : AtMost 1920 v6) (k : Fin k0_t2_loop.trips) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (k0_t2_body i arg2 harg2 arg3 harg3 arg4 harg4 arg5 harg5 arg6 harg6 arg7 harg7 v32_r0 v1791_r1 v1791_r2 v1791_r3 v1791_r4 v2 v4 v6 v59 v84 v109 v134 v159 v184 v209 v234 v259 v284 v309 v334 v359 v380 v381 k ())
          fun _ => iprop((arg7.view.loc (V d (cV i) (jV i)) ↦{fullShare} g7) ∗ ∃ f, (arg6.view.loc (V d (cV i) (jV i)) ↦{fullShare} f)) := by
  have hc57 : k0_chk57 (addi v59 (k0_pay3 v2 0#32 1#32 k)) := by intro a x; exact chk_tbuf _ _ hb0 a x
  have hc58 : k0_chk58 (addi v84 (k0_pay3 v2 0#32 1#32 k)) := by intro a x; exact chk_tbuf _ _ hb1 a x
  have hc59 : k0_chk59 (addi v109 (k0_pay3 v2 0#32 1#32 k)) := by intro a x; exact chk_tbuf _ _ hb2 a x
  have hc60 : k0_chk60 (addi v134 (k0_pay3 v2 0#32 1#32 k)) := by intro a x; exact chk_tbuf _ _ hb3 a x
  have hc61 : k0_chk61 (addi v159 (k0_pay3 v2 0#32 1#32 k)) := by intro a x; exact chk_tbuf _ _ hb4 a x
  have hc62 : k0_chk62 (addi v184 (k0_pay3 v2 0#32 1#32 k)) := by intro a x; exact chk_tbuf _ _ hb5 a x
  have hc63 : k0_chk63 (addi v209 (k0_pay3 v2 0#32 1#32 k)) := by intro a x; exact chk_tbuf _ _ hb6 a x
  have hc64 : k0_chk64 (addi v234 (k0_pay3 v2 0#32 1#32 k)) := by intro a x; exact chk_tbuf _ _ hb7 a x
  have hc65 : k0_chk65 (addi v259 (k0_pay3 v2 0#32 1#32 k)) := by intro a x; exact chk_tbuf _ _ hb8 a x
  have hc66 : k0_chk66 (addi v284 (k0_pay3 v2 0#32 1#32 k)) := by intro a x; exact chk_tbuf _ _ hb9 a x
  have hc67 : k0_chk67 (addi v309 (k0_pay3 v2 0#32 1#32 k)) := by intro a x; exact chk_tbuf _ _ hb10 a x
  have hc68 : k0_chk68 (addi v334 (k0_pay3 v2 0#32 1#32 k)) := by intro a x; exact chk_tbuf _ _ hb11 a x
  have hc69 : k0_chk69 (addi v359 (k0_pay3 v2 0#32 1#32 k)) := by intro a x; exact chk_tbuf _ _ hb12 a x
  have hc70 : k0_chk70 (addi (k0_pay95 v380 v381) (k0_pay3 v2 0#32 1#32 k)) := by intro a x; exact chk_tbuf _ _ hb13 a x
  have hc71 : k0_chk71 (k0_pay97 v6 (k0_pay3 v2 0#32 1#32 k)) := by intro a x; exact chk_obuf _ _ _ h6 (by decide) a x
  unfold k0_t2_body
  simp only [k0_part1_eq_skeleton]; unfold k0_part1_skel
  unfold SparseCore.vectorLoadIdx SparseCore.vectorStoreIdx
  iintro ⟨H7, H6⟩
  sl_exec (disch := assumption)
  sl_step
  isplitl [H7]; · iexact H7
  iexists _; iexact H6

/-- One trip of the column loop of row group 1. -/
theorem trip3 (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v410 : IVec S16 32) (v435 : IVec S16 32) (v460 : IVec S16 32) (v485 : IVec S16 32) (v510 : IVec S16 32) (v535 : IVec S16 32) (v560 : IVec S16 32) (v585 : IVec S16 32) (v610 : IVec S16 32) (v635 : IVec S16 32) (v660 : IVec S16 32) (v685 : IVec S16 32) (v710 : IVec S16 32) (v733 : IVec S16 32)
    (g7 : Buf (Elt F) (arg7.view.loc (V d (cV i) (jV i)))) (f6 : Buf (Elt F) (arg6.view.loc (V d (cV i) (jV i))))
    (hb0 : Below 28672 v410) (hb1 : Below 28672 v435) (hb2 : Below 28672 v460) (hb3 : Below 28672 v485) (hb4 : Below 28672 v510) (hb5 : Below 28672 v535) (hb6 : Below 28672 v560) (hb7 : Below 28672 v585) (hb8 : Below 28672 v610) (hb9 : Below 28672 v635) (hb10 : Below 28672 v660) (hb11 : Below 28672 v685) (hb12 : Below 28672 v710) (hb13 : Below 28672 (k0_pay173 v733)) (h6 : AtMost 1920 v6) (k : Fin k0_t3_loop.trips) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (k0_t3_body i arg2 harg2 arg3 harg3 arg4 harg4 arg5 harg5 arg6 harg6 arg7 harg7 v32_r0 v1791_r1 v1791_r2 v1791_r3 v1791_r4 v2 v4 v6 v410 v435 v460 v485 v510 v535 v560 v585 v610 v635 v660 v685 v710 v733 k ())
          fun _ => iprop((arg7.view.loc (V d (cV i) (jV i)) ↦{fullShare} g7) ∗ ∃ f, (arg6.view.loc (V d (cV i) (jV i)) ↦{fullShare} f)) := by
  have hc128 : k0_chk128 (addi v410 (k0_pay6 v2 0#32 1#32 k)) := by intro a x; exact chk_tbuf _ _ hb0 a x
  have hc129 : k0_chk129 (addi v435 (k0_pay6 v2 0#32 1#32 k)) := by intro a x; exact chk_tbuf _ _ hb1 a x
  have hc130 : k0_chk130 (addi v460 (k0_pay6 v2 0#32 1#32 k)) := by intro a x; exact chk_tbuf _ _ hb2 a x
  have hc131 : k0_chk131 (addi v485 (k0_pay6 v2 0#32 1#32 k)) := by intro a x; exact chk_tbuf _ _ hb3 a x
  have hc132 : k0_chk132 (addi v510 (k0_pay6 v2 0#32 1#32 k)) := by intro a x; exact chk_tbuf _ _ hb4 a x
  have hc133 : k0_chk133 (addi v535 (k0_pay6 v2 0#32 1#32 k)) := by intro a x; exact chk_tbuf _ _ hb5 a x
  have hc134 : k0_chk134 (addi v560 (k0_pay6 v2 0#32 1#32 k)) := by intro a x; exact chk_tbuf _ _ hb6 a x
  have hc135 : k0_chk135 (addi v585 (k0_pay6 v2 0#32 1#32 k)) := by intro a x; exact chk_tbuf _ _ hb7 a x
  have hc136 : k0_chk136 (addi v610 (k0_pay6 v2 0#32 1#32 k)) := by intro a x; exact chk_tbuf _ _ hb8 a x
  have hc137 : k0_chk137 (addi v635 (k0_pay6 v2 0#32 1#32 k)) := by intro a x; exact chk_tbuf _ _ hb9 a x
  have hc138 : k0_chk138 (addi v660 (k0_pay6 v2 0#32 1#32 k)) := by intro a x; exact chk_tbuf _ _ hb10 a x
  have hc139 : k0_chk139 (addi v685 (k0_pay6 v2 0#32 1#32 k)) := by intro a x; exact chk_tbuf _ _ hb11 a x
  have hc140 : k0_chk140 (addi v710 (k0_pay6 v2 0#32 1#32 k)) := by intro a x; exact chk_tbuf _ _ hb12 a x
  have hc141 : k0_chk141 (addi (k0_pay173 v733) (k0_pay6 v2 0#32 1#32 k)) := by intro a x; exact chk_tbuf _ _ hb13 a x
  have hc142 : k0_chk142 (k0_pay175 v6 (k0_pay6 v2 0#32 1#32 k)) := by intro a x; exact chk_obuf _ _ _ h6 (by decide) a x
  unfold k0_t3_body
  simp only [k0_part2_eq_skeleton]; unfold k0_part2_skel
  unfold SparseCore.vectorLoadIdx SparseCore.vectorStoreIdx
  iintro ⟨H7, H6⟩
  sl_exec (disch := assumption)
  sl_step
  isplitl [H7]; · iexact H7
  iexists _; iexact H6

/-- One trip of the column loop of row group 2. -/
theorem trip4 (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v761 : IVec S16 32) (v786 : IVec S16 32) (v811 : IVec S16 32) (v836 : IVec S16 32) (v861 : IVec S16 32) (v886 : IVec S16 32) (v911 : IVec S16 32) (v936 : IVec S16 32) (v961 : IVec S16 32) (v986 : IVec S16 32) (v1011 : IVec S16 32) (v1036 : IVec S16 32) (v1061 : IVec S16 32) (v1084 : IVec S16 32) (c26624_i32_223 : BitVec 32)
    (g7 : Buf (Elt F) (arg7.view.loc (V d (cV i) (jV i)))) (f6 : Buf (Elt F) (arg6.view.loc (V d (cV i) (jV i))))
    (hb0 : Below 28672 v761) (hb1 : Below 28672 v786) (hb2 : Below 28672 v811) (hb3 : Below 28672 v836) (hb4 : Below 28672 v861) (hb5 : Below 28672 v886) (hb6 : Below 28672 v911) (hb7 : Below 28672 v936) (hb8 : Below 28672 v961) (hb9 : Below 28672 v986) (hb10 : Below 28672 v1011) (hb11 : Below 28672 v1036) (hb12 : Below 28672 v1061) (hb13 : Below 28672 (k0_pay254 v1084 c26624_i32_223)) (h6 : AtMost 1920 v6) (k : Fin k0_t4_loop.trips) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (k0_t4_body i arg2 harg2 arg3 harg3 arg4 harg4 arg5 harg5 arg6 harg6 arg7 harg7 v32_r0 v1791_r1 v1791_r2 v1791_r3 v1791_r4 v2 v4 v6 v761 v786 v811 v836 v861 v886 v911 v936 v961 v986 v1011 v1036 v1061 v1084 c26624_i32_223 k ())
          fun _ => iprop((arg7.view.loc (V d (cV i) (jV i)) ↦{fullShare} g7) ∗ ∃ f, (arg6.view.loc (V d (cV i) (jV i)) ↦{fullShare} f)) := by
  have hc199 : k0_chk199 (addi v761 (k0_pay9 v2 0#32 1#32 k)) := by intro a x; exact chk_tbuf _ _ hb0 a x
  have hc200 : k0_chk200 (addi v786 (k0_pay9 v2 0#32 1#32 k)) := by intro a x; exact chk_tbuf _ _ hb1 a x
  have hc201 : k0_chk201 (addi v811 (k0_pay9 v2 0#32 1#32 k)) := by intro a x; exact chk_tbuf _ _ hb2 a x
  have hc202 : k0_chk202 (addi v836 (k0_pay9 v2 0#32 1#32 k)) := by intro a x; exact chk_tbuf _ _ hb3 a x
  have hc203 : k0_chk203 (addi v861 (k0_pay9 v2 0#32 1#32 k)) := by intro a x; exact chk_tbuf _ _ hb4 a x
  have hc204 : k0_chk204 (addi v886 (k0_pay9 v2 0#32 1#32 k)) := by intro a x; exact chk_tbuf _ _ hb5 a x
  have hc205 : k0_chk205 (addi v911 (k0_pay9 v2 0#32 1#32 k)) := by intro a x; exact chk_tbuf _ _ hb6 a x
  have hc206 : k0_chk206 (addi v936 (k0_pay9 v2 0#32 1#32 k)) := by intro a x; exact chk_tbuf _ _ hb7 a x
  have hc207 : k0_chk207 (addi v961 (k0_pay9 v2 0#32 1#32 k)) := by intro a x; exact chk_tbuf _ _ hb8 a x
  have hc208 : k0_chk208 (addi v986 (k0_pay9 v2 0#32 1#32 k)) := by intro a x; exact chk_tbuf _ _ hb9 a x
  have hc209 : k0_chk209 (addi v1011 (k0_pay9 v2 0#32 1#32 k)) := by intro a x; exact chk_tbuf _ _ hb10 a x
  have hc210 : k0_chk210 (addi v1036 (k0_pay9 v2 0#32 1#32 k)) := by intro a x; exact chk_tbuf _ _ hb11 a x
  have hc211 : k0_chk211 (addi v1061 (k0_pay9 v2 0#32 1#32 k)) := by intro a x; exact chk_tbuf _ _ hb12 a x
  have hc212 : k0_chk212 (addi (k0_pay254 v1084 c26624_i32_223) (k0_pay9 v2 0#32 1#32 k)) := by intro a x; exact chk_tbuf _ _ hb13 a x
  have hc213 : k0_chk213 (k0_pay256 v6 (k0_pay9 v2 0#32 1#32 k)) := by intro a x; exact chk_obuf _ _ _ h6 (by decide) a x
  unfold k0_t4_body
  simp only [k0_part3_eq_skeleton]; unfold k0_part3_skel
  unfold SparseCore.vectorLoadIdx SparseCore.vectorStoreIdx
  iintro ⟨H7, H6⟩
  sl_exec (disch := assumption)
  sl_step
  isplitl [H7]; · iexact H7
  iexists _; iexact H6

/-- One trip of the column loop of row group 3. -/
theorem trip5 (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v1112 : IVec S16 32) (v1137 : IVec S16 32) (v1162 : IVec S16 32) (v1187 : IVec S16 32) (v1212 : IVec S16 32) (v1237 : IVec S16 32) (v1262 : IVec S16 32) (v1287 : IVec S16 32) (v1312 : IVec S16 32) (v1337 : IVec S16 32) (v1362 : IVec S16 32) (v1387 : IVec S16 32) (v1412 : IVec S16 32) (v1435 : IVec S16 32) (v1436 : IVec S16 32)
    (g7 : Buf (Elt F) (arg7.view.loc (V d (cV i) (jV i)))) (f6 : Buf (Elt F) (arg6.view.loc (V d (cV i) (jV i))))
    (hb0 : Below 28672 v1112) (hb1 : Below 28672 v1137) (hb2 : Below 28672 v1162) (hb3 : Below 28672 v1187) (hb4 : Below 28672 v1212) (hb5 : Below 28672 v1237) (hb6 : Below 28672 v1262) (hb7 : Below 28672 v1287) (hb8 : Below 28672 v1312) (hb9 : Below 28672 v1337) (hb10 : Below 28672 v1362) (hb11 : Below 28672 v1387) (hb12 : Below 28672 v1412) (hb13 : Below 28672 (k0_pay335 v1435 v1436)) (h6 : AtMost 1920 v6) (k : Fin k0_t5_loop.trips) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (k0_t5_body i arg2 harg2 arg3 harg3 arg4 harg4 arg5 harg5 arg6 harg6 arg7 harg7 v32_r0 v1791_r1 v1791_r2 v1791_r3 v1791_r4 v2 v4 v6 v1112 v1137 v1162 v1187 v1212 v1237 v1262 v1287 v1312 v1337 v1362 v1387 v1412 v1435 v1436 k ())
          fun _ => iprop((arg7.view.loc (V d (cV i) (jV i)) ↦{fullShare} g7) ∗ ∃ f, (arg6.view.loc (V d (cV i) (jV i)) ↦{fullShare} f)) := by
  have hc270 : k0_chk270 (addi v1112 (k0_pay12 v2 0#32 1#32 k)) := by intro a x; exact chk_tbuf _ _ hb0 a x
  have hc271 : k0_chk271 (addi v1137 (k0_pay12 v2 0#32 1#32 k)) := by intro a x; exact chk_tbuf _ _ hb1 a x
  have hc272 : k0_chk272 (addi v1162 (k0_pay12 v2 0#32 1#32 k)) := by intro a x; exact chk_tbuf _ _ hb2 a x
  have hc273 : k0_chk273 (addi v1187 (k0_pay12 v2 0#32 1#32 k)) := by intro a x; exact chk_tbuf _ _ hb3 a x
  have hc274 : k0_chk274 (addi v1212 (k0_pay12 v2 0#32 1#32 k)) := by intro a x; exact chk_tbuf _ _ hb4 a x
  have hc275 : k0_chk275 (addi v1237 (k0_pay12 v2 0#32 1#32 k)) := by intro a x; exact chk_tbuf _ _ hb5 a x
  have hc276 : k0_chk276 (addi v1262 (k0_pay12 v2 0#32 1#32 k)) := by intro a x; exact chk_tbuf _ _ hb6 a x
  have hc277 : k0_chk277 (addi v1287 (k0_pay12 v2 0#32 1#32 k)) := by intro a x; exact chk_tbuf _ _ hb7 a x
  have hc278 : k0_chk278 (addi v1312 (k0_pay12 v2 0#32 1#32 k)) := by intro a x; exact chk_tbuf _ _ hb8 a x
  have hc279 : k0_chk279 (addi v1337 (k0_pay12 v2 0#32 1#32 k)) := by intro a x; exact chk_tbuf _ _ hb9 a x
  have hc280 : k0_chk280 (addi v1362 (k0_pay12 v2 0#32 1#32 k)) := by intro a x; exact chk_tbuf _ _ hb10 a x
  have hc281 : k0_chk281 (addi v1387 (k0_pay12 v2 0#32 1#32 k)) := by intro a x; exact chk_tbuf _ _ hb11 a x
  have hc282 : k0_chk282 (addi v1412 (k0_pay12 v2 0#32 1#32 k)) := by intro a x; exact chk_tbuf _ _ hb12 a x
  have hc283 : k0_chk283 (addi (k0_pay335 v1435 v1436) (k0_pay12 v2 0#32 1#32 k)) := by intro a x; exact chk_tbuf _ _ hb13 a x
  have hc284 : k0_chk284 (k0_pay337 v6 (k0_pay12 v2 0#32 1#32 k)) := by intro a x; exact chk_obuf _ _ _ h6 (by decide) a x
  unfold k0_t5_body
  simp only [k0_part4_eq_skeleton]; unfold k0_part4_skel
  unfold SparseCore.vectorLoadIdx SparseCore.vectorStoreIdx
  iintro ⟨H7, H6⟩
  sl_exec (disch := assumption)
  sl_step
  isplitl [H7]; · iexact H7
  iexists _; iexact H6

/-- One trip of the column loop of row group 4. -/
theorem trip6 (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v1 : BitVec 32) (v2 : IVec S16 32) (v4 : IVec S16 32) (v6 : IVec S16 32) (c0_i32_7 : BitVec 32) (c1_i32_9 : BitVec 32) (k0_t1 : Fin (k0_t1_loop i).trips) (v1463 : IVec S16 32) (v1488 : IVec S16 32) (v1513 : IVec S16 32) (v1538 : IVec S16 32) (v1563 : IVec S16 32) (v1588 : IVec S16 32) (v1613 : IVec S16 32) (v1638 : IVec S16 32) (v1663 : IVec S16 32) (v1688 : IVec S16 32) (v1713 : IVec S16 32) (v1738 : IVec S16 32) (v1763 : IVec S16 32) (v1788 : IVec S16 32)
    (g7 : Buf (Elt F) (arg7.view.loc (V d (cV i) (jV i)))) (f6 : Buf (Elt F) (arg6.view.loc (V d (cV i) (jV i))))
    (hb0 : Below 28672 v1463) (hb1 : Below 28672 v1488) (hb2 : Below 28672 v1513) (hb3 : Below 28672 v1538) (hb4 : Below 28672 v1563) (hb5 : Below 28672 v1588) (hb6 : Below 28672 v1613) (hb7 : Below 28672 v1638) (hb8 : Below 28672 v1663) (hb9 : Below 28672 v1688) (hb10 : Below 28672 v1713) (hb11 : Below 28672 v1738) (hb12 : Below 28672 v1763) (hb13 : Below 28672 v1788) (h6 : AtMost 1920 v6) (k : Fin k0_t6_loop.trips) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (k0_t6_body i arg2 harg2 arg3 harg3 arg4 harg4 arg5 harg5 arg6 harg6 arg7 harg7 v32_r0 v1791_r1 v1791_r2 v1791_r3 v1791_r4 v1 v2 v4 v6 c0_i32_7 c1_i32_9 k0_t1 v1463 v1488 v1513 v1538 v1563 v1588 v1613 v1638 v1663 v1688 v1713 v1738 v1763 v1788 k ())
          fun _ => iprop((arg7.view.loc (V d (cV i) (jV i)) ↦{fullShare} g7) ∗ ∃ f, (arg6.view.loc (V d (cV i) (jV i)) ↦{fullShare} f)) := by
  have hc341 : k0_chk341 (addi v1463 (k0_pay15 v2 0#32 1#32 k)) := by intro a x; exact chk_tbuf _ _ hb0 a x
  have hc342 : k0_chk342 (addi v1488 (k0_pay15 v2 0#32 1#32 k)) := by intro a x; exact chk_tbuf _ _ hb1 a x
  have hc343 : k0_chk343 (addi v1513 (k0_pay15 v2 0#32 1#32 k)) := by intro a x; exact chk_tbuf _ _ hb2 a x
  have hc344 : k0_chk344 (addi v1538 (k0_pay15 v2 0#32 1#32 k)) := by intro a x; exact chk_tbuf _ _ hb3 a x
  have hc345 : k0_chk345 (addi v1563 (k0_pay15 v2 0#32 1#32 k)) := by intro a x; exact chk_tbuf _ _ hb4 a x
  have hc346 : k0_chk346 (addi v1588 (k0_pay15 v2 0#32 1#32 k)) := by intro a x; exact chk_tbuf _ _ hb5 a x
  have hc347 : k0_chk347 (addi v1613 (k0_pay15 v2 0#32 1#32 k)) := by intro a x; exact chk_tbuf _ _ hb6 a x
  have hc348 : k0_chk348 (addi v1638 (k0_pay15 v2 0#32 1#32 k)) := by intro a x; exact chk_tbuf _ _ hb7 a x
  have hc349 : k0_chk349 (addi v1663 (k0_pay15 v2 0#32 1#32 k)) := by intro a x; exact chk_tbuf _ _ hb8 a x
  have hc350 : k0_chk350 (addi v1688 (k0_pay15 v2 0#32 1#32 k)) := by intro a x; exact chk_tbuf _ _ hb9 a x
  have hc351 : k0_chk351 (addi v1713 (k0_pay15 v2 0#32 1#32 k)) := by intro a x; exact chk_tbuf _ _ hb10 a x
  have hc352 : k0_chk352 (addi v1738 (k0_pay15 v2 0#32 1#32 k)) := by intro a x; exact chk_tbuf _ _ hb11 a x
  have hc353 : k0_chk353 (addi v1763 (k0_pay15 v2 0#32 1#32 k)) := by intro a x; exact chk_tbuf _ _ hb12 a x
  have hc354 : k0_chk354 (addi v1788 (k0_pay15 v2 0#32 1#32 k)) := by intro a x; exact chk_tbuf _ _ hb13 a x
  have hc355 : k0_chk355 (k0_pay415 v6 (k0_pay15 v2 0#32 1#32 k)) := by intro a x; exact chk_obuf _ _ _ h6 (by decide) a x
  unfold k0_t6_body
  simp only [k0_part5_eq_skeleton]; unfold k0_part5_skel
  unfold SparseCore.vectorLoadIdx SparseCore.vectorStoreIdx
  iintro ⟨H7, H6⟩
  sl_exec (disch := assumption)
  sl_step
  isplitl [H7]; · iexact H7
  iexists _; iexact H6

end Cert.Proof.KI

end
-- ==== Proof.Chunk.lean ====
/-
  One micro-batch of a tile task: eighty rows of the index matrix are copied in, each of the five groups of sixteen
  rows has its fourteen table bases computed from the rows' 0/1 entries and its 128 columns summed into the block of
  results, and the block is copied out to the micro-batch's place in the result array.
-/
import proofs.«203024_g60129542144782_cont_9to1_m_748_22_alg».proof.Proof.TileTrips

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-- What a column loop keeps: the grouped table's copy, and the block of results at some contents. -/
def invq (d : Dev nD) (i : grid0.Coords) (arg6 : Memref sig .scVector .vmem S10240 .f32) (arg7 : Memref sig .scVector .vmem S28672 .f32)
    (g7 : Buf (Elt F) (arg7.view.loc (V d (cV i) (jV i)))) (_ : Nat) (_ : PUnit) : sProp 𝕄 :=
  iprop((arg7.view.loc (V d (cV i) (jV i)) ↦{fullShare} g7) ∗ ∃ f, (arg6.view.loc (V d (cV i) (jV i)) ↦{fullShare} f))

macro "below_tac" : tactic => `(tactic| ((try dsimp only []); exact below_base _ _ _ _ (bit_loadIdx _ (by assumption) _ _) (bit_loadIdx _ (by assumption) _ _) (bit_loadIdx _ (by assumption) _ _) (bit_loadIdx _ (by assumption) _ _) _ (by decide)))

theorem trip2' (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v59 : IVec S16 32) (v84 : IVec S16 32) (v109 : IVec S16 32) (v134 : IVec S16 32) (v159 : IVec S16 32) (v184 : IVec S16 32) (v209 : IVec S16 32) (v234 : IVec S16 32) (v259 : IVec S16 32) (v284 : IVec S16 32) (v309 : IVec S16 32) (v334 : IVec S16 32) (v359 : IVec S16 32) (v380 : IVec S16 32) (v381 : IVec S16 32)
    (g7 : Buf (Elt F) (arg7.view.loc (V d (cV i) (jV i))))
    (hb0 : Below 28672 v59) (hb1 : Below 28672 v84) (hb2 : Below 28672 v109) (hb3 : Below 28672 v134) (hb4 : Below 28672 v159) (hb5 : Below 28672 v184) (hb6 : Below 28672 v209) (hb7 : Below 28672 v234) (hb8 : Below 28672 v259) (hb9 : Below 28672 v284) (hb10 : Below 28672 v309) (hb11 : Below 28672 v334) (hb12 : Below 28672 v359) (hb13 : Below 28672 (k0_pay95 v380 v381)) (h6 : AtMost 1920 v6) (k : Fin k0_t2_loop.trips) :
    (invq d i arg6 arg7 g7 k.val () : sProp 𝕄)
      ⊢ wp frame (wpE (defs₀ (F := F)) 𝒱₀ (V d (cV i) (jV i)) none) Set.univ
          (k0_t2_body i arg2 harg2 arg3 harg3 arg4 harg4 arg5 harg5 arg6 harg6 arg7 harg7 v32_r0 v1791_r1 v1791_r2 v1791_r3 v1791_r4 v2 v4 v6 v59 v84 v109 v134 v159 v184 v209 v234 v259 v284 v309 v334 v359 v380 v381 k ())
          fun r => invq d i arg6 arg7 g7 (k.val + 1) r := by
  unfold invq
  iintro ⟨H7, %f6, H6⟩
  iapply (trip2 d i arg2 harg2 arg3 harg3 arg4 harg4 arg5 harg5 arg6 harg6 arg7 harg7 v32_r0 v1791_r1 v1791_r2 v1791_r3 v1791_r4 v2 v4 v6 v59 v84 v109 v134 v159 v184 v209 v234 v259 v284 v309 v334 v359 v380 v381 g7 f6 hb0 hb1 hb2 hb3 hb4 hb5 hb6 hb7 hb8 hb9 hb10 hb11 hb12 hb13 h6 k) $$ [H7 H6]
  isplitl [H7]; · iexact H7
  iexact H6

theorem trip3' (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v410 : IVec S16 32) (v435 : IVec S16 32) (v460 : IVec S16 32) (v485 : IVec S16 32) (v510 : IVec S16 32) (v535 : IVec S16 32) (v560 : IVec S16 32) (v585 : IVec S16 32) (v610 : IVec S16 32) (v635 : IVec S16 32) (v660 : IVec S16 32) (v685 : IVec S16 32) (v710 : IVec S16 32) (v733 : IVec S16 32)
    (g7 : Buf (Elt F) (arg7.view.loc (V d (cV i) (jV i))))
    (hb0 : Below 28672 v410) (hb1 : Below 28672 v435) (hb2 : Below 28672 v460) (hb3 : Below 28672 v485) (hb4 : Below 28672 v510) (hb5 : Below 28672 v535) (hb6 : Below 28672 v560) (hb7 : Below 28672 v585) (hb8 : Below 28672 v610) (hb9 : Below 28672 v635) (hb10 : Below 28672 v660) (hb11 : Below 28672 v685) (hb12 : Below 28672 v710) (hb13 : Below 28672 (k0_pay173 v733)) (h6 : AtMost 1920 v6) (k : Fin k0_t3_loop.trips) :
    (invq d i arg6 arg7 g7 k.val () : sProp 𝕄)
      ⊢ wp frame (wpE (defs₀ (F := F)) 𝒱₀ (V d (cV i) (jV i)) none) Set.univ
          (k0_t3_body i arg2 harg2 arg3 harg3 arg4 harg4 arg5 harg5 arg6 harg6 arg7 harg7 v32_r0 v1791_r1 v1791_r2 v1791_r3 v1791_r4 v2 v4 v6 v410 v435 v460 v485 v510 v535 v560 v585 v610 v635 v660 v685 v710 v733 k ())
          fun r => invq d i arg6 arg7 g7 (k.val + 1) r := by
  unfold invq
  iintro ⟨H7, %f6, H6⟩
  iapply (trip3 d i arg2 harg2 arg3 harg3 arg4 harg4 arg5 harg5 arg6 harg6 arg7 harg7 v32_r0 v1791_r1 v1791_r2 v1791_r3 v1791_r4 v2 v4 v6 v410 v435 v460 v485 v510 v535 v560 v585 v610 v635 v660 v685 v710 v733 g7 f6 hb0 hb1 hb2 hb3 hb4 hb5 hb6 hb7 hb8 hb9 hb10 hb11 hb12 hb13 h6 k) $$ [H7 H6]
  isplitl [H7]; · iexact H7
  iexact H6

theorem trip4' (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v761 : IVec S16 32) (v786 : IVec S16 32) (v811 : IVec S16 32) (v836 : IVec S16 32) (v861 : IVec S16 32) (v886 : IVec S16 32) (v911 : IVec S16 32) (v936 : IVec S16 32) (v961 : IVec S16 32) (v986 : IVec S16 32) (v1011 : IVec S16 32) (v1036 : IVec S16 32) (v1061 : IVec S16 32) (v1084 : IVec S16 32) (c26624_i32_223 : BitVec 32)
    (g7 : Buf (Elt F) (arg7.view.loc (V d (cV i) (jV i))))
    (hb0 : Below 28672 v761) (hb1 : Below 28672 v786) (hb2 : Below 28672 v811) (hb3 : Below 28672 v836) (hb4 : Below 28672 v861) (hb5 : Below 28672 v886) (hb6 : Below 28672 v911) (hb7 : Below 28672 v936) (hb8 : Below 28672 v961) (hb9 : Below 28672 v986) (hb10 : Below 28672 v1011) (hb11 : Below 28672 v1036) (hb12 : Below 28672 v1061) (hb13 : Below 28672 (k0_pay254 v1084 c26624_i32_223)) (h6 : AtMost 1920 v6) (k : Fin k0_t4_loop.trips) :
    (invq d i arg6 arg7 g7 k.val () : sProp 𝕄)
      ⊢ wp frame (wpE (defs₀ (F := F)) 𝒱₀ (V d (cV i) (jV i)) none) Set.univ
          (k0_t4_body i arg2 harg2 arg3 harg3 arg4 harg4 arg5 harg5 arg6 harg6 arg7 harg7 v32_r0 v1791_r1 v1791_r2 v1791_r3 v1791_r4 v2 v4 v6 v761 v786 v811 v836 v861 v886 v911 v936 v961 v986 v1011 v1036 v1061 v1084 c26624_i32_223 k ())
          fun r => invq d i arg6 arg7 g7 (k.val + 1) r := by
  unfold invq
  iintro ⟨H7, %f6, H6⟩
  iapply (trip4 d i arg2 harg2 arg3 harg3 arg4 harg4 arg5 harg5 arg6 harg6 arg7 harg7 v32_r0 v1791_r1 v1791_r2 v1791_r3 v1791_r4 v2 v4 v6 v761 v786 v811 v836 v861 v886 v911 v936 v961 v986 v1011 v1036 v1061 v1084 c26624_i32_223 g7 f6 hb0 hb1 hb2 hb3 hb4 hb5 hb6 hb7 hb8 hb9 hb10 hb11 hb12 hb13 h6 k) $$ [H7 H6]
  isplitl [H7]; · iexact H7
  iexact H6

theorem trip5' (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v1112 : IVec S16 32) (v1137 : IVec S16 32) (v1162 : IVec S16 32) (v1187 : IVec S16 32) (v1212 : IVec S16 32) (v1237 : IVec S16 32) (v1262 : IVec S16 32) (v1287 : IVec S16 32) (v1312 : IVec S16 32) (v1337 : IVec S16 32) (v1362 : IVec S16 32) (v1387 : IVec S16 32) (v1412 : IVec S16 32) (v1435 : IVec S16 32) (v1436 : IVec S16 32)
    (g7 : Buf (Elt F) (arg7.view.loc (V d (cV i) (jV i))))
    (hb0 : Below 28672 v1112) (hb1 : Below 28672 v1137) (hb2 : Below 28672 v1162) (hb3 : Below 28672 v1187) (hb4 : Below 28672 v1212) (hb5 : Below 28672 v1237) (hb6 : Below 28672 v1262) (hb7 : Below 28672 v1287) (hb8 : Below 28672 v1312) (hb9 : Below 28672 v1337) (hb10 : Below 28672 v1362) (hb11 : Below 28672 v1387) (hb12 : Below 28672 v1412) (hb13 : Below 28672 (k0_pay335 v1435 v1436)) (h6 : AtMost 1920 v6) (k : Fin k0_t5_loop.trips) :
    (invq d i arg6 arg7 g7 k.val () : sProp 𝕄)
      ⊢ wp frame (wpE (defs₀ (F := F)) 𝒱₀ (V d (cV i) (jV i)) none) Set.univ
          (k0_t5_body i arg2 harg2 arg3 harg3 arg4 harg4 arg5 harg5 arg6 harg6 arg7 harg7 v32_r0 v1791_r1 v1791_r2 v1791_r3 v1791_r4 v2 v4 v6 v1112 v1137 v1162 v1187 v1212 v1237 v1262 v1287 v1312 v1337 v1362 v1387 v1412 v1435 v1436 k ())
          fun r => invq d i arg6 arg7 g7 (k.val + 1) r := by
  unfold invq
  iintro ⟨H7, %f6, H6⟩
  iapply (trip5 d i arg2 harg2 arg3 harg3 arg4 harg4 arg5 harg5 arg6 harg6 arg7 harg7 v32_r0 v1791_r1 v1791_r2 v1791_r3 v1791_r4 v2 v4 v6 v1112 v1137 v1162 v1187 v1212 v1237 v1262 v1287 v1312 v1337 v1362 v1387 v1412 v1435 v1436 g7 f6 hb0 hb1 hb2 hb3 hb4 hb5 hb6 hb7 hb8 hb9 hb10 hb11 hb12 hb13 h6 k) $$ [H7 H6]
  isplitl [H7]; · iexact H7
  iexact H6

theorem trip6' (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v1 : BitVec 32) (v2 : IVec S16 32) (v4 : IVec S16 32) (v6 : IVec S16 32) (c0_i32_7 : BitVec 32) (c1_i32_9 : BitVec 32) (k0_t1 : Fin (k0_t1_loop i).trips) (v1463 : IVec S16 32) (v1488 : IVec S16 32) (v1513 : IVec S16 32) (v1538 : IVec S16 32) (v1563 : IVec S16 32) (v1588 : IVec S16 32) (v1613 : IVec S16 32) (v1638 : IVec S16 32) (v1663 : IVec S16 32) (v1688 : IVec S16 32) (v1713 : IVec S16 32) (v1738 : IVec S16 32) (v1763 : IVec S16 32) (v1788 : IVec S16 32)
    (g7 : Buf (Elt F) (arg7.view.loc (V d (cV i) (jV i))))
    (hb0 : Below 28672 v1463) (hb1 : Below 28672 v1488) (hb2 : Below 28672 v1513) (hb3 : Below 28672 v1538) (hb4 : Below 28672 v1563) (hb5 : Below 28672 v1588) (hb6 : Below 28672 v1613) (hb7 : Below 28672 v1638) (hb8 : Below 28672 v1663) (hb9 : Below 28672 v1688) (hb10 : Below 28672 v1713) (hb11 : Below 28672 v1738) (hb12 : Below 28672 v1763) (hb13 : Below 28672 v1788) (h6 : AtMost 1920 v6) (k : Fin k0_t6_loop.trips) :
    (invq d i arg6 arg7 g7 k.val () : sProp 𝕄)
      ⊢ wp frame (wpE (defs₀ (F := F)) 𝒱₀ (V d (cV i) (jV i)) none) Set.univ
          (k0_t6_body i arg2 harg2 arg3 harg3 arg4 harg4 arg5 harg5 arg6 harg6 arg7 harg7 v32_r0 v1791_r1 v1791_r2 v1791_r3 v1791_r4 v1 v2 v4 v6 c0_i32_7 c1_i32_9 k0_t1 v1463 v1488 v1513 v1538 v1563 v1588 v1613 v1638 v1663 v1688 v1713 v1738 v1763 v1788 k ())
          fun r => invq d i arg6 arg7 g7 (k.val + 1) r := by
  unfold invq
  iintro ⟨H7, %f6, H6⟩
  iapply (trip6 d i arg2 harg2 arg3 harg3 arg4 harg4 arg5 harg5 arg6 harg6 arg7 harg7 v32_r0 v1791_r1 v1791_r2 v1791_r3 v1791_r4 v1 v2 v4 v6 c0_i32_7 c1_i32_9 k0_t1 v1463 v1488 v1513 v1538 v1563 v1588 v1613 v1638 v1663 v1688 v1713 v1738 v1763 v1788 g7 f6 hb0 hb1 hb2 hb3 hb4 hb5 hb6 hb7 hb8 hb9 hb10 hb11 hb12 hb13 h6 k) $$ [H7 H6]
  isplitl [H7]; · iexact H7
  iexact H6

set_option maxHeartbeats 4000000 in
set_option maxRecDepth 65536 in
theorem chunk (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v1 : BitVec 32) (v2 v4 v6 : IVec S16 32) (c0 c1 : BitVec 32) (t : Fin (k0_t1_loop i).trips)
    (O : CellTallies nD τ sig (HIx 1)) (W : Waits sig (HIx 1)) (qx : PosShare TreeShare)
    (fx : Buf (Elt F) (arg2.view.loc (V d (cV i) (jV i)))) (g7 : Buf (Elt F) (arg7.view.loc (V d (cV i) (jV i))))
    (fo : Buf (Elt F) ((arg4.slice (Rect.unit (s := S512000) (k0_off2 i t) S10240.size (k0_off2_inb i t)) (fun _ => rfl)).view.loc (V d (cV i) (jV i))))
    (h4 : AtMost 840 v4) (h6 : AtMost 1920 v6) (hfx : Bin32 (arg2.view.read (Elt F) fx)) :
    iprop(Transfers.MayWaits (V d (cV i) (jV i)) (none : HIx 1) O
        ∗ (arg2.view.loc (V d (cV i) (jV i)) ↦{qx} fx)
        ∗ (arg7.view.loc (V d (cV i) (jV i)) ↦{fullShare} g7)
        ∗ (∃ f5, arg5.view.loc (V d (cV i) (jV i)) ↦{fullShare} f5)
        ∗ (∃ f6, arg6.view.loc (V d (cV i) (jV i)) ↦{fullShare} f6)
        ∗ ((arg4.slice (Rect.unit (s := S512000) (k0_off2 i t) S10240.size (k0_off2_inb i t)) (fun _ => rfl)).view.loc (V d (cV i) (jV i))
              ↦[(arg4.slice (Rect.unit (s := S512000) (k0_off2 i t) S10240.size (k0_off2_inb i t)) (fun _ => rfl)).view.set]{fullShare} fo)
        ∗ semVal ((V d (cV i) (jV i)), SemLoc.dma v1791_r1.sem) 0
        ∗ semVal ((V d (cV i) (jV i)), SemLoc.dma v1791_r2.sem) 0
        ∗ ∃ W', ⌜∀ p ∈ W', p ∈ W ∨ p.2 = none⌝ ∗ owes (V d (cV i) (jV i)) O W' : sProp 𝕄)
      ⊢ wp frame (wpE (defs₀ (F := F)) 𝒱₀ (V d (cV i) (jV i)) none) Set.univ
          (k0_part51 i arg2 harg2 arg3 harg3 arg4 harg4 arg5 harg5 arg6 harg6 arg7 harg7 v32_r0 v1791_r1 v1791_r2 v1791_r3 v1791_r4 v1 v2 v4 v6 c0 c1 t)
          fun _ => iprop((arg2.view.loc (V d (cV i) (jV i)) ↦{qx} fx)
            ∗ (arg7.view.loc (V d (cV i) (jV i)) ↦{fullShare} g7)
            ∗ (∃ f5, arg5.view.loc (V d (cV i) (jV i)) ↦{fullShare} f5)
            ∗ (∃ f6, arg6.view.loc (V d (cV i) (jV i)) ↦{fullShare} f6)
            ∗ (∃ fo', (arg4.slice (Rect.unit (s := S512000) (k0_off2 i t) S10240.size (k0_off2_inb i t)) (fun _ => rfl)).view.loc (V d (cV i) (jV i)) ↦[(arg4.slice (Rect.unit (s := S512000) (k0_off2 i t) S10240.size (k0_off2_inb i t)) (fun _ => rfl)).view.set]{fullShare} fo')
            ∗ semVal ((V d (cV i) (jV i)), SemLoc.dma v1791_r1.sem) 0
            ∗ semVal ((V d (cV i) (jV i)), SemLoc.dma v1791_r2.sem) 0
            ∗ ∃ W', ⌜∀ p ∈ W', p ∈ W ∨ p.2 = none⌝ ∗ owes (V d (cV i) (jV i)) O W') := by
  have hc1 : k0_chk1 (k0_pay18 v4) := by intro a x; exact chk_xbuf _ _ h4 (by decide) a x
  have hc2 : k0_chk2 (k0_pay19 v4) := by intro a x; exact chk_xbuf _ _ h4 (by decide) a x
  have hc3 : k0_chk3 (k0_pay20 v4) := by intro a x; exact chk_xbuf _ _ h4 (by decide) a x
  have hc4 : k0_chk4 (k0_pay21 v4) := by intro a x; exact chk_xbuf _ _ h4 (by decide) a x
  have hc5 : k0_chk5 (k0_pay23 v4) := by intro a x; exact chk_xbuf _ _ h4 (by decide) a x
  have hc6 : k0_chk6 (k0_pay24 v4) := by intro a x; exact chk_xbuf _ _ h4 (by decide) a x
  have hc7 : k0_chk7 (k0_pay25 v4) := by intro a x; exact chk_xbuf _ _ h4 (by decide) a x
  have hc8 : k0_chk8 (k0_pay26 v4) := by intro a x; exact chk_xbuf _ _ h4 (by decide) a x
  have hc9 : k0_chk9 (k0_pay28 v4) := by intro a x; exact chk_xbuf _ _ h4 (by decide) a x
  have hc10 : k0_chk10 (k0_pay29 v4) := by intro a x; exact chk_xbuf _ _ h4 (by decide) a x
  have hc11 : k0_chk11 (k0_pay30 v4) := by intro a x; exact chk_xbuf _ _ h4 (by decide) a x
  have hc12 : k0_chk12 (k0_pay31 v4) := by intro a x; exact chk_xbuf _ _ h4 (by decide) a x
  have hc13 : k0_chk13 (k0_pay34 v4) := by intro a x; exact chk_xbuf _ _ h4 (by decide) a x
  have hc14 : k0_chk14 (k0_pay35 v4) := by intro a x; exact chk_xbuf _ _ h4 (by decide) a x
  have hc15 : k0_chk15 (k0_pay36 v4) := by intro a x; exact chk_xbuf _ _ h4 (by decide) a x
  have hc16 : k0_chk16 (k0_pay37 v4) := by intro a x; exact chk_xbuf _ _ h4 (by decide) a x
  have hc17 : k0_chk17 (k0_pay39 v4) := by intro a x; exact chk_xbuf _ _ h4 (by decide) a x
  have hc18 : k0_chk18 (k0_pay40 v4) := by intro a x; exact chk_xbuf _ _ h4 (by decide) a x
  have hc20 : k0_chk20 (k0_pay43 v4) := by intro a x; exact chk_xbuf _ _ h4 (by decide) a x
  have hc21 : k0_chk21 (k0_pay45 v4) := by intro a x; exact chk_xbuf _ _ h4 (by decide) a x
  have hc22 : k0_chk22 (k0_pay46 v4) := by intro a x; exact chk_xbuf _ _ h4 (by decide) a x
  have hc23 : k0_chk23 (k0_pay47 v4) := by intro a x; exact chk_xbuf _ _ h4 (by decide) a x
  have hc24 : k0_chk24 (k0_pay48 v4) := by intro a x; exact chk_xbuf _ _ h4 (by decide) a x
  have hc25 : k0_chk25 (k0_pay50 v4) := by intro a x; exact chk_xbuf _ _ h4 (by decide) a x
  have hc26 : k0_chk26 (k0_pay51 v4) := by intro a x; exact chk_xbuf _ _ h4 (by decide) a x
  have hc27 : k0_chk27 (k0_pay52 v4) := by intro a x; exact chk_xbuf _ _ h4 (by decide) a x
  have hc28 : k0_chk28 (k0_pay53 v4) := by intro a x; exact chk_xbuf _ _ h4 (by decide) a x
  have hc29 : k0_chk29 (k0_pay55 v4) := by intro a x; exact chk_xbuf _ _ h4 (by decide) a x
  have hc30 : k0_chk30 (k0_pay56 v4) := by intro a x; exact chk_xbuf _ _ h4 (by decide) a x
  have hc31 : k0_chk31 (k0_pay58 v4) := by intro a x; exact chk_xbuf _ _ h4 (by decide) a x
  have hc32 : k0_chk32 (k0_pay60 v4) := by intro a x; exact chk_xbuf _ _ h4 (by decide) a x
  have hc33 : k0_chk33 (k0_pay62 v4) := by intro a x; exact chk_xbuf _ _ h4 (by decide) a x
  have hc34 : k0_chk34 (k0_pay63 v4) := by intro a x; exact chk_xbuf _ _ h4 (by decide) a x
  have hc35 : k0_chk35 (k0_pay64 v4) := by intro a x; exact chk_xbuf _ _ h4 (by decide) a x
  have hc36 : k0_chk36 (k0_pay65 v4) := by intro a x; exact chk_xbuf _ _ h4 (by decide) a x
  have hc37 : k0_chk37 (k0_pay67 v4) := by intro a x; exact chk_xbuf _ _ h4 (by decide) a x
  have hc38 : k0_chk38 (k0_pay68 v4 37#32) := by intro a x; exact chk_xbuf _ _ h4 (by decide) a x
  have hc39 : k0_chk39 (k0_pay69 v4) := by intro a x; exact chk_xbuf _ _ h4 (by decide) a x
  have hc40 : k0_chk40 (k0_pay70 v4) := by intro a x; exact chk_xbuf _ _ h4 (by decide) a x
  have hc41 : k0_chk41 (k0_pay72 v4) := by intro a x; exact chk_xbuf _ _ h4 (by decide) a x
  have hc42 : k0_chk42 (k0_pay73 v4) := by intro a x; exact chk_xbuf _ _ h4 (by decide) a x
  have hc43 : k0_chk43 (k0_pay74 v4) := by intro a x; exact chk_xbuf _ _ h4 (by decide) a x
  have hc44 : k0_chk44 (k0_pay76 v4) := by intro a x; exact chk_xbuf _ _ h4 (by decide) a x
  have hc45 : k0_chk45 (k0_pay78 v4) := by intro a x; exact chk_xbuf _ _ h4 (by decide) a x
  have hc46 : k0_chk46 (k0_pay79 v4) := by intro a x; exact chk_xbuf _ _ h4 (by decide) a x
  have hc47 : k0_chk47 (k0_pay80 v4) := by intro a x; exact chk_xbuf _ _ h4 (by decide) a x
  have hc48 : k0_chk48 (k0_pay81 v4) := by intro a x; exact chk_xbuf _ _ h4 (by decide) a x
  have hc49 : k0_chk49 (k0_pay83 v4) := by intro a x; exact chk_xbuf _ _ h4 (by decide) a x
  have hc50 : k0_chk50 (k0_pay84 v4) := by intro a x; exact chk_xbuf _ _ h4 (by decide) a x
  have hc51 : k0_chk51 (k0_pay86 v4) := by intro a x; exact chk_xbuf _ _ h4 (by decide) a x
  have hc52 : k0_chk52 (k0_pay87 v4) := by intro a x; exact chk_xbuf _ _ h4 (by decide) a x
  have hc53 : k0_chk53 (k0_pay89 v4) := by intro a x; exact chk_xbuf _ _ h4 (by decide) a x
  have hc54 : k0_chk54 (k0_pay90 v4) := by intro a x; exact chk_xbuf _ _ h4 (by decide) a x
  have hc55 : k0_chk55 (k0_pay91 v4) := by intro a x; exact chk_xbuf _ _ h4 (by decide) a x
  have hc56 : k0_chk56 (k0_pay92 v4) := by intro a x; exact chk_xbuf _ _ h4 (by decide) a x
  have hc72 : k0_chk72 (k0_pay98 v4) := by intro a x; exact chk_xbuf _ _ h4 (by decide) a x
  have hc73 : k0_chk73 (k0_pay99 v4) := by intro a x; exact chk_xbuf _ _ h4 (by decide) a x
  have hc74 : k0_chk74 (k0_pay100 v4) := by intro a x; exact chk_xbuf _ _ h4 (by decide) a x
  have hc75 : k0_chk75 (k0_pay101 v4) := by intro a x; exact chk_xbuf _ _ h4 (by decide) a x
  have hc76 : k0_chk76 (k0_pay103 v4) := by intro a x; exact chk_xbuf _ _ h4 (by decide) a x
  have hc77 : k0_chk77 (k0_pay104 v4) := by intro a x; exact chk_xbuf _ _ h4 (by decide) a x
  have hc78 : k0_chk78 (k0_pay105 v4) := by intro a x; exact chk_xbuf _ _ h4 (by decide) a x
  have hc79 : k0_chk79 (k0_pay106 v4) := by intro a x; exact chk_xbuf _ _ h4 (by decide) a x
  have hc80 : k0_chk80 (k0_pay108 v4) := by intro a x; exact chk_xbuf _ _ h4 (by decide) a x
  have hc81 : k0_chk81 (k0_pay109 v4) := by intro a x; exact chk_xbuf _ _ h4 (by decide) a x
  have hc82 : k0_chk82 (k0_pay110 v4) := by intro a x; exact chk_xbuf _ _ h4 (by decide) a x
  have hc83 : k0_chk83 (k0_pay111 v4) := by intro a x; exact chk_xbuf _ _ h4 (by decide) a x
  have hc84 : k0_chk84 (k0_pay114 v4) := by intro a x; exact chk_xbuf _ _ h4 (by decide) a x
  have hc85 : k0_chk85 (k0_pay115 v4) := by intro a x; exact chk_xbuf _ _ h4 (by decide) a x
  have hc86 : k0_chk86 (k0_pay116 v4) := by intro a x; exact chk_xbuf _ _ h4 (by decide) a x
  have hc87 : k0_chk87 (k0_pay117 v4) := by intro a x; exact chk_xbuf _ _ h4 (by decide) a x
  have hc88 : k0_chk88 (k0_pay119 v4) := by intro a x; exact chk_xbuf _ _ h4 (by decide) a x
  have hc89 : k0_chk89 (k0_pay120 v4) := by intro a x; exact chk_xbuf _ _ h4 (by decide) a x
  have hc91 : k0_chk91 (k0_pay123 v4) := by intro a x; exact chk_xbuf _ _ h4 (by decide) a x
  have hc92 : k0_chk92 (k0_pay125 v4) := by intro a x; exact chk_xbuf _ _ h4 (by decide) a x
  have hc93 : k0_chk93 (k0_pay126 v4) := by intro a x; exact chk_xbuf _ _ h4 (by decide) a x
  have hc94 : k0_chk94 (k0_pay127 v4) := by intro a x; exact chk_xbuf _ _ h4 (by decide) a x
  have hc95 : k0_chk95 (k0_pay128 v4) := by intro a x; exact chk_xbuf _ _ h4 (by decide) a x
  have hc96 : k0_chk96 (k0_pay130 v4 920#32) := by intro a x; exact chk_xbuf _ _ h4 (by decide) a x
  have hc97 : k0_chk97 (k0_pay131 v4) := by intro a x; exact chk_xbuf _ _ h4 (by decide) a x
  have hc98 : k0_chk98 (k0_pay132 v4) := by intro a x; exact chk_xbuf _ _ h4 (by decide) a x
  have hc99 : k0_chk99 (k0_pay133 v4) := by intro a x; exact chk_xbuf _ _ h4 (by decide) a x
  have hc100 : k0_chk100 (k0_pay135 v4) := by intro a x; exact chk_xbuf _ _ h4 (by decide) a x
  have hc101 : k0_chk101 (k0_pay136 v4) := by intro a x; exact chk_xbuf _ _ h4 (by decide) a x
  have hc102 : k0_chk102 (k0_pay137 v4) := by intro a x; exact chk_xbuf _ _ h4 (by decide) a x
  have hc103 : k0_chk103 (k0_pay139 v4) := by intro a x; exact chk_xbuf _ _ h4 (by decide) a x
  have hc104 : k0_chk104 (k0_pay141 v4) := by intro a x; exact chk_xbuf _ _ h4 (by decide) a x
  have hc105 : k0_chk105 (k0_pay142 v4) := by intro a x; exact chk_xbuf _ _ h4 (by decide) a x
  have hc106 : k0_chk106 (k0_pay143 v4) := by intro a x; exact chk_xbuf _ _ h4 (by decide) a x
  have hc107 : k0_chk107 (k0_pay144 v4) := by intro a x; exact chk_xbuf _ _ h4 (by decide) a x
  have hc108 : k0_chk108 (k0_pay146 v4) := by intro a x; exact chk_xbuf _ _ h4 (by decide) a x
  have hc110 : k0_chk110 (k0_pay148 v4) := by intro a x; exact chk_xbuf _ _ h4 (by decide) a x
  have hc111 : k0_chk111 (k0_pay149 v4) := by intro a x; exact chk_xbuf _ _ h4 (by decide) a x
  have hc112 : k0_chk112 (k0_pay151 v4) := by intro a x; exact chk_xbuf _ _ h4 (by decide) a x
  have hc113 : k0_chk113 (k0_pay152 v4) := by intro a x; exact chk_xbuf _ _ h4 (by decide) a x
  have hc114 : k0_chk114 (k0_pay153 v4) := by intro a x; exact chk_xbuf _ _ h4 (by decide) a x
  have hc115 : k0_chk115 (k0_pay155 v4) := by intro a x; exact chk_xbuf _ _ h4 (by decide) a x
  have hc116 : k0_chk116 (k0_pay157 v4) := by intro a x; exact chk_xbuf _ _ h4 (by decide) a x
  have hc117 : k0_chk117 (k0_pay158 v4) := by intro a x; exact chk_xbuf _ _ h4 (by decide) a x
  have hc118 : k0_chk118 (k0_pay159 v4) := by intro a x; exact chk_xbuf _ _ h4 (by decide) a x
  have hc119 : k0_chk119 (k0_pay160 v4) := by intro a x; exact chk_xbuf _ _ h4 (by decide) a x
  have hc120 : k0_chk120 (k0_pay162 v4) := by intro a x; exact chk_xbuf _ _ h4 (by decide) a x
  have hc121 : k0_chk121 (k0_pay163 v4) := by intro a x; exact chk_xbuf _ _ h4 (by decide) a x
  have hc122 : k0_chk122 (k0_pay165 v4) := by intro a x; exact chk_xbuf _ _ h4 (by decide) a x
  have hc123 : k0_chk123 (k0_pay166 v4) := by intro a x; exact chk_xbuf _ _ h4 (by decide) a x
  have hc124 : k0_chk124 (k0_pay168 v4) := by intro a x; exact chk_xbuf _ _ h4 (by decide) a x
  have hc125 : k0_chk125 (k0_pay169 v4) := by intro a x; exact chk_xbuf _ _ h4 (by decide) a x
  have hc126 : k0_chk126 (k0_pay170 v4) := by intro a x; exact chk_xbuf _ _ h4 (by decide) a x
  have hc127 : k0_chk127 (k0_pay171 v4) := by intro a x; exact chk_xbuf _ _ h4 (by decide) a x
  have hc143 : k0_chk143 (k0_pay176 v4) := by intro a x; exact chk_xbuf _ _ h4 (by decide) a x
  have hc144 : k0_chk144 (k0_pay177 v4) := by intro a x; exact chk_xbuf _ _ h4 (by decide) a x
  have hc145 : k0_chk145 (k0_pay178 v4) := by intro a x; exact chk_xbuf _ _ h4 (by decide) a x
  have hc146 : k0_chk146 (k0_pay179 v4) := by intro a x; exact chk_xbuf _ _ h4 (by decide) a x
  have hc147 : k0_chk147 (k0_pay181 v4) := by intro a x; exact chk_xbuf _ _ h4 (by decide) a x
  have hc148 : k0_chk148 (k0_pay182 v4) := by intro a x; exact chk_xbuf _ _ h4 (by decide) a x
  have hc149 : k0_chk149 (k0_pay184 v4) := by intro a x; exact chk_xbuf _ _ h4 (by decide) a x
  have hc150 : k0_chk150 (k0_pay185 v4) := by intro a x; exact chk_xbuf _ _ h4 (by decide) a x
  have hc151 : k0_chk151 (k0_pay187 v4) := by intro a x; exact chk_xbuf _ _ h4 (by decide) a x
  have hc152 : k0_chk152 (k0_pay188 v4) := by intro a x; exact chk_xbuf _ _ h4 (by decide) a x
  have hc153 : k0_chk153 (k0_pay189 v4) := by intro a x; exact chk_xbuf _ _ h4 (by decide) a x
  have hc154 : k0_chk154 (k0_pay190 v4) := by intro a x; exact chk_xbuf _ _ h4 (by decide) a x
  have hc155 : k0_chk155 (k0_pay194 v4) := by intro a x; exact chk_xbuf _ _ h4 (by decide) a x
  have hc156 : k0_chk156 (k0_pay195 v4) := by intro a x; exact chk_xbuf _ _ h4 (by decide) a x
  have hc157 : k0_chk157 (k0_pay196 v4) := by intro a x; exact chk_xbuf _ _ h4 (by decide) a x
  have hc158 : k0_chk158 (k0_pay197 v4) := by intro a x; exact chk_xbuf _ _ h4 (by decide) a x
  have hc159 : k0_chk159 (k0_pay199 v4) := by intro a x; exact chk_xbuf _ _ h4 (by decide) a x
  have hc160 : k0_chk160 (k0_pay200 v4) := by intro a x; exact chk_xbuf _ _ h4 (by decide) a x
  have hc161 : k0_chk161 (k0_pay202 v4) := by intro a x; exact chk_xbuf _ _ h4 (by decide) a x
  have hc162 : k0_chk162 (k0_pay203 v4) := by intro a x; exact chk_xbuf _ _ h4 (by decide) a x
  have hc163 : k0_chk163 (k0_pay205 v4) := by intro a x; exact chk_xbuf _ _ h4 (by decide) a x
  have hc164 : k0_chk164 (k0_pay206 v4) := by intro a x; exact chk_xbuf _ _ h4 (by decide) a x
  have hc165 : k0_chk165 (k0_pay207 v4) := by intro a x; exact chk_xbuf _ _ h4 (by decide) a x
  have hc166 : k0_chk166 (k0_pay208 v4) := by intro a x; exact chk_xbuf _ _ h4 (by decide) a x
  have hc168 : k0_chk168 (k0_pay211 v4) := by intro a x; exact chk_xbuf _ _ h4 (by decide) a x
  have hc169 : k0_chk169 (k0_pay212 v4) := by intro a x; exact chk_xbuf _ _ h4 (by decide) a x
  have hc170 : k0_chk170 (k0_pay213 v4) := by intro a x; exact chk_xbuf _ _ h4 (by decide) a x
  have hc171 : k0_chk171 (k0_pay215 v4) := by intro a x; exact chk_xbuf _ _ h4 (by decide) a x
  have hc172 : k0_chk172 (k0_pay216 v4) := by intro a x; exact chk_xbuf _ _ h4 (by decide) a x
  have hc173 : k0_chk173 (k0_pay217 v4) := by intro a x; exact chk_xbuf _ _ h4 (by decide) a x
  have hc174 : k0_chk174 (k0_pay219 v4 1823#32) := by intro a x; exact chk_xbuf _ _ h4 (by decide) a x
  have hc175 : k0_chk175 (k0_pay221 v4) := by intro a x; exact chk_xbuf _ _ h4 (by decide) a x
  have hc176 : k0_chk176 (k0_pay222 v4) := by intro a x; exact chk_xbuf _ _ h4 (by decide) a x
  have hc177 : k0_chk177 (k0_pay223 v4) := by intro a x; exact chk_xbuf _ _ h4 (by decide) a x
  have hc178 : k0_chk178 (k0_pay224 v4) := by intro a x; exact chk_xbuf _ _ h4 (by decide) a x
  have hc179 : k0_chk179 (k0_pay226 v4) := by intro a x; exact chk_xbuf _ _ h4 (by decide) a x
  have hc181 : k0_chk181 (k0_pay228 v4) := by intro a x; exact chk_xbuf _ _ h4 (by decide) a x
  have hc182 : k0_chk182 (k0_pay229 v4) := by intro a x; exact chk_xbuf _ _ h4 (by decide) a x
  have hc183 : k0_chk183 (k0_pay231 v4) := by intro a x; exact chk_xbuf _ _ h4 (by decide) a x
  have hc184 : k0_chk184 (k0_pay232 v4) := by intro a x; exact chk_xbuf _ _ h4 (by decide) a x
  have hc185 : k0_chk185 (k0_pay233 v4) := by intro a x; exact chk_xbuf _ _ h4 (by decide) a x
  have hc186 : k0_chk186 (k0_pay235 v4) := by intro a x; exact chk_xbuf _ _ h4 (by decide) a x
  have hc187 : k0_chk187 (k0_pay238 v4) := by intro a x; exact chk_xbuf _ _ h4 (by decide) a x
  have hc188 : k0_chk188 (k0_pay239 v4) := by intro a x; exact chk_xbuf _ _ h4 (by decide) a x
  have hc189 : k0_chk189 (k0_pay240 v4) := by intro a x; exact chk_xbuf _ _ h4 (by decide) a x
  have hc190 : k0_chk190 (k0_pay241 v4) := by intro a x; exact chk_xbuf _ _ h4 (by decide) a x
  have hc191 : k0_chk191 (k0_pay243 v4) := by intro a x; exact chk_xbuf _ _ h4 (by decide) a x
  have hc192 : k0_chk192 (k0_pay244 v4) := by intro a x; exact chk_xbuf _ _ h4 (by decide) a x
  have hc193 : k0_chk193 (k0_pay246 v4) := by intro a x; exact chk_xbuf _ _ h4 (by decide) a x
  have hc194 : k0_chk194 (k0_pay247 v4) := by intro a x; exact chk_xbuf _ _ h4 (by decide) a x
  have hc195 : k0_chk195 (k0_pay249 v4) := by intro a x; exact chk_xbuf _ _ h4 (by decide) a x
  have hc196 : k0_chk196 (k0_pay250 v4) := by intro a x; exact chk_xbuf _ _ h4 (by decide) a x
  have hc197 : k0_chk197 (k0_pay251 v4) := by intro a x; exact chk_xbuf _ _ h4 (by decide) a x
  have hc198 : k0_chk198 (k0_pay252 v4) := by intro a x; exact chk_xbuf _ _ h4 (by decide) a x
  have hc214 : k0_chk214 (k0_pay257 v4) := by intro a x; exact chk_xbuf _ _ h4 (by decide) a x
  have hc215 : k0_chk215 (k0_pay258 v4) := by intro a x; exact chk_xbuf _ _ h4 (by decide) a x
  have hc216 : k0_chk216 (k0_pay259 v4) := by intro a x; exact chk_xbuf _ _ h4 (by decide) a x
  have hc217 : k0_chk217 (k0_pay260 v4) := by intro a x; exact chk_xbuf _ _ h4 (by decide) a x
  have hc218 : k0_chk218 (k0_pay262 v4) := by intro a x; exact chk_xbuf _ _ h4 (by decide) a x
  have hc219 : k0_chk219 (k0_pay263 v4) := by intro a x; exact chk_xbuf _ _ h4 (by decide) a x
  have hc220 : k0_chk220 (k0_pay265 v4) := by intro a x; exact chk_xbuf _ _ h4 (by decide) a x
  have hc221 : k0_chk221 (k0_pay266 v4) := by intro a x; exact chk_xbuf _ _ h4 (by decide) a x
  have hc222 : k0_chk222 (k0_pay268 v4) := by intro a x; exact chk_xbuf _ _ h4 (by decide) a x
  have hc223 : k0_chk223 (k0_pay269 v4) := by intro a x; exact chk_xbuf _ _ h4 (by decide) a x
  have hc224 : k0_chk224 (k0_pay270 v4) := by intro a x; exact chk_xbuf _ _ h4 (by decide) a x
  have hc225 : k0_chk225 (k0_pay271 v4) := by intro a x; exact chk_xbuf _ _ h4 (by decide) a x
  have hc226 : k0_chk226 (k0_pay274 v4) := by intro a x; exact chk_xbuf _ _ h4 (by decide) a x
  have hc227 : k0_chk227 (k0_pay275 v4) := by intro a x; exact chk_xbuf _ _ h4 (by decide) a x
  have hc228 : k0_chk228 (k0_pay276 v4) := by intro a x; exact chk_xbuf _ _ h4 (by decide) a x
  have hc229 : k0_chk229 (k0_pay277 v4) := by intro a x; exact chk_xbuf _ _ h4 (by decide) a x
  have hc230 : k0_chk230 (k0_pay279 v4) := by intro a x; exact chk_xbuf _ _ h4 (by decide) a x
  have hc231 : k0_chk231 (k0_pay280 v4) := by intro a x; exact chk_xbuf _ _ h4 (by decide) a x
  have hc232 : k0_chk232 (k0_pay282 v4) := by intro a x; exact chk_xbuf _ _ h4 (by decide) a x
  have hc233 : k0_chk233 (k0_pay283 v4) := by intro a x; exact chk_xbuf _ _ h4 (by decide) a x
  have hc234 : k0_chk234 (k0_pay285 v4) := by intro a x; exact chk_xbuf _ _ h4 (by decide) a x
  have hc235 : k0_chk235 (k0_pay286 v4) := by intro a x; exact chk_xbuf _ _ h4 (by decide) a x
  have hc236 : k0_chk236 (k0_pay287 v4) := by intro a x; exact chk_xbuf _ _ h4 (by decide) a x
  have hc237 : k0_chk237 (k0_pay288 v4) := by intro a x; exact chk_xbuf _ _ h4 (by decide) a x
  have hc239 : k0_chk239 (k0_pay291 v4) := by intro a x; exact chk_xbuf _ _ h4 (by decide) a x
  have hc240 : k0_chk240 (k0_pay292 v4) := by intro a x; exact chk_xbuf _ _ h4 (by decide) a x
  have hc241 : k0_chk241 (k0_pay293 v4) := by intro a x; exact chk_xbuf _ _ h4 (by decide) a x
  have hc242 : k0_chk242 (k0_pay295 v4) := by intro a x; exact chk_xbuf _ _ h4 (by decide) a x
  have hc243 : k0_chk243 (k0_pay296 v4) := by intro a x; exact chk_xbuf _ _ h4 (by decide) a x
  have hc244 : k0_chk244 (k0_pay297 v4) := by intro a x; exact chk_xbuf _ _ h4 (by decide) a x
  have hc246 : k0_chk246 (k0_pay301 v4) := by intro a x; exact chk_xbuf _ _ h4 (by decide) a x
  have hc247 : k0_chk247 (k0_pay302 v4) := by intro a x; exact chk_xbuf _ _ h4 (by decide) a x
  have hc248 : k0_chk248 (k0_pay303 v4) := by intro a x; exact chk_xbuf _ _ h4 (by decide) a x
  have hc249 : k0_chk249 (k0_pay304 v4) := by intro a x; exact chk_xbuf _ _ h4 (by decide) a x
  have hc250 : k0_chk250 (k0_pay306 v4) := by intro a x; exact chk_xbuf _ _ h4 (by decide) a x
  have hc251 : k0_chk251 (k0_pay307 v4) := by intro a x; exact chk_xbuf _ _ h4 (by decide) a x
  have hc252 : k0_chk252 (k0_pay308 v4) := by intro a x; exact chk_xbuf _ _ h4 (by decide) a x
  have hc253 : k0_chk253 (k0_pay309 v4) := by intro a x; exact chk_xbuf _ _ h4 (by decide) a x
  have hc254 : k0_chk254 (k0_pay311 v4) := by intro a x; exact chk_xbuf _ _ h4 (by decide) a x
  have hc255 : k0_chk255 (k0_pay312 v4) := by intro a x; exact chk_xbuf _ _ h4 (by decide) a x
  have hc256 : k0_chk256 (k0_pay313 v4) := by intro a x; exact chk_xbuf _ _ h4 (by decide) a x
  have hc257 : k0_chk257 (k0_pay315 v4) := by intro a x; exact chk_xbuf _ _ h4 (by decide) a x
  have hc258 : k0_chk258 (k0_pay318 v4) := by intro a x; exact chk_xbuf _ _ h4 (by decide) a x
  have hc259 : k0_chk259 (k0_pay319 v4) := by intro a x; exact chk_xbuf _ _ h4 (by decide) a x
  have hc260 : k0_chk260 (k0_pay320 v4) := by intro a x; exact chk_xbuf _ _ h4 (by decide) a x
  have hc261 : k0_chk261 (k0_pay321 v4) := by intro a x; exact chk_xbuf _ _ h4 (by decide) a x
  have hc262 : k0_chk262 (k0_pay323 v4) := by intro a x; exact chk_xbuf _ _ h4 (by decide) a x
  have hc263 : k0_chk263 (k0_pay324 v4) := by intro a x; exact chk_xbuf _ _ h4 (by decide) a x
  have hc264 : k0_chk264 (k0_pay326 v4 2738#32) := by intro a x; exact chk_xbuf _ _ h4 (by decide) a x
  have hc265 : k0_chk265 (k0_pay327 v4) := by intro a x; exact chk_xbuf _ _ h4 (by decide) a x
  have hc266 : k0_chk266 (k0_pay329 v4) := by intro a x; exact chk_xbuf _ _ h4 (by decide) a x
  have hc267 : k0_chk267 (k0_pay330 v4) := by intro a x; exact chk_xbuf _ _ h4 (by decide) a x
  have hc268 : k0_chk268 (k0_pay331 v4) := by intro a x; exact chk_xbuf _ _ h4 (by decide) a x
  have hc269 : k0_chk269 (k0_pay332 v4) := by intro a x; exact chk_xbuf _ _ h4 (by decide) a x
  have hc285 : k0_chk285 (k0_pay338 v4) := by intro a x; exact chk_xbuf _ _ h4 (by decide) a x
  have hc286 : k0_chk286 (k0_pay339 v4) := by intro a x; exact chk_xbuf _ _ h4 (by decide) a x
  have hc287 : k0_chk287 (k0_pay340 v4) := by intro a x; exact chk_xbuf _ _ h4 (by decide) a x
  have hc288 : k0_chk288 (k0_pay341 v4) := by intro a x; exact chk_xbuf _ _ h4 (by decide) a x
  have hc289 : k0_chk289 (k0_pay343 v4) := by intro a x; exact chk_xbuf _ _ h4 (by decide) a x
  have hc290 : k0_chk290 (k0_pay344 v4) := by intro a x; exact chk_xbuf _ _ h4 (by decide) a x
  have hc291 : k0_chk291 (k0_pay346 v4) := by intro a x; exact chk_xbuf _ _ h4 (by decide) a x
  have hc292 : k0_chk292 (k0_pay347 v4) := by intro a x; exact chk_xbuf _ _ h4 (by decide) a x
  have hc293 : k0_chk293 (k0_pay349 v4) := by intro a x; exact chk_xbuf _ _ h4 (by decide) a x
  have hc294 : k0_chk294 (k0_pay350 v4) := by intro a x; exact chk_xbuf _ _ h4 (by decide) a x
  have hc295 : k0_chk295 (k0_pay351 v4) := by intro a x; exact chk_xbuf _ _ h4 (by decide) a x
  have hc296 : k0_chk296 (k0_pay352 v4) := by intro a x; exact chk_xbuf _ _ h4 (by decide) a x
  have hc297 : k0_chk297 (k0_pay355 v4) := by intro a x; exact chk_xbuf _ _ h4 (by decide) a x
  have hc298 : k0_chk298 (k0_pay356 v4) := by intro a x; exact chk_xbuf _ _ h4 (by decide) a x
  have hc299 : k0_chk299 (k0_pay357 v4) := by intro a x; exact chk_xbuf _ _ h4 (by decide) a x
  have hc300 : k0_chk300 (k0_pay358 v4) := by intro a x; exact chk_xbuf _ _ h4 (by decide) a x
  have hc301 : k0_chk301 (k0_pay360 v4) := by intro a x; exact chk_xbuf _ _ h4 (by decide) a x
  have hc302 : k0_chk302 (k0_pay361 v4) := by intro a x; exact chk_xbuf _ _ h4 (by decide) a x
  have hc303 : k0_chk303 (k0_pay363 v4) := by intro a x; exact chk_xbuf _ _ h4 (by decide) a x
  have hc304 : k0_chk304 (k0_pay364 v4) := by intro a x; exact chk_xbuf _ _ h4 (by decide) a x
  have hc305 : k0_chk305 (k0_pay366 v4) := by intro a x; exact chk_xbuf _ _ h4 (by decide) a x
  have hc306 : k0_chk306 (k0_pay367 v4) := by intro a x; exact chk_xbuf _ _ h4 (by decide) a x
  have hc307 : k0_chk307 (k0_pay368 v4) := by intro a x; exact chk_xbuf _ _ h4 (by decide) a x
  have hc308 : k0_chk308 (k0_pay369 v4) := by intro a x; exact chk_xbuf _ _ h4 (by decide) a x
  have hc309 : k0_chk309 (k0_pay371 v4) := by intro a x; exact chk_xbuf _ _ h4 (by decide) a x
  have hc310 : k0_chk310 (k0_pay372 v4) := by intro a x; exact chk_xbuf _ _ h4 (by decide) a x
  have hc311 : k0_chk311 (k0_pay373 v4) := by intro a x; exact chk_xbuf _ _ h4 (by decide) a x
  have hc312 : k0_chk312 (k0_pay374 v4) := by intro a x; exact chk_xbuf _ _ h4 (by decide) a x
  have hc313 : k0_chk313 (k0_pay376 v4) := by intro a x; exact chk_xbuf _ _ h4 (by decide) a x
  have hc314 : k0_chk314 (k0_pay377 v4) := by intro a x; exact chk_xbuf _ _ h4 (by decide) a x
  have hc315 : k0_chk315 (k0_pay378 v4) := by intro a x; exact chk_xbuf _ _ h4 (by decide) a x
  have hc317 : k0_chk317 (k0_pay382 v4) := by intro a x; exact chk_xbuf _ _ h4 (by decide) a x
  have hc318 : k0_chk318 (k0_pay383 v4) := by intro a x; exact chk_xbuf _ _ h4 (by decide) a x
  have hc319 : k0_chk319 (k0_pay384 v4) := by intro a x; exact chk_xbuf _ _ h4 (by decide) a x
  have hc320 : k0_chk320 (k0_pay385 v4) := by intro a x; exact chk_xbuf _ _ h4 (by decide) a x
  have hc321 : k0_chk321 (k0_pay387 v4) := by intro a x; exact chk_xbuf _ _ h4 (by decide) a x
  have hc322 : k0_chk322 (k0_pay388 v4) := by intro a x; exact chk_xbuf _ _ h4 (by decide) a x
  have hc323 : k0_chk323 (k0_pay389 v4) := by intro a x; exact chk_xbuf _ _ h4 (by decide) a x
  have hc324 : k0_chk324 (k0_pay390 v4) := by intro a x; exact chk_xbuf _ _ h4 (by decide) a x
  have hc325 : k0_chk325 (k0_pay392 v4) := by intro a x; exact chk_xbuf _ _ h4 (by decide) a x
  have hc326 : k0_chk326 (k0_pay393 v4) := by intro a x; exact chk_xbuf _ _ h4 (by decide) a x
  have hc327 : k0_chk327 (k0_pay394 v4) := by intro a x; exact chk_xbuf _ _ h4 (by decide) a x
  have hc328 : k0_chk328 (k0_pay395 v4) := by intro a x; exact chk_xbuf _ _ h4 (by decide) a x
  have hc329 : k0_chk329 (k0_pay398 v4) := by intro a x; exact chk_xbuf _ _ h4 (by decide) a x
  have hc330 : k0_chk330 (k0_pay399 v4) := by intro a x; exact chk_xbuf _ _ h4 (by decide) a x
  have hc331 : k0_chk331 (k0_pay400 v4) := by intro a x; exact chk_xbuf _ _ h4 (by decide) a x
  have hc332 : k0_chk332 (k0_pay401 v4) := by intro a x; exact chk_xbuf _ _ h4 (by decide) a x
  have hc333 : k0_chk333 (k0_pay403 v4) := by intro a x; exact chk_xbuf _ _ h4 (by decide) a x
  have hc334 : k0_chk334 (k0_pay404 v4) := by intro a x; exact chk_xbuf _ _ h4 (by decide) a x
  have hc336 : k0_chk336 (k0_pay407 v4) := by intro a x; exact chk_xbuf _ _ h4 (by decide) a x
  have hc337 : k0_chk337 (k0_pay409 v4) := by intro a x; exact chk_xbuf _ _ h4 (by decide) a x
  have hc338 : k0_chk338 (k0_pay410 v4) := by intro a x; exact chk_xbuf _ _ h4 (by decide) a x
  have hc339 : k0_chk339 (k0_pay411 v4) := by intro a x; exact chk_xbuf _ _ h4 (by decide) a x
  have hc340 : k0_chk340 (k0_pay412 v4) := by intro a x; exact chk_xbuf _ _ h4 (by decide) a x
  have hc19 : k0_chk19 (addi v4 k0_pay42) := by intro a x; exact chk_xbuf _ _ h4 (by decide) a x
  have hc90 : k0_chk90 (k0_pay122 v4) := by intro a x; exact chk_xbuf _ _ h4 (by decide) a x
  have hc109 : k0_chk109 (addi v4 k0_pay147) := by intro a x; exact chk_xbuf _ _ h4 (by decide) a x
  have hc167 : k0_chk167 (addi v4 k0_pay210) := by intro a x; exact chk_xbuf _ _ h4 (by decide) a x
  have hc180 : k0_chk180 (k0_pay227 v4) := by intro a x; exact chk_xbuf _ _ h4 (by decide) a x
  have hc238 : k0_chk238 (k0_pay290 v4) := by intro a x; exact chk_xbuf _ _ h4 (by decide) a x
  have hc245 : k0_chk245 (addi v4 k0_pay299) := by intro a x; exact chk_xbuf _ _ h4 (by decide) a x
  have hc316 : k0_chk316 (k0_pay380 v4) := by intro a x; exact chk_xbuf _ _ h4 (by decide) a x
  have hc335 : k0_chk335 (addi v4 k0_pay406) := by intro a x; exact chk_xbuf _ _ h4 (by decide) a x
  rw [k0_part51_eq_skeleton]; unfold k0_part51_skel
  rw [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel
  iintro ⟨#Hmw, Hx, H7, ⟨%f5, H5⟩, ⟨%f6, H6⟩, Ho, Hs1, Hs2, %W', %hW', HO⟩
  -- the copy of the eighty rows and its wait
  sl_exec (disch := assumption)
  have hR : Bin32 (View.readAt (Elt F) arg5.view (LoadRect.whole S4480) (View.write (Elt F) arg5.view f5 (chunk.sl.dma0 d i arg2 t fx) Finset.univ)) := by
    intro j
    rw [View.readAt_apply, View.read_write_univ]
    unfold chunk.sl.dma0
    first | exact hfx _ | (rw [Memref.view_slice]; exact hfx _)
  generalize View.write (Elt F) arg5.view f5 (chunk.sl.dma0 d i arg2 t fx) Finset.univ = F5 at hR ⊢
  unfold SparseCore.vectorLoadIdx
  sl_exec (disch := assumption)
  -- the column loop of row group 0
  try rw [bind_assoc]
  sl_for (invq d i arg6 arg7 g7) $$ [H7 H6]
  case region =>
    intro k _
    refine trip2' d i arg2 harg2 arg3 harg3 arg4 harg4 arg5 harg5 arg6 harg6 arg7 harg7 v32_r0 v1791_r1 v1791_r2 v1791_r3 v1791_r4 v2 v4 v6 _ _ _ _ _ _ _ _ _ _ _ _ _ _ _ g7 ?_ ?_ ?_ ?_ ?_ ?_ ?_ ?_ ?_ ?_ ?_ ?_ ?_ ?_ h6 k
    all_goals below_tac
  · unfold invq
    isplitl [H7]; · iexact H7
    iexists _; iexact H6
  iintro %_ HI
  unfold invq
  icases HI with ⟨H7, %f62, H6⟩
  sl_exec (disch := assumption)
  -- the column loop of row group 1
  try rw [bind_assoc]
  sl_for (invq d i arg6 arg7 g7) $$ [H7 H6]
  case region =>
    intro k _
    refine trip3' d i arg2 harg2 arg3 harg3 arg4 harg4 arg5 harg5 arg6 harg6 arg7 harg7 v32_r0 v1791_r1 v1791_r2 v1791_r3 v1791_r4 v2 v4 v6 _ _ _ _ _ _ _ _ _ _ _ _ _ _ g7 ?_ ?_ ?_ ?_ ?_ ?_ ?_ ?_ ?_ ?_ ?_ ?_ ?_ ?_ h6 k
    all_goals below_tac
  · unfold invq
    isplitl [H7]; · iexact H7
    iexists _; iexact H6
  iintro %_ HI
  unfold invq
  icases HI with ⟨H7, %f63, H6⟩
  sl_exec (disch := assumption)
  -- the column loop of row group 2
  try rw [bind_assoc]
  sl_for (invq d i arg6 arg7 g7) $$ [H7 H6]
  case region =>
    intro k _
    refine trip4' d i arg2 harg2 arg3 harg3 arg4 harg4 arg5 harg5 arg6 harg6 arg7 harg7 v32_r0 v1791_r1 v1791_r2 v1791_r3 v1791_r4 v2 v4 v6 _ _ _ _ _ _ _ _ _ _ _ _ _ _ _ g7 ?_ ?_ ?_ ?_ ?_ ?_ ?_ ?_ ?_ ?_ ?_ ?_ ?_ ?_ h6 k
    all_goals below_tac
  · unfold invq
    isplitl [H7]; · iexact H7
    iexists _; iexact H6
  iintro %_ HI
  unfold invq
  icases HI with ⟨H7, %f64, H6⟩
  sl_exec (disch := assumption)
  -- the column loop of row group 3
  try rw [bind_assoc]
  sl_for (invq d i arg6 arg7 g7) $$ [H7 H6]
  case region =>
    intro k _
    refine trip5' d i arg2 harg2 arg3 harg3 arg4 harg4 arg5 harg5 arg6 harg6 arg7 harg7 v32_r0 v1791_r1 v1791_r2 v1791_r3 v1791_r4 v2 v4 v6 _ _ _ _ _ _ _ _ _ _ _ _ _ _ _ g7 ?_ ?_ ?_ ?_ ?_ ?_ ?_ ?_ ?_ ?_ ?_ ?_ ?_ ?_ h6 k
    all_goals below_tac
  · unfold invq
    isplitl [H7]; · iexact H7
    iexists _; iexact H6
  iintro %_ HI
  unfold invq
  icases HI with ⟨H7, %f65, H6⟩
  sl_exec (disch := assumption)
  -- the column loop of row group 4
  try rw [bind_assoc]
  sl_for (invq d i arg6 arg7 g7) $$ [H7 H6]
  case region =>
    intro k _
    refine trip6' d i arg2 harg2 arg3 harg3 arg4 harg4 arg5 harg5 arg6 harg6 arg7 harg7 v32_r0 v1791_r1 v1791_r2 v1791_r3 v1791_r4 v1 v2 v4 v6 c0 c1 t _ _ _ _ _ _ _ _ _ _ _ _ _ _ g7 ?_ ?_ ?_ ?_ ?_ ?_ ?_ ?_ ?_ ?_ ?_ ?_ ?_ ?_ h6 k
    all_goals below_tac
  · unfold invq
    isplitl [H7]; · iexact H7
    iexists _; iexact H6
  iintro %_ HI
  unfold invq
  icases HI with ⟨H7, %f66, H6⟩
  sl_exec (disch := assumption)
  sl_step
  isplitl [Hx]; · iexact Hx
  isplitl [H7]; · iexact H7
  isplitl [H5]; · iexists _; iexact H5
  isplitl [H6]; · iexists _; iexact H6
  isplitl [Ho]; · iexists _; iexact Ho
  isplitl [Hs1]; · iexact Hs1
  isplitl [Hs2]; · iexact Hs2
  iexists (insert (SemLoc.dma v1791_r2.sem, (default : HIx 1)) (insert (SemLoc.dma v1791_r1.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KI

end
-- ==== Proof.TileSplit.lean ====
/-
  How the flat result array of the one SparseCore call is divided among a tile's micro-batches.

  The tile with worker number `w = 2 s + c` handles the micro-batches `w, w + 32, …` below fifty: one when `w ≥ 18`, two
  otherwise. In trip `t` of its outer loop it reads the eighty index rows from `4480 (w + 32 t)` of the flattened index
  rows and writes the 10240 result entries from `10240 (w + 32 t)`. The windows written in different trips are
  disjoint and together make up the tile's share of the result array.
-/
import proofs.«203024_g60129542144782_cont_9to1_m_748_22_alg».proof.Proof.LaunchDefs

-- the trip count is decided at each of the thirty-two grid points
set_option synthInstance.maxSize 4096
set_option Elab.async false

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Coordinates, worker numbers, trip counts -/

/-- The grid coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The worker number of the tile at grid coordinates `i`. -/
def widOf (i : grid0.Coords) : ℕ := 2 * (i 1).val + (i 0).val

theorem widOf_coordsV (c : Fin 2) (s : Fin 16) : widOf (coordsV c s) = wid c s := rfl

theorem widOf_lt (i : grid0.Coords) : widOf i < 32 := by
  have h0 : (i 0).val < 2 := (i 0).isLt
  have h1 : (i 1).val < 16 := (i 1).isLt
  unfold widOf; omega

/-- Every grid point is the coordinates of a tile of a core. -/
theorem eq_coordsV (i : grid0.Coords) : i = coordsV (i 0) (i 1) := by
  funext a
  match a with
  | ⟨0, _⟩ => rfl
  | ⟨1, _⟩ => rfl

/-- The outer loop's trip count at each of the thirty-two tiles. -/
theorem trips_coordsV : ∀ (c : Fin 2) (s : Fin 16), (k0_t1_loop (coordsV c s)).trips = (81 - (2 * s.val + c.val)) / 32 := by
  decide +kernel

/-- The outer loop's trip count: the micro-batches `w, w + 32, …` below fifty. -/
theorem trips_eq (i : grid0.Coords) : (k0_t1_loop i).trips = (81 - widOf i) / 32 := by
  rw [eq_coordsV i]
  exact trips_coordsV (i 0) (i 1)

/-- A trip's micro-batch is below fifty. -/
theorem batch_lt (i : grid0.Coords) (t : Fin (k0_t1_loop i).trips) : widOf i + 32 * t.val < 50 := by
  have h : t.val < (81 - widOf i) / 32 := lt_of_lt_of_eq t.isLt (trips_eq i)
  have := widOf_lt i
  omega

/-! ## The result windows -/

/-- The entries of micro-batch `n` of the flat result array. -/
def batchSet (n : ℕ) : Finset S512000.Idx := Finset.univ.filter fun j => (j 0).val / 10240 = n

theorem mem_batchSet (n : ℕ) (j : S512000.Idx) : j ∈ batchSet n ↔ (j 0).val / 10240 = n := by
  unfold batchSet; rw [Finset.mem_filter]; exact ⟨fun h => h.2, fun h => ⟨Finset.mem_univ _, h⟩⟩

/-- The window of the result array a tile writes in trip `t` of its outer loop. -/
abbrev outSl (i : grid0.Coords) (t : Fin (k0_t1_loop i).trips) : Memref sig .scVector .hbm S10240 .f32 :=
  outM.slice (Rect.unit (s := S512000) (k0_off2 i t) S10240.size (k0_off2_inb i t)) (fun _ => rfl)

/-- The window's offset in closed form. -/
theorem off2_eq (i : grid0.Coords) (t : Fin (k0_t1_loop i).trips) : k0_off2 i t = ![10240 * (widOf i + 32 * t.val)] := by
  rw [k0_off2_eq]
  unfold widOf
  congr 1
  omega

/-- The window's entries: micro-batch `w + 32 t`. -/
theorem set_outSl (i : grid0.Coords) (t : Fin (k0_t1_loop i).trips) :
    (outSl i t).view.set = batchSet (widOf i + 32 * t.val) := by
  show ((View.whole (main_v70_scv : Ref sig .scVector)).slice
    (Rect.unit (s := S512000) (k0_off2 i t) S10240.size (k0_off2_inb i t))).set = _
  rw [View.set_slice]
  refine Finset.map_refl.trans ?_
  ext j
  rw [Rect.mem_set_unit, mem_batchSet, off2_eq]
  constructor
  · intro h
    have := h 0
    have h1 : 10240 * (widOf i + 32 * t.val) ≤ (j 0).val := this.1
    have h2 : (j 0).val < 10240 * (widOf i + 32 * t.val) + 10240 := this.2
    omega
  · intro h a
    match a with
    | ⟨0, _⟩ =>
      show 10240 * (widOf i + 32 * t.val) ≤ (j 0).val ∧ (j 0).val < 10240 * (widOf i + 32 * t.val) + 10240
      omega

/-- Different micro-batches have no entry in common. -/
theorem batchSet_disjoint {n n' : ℕ} (h : n ≠ n') : Disjoint (batchSet n) (batchSet n') := by
  rw [Finset.disjoint_left]
  intro j hj hj'
  rw [mem_batchSet] at hj hj'
  exact h (hj.symm.trans hj')

/-- The windows of a tile's trips are pairwise disjoint. -/
theorem outSl_disjoint (i : grid0.Coords) :
    ∀ t ∈ (Finset.univ : Finset (Fin (k0_t1_loop i).trips)), ∀ t' ∈ (Finset.univ : Finset (Fin (k0_t1_loop i).trips)),
      t ≠ t' → Disjoint (outSl i t).view.set (outSl i t').view.set := by
  intro t _ t' _ h
  rw [set_outSl, set_outSl]
  exact batchSet_disjoint fun e => h (Fin.ext (Nat.eq_of_mul_eq_mul_left (by decide : 0 < 32) (Nat.add_left_cancel e)))

/-- Together they are the tile's share of the result array. -/
theorem outSl_cover (c : Fin 2) (s : Fin 16) :
    (Finset.univ : Finset (Fin (k0_t1_loop (coordsV c s)).trips)).biUnion (fun t => (outSl (coordsV c s) t).view.set)
      = tileSet c s := by
  ext j
  rw [Finset.mem_biUnion]
  unfold tileSet
  rw [Finset.mem_filter]
  have hj : (j 0).val < 512000 := (j 0).isLt
  have hw := widOf_lt (coordsV c s)
  rw [← widOf_coordsV c s]
  constructor
  · rintro ⟨t, -, ht⟩
    rw [set_outSl, mem_batchSet] at ht
    refine ⟨Finset.mem_univ _, ?_⟩
    omega
  · rintro ⟨-, h⟩
    have htr : (j 0).val / 10240 / 32 < (k0_t1_loop (coordsV c s)).trips :=
      lt_of_lt_of_eq (show (j 0).val / 10240 / 32 < (81 - widOf (coordsV c s)) / 32 by omega) (trips_eq _).symm
    refine ⟨⟨(j 0).val / 10240 / 32, htr⟩, Finset.mem_univ _, ?_⟩
    rw [set_outSl, mem_batchSet]
    show (j 0).val / 10240 = widOf (coordsV c s) + 32 * ((j 0).val / 10240 / 32)
    omega

/-! ## The result array's share, trip by trip -/

section Split

variable [FloatOps F] (d : Dev nD) (c : Fin 2) (s : Fin 16)

/-- A tile's share of the result array held at one valuation is its trips' windows held at it. -/
theorem outPts_windows (f : Buf (Elt F) (outLoc d)) :
    (outLoc d ↦[tileSet c s]{fullShare} f : sProp 𝕄)
      = bigSep Finset.univ fun t : Fin (k0_t1_loop (coordsV c s)).trips =>
          (outLoc d ↦[(outSl (coordsV c s) t).view.set]{fullShare} f : sProp 𝕄) := by
  rw [← outSl_cover c s, pointsTo_biUnion Finset.univ (ℓ := outLoc d) _ (outSl_disjoint _)]

/-- SPLIT: a tile's share of the result array, at whatever it holds, gives each trip its window, at whatever it
    holds — stated at the window's own location, which is the result array's. -/
theorem out_split :
    (iprop(∃ f, outLoc d ↦[tileSet c s]{fullShare} f) : sProp 𝕄)
      ⊢ bigSep Finset.univ fun t : Fin (k0_t1_loop (coordsV c s)).trips =>
          iprop(∃ f, (outSl (coordsV c s) t).view.loc (V d (cV (coordsV c s)) (jV (coordsV c s)))
            ↦[(outSl (coordsV c s) t).view.set]{fullShare} f) := by
  refine exists_elim fun f => ?_
  rw [outPts_windows]
  exact bigSep_mono fun t _ => exists_intro (Φ := fun f : Buf (Elt F) (outLoc d) =>
    (outLoc d ↦[(outSl (coordsV c s) t).view.set]{fullShare} f : sProp 𝕄)) f

/-- JOIN: the trips' windows, each at whatever it holds, give back the tile's share of the result array. -/
theorem out_join :
    (bigSep Finset.univ fun t : Fin (k0_t1_loop (coordsV c s)).trips =>
        iprop(∃ f, (outSl (coordsV c s) t).view.loc (V d (cV (coordsV c s)) (jV (coordsV c s)))
          ↦[(outSl (coordsV c s) t).view.set]{fullShare} f))
      ⊢ (iprop(∃ f, outLoc d ↦[tileSet c s]{fullShare} f) : sProp 𝕄) := by
  refine (bigSep_exists_pi Finset.univ (fun (t : Fin (k0_t1_loop (coordsV c s)).trips) (f : Buf (Elt F) (outLoc d)) =>
    (outLoc d ↦[(outSl (coordsV c s) t).view.set]{fullShare} f : sProp 𝕄))).trans ?_
  iintro ⟨%fs, H⟩
  ihave H' := (pointsTo_biUnion_join Finset.univ (fun t => (outSl (coordsV c s) t).view.set) fs
    (Classical.arbitrary _) (outSl_disjoint (coordsV c s))) $$ H
  icases H' with ⟨%g, -, Hg⟩
  rw [outSl_cover]
  iexists g; iexact Hg

end Split

/-! ## The index rows a trip reads -/

section IndexRows

variable [FloatOps F]

/-- The window of the flattened index rows a tile reads in trip `t` of its outer loop. -/
abbrev xsSl (i : grid0.Coords) (t : Fin (k0_t1_loop i).trips) : Memref sig .scVector .hbm S4480 .i32 :=
  xsM.slice (Rect.unit (s := S224000) (k0_off1 i t) S4480.size (k0_off1_inb i t)) (fun _ => rfl)

/-- The window's offset in closed form. -/
theorem off1_eq (i : grid0.Coords) (t : Fin (k0_t1_loop i).trips) : k0_off1 i t = ![4480 * (widOf i + 32 * t.val)] := by
  rw [k0_off1_eq]
  unfold widOf
  congr 1
  omega

/-- Reading the window at position `p` reads the flattened index rows at `4480 (w + 32 t) + p`. -/
theorem read_xsSl (i : grid0.Coords) (t : Fin (k0_t1_loop i).trips) (X : S224000.Idx → Elt F .i32) (p : ℕ) (hp : p < 4480) :
    (xsSl i t).view.read (Elt F) X (ix1 ⟨p, hp⟩)
      = xsM.view.read (Elt F) X (ix1 ⟨4480 * (widOf i + 32 * t.val) + p, by have := batch_lt i t; omega⟩) := by
  show X ((Rect.unit (s := S224000) (k0_off1 i t) S4480.size (k0_off1_inb i t)).emb (ix1 ⟨p, hp⟩)) = X (ix1 ⟨_, _⟩)
  congr 1
  funext a
  match a with
  | ⟨0, _⟩ =>
    refine Fin.ext ?_
    rw [Rect.emb_apply]
    show k0_off1 i t 0 + 1 * p = 4480 * (widOf i + 32 * t.val) + p
    rw [off1_eq]
    show 4480 * (widOf i + 32 * t.val) + 1 * p = _
    omega

/-- With the flattened index rows those of the last 4000 rows of the index matrix `x`, the window at `r * 56 + f` is the
    entry of row `96000 + 80 (w + 32 t) + r`, feature `f`. -/
theorem read_xsSl_xsTerm (i : grid0.Coords) (t : Fin (k0_t1_loop i).trips) (x : IVec S100000x56 32)
    (r : Fin 80) (f : Fin 56) :
    (xsSl i t).view.read (Elt F) (Cert.GroupedTable.xsTerm x) (ix1 ⟨r.val * 56 + f.val, by omega⟩)
      = x (ix2 ⟨96000 + 80 * (widOf i + 32 * t.val) + r.val, by have := batch_lt i t; omega⟩ f) := by
  have hb := batch_lt i t
  rw [read_xsSl]
  show Cert.GroupedTable.xsTerm x (ix1 ⟨4480 * (widOf i + 32 * t.val) + (r.val * 56 + f.val), _⟩) = _
  have key := Cert.GroupedTable.xsTerm_apply x ⟨80 * (widOf i + 32 * t.val) + r.val, by omega⟩ f
  have e : (⟨(80 * (widOf i + 32 * t.val) + r.val) * 56 + f.val, by omega⟩ : Fin 224000)
      = ⟨4480 * (widOf i + 32 * t.val) + (r.val * 56 + f.val), by omega⟩ := Fin.ext (by
    show (80 * (widOf i + 32 * t.val) + r.val) * 56 + f.val = 4480 * (widOf i + 32 * t.val) + (r.val * 56 + f.val)
    omega)
  rw [← e]
  exact key.trans (congrArg (fun n => x (ix2 n f)) (Fin.ext (by
    show 96000 + (80 * (widOf i + 32 * t.val) + r.val) = 96000 + 80 * (widOf i + 32 * t.val) + r.val; omega)))

end IndexRows

end Cert.Proof.KI

end
-- ==== Proof.TileBody.lean ====
/-
  A tile task whole: it copies the grouped table into its own scratch, then handles its micro-batches in turn (the
  second printed loop has no trip), each by the micro-batch run; what it holds of the result array is exactly the
  places of its micro-batches.
-/
import proofs.«203024_g60129542144782_cont_9to1_m_748_22_alg».proof.Proof.Chunk
import proofs.«203024_g60129542144782_cont_9to1_m_748_22_alg».proof.Proof.TileSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

section Tile

variable (d : Dev nD) (L : grid0.Coords)

abbrev s0cell (d : Dev nD) (c : Fin τ.nSC) (s : Fin τ.nSub) : GSem nD τ sig := (V d c s, .dma cc0_scoped0.sem)
abbrev s1cell (d : Dev nD) (c : Fin τ.nSC) (s : Fin τ.nSub) : GSem nD τ sig := (V d c s, .dma cc0_scoped1.sem)
abbrev s2cell (d : Dev nD) (c : Fin τ.nSC) (s : Fin τ.nSub) : GSem nD τ sig := (V d c s, .dma cc0_scoped2.sem)

omit [FloatOps F] in
/-- The three semaphores the task uses are among the tile's own: they are them, at zero, and the rest. -/
theorem ownSems0_V :
    (ownSems0 (V d (cV L) (jV L)) : sProp 𝕄)
      = iprop(semVal (s0cell d (cV L) (jV L)) 0 ∗ semVal (s1cell d (cV L) (jV L)) 0 ∗ semVal (s2cell d (cV L) (jV L)) 0
          ∗ bigSep ((((ownCells (V d (cV L) (jV L))).erase (s0cell d (cV L) (jV L))).erase (s1cell d (cV L) (jV L))).erase (s2cell d (cV L) (jV L)))
              fun g => semVal g 0) := by
  unfold SparseCore.Cfg.ownSems0
  rw [SparseCore.bigSep_erase' ((mem_ownCells (g := s0cell d (cV L) (jV L))).mpr ⟨rfl, by
      show (SemLoc.dma cc0_scoped0.sem : SemLoc sig).isScoped .scVector = true; decide⟩),
    SparseCore.bigSep_erase' (Finset.mem_erase.mpr ⟨by simp [s0cell, s1cell]; decide, (mem_ownCells (g := s1cell d (cV L) (jV L))).mpr ⟨rfl, by
      show (SemLoc.dma cc0_scoped1.sem : SemLoc sig).isScoped .scVector = true; decide⟩⟩),
    SparseCore.bigSep_erase' (Finset.mem_erase.mpr ⟨by simp [s1cell, s2cell]; decide, Finset.mem_erase.mpr ⟨by simp [s0cell, s2cell]; decide,
      (mem_ownCells (g := s2cell d (cV L) (jV L))).mpr ⟨rfl, by show (SemLoc.dma cc0_scoped2.sem : SemLoc sig).isScoped .scVector = true; decide⟩⟩⟩)]

omit [FloatOps F] in
/-- The three scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_xbuf (f : Buf (Elt F) ((V d (cV L) (jV L)).loc cc0_scratch0)) :
    ((xbufM : Memref sig .scVector .vmem S4480 .i32).view.loc (V d (cV L) (jV L)) ↦{fullShare} f : sProp 𝕄) = (V d (cV L) (jV L)).loc cc0_scratch0 ↦{fullShare} f := rfl
omit [FloatOps F] in
theorem pts_obuf (f : Buf (Elt F) ((V d (cV L) (jV L)).loc cc0_scratch1)) :
    ((obufM : Memref sig .scVector .vmem S10240 .f32).view.loc (V d (cV L) (jV L)) ↦{fullShare} f : sProp 𝕄) = (V d (cV L) (jV L)).loc cc0_scratch1 ↦{fullShare} f := rfl
omit [FloatOps F] in
theorem pts_tbuf (f : Buf (Elt F) ((V d (cV L) (jV L)).loc cc0_scratch2)) :
    ((tbufM : Memref sig .scVector .vmem S28672 .f32).view.loc (V d (cV L) (jV L)) ↦{fullShare} f : sProp 𝕄) = (V d (cV L) (jV L)).loc cc0_scratch2 ↦{fullShare} f := rfl

/-- What the loop over a tile's micro-batches keeps. -/
def invT (O : CellTallies nD τ sig (HIx 1)) (W : Waits sig (HIx 1)) (qx : PosShare TreeShare)
    (X : Buf (Elt F) (xsM.view.loc (V d (cV L) (jV L)))) (_ : Nat) (_ : PUnit) : sProp 𝕄 :=
  iprop(Transfers.MayWaits (V d (cV L) (jV L)) (none : HIx 1) O
    ∗ (xsM.view.loc (V d (cV L) (jV L)) ↦{qx} X)
    ∗ (∃ g7, tbufM.view.loc (V d (cV L) (jV L)) ↦{fullShare} g7)
    ∗ (∃ f5, xbufM.view.loc (V d (cV L) (jV L)) ↦{fullShare} f5)
    ∗ (∃ f6, obufM.view.loc (V d (cV L) (jV L)) ↦{fullShare} f6)
    ∗ (bigSep Finset.univ fun t : Fin (k0_t1_loop L).trips => iprop(∃ f, (outSl L t).view.loc (V d (cV L) (jV L)) ↦[(outSl L t).view.set]{fullShare} f))
    ∗ semVal (s1cell d (cV L) (jV L)) 0
    ∗ semVal (s2cell d (cV L) (jV L)) 0
    ∗ ∃ W', ⌜∀ p ∈ W', p ∈ W ∨ p.2 = none⌝ ∗ owes (V d (cV L) (jV L)) O W')

/-- One micro-batch keeps what the loop keeps: its own place in the result array is taken out of the tile's places,
    rewritten, and put back. -/
theorem chunk_step (O : CellTallies nD τ sig (HIx 1)) (W : Waits sig (HIx 1)) (qx : PosShare TreeShare)
    (X : Buf (Elt F) (xsM.view.loc (V d (cV L) (jV L)))) (hX : Bin32 (xsM.view.read (Elt F) X))
    (v1 : BitVec 32) (v2 : IVec S16 32) (t : Fin (k0_t1_loop L).trips) :
    (invT d L O W qx X t.val () : sProp 𝕄)
      ⊢ wp frame (wpE (defs₀ (F := F)) 𝒱₀ (V d (cV L) (jV L)) none) Set.univ
          (k0_t1_body L xsM (Memref.isWhole_whole _) gtM (Memref.isWhole_whole _) outM (Memref.isWhole_whole _) xbufM (Memref.isWhole_whole _) obufM (Memref.isWhole_whole _) tbufM (Memref.isWhole_whole _) cc0_scoped0 cc0_scoped1 cc0_scoped2 cc0_scoped3 cc0_scoped4 v1 v2 t ())
          fun r => invT d L O W qx X (t.val + 1) r := by
  unfold invT k0_t1_body
  iintro ⟨#Hmw, Hx, ⟨%g7, H7⟩, H5, H6, Ho, Hs1, Hs2, HO⟩
  ihave Ho' := (Entails.of_eq (SparseCore.bigSep_erase' (Finset.mem_univ t))) $$ Ho
  icases Ho' with ⟨⟨%fo, Hot⟩, Hor⟩
  rw [wp_bind]
  ihave Hc := (chunk d L xsM (Memref.isWhole_whole _) gtM (Memref.isWhole_whole _) outM (Memref.isWhole_whole _) xbufM (Memref.isWhole_whole _) obufM (Memref.isWhole_whole _) tbufM (Memref.isWhole_whole _) cc0_scoped0 cc0_scoped1 cc0_scoped2 cc0_scoped3 cc0_scoped4 v1 v2 k0_pay1 k0_pay2 0#32 1#32 t O W qx X g7 fo iota56_atMost iota128_atMost hX) $$ [Hx H7 H5 H6 Hot Hs1 Hs2 HO]
  · isplitr; · iexact Hmw
    isplitl [Hx]; · iexact Hx
    isplitl [H7]; · iexact H7
    isplitl [H5]; · iexact H5
    isplitl [H6]; · iexact H6
    isplitl [Hot]; · iexact Hot
    isplitl [Hs1]; · iexact Hs1
    isplitl [Hs2]; · iexact Hs2
    iexact HO
  iapply (wp_wand frame _ _) $$ Hc
  iintro %_ ⟨Hx, H7, H5, H6, Hot, Hs1, Hs2, HO⟩
  sl_step
  isplitr; · iexact Hmw
  isplitl [Hx]; · iexact Hx
  isplitl [H7]; · iexists _; iexact H7
  isplitl [H5]; · iexact H5
  isplitl [H6]; · iexact H6
  isplitl [Hot Hor]
  · iapply (Entails.of_eq (SparseCore.bigSep_erase' (Finset.mem_univ t)).symm)
    isplitl [Hot]; · iexact Hot
    iexact Hor
  isplitl [Hs1]; · iexact Hs1
  isplitl [Hs2]; · iexact Hs2
  iexact HO

set_option maxHeartbeats 4000000 in
set_option maxRecDepth 65536 in
theorem tile_body (hF : (K (F := F)).Facts) (O : CellTallies nD τ sig (HIx 1)) (W : Waits sig (HIx 1)) (hO : ∀ g, O g none = 0)
    (qx qg : PosShare TreeShare) (X : Buf (Elt F) (xsM.view.loc (V d (cV L) (jV L)))) (G : Buf (Elt F) (gtM.view.loc (V d (cV L) (jV L))))
    (hX : Bin32 (xsM.view.read (Elt F) X)) :
    iprop(levAts (K (F := F)).L (K (F := F)).lev ∗ emp
        ∗ ((xsM.view.loc (V d (cV L) (jV L)) ↦{qx} X) ∗ (gtM.view.loc (V d (cV L) (jV L)) ↦{qg} G)
            ∗ bigSep Finset.univ fun t : Fin (k0_t1_loop L).trips => iprop(∃ f, (outSl L t).view.loc (V d (cV L) (jV L)) ↦[(outSl L t).view.set]{fullShare} f))
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__sc_body L xsM (Memref.isWhole_whole _) gtM (Memref.isWhole_whole _) outM (Memref.isWhole_whole _)
            xbufM (Memref.isWhole_whole _) obufM (Memref.isWhole_whole _) tbufM (Memref.isWhole_whole _)
            cc0_scoped0 cc0_scoped1 cc0_scoped2 cc0_scoped3 cc0_scoped4)
          fun _ => iprop(((xsM.view.loc (V d (cV L) (jV L)) ↦{qx} X) ∗ (gtM.view.loc (V d (cV L) (jV L)) ↦{qg} G)
              ∗ bigSep Finset.univ fun t : Fin (k0_t1_loop L).trips => iprop(∃ f, (outSl L t).view.loc (V d (cV L) (jV L)) ↦[(outSl L t).view.set]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hx, Hg, Ho⟩, ⟨⟨%f5, H5⟩, ⟨%f6, H6⟩, ⟨%f7, H7⟩, Hbufs⟩, ⟨Hs0, Hs1, Hs2, Hsems⟩, HO⟩
  ihave Hmw := ((K (F := F)).mayWaits_none (thr := (V d (cV L) (jV L))) hO) $$ Hlv
  ihave H5' := (Entails.of_eq (pts_xbuf (F := F) d L f5).symm) $$ H5
  ihave H6' := (Entails.of_eq (pts_obuf (F := F) d L f6).symm) $$ H6
  ihave H7' := (Entails.of_eq (pts_tbuf (F := F) d L f7).symm) $$ H7
  sl_exec
  sl_for (invT d L O W qx X) $$ [Hmw Hx H7' H5' H6' Ho Hs1 Hs2 HO]
  case region =>
    intro t _
    exact chunk_step d L O W qx X hX _ _ t
  · unfold invT
    isplitl [Hmw]; · iexact Hmw
    isplitl [Hx]; · iexact Hx
    isplitl [H7']; · iexists _; iexact H7'
    isplitl [H5']; · iexists _; iexact H5'
    isplitl [H6']; · iexists _; iexact H6'
    isplitl [Ho]; · iexact Ho
    isplitl [Hs1]; · iexact Hs1
    isplitl [Hs2]; · iexact Hs2
    iexists (insert (SemLoc.dma cc0_scoped0.sem, (default : HIx 1)) W); isplitr
    · ipureintro; intro p hp
      rcases Finset.mem_insert.mp hp with hp | hp
      · exact .inr (by subst hp; rfl)
      · exact .inl hp
    · iexact HO
  iintro %_ HI
  unfold invT
  icases HI with ⟨-, Hx, ⟨%g7, H7⟩, ⟨%f5', H5⟩, ⟨%f6', H6⟩, Ho, Hs1, Hs2, %W', %hW', HO⟩
  unfold tile_body.sl.prog.cont_1
  sl_for0 (Nat.le_zero.mp (k0_t7_abs L).2.1)
  unfold tile_body.sl.prog.cont_2
  sl_step
  isplitl [Hx Hg Ho]
  · isplitl [Hx]; · iexact Hx
    isplitl [Hg]; · iexact Hg
    iexact Ho
  isplitl [H5 H6 H7 Hbufs]
  · isplitl [H5]; · iexists _; iexact H5
    isplitl [H6]; · iexists _; iexact H6
    isplitl [H7]; · iexists _; iexact H7
    iexact Hbufs
  isplitl [Hs0 Hs1 Hs2 Hsems]
  · isplitl [Hs0]; · iexact Hs0
    isplitl [Hs1]; · iexact Hs1
    isplitl [Hs2]; · iexact Hs2
    iexact Hsems
  iexists W'; isplitr
  · ipureintro; exact hW'
  · iexact HO

end Tile

end Cert.Proof.KI

end
-- ==== Proof.TileObl.lean ====
/-
  The tile tasks' obligation of the launch: every tile's task, from its part of the call (read shares of the two
  inputs, the places of its micro-batches in the result array), runs to its end and hands the same back.
-/
import proofs.«203024_g60129542144782_cont_9to1_m_748_22_alg».proof.Proof.TileBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ)

theorem defs₀_vector (c : Fin τ.nSC) (s : Fin τ.nSub) :
    defs₀ (F := F) (.scVector c s) 0 ()
      = SparseCore.onTile hcore0 hsub0 (fun c s => cc0__sc_body (coordsV c s)
          xsM (Memref.isWhole_whole _) gtM (Memref.isWhole_whole _) outM (Memref.isWhole_whole _) xbufM (Memref.isWhole_whole _) obufM (Memref.isWhole_whole _) tbufM (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's part of the call, as its task holds it. -/
theorem go_to_task (d : Dev nD) (c : Fin 2) (s : Fin 16) :
    (forTile m d c s : sProp 𝕄)
      ⊢ iprop((xsM.view.loc (V d (cV (coordsV c s)) (jV (coordsV c s))) ↦{qT c s} Xv m d)
          ∗ (gtM.view.loc (V d (cV (coordsV c s)) (jV (coordsV c s))) ↦{qT c s} Gv m d)
          ∗ bigSep Finset.univ fun t : Fin (k0_t1_loop (coordsV c s)).trips =>
              iprop(∃ f, (outSl (coordsV c s) t).view.loc (V d (cV (coordsV c s)) (jV (coordsV c s))) ↦[(outSl (coordsV c s) t).view.set]{fullShare} f)) := by
  unfold forTile
  iintro ⟨Hx, Hg, Ho⟩
  isplitl [Hx]; · iexact Hx
  isplitl [Hg]; · iexact Hg
  iapply (out_split (F := F) d c s); iexact Ho

theorem task_to_td (d : Dev nD) (c : Fin 2) (s : Fin 16) :
    iprop((xsM.view.loc (V d (cV (coordsV c s)) (jV (coordsV c s))) ↦{qT c s} Xv m d)
          ∗ (gtM.view.loc (V d (cV (coordsV c s)) (jV (coordsV c s))) ↦{qT c s} Gv m d)
          ∗ bigSep Finset.univ fun t : Fin (k0_t1_loop (coordsV c s)).trips =>
              iprop(∃ f, (outSl (coordsV c s) t).view.loc (V d (cV (coordsV c s)) (jV (coordsV c s))) ↦[(outSl (coordsV c s) t).view.set]{fullShare} f))
      ⊢ (backTile m (fun _ _ _ => True) d c s : sProp 𝕄) := by
  unfold backTile
  iintro ⟨Hx, Hg, Ho⟩
  isplitl [Hx]; · iexact Hx
  isplitl [Hg]; · iexact Hg
  ihave Ho' := (out_join (F := F) d c s) $$ Ho
  icases Ho' with ⟨%f, Ho⟩
  iexists f
  isplitl [Ho]; · iexact Ho
  ipureintro; exact fun _ _ => trivial

omit [FloatOps F] in
theorem obl_pre {A X A' B C E : sProp 𝕄} (h : A ⊢ A') : iprop(E ∗ X ∗ A ∗ B ∗ C) ⊢ iprop(E ∗ X ∗ A' ∗ B ∗ C) := by
  iintro ⟨HE, HX, HA, HB, HC⟩
  isplitl [HE]; · iexact HE
  isplitl [HX]; · iexact HX
  isplitl [HA]; · iapply h; iexact HA
  isplitl [HB]; · iexact HB
  iexact HC

omit [FloatOps F] in
theorem obl_back {A A' B C E : sProp 𝕄} (h : A ⊢ A') : iprop(A ∗ B ∗ C ∗ E) ⊢ iprop(A' ∗ B ∗ C ∗ E) := by
  iintro ⟨HA, HB, HC, HE⟩
  isplitl [HA]; · iapply h; iexact HA
  isplitl [HB]; · iexact HB
  isplitl [HC]; · iexact HC
  iexact HE

set_option maxRecDepth 65536 in
/-- The obligation at the one call, for the run's frame (nothing claimed of the result's entries). -/
theorem tileObl (hF : (K (F := F)).Facts) (hpre : ∀ d, Bin32 (Xv m d)) :
    (K (F := F)).TileObl (D (F := F)) 𝒱 (P m (fun _ _ _ => True)) v₀ 0 := by
  intro d c i O W hO _ _
  simp only [show (P m (fun _ _ _ => True)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hgo : (P m (fun _ _ _ => True)).go 0 d c i = forTile m d ⟨_, hc.1⟩ ⟨_, hc.2⟩ := rfl
  have htd : (P m (fun _ _ _ => True)).td 0 d c i = backTile m (fun _ _ _ => True) d ⟨_, hc.1⟩ ⟨_, hc.2⟩ := rfl
  rw [hgo, htd]
  exact (obl_pre (C := iprop(scopedSems0 _ ∗ owes _ O W)) (go_to_task m d ⟨_, hc.1⟩ ⟨_, hc.2⟩)).trans
    ((tile_body d (coordsV ⟨_, hc.1⟩ ⟨_, hc.2⟩) hF O W hO (qT ⟨_, hc.1⟩ ⟨_, hc.2⟩) (qT ⟨_, hc.1⟩ ⟨_, hc.2⟩)
      (Xv m d) (Gv m d) (hpre d)).trans (wp_mono frame _ _ fun _ => (obl_back (task_to_td m d ⟨_, hc.1⟩ ⟨_, hc.2⟩)).trans obl_post))

end Cert.Proof.KI

end
-- ==== Proof.FramePre.lean ====
/-
  From the input-domain precondition to the run's frame.

  The precondition makes every entry of the index matrix the word zero or the word one. The lookup call's index
  operand is rows `96000 …` of that matrix laid flat: flat position `j < 224000` is row `96000 + j / 56`, feature
  `j mod 56`, so every entry of the operand is again zero or one, which is what a tile task needs in order to stay
  inside the grouped table. With the tile's obligation so discharged, the assembled run gives the frame: the program
  terminates without fault and its two arguments end unchanged.
-/
import proofs.«203024_g60129542144782_cont_9to1_m_748_22_alg».proof.Proof.LaunchRun
import proofs.«203024_g60129542144782_cont_9to1_m_748_22_alg».proof.Proof.TileObl
import proofs.«203024_g60129542144782_cont_9to1_m_748_22_alg».proof.Proof.PreFacts
import proofs.«203024_g60129542144782_cont_9to1_m_748_22_alg».proof.Proof.Gen.Pre_input_domain

noncomputable section

namespace Cert.Proof.KI

open Cert.KernelIdeal Cert.KernelIdeal.Gen

open Idealize.ShloMosaic Idealize.ShloMosaic.ValueIdx
open Idealize.ShloMosaic.SparseCore (S V T)
open Idealize.SL.Sem

variable {F : FTy → Type} [FloatOps F]

/-- Rows `96000 …` of a zero-or-one index matrix, laid flat, are zero-or-one. -/
theorem bin_xsTerm (x : IVec S100000x56 32) (hx : Cert.Spec.Bin x) : Bin32 (Cert.GroupedTable.xsTerm x) := by
  have key : ∀ (r : Fin 4000) (f : Fin 56),
      Cert.GroupedTable.xsTerm x (ix1 ⟨r.val * 56 + f.val, by have := r.isLt; have := f.isLt; omega⟩) = 0#32
        ∨ Cert.GroupedTable.xsTerm x (ix1 ⟨r.val * 56 + f.val, by have := r.isLt; have := f.isLt; omega⟩) = 1#32 :=
    fun r f => by rw [Cert.GroupedTable.xsTerm_apply]; exact hx _
  intro j
  have hr : (j 0).val / 56 < 4000 := by have : (j 0).val < 224000 := (j 0).isLt; omega
  have hf : (j 0).val % 56 < 56 := Nat.mod_lt _ (by decide)
  have e : j = ix1 ⟨(⟨(j 0).val / 56, hr⟩ : Fin 4000).val * 56 + (⟨(j 0).val % 56, hf⟩ : Fin 56).val,
      by have : (j 0).val < 224000 := (j 0).isLt; show (j 0).val / 56 * 56 + (j 0).val % 56 < 224000; omega⟩ := by
    funext a
    match a with
    | ⟨0, _⟩ => exact Fin.ext (by show (j 0).val = (j 0).val / 56 * 56 + (j 0).val % 56; omega)
  rw [e]
  exact key ⟨(j 0).val / 56, hr⟩ ⟨(j 0).val % 56, hf⟩

/-- The tile's obligation for the run's frame, from the precondition on every device. -/
theorem tile_of_pre [Cert.Pre_input_domain.Facts] (m : (ℓ : Loc nD τ sig) → Buf (Elt F) ℓ)
    (h : ∀ c : Dev nD, Cert.Pre_input_domain.fn (F := F) (m ((c.tc : Thread nD τ).loc main_arg0))
      (m ((c.tc : Thread nD τ).loc main_arg1)) = fun _ => 1#1) :
    (K (F := F)).TileObl (D (F := F)) 𝒱 (P m (fun _ _ _ => True)) v₀ 0 :=
  tileObl m facts fun d => by
    show Bin32 (Cert.GroupedTable.xsTerm (m (a0Loc d)))
    exact bin_xsTerm _ (Cert.PreFacts.bin_of_pre _ _ (h d))

/-- **The program's frame**: under the precondition it runs (terminates, nothing faulting) and its two argument arrays
    end unchanged. -/
theorem frame_prog : Cert.frame_KernelIdeal := fun m ρ hpre => frame_run m ρ (tile_of_pre m hpre)

end Cert.Proof.KI

end
-- ==== Proof.RefValue.lean ====
/-
  The reference's run read back as the specification's function.

  The reference computes `out[n, d] = 0 + ∑ f < 56, emb[n, f, d]`, where `emb` is a table lookup: for every `(n, f)` it
  forms the start index `(f, x[n, f])` — the feature's own number and the entry of the index matrix, each wrapped around
  once if negative — and reads the table `t : [56, 2, 128]` at that start index, whole along the last axis. A lookup
  clamps each component of a start index into its axis. A feature number `f < 56` is neither negative nor above 55, and
  an entry that is zero or one is neither negative nor above 1, so on such an index matrix neither the wrap nor the clamp
  does anything and `emb[n, f, d] = t[f, x[n, f], d]`: the summand of `Cert.Spec.G`. The leading zero is the additive
  unit of the extended reals, so the sums agree term by term.
-/
import proofs.«203024_g60129542144782_cont_9to1_m_748_22_alg».proof.Defs
import proofs.«203024_g60129542144782_cont_9to1_m_748_22_alg».proof.Proof.Gen.ReferenceIdeal
import proofs.«203024_g60129542144782_cont_9to1_m_748_22_alg».proof.Proof.Gen.ReferenceIdeal.Run
import proofs.«203024_g60129542144782_cont_9to1_m_748_22_alg».proof.Proof.Gen.ReferenceIdeal.Read
import proofs.«203024_g60129542144782_cont_9to1_m_748_22_alg».proof.Proof.Gen.Pre_input_domain
import proofs.«203024_g60129542144782_cont_9to1_m_748_22_alg».proof.Proof.Spec

noncomputable section

namespace Cert.RefValue

open Cert.ReferenceIdeal Cert.ReferenceIdeal.Gen Cert.ReferenceIdeal.Read Idealize.ShloMosaic Idealize.ShloMosaic.ValueIdx

/-- The lookup's dimension numbers: operand [56, 2, 128], start indices [100000, 56, 2], result [100000, 56, 128];
    operand axes 0 and 1 are addressed by the two components of a start index and collapsed, axis 2 is copied whole. -/
abbrev gd : GatherDims S56x2x128 S100000x56x2 S100000x56x128 :=
  gather_S56x2x128_S100000x56x2_S100000x56x128_2_01_n_n_01_2_11128

/-- The lookup read at `(n, f, d)`: the table at the start index `(idx[n, f, 0], idx[n, f, 1])`, each component read
    as a signed word and clamped into its axis (`[0, 55]` and `[0, 1]`), and at column `d`. -/
theorem gather_apply {α : Type} (t : S56x2x128.Idx → α) (idx : IVec S100000x56x2 32)
    (n : Fin 100000) (f : Fin 56) (d : Fin 128) :
    Host.gather gd t idx (ix3 n f d) =
      t (ix3 (⟨min (idx (ix3 n f (0 : Fin 2))).toInt.toNat 55, by omega⟩ : Fin 56)
             (⟨min (idx (ix3 n f (1 : Fin 2))).toInt.toNat 1, by omega⟩ : Fin 2) d) := by
  unfold Host.gather
  congr 1
  funext a
  refine Fin.ext ?_
  match a with
  | ⟨0, _⟩ =>
    show gd.start (ix3 n f d) idx 0 + gd.batchCoord (ix3 n f d) 0 + gd.offCoord (ix3 n f d) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gd.startIndexMap by decide)]
    have hsi : gd.siIdx (ix3 n f d) ⟨List.idxOf (0 : Fin 3) gd.startIndexMap,
        List.idxOf_lt_length_iff.2 (by decide)⟩ = ix3 n f (0 : Fin 2) := by
      funext b; refine Fin.ext ?_
      match b with
      | ⟨0, _⟩ => rfl
      | ⟨1, _⟩ => rfl
      | ⟨2, _⟩ => rfl
    rw [hsi]
    rfl
  | ⟨1, _⟩ =>
    show gd.start (ix3 n f d) idx 1 + gd.batchCoord (ix3 n f d) 1 + gd.offCoord (ix3 n f d) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gd.startIndexMap by decide)]
    have hsi : gd.siIdx (ix3 n f d) ⟨List.idxOf (1 : Fin 3) gd.startIndexMap,
        List.idxOf_lt_length_iff.2 (by decide)⟩ = ix3 n f (1 : Fin 2) := by
      funext b; refine Fin.ext ?_
      match b with
      | ⟨0, _⟩ => rfl
      | ⟨1, _⟩ => rfl
      | ⟨2, _⟩ => rfl
    rw [hsi]
    rfl
  | ⟨2, _⟩ =>
    show gd.start (ix3 n f d) idx 2 + gd.batchCoord (ix3 n f d) 2 + gd.offCoord (ix3 n f d) 2 = _
    rw [GatherDims.batchCoord_eq_zero _ _ _ List.not_mem_nil]
    unfold GatherDims.start
    rw [dif_neg (show (2 : Fin 3) ∉ gd.startIndexMap by decide)]
    unfold GatherDims.offCoord
    rw [dif_pos (show (2 : Fin 3) ∈ gd.sKept by decide), Nat.zero_add]
    rfl

/-! ## The start indices

The program builds, for every `(n, f)`, the start index `(f, x[n, f])` of the lookup: component 0 is the feature's own
number (an iota, wrapped around if negative, which it never is), component 1 the entry of the index matrix (wrapped
around by 2 if negative, which a zero-or-one entry is not). The two components are laid side by side on a last axis. -/

/-- Component 0 of the start index at `(n, f)` is the stage that holds the feature numbers, at `(n, f, 0)`. -/
theorem starts_at0 (x : IVec S100000x56 32) (n : Fin 100000) (f : Fin 56) :
    val_main_v15 (F := Ideal) x (ix3 n f (0 : Fin 2)) = val_main_v13 (F := Ideal) (ix3 n f (0 : Fin 1)) := by
  unfold val_main_v15
  exact concatenate_pair_apply_left (t := S100000x56x2) (s₁ := S100000x56x1) (s₂ := S100000x56x1) (2 : Fin 3)
    (val_main_v13 (F := Ideal)) (val_main_v14 (F := Ideal) x) concatenates_S100000x56x1_S100000x56x1_S100000x56x2_d2
    (ix3 n f (0 : Fin 2)) rfl (ix3 n f (0 : Fin 1))
    (fun b => by match b with | ⟨0, _⟩ => rfl | ⟨1, _⟩ => rfl | ⟨2, _⟩ => rfl)

/-- Component 1 of the start index at `(n, f)` is the stage that holds the wrapped entries, at `(n, f, 0)`. -/
theorem starts_at1 (x : IVec S100000x56 32) (n : Fin 100000) (f : Fin 56) :
    val_main_v15 (F := Ideal) x (ix3 n f (1 : Fin 2)) = val_main_v14 (F := Ideal) x (ix3 n f (0 : Fin 1)) := by
  unfold val_main_v15
  exact concatenate_pair_apply_right (t := S100000x56x2) (s₁ := S100000x56x1) (s₂ := S100000x56x1) (2 : Fin 3)
    (val_main_v13 (F := Ideal)) (val_main_v14 (F := Ideal) x) concatenates_S100000x56x1_S100000x56x1_S100000x56x2_d2
    (ix3 n f (1 : Fin 2)) rfl rfl (ix3 n f (0 : Fin 1))
    (fun b hb => by
      match b with
      | ⟨0, _⟩ => rfl
      | ⟨1, _⟩ => rfl
      | ⟨2, _⟩ => exact absurd rfl hb)
    rfl

/-- A feature number below 56 is not negative as a signed word. -/
theorem feat_not_neg : ∀ f : Fin 56, IntOp.cmpi .slt (BitVec.ofNat 32 f.val) 0#32 = 0#1 := by decide

/-- The feature-number stage at `(n, f, 0)` is the word `f`. -/
theorem feat_word (n : Fin 100000) (f : Fin 56) :
    val_main_v13 (F := Ideal) (ix3 n f (0 : Fin 1)) = BitVec.ofNat 32 f.val := by
  rw [val_main_v13_apply, val_main_v12_apply, val_main_v6_apply, val_main_v3_apply, val_main_v1_apply,
    val_main_v2_apply, val_main_v0_apply, val_main_c_apply]
  show Scalar.select (IntOp.cmpi .slt (BitVec.ofNat 32 f.val) 0#32) _ _ = _
  rw [feat_not_neg f, select_zero]

/-- The wrapped-entry stage at `(n, f, 0)` is the entry `x[n, f]` itself when that entry is zero or one. -/
theorem entry_word (x : IVec S100000x56 32) (n : Fin 100000) (f : Fin 56)
    (hx : x (ix2 n f) = 0#32 ∨ x (ix2 n f) = 1#32) :
    val_main_v14 (F := Ideal) x (ix3 n f (0 : Fin 1)) = x (ix2 n f) := by
  have hi : idx_main_v14 (ix3 n f (0 : Fin 1)) = ix2 n f :=
    funext fun a => Fin.ext (by match a with | ⟨0, _⟩ => rfl | ⟨1, _⟩ => rfl)
  rw [val_main_v14_apply, hi, val_main_v11_apply, val_main_v8_apply, val_main_v7_apply, val_main_c_1_apply]
  rcases hx with h | h <;> rw [h] <;> exact select_zero _ _

/-- Clamping a feature number into `[0, 55]` leaves it alone. -/
theorem feat_clamp : ∀ f : Fin 56, min (BitVec.ofNat 32 f.val).toInt.toNat 55 = f.val := by decide

/-- Clamping a zero-or-one entry into `[0, 1]` gives the table row it selects. -/
theorem row_clamp (w : BitVec 32) (hw : w = 0#32 ∨ w = 1#32) : min w.toInt.toNat 1 = (Cert.Spec.sel w).val := by
  rcases hw with rfl | rfl <;> decide

/-! ## The reference's result is the specification's function -/

/-- The reference's result at `(n, d)` is zero plus the sum over the features `f` of the lookup at `(n, f, d)`; on a
    zero-or-one index matrix the lookup at `(n, f, d)` is `t[f, x[n, f], d]`, the specification's summand. -/
theorem ref_is_G (x : IVec Cert.Spec.SX 32) (t : FVec Ideal Cert.Spec.ST .f32) (hx : Cert.Spec.Bin x) :
    val_main_v17 (F := Ideal) x t = Cert.Spec.G x t := by
  funext i
  obtain ⟨n, d, rfl⟩ : ∃ (n : Fin 100000) (d : Fin 128), i = ix2 n d := ⟨i 0, i 1, eq_ix2 i⟩
  have hi : ∀ k : Fin 56, idx_main_v17 (ix2 n d) k = ix3 n k d := fun k =>
    funext fun a => Fin.ext (by match a with | ⟨0, _⟩ => rfl | ⟨1, _⟩ => rfl | ⟨2, _⟩ => rfl)
  rw [val_main_v17_apply, val_main_cst_apply]
  show Ideal.ofBits .f32 0x00000000#32 + _ = _
  rw [Ideal.ofBits_zero_f32, zero_add]
  show _ = ∑ f : Fin 56, t (ix3 f (Cert.Spec.sel (x (ix2 n f))) d)
  refine Finset.sum_congr rfl fun f _ => ?_
  rw [hi f]
  refine (gather_apply t (val_main_v15 (F := Ideal) x) n f d).trans ?_
  refine congrArg t (funext fun a => Fin.ext ?_)
  match a with
  | ⟨0, _⟩ =>
    show min (val_main_v15 (F := Ideal) x (ix3 n f (0 : Fin 2))).toInt.toNat 55 = f.val
    rw [starts_at0, feat_word]
    exact feat_clamp f
  | ⟨1, _⟩ =>
    show min (val_main_v15 (F := Ideal) x (ix3 n f (1 : Fin 2))).toInt.toNat 1 = (Cert.Spec.sel (x (ix2 n f))).val
    rw [starts_at1, entry_word x n f (hx _)]
    exact row_clamp _ (hx _)
  | ⟨2, _⟩ => rfl

/-- Every weakly fair execution of the reference from a memory whose index matrix is zero-or-one ends with its
    result at the specification's function of the two arguments, and the arguments unchanged. -/
theorem run_ref (m' : (ℓ : Loc Cert.ReferenceIdeal.nD Cert.ReferenceIdeal.τ Cert.ReferenceIdeal.sig) → Buf (Elt Ideal) ℓ)
    (g' : Dev Cert.ReferenceIdeal.nD → PrngReg)
    (hx : ∀ c : Dev Cert.ReferenceIdeal.nD,
      Cert.Spec.Bin (m' ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v17)
        = Cert.Spec.G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v17_eq (F := Ideal) _ _).trans (ref_is_G _ _ (hx c))), (h c).2⟩)
    (Cert.ReferenceIdeal.Value.run (F := Ideal) m' g')

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.RefValue

end
-- ==== Proof.TcValue.lean ====
/-
  The value of the TensorCore kernel's output block, at extended reals: entry `(r, d)` is

      (∑ f, float (x r f) * (tt 1 f d - tt 0 f d)) + ∑ f, tt 0 f d,

  the matrix product into a zero accumulator read as a sum over the contracted axis, the axis-0 reduction of the
  first table as a sum over the features, the shape casts and the broadcast as re-indexings.
-/
import proofs.«203024_g60129542144782_cont_9to1_m_748_22_alg».proof.Proof.TcBody
import Idealize.ShloMosaic.Lib.ValueIdx
import Idealize.ShloMosaic.Lib.Pipeline.Value
import Idealize.ShloMosaic.PureOps.IdealRules
import Idealize.ShloMosaic.PureOps.Ideal.Laws

set_option maxRecDepth 16384

noncomputable section

namespace Cert.KernelIdeal.Tc

open Cert.KernelIdeal Cert.KernelIdeal.Gen

open Idealize.ShloMosaic Idealize.ShloMosaic.ValueIdx Idealize.ShloMosaic.TcCoe
open Idealize.ShloMosaic.Pipeline (Dat Cfg Window)
open Idealize.SL Idealize.SL.RA

theorem hz2 : (![0, 0] : Fin 2 → Nat) = fun _ => 0 := funext fun a => by fin_cases a <;> rfl

/-- The matrix product's dimension numbers: rows × features times features × columns. -/
abbrev DD : DotDims S16000x56 S56x128 S16000x128 := dot_S16000x56_S56x128_S16000x128_1_0_0_1_n_n

/-- The first table's rows as the body loads them: row `f`, column `d` of the load through the first rectangle. -/
theorem ld_rT0 (T : Vec Ideal S2x56x128 .f32) (f : Fin 56) (d : Fin 128) :
    View.ld T rT0 (ix3 (0 : Fin 1) f d) = T (ix3 0 f d) := by
  show T (rT0.idx (ix3 (0 : Fin 1) f d)) = T (ix3 0 f d)
  congr 1
  funext a
  match a with
  | ⟨0, _⟩ => exact Fin.ext (by simp [LoadRect.idx_apply])
  | ⟨1, _⟩ => exact Fin.ext (by simp [LoadRect.idx_apply])
  | ⟨2, _⟩ => exact Fin.ext (by simp [LoadRect.idx_apply])

theorem ld_rT1 (T : Vec Ideal S2x56x128 .f32) (f : Fin 56) (d : Fin 128) :
    View.ld T rT1 (ix3 (0 : Fin 1) f d) = T (ix3 1 f d) := by
  show T (rT1.idx (ix3 (0 : Fin 1) f d)) = T (ix3 1 f d)
  congr 1
  funext a
  match a with
  | ⟨0, _⟩ => exact Fin.ext (by simp [LoadRect.idx_apply])
  | ⟨1, _⟩ => exact Fin.ext (by simp [LoadRect.idx_apply])
  | ⟨2, _⟩ => exact Fin.ext (by simp [LoadRect.idx_apply])

/-- A loaded table as a matrix of features by columns. -/
theorem tab0 (T : Vec Ideal S2x56x128 .f32) (f : Fin 56) (d : Fin 128) :
    shapeCast S56x128 (View.ld T rT0) shapeCasts_S1x56x128_S56x128 (ix2 f d) = T (ix3 0 f d) := by
  rw [shapeCast_apply _ _ (ix2 f d) (ix3 (0 : Fin 1) f d) (by
    rw [Shape.rowMajor_val_three, Shape.rowMajor_val_two]
    show ((0 : Nat) * 56 + f.val) * 128 + d.val = f.val * 128 + d.val
    omega)]
  exact ld_rT0 T f d

theorem tab1 (T : Vec Ideal S2x56x128 .f32) (f : Fin 56) (d : Fin 128) :
    shapeCast S56x128 (View.ld T rT1) shapeCasts_S1x56x128_S56x128 (ix2 f d) = T (ix3 1 f d) := by
  rw [shapeCast_apply _ _ (ix2 f d) (ix3 (0 : Fin 1) f d) (by
    rw [Shape.rowMajor_val_three, Shape.rowMajor_val_two]
    show ((0 : Nat) * 56 + f.val) * 128 + d.val = f.val * 128 + d.val
    omega)]
  exact ld_rT1 T f d

/-- The entry `(r, d)` of the output block. -/
theorem outBlk_apply (X : Vec Ideal S16000x56 .i32) (T : Vec Ideal S2x56x128 .f32) (r : Fin 16000) (d : Fin 128) :
    outBlk (F := Ideal) X T (ix2 r d)
      = (∑ f : Fin 56, FloatOps.sitofp (F := Ideal) .f32 (X (ix2 r f)) * (T (ix3 1 f d) - T (ix3 0 f d)))
        + ∑ f : Fin 56, T (ix3 0 f d) := by
  unfold outBlk
  rw [View.canon_unit_zero hz2, View.ld_unit_zero (S := S16000x56) hz2]
  unfold k1_pay1
  dsimp only
  rw [addf_apply]
  congr 1
  · show FloatOps.matmul DD none (sitofp (F := Ideal) .f32 X) _ (constant (F := Ideal) S16000x128 .f32 0x00000000#32) (ix2 r d) = _
    rw [Ideal.matmul_constant_zero_apply, ← Equiv.sum_comp (contrEquiv1 DD 56 rfl rfl).symm]
    refine Finset.sum_congr rfl fun f _ => ?_
    have hl : DD.lhsIdx (ix2 r d) ((contrEquiv1 DD 56 rfl rfl).symm f) = ix2 r f := by
      funext a
      match a with
      | ⟨0, _⟩ => exact Fin.ext (by simp [DotDims.lhsIdx, DD, dot_S16000x56_S56x128_S16000x128_1_0_0_1_n_n]; rfl)
      | ⟨1, _⟩ =>
        refine Fin.ext ?_
        rw [show (⟨1, _⟩ : Fin S16000x56.rank) = (1 : Fin 2) from rfl,
          DotDims.lhsIdx_val_of_single DD (cl := (1 : Fin 2)) rfl]
        exact contrEquiv1_symm_val DD 56 rfl rfl f
    have hr : DD.rhsIdx (ix2 r d) ((contrEquiv1 DD 56 rfl rfl).symm f) = ix2 f d := by
      funext a
      match a with
      | ⟨0, _⟩ =>
        refine Fin.ext ?_
        rw [show (⟨0, _⟩ : Fin S56x128.rank) = (0 : Fin 2) from rfl,
          DotDims.rhsIdx_val_of_single DD (cr := (0 : Fin 2)) rfl]
        exact contrEquiv1_symm_val DD 56 rfl rfl f
      | ⟨1, _⟩ => exact Fin.ext (by simp [DotDims.rhsIdx, DD, dot_S16000x56_S56x128_S16000x128_1_0_0_1_n_n]; rfl)
    rw [hl, hr, sitofp_apply, subf_apply, tab1, tab0]
  · rw [broadcastTo_apply _ _ (ix2 r d) (ix2 (0 : Fin 1) d) (by
      intro a
      match a with
      | ⟨0, _⟩ => rfl
      | ⟨1, _⟩ => rfl)]
    rw [shapeCast_apply _ _ (ix2 (0 : Fin 1) d) (ix1 d) (by
      rw [Shape.rowMajor_val_one, Shape.rowMajor_val_two]
      show d.val = (0 : Nat) * 128 + d.val
      omega)]
    refine (Ideal.multiReduction_add_single (shapeCast S56x128 (View.ld T rT0) shapeCasts_S1x56x128_S56x128) 0x00000000#32
      reduces_S56x128_S128 _ _ (ix1 d)).trans ?_
    refine Finset.sum_congr rfl fun f _ => ?_
    have hlift : reduces_S56x128_S128.lift (ix1 d) f = ix2 f d := by
      funext a
      match a with
      | ⟨0, _⟩ => exact Fin.ext (by rw [Shape.Reduces.lift_val]; simp [Shape.Reduces.liftVal])
      | ⟨1, _⟩ => exact Fin.ext (by rw [Shape.Reduces.lift_val]; simp [Shape.Reduces.liftVal])
    rw [hlift]
    exact tab0 T f d

/-! ## From the blocks to the array -/

section Arrays

variable {F : FTy → Type} [FloatOps F] {Name : Type} [DecidableEq Name] {U : Type} [URA U]
variable (c : Dev nD) (x : Buf (Elt F) ((c.tc : Thread nD τ).loc main_arg0)) (tt : Buf (Elt F) ((c.tc : Thread nD τ).loc main_v71))
  (f0 : Buf (Elt F) ((c.tc : Thread nD τ).loc main_v72))
  (O : CellTallies nD τ sig (Idealize.ShloMosaic.SparseCore.Cfg.HIx 1)) (B : Set (SemLoc sig × Idealize.ShloMosaic.SparseCore.Cfg.HIx 1))

/-- The index matrix is an input: the pipeline leaves it as it found it; -/
theorem arrAt_x (n : Nat) : (dats (Name := Name) (U := U) c x tt f0 O B).arrAt 0 n = x :=
  ((dats (Name := Name) (U := U) c x tt f0 O B).arrAt_in 0 rfl n).trans (A_0 c x tt f0 O B)
/-- the transposed tables likewise. -/
theorem arrAt_tt (n : Nat) : (dats (Name := Name) (U := U) c x tt f0 O B).arrAt 1 n = tt :=
  ((dats (Name := Name) (U := U) c x tt f0 O B).arrAt_in 1 rfl n).trans (A_1 c x tt f0 O B)

end Arrays

/-- The printed index maps, decided over the grid: at point `t` the index block and the output block are block `t`
    of their arrays' rows, and the tables' block is the whole array. -/
theorem idx_facts : ∀ t : Fin cfg1.N, win1_0.index t (0 : Fin 2) = t.val ∧ win1_0.index t (1 : Fin 2) = 0
    ∧ win1_2.index t (0 : Fin 2) = t.val ∧ win1_2.index t (1 : Fin 2) = 0
    ∧ win1_1.index t (0 : Fin 3) = 0 ∧ win1_1.index t (1 : Fin 3) = 0 ∧ win1_1.index t (2 : Fin 3) = 0 :=
  (by decide +kernel : ∀ t : Fin grid1.N, _)

/-- The rows the TensorCore computes, as one function of the index matrix and the transposed tables. -/
def Gtc (x : S100000x56.Idx → BitVec 32) (tt : S2x56x128.Idx → EReal) : S100000x128.Idx → EReal := fun i =>
  (∑ f : Fin 56, FloatOps.sitofp (F := Ideal) .f32 (x (ix2 (i 0 : Fin 100000) f))
      * (tt (ix3 1 f (i 1 : Fin 128)) - tt (ix3 0 f (i 1 : Fin 128))))
    + ∑ f : Fin 56, tt (ix3 0 f (i 1 : Fin 128))

section AtIdeal

variable {Name : Type} [DecidableEq Name] {U : Type} [URA U]
variable (c : Dev nD) (x : Buf (Elt Ideal) ((c.tc : Thread nD τ).loc main_arg0)) (tt : Buf (Elt Ideal) ((c.tc : Thread nD τ).loc main_v71))
  (f0 : Buf (Elt Ideal) ((c.tc : Thread nD τ).loc main_v72))
  (O : CellTallies nD τ sig (Idealize.ShloMosaic.SparseCore.Cfg.HIx 1)) (B : Set (SemLoc sig × Idealize.ShloMosaic.SparseCore.Cfg.HIx 1))

/-- The tables' staged block is the tables. -/
theorem tBlk_apply (t : Fin cfg1.N) (k : Fin 2) (f : Fin 56) (d : Fin 128) : tBlk c tt t (ix3 k f d) = tt (ix3 k f d) := by
  obtain ⟨-, -, -, -, e0, e1, e2⟩ := idx_facts t
  show tt ((win1_1.blk t).view.emb (ix3 k f d)) = tt (ix3 k f d)
  congr 1
  funext a; apply Fin.ext
  match a with
  | ⟨0, _⟩ => show win1_1.index t (0 : Fin 3) * 2 + 1 * k.val = k.val; omega
  | ⟨1, _⟩ => show win1_1.index t (1 : Fin 3) * 56 + 1 * f.val = f.val; omega
  | ⟨2, _⟩ => show win1_1.index t (2 : Fin 3) * 128 + 1 * d.val = d.val; omega

/-- The index block staged at point `t` is rows `16000 t …` of the index matrix. -/
theorem xBlk_apply (t : Fin cfg1.N) (r : Fin 16000) (f : Fin 56) (hr : 16000 * t.val + r.val < 100000) :
    xBlk c x t (ix2 r f) = x (ix2 (⟨16000 * t.val + r.val, hr⟩ : Fin 100000) f) := by
  obtain ⟨e0, e1, -⟩ := idx_facts t
  have hm : win1_0.moved (grid1.coords t) (ix2 r f) = true :=
    (win1_0.moved_iff _ _).mpr fun a => by
      have := ((ix2 r f : S16000x56.Idx) a).isLt
      unfold Window.xsize; rw [clip0 t a]; exact this
  unfold xBlk Window.fill
  rw [dif_pos hm]
  show x ((win1_0.blk t).view.emb _) = x _
  congr 1
  funext a; apply Fin.ext
  match a with
  | ⟨0, _⟩ => show win1_0.index t (0 : Fin 2) * 16000 + 1 * r.val = 16000 * t.val + r.val; omega
  | ⟨1, _⟩ => show win1_0.index t (1 : Fin 2) * 56 + 1 * f.val = f.val; omega

/-- WHAT POINT `t` WRITES BACK is block `t` of `Gtc` of the index matrix and the tables as the region finds them. -/
theorem flushed2_eq (t : Fin cfg1.N) :
    (dats (Name := Name) (U := U) c x tt f0 O B).flushed 2 t = ((cfg1.win 2).blk t).view.read (Elt Ideal) (Gtc x tt) := by
  show (cfg1.win 2).cut (grid1.coords t) ((dats (Name := Name) (U := U) c x tt f0 O B).after 2 t) = _
  rw [after_2]
  obtain ⟨-, -, e2, e3, -⟩ := idx_facts t
  have ht : t.val < 6 := lt_of_lt_of_eq t.isLt N_1
  funext j
  have hj0 : (j 0).val < 16000 := lt_of_lt_of_le (j 0).isLt (win1_2.xsize_le (grid1.coords t) 0)
  have hj1 : (j 1).val < 128 := lt_of_lt_of_le (j 1).isLt (win1_2.xsize_le (grid1.coords t) 1)
  show outBlk (xBlk c x t) (tBlk c tt t) (win1_2.xinj (grid1.coords t) j) = Gtc x tt ((win1_2.blk t).view.emb j)
  rw [show win1_2.xinj (grid1.coords t) j = ix2 (⟨(j 0).val, hj0⟩ : Fin 16000) (⟨(j 1).val, hj1⟩ : Fin 128) from by
    funext a
    match a with
    | ⟨0, _⟩ => rfl
    | ⟨1, _⟩ => rfl]
  rw [outBlk_apply]
  have hrow : 16000 * t.val + (j 0).val < 100000 := by omega
  have he0 : ((win1_2.blk t).view.emb j (0 : Fin 2) : Fin 100000) = ⟨16000 * t.val + (j 0).val, hrow⟩ :=
    Fin.ext (by show win1_2.index t (0 : Fin 2) * 16000 + 1 * (j 0).val = 16000 * t.val + (j 0).val; omega)
  have he1 : ((win1_2.blk t).view.emb j (1 : Fin 2) : Fin 128) = ⟨(j 1).val, hj1⟩ :=
    Fin.ext (by show win1_2.index t (1 : Fin 2) * 128 + 1 * (j 1).val = (j 1).val; omega)
  unfold Gtc
  rw [he0, he1]
  simp only [tBlk_apply, xBlk_apply c x t ⟨(j 0).val, hj0⟩ _ hrow]
  rfl

/-- An index of the result is in point `t`'s block iff its row is among the block's rows. -/
theorem mem_blk2 (t : Fin cfg1.N) (i : S100000x128.Idx) :
    i ∈ ((cfg1.win 2).blk t).view.set ↔ 16000 * t.val ≤ (i 0).val ∧ (i 0).val < 16000 * t.val + 16000 := by
  obtain ⟨-, -, e2, e3, -⟩ := idx_facts t
  have hx : ∀ a, win1_2.xsize (grid1.coords t) a = S16000x128.size a := fun a => by
    unfold Window.xsize; rw [clip2 t a]
  show i ∈ ((View.whole main_v72).slice (win1_2.rect t)).set ↔ _
  rw [View.set_slice_whole, Rect.mem_set_unit]
  have h1 : (i 1).val < 128 := (i 1).isLt
  constructor
  · intro h
    have h0 : win1_2.index t (0 : Fin 2) * 16000 ≤ (i 0).val ∧ (i 0).val < win1_2.index t (0 : Fin 2) * 16000 + win1_2.xsize (grid1.coords t) 0 := h 0
    rw [hx 0] at h0
    have : S16000x128.size 0 = 16000 := rfl
    omega
  · intro h a
    match a with
    | ⟨0, _⟩ =>
      show win1_2.index t (0 : Fin 2) * 16000 ≤ (i 0).val ∧ (i 0).val < win1_2.index t (0 : Fin 2) * 16000 + win1_2.xsize (grid1.coords t) 0
      rw [hx 0]
      have : S16000x128.size 0 = 16000 := rfl
      omega
    | ⟨1, _⟩ =>
      show win1_2.index t (1 : Fin 2) * 128 ≤ (i 1).val ∧ (i 1).val < win1_2.index t (1 : Fin 2) * 128 + win1_2.xsize (grid1.coords t) 1
      rw [hx 1]
      have : S16000x128.size 1 = 128 := rfl
      omega

/-- THE COVERED ROWS: in some point's block iff below 96000. -/
theorem covered_iff2 (i : S100000x128.Idx) :
    (∃ t : Fin cfg1.N, (cfg1.win 2).flush t = true ∧ i ∈ ((cfg1.win 2).blk t).view.set) ↔ (i 0).val < 96000 := by
  constructor
  · rintro ⟨t, -, hi⟩
    rw [mem_blk2] at hi
    have ht : t.val < 6 := lt_of_lt_of_eq t.isLt N_1
    omega
  · intro h
    refine ⟨⟨(i 0).val / 16000, by rw [show cfg1.N = 6 from N_1]; omega⟩, flush1_2 _, ?_⟩
    rw [mem_blk2]
    show 16000 * ((i 0).val / 16000) ≤ (i 0).val ∧ (i 0).val < 16000 * ((i 0).val / 16000) + 16000
    omega

/-- **The result after the region**, at extended reals: rows below 96000 hold the block value of the index matrix and
    the tables; the rows from 96000 on, which no block holds, keep what they held. -/
theorem arrAt_out : (dats (Name := Name) (U := U) c x tt f0 O B).arrAt 2 cfg1.N
    = fun i => if (i 0).val < 96000 then Gtc x tt i else f0 i := by
  funext i
  rw [(dats (Name := Name) (U := U) c x tt f0 O B).arrAt_eq_piecewise 2 (Gtc x tt) (fun t _ => flushed2_eq c x tt f0 O B t) i, A_2]
  exact if_congr (covered_iff2 i) rfl rfl

end AtIdeal

end Cert.KernelIdeal.Tc

end
-- ==== Proof.GroupedTableSpec.lean ====
/-
  The two regrouped forms of the lookup, stated against the specification's function `Cert.Spec.G`.

  For a row `n` of the index matrix and a column `d`:
  * the grouped form: the flattened grouped table read at `j * 2048 + c_j * 128 + d` for the fourteen groups `j`, `c_j` the
    number of the rows the four features of group `j` select in row `n`, added pairwise as a tree, is `G x t (n, d)`;
  * the linear form, for a table of real numbers and an index matrix of zeros and ones: the sum over the features of
    the index entry as a real times the difference of the feature's two rows, plus the sum of the rows 0, is
    `G x t (n, d)`.
-/
import proofs.«203024_g60129542144782_cont_9to1_m_748_22_alg».proof.Proof.GroupedTable

noncomputable section

namespace Cert.GroupedTable

open Cert.KernelIdeal Cert.Spec
open Idealize.ShloMosaic Idealize.ShloMosaic.ValueIdx
open Cert.LookupLaws (bit feat code)

/-- The rows the features select in row `n` of the index matrix. -/
def rowSel (x : IVec SX 32) (n : Fin 100000) : Fin 56 → Fin 2 := fun f => sel (x (ix2 n f))

/-- The specification's function at `(n, d)` is the sum over the features of the selected entries of column `d`. -/
theorem G_apply (x : IVec SX 32) (t : FVec Ideal ST .f32) (n : Fin 100000) (d : Fin 128) :
    G x t (ix2 n d) = ∑ f : Fin 56, t (ix3 f (rowSel x n f) d) := rfl

/-- The flattened grouped table read where group `j` of row `n` reads it, column `d`. -/
def gtAt (x : IVec SX 32) (t : FVec Ideal ST .f32) (n : Fin 100000) (d : Fin 128) (j : Fin 14) : EReal :=
  gtTerm (F := Ideal) t (ix1 ⟨j.val * 2048 + (code (rowSel x n) j).val * 128 + d.val, by
    have := (code (rowSel x n) j).isLt; omega⟩)

/-- THE GROUPED FORM AGAINST THE SPECIFICATION: the fourteen reads of the flattened grouped table, added pairwise as a
    tree, are the specification's function at `(n, d)`. -/
theorem tree_gtAt_eq_G (x : IVec SX 32) (t : FVec Ideal ST .f32) (n : Fin 100000) (d : Fin 128) :
    (((gtAt x t n d 0 + gtAt x t n d 1) + (gtAt x t n d 2 + gtAt x t n d 3))
        + ((gtAt x t n d 4 + gtAt x t n d 5) + (gtAt x t n d 6 + gtAt x t n d 7)))
      + (((gtAt x t n d 8 + gtAt x t n d 9) + (gtAt x t n d 10 + gtAt x t n d 11))
        + (gtAt x t n d 12 + gtAt x t n d 13))
      = G x t (ix2 n d) := by
  rw [G_apply]
  simp only [gtAt, gtTerm_eq_gt]
  exact Cert.LookupLaws.tree_gt_eq_sum (fun f r => t (ix3 f r d)) (rowSel x n)

/-- A word that is zero or one, read as a signed integer, is the row number it selects. -/
theorem toInt_eq_sel (w : BitVec 32) (h : w = 0#32 ∨ w = 1#32) : ((w.toInt : ℝ) : EReal) = (((sel w).val : ℝ) : EReal) := by
  have h0 : (0#32 : BitVec 32).toInt = 0 := by decide
  have h1 : (1#32 : BitVec 32).toInt = 1 := by decide
  rcases h with rfl | rfl
  · rw [h0, sel_zero]; simp
  · rw [h1, sel_one]; simp

/-- THE LINEAR FORM AGAINST THE SPECIFICATION: for a table of real numbers and an index matrix of zeros and ones, the
    sum over the features of the index entry (as a real) times the difference of the feature's two rows, plus the sum of
    the rows 0, is the specification's function at `(n, d)`. -/
theorem linear_eq_G (x : IVec SX 32) (t : FVec Ideal ST .f32) (hx : Bin x) (ht : Finite t) (n : Fin 100000) (d : Fin 128) :
    (∑ f : Fin 56, (((x (ix2 n f)).toInt : ℝ) : EReal) * (t (ix3 f 1 d) - t (ix3 f 0 d))) + (∑ f : Fin 56, t (ix3 f 0 d))
      = G x t (ix2 n d) := by
  rw [G_apply]
  simp only [toInt_eq_sel _ (hx _)]
  exact Cert.LookupLaws.linear_eq_sum (fun f r => t (ix3 f r d)) (fun f r => ht _) (rowSel x n)

/-! ## The linear form over the transposed table -/

section Transposed

open Cert.KernelIdeal.Facts₀

variable {F : FTy → Type} [FloatOps F]

/-- The table with its first two axes exchanged, `[2, 56, 128]`: row `r` of feature `f` at `(r, f)`. -/
def ttTerm (t : FVec F S56x2x128 .f32) : FVec F S2x56x128 .f32 :=
  transpose S2x56x128 [1, 0, 2] t transposes_S56x2x128_S2x56x128_1_0_2

/-- The transposed table at `(r, f, d)` is the table at `(f, r, d)`. -/
theorem ttTerm_apply (t : FVec F S56x2x128 .f32) (r : Fin 2) (f : Fin 56) (d : Fin 128) :
    ttTerm t (ix3 r f d) = t (ix3 f r d) := by
  unfold ttTerm
  exact transpose_apply _ t transposes_S56x2x128_S2x56x128_1_0_2 _ (ix3 f r d) (fun b => match b with
    | ⟨0, _⟩ => rfl
    | ⟨1, _⟩ => rfl
    | ⟨2, _⟩ => rfl)

/-- THE LINEAR FORM over any array `tt` that is the table with its first two axes exchanged (`tt (r, f, d) = t (f, r, d)`),
    against the specification. -/
theorem linear_eq_G_of_transposed (x : IVec SX 32) (t : FVec Ideal ST .f32) (tt : FVec Ideal S2x56x128 .f32)
    (htt : ∀ (r : Fin 2) (f : Fin 56) (d : Fin 128), tt (ix3 r f d) = t (ix3 f r d))
    (hx : Bin x) (ht : Finite t) (n : Fin 100000) (d : Fin 128) :
    (∑ f : Fin 56, (((x (ix2 n f)).toInt : ℝ) : EReal) * (tt (ix3 1 f d) - tt (ix3 0 f d)))
        + (∑ f : Fin 56, tt (ix3 0 f d))
      = G x t (ix2 n d) := by
  simp only [htt]
  exact linear_eq_G x t hx ht n d

/-- The same at the transposed table itself. -/
theorem linear_ttTerm_eq_G (x : IVec SX 32) (t : FVec Ideal ST .f32) (hx : Bin x) (ht : Finite t)
    (n : Fin 100000) (d : Fin 128) :
    (∑ f : Fin 56, (((x (ix2 n f)).toInt : ℝ) : EReal)
          * (ttTerm (F := Ideal) t (ix3 1 f d) - ttTerm (F := Ideal) t (ix3 0 f d)))
        + (∑ f : Fin 56, ttTerm (F := Ideal) t (ix3 0 f d))
      = G x t (ix2 n d) :=
  linear_eq_G_of_transposed x t (ttTerm (F := Ideal) t) (ttTerm_apply t) hx ht n d

end Transposed

end Cert.GroupedTable

end
-- ==== Proof.ResultSpec.lean ====
/-
  The result of the kernel program against the specification.

  The program's result array is the TensorCore region's result with the SparseCore call's result, read as 4000 rows of
  128, in place of its rows from 96000 on. Rows below 96000 hold, after the region, the linear form of the lookup over
  the transposed table — which for an index matrix of zeros and ones and a table of real numbers is the specification's
  function —; entry `j` of the SparseCore call's flat result holds the specification's function at row
  `96000 + j / 128`, column `j % 128`. Together: the whole result is the specification's function.
-/
import proofs.«203024_g60129542144782_cont_9to1_m_748_22_alg».proof.Proof.TcValue
import proofs.«203024_g60129542144782_cont_9to1_m_748_22_alg».proof.Proof.TcRegion
import proofs.«203024_g60129542144782_cont_9to1_m_748_22_alg».proof.Proof.GroupedTableSpec
import proofs.«203024_g60129542144782_cont_9to1_m_748_22_alg».proof.Proof.LaunchDefs
import proofs.«203024_g60129542144782_cont_9to1_m_748_22_alg».proof.Proof.HostVals

set_option maxRecDepth 16384

noncomputable section

namespace Cert.Proof.KI

open Cert.KernelIdeal Cert.KernelIdeal.Gen Cert.KernelIdeal.Tc

open Idealize.ShloMosaic Idealize.ShloMosaic.ValueIdx Idealize.ShloMosaic.TcCoe
open Idealize.ShloMosaic.SparseCore.Cfg (HIx)
open Idealize.SL Idealize.SL.RA

variable (m : (ℓ : Loc nD τ sig) → Buf (Elt Ideal) ℓ)

/-- The per-entry fact about the SparseCore call's flat result: entry `j` is the specification's function at row
    `96000 + j / 128`, column `j % 128`. -/
def PhiG : Dev nD → S512000.Idx → Elt Ideal .f32 → Prop := fun d j v =>
  v = Cert.Spec.G (m (a0Loc d)) (m (a1Loc d))
    (ix2 (⟨96000 + (j 0).val / 128, by have := (j 0).isLt; have : S512000.size 0 = 512000 := rfl; omega⟩ : Fin 100000)
      (⟨(j 0).val % 128, Nat.mod_lt _ (by decide)⟩ : Fin 128))

/-- The rows the TensorCore computes are the specification's: the linear form over the transposed table, the
    conversion of a word to a float at extended reals being the word's integer value. -/
theorem Gtc_eq_G (d : Dev nD) (tt : S2x56x128.Idx → EReal)
    (htt : ∀ (r : Fin 2) (f : Fin 56) (k : Fin 128), tt (ix3 r f k) = m (a1Loc d) (ix3 f r k))
    (hx : Cert.Spec.Bin (m (a0Loc d))) (ht : Cert.Spec.Finite (m (a1Loc d))) (n : Fin 100000) (k : Fin 128) :
    Gtc (m (a0Loc d)) tt (ix2 n k) = Cert.Spec.G (m (a0Loc d)) (m (a1Loc d)) (ix2 n k) :=
  Cert.GroupedTable.linear_eq_G_of_transposed (m (a0Loc d)) (m (a1Loc d)) tt htt hx ht n k

/-- The specification's function at equal coordinates. -/
theorem G_congr (x : IVec Cert.Spec.SX 32) (t : FVec Ideal Cert.Spec.ST .f32) {n n' : Fin 100000} {k k' : Fin 128}
    (hn : n = n') (hk : k = k') : Cert.Spec.G x t (ix2 n k) = Cert.Spec.G x t (ix2 n' k') := by
  subst hn hk; rfl

/-- **The program's result is the specification's function.** The region's result (`arrAt 2` of the pipeline's proof
    data over the index matrix and a transposed table `tt`), with the SparseCore call's flat result `f70` — each entry
    the specification's — in place of its rows from 96000 on. -/
theorem result_apply (d : Dev nD)
    (tt : Buf (Elt Ideal) ((d.tc : Thread nD τ).loc main_v71)) (f0 : Buf (Elt Ideal) ((d.tc : Thread nD τ).loc main_v72))
    (f70 : Buf (Elt Ideal) (outLoc d))
    (htt : ∀ (r : Fin 2) (f : Fin 56) (k : Fin 128), tt (ix3 r f k) = m (a1Loc d) (ix3 f r k))
    (h70 : ∀ j, PhiG m d j (f70 j))
    (hx : Cert.Spec.Bin (m (a0Loc d))) (ht : Cert.Spec.Finite (m (a1Loc d)))
    (O : CellTallies nD τ sig (HIx 1)) (B : Set (SemLoc sig × HIx 1))
    (n : Fin 100000) (k : Fin 128) :
    updateSlice ((dats (Name := ℕ) (U := UU) d (m (a0Loc d)) tt f0 O B).arrAt 2 cfg1.N)
        (shapeCast S4000x128 f70 shapeCasts_S512000_S4000x128) ![96000, 0] slices_upd (ix2 n k)
      = Cert.Spec.G (m (a0Loc d)) (m (a1Loc d)) (ix2 n k) := by
  rw [arrAt_out]
  unfold updateSlice
  by_cases hn : n.val < 96000
  · rw [dif_neg (fun h => by have := (h (0 : Fin 2)).1; revert this; show ¬ (96000 ≤ n.val); omega)]
    show (if n.val < 96000 then Gtc (m (a0Loc d)) tt (ix2 n k) else f0 (ix2 n k)) = _
    rw [if_pos hn]
    exact Gtc_eq_G m d tt htt hx ht n k
  · have hn' : 96000 ≤ n.val := Nat.le_of_not_lt hn
    rw [dif_pos (fun a => by
      match a with
      | ⟨0, _⟩ => exact ⟨hn', show n.val < 96000 + 4000 by omega⟩
      | ⟨1, _⟩ => exact ⟨Nat.zero_le _, show k.val < 0 + 128 by omega⟩)]
    have hj : (n.val - 96000) * 128 + k.val < 512000 := by omega
    rw [shapeCast_apply _ shapeCasts_S512000_S4000x128 _ (ix1 (⟨(n.val - 96000) * 128 + k.val, hj⟩ : Fin 512000)) (by
      rw [Shape.rowMajor_val_one, Shape.rowMajor_val_two]
      show (n.val - 96000) * 128 + k.val = (n.val - 96000) * 128 + (k.val - 0)
      omega)]
    have h := h70 (ix1 (⟨(n.val - 96000) * 128 + k.val, hj⟩ : Fin 512000))
    unfold PhiG at h
    rw [h]
    have e0 : 96000 + ((n.val - 96000) * 128 + k.val) / 128 = n.val := by omega
    have e1 : ((n.val - 96000) * 128 + k.val) % 128 = k.val := by omega
    exact G_congr _ _ (Fin.ext e0) (Fin.ext e1)

/-- The result array's location on device `d`. -/
abbrev resLoc (d : Dev nD) : Loc nD τ sig := (SparseCore.T d).loc main_v74

/-- The same as an equation of buffers at the result array's location. -/
theorem result_eq_G (d : Dev nD)
    (tt : Buf (Elt Ideal) ((d.tc : Thread nD τ).loc main_v71)) (f0 : Buf (Elt Ideal) ((d.tc : Thread nD τ).loc main_v72))
    (f70 : Buf (Elt Ideal) (outLoc d))
    (htt : ∀ (r : Fin 2) (f : Fin 56) (k : Fin 128), tt (ix3 r f k) = m (a1Loc d) (ix3 f r k))
    (h70 : ∀ j, PhiG m d j (f70 j))
    (hx : Cert.Spec.Bin (m (a0Loc d))) (ht : Cert.Spec.Finite (m (a1Loc d)))
    (O : CellTallies nD τ sig (HIx 1)) (B : Set (SemLoc sig × HIx 1)) :
    (updateSlice ((dats (Name := ℕ) (U := UU) d (m (a0Loc d)) tt f0 O B).arrAt 2 cfg1.N)
        (shapeCast S4000x128 f70 shapeCasts_S512000_S4000x128) ![96000, 0] slices_upd
      : Buf (Elt Ideal) (resLoc d))
      = Cert.Spec.G (m (a0Loc d)) (m (a1Loc d)) := by
  funext i
  have hi : (i : S100000x128.Idx) = ix2 (i 0 : Fin 100000) (i 1 : Fin 128) := eq_ix2 (n0 := 100000) (n1 := 128) i
  rw [hi]
  exact result_apply m d tt f0 f70 htt h70 hx ht O B _ _

/-- The same over the region's proof data as the region's step states it (families over the devices), at a device
    whose index matrix is the launch memory's and whose `tt` is the launch table with its first two axes exchanged. -/
theorem result_eq_G_pdats
    (x : (c : Dev nD) → Buf (Elt Ideal) ((c.tc : Thread nD τ).loc main_arg0))
    (tt : (c : Dev nD) → Buf (Elt Ideal) ((c.tc : Thread nD τ).loc main_v71))
    (f0 : (c : Dev nD) → Buf (Elt Ideal) ((c.tc : Thread nD τ).loc main_v72))
    (O : Dev nD → CellTallies nD τ sig (HIx 1)) (B : Dev nD → Set (SemLoc sig × HIx 1))
    (d : Dev nD) (f70 : Buf (Elt Ideal) (outLoc d))
    (hxd : x d = m (a0Loc d))
    (htt : ∀ (r : Fin 2) (f : Fin 56) (k : Fin 128), tt d (ix3 r f k) = m (a1Loc d) (ix3 f r k))
    (h70 : ∀ j, PhiG m d j (f70 j))
    (hx : Cert.Spec.Bin (m (a0Loc d))) (ht : Cert.Spec.Finite (m (a1Loc d))) :
    (updateSlice ((pdats (F := Ideal) x tt f0 O B 0 d).arrAt 2 cfg1.N)
        (shapeCast S4000x128 f70 shapeCasts_S512000_S4000x128) ![96000, 0] slices_upd
      : Buf (Elt Ideal) (resLoc d))
      = Cert.Spec.G (m (a0Loc d)) (m (a1Loc d)) := by
  show (updateSlice ((dats (Name := ℕ) (U := UU) d (x d) (tt d) (f0 d) (O d) (B d)).arrAt 2 cfg1.N)
        (shapeCast S4000x128 f70 shapeCasts_S512000_S4000x128) ![96000, 0] slices_upd
      : Buf (Elt Ideal) (resLoc d)) = _
  rw [hxd]
  exact result_eq_G m d (tt d) (f0 d) f70 htt h70 hx ht (O d) (B d)

end Cert.Proof.KI

end
-- ==== Proof.Algebraic.lean ====
/-
  The two programs compute one function.

  At the ideal instance both results are the specification's function of the two arguments: entry `(n, d)` is the sum
  over the 56 features of the table entry the index matrix selects. The reference computes exactly that sum. The
  kernel program computes rows below 96000 as a linear form — the sum of the features' row-0 entries plus, per
  feature, the entry (read as a number) times the difference of the two rows —, which for an entry that is zero or one
  and real table entries is the selected entry's sum (distributivity and cancellation hold at real numbers); and rows
  from 96000 on through a table grouped four features at a time, an associativity of the same sum. The precondition
  supplies both needs: zero-or-one entries and real table entries.
-/
import proofs.«203024_g60129542144782_cont_9to1_m_748_22_alg».proof.Proof.LaunchRun
import proofs.«203024_g60129542144782_cont_9to1_m_748_22_alg».proof.Proof.ResultSpec
import proofs.«203024_g60129542144782_cont_9to1_m_748_22_alg».proof.Proof.RefValue
import proofs.«203024_g60129542144782_cont_9to1_m_748_22_alg».proof.Proof.PreFacts
import proofs.«203024_g60129542144782_cont_9to1_m_748_22_alg».proof.Proof.Gen.Pre_input_domain

noncomputable section

namespace Cert.Proof.KI

open Cert.KernelIdeal Cert.KernelIdeal.Gen

open Idealize.ShloMosaic Idealize.ShloMosaic.ValueIdx
open Idealize.ShloMosaic.SparseCore (S V T)
open Idealize.SL.Sem

/-- The transposed table the region reads, at an index: the table with its first two coordinates exchanged. -/
theorem ttR_apply (m : (ℓ : Loc nD τ sig) → Buf (Elt Ideal) ℓ) (d : Dev nD) (r : Fin 2) (f : Fin 56) (k : Fin 128) :
    ttR m d (ix3 r f k) = m (a1Loc d) (ix3 f r k) := by
  unfold ttR
  exact transpose_apply _ _ transposes_S56x2x128_S2x56x128_1_0_2 (ix3 r f k) (ix3 f r k)
    (fun b => by match b with | ⟨0, _⟩ => rfl | ⟨1, _⟩ => rfl | ⟨2, _⟩ => rfl)

/-- **The kernel program's result is the specification's function**, given that each tile task leaves the
    specification's values in its entries of the lookup call's result. -/
theorem run_value (m : (ℓ : Loc nD τ sig) → Buf (Elt Ideal) ℓ) (ρ : Dev nD → PrngReg) (hpre : Cert.Pre_KernelIdeal m)
    (hTile : (K (F := Ideal)).TileObl (D (F := Ideal)) 𝒱 (P m (PhiG m)) v₀ 0) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v74)
        = Cert.Spec.G (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run (Cert.KernelIdeal.defs (F := Ideal)) _ _).mono (fun _ h c => by
      obtain ⟨h0, h1, g, hg, e⟩ := h c
      refine ⟨?_, h0, h1⟩
      rw [e]
      exact result_eq_G_pdats m (xR m) (ttR m) (f0R m) OR (BR (F := Ideal)) c g rfl (ttR_apply m c) hg
        (Cert.PreFacts.bin_of_pre _ _ (hpre c)) (Cert.PreFacts.finite_of_pre _ _ (hpre c)))
    (run_main m ρ (PhiG m) hTile)

/-- **The algebraic claim**, given the tile's obligation with the specification's values: from memories agreeing on
    the arguments both programs run, end with equal results — the specification's function of the arguments —, and
    leave the arguments unchanged. -/
theorem algebraic_of_tile
    (hTileVal : ∀ (m : (ℓ : Loc nD τ sig) → Buf (Elt Ideal) ℓ), Cert.Pre_KernelIdeal m →
      (K (F := Ideal)).TileObl (D (F := Ideal)) 𝒱 (P m (PhiG m)) v₀ 0) :
    Cert.algebraic_KernelIdeal_ReferenceIdeal :=
  fun m ρ m' ρ' hpre hagree =>
    ⟨fun c => Cert.Spec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      run_value m ρ hpre (hTileVal m hpre),
      (θ_run Cert.ReferenceIdeal.defs _ _).mono
        (fun _ hr c => ⟨by rw [(hr c).1, (hagree c).1, (hagree c).2], (hr c).2⟩)
        (Cert.RefValue.run_ref m' ρ' (fun c => by rw [(hagree c).1]; exact Cert.PreFacts.bin_of_pre _ _ (hpre c)))⟩

end Cert.Proof.KI

end
-- ==== Proof.TileBodyVal.lean ====
/-
  A tile task whole, with the value of what it writes: the copy of the grouped table makes the tile's scratch read
  as the grouped table; each micro-batch then leaves, at every place of its window in the flat result, the
  specification's function at row `96000 + j / 128`, column `j % 128`; after the last micro-batch every window of the
  tile holds it.
-/
import proofs.«203024_g60129542144782_cont_9to1_m_748_22_alg».proof.Proof.TileBody
import proofs.«203024_g60129542144782_cont_9to1_m_748_22_alg».proof.Proof.ResultSpec

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

local notation "𝕄" => MT nD τ sig (HIx 1) (Elt Ideal) ℕ UU ℕ

variable (m : (ℓ : Loc nD τ sig) → Buf (Elt Ideal) ℓ)

section Tile

variable (d : Dev nD) (L : grid0.Coords)

/-- The specification's value on a set of places of the flat result: place `j` holds the specification's function at row
    `96000 + j / 128`, column `j % 128`. -/
abbrev SliceOK (Kt : Finset S512000.Idx) (fo : Buf (Elt Ideal) (outLoc d)) : Prop :=
  ∀ j ∈ Kt, fo j = Cert.Spec.G (m (a0Loc d)) (m (a1Loc d))
    (ix2 (⟨96000 + (j 0).val / 128, by have := (j 0).isLt; have : S512000.size 0 = 512000 := rfl; omega⟩ : Fin 100000)
      (⟨(j 0).val % 128, Nat.mod_lt _ (by decide)⟩ : Fin 128))

/-- It is the per-entry fact of the call's payload on that set. -/
theorem sliceOK_iff (Kt : Finset S512000.Idx) (fo : Buf (Elt Ideal) (outLoc d)) :
    SliceOK m d Kt fo ↔ OutOK (PhiG m) d Kt fo := Iff.rfl

/-- Lane `l` of the lane-number vector is the word `l`. -/
theorem iota_lane (l : Fin 16) :
    (iota .scVector S16 32 [0] iota_S16_d0_w32_scVector : IVec S16 32) (ix1 l) = BitVec.ofNat 32 l.val := by
  show BitVec.ofNat 32 (0 * 16 + l.val) = _
  rw [Nat.zero_mul, Nat.zero_add]

/-- THE MICRO-BATCH WITH ITS VALUE, as the tile's loop uses it: with the flattened index rows those of an index matrix
    of zeros and ones, the lane-number vector `v2` holding the lane numbers and the tile's scratch reading as the grouped
    table, a micro-batch runs from what the loop holds to the same, its window now holding the specification's value. -/
def ChunkVal : Prop :=
  ∀ (d : Dev nD) (i : grid0.Coords) (v1 : BitVec 32) (v2 : IVec S16 32) (t : Fin (k0_t1_loop i).trips)
    (O : CellTallies nD τ sig (HIx 1)) (W : Waits sig (HIx 1)) (qx : PosShare TreeShare)
    (g7 : Buf (Elt Ideal) (tbufM.view.loc (V d (cV i) (jV i)))) (fo : Buf (Elt Ideal) (outLoc d)),
    Cert.Spec.Bin (m (a0Loc d)) →
    (∀ l : Fin 16, v2 (ix1 l) = BitVec.ofNat 32 l.val) →
    tbufM.view.read (Elt Ideal) g7 = Cert.GroupedTable.gtTerm (F := Ideal) (m (a1Loc d)) →
    iprop(Transfers.MayWaits (V d (cV i) (jV i)) (none : HIx 1) O
        ∗ (xsM.view.loc (V d (cV i) (jV i)) ↦{qx} Xv m d)
        ∗ (tbufM.view.loc (V d (cV i) (jV i)) ↦{fullShare} g7)
        ∗ (∃ f5, xbufM.view.loc (V d (cV i) (jV i)) ↦{fullShare} f5)
        ∗ (∃ f6, obufM.view.loc (V d (cV i) (jV i)) ↦{fullShare} f6)
        ∗ ((outSl i t).view.loc (V d (cV i) (jV i)) ↦[(outSl i t).view.set]{fullShare} fo)
        ∗ semVal (s1cell d (cV i) (jV i)) 0
        ∗ semVal (s2cell d (cV i) (jV i)) 0
        ∗ ∃ W', ⌜∀ p ∈ W', p ∈ W ∨ p.2 = none⌝ ∗ owes (V d (cV i) (jV i)) O W' : sProp 𝕄)
      ⊢ wp frame (wpE (defs₀ (F := Ideal)) 𝒱₀ (V d (cV i) (jV i)) none) Set.univ
          (k0_part51 i xsM (Memref.isWhole_whole _) gtM (Memref.isWhole_whole _) outM (Memref.isWhole_whole _) xbufM (Memref.isWhole_whole _) obufM (Memref.isWhole_whole _) tbufM (Memref.isWhole_whole _) cc0_scoped0 cc0_scoped1 cc0_scoped2 cc0_scoped3 cc0_scoped4 v1 v2 k0_pay1 k0_pay2 0#32 1#32 t)
          fun _ => iprop((xsM.view.loc (V d (cV i) (jV i)) ↦{qx} Xv m d)
            ∗ (tbufM.view.loc (V d (cV i) (jV i)) ↦{fullShare} g7)
            ∗ (∃ f5, xbufM.view.loc (V d (cV i) (jV i)) ↦{fullShare} f5)
            ∗ (∃ f6, obufM.view.loc (V d (cV i) (jV i)) ↦{fullShare} f6)
            ∗ (∃ fo' : Buf (Elt Ideal) (outLoc d), ((outSl i t).view.loc (V d (cV i) (jV i)) ↦[(outSl i t).view.set]{fullShare} fo')
                ∗ ⌜∀ j : S512000.Idx, j ∈ (outSl i t).view.set → fo' j = Cert.Spec.G (m (a0Loc d)) (m (a1Loc d))
                    (ix2 (⟨96000 + (j 0).val / 128, by have := (j 0).isLt; have : S512000.size 0 = 512000 := rfl; omega⟩ : Fin 100000)
                      (⟨(j 0).val % 128, Nat.mod_lt _ (by decide)⟩ : Fin 128))⌝)
            ∗ semVal (s1cell d (cV i) (jV i)) 0
            ∗ semVal (s2cell d (cV i) (jV i)) 0
            ∗ ∃ W', ⌜∀ p ∈ W', p ∈ W ∨ p.2 = none⌝ ∗ owes (V d (cV i) (jV i)) O W')

/-- What the loop over a tile's micro-batches keeps: the tile's scratch reading as the grouped table, and on the
    windows of the trips already made the specification's value. -/
def invTV (O : CellTallies nD τ sig (HIx 1)) (W : Waits sig (HIx 1)) (qx : PosShare TreeShare)
    (g7 : Buf (Elt Ideal) (tbufM.view.loc (V d (cV L) (jV L)))) (n : Nat) (_ : PUnit) : sProp 𝕄 :=
  iprop(Transfers.MayWaits (V d (cV L) (jV L)) (none : HIx 1) O
    ∗ (xsM.view.loc (V d (cV L) (jV L)) ↦{qx} Xv m d)
    ∗ (tbufM.view.loc (V d (cV L) (jV L)) ↦{fullShare} g7)
    ∗ (∃ f5, xbufM.view.loc (V d (cV L) (jV L)) ↦{fullShare} f5)
    ∗ (∃ f6, obufM.view.loc (V d (cV L) (jV L)) ↦{fullShare} f6)
    ∗ (bigSep Finset.univ fun t : Fin (k0_t1_loop L).trips => iprop(∃ f : Buf (Elt Ideal) (outLoc d),
        ((outSl L t).view.loc (V d (cV L) (jV L)) ↦[(outSl L t).view.set]{fullShare} f)
          ∗ ⌜t.val < n → SliceOK m d (outSl L t).view.set f⌝))
    ∗ semVal (s1cell d (cV L) (jV L)) 0
    ∗ semVal (s2cell d (cV L) (jV L)) 0
    ∗ ∃ W', ⌜∀ p ∈ W', p ∈ W ∨ p.2 = none⌝ ∗ owes (V d (cV L) (jV L)) O W')

/-- One micro-batch keeps what the loop keeps, its own window now at the specification's value. -/
theorem chunk_step_val (hchunk : ChunkVal m) (O : CellTallies nD τ sig (HIx 1)) (W : Waits sig (HIx 1)) (qx : PosShare TreeShare)
    (g7 : Buf (Elt Ideal) (tbufM.view.loc (V d (cV L) (jV L))))
    (hx : Cert.Spec.Bin (m (a0Loc d)))
    (hg7 : tbufM.view.read (Elt Ideal) g7 = Cert.GroupedTable.gtTerm (F := Ideal) (m (a1Loc d)))
    (v1 : BitVec 32) (v2 : IVec S16 32) (hv2 : ∀ l : Fin 16, v2 (ix1 l) = BitVec.ofNat 32 l.val) (t : Fin (k0_t1_loop L).trips) :
    (invTV m d L O W qx g7 t.val () : sProp 𝕄)
      ⊢ wp frame (wpE (defs₀ (F := Ideal)) 𝒱₀ (V d (cV L) (jV L)) none) Set.univ
          (k0_t1_body L xsM (Memref.isWhole_whole _) gtM (Memref.isWhole_whole _) outM (Memref.isWhole_whole _) xbufM (Memref.isWhole_whole _) obufM (Memref.isWhole_whole _) tbufM (Memref.isWhole_whole _) cc0_scoped0 cc0_scoped1 cc0_scoped2 cc0_scoped3 cc0_scoped4 v1 v2 t ())
          fun r => invTV m d L O W qx g7 (t.val + 1) r := by
  have hmono : (bigSep (Finset.univ.erase t) fun t' : Fin (k0_t1_loop L).trips => (iprop(∃ f : Buf (Elt Ideal) (outLoc d),
          ((outSl L t').view.loc (V d (cV L) (jV L)) ↦[(outSl L t').view.set]{fullShare} f)
            ∗ ⌜t'.val < t.val → SliceOK m d (outSl L t').view.set f⌝) : sProp 𝕄))
      ⊢ bigSep (Finset.univ.erase t) fun t' : Fin (k0_t1_loop L).trips => (iprop(∃ f : Buf (Elt Ideal) (outLoc d),
          ((outSl L t').view.loc (V d (cV L) (jV L)) ↦[(outSl L t').view.set]{fullShare} f)
            ∗ ⌜t'.val < t.val + 1 → SliceOK m d (outSl L t').view.set f⌝) : sProp 𝕄) :=
    bigSep_mono fun t' ht' => by
      show (iprop(∃ f : Buf (Elt Ideal) (outLoc d),
          ((outSl L t').view.loc (V d (cV L) (jV L)) ↦[(outSl L t').view.set]{fullShare} f)
            ∗ ⌜t'.val < t.val → SliceOK m d (outSl L t').view.set f⌝) : sProp 𝕄)
        ⊢ iprop(∃ f : Buf (Elt Ideal) (outLoc d),
          ((outSl L t').view.loc (V d (cV L) (jV L)) ↦[(outSl L t').view.set]{fullShare} f)
            ∗ ⌜t'.val < t.val + 1 → SliceOK m d (outSl L t').view.set f⌝)
      iintro ⟨%f, Hf, %hf⟩
      iexists f
      isplitl [Hf]; · iexact Hf
      ipureintro
      intro hlt
      exact hf (lt_of_le_of_ne (Nat.lt_succ_iff.mp hlt) (fun e => (Finset.mem_erase.mp ht').1 (Fin.ext e)))
  unfold invTV k0_t1_body
  iintro ⟨#Hmw, Hx, H7, H5, H6, Ho, Hs1, Hs2, HO⟩
  ihave Ho' := (Entails.of_eq (SparseCore.bigSep_erase' (Finset.mem_univ t))) $$ Ho
  icases Ho' with ⟨⟨%fo, Hot, -⟩, Hor⟩
  rw [wp_bind]
  ihave Hc := (hchunk d L v1 v2 t O W qx g7 fo hx hv2 hg7) $$ [Hx H7 H5 H6 Hot Hs1 Hs2 HO]
  · isplitr; · iexact Hmw
    isplitl [Hx]; · iexact Hx
    isplitl [H7]; · iexact H7
    isplitl [H5]; · iexact H5
    isplitl [H6]; · iexact H6
    isplitl [Hot]; · iexact Hot
    isplitl [Hs1]; · iexact Hs1
    isplitl [Hs2]; · iexact Hs2
    iexact HO
  iapply (wp_wand frame _ _) $$ Hc
  iintro %_ ⟨Hx, H7, H5, H6, ⟨%fo', Hot, %hfo'⟩, Hs1, Hs2, HO⟩
  sl_step
  isplitr; · iexact Hmw
  isplitl [Hx]; · iexact Hx
  isplitl [H7]; · iexact H7
  isplitl [H5]; · iexact H5
  isplitl [H6]; · iexact H6
  isplitl [Hot Hor]
  · iapply (Entails.of_eq (SparseCore.bigSep_erase' (Finset.mem_univ t)).symm)
    isplitl [Hot]
    · iexists fo'
      isplitl [Hot]; · iexact Hot
      ipureintro; exact fun _ => hfo'
    · iapply hmono; iexact Hor
  isplitl [Hs1]; · iexact Hs1
  isplitl [Hs2]; · iexact Hs2
  iexact HO

set_option maxHeartbeats 4000000 in
set_option maxRecDepth 65536 in
theorem tile_body_val (hchunk : ChunkVal m) (hF : (K (F := Ideal)).Facts) (O : CellTallies nD τ sig (HIx 1)) (W : Waits sig (HIx 1)) (hO : ∀ g, O g none = 0)
    (qx qg : PosShare TreeShare) (hx : Cert.Spec.Bin (m (a0Loc d))) :
    iprop(levAts (K (F := Ideal)).L (K (F := Ideal)).lev ∗ emp
        ∗ ((xsM.view.loc (V d (cV L) (jV L)) ↦{qx} Xv m d) ∗ (gtM.view.loc (V d (cV L) (jV L)) ↦{qg} Gv m d)
            ∗ bigSep Finset.univ fun t : Fin (k0_t1_loop L).trips => iprop(∃ f, (outSl L t).view.loc (V d (cV L) (jV L)) ↦[(outSl L t).view.set]{fullShare} f))
        ∗ scopedBufs (V d (cV L) (jV L)) ∗ scopedSems0 (V d (cV L) (jV L)) ∗ owes (V d (cV L) (jV L)) O W : sProp 𝕄)
      ⊢ wp frame (wpE (defs₀ (F := Ideal)) 𝒱₀ (V d (cV L) (jV L)) none) Set.univ
          (cc0__sc_body L xsM (Memref.isWhole_whole _) gtM (Memref.isWhole_whole _) outM (Memref.isWhole_whole _)
            xbufM (Memref.isWhole_whole _) obufM (Memref.isWhole_whole _) tbufM (Memref.isWhole_whole _)
            cc0_scoped0 cc0_scoped1 cc0_scoped2 cc0_scoped3 cc0_scoped4)
          fun _ => iprop(((xsM.view.loc (V d (cV L) (jV L)) ↦{qx} Xv m d) ∗ (gtM.view.loc (V d (cV L) (jV L)) ↦{qg} Gv m d)
              ∗ bigSep Finset.univ fun t : Fin (k0_t1_loop L).trips => iprop(∃ f : Buf (Elt Ideal) (outLoc d),
                  ((outSl L t).view.loc (V d (cV L) (jV L)) ↦[(outSl L t).view.set]{fullShare} f) ∗ ⌜SliceOK m d (outSl L t).view.set f⌝))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_body_eq_skeleton]; unfold cc0__sc_body_skel
  rw [(K (F := Ideal)).scopedBufs_V hF d (cV L) (jV L), SparseCore.Cfg.scopedSems0_V (Val := Elt Ideal) d (cV L) (jV L), ownSems0_V, ownBufs_V]
  iintro ⟨#Hlv, -, ⟨Hx, Hg, Ho⟩, ⟨⟨%f5, H5⟩, ⟨%f6, H6⟩, ⟨%f7, H7⟩, Hbufs⟩, ⟨Hs0, Hs1, Hs2, Hsems⟩, HO⟩
  ihave Hmw := ((K (F := Ideal)).mayWaits_none (thr := (V d (cV L) (jV L))) hO) $$ Hlv
  ihave H5' := (Entails.of_eq (pts_xbuf (F := Ideal) d L f5).symm) $$ H5
  ihave H6' := (Entails.of_eq (pts_obuf (F := Ideal) d L f6).symm) $$ H6
  ihave H7' := (Entails.of_eq (pts_tbuf (F := Ideal) d L f7).symm) $$ H7
  sl_exec
  have hg7 : tbufM.view.read (Elt Ideal) (View.write (Elt Ideal) tbufM.view f7 (tile_body_val.sl.dma0 m d) Finset.univ)
      = Cert.GroupedTable.gtTerm (F := Ideal) (m (a1Loc d)) := by
    rw [View.read_write_univ]
    unfold tile_body_val.sl.dma0
    rfl
  generalize View.write (Elt Ideal) tbufM.view f7 (tile_body_val.sl.dma0 m d) Finset.univ = g7 at hg7 ⊢
  have hstart : (bigSep Finset.univ fun t : Fin (k0_t1_loop L).trips => (iprop(∃ f, (outSl L t).view.loc (V d (cV L) (jV L)) ↦[(outSl L t).view.set]{fullShare} f) : sProp 𝕄))
      ⊢ bigSep Finset.univ fun t : Fin (k0_t1_loop L).trips => (iprop(∃ f : Buf (Elt Ideal) (outLoc d),
          ((outSl L t).view.loc (V d (cV L) (jV L)) ↦[(outSl L t).view.set]{fullShare} f)
            ∗ ⌜t.val < 0 → SliceOK m d (outSl L t).view.set f⌝) : sProp 𝕄) :=
    bigSep_mono fun t _ => by
      show (iprop(∃ f : Buf (Elt Ideal) (outLoc d), (outSl L t).view.loc (V d (cV L) (jV L)) ↦[(outSl L t).view.set]{fullShare} f) : sProp 𝕄)
        ⊢ iprop(∃ f : Buf (Elt Ideal) (outLoc d),
          ((outSl L t).view.loc (V d (cV L) (jV L)) ↦[(outSl L t).view.set]{fullShare} f)
            ∗ ⌜t.val < 0 → SliceOK m d (outSl L t).view.set f⌝)
      iintro ⟨%f, Hf⟩
      iexists f
      isplitl [Hf]; · iexact Hf
      ipureintro; exact fun h => absurd h (Nat.not_lt_zero _)
  have hend : ∀ n, (k0_t1_loop L).trips ≤ n →
      (bigSep Finset.univ fun t : Fin (k0_t1_loop L).trips => (iprop(∃ f : Buf (Elt Ideal) (outLoc d),
          ((outSl L t).view.loc (V d (cV L) (jV L)) ↦[(outSl L t).view.set]{fullShare} f)
            ∗ ⌜t.val < n → SliceOK m d (outSl L t).view.set f⌝) : sProp 𝕄))
      ⊢ bigSep Finset.univ fun t : Fin (k0_t1_loop L).trips => (iprop(∃ f : Buf (Elt Ideal) (outLoc d),
          ((outSl L t).view.loc (V d (cV L) (jV L)) ↦[(outSl L t).view.set]{fullShare} f) ∗ ⌜SliceOK m d (outSl L t).view.set f⌝) : sProp 𝕄) :=
    fun n hn => bigSep_mono fun t _ => by
      show (iprop(∃ f : Buf (Elt Ideal) (outLoc d),
          ((outSl L t).view.loc (V d (cV L) (jV L)) ↦[(outSl L t).view.set]{fullShare} f)
            ∗ ⌜t.val < n → SliceOK m d (outSl L t).view.set f⌝) : sProp 𝕄)
        ⊢ iprop(∃ f : Buf (Elt Ideal) (outLoc d),
          ((outSl L t).view.loc (V d (cV L) (jV L)) ↦[(outSl L t).view.set]{fullShare} f) ∗ ⌜SliceOK m d (outSl L t).view.set f⌝)
      iintro ⟨%f, Hf, %hf⟩
      iexists f
      isplitl [Hf]; · iexact Hf
      ipureintro; exact hf (lt_of_lt_of_le t.isLt hn)
  sl_for (invTV m d L O W qx g7) $$ [Hmw Hx H7' H5' H6' Ho Hs1 Hs2 HO]
  case region =>
    intro t _
    exact chunk_step_val m d L hchunk O W qx g7 hx hg7 _ _ (fun l => by unfold tile_body_val.sl.v2; exact iota_lane l) t
  · unfold invTV
    isplitl [Hmw]; · iexact Hmw
    isplitl [Hx]; · iexact Hx
    isplitl [H7']; · iexact H7'
    isplitl [H5']; · iexists _; iexact H5'
    isplitl [H6']; · iexists _; iexact H6'
    isplitl [Ho]; · iapply hstart; iexact Ho
    isplitl [Hs1]; · iexact Hs1
    isplitl [Hs2]; · iexact Hs2
    iexists (insert (SemLoc.dma cc0_scoped0.sem, (default : HIx 1)) W); isplitr
    · ipureintro; intro p hp
      rcases Finset.mem_insert.mp hp with hp | hp
      · exact .inr (by subst hp; rfl)
      · exact .inl hp
    · iexact HO
  iintro %_ HI
  unfold invTV
  icases HI with ⟨-, Hx, H7, ⟨%f5', H5⟩, ⟨%f6', H6⟩, Ho, Hs1, Hs2, %W', %hW', HO⟩
  unfold tile_body_val.sl.prog.cont_1
  sl_for0 (Nat.le_zero.mp (k0_t7_abs L).2.1)
  unfold tile_body_val.sl.prog.cont_2
  sl_step
  isplitl [Hx Hg Ho]
  · isplitl [Hx]; · iexact Hx
    isplitl [Hg]; · iexact Hg
    iapply (hend _ (le_refl _)); iexact Ho
  isplitl [H5 H6 H7 Hbufs]
  · isplitl [H5]; · iexists _; iexact H5
    isplitl [H6]; · iexists _; iexact H6
    isplitl [H7]; · iexists _; iexact H7
    iexact Hbufs
  isplitl [Hs0 Hs1 Hs2 Hsems]
  · isplitl [Hs0]; · iexact Hs0
    isplitl [Hs1]; · iexact Hs1
    isplitl [Hs2]; · iexact Hs2
    iexact Hsems
  iexists W'; isplitr
  · ipureintro; exact hW'
  · iexact HO

end Tile

end Cert.Proof.KI

end
-- ==== Proof.TileOblVal.lean ====
/-
  The tile tasks' obligation of the launch with the value of the result: every tile's task, from its part of the call,
  runs to its end and hands back its places of the flat result each holding the specification's function at row
  `96000 + j / 128`, column `j % 128`.
-/
import proofs.«203024_g60129542144782_cont_9to1_m_748_22_alg».proof.Proof.TileObl
import proofs.«203024_g60129542144782_cont_9to1_m_748_22_alg».proof.Proof.TileBodyVal
import proofs.«203024_g60129542144782_cont_9to1_m_748_22_alg».proof.Proof.LaunchSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Ideal) ℕ UU ℕ

variable (m : (ℓ : Loc nD τ sig) → Buf (Elt Ideal) ℓ)

/-- The trips' windows, each at the specification's value, are the tile's places of the flat result at ONE array with
    the per-entry fact on all of them. -/
theorem windows_join_val (d : Dev nD) (c : Fin 2) (s : Fin 16) :
    (bigSep Finset.univ fun t : Fin (k0_t1_loop (coordsV c s)).trips => (iprop(∃ f : Buf (Elt Ideal) (outLoc d),
        ((outSl (coordsV c s) t).view.loc (V d (cV (coordsV c s)) (jV (coordsV c s))) ↦[(outSl (coordsV c s) t).view.set]{fullShare} f)
          ∗ ⌜SliceOK m d (outSl (coordsV c s) t).view.set f⌝) : sProp 𝕄))
      ⊢ (iprop(∃ g, (outLoc d ↦[tileSet c s]{fullShare} g) ∗ ⌜OutOK (PhiG m) d (tileSet c s) g⌝) : sProp 𝕄) := by
  have h := outPieces_join (F := Ideal) (PhiG m) d (Finset.univ : Finset (Fin (k0_t1_loop (coordsV c s)).trips))
    (fun t => (outSl (coordsV c s) t).view.set) (outSl_disjoint (coordsV c s))
  rw [outSl_cover] at h
  exact h

/-- What a tile's task ends with is what the call takes back from it. -/
theorem task_to_td_val (d : Dev nD) (c : Fin 2) (s : Fin 16) :
    iprop((xsM.view.loc (V d (cV (coordsV c s)) (jV (coordsV c s))) ↦{qT c s} Xv m d)
          ∗ (gtM.view.loc (V d (cV (coordsV c s)) (jV (coordsV c s))) ↦{qT c s} Gv m d)
          ∗ bigSep Finset.univ fun t : Fin (k0_t1_loop (coordsV c s)).trips => iprop(∃ f : Buf (Elt Ideal) (outLoc d),
              ((outSl (coordsV c s) t).view.loc (V d (cV (coordsV c s)) (jV (coordsV c s))) ↦[(outSl (coordsV c s) t).view.set]{fullShare} f)
                ∗ ⌜SliceOK m d (outSl (coordsV c s) t).view.set f⌝))
      ⊢ (backTile m (PhiG m) d c s : sProp 𝕄) := by
  unfold backTile
  iintro ⟨Hx, Hg, Ho⟩
  isplitl [Hx]; · iexact Hx
  isplitl [Hg]; · iexact Hg
  iapply (windows_join_val m d c s); iexact Ho

set_option maxRecDepth 65536 in
/-- The obligation at the one call, with the specification's value on what comes back. -/
theorem tileObl_val (hchunk : ChunkVal m) (hF : (K (F := Ideal)).Facts) (hpre : ∀ d, Cert.Spec.Bin (m (a0Loc d))) :
    (K (F := Ideal)).TileObl (D (F := Ideal)) 𝒱 (P m (PhiG m)) v₀ 0 := by
  intro d c i O W hO _ _
  simp only [show (P m (PhiG m)).ox = fun _ _ => 0 from rfl, add_zero]
  change _ ⊢ wp _ _ _ (Pipeline.liftProg (defs₀ (F := Ideal) (.scVector ((K (F := Ideal)).core 0 c) ((K (F := Ideal)).sub 0 i)) 0 ())) _
  refine BI.Entails.trans ?_ (Pipeline.wp_liftProg (D (F := Ideal)) (Pipeline.defs_kernel pcfgs defs₀) 𝒱₀ _ Set.univ none _ _)
  have hc : ((K (F := Ideal)).core 0 c).val < grid0.bound 0 ∧ ((K (F := Ideal)).sub 0 i).val < grid0.bound 1 := ⟨c.isLt, i.isLt⟩
  rw [defs₀_vector]; simp only [SparseCore.onTile, hc, and_self, ↓reduceDIte]
  have hgo : (P m (PhiG m)).go 0 d c i = forTile m d ⟨_, hc.1⟩ ⟨_, hc.2⟩ := rfl
  have htd : (P m (PhiG m)).td 0 d c i = backTile m (PhiG m) d ⟨_, hc.1⟩ ⟨_, hc.2⟩ := rfl
  rw [hgo, htd]
  exact (obl_pre (C := iprop(scopedSems0 _ ∗ owes _ O W)) (go_to_task m d ⟨_, hc.1⟩ ⟨_, hc.2⟩)).trans
    ((tile_body_val m d (coordsV ⟨_, hc.1⟩ ⟨_, hc.2⟩) hchunk hF O W hO (qT ⟨_, hc.1⟩ ⟨_, hc.2⟩) (qT ⟨_, hc.1⟩ ⟨_, hc.2⟩)
      (hpre d)).trans (wp_mono frame _ _ fun _ => (obl_back (task_to_td_val m d ⟨_, hc.1⟩ ⟨_, hc.2⟩)).trans obl_post))

end Cert.Proof.KI

end
-- ==== Proof.LibScatterRows.lean ====
/-
  An indexed store of sixteen lanes into a flat buffer, read back at an index, and the index arithmetic of a tile's
  column loop.

  * An unmasked, overwriting indexed store whose lanes name pairwise distinct elements leaves, at the element a lane
    names, that lane's value, and everywhere else what was there.
  * Trip `k` of the column loop of row group `q` names, for lane `l`, the element
    `l * 128 + ((k + l) mod 128) + 2048 q`, computed on 32-bit words: row `16 q + l`, column `(k + l) mod 128` of a block
    of rows of 128 columns. Different lanes name different rows, so the sixteen elements are distinct.
  * Over the trips `k = 0 … 127` lane `l` visits every column exactly once: column `c` at trip `(c + 128 - l) mod 128`.
-/
import proofs.«203024_g60129542144782_cont_9to1_m_748_22_alg».proof.Proof.Spec

noncomputable section

namespace Cert.ScatterRows

open Idealize.ShloMosaic

/-! ## An indexed store read back -/

section Store

variable {F : FTy → Type} [FloatOps F] {s : Shape} {e : EltTy} {d : Fin 1 → Nat}
variable (idxs : Fin s.rank → IVec ⟨1, d⟩ 32) (v : Vec F ⟨1, d⟩ e) (h : ∀ a x, (idxs a x).toNat < s.size a)

/-- One lane's overwrite: `g` with lane `k`'s value at the element lane `k` names. -/
def put1 (g : Vec F s e) (k : Fin (d 0)) : Vec F s e :=
  fun j => if (∀ a, (j a).val = ((idxAt idxs h (Shape.ofLane k)) a).val) then v (Shape.ofLane k) else g j

/-- The lanes of the list `L` written over `g`, in the list's order. -/
def storeFrom (L : List (Fin (d 0))) (g : Vec F s e) : Vec F s e := L.foldl (put1 idxs v h) g

theorem put1_hit (g : Vec F s e) (k : Fin (d 0)) : put1 idxs v h g k (idxAt idxs h (Shape.ofLane k)) = v (Shape.ofLane k) :=
  if_pos fun _ => rfl

theorem put1_miss (g : Vec F s e) (k : Fin (d 0)) (j : s.Idx) (hj : idxAt idxs h (Shape.ofLane k) ≠ j) :
    put1 idxs v h g k j = g j :=
  if_neg fun hall => hj (funext fun a => Fin.ext (hall a).symm)

/-- An element none of the listed lanes names keeps its value. -/
theorem storeFrom_miss (L : List (Fin (d 0))) (g : Vec F s e) (j : s.Idx)
    (hj : ∀ k ∈ L, idxAt idxs h (Shape.ofLane k) ≠ j) : storeFrom idxs v h L g j = g j := by
  induction L generalizing g with
  | nil => rfl
  | cons a L ih =>
    show storeFrom idxs v h L (put1 idxs v h g a) j = g j
    rw [ih _ fun k hk => hj k (List.mem_cons_of_mem _ hk), put1_miss idxs v h g a j (hj a List.mem_cons_self)]

/-- The element a listed lane names, no other listed lane naming it, holds that lane's value. -/
theorem storeFrom_hit (L : List (Fin (d 0))) (hL : L.Nodup) (g : Vec F s e) (k : Fin (d 0)) (hk : k ∈ L)
    (hinj : ∀ k' ∈ L, idxAt idxs h (Shape.ofLane k') = idxAt idxs h (Shape.ofLane k) → k' = k) :
    storeFrom idxs v h L g (idxAt idxs h (Shape.ofLane k)) = v (Shape.ofLane k) := by
  induction L generalizing g with
  | nil => exact absurd hk List.not_mem_nil
  | cons a L ih =>
    show storeFrom idxs v h L (put1 idxs v h g a) (idxAt idxs h (Shape.ofLane k)) = v (Shape.ofLane k)
    rcases List.mem_cons.1 hk with rfl | hk'
    · have hnot : k ∉ L := (List.nodup_cons.1 hL).1
      rw [storeFrom_miss idxs v h L _ _ fun k' hk' he => hnot (hinj k' (List.mem_cons_of_mem _ hk') he ▸ hk')]
      exact put1_hit idxs v h g k
    · exact ih (List.nodup_cons.1 hL).2 _ hk' fun k' hk'' => hinj k' (List.mem_cons_of_mem _ hk'')

/-- The unmasked, overwriting indexed store is the lanes written in ascending order. -/
theorem storeIdx_eq_storeFrom (f : Vec F s e) :
    storeIdx f idxs v (fun _ => 1#1) false h = storeFrom idxs v h (List.finRange (d 0)) f := by
  unfold storeIdx storeFrom
  congr 1

/-- THE STORE READ AT A NAMED ELEMENT: when the lanes name pairwise distinct elements, the element lane `k` names holds
    lane `k`'s value. -/
theorem storeIdx_hit (f : Vec F s e) (hinj : Function.Injective fun k : Fin (d 0) => idxAt idxs h (Shape.ofLane k))
    (k : Fin (d 0)) :
    storeIdx f idxs v (fun _ => 1#1) false h (idxAt idxs h (Shape.ofLane k)) = v (Shape.ofLane k) := by
  rw [storeIdx_eq_storeFrom]
  exact storeFrom_hit idxs v h _ (List.nodup_finRange _) f k (List.mem_finRange k) fun k' _ he => hinj he

/-- THE STORE READ ELSEWHERE: an element no lane names keeps its value. -/
theorem storeIdx_miss (f : Vec F s e) (j : s.Idx) (hj : ∀ k : Fin (d 0), idxAt idxs h (Shape.ofLane k) ≠ j) :
    storeIdx f idxs v (fun _ => 1#1) false h j = f j := by
  rw [storeIdx_eq_storeFrom]
  exact storeFrom_miss idxs v h _ f j fun k _ => hj k

end Store

/-! ## The words of a trip -/

/-- Masking a word with 127 is its number modulo 128. -/
theorem toNat_and127 (a : BitVec 32) : (a &&& 127#32).toNat = a.toNat % 128 := by
  rw [BitVec.toNat_and]
  exact Nat.and_two_pow_sub_one_eq_mod a.toNat 7

/-- The column lane `l` works on at trip `k`: the trip number (counted from `0` in steps of `1`) plus the lane
    number, masked to seven bits, is `(k + l) mod 128`. -/
theorem toNat_col (k l : ℕ) (hk : k < 128) (hl : l < 16) :
    (((0#32 + BitVec.ofNat 32 k * 1#32) + BitVec.ofNat 32 l) &&& 127#32).toNat = (k + l) % 128 := by
  rw [toNat_and127, BitVec.toNat_add, BitVec.toNat_add, BitVec.toNat_mul, BitVec.toNat_ofNat, BitVec.toNat_ofNat]
  simp only [BitVec.toNat_ofNat]
  omega

/-- The element lane `l` stores to at trip `k` of row group `q`: the row start `l * 128`, plus the column, plus the
    group's offset `c` (a multiple of 2048 up to 8192) — no sum wraps. -/
theorem toNat_slot (k l : ℕ) (hk : k < 128) (hl : l < 16) (c : BitVec 32) (hc : c.toNat ≤ 8192) :
    ((BitVec.ofNat 32 l * 128#32
        + (((0#32 + BitVec.ofNat 32 k * 1#32) + BitVec.ofNat 32 l) &&& 127#32)) + c).toNat
      = l * 128 + (k + l) % 128 + c.toNat := by
  have hcol := toNat_col k l hk hl
  rw [BitVec.toNat_add, BitVec.toNat_add, hcol, BitVec.toNat_mul, BitVec.toNat_ofNat]
  simp only [BitVec.toNat_ofNat]
  omega

/-- Different lanes store to different elements: their rows differ. -/
theorem slot_injective (k q : ℕ) (l l' : ℕ) (h : l * 128 + (k + l) % 128 + 2048 * q = l' * 128 + (k + l') % 128 + 2048 * q) :
    l = l' := by
  omega

/-- The element is row `16 q + l`, column `(k + l) mod 128`, of a block of rows of 128 columns. -/
theorem slot_row_col (k q l : ℕ) : l * 128 + (k + l) % 128 + 2048 * q = (16 * q + l) * 128 + (k + l) % 128 := by
  omega

/-! ## Every column once -/

/-- The trip at which lane `l` works on column `c`. -/
def tripOf (l c : ℕ) : ℕ := (c + 128 - l) % 128

theorem tripOf_lt (l c : ℕ) : tripOf l c < 128 := Nat.mod_lt _ (by decide)

/-- At that trip the lane's column is `c`. -/
theorem col_tripOf (l c : ℕ) (hl : l < 16) (hc : c < 128) : (tripOf l c + l) % 128 = c := by
  unfold tripOf; omega

/-- And at no other trip below 128. -/
theorem tripOf_unique (l c k : ℕ) (hl : l < 16) (hk : k < 128) (h : (k + l) % 128 = c) : k = tripOf l c := by
  unfold tripOf; omega

/-- The trip at which lane `l` works on the column it has at trip `k` is `k`. -/
theorem tripOf_col (l k : ℕ) (hl : l < 16) (hk : k < 128) : tripOf l ((k + l) % 128) = k := by
  unfold tripOf; omega

end Cert.ScatterRows

end
-- ==== Proof.TileLoopsVal.lean ====
/-
  The value the five column loops of a tile task leave in the block of results.

  The loop of row group `q` (`q = 0 … 4`) runs 128 trips. Trip `k` reads, for every lane `l` and each of the fourteen
  feature groups `j`, the table copy at `base j l + (k + l) mod 128`, adds the fourteen reads pairwise as a tree, and
  stores the sum at row `16 q + l`, column `(k + l) mod 128` of the block. After the 128 trips every column of the
  sixteen rows holds its tree sum, and the other rows are as they were.
-/
import proofs.«203024_g60129542144782_cont_9to1_m_748_22_alg».proof.Proof.TileTrips
import proofs.«203024_g60129542144782_cont_9to1_m_748_22_alg».proof.Proof.LibScatterRows
import Idealize.ShloMosaic.Lib.ValueIdx

noncomputable section

namespace Cert.Proof.KI

open Cert.KernelIdeal Cert.KernelIdeal.Gen
open Idealize.ShloMosaic Idealize.ShloMosaic.ValueIdx
open Cert.ScatterRows

variable {F : FTy → Type} [FloatOps F]

/-! ## The pure part -/

/-- The table copy read at a flat position (at position 0 where the position is out of range, which it never is). -/
def tblRead (X7 : Vec F S28672 .f32) (n : ℕ) : Elt F .f32 :=
  if h : n < 28672 then X7 (ix1 ⟨n, h⟩) else X7 (ix1 ⟨0, by decide⟩)

/-- Fourteen floats added pairwise as a tree: neighbours, then neighbours again with the seventh sum carried. -/
def treeF (v : Fin 14 → Elt F .f32) : Elt F .f32 :=
  FloatOps.addf
    (FloatOps.addf (FloatOps.addf (FloatOps.addf (v 0) (v 1)) (FloatOps.addf (v 2) (v 3)))
      (FloatOps.addf (FloatOps.addf (v 4) (v 5)) (FloatOps.addf (v 6) (v 7))))
    (FloatOps.addf (FloatOps.addf (FloatOps.addf (v 8) (v 9)) (FloatOps.addf (v 10) (v 11)))
      (FloatOps.addf (v 12) (v 13)))

/-- What lane `l` stores for column `c`: the tree of the fourteen reads at the groups' bases plus `c`. -/
def rowVal (X7 : Vec F S28672 .f32) (bases : Fin 14 → IVec S16 32) (l : Fin 16) (c : ℕ) : Elt F .f32 :=
  treeF fun j => tblRead X7 ((bases j (ix1 l)).toNat + c)

/-- The block after `k` trips of row group `q`'s loop, from the block `X6` before the loop: in the sixteen rows of the
    group, the columns already worked on hold their tree sums and the others are as before; the other rows are as
    before. -/
def RowsUpTo (q : ℕ) (X7 : Vec F S28672 .f32) (bases : Fin 14 → IVec S16 32) (X6 : Vec F S10240 .f32) (k : ℕ)
    (X : Vec F S10240 .f32) : Prop :=
  (∀ (l : Fin 16) (c : Fin 128) (hp : (16 * q + l.val) * 128 + c.val < 10240),
      X (ix1 ⟨(16 * q + l.val) * 128 + c.val, hp⟩)
        = if tripOf l.val c.val < k then rowVal X7 bases l c.val else X6 (ix1 ⟨(16 * q + l.val) * 128 + c.val, hp⟩))
  ∧ ∀ p : Fin 10240, (p.val / 128 < 16 * q ∨ 16 * q + 16 ≤ p.val / 128) → X (ix1 p) = X6 (ix1 p)

/-- The block after the loop of row group `q`: the sixteen rows hold the tree sums, the others are as before. -/
def RowsDone (q : ℕ) (X7 : Vec F S28672 .f32) (bases : Fin 14 → IVec S16 32) (X6 X : Vec F S10240 .f32) : Prop :=
  (∀ (l : Fin 16) (c : Fin 128) (hp : (16 * q + l.val) * 128 + c.val < 10240),
      X (ix1 ⟨(16 * q + l.val) * 128 + c.val, hp⟩) = rowVal X7 bases l c.val)
  ∧ ∀ p : Fin 10240, (p.val / 128 < 16 * q ∨ 16 * q + 16 ≤ p.val / 128) → X (ix1 p) = X6 (ix1 p)

theorem rowsUpTo_zero (q : ℕ) (X7 : Vec F S28672 .f32) (bases : Fin 14 → IVec S16 32) (X6 : Vec F S10240 .f32) :
    RowsUpTo q X7 bases X6 0 X6 :=
  ⟨fun l c hp => by rw [if_neg (Nat.not_lt_zero _)], fun _ _ => rfl⟩

theorem rowsDone_of_upTo (q : ℕ) (X7 : Vec F S28672 .f32) (bases : Fin 14 → IVec S16 32) (X6 X : Vec F S10240 .f32)
    (h : RowsUpTo q X7 bases X6 128 X) : RowsDone q X7 bases X6 X :=
  ⟨fun l c hp => by rw [h.1 l c hp, if_pos (tripOf_lt _ _)], h.2⟩

/-- A lane of a sixteen-lane vector, as the index the indexed store takes it at. -/
theorem ofLane_eq (l : Fin 16) : (Shape.ofLane (d := ![16]) l : S16.Idx) = ix1 l := by
  funext a; match a with | ⟨0, _⟩ => rfl

/-- ONE TRIP: a store of sixteen lanes, lane `l` to row `16 q + l`, column `(k + l) mod 128`, of that column's tree sum,
    takes the block after `k` trips to the block after `k + 1`. -/
theorem rows_step (q : ℕ) (hq : q ≤ 4) (X7 : Vec F S28672 .f32) (bases : Fin 14 → IVec S16 32) (X6 : Vec F S10240 .f32)
    (k : ℕ) (hk : k < 128) (X : Vec F S10240 .f32) (idxs : Fin S10240.rank → IVec S16 32) (w : Vec F S16 .f32)
    (h : ∀ a x, (idxs a x).toNat < S10240.size a)
    (hidx : ∀ l : Fin 16, (idxs 0 (ix1 l)).toNat = l.val * 128 + (k + l.val) % 128 + 2048 * q)
    (hw : ∀ l : Fin 16, w (ix1 l) = rowVal X7 bases l ((k + l.val) % 128))
    (hX : RowsUpTo q X7 bases X6 k X) :
    RowsUpTo q X7 bases X6 (k + 1) (storeIdx X idxs w (fun _ => 1#1) false h) := by
  -- the element lane `l` names
  have hat : ∀ l : Fin 16, idxAt (s := S10240) idxs h (Shape.ofLane (d := ![16]) l)
      = ix1 ⟨l.val * 128 + (k + l.val) % 128 + 2048 * q, by have := l.isLt; omega⟩ := by
    intro l
    funext a
    match a with
    | ⟨0, _⟩ => exact Fin.ext (by show (idxs 0 (Shape.ofLane (d := ![16]) l)).toNat = _; rw [ofLane_eq, hidx])
  have hinj : Function.Injective fun l : Fin 16 => idxAt (s := S10240) idxs h (Shape.ofLane (d := ![16]) l) := by
    intro l l' he
    simp only [hat] at he
    have := congrArg (fun i : S10240.Idx => (i 0).val) he
    exact Fin.ext (slot_injective k q l.val l'.val this)
  refine ⟨fun l c hp => ?_, fun p hp => ?_⟩
  · by_cases hc : c.val = (k + l.val) % 128
    · have hpos : (ix1 ⟨(16 * q + l.val) * 128 + c.val, hp⟩ : S10240.Idx)
          = idxAt (s := S10240) idxs h (Shape.ofLane (d := ![16]) l) := by
        rw [hat]; congr 1; apply Fin.ext
        show (16 * q + l.val) * 128 + c.val = l.val * 128 + (k + l.val) % 128 + 2048 * q
        omega
      have hlt : tripOf l.val c.val < k + 1 := by
        rw [hc, tripOf_col l.val k l.isLt hk]; exact Nat.lt_succ_self k
      rw [if_pos hlt, hpos]
      refine (storeIdx_hit (s := S10240) (d := ![16]) idxs w h X hinj l).trans ?_
      rw [ofLane_eq, hw, ← hc]
    · have hmiss : ∀ l' : Fin 16, idxAt (s := S10240) idxs h (Shape.ofLane (d := ![16]) l')
          ≠ ix1 ⟨(16 * q + l.val) * 128 + c.val, hp⟩ := by
        intro l' he
        rw [hat] at he
        have := congrArg (fun i : S10240.Idx => (i 0).val) he
        have h1 : l'.val * 128 + (k + l'.val) % 128 + 2048 * q = (16 * q + l.val) * 128 + c.val := this
        have hl' := l'.isLt; have hl := l.isLt; have hcl := c.isLt
        have : l'.val = l.val := by omega
        rw [this] at h1; omega
      refine (storeIdx_miss (s := S10240) (d := ![16]) idxs w h X _ hmiss).trans ?_
      rw [hX.1 l c hp]
      have hne : tripOf l.val c.val ≠ k := fun e => hc (by rw [← e, col_tripOf l.val c.val l.isLt c.isLt])
      by_cases hlt : tripOf l.val c.val < k
      · rw [if_pos hlt, if_pos (Nat.lt_succ_of_lt hlt)]
      · rw [if_neg hlt, if_neg (by omega)]
  · have hmiss : ∀ l' : Fin 16, idxAt (s := S10240) idxs h (Shape.ofLane (d := ![16]) l') ≠ ix1 p := by
      intro l' he
      rw [hat] at he
      have := congrArg (fun i : S10240.Idx => (i 0).val) he
      have h1 : l'.val * 128 + (k + l'.val) % 128 + 2048 * q = p.val := this
      have hl' := l'.isLt
      rcases hp with hp | hp <;> omega
    exact (storeIdx_miss (s := S10240) (d := ![16]) idxs w h X _ hmiss).trans (hX.2 p hp)

/-! ## Reading a buffer through its memref after a whole-buffer store -/

section WholeStore

variable {sig' : RefSig} {κ : Kind} {sp : Space} {s : Shape} {e : EltTy} {Val : EltTy → Type}

/-- A load of all of a memref reads what the memref reads. -/
theorem readAt_whole_eq (v : View sig' κ sp s e) (f : v.ty.Contents Val) :
    v.readAt Val (LoadRect.whole s) f = v.read Val f := by
  funext x
  rw [View.readAt_apply]
  exact congrArg (v.read Val f) (Rect.emb_whole_apply s x)

/-- After one unmasked store of all of a memref, the memref reads the payload. -/
theorem read_writes_whole (v : View sig' κ sp s e) (f : v.ty.Contents Val) (w : s.Idx → Val e) :
    v.read Val (v.writes Val f [⟨Rect.whole s, w⟩]) = w := by
  funext x
  have := View.read_writes_cons_emb v f (Rect.whole s) w [] x
  rwa [Rect.emb_whole_apply] at this

end WholeStore

/-! ## The fourteen loads and their tree, at a lane -/

/-- Fourteen vectors added pairwise as a tree, lane by lane. -/
def treeVec (L : Fin 14 → Vec F S16 .f32) : Vec F S16 .f32 := fun x => treeF fun j => L j x

/-- A load from the table copy at a base plus a column below 128, at a lane. -/
theorem loadIdx_base_apply (X7 : Vec F S28672 .f32) (b dd : IVec S16 32)
    (hin : ∀ a x, ((![addi b dd] : Fin S28672.rank → IVec S16 32) a x).toNat < S28672.size a)
    (l : Fin 16) (c : ℕ) (hb : (b (ix1 l)).toNat + 128 ≤ 28672) (hdd : (dd (ix1 l)).toNat = c) (hc : c < 128) :
    loadIdx X7 ![addi b dd] hin (ix1 l) = tblRead X7 ((b (ix1 l)).toNat + c) := by
  unfold loadIdx tblRead
  rw [dif_pos (by omega)]
  congr 1
  funext a
  match a with
  | ⟨0, _⟩ =>
    refine Fin.ext ?_
    show ((b (ix1 l)) + (dd (ix1 l))).toNat = (b (ix1 l)).toNat + c
    rw [BitVec.toNat_add, hdd]
    omega

/-- The tree of the fourteen loads at the groups' bases plus a column vector, at lane `l` whose column is `c`: the tree
    of the fourteen reads. -/
theorem treeVec_loads_apply (X7 : Vec F S28672 .f32) (bases : Fin 14 → IVec S16 32) (dd : IVec S16 32)
    (hin : ∀ j, ∀ a x, ((![addi (bases j) dd] : Fin S28672.rank → IVec S16 32) a x).toNat < S28672.size a)
    (hB : ∀ j, Below 28672 (bases j)) (l : Fin 16) (c : ℕ) (hdd : (dd (ix1 l)).toNat = c) (hc : c < 128) :
    treeVec (fun j => loadIdx X7 ![addi (bases j) dd] (hin j)) (ix1 l) = rowVal X7 bases l c := by
  unfold treeVec rowVal
  congr 1
  funext j
  exact loadIdx_base_apply X7 (bases j) dd (hin j) l c (hB j (ix1 l)) hdd hc

/-! ## The loops -/

section Loops

open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

local notation "𝕄" => MT nD τ sig (HIx 1) (Elt F) ℕ UU ℕ

/-- The column loop of row group 0: after its 128 trips the block's rows 0 … 15 hold, at every column, the tree
    of the fourteen reads of the table copy at the groups' bases plus the column; the other rows are as they were. -/
theorem loop2_val (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v59 : IVec S16 32) (v84 : IVec S16 32) (v109 : IVec S16 32) (v134 : IVec S16 32) (v159 : IVec S16 32) (v184 : IVec S16 32) (v209 : IVec S16 32) (v234 : IVec S16 32) (v259 : IVec S16 32) (v284 : IVec S16 32) (v309 : IVec S16 32) (v334 : IVec S16 32) (v359 : IVec S16 32) (v380 : IVec S16 32) (v381 : IVec S16 32)
    (g7 : Buf (Elt F) (arg7.view.loc (V d (cV i) (jV i)))) (f6 : Buf (Elt F) (arg6.view.loc (V d (cV i) (jV i))))
    (hb0 : Below 28672 v59) (hb1 : Below 28672 v84) (hb2 : Below 28672 v109) (hb3 : Below 28672 v134) (hb4 : Below 28672 v159) (hb5 : Below 28672 v184) (hb6 : Below 28672 v209) (hb7 : Below 28672 v234) (hb8 : Below 28672 v259) (hb9 : Below 28672 v284) (hb10 : Below 28672 v309) (hb11 : Below 28672 v334) (hb12 : Below 28672 v359) (hb13 : Below 28672 (k0_pay95 v380 v381)) (h6 : AtMost 1920 v6)
    (hv2 : ∀ l : Fin 16, v2 (ix1 l) = BitVec.ofNat 32 l.val) (hv6 : ∀ l : Fin 16, v6 (ix1 l) = BitVec.ofNat 32 l.val * 128#32) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (Scf.Loop.for k0_t2_loop k0_t2_ok ⟨⟩ (k0_t2_body i arg2 harg2 arg3 harg3 arg4 harg4 arg5 harg5 arg6 harg6 arg7 harg7 v32_r0 v1791_r1 v1791_r2 v1791_r3 v1791_r4 v2 v4 v6 v59 v84 v109 v134 v159 v184 v209 v234 v259 v284 v309 v334 v359 v380 v381))
          fun _ => iprop((arg7.view.loc (V d (cV i) (jV i)) ↦{fullShare} g7) ∗ ∃ f, (arg6.view.loc (V d (cV i) (jV i)) ↦{fullShare} f)
            ∗ ⌜RowsDone 0 (arg7.view.read (Elt F) g7) (![v59, v84, v109, v134, v159, v184, v209, v234, v259, v284, v309, v334, v359, (k0_pay95 v380 v381)] : Fin 14 → IVec S16 32) (arg6.view.read (Elt F) f6) (arg6.view.read (Elt F) f)⌝) := by
  have htrips : k0_t2_loop.trips = 128 := by decide
  have hB : ∀ j, Below 28672 ((![v59, v84, v109, v134, v159, v184, v209, v234, v259, v284, v309, v334, v359, (k0_pay95 v380 v381)] : Fin 14 → IVec S16 32) j) := by
    intro j
    fin_cases j
    · exact hb0
    · exact hb1
    · exact hb2
    · exact hb3
    · exact hb4
    · exact hb5
    · exact hb6
    · exact hb7
    · exact hb8
    · exact hb9
    · exact hb10
    · exact hb11
    · exact hb12
    · exact hb13
  iintro ⟨H7, H6⟩
  iapply (Scf.wp_for frame (wpE (defs₀ (F := F)) 𝒱₀ (V d (cV i) (jV i)) none) Set.univ k0_t2_loop.lb k0_t2_loop.ub k0_t2_loop.st k0_t2_ok ⟨⟩
    (k0_t2_body i arg2 harg2 arg3 harg3 arg4 harg4 arg5 harg5 arg6 harg6 arg7 harg7 v32_r0 v1791_r1 v1791_r2 v1791_r3 v1791_r4 v2 v4 v6 v59 v84 v109 v134 v159 v184 v209 v234 v259 v284 v309 v334 v359 v380 v381)
    (fun (k : Nat) (_ : Unit) => iprop((arg7.view.loc (V d (cV i) (jV i)) ↦{fullShare} g7) ∗ ∃ f, (arg6.view.loc (V d (cV i) (jV i)) ↦{fullShare} f)
      ∗ ⌜RowsUpTo 0 (arg7.view.read (Elt F) g7) (![v59, v84, v109, v134, v159, v184, v209, v234, v259, v284, v309, v334, v359, (k0_pay95 v380 v381)] : Fin 14 → IVec S16 32) (arg6.view.read (Elt F) f6) k (arg6.view.read (Elt F) f)⌝ : sProp 𝕄)) ?region) $$ [H7 H6]
  case region =>
    intro k _
    iintro ⟨H7, %f, H6, %hX⟩
    have hk : k.val < 128 := htrips ▸ k.isLt
    have hdd : ∀ l : Fin 16, ((k0_pay3 v2 0#32 1#32 k) (ix1 l)).toNat = (k.val + l.val) % 128 := by
      intro l
      show (((0#32 + BitVec.ofNat 32 k.val * 1#32) + v2 (ix1 l)) &&& 127#32).toNat = _
      rw [hv2]; exact toNat_col k.val l.val hk l.isLt
    have hc57 : k0_chk57 (addi v59 (k0_pay3 v2 0#32 1#32 k)) := by intro a x; exact chk_tbuf _ _ hb0 a x
    have hc58 : k0_chk58 (addi v84 (k0_pay3 v2 0#32 1#32 k)) := by intro a x; exact chk_tbuf _ _ hb1 a x
    have hc59 : k0_chk59 (addi v109 (k0_pay3 v2 0#32 1#32 k)) := by intro a x; exact chk_tbuf _ _ hb2 a x
    have hc60 : k0_chk60 (addi v134 (k0_pay3 v2 0#32 1#32 k)) := by intro a x; exact chk_tbuf _ _ hb3 a x
    have hc61 : k0_chk61 (addi v159 (k0_pay3 v2 0#32 1#32 k)) := by intro a x; exact chk_tbuf _ _ hb4 a x
    have hc62 : k0_chk62 (addi v184 (k0_pay3 v2 0#32 1#32 k)) := by intro a x; exact chk_tbuf _ _ hb5 a x
    have hc63 : k0_chk63 (addi v209 (k0_pay3 v2 0#32 1#32 k)) := by intro a x; exact chk_tbuf _ _ hb6 a x
    have hc64 : k0_chk64 (addi v234 (k0_pay3 v2 0#32 1#32 k)) := by intro a x; exact chk_tbuf _ _ hb7 a x
    have hc65 : k0_chk65 (addi v259 (k0_pay3 v2 0#32 1#32 k)) := by intro a x; exact chk_tbuf _ _ hb8 a x
    have hc66 : k0_chk66 (addi v284 (k0_pay3 v2 0#32 1#32 k)) := by intro a x; exact chk_tbuf _ _ hb9 a x
    have hc67 : k0_chk67 (addi v309 (k0_pay3 v2 0#32 1#32 k)) := by intro a x; exact chk_tbuf _ _ hb10 a x
    have hc68 : k0_chk68 (addi v334 (k0_pay3 v2 0#32 1#32 k)) := by intro a x; exact chk_tbuf _ _ hb11 a x
    have hc69 : k0_chk69 (addi v359 (k0_pay3 v2 0#32 1#32 k)) := by intro a x; exact chk_tbuf _ _ hb12 a x
    have hc70 : k0_chk70 (addi (k0_pay95 v380 v381) (k0_pay3 v2 0#32 1#32 k)) := by intro a x; exact chk_tbuf _ _ hb13 a x
    have hc71 : k0_chk71 (k0_pay97 v6 (k0_pay3 v2 0#32 1#32 k)) := by intro a x; exact chk_obuf _ _ _ h6 (by decide) a x
    unfold k0_t2_body
    simp only [k0_part1_eq_skeleton]; unfold k0_part1_skel
    unfold SparseCore.vectorLoadIdx SparseCore.vectorStoreIdx
    sl_exec (disch := assumption)
    sl_step
    isplitl [H7]; · iexact H7
    iexists _
    isplitl [H6]; · iexact H6
    ipureintro
    rw [read_writes_whole]
    simp only [readAt_whole_eq]
    refine rows_step 0 (by decide) (arg7.view.read (Elt F) g7) (![v59, v84, v109, v134, v159, v184, v209, v234, v259, v284, v309, v334, v359, (k0_pay95 v380 v381)] : Fin 14 → IVec S16 32) (arg6.view.read (Elt F) f6) k.val hk _ _ _ _ ?_ ?_ hX
    · intro l
      show ((v6 (ix1 l) + (((0#32 + BitVec.ofNat 32 k.val * 1#32) + v2 (ix1 l)) &&& 127#32)) + 0#32).toNat = _
      rw [hv6, hv2, toNat_slot k.val l.val hk l.isLt 0#32 (by decide)]
      rfl
    · intro l
      exact treeVec_loads_apply (arg7.view.read (Elt F) g7) (![v59, v84, v109, v134, v159, v184, v209, v234, v259, v284, v309, v334, v359, (k0_pay95 v380 v381)] : Fin 14 → IVec S16 32) (k0_pay3 v2 0#32 1#32 k)
        (fun j a x => chk_tbuf _ _ (hB j) a x) hB l _ (hdd l) (Nat.mod_lt _ (by decide))
  isplitl [H7 H6]
  · isplitl [H7]; · iexact H7
    iexists f6
    isplitl [H6]; · iexact H6
    ipureintro
    exact rowsUpTo_zero _ _ _ _
  · iintro %_ HI
    icases HI with ⟨H7, %f, H6, %hX⟩
    isplitl [H7]; · iexact H7
    iexists f
    isplitl [H6]; · iexact H6
    ipureintro
    exact rowsDone_of_upTo _ _ _ _ _ (htrips ▸ hX)

/-- The column loop of row group 1: after its 128 trips the block's rows 16 … 31 hold, at every column, the tree
    of the fourteen reads of the table copy at the groups' bases plus the column; the other rows are as they were. -/
theorem loop3_val (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v410 : IVec S16 32) (v435 : IVec S16 32) (v460 : IVec S16 32) (v485 : IVec S16 32) (v510 : IVec S16 32) (v535 : IVec S16 32) (v560 : IVec S16 32) (v585 : IVec S16 32) (v610 : IVec S16 32) (v635 : IVec S16 32) (v660 : IVec S16 32) (v685 : IVec S16 32) (v710 : IVec S16 32) (v733 : IVec S16 32)
    (g7 : Buf (Elt F) (arg7.view.loc (V d (cV i) (jV i)))) (f6 : Buf (Elt F) (arg6.view.loc (V d (cV i) (jV i))))
    (hb0 : Below 28672 v410) (hb1 : Below 28672 v435) (hb2 : Below 28672 v460) (hb3 : Below 28672 v485) (hb4 : Below 28672 v510) (hb5 : Below 28672 v535) (hb6 : Below 28672 v560) (hb7 : Below 28672 v585) (hb8 : Below 28672 v610) (hb9 : Below 28672 v635) (hb10 : Below 28672 v660) (hb11 : Below 28672 v685) (hb12 : Below 28672 v710) (hb13 : Below 28672 (k0_pay173 v733)) (h6 : AtMost 1920 v6)
    (hv2 : ∀ l : Fin 16, v2 (ix1 l) = BitVec.ofNat 32 l.val) (hv6 : ∀ l : Fin 16, v6 (ix1 l) = BitVec.ofNat 32 l.val * 128#32) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (Scf.Loop.for k0_t3_loop k0_t3_ok ⟨⟩ (k0_t3_body i arg2 harg2 arg3 harg3 arg4 harg4 arg5 harg5 arg6 harg6 arg7 harg7 v32_r0 v1791_r1 v1791_r2 v1791_r3 v1791_r4 v2 v4 v6 v410 v435 v460 v485 v510 v535 v560 v585 v610 v635 v660 v685 v710 v733))
          fun _ => iprop((arg7.view.loc (V d (cV i) (jV i)) ↦{fullShare} g7) ∗ ∃ f, (arg6.view.loc (V d (cV i) (jV i)) ↦{fullShare} f)
            ∗ ⌜RowsDone 1 (arg7.view.read (Elt F) g7) (![v410, v435, v460, v485, v510, v535, v560, v585, v610, v635, v660, v685, v710, (k0_pay173 v733)] : Fin 14 → IVec S16 32) (arg6.view.read (Elt F) f6) (arg6.view.read (Elt F) f)⌝) := by
  have htrips : k0_t3_loop.trips = 128 := by decide
  have hB : ∀ j, Below 28672 ((![v410, v435, v460, v485, v510, v535, v560, v585, v610, v635, v660, v685, v710, (k0_pay173 v733)] : Fin 14 → IVec S16 32) j) := by
    intro j
    fin_cases j
    · exact hb0
    · exact hb1
    · exact hb2
    · exact hb3
    · exact hb4
    · exact hb5
    · exact hb6
    · exact hb7
    · exact hb8
    · exact hb9
    · exact hb10
    · exact hb11
    · exact hb12
    · exact hb13
  iintro ⟨H7, H6⟩
  iapply (Scf.wp_for frame (wpE (defs₀ (F := F)) 𝒱₀ (V d (cV i) (jV i)) none) Set.univ k0_t3_loop.lb k0_t3_loop.ub k0_t3_loop.st k0_t3_ok ⟨⟩
    (k0_t3_body i arg2 harg2 arg3 harg3 arg4 harg4 arg5 harg5 arg6 harg6 arg7 harg7 v32_r0 v1791_r1 v1791_r2 v1791_r3 v1791_r4 v2 v4 v6 v410 v435 v460 v485 v510 v535 v560 v585 v610 v635 v660 v685 v710 v733)
    (fun (k : Nat) (_ : Unit) => iprop((arg7.view.loc (V d (cV i) (jV i)) ↦{fullShare} g7) ∗ ∃ f, (arg6.view.loc (V d (cV i) (jV i)) ↦{fullShare} f)
      ∗ ⌜RowsUpTo 1 (arg7.view.read (Elt F) g7) (![v410, v435, v460, v485, v510, v535, v560, v585, v610, v635, v660, v685, v710, (k0_pay173 v733)] : Fin 14 → IVec S16 32) (arg6.view.read (Elt F) f6) k (arg6.view.read (Elt F) f)⌝ : sProp 𝕄)) ?region) $$ [H7 H6]
  case region =>
    intro k _
    iintro ⟨H7, %f, H6, %hX⟩
    have hk : k.val < 128 := htrips ▸ k.isLt
    have hdd : ∀ l : Fin 16, ((k0_pay6 v2 0#32 1#32 k) (ix1 l)).toNat = (k.val + l.val) % 128 := by
      intro l
      show (((0#32 + BitVec.ofNat 32 k.val * 1#32) + v2 (ix1 l)) &&& 127#32).toNat = _
      rw [hv2]; exact toNat_col k.val l.val hk l.isLt
    have hc128 : k0_chk128 (addi v410 (k0_pay6 v2 0#32 1#32 k)) := by intro a x; exact chk_tbuf _ _ hb0 a x
    have hc129 : k0_chk129 (addi v435 (k0_pay6 v2 0#32 1#32 k)) := by intro a x; exact chk_tbuf _ _ hb1 a x
    have hc130 : k0_chk130 (addi v460 (k0_pay6 v2 0#32 1#32 k)) := by intro a x; exact chk_tbuf _ _ hb2 a x
    have hc131 : k0_chk131 (addi v485 (k0_pay6 v2 0#32 1#32 k)) := by intro a x; exact chk_tbuf _ _ hb3 a x
    have hc132 : k0_chk132 (addi v510 (k0_pay6 v2 0#32 1#32 k)) := by intro a x; exact chk_tbuf _ _ hb4 a x
    have hc133 : k0_chk133 (addi v535 (k0_pay6 v2 0#32 1#32 k)) := by intro a x; exact chk_tbuf _ _ hb5 a x
    have hc134 : k0_chk134 (addi v560 (k0_pay6 v2 0#32 1#32 k)) := by intro a x; exact chk_tbuf _ _ hb6 a x
    have hc135 : k0_chk135 (addi v585 (k0_pay6 v2 0#32 1#32 k)) := by intro a x; exact chk_tbuf _ _ hb7 a x
    have hc136 : k0_chk136 (addi v610 (k0_pay6 v2 0#32 1#32 k)) := by intro a x; exact chk_tbuf _ _ hb8 a x
    have hc137 : k0_chk137 (addi v635 (k0_pay6 v2 0#32 1#32 k)) := by intro a x; exact chk_tbuf _ _ hb9 a x
    have hc138 : k0_chk138 (addi v660 (k0_pay6 v2 0#32 1#32 k)) := by intro a x; exact chk_tbuf _ _ hb10 a x
    have hc139 : k0_chk139 (addi v685 (k0_pay6 v2 0#32 1#32 k)) := by intro a x; exact chk_tbuf _ _ hb11 a x
    have hc140 : k0_chk140 (addi v710 (k0_pay6 v2 0#32 1#32 k)) := by intro a x; exact chk_tbuf _ _ hb12 a x
    have hc141 : k0_chk141 (addi (k0_pay173 v733) (k0_pay6 v2 0#32 1#32 k)) := by intro a x; exact chk_tbuf _ _ hb13 a x
    have hc142 : k0_chk142 (k0_pay175 v6 (k0_pay6 v2 0#32 1#32 k)) := by intro a x; exact chk_obuf _ _ _ h6 (by decide) a x
    unfold k0_t3_body
    simp only [k0_part2_eq_skeleton]; unfold k0_part2_skel
    unfold SparseCore.vectorLoadIdx SparseCore.vectorStoreIdx
    sl_exec (disch := assumption)
    sl_step
    isplitl [H7]; · iexact H7
    iexists _
    isplitl [H6]; · iexact H6
    ipureintro
    rw [read_writes_whole]
    simp only [readAt_whole_eq]
    refine rows_step 1 (by decide) (arg7.view.read (Elt F) g7) (![v410, v435, v460, v485, v510, v535, v560, v585, v610, v635, v660, v685, v710, (k0_pay173 v733)] : Fin 14 → IVec S16 32) (arg6.view.read (Elt F) f6) k.val hk _ _ _ _ ?_ ?_ hX
    · intro l
      show ((v6 (ix1 l) + (((0#32 + BitVec.ofNat 32 k.val * 1#32) + v2 (ix1 l)) &&& 127#32)) + 2048#32).toNat = _
      rw [hv6, hv2, toNat_slot k.val l.val hk l.isLt 2048#32 (by decide)]
      rfl
    · intro l
      exact treeVec_loads_apply (arg7.view.read (Elt F) g7) (![v410, v435, v460, v485, v510, v535, v560, v585, v610, v635, v660, v685, v710, (k0_pay173 v733)] : Fin 14 → IVec S16 32) (k0_pay6 v2 0#32 1#32 k)
        (fun j a x => chk_tbuf _ _ (hB j) a x) hB l _ (hdd l) (Nat.mod_lt _ (by decide))
  isplitl [H7 H6]
  · isplitl [H7]; · iexact H7
    iexists f6
    isplitl [H6]; · iexact H6
    ipureintro
    exact rowsUpTo_zero _ _ _ _
  · iintro %_ HI
    icases HI with ⟨H7, %f, H6, %hX⟩
    isplitl [H7]; · iexact H7
    iexists f
    isplitl [H6]; · iexact H6
    ipureintro
    exact rowsDone_of_upTo _ _ _ _ _ (htrips ▸ hX)

/-- The column loop of row group 2: after its 128 trips the block's rows 32 … 47 hold, at every column, the tree
    of the fourteen reads of the table copy at the groups' bases plus the column; the other rows are as they were. -/
theorem loop4_val (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v761 : IVec S16 32) (v786 : IVec S16 32) (v811 : IVec S16 32) (v836 : IVec S16 32) (v861 : IVec S16 32) (v886 : IVec S16 32) (v911 : IVec S16 32) (v936 : IVec S16 32) (v961 : IVec S16 32) (v986 : IVec S16 32) (v1011 : IVec S16 32) (v1036 : IVec S16 32) (v1061 : IVec S16 32) (v1084 : IVec S16 32) (c26624_i32_223 : BitVec 32)
    (g7 : Buf (Elt F) (arg7.view.loc (V d (cV i) (jV i)))) (f6 : Buf (Elt F) (arg6.view.loc (V d (cV i) (jV i))))
    (hb0 : Below 28672 v761) (hb1 : Below 28672 v786) (hb2 : Below 28672 v811) (hb3 : Below 28672 v836) (hb4 : Below 28672 v861) (hb5 : Below 28672 v886) (hb6 : Below 28672 v911) (hb7 : Below 28672 v936) (hb8 : Below 28672 v961) (hb9 : Below 28672 v986) (hb10 : Below 28672 v1011) (hb11 : Below 28672 v1036) (hb12 : Below 28672 v1061) (hb13 : Below 28672 (k0_pay254 v1084 c26624_i32_223)) (h6 : AtMost 1920 v6)
    (hv2 : ∀ l : Fin 16, v2 (ix1 l) = BitVec.ofNat 32 l.val) (hv6 : ∀ l : Fin 16, v6 (ix1 l) = BitVec.ofNat 32 l.val * 128#32) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (Scf.Loop.for k0_t4_loop k0_t4_ok ⟨⟩ (k0_t4_body i arg2 harg2 arg3 harg3 arg4 harg4 arg5 harg5 arg6 harg6 arg7 harg7 v32_r0 v1791_r1 v1791_r2 v1791_r3 v1791_r4 v2 v4 v6 v761 v786 v811 v836 v861 v886 v911 v936 v961 v986 v1011 v1036 v1061 v1084 c26624_i32_223))
          fun _ => iprop((arg7.view.loc (V d (cV i) (jV i)) ↦{fullShare} g7) ∗ ∃ f, (arg6.view.loc (V d (cV i) (jV i)) ↦{fullShare} f)
            ∗ ⌜RowsDone 2 (arg7.view.read (Elt F) g7) (![v761, v786, v811, v836, v861, v886, v911, v936, v961, v986, v1011, v1036, v1061, (k0_pay254 v1084 c26624_i32_223)] : Fin 14 → IVec S16 32) (arg6.view.read (Elt F) f6) (arg6.view.read (Elt F) f)⌝) := by
  have htrips : k0_t4_loop.trips = 128 := by decide
  have hB : ∀ j, Below 28672 ((![v761, v786, v811, v836, v861, v886, v911, v936, v961, v986, v1011, v1036, v1061, (k0_pay254 v1084 c26624_i32_223)] : Fin 14 → IVec S16 32) j) := by
    intro j
    fin_cases j
    · exact hb0
    · exact hb1
    · exact hb2
    · exact hb3
    · exact hb4
    · exact hb5
    · exact hb6
    · exact hb7
    · exact hb8
    · exact hb9
    · exact hb10
    · exact hb11
    · exact hb12
    · exact hb13
  iintro ⟨H7, H6⟩
  iapply (Scf.wp_for frame (wpE (defs₀ (F := F)) 𝒱₀ (V d (cV i) (jV i)) none) Set.univ k0_t4_loop.lb k0_t4_loop.ub k0_t4_loop.st k0_t4_ok ⟨⟩
    (k0_t4_body i arg2 harg2 arg3 harg3 arg4 harg4 arg5 harg5 arg6 harg6 arg7 harg7 v32_r0 v1791_r1 v1791_r2 v1791_r3 v1791_r4 v2 v4 v6 v761 v786 v811 v836 v861 v886 v911 v936 v961 v986 v1011 v1036 v1061 v1084 c26624_i32_223)
    (fun (k : Nat) (_ : Unit) => iprop((arg7.view.loc (V d (cV i) (jV i)) ↦{fullShare} g7) ∗ ∃ f, (arg6.view.loc (V d (cV i) (jV i)) ↦{fullShare} f)
      ∗ ⌜RowsUpTo 2 (arg7.view.read (Elt F) g7) (![v761, v786, v811, v836, v861, v886, v911, v936, v961, v986, v1011, v1036, v1061, (k0_pay254 v1084 c26624_i32_223)] : Fin 14 → IVec S16 32) (arg6.view.read (Elt F) f6) k (arg6.view.read (Elt F) f)⌝ : sProp 𝕄)) ?region) $$ [H7 H6]
  case region =>
    intro k _
    iintro ⟨H7, %f, H6, %hX⟩
    have hk : k.val < 128 := htrips ▸ k.isLt
    have hdd : ∀ l : Fin 16, ((k0_pay9 v2 0#32 1#32 k) (ix1 l)).toNat = (k.val + l.val) % 128 := by
      intro l
      show (((0#32 + BitVec.ofNat 32 k.val * 1#32) + v2 (ix1 l)) &&& 127#32).toNat = _
      rw [hv2]; exact toNat_col k.val l.val hk l.isLt
    have hc199 : k0_chk199 (addi v761 (k0_pay9 v2 0#32 1#32 k)) := by intro a x; exact chk_tbuf _ _ hb0 a x
    have hc200 : k0_chk200 (addi v786 (k0_pay9 v2 0#32 1#32 k)) := by intro a x; exact chk_tbuf _ _ hb1 a x
    have hc201 : k0_chk201 (addi v811 (k0_pay9 v2 0#32 1#32 k)) := by intro a x; exact chk_tbuf _ _ hb2 a x
    have hc202 : k0_chk202 (addi v836 (k0_pay9 v2 0#32 1#32 k)) := by intro a x; exact chk_tbuf _ _ hb3 a x
    have hc203 : k0_chk203 (addi v861 (k0_pay9 v2 0#32 1#32 k)) := by intro a x; exact chk_tbuf _ _ hb4 a x
    have hc204 : k0_chk204 (addi v886 (k0_pay9 v2 0#32 1#32 k)) := by intro a x; exact chk_tbuf _ _ hb5 a x
    have hc205 : k0_chk205 (addi v911 (k0_pay9 v2 0#32 1#32 k)) := by intro a x; exact chk_tbuf _ _ hb6 a x
    have hc206 : k0_chk206 (addi v936 (k0_pay9 v2 0#32 1#32 k)) := by intro a x; exact chk_tbuf _ _ hb7 a x
    have hc207 : k0_chk207 (addi v961 (k0_pay9 v2 0#32 1#32 k)) := by intro a x; exact chk_tbuf _ _ hb8 a x
    have hc208 : k0_chk208 (addi v986 (k0_pay9 v2 0#32 1#32 k)) := by intro a x; exact chk_tbuf _ _ hb9 a x
    have hc209 : k0_chk209 (addi v1011 (k0_pay9 v2 0#32 1#32 k)) := by intro a x; exact chk_tbuf _ _ hb10 a x
    have hc210 : k0_chk210 (addi v1036 (k0_pay9 v2 0#32 1#32 k)) := by intro a x; exact chk_tbuf _ _ hb11 a x
    have hc211 : k0_chk211 (addi v1061 (k0_pay9 v2 0#32 1#32 k)) := by intro a x; exact chk_tbuf _ _ hb12 a x
    have hc212 : k0_chk212 (addi (k0_pay254 v1084 c26624_i32_223) (k0_pay9 v2 0#32 1#32 k)) := by intro a x; exact chk_tbuf _ _ hb13 a x
    have hc213 : k0_chk213 (k0_pay256 v6 (k0_pay9 v2 0#32 1#32 k)) := by intro a x; exact chk_obuf _ _ _ h6 (by decide) a x
    unfold k0_t4_body
    simp only [k0_part3_eq_skeleton]; unfold k0_part3_skel
    unfold SparseCore.vectorLoadIdx SparseCore.vectorStoreIdx
    sl_exec (disch := assumption)
    sl_step
    isplitl [H7]; · iexact H7
    iexists _
    isplitl [H6]; · iexact H6
    ipureintro
    rw [read_writes_whole]
    simp only [readAt_whole_eq]
    refine rows_step 2 (by decide) (arg7.view.read (Elt F) g7) (![v761, v786, v811, v836, v861, v886, v911, v936, v961, v986, v1011, v1036, v1061, (k0_pay254 v1084 c26624_i32_223)] : Fin 14 → IVec S16 32) (arg6.view.read (Elt F) f6) k.val hk _ _ _ _ ?_ ?_ hX
    · intro l
      show ((v6 (ix1 l) + (((0#32 + BitVec.ofNat 32 k.val * 1#32) + v2 (ix1 l)) &&& 127#32)) + 4096#32).toNat = _
      rw [hv6, hv2, toNat_slot k.val l.val hk l.isLt 4096#32 (by decide)]
      rfl
    · intro l
      exact treeVec_loads_apply (arg7.view.read (Elt F) g7) (![v761, v786, v811, v836, v861, v886, v911, v936, v961, v986, v1011, v1036, v1061, (k0_pay254 v1084 c26624_i32_223)] : Fin 14 → IVec S16 32) (k0_pay9 v2 0#32 1#32 k)
        (fun j a x => chk_tbuf _ _ (hB j) a x) hB l _ (hdd l) (Nat.mod_lt _ (by decide))
  isplitl [H7 H6]
  · isplitl [H7]; · iexact H7
    iexists f6
    isplitl [H6]; · iexact H6
    ipureintro
    exact rowsUpTo_zero _ _ _ _
  · iintro %_ HI
    icases HI with ⟨H7, %f, H6, %hX⟩
    isplitl [H7]; · iexact H7
    iexists f
    isplitl [H6]; · iexact H6
    ipureintro
    exact rowsDone_of_upTo _ _ _ _ _ (htrips ▸ hX)

/-- The column loop of row group 3: after its 128 trips the block's rows 48 … 63 hold, at every column, the tree
    of the fourteen reads of the table copy at the groups' bases plus the column; the other rows are as they were. -/
theorem loop5_val (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v2 : IVec S16 32) (v4 : IVec S16 32) (v6 : IVec S16 32) (v1112 : IVec S16 32) (v1137 : IVec S16 32) (v1162 : IVec S16 32) (v1187 : IVec S16 32) (v1212 : IVec S16 32) (v1237 : IVec S16 32) (v1262 : IVec S16 32) (v1287 : IVec S16 32) (v1312 : IVec S16 32) (v1337 : IVec S16 32) (v1362 : IVec S16 32) (v1387 : IVec S16 32) (v1412 : IVec S16 32) (v1435 : IVec S16 32) (v1436 : IVec S16 32)
    (g7 : Buf (Elt F) (arg7.view.loc (V d (cV i) (jV i)))) (f6 : Buf (Elt F) (arg6.view.loc (V d (cV i) (jV i))))
    (hb0 : Below 28672 v1112) (hb1 : Below 28672 v1137) (hb2 : Below 28672 v1162) (hb3 : Below 28672 v1187) (hb4 : Below 28672 v1212) (hb5 : Below 28672 v1237) (hb6 : Below 28672 v1262) (hb7 : Below 28672 v1287) (hb8 : Below 28672 v1312) (hb9 : Below 28672 v1337) (hb10 : Below 28672 v1362) (hb11 : Below 28672 v1387) (hb12 : Below 28672 v1412) (hb13 : Below 28672 (k0_pay335 v1435 v1436)) (h6 : AtMost 1920 v6)
    (hv2 : ∀ l : Fin 16, v2 (ix1 l) = BitVec.ofNat 32 l.val) (hv6 : ∀ l : Fin 16, v6 (ix1 l) = BitVec.ofNat 32 l.val * 128#32) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (Scf.Loop.for k0_t5_loop k0_t5_ok ⟨⟩ (k0_t5_body i arg2 harg2 arg3 harg3 arg4 harg4 arg5 harg5 arg6 harg6 arg7 harg7 v32_r0 v1791_r1 v1791_r2 v1791_r3 v1791_r4 v2 v4 v6 v1112 v1137 v1162 v1187 v1212 v1237 v1262 v1287 v1312 v1337 v1362 v1387 v1412 v1435 v1436))
          fun _ => iprop((arg7.view.loc (V d (cV i) (jV i)) ↦{fullShare} g7) ∗ ∃ f, (arg6.view.loc (V d (cV i) (jV i)) ↦{fullShare} f)
            ∗ ⌜RowsDone 3 (arg7.view.read (Elt F) g7) (![v1112, v1137, v1162, v1187, v1212, v1237, v1262, v1287, v1312, v1337, v1362, v1387, v1412, (k0_pay335 v1435 v1436)] : Fin 14 → IVec S16 32) (arg6.view.read (Elt F) f6) (arg6.view.read (Elt F) f)⌝) := by
  have htrips : k0_t5_loop.trips = 128 := by decide
  have hB : ∀ j, Below 28672 ((![v1112, v1137, v1162, v1187, v1212, v1237, v1262, v1287, v1312, v1337, v1362, v1387, v1412, (k0_pay335 v1435 v1436)] : Fin 14 → IVec S16 32) j) := by
    intro j
    fin_cases j
    · exact hb0
    · exact hb1
    · exact hb2
    · exact hb3
    · exact hb4
    · exact hb5
    · exact hb6
    · exact hb7
    · exact hb8
    · exact hb9
    · exact hb10
    · exact hb11
    · exact hb12
    · exact hb13
  iintro ⟨H7, H6⟩
  iapply (Scf.wp_for frame (wpE (defs₀ (F := F)) 𝒱₀ (V d (cV i) (jV i)) none) Set.univ k0_t5_loop.lb k0_t5_loop.ub k0_t5_loop.st k0_t5_ok ⟨⟩
    (k0_t5_body i arg2 harg2 arg3 harg3 arg4 harg4 arg5 harg5 arg6 harg6 arg7 harg7 v32_r0 v1791_r1 v1791_r2 v1791_r3 v1791_r4 v2 v4 v6 v1112 v1137 v1162 v1187 v1212 v1237 v1262 v1287 v1312 v1337 v1362 v1387 v1412 v1435 v1436)
    (fun (k : Nat) (_ : Unit) => iprop((arg7.view.loc (V d (cV i) (jV i)) ↦{fullShare} g7) ∗ ∃ f, (arg6.view.loc (V d (cV i) (jV i)) ↦{fullShare} f)
      ∗ ⌜RowsUpTo 3 (arg7.view.read (Elt F) g7) (![v1112, v1137, v1162, v1187, v1212, v1237, v1262, v1287, v1312, v1337, v1362, v1387, v1412, (k0_pay335 v1435 v1436)] : Fin 14 → IVec S16 32) (arg6.view.read (Elt F) f6) k (arg6.view.read (Elt F) f)⌝ : sProp 𝕄)) ?region) $$ [H7 H6]
  case region =>
    intro k _
    iintro ⟨H7, %f, H6, %hX⟩
    have hk : k.val < 128 := htrips ▸ k.isLt
    have hdd : ∀ l : Fin 16, ((k0_pay12 v2 0#32 1#32 k) (ix1 l)).toNat = (k.val + l.val) % 128 := by
      intro l
      show (((0#32 + BitVec.ofNat 32 k.val * 1#32) + v2 (ix1 l)) &&& 127#32).toNat = _
      rw [hv2]; exact toNat_col k.val l.val hk l.isLt
    have hc270 : k0_chk270 (addi v1112 (k0_pay12 v2 0#32 1#32 k)) := by intro a x; exact chk_tbuf _ _ hb0 a x
    have hc271 : k0_chk271 (addi v1137 (k0_pay12 v2 0#32 1#32 k)) := by intro a x; exact chk_tbuf _ _ hb1 a x
    have hc272 : k0_chk272 (addi v1162 (k0_pay12 v2 0#32 1#32 k)) := by intro a x; exact chk_tbuf _ _ hb2 a x
    have hc273 : k0_chk273 (addi v1187 (k0_pay12 v2 0#32 1#32 k)) := by intro a x; exact chk_tbuf _ _ hb3 a x
    have hc274 : k0_chk274 (addi v1212 (k0_pay12 v2 0#32 1#32 k)) := by intro a x; exact chk_tbuf _ _ hb4 a x
    have hc275 : k0_chk275 (addi v1237 (k0_pay12 v2 0#32 1#32 k)) := by intro a x; exact chk_tbuf _ _ hb5 a x
    have hc276 : k0_chk276 (addi v1262 (k0_pay12 v2 0#32 1#32 k)) := by intro a x; exact chk_tbuf _ _ hb6 a x
    have hc277 : k0_chk277 (addi v1287 (k0_pay12 v2 0#32 1#32 k)) := by intro a x; exact chk_tbuf _ _ hb7 a x
    have hc278 : k0_chk278 (addi v1312 (k0_pay12 v2 0#32 1#32 k)) := by intro a x; exact chk_tbuf _ _ hb8 a x
    have hc279 : k0_chk279 (addi v1337 (k0_pay12 v2 0#32 1#32 k)) := by intro a x; exact chk_tbuf _ _ hb9 a x
    have hc280 : k0_chk280 (addi v1362 (k0_pay12 v2 0#32 1#32 k)) := by intro a x; exact chk_tbuf _ _ hb10 a x
    have hc281 : k0_chk281 (addi v1387 (k0_pay12 v2 0#32 1#32 k)) := by intro a x; exact chk_tbuf _ _ hb11 a x
    have hc282 : k0_chk282 (addi v1412 (k0_pay12 v2 0#32 1#32 k)) := by intro a x; exact chk_tbuf _ _ hb12 a x
    have hc283 : k0_chk283 (addi (k0_pay335 v1435 v1436) (k0_pay12 v2 0#32 1#32 k)) := by intro a x; exact chk_tbuf _ _ hb13 a x
    have hc284 : k0_chk284 (k0_pay337 v6 (k0_pay12 v2 0#32 1#32 k)) := by intro a x; exact chk_obuf _ _ _ h6 (by decide) a x
    unfold k0_t5_body
    simp only [k0_part4_eq_skeleton]; unfold k0_part4_skel
    unfold SparseCore.vectorLoadIdx SparseCore.vectorStoreIdx
    sl_exec (disch := assumption)
    sl_step
    isplitl [H7]; · iexact H7
    iexists _
    isplitl [H6]; · iexact H6
    ipureintro
    rw [read_writes_whole]
    simp only [readAt_whole_eq]
    refine rows_step 3 (by decide) (arg7.view.read (Elt F) g7) (![v1112, v1137, v1162, v1187, v1212, v1237, v1262, v1287, v1312, v1337, v1362, v1387, v1412, (k0_pay335 v1435 v1436)] : Fin 14 → IVec S16 32) (arg6.view.read (Elt F) f6) k.val hk _ _ _ _ ?_ ?_ hX
    · intro l
      show ((v6 (ix1 l) + (((0#32 + BitVec.ofNat 32 k.val * 1#32) + v2 (ix1 l)) &&& 127#32)) + 6144#32).toNat = _
      rw [hv6, hv2, toNat_slot k.val l.val hk l.isLt 6144#32 (by decide)]
      rfl
    · intro l
      exact treeVec_loads_apply (arg7.view.read (Elt F) g7) (![v1112, v1137, v1162, v1187, v1212, v1237, v1262, v1287, v1312, v1337, v1362, v1387, v1412, (k0_pay335 v1435 v1436)] : Fin 14 → IVec S16 32) (k0_pay12 v2 0#32 1#32 k)
        (fun j a x => chk_tbuf _ _ (hB j) a x) hB l _ (hdd l) (Nat.mod_lt _ (by decide))
  isplitl [H7 H6]
  · isplitl [H7]; · iexact H7
    iexists f6
    isplitl [H6]; · iexact H6
    ipureintro
    exact rowsUpTo_zero _ _ _ _
  · iintro %_ HI
    icases HI with ⟨H7, %f, H6, %hX⟩
    isplitl [H7]; · iexact H7
    iexists f
    isplitl [H6]; · iexact H6
    ipureintro
    exact rowsDone_of_upTo _ _ _ _ _ (htrips ▸ hX)

/-- The column loop of row group 4: after its 128 trips the block's rows 64 … 79 hold, at every column, the tree
    of the fourteen reads of the table copy at the groups' bases plus the column; the other rows are as they were. -/
theorem loop6_val (d : Dev nD) (i : grid0.Coords) (arg2 : Memref sig .scVector .hbm S224000 .i32) (harg2 : arg2.IsWhole) (arg3 : Memref sig .scVector .hbm S28672 .f32) (harg3 : arg3.IsWhole) (arg4 : Memref sig .scVector .hbm S512000 .f32) (harg4 : arg4.IsWhole) (arg5 : Memref sig .scVector .vmem S4480 .i32) (harg5 : arg5.IsWhole) (arg6 : Memref sig .scVector .vmem S10240 .f32) (harg6 : arg6.IsWhole) (arg7 : Memref sig .scVector .vmem S28672 .f32) (harg7 : arg7.IsWhole) (v32_r0 : DmaSems sig S_) (v1791_r1 : DmaSems sig S_) (v1791_r2 : DmaSems sig S_) (v1791_r3 : DmaSems sig S_) (v1791_r4 : DmaSems sig S_) (v1 : BitVec 32) (v2 : IVec S16 32) (v4 : IVec S16 32) (v6 : IVec S16 32) (c0_i32_7 : BitVec 32) (c1_i32_9 : BitVec 32) (k0_t1 : Fin (k0_t1_loop i).trips) (v1463 : IVec S16 32) (v1488 : IVec S16 32) (v1513 : IVec S16 32) (v1538 : IVec S16 32) (v1563 : IVec S16 32) (v1588 : IVec S16 32) (v1613 : IVec S16 32) (v1638 : IVec S16 32) (v1663 : IVec S16 32) (v1688 : IVec S16 32) (v1713 : IVec S16 32) (v1738 : IVec S16 32) (v1763 : IVec S16 32) (v1788 : IVec S16 32)
    (g7 : Buf (Elt F) (arg7.view.loc (V d (cV i) (jV i)))) (f6 : Buf (Elt F) (arg6.view.loc (V d (cV i) (jV i))))
    (hb0 : Below 28672 v1463) (hb1 : Below 28672 v1488) (hb2 : Below 28672 v1513) (hb3 : Below 28672 v1538) (hb4 : Below 28672 v1563) (hb5 : Below 28672 v1588) (hb6 : Below 28672 v1613) (hb7 : Below 28672 v1638) (hb8 : Below 28672 v1663) (hb9 : Below 28672 v1688) (hb10 : Below 28672 v1713) (hb11 : Below 28672 v1738) (hb12 : Below 28672 v1763) (hb13 : Below 28672 v1788) (h6 : AtMost 1920 v6)
    (hv2 : ∀ l : Fin 16, v2 (ix1 l) = BitVec.ofNat 32 l.val) (hv6 : ∀ l : Fin 16, v6 (ix1 l) = BitVec.ofNat 32 l.val * 128#32) :
    iprop((arg7.view.loc (V d (cV i) (jV i)) ↦{fullShare} g7) ∗ (arg6.view.loc (V d (cV i) (jV i)) ↦{fullShare} f6) : sProp 𝕄)
      ⊢ wp frame (wpE (defs₀ (F := F)) 𝒱₀ (V d (cV i) (jV i)) none) Set.univ
          (Scf.Loop.for k0_t6_loop k0_t6_ok ⟨⟩ (k0_t6_body i arg2 harg2 arg3 harg3 arg4 harg4 arg5 harg5 arg6 harg6 arg7 harg7 v32_r0 v1791_r1 v1791_r2 v1791_r3 v1791_r4 v1 v2 v4 v6 c0_i32_7 c1_i32_9 k0_t1 v1463 v1488 v1513 v1538 v1563 v1588 v1613 v1638 v1663 v1688 v1713 v1738 v1763 v1788))
          fun _ => iprop((arg7.view.loc (V d (cV i) (jV i)) ↦{fullShare} g7) ∗ ∃ f, (arg6.view.loc (V d (cV i) (jV i)) ↦{fullShare} f)
            ∗ ⌜RowsDone 4 (arg7.view.read (Elt F) g7) (![v1463, v1488, v1513, v1538, v1563, v1588, v1613, v1638, v1663, v1688, v1713, v1738, v1763, v1788] : Fin 14 → IVec S16 32) (arg6.view.read (Elt F) f6) (arg6.view.read (Elt F) f)⌝) := by
  have htrips : k0_t6_loop.trips = 128 := by decide
  have hB : ∀ j, Below 28672 ((![v1463, v1488, v1513, v1538, v1563, v1588, v1613, v1638, v1663, v1688, v1713, v1738, v1763, v1788] : Fin 14 → IVec S16 32) j) := by
    intro j
    fin_cases j
    · exact hb0
    · exact hb1
    · exact hb2
    · exact hb3
    · exact hb4
    · exact hb5
    · exact hb6
    · exact hb7
    · exact hb8
    · exact hb9
    · exact hb10
    · exact hb11
    · exact hb12
    · exact hb13
  iintro ⟨H7, H6⟩
  iapply (Scf.wp_for frame (wpE (defs₀ (F := F)) 𝒱₀ (V d (cV i) (jV i)) none) Set.univ k0_t6_loop.lb k0_t6_loop.ub k0_t6_loop.st k0_t6_ok ⟨⟩
    (k0_t6_body i arg2 harg2 arg3 harg3 arg4 harg4 arg5 harg5 arg6 harg6 arg7 harg7 v32_r0 v1791_r1 v1791_r2 v1791_r3 v1791_r4 v1 v2 v4 v6 c0_i32_7 c1_i32_9 k0_t1 v1463 v1488 v1513 v1538 v1563 v1588 v1613 v1638 v1663 v1688 v1713 v1738 v1763 v1788)
    (fun (k : Nat) (_ : Unit) => iprop((arg7.view.loc (V d (cV i) (jV i)) ↦{fullShare} g7) ∗ ∃ f, (arg6.view.loc (V d (cV i) (jV i)) ↦{fullShare} f)
      ∗ ⌜RowsUpTo 4 (arg7.view.read (Elt F) g7) (![v1463, v1488, v1513, v1538, v1563, v1588, v1613, v1638, v1663, v1688, v1713, v1738, v1763, v1788] : Fin 14 → IVec S16 32) (arg6.view.read (Elt F) f6) k (arg6.view.read (Elt F) f)⌝ : sProp 𝕄)) ?region) $$ [H7 H6]
  case region =>
    intro k _
    iintro ⟨H7, %f, H6, %hX⟩
    have hk : k.val < 128 := htrips ▸ k.isLt
    have hdd : ∀ l : Fin 16, ((k0_pay15 v2 0#32 1#32 k) (ix1 l)).toNat = (k.val + l.val) % 128 := by
      intro l
      show (((0#32 + BitVec.ofNat 32 k.val * 1#32) + v2 (ix1 l)) &&& 127#32).toNat = _
      rw [hv2]; exact toNat_col k.val l.val hk l.isLt
    have hc341 : k0_chk341 (addi v1463 (k0_pay15 v2 0#32 1#32 k)) := by intro a x; exact chk_tbuf _ _ hb0 a x
    have hc342 : k0_chk342 (addi v1488 (k0_pay15 v2 0#32 1#32 k)) := by intro a x; exact chk_tbuf _ _ hb1 a x
    have hc343 : k0_chk343 (addi v1513 (k0_pay15 v2 0#32 1#32 k)) := by intro a x; exact chk_tbuf _ _ hb2 a x
    have hc344 : k0_chk344 (addi v1538 (k0_pay15 v2 0#32 1#32 k)) := by intro a x; exact chk_tbuf _ _ hb3 a x
    have hc345 : k0_chk345 (addi v1563 (k0_pay15 v2 0#32 1#32 k)) := by intro a x; exact chk_tbuf _ _ hb4 a x
    have hc346 : k0_chk346 (addi v1588 (k0_pay15 v2 0#32 1#32 k)) := by intro a x; exact chk_tbuf _ _ hb5 a x
    have hc347 : k0_chk347 (addi v1613 (k0_pay15 v2 0#32 1#32 k)) := by intro a x; exact chk_tbuf _ _ hb6 a x
    have hc348 : k0_chk348 (addi v1638 (k0_pay15 v2 0#32 1#32 k)) := by intro a x; exact chk_tbuf _ _ hb7 a x
    have hc349 : k0_chk349 (addi v1663 (k0_pay15 v2 0#32 1#32 k)) := by intro a x; exact chk_tbuf _ _ hb8 a x
    have hc350 : k0_chk350 (addi v1688 (k0_pay15 v2 0#32 1#32 k)) := by intro a x; exact chk_tbuf _ _ hb9 a x
    have hc351 : k0_chk351 (addi v1713 (k0_pay15 v2 0#32 1#32 k)) := by intro a x; exact chk_tbuf _ _ hb10 a x
    have hc352 : k0_chk352 (addi v1738 (k0_pay15 v2 0#32 1#32 k)) := by intro a x; exact chk_tbuf _ _ hb11 a x
    have hc353 : k0_chk353 (addi v1763 (k0_pay15 v2 0#32 1#32 k)) := by intro a x; exact chk_tbuf _ _ hb12 a x
    have hc354 : k0_chk354 (addi v1788 (k0_pay15 v2 0#32 1#32 k)) := by intro a x; exact chk_tbuf _ _ hb13 a x
    have hc355 : k0_chk355 (k0_pay415 v6 (k0_pay15 v2 0#32 1#32 k)) := by intro a x; exact chk_obuf _ _ _ h6 (by decide) a x
    unfold k0_t6_body
    simp only [k0_part5_eq_skeleton]; unfold k0_part5_skel
    unfold SparseCore.vectorLoadIdx SparseCore.vectorStoreIdx
    sl_exec (disch := assumption)
    sl_step
    isplitl [H7]; · iexact H7
    iexists _
    isplitl [H6]; · iexact H6
    ipureintro
    rw [read_writes_whole]
    simp only [readAt_whole_eq]
    refine rows_step 4 (by decide) (arg7.view.read (Elt F) g7) (![v1463, v1488, v1513, v1538, v1563, v1588, v1613, v1638, v1663, v1688, v1713, v1738, v1763, v1788] : Fin 14 → IVec S16 32) (arg6.view.read (Elt F) f6) k.val hk _ _ _ _ ?_ ?_ hX
    · intro l
      show ((v6 (ix1 l) + (((0#32 + BitVec.ofNat 32 k.val * 1#32) + v2 (ix1 l)) &&& 127#32)) + 8192#32).toNat = _
      rw [hv6, hv2, toNat_slot k.val l.val hk l.isLt 8192#32 (by decide)]
      rfl
    · intro l
      exact treeVec_loads_apply (arg7.view.read (Elt F) g7) (![v1463, v1488, v1513, v1538, v1563, v1588, v1613, v1638, v1663, v1688, v1713, v1738, v1763, v1788] : Fin 14 → IVec S16 32) (k0_pay15 v2 0#32 1#32 k)
        (fun j a x => chk_tbuf _ _ (hB j) a x) hB l _ (hdd l) (Nat.mod_lt _ (by decide))
  isplitl [H7 H6]
  · isplitl [H7]; · iexact H7
    iexists f6
    isplitl [H6]; · iexact H6
    ipureintro
    exact rowsUpTo_zero _ _ _ _
  · iintro %_ HI
    icases HI with ⟨H7, %f, H6, %hX⟩
    isplitl [H7]; · iexact H7
    iexists f
    isplitl [H6]; · iexact H6
    ipureintro
    exact rowsDone_of_upTo _ _ _ _ _ (htrips ▸ hX)

end Loops

end Cert.Proof.KI

end
-- ==== Proof.TileRowsSpec.lean ====
/-
  The rows a column loop leaves in the block of results, against the specification.

  When the table copy holds the flattened grouped table and, for a lane, the base of group `j` is
  `j * 2048 + c_j * 128` with `c_j` the number of the rows the four features of group `j` select in the lane's row `n` of the
  index matrix, the tree of the fourteen reads at column `c` is the specification's function at `(n, c)`.
-/
import proofs.«203024_g60129542144782_cont_9to1_m_748_22_alg».proof.Proof.TileLoopsVal
import proofs.«203024_g60129542144782_cont_9to1_m_748_22_alg».proof.Proof.GroupedTableSpec

noncomputable section

namespace Cert.Proof.KI

open Cert.KernelIdeal Cert.Spec Cert.GroupedTable
open Idealize.ShloMosaic Idealize.ShloMosaic.ValueIdx
open Cert.LookupLaws (code word4 feat)

/-- Floats read as extended reals, the tree of fourteen is the pairwise tree of sums. -/
theorem treeF_ideal (v : Fin 14 → EReal) :
    treeF (F := Ideal) v
      = (((v 0 + v 1) + (v 2 + v 3)) + ((v 4 + v 5) + (v 6 + v 7)))
        + (((v 8 + v 9) + (v 10 + v 11)) + (v 12 + v 13)) := rfl

/-- A read of the flattened grouped table at a group's base plus a column is the grouped table's entry for the group, the
    row's number for the group, and the column. -/
theorem tblRead_eq_gtAt (x : IVec SX 32) (t : FVec Ideal ST .f32) (n : Fin 100000) (b : BitVec 32) (j : Fin 14)
    (hb : b.toNat = j.val * 2048 + (code (rowSel x n) j).val * 128) (c : Fin 128) :
    tblRead (F := Ideal) (gtTerm (F := Ideal) t) (b.toNat + c.val) = gtAt x t n c j := by
  have h1 := (code (rowSel x n) j).isLt
  have h2 := j.isLt
  have h3 := c.isLt
  unfold tblRead gtAt
  rw [dif_pos (by omega)]
  congr 2
  exact Fin.ext (by show b.toNat + c.val = j.val * 2048 + (code (rowSel x n) j).val * 128 + c.val; omega)

/-- THE ROW VALUE AGAINST THE SPECIFICATION: with the table copy the flattened grouped table and lane `l`'s bases those of
    row `n`, what the lane stores for column `c` is the specification's function at `(n, c)`. -/
theorem rowVal_eq_G (x : IVec SX 32) (t : FVec Ideal ST .f32) (n : Fin 100000) (bases : Fin 14 → IVec S16 32) (l : Fin 16)
    (hbase : ∀ j : Fin 14, (bases j (ix1 l)).toNat = j.val * 2048 + (code (rowSel x n) j).val * 128) (c : Fin 128) :
    rowVal (F := Ideal) (gtTerm (F := Ideal) t) bases l c.val = G x t (ix2 n c) := by
  unfold rowVal
  rw [treeF_ideal]
  simp only [tblRead_eq_gtAt x t n _ _ (hbase _) c]
  exact tree_gtAt_eq_G x t n c

/-- The rows a finished column loop leaves, against the specification: lane `l` of row group `q` having worked on row
    `nrow l` of the index matrix, row `16 q + l` of the block holds the specification's row `nrow l`. -/
theorem rowsDone_eq_G (q : ℕ) (x : IVec SX 32) (t : FVec Ideal ST .f32) (nrow : Fin 16 → Fin 100000)
    (bases : Fin 14 → IVec S16 32)
    (hbase : ∀ (l : Fin 16) (j : Fin 14),
      (bases j (ix1 l)).toNat = j.val * 2048 + (code (rowSel x (nrow l)) j).val * 128)
    (X6 X : Vec Ideal S10240 .f32) (h : RowsDone (F := Ideal) q (gtTerm (F := Ideal) t) bases X6 X)
    (l : Fin 16) (c : Fin 128) (hp : (16 * q + l.val) * 128 + c.val < 10240) :
    X (ix1 ⟨(16 * q + l.val) * 128 + c.val, hp⟩) = G x t (ix2 (nrow l) c) :=
  (h.1 l c hp).trans (rowVal_eq_G x t (nrow l) bases l (hbase l) c)

/-! ## The bases -/

section Bases

variable {F : FTy → Type} [FloatOps F]

/-- A word that is zero or one is the word of the row number it selects. -/
theorem word_eq_ofNat_sel (w : BitVec 32) (h : w = 0#32 ∨ w = 1#32) : w = BitVec.ofNat 32 (sel w).val := by
  rcases h with rfl | rfl
  · rw [sel_zero]; rfl
  · rw [sel_one]; rfl

/-- A group's base as the program computes it: the four entries as a four-bit number, times 128, plus the group's
    offset. -/
def baseOf (x0 x1 x2 x3 : IVec S16 32) (c : BitVec 32) : IVec S16 32 :=
  addi (muli (addi (addi (addi x0 (muli x1 (broadcast S16 2#32))) (muli x2 (broadcast S16 4#32)))
    (muli x3 (broadcast S16 8#32))) (broadcast S16 128#32)) (broadcast S16 c)

/-- The base of group `j` at a lane whose four entries are zeros and ones: `j * 2048` plus 128 times the four-bit number
    of the rows the entries select. -/
theorem baseOf_toNat (x0 x1 x2 x3 : IVec S16 32) (c : BitVec 32) (i : S16.Idx)
    (h0 : x0 i = 0#32 ∨ x0 i = 1#32) (h1 : x1 i = 0#32 ∨ x1 i = 1#32) (h2 : x2 i = 0#32 ∨ x2 i = 1#32)
    (h3 : x3 i = 0#32 ∨ x3 i = 1#32) (j : ℕ) (hj : j < 14) (hc : c.toNat = j * 2048) :
    (baseOf x0 x1 x2 x3 c i).toNat
      = j * 2048 + (word4 (sel (x0 i)) (sel (x1 i)) (sel (x2 i)) (sel (x3 i))).val * 128 := by
  show ((((x0 i + x1 i * 2#32) + x2 i * 4#32) + x3 i * 8#32) * 128#32 + c).toNat = _
  have e0 := word_eq_ofNat_sel _ h0
  have e1 := word_eq_ofNat_sel _ h1
  have e2 := word_eq_ofNat_sel _ h2
  have e3 := word_eq_ofNat_sel _ h3
  generalize sel (x0 i) = a0 at e0 ⊢
  generalize sel (x1 i) = a1 at e1 ⊢
  generalize sel (x2 i) = a2 at e2 ⊢
  generalize sel (x3 i) = a3 at e3 ⊢
  rw [e0, e1, e2, e3, Cert.LookupLaws.word4_word]
  have hw := (word4 a0 a1 a2 a3).isLt
  rw [BitVec.toNat_add, BitVec.toNat_mul, BitVec.toNat_ofNat, hc]
  simp only [BitVec.toNat_ofNat]
  omega

/-- The same against the index matrix: the lane's four entries being the entries of row `n` at the four features of group
    `j`, the base is `j * 2048` plus 128 times the number of row `n` for the group. -/
theorem baseOf_toNat_code (x : IVec SX 32) (hx : Bin x) (n : Fin 100000) (x0 x1 x2 x3 : IVec S16 32) (c : BitVec 32)
    (i : S16.Idx) (j : Fin 14)
    (h0 : x0 i = x (ix2 n (feat j 0))) (h1 : x1 i = x (ix2 n (feat j 1)))
    (h2 : x2 i = x (ix2 n (feat j 2))) (h3 : x3 i = x (ix2 n (feat j 3))) (hc : c.toNat = j.val * 2048) :
    (baseOf x0 x1 x2 x3 c i).toNat = j.val * 2048 + (code (rowSel x n) j).val * 128 := by
  rw [baseOf_toNat x0 x1 x2 x3 c i (h0 ▸ hx _) (h1 ▸ hx _) (h2 ▸ hx _) (h3 ▸ hx _) j.val j.isLt hc, h0, h1, h2, h3]
  rfl

/-- A load from the tile's copy of eighty rows at the lane's row start plus a constant, at a lane. -/
theorem loadIdx_row_apply (R : Vec F S4480 .i32) (v4 : IVec S16 32) (c : BitVec 32)
    (hin : ∀ a x, ((![addi v4 (broadcast S16 c)] : Fin S4480.rank → IVec S16 32) a x).toNat < S4480.size a)
    (l : Fin 16) (hv4 : (v4 (ix1 l)).toNat = l.val * 56) (p : ℕ) (hp : l.val * 56 + c.toNat = p) (hlt : p < 4480) :
    loadIdx R ![addi v4 (broadcast S16 c)] hin (ix1 l) = R (ix1 ⟨p, hlt⟩) := by
  unfold loadIdx
  congr 1
  funext a
  match a with
  | ⟨0, _⟩ =>
    refine Fin.ext ?_
    show ((v4 (ix1 l)) + c).toNat = p
    rw [BitVec.toNat_add, hv4]
    omega

end Bases

/-! ## The block of eighty rows after the five loops -/

/-- One row group: after its loop, a row of the group holds the specification's row. -/
theorem row_of_done (q : ℕ) (hq : q ≤ 4) (x : IVec SX 32) (t : FVec Ideal ST .f32) (m0 : ℕ) (hm : m0 + 80 ≤ 100000)
    (b : Fin 14 → IVec S16 32)
    (hb : ∀ (l : Fin 16) (j : Fin 14),
      (b j (ix1 l)).toNat = j.val * 2048 + (code (rowSel x ⟨m0 + 16 * q + l.val, by omega⟩) j).val * 128)
    (Xa Xb : Vec Ideal S10240 .f32) (hd : RowsDone (F := Ideal) q (gtTerm (F := Ideal) t) b Xa Xb)
    (r : Fin 80) (hr : r.val / 16 = q) (c : Fin 128) :
    Xb (ix1 ⟨r.val * 128 + c.val, by omega⟩) = G x t (ix2 ⟨m0 + r.val, by omega⟩ c) := by
  have hl : r.val % 16 < 16 := Nat.mod_lt _ (by decide)
  have hrq : r.val = 16 * q + r.val % 16 := by omega
  have key := rowsDone_eq_G q x t (fun l => ⟨m0 + 16 * q + l.val, by omega⟩) b hb Xa Xb hd ⟨r.val % 16, hl⟩ c (by
    show (16 * q + r.val % 16) * 128 + c.val < 10240; omega)
  have e1 : (⟨(16 * q + r.val % 16) * 128 + c.val, by omega⟩ : Fin 10240) = ⟨r.val * 128 + c.val, by omega⟩ :=
    Fin.ext (by show (16 * q + r.val % 16) * 128 + c.val = r.val * 128 + c.val; omega)
  have e2 : (⟨m0 + 16 * q + r.val % 16, by omega⟩ : Fin 100000) = ⟨m0 + r.val, by omega⟩ :=
    Fin.ext (by show m0 + 16 * q + r.val % 16 = m0 + r.val; omega)
  rw [← e1, ← e2]
  exact key

/-- THE BLOCK AFTER THE FIVE LOOPS: each loop starting from the block the one before left, the table copy the flattened
    grouped table, and the bases of row group `q`, lane `l` those of row `m0 + 16 q + l` of the index matrix, row `r` of the
    block holds the specification's row `m0 + r`, for all eighty rows. -/
theorem block_eq_G (x : IVec SX 32) (t : FVec Ideal ST .f32) (m0 : ℕ) (hm : m0 + 80 ≤ 100000)
    (b0 b1 b2 b3 b4 : Fin 14 → IVec S16 32)
    (hb0 : ∀ (l : Fin 16) (j : Fin 14),
      (b0 j (ix1 l)).toNat = j.val * 2048 + (code (rowSel x ⟨m0 + 16 * 0 + l.val, by omega⟩) j).val * 128)
    (hb1 : ∀ (l : Fin 16) (j : Fin 14),
      (b1 j (ix1 l)).toNat = j.val * 2048 + (code (rowSel x ⟨m0 + 16 * 1 + l.val, by omega⟩) j).val * 128)
    (hb2 : ∀ (l : Fin 16) (j : Fin 14),
      (b2 j (ix1 l)).toNat = j.val * 2048 + (code (rowSel x ⟨m0 + 16 * 2 + l.val, by omega⟩) j).val * 128)
    (hb3 : ∀ (l : Fin 16) (j : Fin 14),
      (b3 j (ix1 l)).toNat = j.val * 2048 + (code (rowSel x ⟨m0 + 16 * 3 + l.val, by omega⟩) j).val * 128)
    (hb4 : ∀ (l : Fin 16) (j : Fin 14),
      (b4 j (ix1 l)).toNat = j.val * 2048 + (code (rowSel x ⟨m0 + 16 * 4 + l.val, by omega⟩) j).val * 128)
    (X0 X1 X2 X3 X4 X5 : Vec Ideal S10240 .f32)
    (hd0 : RowsDone (F := Ideal) 0 (gtTerm (F := Ideal) t) b0 X0 X1)
    (hd1 : RowsDone (F := Ideal) 1 (gtTerm (F := Ideal) t) b1 X1 X2)
    (hd2 : RowsDone (F := Ideal) 2 (gtTerm (F := Ideal) t) b2 X2 X3)
    (hd3 : RowsDone (F := Ideal) 3 (gtTerm (F := Ideal) t) b3 X3 X4)
    (hd4 : RowsDone (F := Ideal) 4 (gtTerm (F := Ideal) t) b4 X4 X5)
    (r : Fin 80) (c : Fin 128) :
    X5 (ix1 ⟨r.val * 128 + c.val, by omega⟩) = G x t (ix2 ⟨m0 + r.val, by omega⟩ c) := by
  have hr := r.isLt
  have hc := c.isLt
  have hp : (r.val * 128 + c.val) / 128 = r.val := by omega
  -- a later loop leaves an earlier group's rows alone
  have k4 : r.val / 16 < 4 → X5 (ix1 ⟨r.val * 128 + c.val, by omega⟩) = X4 (ix1 ⟨r.val * 128 + c.val, by omega⟩) :=
    fun h => hd4.2 ⟨r.val * 128 + c.val, by omega⟩ (Or.inl (by show (r.val * 128 + c.val) / 128 < 16 * 4; omega))
  have k3 : r.val / 16 < 3 → X4 (ix1 ⟨r.val * 128 + c.val, by omega⟩) = X3 (ix1 ⟨r.val * 128 + c.val, by omega⟩) :=
    fun h => hd3.2 ⟨r.val * 128 + c.val, by omega⟩ (Or.inl (by show (r.val * 128 + c.val) / 128 < 16 * 3; omega))
  have k2 : r.val / 16 < 2 → X3 (ix1 ⟨r.val * 128 + c.val, by omega⟩) = X2 (ix1 ⟨r.val * 128 + c.val, by omega⟩) :=
    fun h => hd2.2 ⟨r.val * 128 + c.val, by omega⟩ (Or.inl (by show (r.val * 128 + c.val) / 128 < 16 * 2; omega))
  have k1 : r.val / 16 < 1 → X2 (ix1 ⟨r.val * 128 + c.val, by omega⟩) = X1 (ix1 ⟨r.val * 128 + c.val, by omega⟩) :=
    fun h => hd1.2 ⟨r.val * 128 + c.val, by omega⟩ (Or.inl (by show (r.val * 128 + c.val) / 128 < 16 * 1; omega))
  have hq : r.val / 16 = 0 ∨ r.val / 16 = 1 ∨ r.val / 16 = 2 ∨ r.val / 16 = 3 ∨ r.val / 16 = 4 := by omega
  rcases hq with h | h | h | h | h
  · rw [k4 (by omega), k3 (by omega), k2 (by omega), k1 (by omega)]
    exact row_of_done 0 (by decide) x t m0 hm b0 hb0 X0 X1 hd0 r h c
  · rw [k4 (by omega), k3 (by omega), k2 (by omega)]
    exact row_of_done 1 (by decide) x t m0 hm b1 hb1 X1 X2 hd1 r h c
  · rw [k4 (by omega), k3 (by omega)]
    exact row_of_done 2 (by decide) x t m0 hm b2 hb2 X2 X3 hd2 r h c
  · rw [k4 (by omega)]
    exact row_of_done 3 (by decide) x t m0 hm b3 hb3 X3 X4 hd3 r h c
  · exact row_of_done 4 (by decide) x t m0 hm b4 hb4 X4 X5 hd4 r h c

end Cert.Proof.KI

end
-- ==== Proof.ChunkVal.lean ====
/-
  One micro-batch of a tile task, with the values: after the copy of the eighty index rows in, the five column loops and
  the copy of the block of results out, the micro-batch's window of the result array holds the specification's rows.
-/
import proofs.«203024_g60129542144782_cont_9to1_m_748_22_alg».proof.Proof.Chunk
import proofs.«203024_g60129542144782_cont_9to1_m_748_22_alg».proof.Proof.TileRowsSpec
import proofs.«203024_g60129542144782_cont_9to1_m_748_22_alg».proof.Proof.TileSplit

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.ScatterRows

local notation "𝕄" => MT nD τ sig (HIx 1) (Elt Ideal) ℕ UU ℕ

section Window

variable {F : FTy → Type} [FloatOps F]

/-- Reading the result window at position `p` reads the result array at `10240 (w + 32 t) + p`. -/
theorem read_outSl (i : grid0.Coords) (t : Fin (k0_t1_loop i).trips) (Y : S512000.Idx → Elt F .f32) (p : ℕ) (hp : p < 10240) :
    (outSl i t).view.read (Elt F) Y (ix1 ⟨p, hp⟩)
      = Y (ix1 ⟨10240 * (widOf i + 32 * t.val) + p, by have := batch_lt i t; omega⟩) := by
  show Y ((Rect.unit (s := S512000) (k0_off2 i t) S10240.size (k0_off2_inb i t)).emb (ix1 ⟨p, hp⟩)) = Y (ix1 ⟨_, _⟩)
  congr 1
  funext a
  match a with
  | ⟨0, _⟩ =>
    refine Fin.ext ?_
    rw [Rect.emb_apply]
    show k0_off2 i t 0 + 1 * p = 10240 * (widOf i + 32 * t.val) + p
    rw [off2_eq]
    show 10240 * (widOf i + 32 * t.val) + 1 * p = _
    omega

/-- The window's rows stated entry by entry of the result array: entry `j` of the window holds the specification's
    value at row `96000 + j / 128`, column `j mod 128`. -/
theorem window_entries (i : grid0.Coords) (t : Fin (k0_t1_loop i).trips) (x : IVec Cert.Spec.SX 32)
    (tt : FVec Ideal Cert.Spec.ST .f32) (Y : S512000.Idx → Elt Ideal .f32)
    (h : ∀ (r : Fin 80) (c : Fin 128), (outSl i t).view.read (Elt Ideal) Y (ix1 ⟨r.val * 128 + c.val, by omega⟩)
      = Cert.Spec.G x tt (ix2 ⟨96000 + 80 * (widOf i + 32 * t.val) + r.val, by have := batch_lt i t; omega⟩ c)) :
    ∀ j : S512000.Idx, j ∈ (outSl i t).view.set →
      Y j = Cert.Spec.G x tt (ix2 ⟨96000 + (j 0).val / 128, by have h : (j 0).val < 512000 := (j 0).isLt; omega⟩
        ⟨(j 0).val % 128, Nat.mod_lt _ (by decide)⟩) := by
  intro j hj
  rw [set_outSl, mem_batchSet] at hj
  have hb := batch_lt i t
  have hj0 : (j 0).val < 512000 := (j 0).isLt
  have hp : (j 0).val - 10240 * (widOf i + 32 * t.val) < 10240 := by omega
  have key := h ⟨((j 0).val - 10240 * (widOf i + 32 * t.val)) / 128, by omega⟩
    ⟨((j 0).val - 10240 * (widOf i + 32 * t.val)) % 128, Nat.mod_lt _ (by decide)⟩
  have e1 : (⟨((j 0).val - 10240 * (widOf i + 32 * t.val)) / 128 * 128 + ((j 0).val - 10240 * (widOf i + 32 * t.val)) % 128, by omega⟩ : Fin 10240)
      = ⟨(j 0).val - 10240 * (widOf i + 32 * t.val), hp⟩ := Fin.ext (by
    show ((j 0).val - 10240 * (widOf i + 32 * t.val)) / 128 * 128 + ((j 0).val - 10240 * (widOf i + 32 * t.val)) % 128
      = (j 0).val - 10240 * (widOf i + 32 * t.val)
    omega)
  rw [e1, read_outSl] at key
  have e2 : (ix1 ⟨10240 * (widOf i + 32 * t.val) + ((j 0).val - 10240 * (widOf i + 32 * t.val)), by omega⟩ : S512000.Idx) = j := by
    funext a
    match a with
    | ⟨0, _⟩ => exact Fin.ext (by show 10240 * (widOf i + 32 * t.val) + ((j 0).val - 10240 * (widOf i + 32 * t.val)) = (j 0).val; omega)
  rw [e2] at key
  rw [key]
  refine congrArg₂ (fun a b => Cert.Spec.G x tt (ix2 a b)) (Fin.ext ?_) (Fin.ext ?_)
  · show 96000 + 80 * (widOf i + 32 * t.val) + ((j 0).val - 10240 * (widOf i + 32 * t.val)) / 128 = 96000 + (j 0).val / 128
    omega
  · show ((j 0).val - 10240 * (widOf i + 32 * t.val)) % 128 = (j 0).val % 128
    omega

end Window

set_option hygiene false in
/-- The base of a group at a lane, from the copy of the eighty rows: see `baseOf_toNat_code`. -/
macro "base_tac" : tactic => `(tactic|
  (refine baseOf_toNat_code x hx _ _ _ _ _ _ (ix1 l) _ ?_ ?_ ?_ ?_ ?_
   all_goals first
    | (refine (loadIdx_row_apply (F := Ideal) _ v4 _ _ l (hv4 l) _ rfl (by have := l.isLt; (try simp only [BitVec.toNat_ofNat, Cert.LookupLaws.feat]); (try simp only [BitVec.toNat, Fin.Internal.ofNat]); omega)).trans ((hRv _ _).trans ?_)
       refine congrArg₂ (fun a b => x (ix2 a b)) (Fin.ext ?_) (Fin.ext ?_)
       · have := l.isLt; have := batch_lt i t; (try simp only [BitVec.toNat_ofNat, Cert.LookupLaws.feat]); (try simp only [BitVec.toNat, Fin.Internal.ofNat]); omega
       · have := l.isLt; (try simp only [BitVec.toNat_ofNat, Cert.LookupLaws.feat]); (try simp only [BitVec.toNat, Fin.Internal.ofNat]); omega)
    | rfl))

set_option maxHeartbeats 8000000 in
set_option maxRecDepth 65536 in
/-- ONE MICRO-BATCH WITH ITS VALUES: the flattened index rows holding those of an index matrix `x` of zeros and ones, and the
    table copy reading as the flattened grouped table of the table `tt`, the micro-batch leaves in its window of the
    result array, row by row and entry by entry, the specification's function of `x` and `tt`. -/
theorem chunkVal (d : Dev nD) (i : grid0.Coords) (v1 : BitVec 32) (v2 v4 v6 : IVec S16 32) (c0 c1 : BitVec 32) (t : Fin (k0_t1_loop i).trips)
    (O : CellTallies nD τ sig (HIx 1)) (W : Waits sig (HIx 1)) (qx : PosShare TreeShare)
    (x : IVec Cert.Spec.SX 32) (hx : Cert.Spec.Bin x) (tt : FVec Ideal Cert.Spec.ST .f32)
    (fx : Buf (Elt Ideal) (xsM.view.loc (V d (cV i) (jV i)))) (hfxv : fx = Cert.GroupedTable.xsTerm x)
    (g7 : Buf (Elt Ideal) (tbufM.view.loc (V d (cV i) (jV i))))
    (hg7 : tbufM.view.read (Elt Ideal) g7 = Cert.GroupedTable.gtTerm (F := Ideal) tt)
    (fo : Buf (Elt Ideal) ((outM.slice (Rect.unit (s := S512000) (k0_off2 i t) S10240.size (k0_off2_inb i t)) (fun _ => rfl)).view.loc (V d (cV i) (jV i))))
    (h4 : AtMost 840 v4) (h6 : AtMost 1920 v6)
    (hv2 : ∀ l : Fin 16, v2 (ix1 l) = BitVec.ofNat 32 l.val) (hv4 : ∀ l : Fin 16, (v4 (ix1 l)).toNat = l.val * 56)
    (hv6 : ∀ l : Fin 16, v6 (ix1 l) = BitVec.ofNat 32 l.val * 128#32) :
    iprop(Transfers.MayWaits (V d (cV i) (jV i)) (none : HIx 1) O
        ∗ (xsM.view.loc (V d (cV i) (jV i)) ↦{qx} fx)
        ∗ (tbufM.view.loc (V d (cV i) (jV i)) ↦{fullShare} g7)
        ∗ (∃ f5, xbufM.view.loc (V d (cV i) (jV i)) ↦{fullShare} f5)
        ∗ (∃ f6, obufM.view.loc (V d (cV i) (jV i)) ↦{fullShare} f6)
        ∗ ((outM.slice (Rect.unit (s := S512000) (k0_off2 i t) S10240.size (k0_off2_inb i t)) (fun _ => rfl)).view.loc (V d (cV i) (jV i)) ↦[(outM.slice (Rect.unit (s := S512000) (k0_off2 i t) S10240.size (k0_off2_inb i t)) (fun _ => rfl)).view.set]{fullShare} fo)
        ∗ semVal ((V d (cV i) (jV i)), SemLoc.dma cc0_scoped1.sem) 0
        ∗ semVal ((V d (cV i) (jV i)), SemLoc.dma cc0_scoped2.sem) 0
        ∗ ∃ W', ⌜∀ p ∈ W', p ∈ W ∨ p.2 = none⌝ ∗ owes (V d (cV i) (jV i)) O W' : sProp 𝕄)
      ⊢ wp frame (wpE (defs₀ (F := Ideal)) 𝒱₀ (V d (cV i) (jV i)) none) Set.univ
          (k0_part51 i xsM (Memref.isWhole_whole _) gtM (Memref.isWhole_whole _) outM (Memref.isWhole_whole _) xbufM (Memref.isWhole_whole _) obufM (Memref.isWhole_whole _) tbufM (Memref.isWhole_whole _) cc0_scoped0 cc0_scoped1 cc0_scoped2 cc0_scoped3 cc0_scoped4 v1 v2 v4 v6 c0 c1 t)
          fun _ => iprop((xsM.view.loc (V d (cV i) (jV i)) ↦{qx} fx)
            ∗ (tbufM.view.loc (V d (cV i) (jV i)) ↦{fullShare} g7)
            ∗ (∃ f5, xbufM.view.loc (V d (cV i) (jV i)) ↦{fullShare} f5)
            ∗ (∃ f6, obufM.view.loc (V d (cV i) (jV i)) ↦{fullShare} f6)
            ∗ (∃ fo', ((outM.slice (Rect.unit (s := S512000) (k0_off2 i t) S10240.size (k0_off2_inb i t)) (fun _ => rfl)).view.loc (V d (cV i) (jV i)) ↦[(outM.slice (Rect.unit (s := S512000) (k0_off2 i t) S10240.size (k0_off2_inb i t)) (fun _ => rfl)).view.set]{fullShare} fo')
                ∗ ⌜(∀ (r : Fin 80) (c : Fin 128), (outM.slice (Rect.unit (s := S512000) (k0_off2 i t) S10240.size (k0_off2_inb i t)) (fun _ => rfl)).view.read (Elt Ideal) fo' (ix1 ⟨r.val * 128 + c.val, by omega⟩)
                      = Cert.Spec.G x tt (ix2 ⟨96000 + 80 * (widOf i + 32 * t.val) + r.val, by have := batch_lt i t; omega⟩ c))
                    ∧ ∀ j : S512000.Idx, j ∈ (outM.slice (Rect.unit (s := S512000) (k0_off2 i t) S10240.size (k0_off2_inb i t)) (fun _ => rfl)).view.set →
                        fo' j = Cert.Spec.G x tt (ix2 ⟨96000 + (j 0).val / 128, by have h : (j 0).val < 512000 := (j 0).isLt; omega⟩
                          ⟨(j 0).val % 128, Nat.mod_lt _ (by decide)⟩)⌝)
            ∗ semVal ((V d (cV i) (jV i)), SemLoc.dma cc0_scoped1.sem) 0
            ∗ semVal ((V d (cV i) (jV i)), SemLoc.dma cc0_scoped2.sem) 0
            ∗ ∃ W', ⌜∀ p ∈ W', p ∈ W ∨ p.2 = none⌝ ∗ owes (V d (cV i) (jV i)) O W') := by
  have hfx : Bin32 (xsM.view.read (Elt Ideal) fx) := by
    intro j; rw [hfxv]; exact hx _
  have hc1 : k0_chk1 (k0_pay18 v4) := by intro a x; exact chk_xbuf _ _ h4 (by decide) a x
  have hc2 : k0_chk2 (k0_pay19 v4) := by intro a x; exact chk_xbuf _ _ h4 (by decide) a x
  have hc3 : k0_chk3 (k0_pay20 v4) := by intro a x; exact chk_xbuf _ _ h4 (by decide) a x
  have hc4 : k0_chk4 (k0_pay21 v4) := by intro a x; exact chk_xbuf _ _ h4 (by decide) a x
  have hc5 : k0_chk5 (k0_pay23 v4) := by intro a x; exact chk_xbuf _ _ h4 (by decide) a x
  have hc6 : k0_chk6 (k0_pay24 v4) := by intro a x; exact chk_xbuf _ _ h4 (by decide) a x
  have hc7 : k0_chk7 (k0_pay25 v4) := by intro a x; exact chk_xbuf _ _ h4 (by decide) a x
  have hc8 : k0_chk8 (k0_pay26 v4) := by intro a x; exact chk_xbuf _ _ h4 (by decide) a x
  have hc9 : k0_chk9 (k0_pay28 v4) := by intro a x; exact chk_xbuf _ _ h4 (by decide) a x
  have hc10 : k0_chk10 (k0_pay29 v4) := by intro a x; exact chk_xbuf _ _ h4 (by decide) a x
  have hc11 : k0_chk11 (k0_pay30 v4) := by intro a x; exact chk_xbuf _ _ h4 (by decide) a x
  have hc12 : k0_chk12 (k0_pay31 v4) := by intro a x; exact chk_xbuf _ _ h4 (by decide) a x
  have hc13 : k0_chk13 (k0_pay34 v4) := by intro a x; exact chk_xbuf _ _ h4 (by decide) a x
  have hc14 : k0_chk14 (k0_pay35 v4) := by intro a x; exact chk_xbuf _ _ h4 (by decide) a x
  have hc15 : k0_chk15 (k0_pay36 v4) := by intro a x; exact chk_xbuf _ _ h4 (by decide) a x
  have hc16 : k0_chk16 (k0_pay37 v4) := by intro a x; exact chk_xbuf _ _ h4 (by decide) a x
  have hc17 : k0_chk17 (k0_pay39 v4) := by intro a x; exact chk_xbuf _ _ h4 (by decide) a x
  have hc18 : k0_chk18 (k0_pay40 v4) := by intro a x; exact chk_xbuf _ _ h4 (by decide) a x
  have hc20 : k0_chk20 (k0_pay43 v4) := by intro a x; exact chk_xbuf _ _ h4 (by decide) a x
  have hc21 : k0_chk21 (k0_pay45 v4) := by intro a x; exact chk_xbuf _ _ h4 (by decide) a x
  have hc22 : k0_chk22 (k0_pay46 v4) := by intro a x; exact chk_xbuf _ _ h4 (by decide) a x
  have hc23 : k0_chk23 (k0_pay47 v4) := by intro a x; exact chk_xbuf _ _ h4 (by decide) a x
  have hc24 : k0_chk24 (k0_pay48 v4) := by intro a x; exact chk_xbuf _ _ h4 (by decide) a x
  have hc25 : k0_chk25 (k0_pay50 v4) := by intro a x; exact chk_xbuf _ _ h4 (by decide) a x
  have hc26 : k0_chk26 (k0_pay51 v4) := by intro a x; exact chk_xbuf _ _ h4 (by decide) a x
  have hc27 : k0_chk27 (k0_pay52 v4) := by intro a x; exact chk_xbuf _ _ h4 (by decide) a x
  have hc28 : k0_chk28 (k0_pay53 v4) := by intro a x; exact chk_xbuf _ _ h4 (by decide) a x
  have hc29 : k0_chk29 (k0_pay55 v4) := by intro a x; exact chk_xbuf _ _ h4 (by decide) a x
  have hc30 : k0_chk30 (k0_pay56 v4) := by intro a x; exact chk_xbuf _ _ h4 (by decide) a x
  have hc31 : k0_chk31 (k0_pay58 v4) := by intro a x; exact chk_xbuf _ _ h4 (by decide) a x
  have hc32 : k0_chk32 (k0_pay60 v4) := by intro a x; exact chk_xbuf _ _ h4 (by decide) a x
  have hc33 : k0_chk33 (k0_pay62 v4) := by intro a x; exact chk_xbuf _ _ h4 (by decide) a x
  have hc34 : k0_chk34 (k0_pay63 v4) := by intro a x; exact chk_xbuf _ _ h4 (by decide) a x
  have hc35 : k0_chk35 (k0_pay64 v4) := by intro a x; exact chk_xbuf _ _ h4 (by decide) a x
  have hc36 : k0_chk36 (k0_pay65 v4) := by intro a x; exact chk_xbuf _ _ h4 (by decide) a x
  have hc37 : k0_chk37 (k0_pay67 v4) := by intro a x; exact chk_xbuf _ _ h4 (by decide) a x
  have hc38 : k0_chk38 (k0_pay68 v4 37#32) := by intro a x; exact chk_xbuf _ _ h4 (by decide) a x
  have hc39 : k0_chk39 (k0_pay69 v4) := by intro a x; exact chk_xbuf _ _ h4 (by decide) a x
  have hc40 : k0_chk40 (k0_pay70 v4) := by intro a x; exact chk_xbuf _ _ h4 (by decide) a x
  have hc41 : k0_chk41 (k0_pay72 v4) := by intro a x; exact chk_xbuf _ _ h4 (by decide) a x
  have hc42 : k0_chk42 (k0_pay73 v4) := by intro a x; exact chk_xbuf _ _ h4 (by decide) a x
  have hc43 : k0_chk43 (k0_pay74 v4) := by intro a x; exact chk_xbuf _ _ h4 (by decide) a x
  have hc44 : k0_chk44 (k0_pay76 v4) := by intro a x; exact chk_xbuf _ _ h4 (by decide) a x
  have hc45 : k0_chk45 (k0_pay78 v4) := by intro a x; exact chk_xbuf _ _ h4 (by decide) a x
  have hc46 : k0_chk46 (k0_pay79 v4) := by intro a x; exact chk_xbuf _ _ h4 (by decide) a x
  have hc47 : k0_chk47 (k0_pay80 v4) := by intro a x; exact chk_xbuf _ _ h4 (by decide) a x
  have hc48 : k0_chk48 (k0_pay81 v4) := by intro a x; exact chk_xbuf _ _ h4 (by decide) a x
  have hc49 : k0_chk49 (k0_pay83 v4) := by intro a x; exact chk_xbuf _ _ h4 (by decide) a x
  have hc50 : k0_chk50 (k0_pay84 v4) := by intro a x; exact chk_xbuf _ _ h4 (by decide) a x
  have hc51 : k0_chk51 (k0_pay86 v4) := by intro a x; exact chk_xbuf _ _ h4 (by decide) a x
  have hc52 : k0_chk52 (k0_pay87 v4) := by intro a x; exact chk_xbuf _ _ h4 (by decide) a x
  have hc53 : k0_chk53 (k0_pay89 v4) := by intro a x; exact chk_xbuf _ _ h4 (by decide) a x
  have hc54 : k0_chk54 (k0_pay90 v4) := by intro a x; exact chk_xbuf _ _ h4 (by decide) a x
  have hc55 : k0_chk55 (k0_pay91 v4) := by intro a x; exact chk_xbuf _ _ h4 (by decide) a x
  have hc56 : k0_chk56 (k0_pay92 v4) := by intro a x; exact chk_xbuf _ _ h4 (by decide) a x
  have hc72 : k0_chk72 (k0_pay98 v4) := by intro a x; exact chk_xbuf _ _ h4 (by decide) a x
  have hc73 : k0_chk73 (k0_pay99 v4) := by intro a x; exact chk_xbuf _ _ h4 (by decide) a x
  have hc74 : k0_chk74 (k0_pay100 v4) := by intro a x; exact chk_xbuf _ _ h4 (by decide) a x
  have hc75 : k0_chk75 (k0_pay101 v4) := by intro a x; exact chk_xbuf _ _ h4 (by decide) a x
  have hc76 : k0_chk76 (k0_pay103 v4) := by intro a x; exact chk_xbuf _ _ h4 (by decide) a x
  have hc77 : k0_chk77 (k0_pay104 v4) := by intro a x; exact chk_xbuf _ _ h4 (by decide) a x
  have hc78 : k0_chk78 (k0_pay105 v4) := by intro a x; exact chk_xbuf _ _ h4 (by decide) a x
  have hc79 : k0_chk79 (k0_pay106 v4) := by intro a x; exact chk_xbuf _ _ h4 (by decide) a x
  have hc80 : k0_chk80 (k0_pay108 v4) := by intro a x; exact chk_xbuf _ _ h4 (by decide) a x
  have hc81 : k0_chk81 (k0_pay109 v4) := by intro a x; exact chk_xbuf _ _ h4 (by decide) a x
  have hc82 : k0_chk82 (k0_pay110 v4) := by intro a x; exact chk_xbuf _ _ h4 (by decide) a x
  have hc83 : k0_chk83 (k0_pay111 v4) := by intro a x; exact chk_xbuf _ _ h4 (by decide) a x
  have hc84 : k0_chk84 (k0_pay114 v4) := by intro a x; exact chk_xbuf _ _ h4 (by decide) a x
  have hc85 : k0_chk85 (k0_pay115 v4) := by intro a x; exact chk_xbuf _ _ h4 (by decide) a x
  have hc86 : k0_chk86 (k0_pay116 v4) := by intro a x; exact chk_xbuf _ _ h4 (by decide) a x
  have hc87 : k0_chk87 (k0_pay117 v4) := by intro a x; exact chk_xbuf _ _ h4 (by decide) a x
  have hc88 : k0_chk88 (k0_pay119 v4) := by intro a x; exact chk_xbuf _ _ h4 (by decide) a x
  have hc89 : k0_chk89 (k0_pay120 v4) := by intro a x; exact chk_xbuf _ _ h4 (by decide) a x
  have hc91 : k0_chk91 (k0_pay123 v4) := by intro a x; exact chk_xbuf _ _ h4 (by decide) a x
  have hc92 : k0_chk92 (k0_pay125 v4) := by intro a x; exact chk_xbuf _ _ h4 (by decide) a x
  have hc93 : k0_chk93 (k0_pay126 v4) := by intro a x; exact chk_xbuf _ _ h4 (by decide) a x
  have hc94 : k0_chk94 (k0_pay127 v4) := by intro a x; exact chk_xbuf _ _ h4 (by decide) a x
  have hc95 : k0_chk95 (k0_pay128 v4) := by intro a x; exact chk_xbuf _ _ h4 (by decide) a x
  have hc96 : k0_chk96 (k0_pay130 v4 920#32) := by intro a x; exact chk_xbuf _ _ h4 (by decide) a x
  have hc97 : k0_chk97 (k0_pay131 v4) := by intro a x; exact chk_xbuf _ _ h4 (by decide) a x
  have hc98 : k0_chk98 (k0_pay132 v4) := by intro a x; exact chk_xbuf _ _ h4 (by decide) a x
  have hc99 : k0_chk99 (k0_pay133 v4) := by intro a x; exact chk_xbuf _ _ h4 (by decide) a x
  have hc100 : k0_chk100 (k0_pay135 v4) := by intro a x; exact chk_xbuf _ _ h4 (by decide) a x
  have hc101 : k0_chk101 (k0_pay136 v4) := by intro a x; exact chk_xbuf _ _ h4 (by decide) a x
  have hc102 : k0_chk102 (k0_pay137 v4) := by intro a x; exact chk_xbuf _ _ h4 (by decide) a x
  have hc103 : k0_chk103 (k0_pay139 v4) := by intro a x; exact chk_xbuf _ _ h4 (by decide) a x
  have hc104 : k0_chk104 (k0_pay141 v4) := by intro a x; exact chk_xbuf _ _ h4 (by decide) a x
  have hc105 : k0_chk105 (k0_pay142 v4) := by intro a x; exact chk_xbuf _ _ h4 (by decide) a x
  have hc106 : k0_chk106 (k0_pay143 v4) := by intro a x; exact chk_xbuf _ _ h4 (by decide) a x
  have hc107 : k0_chk107 (k0_pay144 v4) := by intro a x; exact chk_xbuf _ _ h4 (by decide) a x
  have hc108 : k0_chk108 (k0_pay146 v4) := by intro a x; exact chk_xbuf _ _ h4 (by decide) a x
  have hc110 : k0_chk110 (k0_pay148 v4) := by intro a x; exact chk_xbuf _ _ h4 (by decide) a x
  have hc111 : k0_chk111 (k0_pay149 v4) := by intro a x; exact chk_xbuf _ _ h4 (by decide) a x
  have hc112 : k0_chk112 (k0_pay151 v4) := by intro a x; exact chk_xbuf _ _ h4 (by decide) a x
  have hc113 : k0_chk113 (k0_pay152 v4) := by intro a x; exact chk_xbuf _ _ h4 (by decide) a x
  have hc114 : k0_chk114 (k0_pay153 v4) := by intro a x; exact chk_xbuf _ _ h4 (by decide) a x
  have hc115 : k0_chk115 (k0_pay155 v4) := by intro a x; exact chk_xbuf _ _ h4 (by decide) a x
  have hc116 : k0_chk116 (k0_pay157 v4) := by intro a x; exact chk_xbuf _ _ h4 (by decide) a x
  have hc117 : k0_chk117 (k0_pay158 v4) := by intro a x; exact chk_xbuf _ _ h4 (by decide) a x
  have hc118 : k0_chk118 (k0_pay159 v4) := by intro a x; exact chk_xbuf _ _ h4 (by decide) a x
  have hc119 : k0_chk119 (k0_pay160 v4) := by intro a x; exact chk_xbuf _ _ h4 (by decide) a x
  have hc120 : k0_chk120 (k0_pay162 v4) := by intro a x; exact chk_xbuf _ _ h4 (by decide) a x
  have hc121 : k0_chk121 (k0_pay163 v4) := by intro a x; exact chk_xbuf _ _ h4 (by decide) a x
  have hc122 : k0_chk122 (k0_pay165 v4) := by intro a x; exact chk_xbuf _ _ h4 (by decide) a x
  have hc123 : k0_chk123 (k0_pay166 v4) := by intro a x; exact chk_xbuf _ _ h4 (by decide) a x
  have hc124 : k0_chk124 (k0_pay168 v4) := by intro a x; exact chk_xbuf _ _ h4 (by decide) a x
  have hc125 : k0_chk125 (k0_pay169 v4) := by intro a x; exact chk_xbuf _ _ h4 (by decide) a x
  have hc126 : k0_chk126 (k0_pay170 v4) := by intro a x; exact chk_xbuf _ _ h4 (by decide) a x
  have hc127 : k0_chk127 (k0_pay171 v4) := by intro a x; exact chk_xbuf _ _ h4 (by decide) a x
  have hc143 : k0_chk143 (k0_pay176 v4) := by intro a x; exact chk_xbuf _ _ h4 (by decide) a x
  have hc144 : k0_chk144 (k0_pay177 v4) := by intro a x; exact chk_xbuf _ _ h4 (by decide) a x
  have hc145 : k0_chk145 (k0_pay178 v4) := by intro a x; exact chk_xbuf _ _ h4 (by decide) a x
  have hc146 : k0_chk146 (k0_pay179 v4) := by intro a x; exact chk_xbuf _ _ h4 (by decide) a x
  have hc147 : k0_chk147 (k0_pay181 v4) := by intro a x; exact chk_xbuf _ _ h4 (by decide) a x
  have hc148 : k0_chk148 (k0_pay182 v4) := by intro a x; exact chk_xbuf _ _ h4 (by decide) a x
  have hc149 : k0_chk149 (k0_pay184 v4) := by intro a x; exact chk_xbuf _ _ h4 (by decide) a x
  have hc150 : k0_chk150 (k0_pay185 v4) := by intro a x; exact chk_xbuf _ _ h4 (by decide) a x
  have hc151 : k0_chk151 (k0_pay187 v4) := by intro a x; exact chk_xbuf _ _ h4 (by decide) a x
  have hc152 : k0_chk152 (k0_pay188 v4) := by intro a x; exact chk_xbuf _ _ h4 (by decide) a x
  have hc153 : k0_chk153 (k0_pay189 v4) := by intro a x; exact chk_xbuf _ _ h4 (by decide) a x
  have hc154 : k0_chk154 (k0_pay190 v4) := by intro a x; exact chk_xbuf _ _ h4 (by decide) a x
  have hc155 : k0_chk155 (k0_pay194 v4) := by intro a x; exact chk_xbuf _ _ h4 (by decide) a x
  have hc156 : k0_chk156 (k0_pay195 v4) := by intro a x; exact chk_xbuf _ _ h4 (by decide) a x
  have hc157 : k0_chk157 (k0_pay196 v4) := by intro a x; exact chk_xbuf _ _ h4 (by decide) a x
  have hc158 : k0_chk158 (k0_pay197 v4) := by intro a x; exact chk_xbuf _ _ h4 (by decide) a x
  have hc159 : k0_chk159 (k0_pay199 v4) := by intro a x; exact chk_xbuf _ _ h4 (by decide) a x
  have hc160 : k0_chk160 (k0_pay200 v4) := by intro a x; exact chk_xbuf _ _ h4 (by decide) a x
  have hc161 : k0_chk161 (k0_pay202 v4) := by intro a x; exact chk_xbuf _ _ h4 (by decide) a x
  have hc162 : k0_chk162 (k0_pay203 v4) := by intro a x; exact chk_xbuf _ _ h4 (by decide) a x
  have hc163 : k0_chk163 (k0_pay205 v4) := by intro a x; exact chk_xbuf _ _ h4 (by decide) a x
  have hc164 : k0_chk164 (k0_pay206 v4) := by intro a x; exact chk_xbuf _ _ h4 (by decide) a x
  have hc165 : k0_chk165 (k0_pay207 v4) := by intro a x; exact chk_xbuf _ _ h4 (by decide) a x
  have hc166 : k0_chk166 (k0_pay208 v4) := by intro a x; exact chk_xbuf _ _ h4 (by decide) a x
  have hc168 : k0_chk168 (k0_pay211 v4) := by intro a x; exact chk_xbuf _ _ h4 (by decide) a x
  have hc169 : k0_chk169 (k0_pay212 v4) := by intro a x; exact chk_xbuf _ _ h4 (by decide) a x
  have hc170 : k0_chk170 (k0_pay213 v4) := by intro a x; exact chk_xbuf _ _ h4 (by decide) a x
  have hc171 : k0_chk171 (k0_pay215 v4) := by intro a x; exact chk_xbuf _ _ h4 (by decide) a x
  have hc172 : k0_chk172 (k0_pay216 v4) := by intro a x; exact chk_xbuf _ _ h4 (by decide) a x
  have hc173 : k0_chk173 (k0_pay217 v4) := by intro a x; exact chk_xbuf _ _ h4 (by decide) a x
  have hc174 : k0_chk174 (k0_pay219 v4 1823#32) := by intro a x; exact chk_xbuf _ _ h4 (by decide) a x
  have hc175 : k0_chk175 (k0_pay221 v4) := by intro a x; exact chk_xbuf _ _ h4 (by decide) a x
  have hc176 : k0_chk176 (k0_pay222 v4) := by intro a x; exact chk_xbuf _ _ h4 (by decide) a x
  have hc177 : k0_chk177 (k0_pay223 v4) := by intro a x; exact chk_xbuf _ _ h4 (by decide) a x
  have hc178 : k0_chk178 (k0_pay224 v4) := by intro a x; exact chk_xbuf _ _ h4 (by decide) a x
  have hc179 : k0_chk179 (k0_pay226 v4) := by intro a x; exact chk_xbuf _ _ h4 (by decide) a x
  have hc181 : k0_chk181 (k0_pay228 v4) := by intro a x; exact chk_xbuf _ _ h4 (by decide) a x
  have hc182 : k0_chk182 (k0_pay229 v4) := by intro a x; exact chk_xbuf _ _ h4 (by decide) a x
  have hc183 : k0_chk183 (k0_pay231 v4) := by intro a x; exact chk_xbuf _ _ h4 (by decide) a x
  have hc184 : k0_chk184 (k0_pay232 v4) := by intro a x; exact chk_xbuf _ _ h4 (by decide) a x
  have hc185 : k0_chk185 (k0_pay233 v4) := by intro a x; exact chk_xbuf _ _ h4 (by decide) a x
  have hc186 : k0_chk186 (k0_pay235 v4) := by intro a x; exact chk_xbuf _ _ h4 (by decide) a x
  have hc187 : k0_chk187 (k0_pay238 v4) := by intro a x; exact chk_xbuf _ _ h4 (by decide) a x
  have hc188 : k0_chk188 (k0_pay239 v4) := by intro a x; exact chk_xbuf _ _ h4 (by decide) a x
  have hc189 : k0_chk189 (k0_pay240 v4) := by intro a x; exact chk_xbuf _ _ h4 (by decide) a x
  have hc190 : k0_chk190 (k0_pay241 v4) := by intro a x; exact chk_xbuf _ _ h4 (by decide) a x
  have hc191 : k0_chk191 (k0_pay243 v4) := by intro a x; exact chk_xbuf _ _ h4 (by decide) a x
  have hc192 : k0_chk192 (k0_pay244 v4) := by intro a x; exact chk_xbuf _ _ h4 (by decide) a x
  have hc193 : k0_chk193 (k0_pay246 v4) := by intro a x; exact chk_xbuf _ _ h4 (by decide) a x
  have hc194 : k0_chk194 (k0_pay247 v4) := by intro a x; exact chk_xbuf _ _ h4 (by decide) a x
  have hc195 : k0_chk195 (k0_pay249 v4) := by intro a x; exact chk_xbuf _ _ h4 (by decide) a x
  have hc196 : k0_chk196 (k0_pay250 v4) := by intro a x; exact chk_xbuf _ _ h4 (by decide) a x
  have hc197 : k0_chk197 (k0_pay251 v4) := by intro a x; exact chk_xbuf _ _ h4 (by decide) a x
  have hc198 : k0_chk198 (k0_pay252 v4) := by intro a x; exact chk_xbuf _ _ h4 (by decide) a x
  have hc214 : k0_chk214 (k0_pay257 v4) := by intro a x; exact chk_xbuf _ _ h4 (by decide) a x
  have hc215 : k0_chk215 (k0_pay258 v4) := by intro a x; exact chk_xbuf _ _ h4 (by decide) a x
  have hc216 : k0_chk216 (k0_pay259 v4) := by intro a x; exact chk_xbuf _ _ h4 (by decide) a x
  have hc217 : k0_chk217 (k0_pay260 v4) := by intro a x; exact chk_xbuf _ _ h4 (by decide) a x
  have hc218 : k0_chk218 (k0_pay262 v4) := by intro a x; exact chk_xbuf _ _ h4 (by decide) a x
  have hc219 : k0_chk219 (k0_pay263 v4) := by intro a x; exact chk_xbuf _ _ h4 (by decide) a x
  have hc220 : k0_chk220 (k0_pay265 v4) := by intro a x; exact chk_xbuf _ _ h4 (by decide) a x
  have hc221 : k0_chk221 (k0_pay266 v4) := by intro a x; exact chk_xbuf _ _ h4 (by decide) a x
  have hc222 : k0_chk222 (k0_pay268 v4) := by intro a x; exact chk_xbuf _ _ h4 (by decide) a x
  have hc223 : k0_chk223 (k0_pay269 v4) := by intro a x; exact chk_xbuf _ _ h4 (by decide) a x
  have hc224 : k0_chk224 (k0_pay270 v4) := by intro a x; exact chk_xbuf _ _ h4 (by decide) a x
  have hc225 : k0_chk225 (k0_pay271 v4) := by intro a x; exact chk_xbuf _ _ h4 (by decide) a x
  have hc226 : k0_chk226 (k0_pay274 v4) := by intro a x; exact chk_xbuf _ _ h4 (by decide) a x
  have hc227 : k0_chk227 (k0_pay275 v4) := by intro a x; exact chk_xbuf _ _ h4 (by decide) a x
  have hc228 : k0_chk228 (k0_pay276 v4) := by intro a x; exact chk_xbuf _ _ h4 (by decide) a x
  have hc229 : k0_chk229 (k0_pay277 v4) := by intro a x; exact chk_xbuf _ _ h4 (by decide) a x
  have hc230 : k0_chk230 (k0_pay279 v4) := by intro a x; exact chk_xbuf _ _ h4 (by decide) a x
  have hc231 : k0_chk231 (k0_pay280 v4) := by intro a x; exact chk_xbuf _ _ h4 (by decide) a x
  have hc232 : k0_chk232 (k0_pay282 v4) := by intro a x; exact chk_xbuf _ _ h4 (by decide) a x
  have hc233 : k0_chk233 (k0_pay283 v4) := by intro a x; exact chk_xbuf _ _ h4 (by decide) a x
  have hc234 : k0_chk234 (k0_pay285 v4) := by intro a x; exact chk_xbuf _ _ h4 (by decide) a x
  have hc235 : k0_chk235 (k0_pay286 v4) := by intro a x; exact chk_xbuf _ _ h4 (by decide) a x
  have hc236 : k0_chk236 (k0_pay287 v4) := by intro a x; exact chk_xbuf _ _ h4 (by decide) a x
  have hc237 : k0_chk237 (k0_pay288 v4) := by intro a x; exact chk_xbuf _ _ h4 (by decide) a x
  have hc239 : k0_chk239 (k0_pay291 v4) := by intro a x; exact chk_xbuf _ _ h4 (by decide) a x
  have hc240 : k0_chk240 (k0_pay292 v4) := by intro a x; exact chk_xbuf _ _ h4 (by decide) a x
  have hc241 : k0_chk241 (k0_pay293 v4) := by intro a x; exact chk_xbuf _ _ h4 (by decide) a x
  have hc242 : k0_chk242 (k0_pay295 v4) := by intro a x; exact chk_xbuf _ _ h4 (by decide) a x
  have hc243 : k0_chk243 (k0_pay296 v4) := by intro a x; exact chk_xbuf _ _ h4 (by decide) a x
  have hc244 : k0_chk244 (k0_pay297 v4) := by intro a x; exact chk_xbuf _ _ h4 (by decide) a x
  have hc246 : k0_chk246 (k0_pay301 v4) := by intro a x; exact chk_xbuf _ _ h4 (by decide) a x
  have hc247 : k0_chk247 (k0_pay302 v4) := by intro a x; exact chk_xbuf _ _ h4 (by decide) a x
  have hc248 : k0_chk248 (k0_pay303 v4) := by intro a x; exact chk_xbuf _ _ h4 (by decide) a x
  have hc249 : k0_chk249 (k0_pay304 v4) := by intro a x; exact chk_xbuf _ _ h4 (by decide) a x
  have hc250 : k0_chk250 (k0_pay306 v4) := by intro a x; exact chk_xbuf _ _ h4 (by decide) a x
  have hc251 : k0_chk251 (k0_pay307 v4) := by intro a x; exact chk_xbuf _ _ h4 (by decide) a x
  have hc252 : k0_chk252 (k0_pay308 v4) := by intro a x; exact chk_xbuf _ _ h4 (by decide) a x
  have hc253 : k0_chk253 (k0_pay309 v4) := by intro a x; exact chk_xbuf _ _ h4 (by decide) a x
  have hc254 : k0_chk254 (k0_pay311 v4) := by intro a x; exact chk_xbuf _ _ h4 (by decide) a x
  have hc255 : k0_chk255 (k0_pay312 v4) := by intro a x; exact chk_xbuf _ _ h4 (by decide) a x
  have hc256 : k0_chk256 (k0_pay313 v4) := by intro a x; exact chk_xbuf _ _ h4 (by decide) a x
  have hc257 : k0_chk257 (k0_pay315 v4) := by intro a x; exact chk_xbuf _ _ h4 (by decide) a x
  have hc258 : k0_chk258 (k0_pay318 v4) := by intro a x; exact chk_xbuf _ _ h4 (by decide) a x
  have hc259 : k0_chk259 (k0_pay319 v4) := by intro a x; exact chk_xbuf _ _ h4 (by decide) a x
  have hc260 : k0_chk260 (k0_pay320 v4) := by intro a x; exact chk_xbuf _ _ h4 (by decide) a x
  have hc261 : k0_chk261 (k0_pay321 v4) := by intro a x; exact chk_xbuf _ _ h4 (by decide) a x
  have hc262 : k0_chk262 (k0_pay323 v4) := by intro a x; exact chk_xbuf _ _ h4 (by decide) a x
  have hc263 : k0_chk263 (k0_pay324 v4) := by intro a x; exact chk_xbuf _ _ h4 (by decide) a x
  have hc264 : k0_chk264 (k0_pay326 v4 2738#32) := by intro a x; exact chk_xbuf _ _ h4 (by decide) a x
  have hc265 : k0_chk265 (k0_pay327 v4) := by intro a x; exact chk_xbuf _ _ h4 (by decide) a x
  have hc266 : k0_chk266 (k0_pay329 v4) := by intro a x; exact chk_xbuf _ _ h4 (by decide) a x
  have hc267 : k0_chk267 (k0_pay330 v4) := by intro a x; exact chk_xbuf _ _ h4 (by decide) a x
  have hc268 : k0_chk268 (k0_pay331 v4) := by intro a x; exact chk_xbuf _ _ h4 (by decide) a x
  have hc269 : k0_chk269 (k0_pay332 v4) := by intro a x; exact chk_xbuf _ _ h4 (by decide) a x
  have hc285 : k0_chk285 (k0_pay338 v4) := by intro a x; exact chk_xbuf _ _ h4 (by decide) a x
  have hc286 : k0_chk286 (k0_pay339 v4) := by intro a x; exact chk_xbuf _ _ h4 (by decide) a x
  have hc287 : k0_chk287 (k0_pay340 v4) := by intro a x; exact chk_xbuf _ _ h4 (by decide) a x
  have hc288 : k0_chk288 (k0_pay341 v4) := by intro a x; exact chk_xbuf _ _ h4 (by decide) a x
  have hc289 : k0_chk289 (k0_pay343 v4) := by intro a x; exact chk_xbuf _ _ h4 (by decide) a x
  have hc290 : k0_chk290 (k0_pay344 v4) := by intro a x; exact chk_xbuf _ _ h4 (by decide) a x
  have hc291 : k0_chk291 (k0_pay346 v4) := by intro a x; exact chk_xbuf _ _ h4 (by decide) a x
  have hc292 : k0_chk292 (k0_pay347 v4) := by intro a x; exact chk_xbuf _ _ h4 (by decide) a x
  have hc293 : k0_chk293 (k0_pay349 v4) := by intro a x; exact chk_xbuf _ _ h4 (by decide) a x
  have hc294 : k0_chk294 (k0_pay350 v4) := by intro a x; exact chk_xbuf _ _ h4 (by decide) a x
  have hc295 : k0_chk295 (k0_pay351 v4) := by intro a x; exact chk_xbuf _ _ h4 (by decide) a x
  have hc296 : k0_chk296 (k0_pay352 v4) := by intro a x; exact chk_xbuf _ _ h4 (by decide) a x
  have hc297 : k0_chk297 (k0_pay355 v4) := by intro a x; exact chk_xbuf _ _ h4 (by decide) a x
  have hc298 : k0_chk298 (k0_pay356 v4) := by intro a x; exact chk_xbuf _ _ h4 (by decide) a x
  have hc299 : k0_chk299 (k0_pay357 v4) := by intro a x; exact chk_xbuf _ _ h4 (by decide) a x
  have hc300 : k0_chk300 (k0_pay358 v4) := by intro a x; exact chk_xbuf _ _ h4 (by decide) a x
  have hc301 : k0_chk301 (k0_pay360 v4) := by intro a x; exact chk_xbuf _ _ h4 (by decide) a x
  have hc302 : k0_chk302 (k0_pay361 v4) := by intro a x; exact chk_xbuf _ _ h4 (by decide) a x
  have hc303 : k0_chk303 (k0_pay363 v4) := by intro a x; exact chk_xbuf _ _ h4 (by decide) a x
  have hc304 : k0_chk304 (k0_pay364 v4) := by intro a x; exact chk_xbuf _ _ h4 (by decide) a x
  have hc305 : k0_chk305 (k0_pay366 v4) := by intro a x; exact chk_xbuf _ _ h4 (by decide) a x
  have hc306 : k0_chk306 (k0_pay367 v4) := by intro a x; exact chk_xbuf _ _ h4 (by decide) a x
  have hc307 : k0_chk307 (k0_pay368 v4) := by intro a x; exact chk_xbuf _ _ h4 (by decide) a x
  have hc308 : k0_chk308 (k0_pay369 v4) := by intro a x; exact chk_xbuf _ _ h4 (by decide) a x
  have hc309 : k0_chk309 (k0_pay371 v4) := by intro a x; exact chk_xbuf _ _ h4 (by decide) a x
  have hc310 : k0_chk310 (k0_pay372 v4) := by intro a x; exact chk_xbuf _ _ h4 (by decide) a x
  have hc311 : k0_chk311 (k0_pay373 v4) := by intro a x; exact chk_xbuf _ _ h4 (by decide) a x
  have hc312 : k0_chk312 (k0_pay374 v4) := by intro a x; exact chk_xbuf _ _ h4 (by decide) a x
  have hc313 : k0_chk313 (k0_pay376 v4) := by intro a x; exact chk_xbuf _ _ h4 (by decide) a x
  have hc314 : k0_chk314 (k0_pay377 v4) := by intro a x; exact chk_xbuf _ _ h4 (by decide) a x
  have hc315 : k0_chk315 (k0_pay378 v4) := by intro a x; exact chk_xbuf _ _ h4 (by decide) a x
  have hc317 : k0_chk317 (k0_pay382 v4) := by intro a x; exact chk_xbuf _ _ h4 (by decide) a x
  have hc318 : k0_chk318 (k0_pay383 v4) := by intro a x; exact chk_xbuf _ _ h4 (by decide) a x
  have hc319 : k0_chk319 (k0_pay384 v4) := by intro a x; exact chk_xbuf _ _ h4 (by decide) a x
  have hc320 : k0_chk320 (k0_pay385 v4) := by intro a x; exact chk_xbuf _ _ h4 (by decide) a x
  have hc321 : k0_chk321 (k0_pay387 v4) := by intro a x; exact chk_xbuf _ _ h4 (by decide) a x
  have hc322 : k0_chk322 (k0_pay388 v4) := by intro a x; exact chk_xbuf _ _ h4 (by decide) a x
  have hc323 : k0_chk323 (k0_pay389 v4) := by intro a x; exact chk_xbuf _ _ h4 (by decide) a x
  have hc324 : k0_chk324 (k0_pay390 v4) := by intro a x; exact chk_xbuf _ _ h4 (by decide) a x
  have hc325 : k0_chk325 (k0_pay392 v4) := by intro a x; exact chk_xbuf _ _ h4 (by decide) a x
  have hc326 : k0_chk326 (k0_pay393 v4) := by intro a x; exact chk_xbuf _ _ h4 (by decide) a x
  have hc327 : k0_chk327 (k0_pay394 v4) := by intro a x; exact chk_xbuf _ _ h4 (by decide) a x
  have hc328 : k0_chk328 (k0_pay395 v4) := by intro a x; exact chk_xbuf _ _ h4 (by decide) a x
  have hc329 : k0_chk329 (k0_pay398 v4) := by intro a x; exact chk_xbuf _ _ h4 (by decide) a x
  have hc330 : k0_chk330 (k0_pay399 v4) := by intro a x; exact chk_xbuf _ _ h4 (by decide) a x
  have hc331 : k0_chk331 (k0_pay400 v4) := by intro a x; exact chk_xbuf _ _ h4 (by decide) a x
  have hc332 : k0_chk332 (k0_pay401 v4) := by intro a x; exact chk_xbuf _ _ h4 (by decide) a x
  have hc333 : k0_chk333 (k0_pay403 v4) := by intro a x; exact chk_xbuf _ _ h4 (by decide) a x
  have hc334 : k0_chk334 (k0_pay404 v4) := by intro a x; exact chk_xbuf _ _ h4 (by decide) a x
  have hc336 : k0_chk336 (k0_pay407 v4) := by intro a x; exact chk_xbuf _ _ h4 (by decide) a x
  have hc337 : k0_chk337 (k0_pay409 v4) := by intro a x; exact chk_xbuf _ _ h4 (by decide) a x
  have hc338 : k0_chk338 (k0_pay410 v4) := by intro a x; exact chk_xbuf _ _ h4 (by decide) a x
  have hc339 : k0_chk339 (k0_pay411 v4) := by intro a x; exact chk_xbuf _ _ h4 (by decide) a x
  have hc340 : k0_chk340 (k0_pay412 v4) := by intro a x; exact chk_xbuf _ _ h4 (by decide) a x
  have hc19 : k0_chk19 (addi v4 k0_pay42) := by intro a x; exact chk_xbuf _ _ h4 (by decide) a x
  have hc90 : k0_chk90 (k0_pay122 v4) := by intro a x; exact chk_xbuf _ _ h4 (by decide) a x
  have hc109 : k0_chk109 (addi v4 k0_pay147) := by intro a x; exact chk_xbuf _ _ h4 (by decide) a x
  have hc167 : k0_chk167 (addi v4 k0_pay210) := by intro a x; exact chk_xbuf _ _ h4 (by decide) a x
  have hc180 : k0_chk180 (k0_pay227 v4) := by intro a x; exact chk_xbuf _ _ h4 (by decide) a x
  have hc238 : k0_chk238 (k0_pay290 v4) := by intro a x; exact chk_xbuf _ _ h4 (by decide) a x
  have hc245 : k0_chk245 (addi v4 k0_pay299) := by intro a x; exact chk_xbuf _ _ h4 (by decide) a x
  have hc316 : k0_chk316 (k0_pay380 v4) := by intro a x; exact chk_xbuf _ _ h4 (by decide) a x
  have hc335 : k0_chk335 (addi v4 k0_pay406) := by intro a x; exact chk_xbuf _ _ h4 (by decide) a x
  rw [k0_part51_eq_skeleton]; unfold k0_part51_skel
  rw [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel
  iintro ⟨#Hmw, Hx, H7, ⟨%f5, H5⟩, ⟨%f6, H6⟩, Ho, Hs1, Hs2, %W', %hW', HO⟩
  -- the copy of the eighty rows and its wait
  sl_exec (disch := assumption)
  have hR : Bin32 (View.readAt (Elt Ideal) xbufM.view (LoadRect.whole S4480) (View.write (Elt Ideal) xbufM.view f5 (chunkVal.sl.dma0 d i t fx) Finset.univ)) := by
    intro j
    rw [View.readAt_apply, View.read_write_univ]
    unfold chunkVal.sl.dma0
    first | exact hfx _ | (rw [Memref.view_slice]; exact hfx _)
  have hRv : ∀ (p : ℕ) (hp : p < 4480), View.readAt (Elt Ideal) xbufM.view (LoadRect.whole S4480) (View.write (Elt Ideal) xbufM.view f5 (chunkVal.sl.dma0 d i t fx) Finset.univ) (ix1 ⟨p, hp⟩)
      = x (ix2 ⟨96000 + 80 * (widOf i + 32 * t.val) + p / 56, by have := batch_lt i t; omega⟩ ⟨p % 56, Nat.mod_lt _ (by decide)⟩) := by
    intro p hp
    have hb := batch_lt i t
    rw [readAt_whole_eq, View.read_write_univ]
    unfold chunkVal.sl.dma0
    rw [hfxv]
    have key := read_xsSl_xsTerm (F := Ideal) i t x ⟨p / 56, by omega⟩ ⟨p % 56, Nat.mod_lt _ (by decide)⟩
    have e : (⟨p / 56 * 56 + p % 56, by omega⟩ : Fin 4480) = ⟨p, hp⟩ := Fin.ext (by show p / 56 * 56 + p % 56 = p; omega)
    rw [e] at key
    exact key
  generalize View.write (Elt Ideal) xbufM.view f5 (chunkVal.sl.dma0 d i t fx) Finset.univ = F5 at hR hRv ⊢
  unfold SparseCore.vectorLoadIdx
  sl_exec (disch := assumption)
  -- the column loop of row group 0
  try rw [bind_assoc]
  rw [wp_bind]
  iapply (wp_wand frame _ _) $$ [H7 H6]
  · iapply (loop2_val d i xsM (Memref.isWhole_whole _) gtM (Memref.isWhole_whole _) outM (Memref.isWhole_whole _) xbufM (Memref.isWhole_whole _) obufM (Memref.isWhole_whole _) tbufM (Memref.isWhole_whole _) cc0_scoped0 cc0_scoped1 cc0_scoped2 cc0_scoped3 cc0_scoped4 v2 v4 v6 _ _ _ _ _ _ _ _ _ _ _ _ _ _ _ g7 f6 ?hb0 ?hb1 ?hb2 ?hb3 ?hb4 ?hb5 ?hb6 ?hb7 ?hb8 ?hb9 ?hb10 ?hb11 ?hb12 ?hb13 h6 hv2 hv6) $$ [H7 H6]
    case hb0 => below_tac
    case hb1 => below_tac
    case hb2 => below_tac
    case hb3 => below_tac
    case hb4 => below_tac
    case hb5 => below_tac
    case hb6 => below_tac
    case hb7 => below_tac
    case hb8 => below_tac
    case hb9 => below_tac
    case hb10 => below_tac
    case hb11 => below_tac
    case hb12 => below_tac
    case hb13 => below_tac
    isplitl [H7]; · iexact H7
    iexact H6
  iintro %_ HI
  icases HI with ⟨H7, %f62, H6, %hd0⟩
  sl_exec (disch := assumption)
  -- the column loop of row group 1
  try rw [bind_assoc]
  rw [wp_bind]
  iapply (wp_wand frame _ _) $$ [H7 H6]
  · iapply (loop3_val d i xsM (Memref.isWhole_whole _) gtM (Memref.isWhole_whole _) outM (Memref.isWhole_whole _) xbufM (Memref.isWhole_whole _) obufM (Memref.isWhole_whole _) tbufM (Memref.isWhole_whole _) cc0_scoped0 cc0_scoped1 cc0_scoped2 cc0_scoped3 cc0_scoped4 v2 v4 v6 _ _ _ _ _ _ _ _ _ _ _ _ _ _ g7 f62 ?hb0 ?hb1 ?hb2 ?hb3 ?hb4 ?hb5 ?hb6 ?hb7 ?hb8 ?hb9 ?hb10 ?hb11 ?hb12 ?hb13 h6 hv2 hv6) $$ [H7 H6]
    case hb0 => below_tac
    case hb1 => below_tac
    case hb2 => below_tac
    case hb3 => below_tac
    case hb4 => below_tac
    case hb5 => below_tac
    case hb6 => below_tac
    case hb7 => below_tac
    case hb8 => below_tac
    case hb9 => below_tac
    case hb10 => below_tac
    case hb11 => below_tac
    case hb12 => below_tac
    case hb13 => below_tac
    isplitl [H7]; · iexact H7
    iexact H6
  iintro %_ HI
  icases HI with ⟨H7, %f63, H6, %hd1⟩
  sl_exec (disch := assumption)
  -- the column loop of row group 2
  try rw [bind_assoc]
  rw [wp_bind]
  iapply (wp_wand frame _ _) $$ [H7 H6]
  · iapply (loop4_val d i xsM (Memref.isWhole_whole _) gtM (Memref.isWhole_whole _) outM (Memref.isWhole_whole _) xbufM (Memref.isWhole_whole _) obufM (Memref.isWhole_whole _) tbufM (Memref.isWhole_whole _) cc0_scoped0 cc0_scoped1 cc0_scoped2 cc0_scoped3 cc0_scoped4 v2 v4 v6 _ _ _ _ _ _ _ _ _ _ _ _ _ _ _ g7 f63 ?hb0 ?hb1 ?hb2 ?hb3 ?hb4 ?hb5 ?hb6 ?hb7 ?hb8 ?hb9 ?hb10 ?hb11 ?hb12 ?hb13 h6 hv2 hv6) $$ [H7 H6]
    case hb0 => below_tac
    case hb1 => below_tac
    case hb2 => below_tac
    case hb3 => below_tac
    case hb4 => below_tac
    case hb5 => below_tac
    case hb6 => below_tac
    case hb7 => below_tac
    case hb8 => below_tac
    case hb9 => below_tac
    case hb10 => below_tac
    case hb11 => below_tac
    case hb12 => below_tac
    case hb13 => below_tac
    isplitl [H7]; · iexact H7
    iexact H6
  iintro %_ HI
  icases HI with ⟨H7, %f64, H6, %hd2⟩
  sl_exec (disch := assumption)
  -- the column loop of row group 3
  try rw [bind_assoc]
  rw [wp_bind]
  iapply (wp_wand frame _ _) $$ [H7 H6]
  · iapply (loop5_val d i xsM (Memref.isWhole_whole _) gtM (Memref.isWhole_whole _) outM (Memref.isWhole_whole _) xbufM (Memref.isWhole_whole _) obufM (Memref.isWhole_whole _) tbufM (Memref.isWhole_whole _) cc0_scoped0 cc0_scoped1 cc0_scoped2 cc0_scoped3 cc0_scoped4 v2 v4 v6 _ _ _ _ _ _ _ _ _ _ _ _ _ _ _ g7 f64 ?hb0 ?hb1 ?hb2 ?hb3 ?hb4 ?hb5 ?hb6 ?hb7 ?hb8 ?hb9 ?hb10 ?hb11 ?hb12 ?hb13 h6 hv2 hv6) $$ [H7 H6]
    case hb0 => below_tac
    case hb1 => below_tac
    case hb2 => below_tac
    case hb3 => below_tac
    case hb4 => below_tac
    case hb5 => below_tac
    case hb6 => below_tac
    case hb7 => below_tac
    case hb8 => below_tac
    case hb9 => below_tac
    case hb10 => below_tac
    case hb11 => below_tac
    case hb12 => below_tac
    case hb13 => below_tac
    isplitl [H7]; · iexact H7
    iexact H6
  iintro %_ HI
  icases HI with ⟨H7, %f65, H6, %hd3⟩
  sl_exec (disch := assumption)
  -- the column loop of row group 4
  try rw [bind_assoc]
  rw [wp_bind]
  iapply (wp_wand frame _ _) $$ [H7 H6]
  · iapply (loop6_val d i xsM (Memref.isWhole_whole _) gtM (Memref.isWhole_whole _) outM (Memref.isWhole_whole _) xbufM (Memref.isWhole_whole _) obufM (Memref.isWhole_whole _) tbufM (Memref.isWhole_whole _) cc0_scoped0 cc0_scoped1 cc0_scoped2 cc0_scoped3 cc0_scoped4 v1 v2 v4 v6 c0 c1 t _ _ _ _ _ _ _ _ _ _ _ _ _ _ g7 f65 ?hb0 ?hb1 ?hb2 ?hb3 ?hb4 ?hb5 ?hb6 ?hb7 ?hb8 ?hb9 ?hb10 ?hb11 ?hb12 ?hb13 h6 hv2 hv6) $$ [H7 H6]
    case hb0 => below_tac
    case hb1 => below_tac
    case hb2 => below_tac
    case hb3 => below_tac
    case hb4 => below_tac
    case hb5 => below_tac
    case hb6 => below_tac
    case hb7 => below_tac
    case hb8 => below_tac
    case hb9 => below_tac
    case hb10 => below_tac
    case hb11 => below_tac
    case hb12 => below_tac
    case hb13 => below_tac
    isplitl [H7]; · iexact H7
    iexact H6
  iintro %_ HI
  icases HI with ⟨H7, %f66, H6, %hd4⟩
  sl_exec (disch := assumption)

  have hm : 96000 + 80 * (widOf i + 32 * t.val) + 80 ≤ 100000 := by have := batch_lt i t; omega
  rw [hg7] at hd0 hd1 hd2 hd3 hd4
  sl_step
  isplitl [Hx]; · iexact Hx
  isplitl [H7]; · iexact H7
  isplitl [H5]; · iexists _; iexact H5
  isplitl [H6]; · iexists _; iexact H6
  isplitl [Ho]
  · iexists _
    isplitl [Ho]; · iexact Ho
    ipureintro
    refine (fun hrows => ⟨hrows, window_entries i t x tt _ hrows⟩) ?_
    intro r c
    rw [read_writes_whole]
    refine Eq.trans ?_ (block_eq_G x tt (96000 + 80 * (widOf i + 32 * t.val)) hm _ _ _ _ _ ?_ ?_ ?_ ?_ ?_
      (obufM.view.read (Elt Ideal) f6) _ _ _ _ (obufM.view.read (Elt Ideal) f66) hd0 hd1 hd2 hd3 hd4 r c)
    · first
        | rfl
        | (unfold chunkVal.sl.dma0_1; first | rfl | (rw [readAt_whole_eq]) | (simp only [readAt_whole_eq]; rfl))
    all_goals (intro l j; fin_cases j <;> base_tac)
  isplitl [Hs1]; · iexact Hs1
  isplitl [Hs2]; · iexact Hs2
  iexists (insert (SemLoc.dma cc0_scoped2.sem, (default : HIx 1)) (insert (SemLoc.dma cc0_scoped1.sem, (default : HIx 1)) W')); isplitr
  · ipureintro; intro p hp
    rcases Finset.mem_insert.mp hp with hp | hp
    · exact .inr (by subst hp; rfl)
    rcases Finset.mem_insert.mp hp with hp | hp
    · exact .inr (by subst hp; rfl)
    · exact hW' p hp
  · iexact HO

end Cert.Proof.KI

end
-- ==== Proof.ChunkValUse.lean ====
/-
  The micro-batch's value statement as the tile's loop uses it, from the micro-batch run with its values; and with it
  the tile tasks' obligation with nothing left to assume.
-/
import proofs.«203024_g60129542144782_cont_9to1_m_748_22_alg».proof.Proof.ChunkVal
import proofs.«203024_g60129542144782_cont_9to1_m_748_22_alg».proof.Proof.TileOblVal

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Ideal) ℕ UU ℕ

variable (m : (ℓ : Loc nD τ sig) → Buf (Elt Ideal) ℓ)

/-- Lane `l` of the row-offset vector of the index rows is `56 l`; -/
theorem pay1_lane (l : Fin 16) : ((k0_pay1 : IVec S16 32) (ix1 l)).toNat = l.val * 56 := by
  show ((BitVec.ofNat 32 (0 * 16 + l.val)) * 56#32).toNat = l.val * 56
  rw [Nat.zero_mul, Nat.zero_add, BitVec.toNat_mul, BitVec.toNat_ofNat]
  have := l.isLt
  show l.val % 2 ^ 32 * 56 % 2 ^ 32 = l.val * 56
  omega

/-- of the row-offset vector of the result rows, `128 l`. -/
theorem pay2_lane (l : Fin 16) : (k0_pay2 : IVec S16 32) (ix1 l) = BitVec.ofNat 32 l.val * 128#32 := by
  show BitVec.ofNat 32 (0 * 16 + l.val) * 128#32 = _
  rw [Nat.zero_mul, Nat.zero_add]

/-- The micro-batch's value statement holds. -/
theorem chunkVal_holds : ChunkVal m := by
  intro d i v1 v2 t O W qx g7 fo hx hv2 hg7
  refine (chunkVal d i v1 v2 k0_pay1 k0_pay2 0#32 1#32 t O W qx (m (a0Loc d)) hx (m (a1Loc d)) (Xv m d) rfl g7 hg7 fo
    iota56_atMost iota128_atMost hv2 pay1_lane pay2_lane).trans (wp_mono frame _ _ fun _ => ?_)
  iintro ⟨Hx, H7, H5, H6, ⟨%fo', Hot, %hfo'⟩, Hs1, Hs2, HO⟩
  isplitl [Hx]; · iexact Hx
  isplitl [H7]; · iexact H7
  isplitl [H5]; · iexact H5
  isplitl [H6]; · iexact H6
  isplitl [Hot]
  · iexists fo'
    isplitl [Hot]; · iexact Hot
    ipureintro; exact hfo'.2
  isplitl [Hs1]; · iexact Hs1
  isplitl [Hs2]; · iexact Hs2
  iexact HO

/-- **The tile tasks' obligation with the specification's value on what comes back**, for an index matrix of zeros and
    ones on every device. -/
theorem tileObl_value (hF : (K (F := Ideal)).Facts) (hpre : ∀ d, Cert.Spec.Bin (m (a0Loc d))) :
    (K (F := Ideal)).TileObl (D (F := Ideal)) 𝒱 (P m (PhiG m)) v₀ 0 :=
  tileObl_val m (chunkVal_holds m) hF hpre

end Cert.Proof.KI

end
-- ==== Proof.lean ====
/-
  The lookup-and-sum of 56 two-row tables, computed two ways, is one function.

  For an index matrix `x : [100000, 56]` with entries zero or one and tables `t : [56, 2, 128]` of real numbers, both
  programs compute `out[n, d] = ∑ f < 56, t[f, x[n, f], d]`. The reference gathers the selected rows and sums them.
  The kernel program splits the rows: for `n < 96000`, in six blocks of 16000 rows, it computes the linear form
  `(∑ f, float(x[n, f]) * (t[f, 1, d] - t[f, 0, d])) + ∑ f, t[f, 0, d]` — equal to the selected rows' sum because an
  entry is zero or one and, at real numbers, a product distributes over a difference and a term cancels —; for
  `n ≥ 96000` it looks up, per group of four features, a table of the sixteen sums `∑ k < 4, t[4 j + k, bit k of c, d]`
  at the code `c = ∑ k, x[n, 4 j + k] 2^k` and adds the fourteen groups — the same sum, re-associated. An update of the
  first result's rows `96000 …` by the second's puts the two together. Each program leaves its arguments unchanged.
  The precondition (entries zero or one, table entries finite) is used for the value and, on the kernel side, to keep
  every lookup inside its table.
-/
import proofs.«203024_g60129542144782_cont_9to1_m_748_22_alg».proof.Defs
import proofs.«203024_g60129542144782_cont_9to1_m_748_22_alg».proof.Proof.Gen.Kernel
import proofs.«203024_g60129542144782_cont_9to1_m_748_22_alg».proof.Proof.Gen.Kernel.Skeleton
import proofs.«203024_g60129542144782_cont_9to1_m_748_22_alg».proof.Proof.Gen.Kernel.Launch
import proofs.«203024_g60129542144782_cont_9to1_m_748_22_alg».proof.Proof.Gen.Kernel.Points
import proofs.«203024_g60129542144782_cont_9to1_m_748_22_alg».proof.Proof.Gen.KernelIdeal
import proofs.«203024_g60129542144782_cont_9to1_m_748_22_alg».proof.Proof.Gen.KernelIdeal.Skeleton
import proofs.«203024_g60129542144782_cont_9to1_m_748_22_alg».proof.Proof.Gen.KernelIdeal.Launch
import proofs.«203024_g60129542144782_cont_9to1_m_748_22_alg».proof.Proof.Gen.KernelIdeal.Points
import proofs.«203024_g60129542144782_cont_9to1_m_748_22_alg».proof.Proof.Gen.ReferenceIdeal
import proofs.«203024_g60129542144782_cont_9to1_m_748_22_alg».proof.Proof.Gen.ReferenceIdeal.Run
import proofs.«203024_g60129542144782_cont_9to1_m_748_22_alg».proof.Proof.Gen.ReferenceIdeal.Read
import proofs.«203024_g60129542144782_cont_9to1_m_748_22_alg».proof.Proof.Gen.Pre_input_domain
import proofs.«203024_g60129542144782_cont_9to1_m_748_22_alg».proof.Proof.Bits.FramePre
import proofs.«203024_g60129542144782_cont_9to1_m_748_22_alg».proof.Proof.FramePre
import proofs.«203024_g60129542144782_cont_9to1_m_748_22_alg».proof.Proof.RefValue
import proofs.«203024_g60129542144782_cont_9to1_m_748_22_alg».proof.Proof.Algebraic
import proofs.«203024_g60129542144782_cont_9to1_m_748_22_alg».proof.Proof.TileOblVal
import proofs.«203024_g60129542144782_cont_9to1_m_748_22_alg».proof.Proof.ChunkValUse
import Idealize.ShloMosaic.Adequacy
import Idealize.ShloMosaic.Init

noncomputable section

namespace Cert.Proof

open Idealize.ShloMosaic Idealize.SL.Sem

/-- Everything the certificate claims, from what one tile task of the lookup call leaves in its entries of the call's
    result (the specification's values, under the precondition): the three frames, the idealization (the program's own
    text read at extended reals: nothing to show), and the equality of the two programs' results. -/
theorem claim_of_tile
    (hTileVal : ∀ (m : (ℓ : Loc Cert.KernelIdeal.nD Cert.KernelIdeal.τ Cert.KernelIdeal.sig) → Buf (Elt Ideal) ℓ),
      Cert.Pre_KernelIdeal m →
        (Cert.Proof.KI.K (F := Ideal)).TileObl (Cert.Proof.KI.D (F := Ideal)) Cert.Proof.KI.𝒱
          (Cert.Proof.KI.P m (Cert.Proof.KI.PhiG m)) Cert.Proof.KI.v₀ 0) :
    Cert.Claim :=
  ⟨Cert.Kernel.Gen.facts, Cert.KernelIdeal.Gen.facts, Cert.ReferenceIdeal.Gen.facts, Cert.Pre_input_domain.Gen.facts,
    Cert.Proof.KB.frame_prog, Cert.Proof.KI.frame_prog, Cert.RefValue.frame_ri, trivial,
    Cert.Proof.KI.algebraic_of_tile hTileVal⟩

/-- The same from what ONE micro-batch of a tile task does: with the index rows those of a zero-or-one matrix and the
    tile's table scratch holding the grouped table, it leaves the specification's values in its window of the result. -/
theorem claim_of_chunk
    (hChunk : ∀ (m : (ℓ : Loc Cert.KernelIdeal.nD Cert.KernelIdeal.τ Cert.KernelIdeal.sig) → Buf (Elt Ideal) ℓ),
      Cert.Pre_KernelIdeal m → Cert.Proof.KI.ChunkVal m) :
    Cert.Claim :=
  claim_of_tile fun m hpre =>
    Cert.Proof.KI.tileObl_val m (hChunk m hpre) Cert.Proof.KI.facts fun d => Cert.PreFacts.bin_of_pre _ _ (hpre d)

theorem claim : Cert.Claim := claim_of_chunk fun m _ => Cert.Proof.KI.chunkVal_holds m

end Cert.Proof

end
